-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x512x512x8 : Shape := ⟨4, ![1, 512, 512, 8]⟩
abbrev S2x8192 : Shape := ⟨2, ![2, 8192]⟩
abbrev S8x16 : Shape := ⟨2, ![8, 16]⟩
abbrev S16 : Shape := ⟨1, ![16]⟩
abbrev S16x16 : Shape := ⟨2, ![16, 16]⟩
abbrev S_ : Shape := ⟨0, ![]⟩

class Facts : Prop where
  bcast_S_S1x512x512x8 : S_.BroadcastsInDim S1x512x512x8 (![] : Fin 0 → Fin S1x512x512x8.rank)
  reducesTo_S1x512x512x8_S_d0_1_2_3 : S1x512x512x8.ReducesTo [0, 1, 2, 3] S_
  h_S_ : 0 < S_.numel
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  reducesTo_S_S_d : S_.ReducesTo [] S_
  bcast_S_S2x8192 : S_.BroadcastsInDim S2x8192 (![] : Fin 0 → Fin S2x8192.rank)
  reducesTo_S2x8192_S_d0_1 : S2x8192.ReducesTo [0, 1] S_

variable [Facts]

def fn_part3 {F : FTy → Type} [FloatOps F] (main_arg1 : IVec S2x8192 32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_c_20 : IVec S_ 32 := constantI S_ 32 0#32
  let main_v52 : IVec S2x8192 32 := broadcastInDim S2x8192 ![] bcast_S_S2x8192 main_c_20
  let main_v53 : IVec S2x8192 1 := cmpi .sge main_arg1 main_v52
  let main_c_21 : IVec S_ 32 := constantI S_ 32 511#32
  let main_v54 : IVec S2x8192 32 := broadcastInDim S2x8192 ![] bcast_S_S2x8192 main_c_21
  let main_v55 : IVec S2x8192 1 := cmpi .sle main_arg1 main_v54
  let main_v56 : IVec S2x8192 1 := andi main_v53 main_v55
  let main_c_22 : IVec S_ 1 := constantI S_ 1 1#1
  let main_v57 : IVec S_ 1 := (fun x v => Host.reduce IntOp.andi x v reducesTo_S2x8192_S_d0_1 h_S_) main_v56 main_c_22
  let main_v58 : IVec S_ 1 := andi main_v51 main_v57
  main_v58

def fn_part2 {F : FTy → Type} [FloatOps F] (main_arg1 : IVec S2x8192 32) (main_arg9 : FVec F S16x16 .f32) (main_arg10 : FVec F S16 .f32) (main_arg11 : FVec F S_ .f32) (main_v32 : IVec S_ 1) (main_v33 : FVec F S16 .f32) : IVec S_ 1 :=
  let main_cst_12 : FVec F S_ .f32 := constant S_ .f32 0x7F800000#32
  let main_v34 : FVec F S16 .f32 := broadcastInDim S16 ![] bcast_S_S16 main_cst_12
  let main_v35 : IVec S16 1 := cmpf .olt main_v33 main_v34
  let main_c_13 : IVec S_ 1 := constantI S_ 1 1#1
  let main_v36 : IVec S_ 1 := (fun x v => Host.reduce IntOp.andi x v reducesTo_S16_S_d0 h_S_) main_v35 main_c_13
  let main_v37 : IVec S_ 1 := andi main_v32 main_v36
  let main_v38 : FVec F S16x16 .f32 := Host.absf main_arg9
  let main_cst_14 : FVec F S_ .f32 := constant S_ .f32 0x7F800000#32
  let main_v39 : FVec F S16x16 .f32 := broadcastInDim S16x16 ![] bcast_S_S16x16 main_cst_14
  let main_v40 : IVec S16x16 1 := cmpf .olt main_v38 main_v39
  let main_c_15 : IVec S_ 1 := constantI S_ 1 1#1
  let main_v41 : IVec S_ 1 := (fun x v => Host.reduce IntOp.andi x v reducesTo_S16x16_S_d0_1 h_S_) main_v40 main_c_15
  let main_v42 : IVec S_ 1 := andi main_v37 main_v41
  let main_v43 : FVec F S16 .f32 := Host.absf main_arg10
  let main_cst_16 : FVec F S_ .f32 := constant S_ .f32 0x7F800000#32
  let main_v44 : FVec F S16 .f32 := broadcastInDim S16 ![] bcast_S_S16 main_cst_16
  let main_v45 : IVec S16 1 := cmpf .olt main_v43 main_v44
  let main_c_17 : IVec S_ 1 := constantI S_ 1 1#1
  let main_v46 : IVec S_ 1 := (fun x v => Host.reduce IntOp.andi x v reducesTo_S16_S_d0 h_S_) main_v45 main_c_17
  let main_v47 : IVec S_ 1 := andi main_v42 main_v46
  let main_v48 : FVec F S_ .f32 := Host.absf main_arg11
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg1 main_v47 main_v49 main_c_19

def fn_part1 {F : FTy → Type} [FloatOps F] (main_arg1 : IVec S2x8192 32) (main_arg5 : FVec F S16 .f32) (main_arg6 : FVec F S_ .f32) (main_arg7 : FVec F S16x16 .f32) (main_arg8 : FVec F S16 .f32) (main_arg9 : FVec F S16x16 .f32) (main_arg10 : FVec F S16 .f32) (main_arg11 : FVec F S_ .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S16x16 .f32 := Host.absf main_arg7
  let main_cst_10 : FVec F S_ .f32 := constant S_ .f32 0x7F800000#32
  let main_v29 : FVec F S16x16 .f32 := broadcastInDim S16x16 ![] bcast_S_S16x16 main_cst_10
  let main_v30 : IVec S16x16 1 := cmpf .olt main_v28 main_v29
  let main_c_11 : IVec S_ 1 := constantI S_ 1 1#1
  let main_v31 : IVec S_ 1 := (fun x v => Host.reduce IntOp.andi x v reducesTo_S16x16_S_d0_1 h_S_) main_v30 main_c_11
  let main_v32 : IVec S_ 1 := andi main_v27 main_v31
  let main_v33 : FVec F S16 .f32 := Host.absf main_arg8
  fn_part2 (F := F) main_arg1 main_arg9 main_arg10 main_arg11 main_v32 main_v33

def fn {F : FTy → Type} [FloatOps F] (main_arg0 : FVec F S1x512x512x8 .f32) (main_arg1 : IVec S2x8192 32) (main_arg2 : FVec F S8x16 .f32) (main_arg3 : FVec F S16 .f32) (main_arg4 : FVec F S16x16 .f32) (main_arg5 : FVec F S16 .f32) (main_arg6 : FVec F S_ .f32) (main_arg7 : FVec F S16x16 .f32) (main_arg8 : FVec F S16 .f32) (main_arg9 : FVec F S16x16 .f32) (main_arg10 : FVec F S16 .f32) (main_arg11 : FVec F S_ .f32) : IVec S_ 1 :=
  let main_v0 : FVec F S1x512x512x8 .f32 := Host.absf main_arg0
  let main_cst : FVec F S_ .f32 := constant S_ .f32 0x7F800000#32
  let main_v1 : FVec F S1x512x512x8 .f32 := broadcastInDim S1x512x512x8 ![] bcast_S_S1x512x512x8 main_cst
  let main_v2 : IVec S1x512x512x8 1 := cmpf .olt main_v0 main_v1
  let main_c : IVec S_ 1 := constantI S_ 1 1#1
  let main_v3 : IVec S_ 1 := (fun x v => Host.reduce IntOp.andi x v reducesTo_S1x512x512x8_S_d0_1_2_3 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg1 main_arg5 main_arg6 main_arg7 main_arg8 main_arg9 main_arg10 main_arg11 main_v13 main_v16
-- ==== Kernel.lean ====
abbrev S1x512x512x8 : Shape := ⟨4, ![1, 512, 512, 8]⟩
abbrev S2x8192 : Shape := ⟨2, ![2, 8192]⟩
abbrev S8x16 : Shape := ⟨2, ![8, 16]⟩
abbrev S16 : Shape := ⟨1, ![16]⟩
abbrev S16x16 : Shape := ⟨2, ![16, 16]⟩
abbrev S_ : Shape := ⟨0, ![]⟩
abbrev S512x512x8 : Shape := ⟨3, ![512, 512, 8]⟩
abbrev S8x512x512 : Shape := ⟨3, ![8, 512, 512]⟩
abbrev S262144 : Shape := ⟨1, ![262144]⟩
abbrev S8192 : Shape := ⟨1, ![8192]⟩
abbrev S8208 : Shape := ⟨1, ![8208]⟩
abbrev S1x8192 : Shape := ⟨2, ![1, 8192]⟩
abbrev S512x512 : Shape := ⟨2, ![512, 512]⟩
abbrev S1x1 : Shape := ⟨2, ![1, 1]⟩
abbrev S1x16 : Shape := ⟨2, ![1, 16]⟩
abbrev S512x16 : Shape := ⟨2, ![512, 16]⟩
abbrev S8x512x256 : Shape := ⟨3, ![8, 512, 256]⟩
abbrev S1x512x256 : Shape := ⟨3, ![1, 512, 256]⟩
abbrev S512x256 : Shape := ⟨2, ![512, 256]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩

abbrev nBuf : Table → Nat
  | .hbm => 24
  | .local .tc .vmem => 6
  | .local .tc .smem => 8
  | .local .scVector .vmem => 3
  | _ => 0

abbrev bufTy : (tb : Table) → Fin (nBuf tb) → BufTy
  | .hbm, ⟨0, _⟩ => ⟨S1x512x512x8, .f32⟩
  | .hbm, ⟨1, _⟩ => ⟨S2x8192, .i32⟩
  | .hbm, ⟨2, _⟩ => ⟨S8x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S_, .f32⟩
  | .hbm, ⟨12, _⟩ => ⟨S512x512x8, .f32⟩
  | .hbm, ⟨13, _⟩ => ⟨S512x512x8, .bf16⟩
  | .hbm, ⟨14, _⟩ => ⟨S8x512x512, .bf16⟩
  | .hbm, ⟨15, _⟩ => ⟨S262144, .f32⟩
  | .hbm, ⟨16, _⟩ => ⟨S512x512, .f32⟩
  | .hbm, ⟨17, _⟩ => ⟨S1x1, .f32⟩
  | .hbm, ⟨18, _⟩ => ⟨S1x1, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S512x16, .f32⟩
  | .local .tc .vmem, ⟨0, _⟩ => ⟨S512x512, .f32⟩
  | .local .tc .vmem, ⟨1, _⟩ => ⟨S8x512x256, .bf16⟩
  | .local .tc .vmem, ⟨2, _⟩ => ⟨S8x512x256, .bf16⟩
  | .local .tc .vmem, ⟨3, _⟩ => ⟨S16x16, .f32⟩
  | .local .tc .vmem, ⟨4, _⟩ => ⟨S1x16, .f32⟩
  | .local .tc .vmem, ⟨5, _⟩ => ⟨S512x16, .f32⟩
  | .local .tc .smem, ⟨0, _⟩ => ⟨S1x1, .f32⟩
  | .local .tc .smem, ⟨1, _⟩ => ⟨S1x1, .f32⟩
  | .local .tc .smem, ⟨2, _⟩ => ⟨S8x16, .f32⟩
  | .local .tc .smem, ⟨3, _⟩ => ⟨S16x16, .f32⟩
  | .local .tc .smem, ⟨4, _⟩ => ⟨S16x16, .f32⟩
  | .local .tc .smem, ⟨5, _⟩ => ⟨S1x16, .f32⟩
  | .local .tc .smem, ⟨6, _⟩ => ⟨S1x16, .f32⟩
  | .local .tc .smem, ⟨7, _⟩ => ⟨S1x16, .f32⟩
  | .local .scVector .vmem, ⟨0, _⟩ => ⟨S8192, .i32⟩
  | .local .scVector .vmem, ⟨1, _⟩ => ⟨S8192, .i32⟩
  | .local .scVector .vmem, ⟨2, _⟩ => ⟨S8208, .f32⟩
  | _, _ => ⟨S1x512x512x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_arg1_scv : Ref sig .scVector := ⟨.hbm, 1, rfl⟩
abbrev main_v3_scv : Ref sig .scVector := ⟨.hbm, 15, rfl⟩
abbrev cc1_stg8_0 : Ref sig .tc := ⟨.vmem, 0, rfl⟩
abbrev cc1_stg9_0 : Ref sig .tc := ⟨.vmem, 1, rfl⟩
abbrev cc1_stg9_1 : Ref sig .tc := ⟨.vmem, 2, rfl⟩
abbrev cc1_stg10_0 : Ref sig .tc := ⟨.vmem, 3, rfl⟩
abbrev cc1_stg11_0 : Ref sig .tc := ⟨.vmem, 4, rfl⟩
abbrev cc1_stg12_0 : Ref sig .tc := ⟨.vmem, 5, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc1_stg5_0 : Ref sig .tc := ⟨.smem, 5, rfl⟩
abbrev cc1_stg6_0 : Ref sig .tc := ⟨.smem, 6, rfl⟩
abbrev cc1_stg7_0 : Ref sig .tc := ⟨.smem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem9_1 : DmaSem sig := 13
abbrev cc1_sem10_0 : DmaSem sig := 14
abbrev cc1_sem11_0 : DmaSem sig := 15
abbrev cc1_sem12_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_off1 (k0_t1 : Fin k0_t1_loop.trips) (c0_i32_11 : BitVec 32) : Fin 1 → Nat :=
  let c0_i32_2 : BitVec 32 := 0#32
  let c1_i32 : BitVec 32 := 1#32
  let arg7 : BitVec 32 := Scf.iv c0_i32_2 c1_i32 k0_t1
  let c8_i32 : BitVec 32 := 8#32
  let v10 : BitVec 32 := Scalar.muli arg7 c8_i32
  let v11 : BitVec 32 := Scalar.addi v10 c0_i32_11
  let c16_i32_12 : BitVec 32 := 16#32
  let v12 : BitVec 32 := Scalar.muli v11 c16_i32_12
  let v13 : Index := Scalar.indexCast v12
  ![v13.toNat]
@[reducible] def k0_t2_loop : Scf.Loop 32 :=
  let c0_i32_7 : BitVec 32 := 0#32
  let c64_i32_8 : BitVec 32 := 64#32
  let v7 : BitVec 32 := Scalar.addi c0_i32_7 c64_i32_8
  let c1_i32_9 : BitVec 32 := 1#32
  ⟨c0_i32_7, v7, c1_i32_9⟩
def k0_off2 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32 : BitVec 32 := 8#32
  let v10 : BitVec 32 := Scalar.muli arg7 c8_i32
  let c0_i32_11 : BitVec 32 := 0#32
  let v11 : BitVec 32 := Scalar.addi v10 c0_i32_11
  let c16_i32_12 : BitVec 32 := 16#32
  let v12 : BitVec 32 := Scalar.muli v11 c16_i32_12
  let v13 : Index := Scalar.indexCast v12
  ![v13.toNat]

def k0_chk1 (v29 : IVec S16 32) : Prop :=
  (∀ a x, ((![v29] : Fin 1 → IVec S16 32) a x).toNat < S8208.size a)
instance k0_chk1.dec : ∀ (v29 : IVec S16 32), Decidable (k0_chk1 v29) := fun v29 => decidable_of_iff' _ (Iff.of_eq (k0_chk1.eq_1 v29))
theorem k0_idx1_inb : ∀ (v29 : IVec S16 32) (k0_hw1 : k0_chk1 v29), ∀ a x, ((![v29] : Fin 1 → IVec S16 32) a x).toNat < S8208.size a := fun v29 k0_hw1 => k0_hw1
def k0_off3 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_15 : BitVec 32 := 8#32
  let v30 : BitVec 32 := Scalar.muli arg7 c8_i32_15
  let c1_i32_16 : BitVec 32 := 1#32
  let v31 : BitVec 32 := Scalar.addi v30 c1_i32_16
  let c16_i32_17 : BitVec 32 := 16#32
  let v32 : BitVec 32 := Scalar.muli v31 c16_i32_17
  let v33 : Index := Scalar.indexCast v32
  ![v33.toNat]

def k0_chk2 (v49 : IVec S16 32) : Prop :=
  (∀ a x, ((![v49] : Fin 1 → IVec S16 32) a x).toNat < S8208.size a)
instance k0_chk2.dec : ∀ (v49 : IVec S16 32), Decidable (k0_chk2 v49) := fun v49 => decidable_of_iff' _ (Iff.of_eq (k0_chk2.eq_1 v49))
theorem k0_idx2_inb : ∀ (v49 : IVec S16 32) (k0_hw2 : k0_chk2 v49), ∀ a x, ((![v49] : Fin 1 → IVec S16 32) a x).toNat < S8208.size a := fun v49 k0_hw2 => k0_hw2
def k0_off4 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_21 : BitVec 32 := 8#32
  let v50 : BitVec 32 := Scalar.muli arg7 c8_i32_21
  let c2_i32 : BitVec 32 := 2#32
  let v51 : BitVec 32 := Scalar.addi v50 c2_i32
  let c16_i32_22 : BitVec 32 := 16#32
  let v52 : BitVec 32 := Scalar.muli v51 c16_i32_22
  let v53 : Index := Scalar.indexCast v52
  ![v53.toNat]

def k0_chk3 (v69 : IVec S16 32) : Prop :=
  (∀ a x, ((![v69] : Fin 1 → IVec S16 32) a x).toNat < S8208.size a)
instance k0_chk3.dec : ∀ (v69 : IVec S16 32), Decidable (k0_chk3 v69) := fun v69 => decidable_of_iff' _ (Iff.of_eq (k0_chk3.eq_1 v69))
theorem k0_idx3_inb : ∀ (v69 : IVec S16 32) (k0_hw3 : k0_chk3 v69), ∀ a x, ((![v69] : Fin 1 → IVec S16 32) a x).toNat < S8208.size a := fun v69 k0_hw3 => k0_hw3
def k0_off5 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_26 : BitVec 32 := 8#32
  let v70 : BitVec 32 := Scalar.muli arg7 c8_i32_26
  let c3_i32 : BitVec 32 := 3#32
  let v71 : BitVec 32 := Scalar.addi v70 c3_i32
  let c16_i32_27 : BitVec 32 := 16#32
  let v72 : BitVec 32 := Scalar.muli v71 c16_i32_27
  let v73 : Index := Scalar.indexCast v72
  ![v73.toNat]

def k0_chk4 (v89 : IVec S16 32) : Prop :=
  (∀ a x, ((![v89] : Fin 1 → IVec S16 32) a x).toNat < S8208.size a)
instance k0_chk4.dec : ∀ (v89 : IVec S16 32), Decidable (k0_chk4 v89) := fun v89 => decidable_of_iff' _ (Iff.of_eq (k0_chk4.eq_1 v89))
theorem k0_idx4_inb : ∀ (v89 : IVec S16 32) (k0_hw4 : k0_chk4 v89), ∀ a x, ((![v89] : Fin 1 → IVec S16 32) a x).toNat < S8208.size a := fun v89 k0_hw4 => k0_hw4
def k0_off6 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_31 : BitVec 32 := 8#32
  let v90 : BitVec 32 := Scalar.muli arg7 c8_i32_31
  let c4_i32 : BitVec 32 := 4#32
  let v91 : BitVec 32 := Scalar.addi v90 c4_i32
  let c16_i32_32 : BitVec 32 := 16#32
  let v92 : BitVec 32 := Scalar.muli v91 c16_i32_32
  let v93 : Index := Scalar.indexCast v92
  ![v93.toNat]

def k0_chk5 (v109 : IVec S16 32) : Prop :=
  (∀ a x, ((![v109] : Fin 1 → IVec S16 32) a x).toNat < S8208.size a)
instance k0_chk5.dec : ∀ (v109 : IVec S16 32), Decidable (k0_chk5 v109) := fun v109 => decidable_of_iff' _ (Iff.of_eq (k0_chk5.eq_1 v109))
theorem k0_idx5_inb : ∀ (v109 : IVec S16 32) (k0_hw5 : k0_chk5 v109), ∀ a x, ((![v109] : Fin 1 → IVec S16 32) a x).toNat < S8208.size a := fun v109 k0_hw5 => k0_hw5
def k0_off7 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_36 : BitVec 32 := 8#32
  let v110 : BitVec 32 := Scalar.muli arg7 c8_i32_36
  let c5_i32 : BitVec 32 := 5#32
  let v111 : BitVec 32 := Scalar.addi v110 c5_i32
  let c16_i32_37 : BitVec 32 := 16#32
  let v112 : BitVec 32 := Scalar.muli v111 c16_i32_37
  let v113 : Index := Scalar.indexCast v112
  ![v113.toNat]

def k0_chk6 (v129 : IVec S16 32) : Prop :=
  (∀ a x, ((![v129] : Fin 1 → IVec S16 32) a x).toNat < S8208.size a)
instance k0_chk6.dec : ∀ (v129 : IVec S16 32), Decidable (k0_chk6 v129) := fun v129 => decidable_of_iff' _ (Iff.of_eq (k0_chk6.eq_1 v129))
theorem k0_idx6_inb : ∀ (v129 : IVec S16 32) (k0_hw6 : k0_chk6 v129), ∀ a x, ((![v129] : Fin 1 → IVec S16 32) a x).toNat < S8208.size a := fun v129 k0_hw6 => k0_hw6
def k0_off8 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_41 : BitVec 32 := 8#32
  let v130 : BitVec 32 := Scalar.muli arg7 c8_i32_41
  let c6_i32 : BitVec 32 := 6#32
  let v131 : BitVec 32 := Scalar.addi v130 c6_i32
  let c16_i32_42 : BitVec 32 := 16#32
  let v132 : BitVec 32 := Scalar.muli v131 c16_i32_42
  let v133 : Index := Scalar.indexCast v132
  ![v133.toNat]

def k0_chk7 (v149 : IVec S16 32) : Prop :=
  (∀ a x, ((![v149] : Fin 1 → IVec S16 32) a x).toNat < S8208.size a)
instance k0_chk7.dec : ∀ (v149 : IVec S16 32), Decidable (k0_chk7 v149) := fun v149 => decidable_of_iff' _ (Iff.of_eq (k0_chk7.eq_1 v149))
theorem k0_idx7_inb : ∀ (v149 : IVec S16 32) (k0_hw7 : k0_chk7 v149), ∀ a x, ((![v149] : Fin 1 → IVec S16 32) a x).toNat < S8208.size a := fun v149 k0_hw7 => k0_hw7
def k0_off9 (k0_t2 : Fin k0_t2_loop.trips) : Fin 1 → Nat :=
  let c0_i32_7 : BitVec 32 := 0#32
  let c1_i32_9 : BitVec 32 := 1#32
  let arg7 : BitVec 32 := Scf.iv c0_i32_7 c1_i32_9 k0_t2
  let c8_i32_46 : BitVec 32 := 8#32
  let v150 : BitVec 32 := Scalar.muli arg7 c8_i32_46
  let c7_i32 : BitVec 32 := 7#32
  let v151 : BitVec 32 := Scalar.addi v150 c7_i32
  let c16_i32_47 : BitVec 32 := 16#32
  let v152 : BitVec 32 := Scalar.muli v151 c16_i32_47
  let v153 : Index := Scalar.indexCast v152
  ![v153.toNat]

def k0_chk8 (v169 : IVec S16 32) : Prop :=
  (∀ a x, ((![v169] : Fin 1 → IVec S16 32) a x).toNat < S8208.size a)
instance k0_chk8.dec : ∀ (v169 : IVec S16 32), Decidable (k0_chk8 v169) := fun v169 => decidable_of_iff' _ (Iff.of_eq (k0_chk8.eq_1 v169))
theorem k0_idx8_inb : ∀ (v169 : IVec S16 32) (k0_hw8 : k0_chk8 v169), ∀ a x, ((![v169] : Fin 1 → IVec S16 32) a x).toNat < S8208.size a := fun v169 k0_hw8 => k0_hw8
def k0_off10 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8192_i32 : BitVec 32 := 8192#32
  let v9 : BitVec 32 := Scalar.muli v1 c8192_i32
  ![v9.toNat]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8x512x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S16x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x512x512x8_S512x512x8 : S1x512x512x8.ShapeCasts S512x512x8
  bitsLt_bf16_f32 : FTy.bits .bf16 < FTy.bits .f32
  transposes_S512x512x8_S8x512x512_2_0_1 : S512x512x8.Transposes [2, 0, 1] S8x512x512
  h_S16 : 0 < S16.numel
  inb_S2x8192_S1x8192_0_0 : ∀ a, (![0, 0] : Fin 2 → Nat) a + S1x8192.size a ≤ S2x8192.size a
  squeezes_S1x8192_S8192 : S1x8192.Squeezes S8192
  inb_S2x8192_S1x8192_1_0 : ∀ a, (![1, 0] : Fin 2 → Nat) a + S1x8192.size a ≤ S2x8192.size a
  h_S8208 : 0 < S8208.numel
  inb_S8208_S8192_0 : ∀ a, (![0] : Fin 1 → Nat) a + S8192.size a ≤ S8208.size a
  shapeCasts_S262144_S512x512 : S262144.ShapeCasts S512x512
  shapeCasts_S_S1x1 : S_.ShapeCasts S1x1
  shapeCasts_S16_S1x16 : S16.ShapeCasts S1x16
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1_S1x1_0_0 : ∀ a, (![0, 0] : Fin 2 → Nat) a + S1x1.size a ≤ S1x1.size a
  numel1_S1x1 : S1x1.numel = 1
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  concatenates_S512x256_S512x256_S512x256_S512x256_S512x256_S512x256_S512x256_S512x256_S512x2048_d1 : Shape.Concatenates [S512x256, S512x256, S512x256, S512x256, S512x256, S512x256, S512x256, S512x256] S512x2048 1
  slices_S512x2048_o0_0_S512x256 : S512x2048.Slices ![0, 0] S512x256
  slices_S512x2048_o0_256_S512x256 : S512x2048.Slices ![0, 256] S512x256
  slices_S512x2048_o0_512_S512x256 : S512x2048.Slices ![0, 512] S512x256
  slices_S512x2048_o0_768_S512x256 : S512x2048.Slices ![0, 768] S512x256
  slices_S512x2048_o0_1024_S512x256 : S512x2048.Slices ![0, 1024] S512x256
  slices_S512x2048_o0_1280_S512x256 : S512x2048.Slices ![0, 1280] S512x256
  slices_S512x2048_o0_1536_S512x256 : S512x2048.Slices ![0, 1536] S512x256
  slices_S512x2048_o0_1792_S512x256 : S512x2048.Slices ![0, 1792] S512x256
  inb_S8x16_S1x1_0_0 : ∀ a, (![0, 0] : Fin 2 → Nat) a + S1x1.size a ≤ S8x16.size a
  inb_S8x16_S1x1_1_0 : ∀ a, (![1, 0] : Fin 2 → Nat) a + S1x1.size a ≤ S8x16.size a
  inb_S8x16_S1x1_2_0 : ∀ a, (![2, 0] : Fin 2 → Nat) a + S1x1.size a ≤ S8x16.size a
  inb_S8x16_S1x1_3_0 : ∀ a, (![3, 0] : Fin 2 → Nat) a + S1x1.size a ≤ S8x16.size a
  inb_S8x16_S1x1_4_0 : ∀ a, (![4, 0] : Fin 2 → Nat) a + S1x1.size a ≤ S8x16.size a
  inb_S8x16_S1x1_5_0 : ∀ a, (![5, 0] : Fin 2 → Nat) a + S1x1.size a ≤ S8x16.size a
  inb_S8x16_S1x1_6_0 : ∀ a, (![6, 0] : Fin 2 → Nat) a + S1x1.size a ≤ S8x16.size a
  inb_S8x16_S1x1_7_0 : ∀ a, (![7, 0] : Fin 2 → Nat) a + S1x1.size a ≤ S8x16.size a
  inb_S1x16_S1x1_0_0 : ∀ a, (![0, 0] : Fin 2 → Nat) a + S1x1.size a ≤ S1x16.size a
  inb_S8x16_S1x1_0_1 : ∀ a, (![0, 1] : Fin 2 → Nat) a + S1x1.size a ≤ S8x16.size a
  inb_S8x16_S1x1_1_1 : ∀ a, (![1, 1] : Fin 2 → Nat) a + S1x1.size a ≤ S8x16.size a
  inb_S8x16_S1x1_2_1 : ∀ a, (![2, 1] : Fin 2 → Nat) a + S1x1.size a ≤ S8x16.size a
  inb_S8x16_S1x1_3_1 : ∀ a, (![3, 1] : Fin 2 → Nat) a + S1x1.size a ≤ S8x16.size a
  inb_S8x16_S1x1_4_1 : ∀ a, (![4, 1] : Fin 2 → Nat) a + S1x1.size a ≤ S8x16.size a
  inb_S8x16_S1x1_5_1 : ∀ a, (![5, 1] : Fin 2 → Nat) a + S1x1.size a ≤ S8x16.size a
  inb_S8x16_S1x1_6_1 : ∀ a, (![6, 1] : Fin 2 → Nat) a + S1x1.size a ≤ S8x16.size a
  inb_S8x16_S1x1_7_1 : ∀ a, (![7, 1] : Fin 2 → Nat) a + S1x1.size a ≤ S8x16.size a
  inb_S1x16_S1x1_0_1 : ∀ a, (![0, 1] : Fin 2 → Nat) a + S1x1.size a ≤ S1x16.size a
  inb_S8x16_S1x1_0_2 : ∀ a, (![0, 2] : Fin 2 → Nat) a + S1x1.size a ≤ S8x16.size a
  inb_S8x16_S1x1_1_2 : ∀ a, (![1, 2] : Fin 2 → Nat) a + S1x1.size a ≤ S8x16.size a
  inb_S8x16_S1x1_2_2 : ∀ a, (![2, 2] : Fin 2 → Nat) a + S1x1.size a ≤ S8x16.size a
  inb_S8x16_S1x1_3_2 : ∀ a, (![3, 2] : Fin 2 → Nat) a + S1x1.size a ≤ S8x16.size a
  inb_S8x16_S1x1_4_2 : ∀ a, (![4, 2] : Fin 2 → Nat) a + S1x1.size a ≤ S8x16.size a
  inb_S8x16_S1x1_5_2 : ∀ a, (![5, 2] : Fin 2 → Nat) a + S1x1.size a ≤ S8x16.size a
  inb_S8x16_S1x1_6_2 : ∀ a, (![6, 2] : Fin 2 → Nat) a + S1x1.size a ≤ S8x16.size a
  inb_S8x16_S1x1_7_2 : ∀ a, (![7, 2] : Fin 2 → Nat) a + S1x1.size a ≤ S8x16.size a
  inb_S1x16_S1x1_0_2 : ∀ a, (![0, 2] : Fin 2 → Nat) a + S1x1.size a ≤ S1x16.size a
  inb_S8x16_S1x1_0_3 : ∀ a, (![0, 3] : Fin 2 → Nat) a + S1x1.size a ≤ S8x16.size a
  inb_S8x16_S1x1_1_3 : ∀ a, (![1, 3] : Fin 2 → Nat) a + S1x1.size a ≤ S8x16.size a
  inb_S8x16_S1x1_2_3 : ∀ a, (![2, 3] : Fin 2 → Nat) a + S1x1.size a ≤ S8x16.size a
  inb_S8x16_S1x1_3_3 : ∀ a, (![3, 3] : Fin 2 → Nat) a + S1x1.size a ≤ S8x16.size a
  inb_S8x16_S1x1_4_3 : ∀ a, (![4, 3] : Fin 2 → Nat) a + S1x1.size a ≤ S8x16.size a
  inb_S8x16_S1x1_5_3 : ∀ a, (![5, 3] : Fin 2 → Nat) a + S1x1.size a ≤ S8x16.size a
  inb_S8x16_S1x1_6_3 : ∀ a, (![6, 3] : Fin 2 → Nat) a + S1x1.size a ≤ S8x16.size a
  inb_S8x16_S1x1_7_3 : ∀ a, (![7, 3] : Fin 2 → Nat) a + S1x1.size a ≤ S8x16.size a
  inb_S1x16_S1x1_0_3 : ∀ a, (![0, 3] : Fin 2 → Nat) a + S1x1.size a ≤ S1x16.size a
  inb_S8x16_S1x1_0_4 : ∀ a, (![0, 4] : Fin 2 → Nat) a + S1x1.size a ≤ S8x16.size a
  inb_S8x16_S1x1_1_4 : ∀ a, (![1, 4] : Fin 2 → Nat) a + S1x1.size a ≤ S8x16.size a
  inb_S8x16_S1x1_2_4 : ∀ a, (![2, 4] : Fin 2 → Nat) a + S1x1.size a ≤ S8x16.size a
  inb_S8x16_S1x1_3_4 : ∀ a, (![3, 4] : Fin 2 → Nat) a + S1x1.size a ≤ S8x16.size a
  inb_S8x16_S1x1_4_4 : ∀ a, (![4, 4] : Fin 2 → Nat) a + S1x1.size a ≤ S8x16.size a
  inb_S8x16_S1x1_5_4 : ∀ a, (![5, 4] : Fin 2 → Nat) a + S1x1.size a ≤ S8x16.size a
  inb_S8x16_S1x1_6_4 : ∀ a, (![6, 4] : Fin 2 → Nat) a + S1x1.size a ≤ S8x16.size a
  inb_S8x16_S1x1_7_4 : ∀ a, (![7, 4] : Fin 2 → Nat) a + S1x1.size a ≤ S8x16.size a
  inb_S1x16_S1x1_0_4 : ∀ a, (![0, 4] : Fin 2 → Nat) a + S1x1.size a ≤ S1x16.size a
  inb_S8x16_S1x1_0_5 : ∀ a, (![0, 5] : Fin 2 → Nat) a + S1x1.size a ≤ S8x16.size a
  inb_S8x16_S1x1_1_5 : ∀ a, (![1, 5] : Fin 2 → Nat) a + S1x1.size a ≤ S8x16.size a
  inb_S8x16_S1x1_2_5 : ∀ a, (![2, 5] : Fin 2 → Nat) a + S1x1.size a ≤ S8x16.size a
  inb_S8x16_S1x1_3_5 : ∀ a, (![3, 5] : Fin 2 → Nat) a + S1x1.size a ≤ S8x16.size a
  inb_S8x16_S1x1_4_5 : ∀ a, (![4, 5] : Fin 2 → Nat) a + S1x1.size a ≤ S8x16.size a
  inb_S8x16_S1x1_5_5 : ∀ a, (![5, 5] : Fin 2 → Nat) a + S1x1.size a ≤ S8x16.size a
  inb_S8x16_S1x1_6_5 : ∀ a, (![6, 5] : Fin 2 → Nat) a + S1x1.size a ≤ S8x16.size a
  inb_S8x16_S1x1_7_5 : ∀ a, (![7, 5] : Fin 2 → Nat) a + S1x1.size a ≤ S8x16.size a
  inb_S1x16_S1x1_0_5 : ∀ a, (![0, 5] : Fin 2 → Nat) a + S1x1.size a ≤ S1x16.size a
  inb_S8x16_S1x1_0_6 : ∀ a, (![0, 6] : Fin 2 → Nat) a + S1x1.size a ≤ S8x16.size a
  inb_S8x16_S1x1_1_6 : ∀ a, (![1, 6] : Fin 2 → Nat) a + S1x1.size a ≤ S8x16.size a
  inb_S8x16_S1x1_2_6 : ∀ a, (![2, 6] : Fin 2 → Nat) a + S1x1.size a ≤ S8x16.size a
  inb_S8x16_S1x1_3_6 : ∀ a, (![3, 6] : Fin 2 → Nat) a + S1x1.size a ≤ S8x16.size a
  inb_S8x16_S1x1_4_6 : ∀ a, (![4, 6] : Fin 2 → Nat) a + S1x1.size a ≤ S8x16.size a
  inb_S8x16_S1x1_5_6 : ∀ a, (![5, 6] : Fin 2 → Nat) a + S1x1.size a ≤ S8x16.size a
  inb_S8x16_S1x1_6_6 : ∀ a, (![6, 6] : Fin 2 → Nat) a + S1x1.size a ≤ S8x16.size a
  inb_S8x16_S1x1_7_6 : ∀ a, (![7, 6] : Fin 2 → Nat) a + S1x1.size a ≤ S8x16.size a
  inb_S1x16_S1x1_0_6 : ∀ a, (![0, 6] : Fin 2 → Nat) a + S1x1.size a ≤ S1x16.size a
  inb_S8x16_S1x1_0_7 : ∀ a, (![0, 7] : Fin 2 → Nat) a + S1x1.size a ≤ S8x16.size a
  inb_S8x16_S1x1_1_7 : ∀ a, (![1, 7] : Fin 2 → Nat) a + S1x1.size a ≤ S8x16.size a
  inb_S8x16_S1x1_2_7 : ∀ a, (![2, 7] : Fin 2 → Nat) a + S1x1.size a ≤ S8x16.size a
  inb_S8x16_S1x1_3_7 : ∀ a, (![3, 7] : Fin 2 → Nat) a + S1x1.size a ≤ S8x16.size a
  inb_S8x16_S1x1_4_7 : ∀ a, (![4, 7] : Fin 2 → Nat) a + S1x1.size a ≤ S8x16.size a
  inb_S8x16_S1x1_5_7 : ∀ a, (![5, 7] : Fin 2 → Nat) a + S1x1.size a ≤ S8x16.size a
  inb_S8x16_S1x1_6_7 : ∀ a, (![6, 7] : Fin 2 → Nat) a + S1x1.size a ≤ S8x16.size a
  inb_S8x16_S1x1_7_7 : ∀ a, (![7, 7] : Fin 2 → Nat) a + S1x1.size a ≤ S8x16.size a
  inb_S1x16_S1x1_0_7 : ∀ a, (![0, 7] : Fin 2 → Nat) a + S1x1.size a ≤ S1x16.size a
  inb_S8x16_S1x1_0_8 : ∀ a, (![0, 8] : Fin 2 → Nat) a + S1x1.size a ≤ S8x16.size a
  inb_S8x16_S1x1_1_8 : ∀ a, (![1, 8] : Fin 2 → Nat) a + S1x1.size a ≤ S8x16.size a
  inb_S8x16_S1x1_2_8 : ∀ a, (![2, 8] : Fin 2 → Nat) a + S1x1.size a ≤ S8x16.size a
  inb_S8x16_S1x1_3_8 : ∀ a, (![3, 8] : Fin 2 → Nat) a + S1x1.size a ≤ S8x16.size a
  inb_S8x16_S1x1_4_8 : ∀ a, (![4, 8] : Fin 2 → Nat) a + S1x1.size a ≤ S8x16.size a
  inb_S8x16_S1x1_5_8 : ∀ a, (![5, 8] : Fin 2 → Nat) a + S1x1.size a ≤ S8x16.size a
  inb_S8x16_S1x1_6_8 : ∀ a, (![6, 8] : Fin 2 → Nat) a + S1x1.size a ≤ S8x16.size a
  inb_S8x16_S1x1_7_8 : ∀ a, (![7, 8] : Fin 2 → Nat) a + S1x1.size a ≤ S8x16.size a
  inb_S1x16_S1x1_0_8 : ∀ a, (![0, 8] : Fin 2 → Nat) a + S1x1.size a ≤ S1x16.size a
  inb_S8x16_S1x1_0_9 : ∀ a, (![0, 9] : Fin 2 → Nat) a + S1x1.size a ≤ S8x16.size a
  inb_S8x16_S1x1_1_9 : ∀ a, (![1, 9] : Fin 2 → Nat) a + S1x1.size a ≤ S8x16.size a
  inb_S8x16_S1x1_2_9 : ∀ a, (![2, 9] : Fin 2 → Nat) a + S1x1.size a ≤ S8x16.size a
  inb_S8x16_S1x1_3_9 : ∀ a, (![3, 9] : Fin 2 → Nat) a + S1x1.size a ≤ S8x16.size a
  inb_S8x16_S1x1_4_9 : ∀ a, (![4, 9] : Fin 2 → Nat) a + S1x1.size a ≤ S8x16.size a
  inb_S8x16_S1x1_5_9 : ∀ a, (![5, 9] : Fin 2 → Nat) a + S1x1.size a ≤ S8x16.size a
  inb_S8x16_S1x1_6_9 : ∀ a, (![6, 9] : Fin 2 → Nat) a + S1x1.size a ≤ S8x16.size a
  inb_S8x16_S1x1_7_9 : ∀ a, (![7, 9] : Fin 2 → Nat) a + S1x1.size a ≤ S8x16.size a
  inb_S1x16_S1x1_0_9 : ∀ a, (![0, 9] : Fin 2 → Nat) a + S1x1.size a ≤ S1x16.size a
  inb_S8x16_S1x1_0_10 : ∀ a, (![0, 10] : Fin 2 → Nat) a + S1x1.size a ≤ S8x16.size a
  inb_S8x16_S1x1_1_10 : ∀ a, (![1, 10] : Fin 2 → Nat) a + S1x1.size a ≤ S8x16.size a
  inb_S8x16_S1x1_2_10 : ∀ a, (![2, 10] : Fin 2 → Nat) a + S1x1.size a ≤ S8x16.size a
  inb_S8x16_S1x1_3_10 : ∀ a, (![3, 10] : Fin 2 → Nat) a + S1x1.size a ≤ S8x16.size a
  inb_S8x16_S1x1_4_10 : ∀ a, (![4, 10] : Fin 2 → Nat) a + S1x1.size a ≤ S8x16.size a
  inb_S8x16_S1x1_5_10 : ∀ a, (![5, 10] : Fin 2 → Nat) a + S1x1.size a ≤ S8x16.size a
  inb_S8x16_S1x1_6_10 : ∀ a, (![6, 10] : Fin 2 → Nat) a + S1x1.size a ≤ S8x16.size a
  inb_S8x16_S1x1_7_10 : ∀ a, (![7, 10] : Fin 2 → Nat) a + S1x1.size a ≤ S8x16.size a
  inb_S1x16_S1x1_0_10 : ∀ a, (![0, 10] : Fin 2 → Nat) a + S1x1.size a ≤ S1x16.size a
  inb_S8x16_S1x1_0_11 : ∀ a, (![0, 11] : Fin 2 → Nat) a + S1x1.size a ≤ S8x16.size a
  inb_S8x16_S1x1_1_11 : ∀ a, (![1, 11] : Fin 2 → Nat) a + S1x1.size a ≤ S8x16.size a
  inb_S8x16_S1x1_2_11 : ∀ a, (![2, 11] : Fin 2 → Nat) a + S1x1.size a ≤ S8x16.size a
  inb_S8x16_S1x1_3_11 : ∀ a, (![3, 11] : Fin 2 → Nat) a + S1x1.size a ≤ S8x16.size a
  inb_S8x16_S1x1_4_11 : ∀ a, (![4, 11] : Fin 2 → Nat) a + S1x1.size a ≤ S8x16.size a
  inb_S8x16_S1x1_5_11 : ∀ a, (![5, 11] : Fin 2 → Nat) a + S1x1.size a ≤ S8x16.size a
  inb_S8x16_S1x1_6_11 : ∀ a, (![6, 11] : Fin 2 → Nat) a + S1x1.size a ≤ S8x16.size a
  inb_S8x16_S1x1_7_11 : ∀ a, (![7, 11] : Fin 2 → Nat) a + S1x1.size a ≤ S8x16.size a
  inb_S1x16_S1x1_0_11 : ∀ a, (![0, 11] : Fin 2 → Nat) a + S1x1.size a ≤ S1x16.size a
  inb_S8x16_S1x1_0_12 : ∀ a, (![0, 12] : Fin 2 → Nat) a + S1x1.size a ≤ S8x16.size a
  inb_S8x16_S1x1_1_12 : ∀ a, (![1, 12] : Fin 2 → Nat) a + S1x1.size a ≤ S8x16.size a
  inb_S8x16_S1x1_2_12 : ∀ a, (![2, 12] : Fin 2 → Nat) a + S1x1.size a ≤ S8x16.size a
  inb_S8x16_S1x1_3_12 : ∀ a, (![3, 12] : Fin 2 → Nat) a + S1x1.size a ≤ S8x16.size a
  inb_S8x16_S1x1_4_12 : ∀ a, (![4, 12] : Fin 2 → Nat) a + S1x1.size a ≤ S8x16.size a
  inb_S8x16_S1x1_5_12 : ∀ a, (![5, 12] : Fin 2 → Nat) a + S1x1.size a ≤ S8x16.size a
  inb_S8x16_S1x1_6_12 : ∀ a, (![6, 12] : Fin 2 → Nat) a + S1x1.size a ≤ S8x16.size a
  inb_S8x16_S1x1_7_12 : ∀ a, (![7, 12] : Fin 2 → Nat) a + S1x1.size a ≤ S8x16.size a
  inb_S1x16_S1x1_0_12 : ∀ a, (![0, 12] : Fin 2 → Nat) a + S1x1.size a ≤ S1x16.size a
  inb_S8x16_S1x1_0_13 : ∀ a, (![0, 13] : Fin 2 → Nat) a + S1x1.size a ≤ S8x16.size a
  inb_S8x16_S1x1_1_13 : ∀ a, (![1, 13] : Fin 2 → Nat) a + S1x1.size a ≤ S8x16.size a
  inb_S8x16_S1x1_2_13 : ∀ a, (![2, 13] : Fin 2 → Nat) a + S1x1.size a ≤ S8x16.size a
  inb_S8x16_S1x1_3_13 : ∀ a, (![3, 13] : Fin 2 → Nat) a + S1x1.size a ≤ S8x16.size a
  inb_S8x16_S1x1_4_13 : ∀ a, (![4, 13] : Fin 2 → Nat) a + S1x1.size a ≤ S8x16.size a
  inb_S8x16_S1x1_5_13 : ∀ a, (![5, 13] : Fin 2 → Nat) a + S1x1.size a ≤ S8x16.size a
  inb_S8x16_S1x1_6_13 : ∀ a, (![6, 13] : Fin 2 → Nat) a + S1x1.size a ≤ S8x16.size a
  inb_S8x16_S1x1_7_13 : ∀ a, (![7, 13] : Fin 2 → Nat) a + S1x1.size a ≤ S8x16.size a
  inb_S1x16_S1x1_0_13 : ∀ a, (![0, 13] : Fin 2 → Nat) a + S1x1.size a ≤ S1x16.size a
  inb_S8x16_S1x1_0_14 : ∀ a, (![0, 14] : Fin 2 → Nat) a + S1x1.size a ≤ S8x16.size a
  inb_S8x16_S1x1_1_14 : ∀ a, (![1, 14] : Fin 2 → Nat) a + S1x1.size a ≤ S8x16.size a
  inb_S8x16_S1x1_2_14 : ∀ a, (![2, 14] : Fin 2 → Nat) a + S1x1.size a ≤ S8x16.size a
  inb_S8x16_S1x1_3_14 : ∀ a, (![3, 14] : Fin 2 → Nat) a + S1x1.size a ≤ S8x16.size a
  inb_S8x16_S1x1_4_14 : ∀ a, (![4, 14] : Fin 2 → Nat) a + S1x1.size a ≤ S8x16.size a
  inb_S8x16_S1x1_5_14 : ∀ a, (![5, 14] : Fin 2 → Nat) a + S1x1.size a ≤ S8x16.size a
  inb_S8x16_S1x1_6_14 : ∀ a, (![6, 14] : Fin 2 → Nat) a + S1x1.size a ≤ S8x16.size a
  inb_S8x16_S1x1_7_14 : ∀ a, (![7, 14] : Fin 2 → Nat) a + S1x1.size a ≤ S8x16.size a
  inb_S1x16_S1x1_0_14 : ∀ a, (![0, 14] : Fin 2 → Nat) a + S1x1.size a ≤ S1x16.size a
  inb_S8x16_S1x1_0_15 : ∀ a, (![0, 15] : Fin 2 → Nat) a + S1x1.size a ≤ S8x16.size a
  inb_S8x16_S1x1_1_15 : ∀ a, (![1, 15] : Fin 2 → Nat) a + S1x1.size a ≤ S8x16.size a
  inb_S8x16_S1x1_2_15 : ∀ a, (![2, 15] : Fin 2 → Nat) a + S1x1.size a ≤ S8x16.size a
  inb_S8x16_S1x1_3_15 : ∀ a, (![3, 15] : Fin 2 → Nat) a + S1x1.size a ≤ S8x16.size a
  inb_S8x16_S1x1_4_15 : ∀ a, (![4, 15] : Fin 2 → Nat) a + S1x1.size a ≤ S8x16.size a
  inb_S8x16_S1x1_5_15 : ∀ a, (![5, 15] : Fin 2 → Nat) a + S1x1.size a ≤ S8x16.size a
  inb_S8x16_S1x1_6_15 : ∀ a, (![6, 15] : Fin 2 → Nat) a + S1x1.size a ≤ S8x16.size a
  inb_S8x16_S1x1_7_15 : ∀ a, (![7, 15] : Fin 2 → Nat) a + S1x1.size a ≤ S8x16.size a
  inb_S1x16_S1x1_0_15 : ∀ a, (![0, 15] : Fin 2 → Nat) a + S1x1.size a ≤ S1x16.size a
  inb_S16x16_S1x1_0_0 : ∀ a, (![0, 0] : Fin 2 → Nat) a + S1x1.size a ≤ S16x16.size a
  inb_S16x16_S1x1_1_0 : ∀ a, (![1, 0] : Fin 2 → Nat) a + S1x1.size a ≤ S16x16.size a
  inb_S16x16_S1x1_2_0 : ∀ a, (![2, 0] : Fin 2 → Nat) a + S1x1.size a ≤ S16x16.size a
  inb_S16x16_S1x1_3_0 : ∀ a, (![3, 0] : Fin 2 → Nat) a + S1x1.size a ≤ S16x16.size a
  inb_S16x16_S1x1_4_0 : ∀ a, (![4, 0] : Fin 2 → Nat) a + S1x1.size a ≤ S16x16.size a
  inb_S16x16_S1x1_5_0 : ∀ a, (![5, 0] : Fin 2 → Nat) a + S1x1.size a ≤ S16x16.size a
  inb_S16x16_S1x1_6_0 : ∀ a, (![6, 0] : Fin 2 → Nat) a + S1x1.size a ≤ S16x16.size a
  inb_S16x16_S1x1_7_0 : ∀ a, (![7, 0] : Fin 2 → Nat) a + S1x1.size a ≤ S16x16.size a
  inb_S16x16_S1x1_8_0 : ∀ a, (![8, 0] : Fin 2 → Nat) a + S1x1.size a ≤ S16x16.size a
  inb_S16x16_S1x1_9_0 : ∀ a, (![9, 0] : Fin 2 → Nat) a + S1x1.size a ≤ S16x16.size a
  inb_S16x16_S1x1_10_0 : ∀ a, (![10, 0] : Fin 2 → Nat) a + S1x1.size a ≤ S16x16.size a
  inb_S16x16_S1x1_11_0 : ∀ a, (![11, 0] : Fin 2 → Nat) a + S1x1.size a ≤ S16x16.size a
  inb_S16x16_S1x1_12_0 : ∀ a, (![12, 0] : Fin 2 → Nat) a + S1x1.size a ≤ S16x16.size a
  inb_S16x16_S1x1_13_0 : ∀ a, (![13, 0] : Fin 2 → Nat) a + S1x1.size a ≤ S16x16.size a
  inb_S16x16_S1x1_14_0 : ∀ a, (![14, 0] : Fin 2 → Nat) a + S1x1.size a ≤ S16x16.size a
  inb_S16x16_S1x1_15_0 : ∀ a, (![15, 0] : Fin 2 → Nat) a + S1x1.size a ≤ S16x16.size a
  inb_S16x16_S1x1_0_1 : ∀ a, (![0, 1] : Fin 2 → Nat) a + S1x1.size a ≤ S16x16.size a
  inb_S16x16_S1x1_1_1 : ∀ a, (![1, 1] : Fin 2 → Nat) a + S1x1.size a ≤ S16x16.size a
  inb_S16x16_S1x1_2_1 : ∀ a, (![2, 1] : Fin 2 → Nat) a + S1x1.size a ≤ S16x16.size a
  inb_S16x16_S1x1_3_1 : ∀ a, (![3, 1] : Fin 2 → Nat) a + S1x1.size a ≤ S16x16.size a
  inb_S16x16_S1x1_4_1 : ∀ a, (![4, 1] : Fin 2 → Nat) a + S1x1.size a ≤ S16x16.size a
  inb_S16x16_S1x1_5_1 : ∀ a, (![5, 1] : Fin 2 → Nat) a + S1x1.size a ≤ S16x16.size a
  inb_S16x16_S1x1_6_1 : ∀ a, (![6, 1] : Fin 2 → Nat) a + S1x1.size a ≤ S16x16.size a
  inb_S16x16_S1x1_7_1 : ∀ a, (![7, 1] : Fin 2 → Nat) a + S1x1.size a ≤ S16x16.size a
  inb_S16x16_S1x1_8_1 : ∀ a, (![8, 1] : Fin 2 → Nat) a + S1x1.size a ≤ S16x16.size a
  inb_S16x16_S1x1_9_1 : ∀ a, (![9, 1] : Fin 2 → Nat) a + S1x1.size a ≤ S16x16.size a
  inb_S16x16_S1x1_10_1 : ∀ a, (![10, 1] : Fin 2 → Nat) a + S1x1.size a ≤ S16x16.size a
  inb_S16x16_S1x1_11_1 : ∀ a, (![11, 1] : Fin 2 → Nat) a + S1x1.size a ≤ S16x16.size a
  inb_S16x16_S1x1_12_1 : ∀ a, (![12, 1] : Fin 2 → Nat) a + S1x1.size a ≤ S16x16.size a
  inb_S16x16_S1x1_13_1 : ∀ a, (![13, 1] : Fin 2 → Nat) a + S1x1.size a ≤ S16x16.size a
  inb_S16x16_S1x1_14_1 : ∀ a, (![14, 1] : Fin 2 → Nat) a + S1x1.size a ≤ S16x16.size a
  inb_S16x16_S1x1_15_1 : ∀ a, (![15, 1] : Fin 2 → Nat) a + S1x1.size a ≤ S16x16.size a
  inb_S16x16_S1x1_0_2 : ∀ a, (![0, 2] : Fin 2 → Nat) a + S1x1.size a ≤ S16x16.size a
  inb_S16x16_S1x1_1_2 : ∀ a, (![1, 2] : Fin 2 → Nat) a + S1x1.size a ≤ S16x16.size a
  inb_S16x16_S1x1_2_2 : ∀ a, (![2, 2] : Fin 2 → Nat) a + S1x1.size a ≤ S16x16.size a
  inb_S16x16_S1x1_3_2 : ∀ a, (![3, 2] : Fin 2 → Nat) a + S1x1.size a ≤ S16x16.size a
  inb_S16x16_S1x1_4_2 : ∀ a, (![4, 2] : Fin 2 → Nat) a + S1x1.size a ≤ S16x16.size a
  inb_S16x16_S1x1_5_2 : ∀ a, (![5, 2] : Fin 2 → Nat) a + S1x1.size a ≤ S16x16.size a
  inb_S16x16_S1x1_6_2 : ∀ a, (![6, 2] : Fin 2 → Nat) a + S1x1.size a ≤ S16x16.size a
  inb_S16x16_S1x1_7_2 : ∀ a, (![7, 2] : Fin 2 → Nat) a + S1x1.size a ≤ S16x16.size a
  inb_S16x16_S1x1_8_2 : ∀ a, (![8, 2] : Fin 2 → Nat) a + S1x1.size a ≤ S16x16.size a
  inb_S16x16_S1x1_9_2 : ∀ a, (![9, 2] : Fin 2 → Nat) a + S1x1.size a ≤ S16x16.size a
  inb_S16x16_S1x1_10_2 : ∀ a, (![10, 2] : Fin 2 → Nat) a + S1x1.size a ≤ S16x16.size a
  inb_S16x16_S1x1_11_2 : ∀ a, (![11, 2] : Fin 2 → Nat) a + S1x1.size a ≤ S16x16.size a
  inb_S16x16_S1x1_12_2 : ∀ a, (![12, 2] : Fin 2 → Nat) a + S1x1.size a ≤ S16x16.size a
  inb_S16x16_S1x1_13_2 : ∀ a, (![13, 2] : Fin 2 → Nat) a + S1x1.size a ≤ S16x16.size a
  inb_S16x16_S1x1_14_2 : ∀ a, (![14, 2] : Fin 2 → Nat) a + S1x1.size a ≤ S16x16.size a
  inb_S16x16_S1x1_15_2 : ∀ a, (![15, 2] : Fin 2 → Nat) a + S1x1.size a ≤ S16x16.size a
  inb_S16x16_S1x1_0_3 : ∀ a, (![0, 3] : Fin 2 → Nat) a + S1x1.size a ≤ S16x16.size a
  inb_S16x16_S1x1_1_3 : ∀ a, (![1, 3] : Fin 2 → Nat) a + S1x1.size a ≤ S16x16.size a
  inb_S16x16_S1x1_2_3 : ∀ a, (![2, 3] : Fin 2 → Nat) a + S1x1.size a ≤ S16x16.size a
  inb_S16x16_S1x1_3_3 : ∀ a, (![3, 3] : Fin 2 → Nat) a + S1x1.size a ≤ S16x16.size a
  inb_S16x16_S1x1_4_3 : ∀ a, (![4, 3] : Fin 2 → Nat) a + S1x1.size a ≤ S16x16.size a
  inb_S16x16_S1x1_5_3 : ∀ a, (![5, 3] : Fin 2 → Nat) a + S1x1.size a ≤ S16x16.size a
  inb_S16x16_S1x1_6_3 : ∀ a, (![6, 3] : Fin 2 → Nat) a + S1x1.size a ≤ S16x16.size a
  inb_S16x16_S1x1_7_3 : ∀ a, (![7, 3] : Fin 2 → Nat) a + S1x1.size a ≤ S16x16.size a
  inb_S16x16_S1x1_8_3 : ∀ a, (![8, 3] : Fin 2 → Nat) a + S1x1.size a ≤ S16x16.size a
  inb_S16x16_S1x1_9_3 : ∀ a, (![9, 3] : Fin 2 → Nat) a + S1x1.size a ≤ S16x16.size a
  inb_S16x16_S1x1_10_3 : ∀ a, (![10, 3] : Fin 2 → Nat) a + S1x1.size a ≤ S16x16.size a
  inb_S16x16_S1x1_11_3 : ∀ a, (![11, 3] : Fin 2 → Nat) a + S1x1.size a ≤ S16x16.size a
  inb_S16x16_S1x1_12_3 : ∀ a, (![12, 3] : Fin 2 → Nat) a + S1x1.size a ≤ S16x16.size a
  inb_S16x16_S1x1_13_3 : ∀ a, (![13, 3] : Fin 2 → Nat) a + S1x1.size a ≤ S16x16.size a
  inb_S16x16_S1x1_14_3 : ∀ a, (![14, 3] : Fin 2 → Nat) a + S1x1.size a ≤ S16x16.size a
  inb_S16x16_S1x1_15_3 : ∀ a, (![15, 3] : Fin 2 → Nat) a + S1x1.size a ≤ S16x16.size a
  inb_S16x16_S1x1_0_4 : ∀ a, (![0, 4] : Fin 2 → Nat) a + S1x1.size a ≤ S16x16.size a
  inb_S16x16_S1x1_1_4 : ∀ a, (![1, 4] : Fin 2 → Nat) a + S1x1.size a ≤ S16x16.size a
  inb_S16x16_S1x1_2_4 : ∀ a, (![2, 4] : Fin 2 → Nat) a + S1x1.size a ≤ S16x16.size a
  inb_S16x16_S1x1_3_4 : ∀ a, (![3, 4] : Fin 2 → Nat) a + S1x1.size a ≤ S16x16.size a
  inb_S16x16_S1x1_4_4 : ∀ a, (![4, 4] : Fin 2 → Nat) a + S1x1.size a ≤ S16x16.size a
  inb_S16x16_S1x1_5_4 : ∀ a, (![5, 4] : Fin 2 → Nat) a + S1x1.size a ≤ S16x16.size a
  inb_S16x16_S1x1_6_4 : ∀ a, (![6, 4] : Fin 2 → Nat) a + S1x1.size a ≤ S16x16.size a
  inb_S16x16_S1x1_7_4 : ∀ a, (![7, 4] : Fin 2 → Nat) a + S1x1.size a ≤ S16x16.size a
  inb_S16x16_S1x1_8_4 : ∀ a, (![8, 4] : Fin 2 → Nat) a + S1x1.size a ≤ S16x16.size a
  inb_S16x16_S1x1_9_4 : ∀ a, (![9, 4] : Fin 2 → Nat) a + S1x1.size a ≤ S16x16.size a
  inb_S16x16_S1x1_10_4 : ∀ a, (![10, 4] : Fin 2 → Nat) a + S1x1.size a ≤ S16x16.size a
  inb_S16x16_S1x1_11_4 : ∀ a, (![11, 4] : Fin 2 → Nat) a + S1x1.size a ≤ S16x16.size a
  inb_S16x16_S1x1_12_4 : ∀ a, (![12, 4] : Fin 2 → Nat) a + S1x1.size a ≤ S16x16.size a
  inb_S16x16_S1x1_13_4 : ∀ a, (![13, 4] : Fin 2 → Nat) a + S1x1.size a ≤ S16x16.size a
  inb_S16x16_S1x1_14_4 : ∀ a, (![14, 4] : Fin 2 → Nat) a + S1x1.size a ≤ S16x16.size a
  inb_S16x16_S1x1_15_4 : ∀ a, (![15, 4] : Fin 2 → Nat) a + S1x1.size a ≤ S16x16.size a
  inb_S16x16_S1x1_0_5 : ∀ a, (![0, 5] : Fin 2 → Nat) a + S1x1.size a ≤ S16x16.size a
  inb_S16x16_S1x1_1_5 : ∀ a, (![1, 5] : Fin 2 → Nat) a + S1x1.size a ≤ S16x16.size a
  inb_S16x16_S1x1_2_5 : ∀ a, (![2, 5] : Fin 2 → Nat) a + S1x1.size a ≤ S16x16.size a
  inb_S16x16_S1x1_3_5 : ∀ a, (![3, 5] : Fin 2 → Nat) a + S1x1.size a ≤ S16x16.size a
  inb_S16x16_S1x1_4_5 : ∀ a, (![4, 5] : Fin 2 → Nat) a + S1x1.size a ≤ S16x16.size a
  inb_S16x16_S1x1_5_5 : ∀ a, (![5, 5] : Fin 2 → Nat) a + S1x1.size a ≤ S16x16.size a
  inb_S16x16_S1x1_6_5 : ∀ a, (![6, 5] : Fin 2 → Nat) a + S1x1.size a ≤ S16x16.size a
  inb_S16x16_S1x1_7_5 : ∀ a, (![7, 5] : Fin 2 → Nat) a + S1x1.size a ≤ S16x16.size a
  inb_S16x16_S1x1_8_5 : ∀ a, (![8, 5] : Fin 2 → Nat) a + S1x1.size a ≤ S16x16.size a
  inb_S16x16_S1x1_9_5 : ∀ a, (![9, 5] : Fin 2 → Nat) a + S1x1.size a ≤ S16x16.size a
  inb_S16x16_S1x1_10_5 : ∀ a, (![10, 5] : Fin 2 → Nat) a + S1x1.size a ≤ S16x16.size a
  inb_S16x16_S1x1_11_5 : ∀ a, (![11, 5] : Fin 2 → Nat) a + S1x1.size a ≤ S16x16.size a
  inb_S16x16_S1x1_12_5 : ∀ a, (![12, 5] : Fin 2 → Nat) a + S1x1.size a ≤ S16x16.size a
  inb_S16x16_S1x1_13_5 : ∀ a, (![13, 5] : Fin 2 → Nat) a + S1x1.size a ≤ S16x16.size a
  inb_S16x16_S1x1_14_5 : ∀ a, (![14, 5] : Fin 2 → Nat) a + S1x1.size a ≤ S16x16.size a
  inb_S16x16_S1x1_15_5 : ∀ a, (![15, 5] : Fin 2 → Nat) a + S1x1.size a ≤ S16x16.size a
  inb_S16x16_S1x1_0_6 : ∀ a, (![0, 6] : Fin 2 → Nat) a + S1x1.size a ≤ S16x16.size a
  inb_S16x16_S1x1_1_6 : ∀ a, (![1, 6] : Fin 2 → Nat) a + S1x1.size a ≤ S16x16.size a
  inb_S16x16_S1x1_2_6 : ∀ a, (![2, 6] : Fin 2 → Nat) a + S1x1.size a ≤ S16x16.size a
  inb_S16x16_S1x1_3_6 : ∀ a, (![3, 6] : Fin 2 → Nat) a + S1x1.size a ≤ S16x16.size a
  inb_S16x16_S1x1_4_6 : ∀ a, (![4, 6] : Fin 2 → Nat) a + S1x1.size a ≤ S16x16.size a
  inb_S16x16_S1x1_5_6 : ∀ a, (![5, 6] : Fin 2 → Nat) a + S1x1.size a ≤ S16x16.size a
  inb_S16x16_S1x1_6_6 : ∀ a, (![6, 6] : Fin 2 → Nat) a + S1x1.size a ≤ S16x16.size a
  inb_S16x16_S1x1_7_6 : ∀ a, (![7, 6] : Fin 2 → Nat) a + S1x1.size a ≤ S16x16.size a
  inb_S16x16_S1x1_8_6 : ∀ a, (![8, 6] : Fin 2 → Nat) a + S1x1.size a ≤ S16x16.size a
  inb_S16x16_S1x1_9_6 : ∀ a, (![9, 6] : Fin 2 → Nat) a + S1x1.size a ≤ S16x16.size a
  inb_S16x16_S1x1_10_6 : ∀ a, (![10, 6] : Fin 2 → Nat) a + S1x1.size a ≤ S16x16.size a
  inb_S16x16_S1x1_11_6 : ∀ a, (![11, 6] : Fin 2 → Nat) a + S1x1.size a ≤ S16x16.size a
  inb_S16x16_S1x1_12_6 : ∀ a, (![12, 6] : Fin 2 → Nat) a + S1x1.size a ≤ S16x16.size a
  inb_S16x16_S1x1_13_6 : ∀ a, (![13, 6] : Fin 2 → Nat) a + S1x1.size a ≤ S16x16.size a
  inb_S16x16_S1x1_14_6 : ∀ a, (![14, 6] : Fin 2 → Nat) a + S1x1.size a ≤ S16x16.size a
  inb_S16x16_S1x1_15_6 : ∀ a, (![15, 6] : Fin 2 → Nat) a + S1x1.size a ≤ S16x16.size a
  inb_S16x16_S1x1_0_7 : ∀ a, (![0, 7] : Fin 2 → Nat) a + S1x1.size a ≤ S16x16.size a
  inb_S16x16_S1x1_1_7 : ∀ a, (![1, 7] : Fin 2 → Nat) a + S1x1.size a ≤ S16x16.size a
  inb_S16x16_S1x1_2_7 : ∀ a, (![2, 7] : Fin 2 → Nat) a + S1x1.size a ≤ S16x16.size a
  inb_S16x16_S1x1_3_7 : ∀ a, (![3, 7] : Fin 2 → Nat) a + S1x1.size a ≤ S16x16.size a
  inb_S16x16_S1x1_4_7 : ∀ a, (![4, 7] : Fin 2 → Nat) a + S1x1.size a ≤ S16x16.size a
  inb_S16x16_S1x1_5_7 : ∀ a, (![5, 7] : Fin 2 → Nat) a + S1x1.size a ≤ S16x16.size a
  inb_S16x16_S1x1_6_7 : ∀ a, (![6, 7] : Fin 2 → Nat) a + S1x1.size a ≤ S16x16.size a
  inb_S16x16_S1x1_7_7 : ∀ a, (![7, 7] : Fin 2 → Nat) a + S1x1.size a ≤ S16x16.size a
  inb_S16x16_S1x1_8_7 : ∀ a, (![8, 7] : Fin 2 → Nat) a + S1x1.size a ≤ S16x16.size a
  inb_S16x16_S1x1_9_7 : ∀ a, (![9, 7] : Fin 2 → Nat) a + S1x1.size a ≤ S16x16.size a
  inb_S16x16_S1x1_10_7 : ∀ a, (![10, 7] : Fin 2 → Nat) a + S1x1.size a ≤ S16x16.size a
  inb_S16x16_S1x1_11_7 : ∀ a, (![11, 7] : Fin 2 → Nat) a + S1x1.size a ≤ S16x16.size a
  inb_S16x16_S1x1_12_7 : ∀ a, (![12, 7] : Fin 2 → Nat) a + S1x1.size a ≤ S16x16.size a
  inb_S16x16_S1x1_13_7 : ∀ a, (![13, 7] : Fin 2 → Nat) a + S1x1.size a ≤ S16x16.size a
  inb_S16x16_S1x1_14_7 : ∀ a, (![14, 7] : Fin 2 → Nat) a + S1x1.size a ≤ S16x16.size a
  inb_S16x16_S1x1_15_7 : ∀ a, (![15, 7] : Fin 2 → Nat) a + S1x1.size a ≤ S16x16.size a
  inb_S16x16_S1x1_0_8 : ∀ a, (![0, 8] : Fin 2 → Nat) a + S1x1.size a ≤ S16x16.size a
  inb_S16x16_S1x1_1_8 : ∀ a, (![1, 8] : Fin 2 → Nat) a + S1x1.size a ≤ S16x16.size a
  inb_S16x16_S1x1_2_8 : ∀ a, (![2, 8] : Fin 2 → Nat) a + S1x1.size a ≤ S16x16.size a
  inb_S16x16_S1x1_3_8 : ∀ a, (![3, 8] : Fin 2 → Nat) a + S1x1.size a ≤ S16x16.size a
  inb_S16x16_S1x1_4_8 : ∀ a, (![4, 8] : Fin 2 → Nat) a + S1x1.size a ≤ S16x16.size a
  inb_S16x16_S1x1_5_8 : ∀ a, (![5, 8] : Fin 2 → Nat) a + S1x1.size a ≤ S16x16.size a
  inb_S16x16_S1x1_6_8 : ∀ a, (![6, 8] : Fin 2 → Nat) a + S1x1.size a ≤ S16x16.size a
  inb_S16x16_S1x1_7_8 : ∀ a, (![7, 8] : Fin 2 → Nat) a + S1x1.size a ≤ S16x16.size a
  inb_S16x16_S1x1_8_8 : ∀ a, (![8, 8] : Fin 2 → Nat) a + S1x1.size a ≤ S16x16.size a
  inb_S16x16_S1x1_9_8 : ∀ a, (![9, 8] : Fin 2 → Nat) a + S1x1.size a ≤ S16x16.size a
  inb_S16x16_S1x1_10_8 : ∀ a, (![10, 8] : Fin 2 → Nat) a + S1x1.size a ≤ S16x16.size a
  inb_S16x16_S1x1_11_8 : ∀ a, (![11, 8] : Fin 2 → Nat) a + S1x1.size a ≤ S16x16.size a
  inb_S16x16_S1x1_12_8 : ∀ a, (![12, 8] : Fin 2 → Nat) a + S1x1.size a ≤ S16x16.size a
  inb_S16x16_S1x1_13_8 : ∀ a, (![13, 8] : Fin 2 → Nat) a + S1x1.size a ≤ S16x16.size a
  inb_S16x16_S1x1_14_8 : ∀ a, (![14, 8] : Fin 2 → Nat) a + S1x1.size a ≤ S16x16.size a
  inb_S16x16_S1x1_15_8 : ∀ a, (![15, 8] : Fin 2 → Nat) a + S1x1.size a ≤ S16x16.size a
  inb_S16x16_S1x1_0_9 : ∀ a, (![0, 9] : Fin 2 → Nat) a + S1x1.size a ≤ S16x16.size a
  inb_S16x16_S1x1_1_9 : ∀ a, (![1, 9] : Fin 2 → Nat) a + S1x1.size a ≤ S16x16.size a
  inb_S16x16_S1x1_2_9 : ∀ a, (![2, 9] : Fin 2 → Nat) a + S1x1.size a ≤ S16x16.size a
  inb_S16x16_S1x1_3_9 : ∀ a, (![3, 9] : Fin 2 → Nat) a + S1x1.size a ≤ S16x16.size a
  inb_S16x16_S1x1_4_9 : ∀ a, (![4, 9] : Fin 2 → Nat) a + S1x1.size a ≤ S16x16.size a
  inb_S16x16_S1x1_5_9 : ∀ a, (![5, 9] : Fin 2 → Nat) a + S1x1.size a ≤ S16x16.size a
  inb_S16x16_S1x1_6_9 : ∀ a, (![6, 9] : Fin 2 → Nat) a + S1x1.size a ≤ S16x16.size a
  inb_S16x16_S1x1_7_9 : ∀ a, (![7, 9] : Fin 2 → Nat) a + S1x1.size a ≤ S16x16.size a
  inb_S16x16_S1x1_8_9 : ∀ a, (![8, 9] : Fin 2 → Nat) a + S1x1.size a ≤ S16x16.size a
  inb_S16x16_S1x1_9_9 : ∀ a, (![9, 9] : Fin 2 → Nat) a + S1x1.size a ≤ S16x16.size a
  inb_S16x16_S1x1_10_9 : ∀ a, (![10, 9] : Fin 2 → Nat) a + S1x1.size a ≤ S16x16.size a
  inb_S16x16_S1x1_11_9 : ∀ a, (![11, 9] : Fin 2 → Nat) a + S1x1.size a ≤ S16x16.size a
  inb_S16x16_S1x1_12_9 : ∀ a, (![12, 9] : Fin 2 → Nat) a + S1x1.size a ≤ S16x16.size a
  inb_S16x16_S1x1_13_9 : ∀ a, (![13, 9] : Fin 2 → Nat) a + S1x1.size a ≤ S16x16.size a
  inb_S16x16_S1x1_14_9 : ∀ a, (![14, 9] : Fin 2 → Nat) a + S1x1.size a ≤ S16x16.size a
  inb_S16x16_S1x1_15_9 : ∀ a, (![15, 9] : Fin 2 → Nat) a + S1x1.size a ≤ S16x16.size a
  inb_S16x16_S1x1_0_10 : ∀ a, (![0, 10] : Fin 2 → Nat) a + S1x1.size a ≤ S16x16.size a
  inb_S16x16_S1x1_1_10 : ∀ a, (![1, 10] : Fin 2 → Nat) a + S1x1.size a ≤ S16x16.size a
  inb_S16x16_S1x1_2_10 : ∀ a, (![2, 10] : Fin 2 → Nat) a + S1x1.size a ≤ S16x16.size a
  inb_S16x16_S1x1_3_10 : ∀ a, (![3, 10] : Fin 2 → Nat) a + S1x1.size a ≤ S16x16.size a
  inb_S16x16_S1x1_4_10 : ∀ a, (![4, 10] : Fin 2 → Nat) a + S1x1.size a ≤ S16x16.size a
  inb_S16x16_S1x1_5_10 : ∀ a, (![5, 10] : Fin 2 → Nat) a + S1x1.size a ≤ S16x16.size a
  inb_S16x16_S1x1_6_10 : ∀ a, (![6, 10] : Fin 2 → Nat) a + S1x1.size a ≤ S16x16.size a
  inb_S16x16_S1x1_7_10 : ∀ a, (![7, 10] : Fin 2 → Nat) a + S1x1.size a ≤ S16x16.size a
  inb_S16x16_S1x1_8_10 : ∀ a, (![8, 10] : Fin 2 → Nat) a + S1x1.size a ≤ S16x16.size a
  inb_S16x16_S1x1_9_10 : ∀ a, (![9, 10] : Fin 2 → Nat) a + S1x1.size a ≤ S16x16.size a
  inb_S16x16_S1x1_10_10 : ∀ a, (![10, 10] : Fin 2 → Nat) a + S1x1.size a ≤ S16x16.size a
  inb_S16x16_S1x1_11_10 : ∀ a, (![11, 10] : Fin 2 → Nat) a + S1x1.size a ≤ S16x16.size a
  inb_S16x16_S1x1_12_10 : ∀ a, (![12, 10] : Fin 2 → Nat) a + S1x1.size a ≤ S16x16.size a
  inb_S16x16_S1x1_13_10 : ∀ a, (![13, 10] : Fin 2 → Nat) a + S1x1.size a ≤ S16x16.size a
  inb_S16x16_S1x1_14_10 : ∀ a, (![14, 10] : Fin 2 → Nat) a + S1x1.size a ≤ S16x16.size a
  inb_S16x16_S1x1_15_10 : ∀ a, (![15, 10] : Fin 2 → Nat) a + S1x1.size a ≤ S16x16.size a
  inb_S16x16_S1x1_0_11 : ∀ a, (![0, 11] : Fin 2 → Nat) a + S1x1.size a ≤ S16x16.size a
  inb_S16x16_S1x1_1_11 : ∀ a, (![1, 11] : Fin 2 → Nat) a + S1x1.size a ≤ S16x16.size a
  inb_S16x16_S1x1_2_11 : ∀ a, (![2, 11] : Fin 2 → Nat) a + S1x1.size a ≤ S16x16.size a
  inb_S16x16_S1x1_3_11 : ∀ a, (![3, 11] : Fin 2 → Nat) a + S1x1.size a ≤ S16x16.size a
  inb_S16x16_S1x1_4_11 : ∀ a, (![4, 11] : Fin 2 → Nat) a + S1x1.size a ≤ S16x16.size a
  inb_S16x16_S1x1_5_11 : ∀ a, (![5, 11] : Fin 2 → Nat) a + S1x1.size a ≤ S16x16.size a
  inb_S16x16_S1x1_6_11 : ∀ a, (![6, 11] : Fin 2 → Nat) a + S1x1.size a ≤ S16x16.size a
  inb_S16x16_S1x1_7_11 : ∀ a, (![7, 11] : Fin 2 → Nat) a + S1x1.size a ≤ S16x16.size a
  inb_S16x16_S1x1_8_11 : ∀ a, (![8, 11] : Fin 2 → Nat) a + S1x1.size a ≤ S16x16.size a
  inb_S16x16_S1x1_9_11 : ∀ a, (![9, 11] : Fin 2 → Nat) a + S1x1.size a ≤ S16x16.size a
  inb_S16x16_S1x1_10_11 : ∀ a, (![10, 11] : Fin 2 → Nat) a + S1x1.size a ≤ S16x16.size a
  inb_S16x16_S1x1_11_11 : ∀ a, (![11, 11] : Fin 2 → Nat) a + S1x1.size a ≤ S16x16.size a
  inb_S16x16_S1x1_12_11 : ∀ a, (![12, 11] : Fin 2 → Nat) a + S1x1.size a ≤ S16x16.size a
  inb_S16x16_S1x1_13_11 : ∀ a, (![13, 11] : Fin 2 → Nat) a + S1x1.size a ≤ S16x16.size a
  inb_S16x16_S1x1_14_11 : ∀ a, (![14, 11] : Fin 2 → Nat) a + S1x1.size a ≤ S16x16.size a
  inb_S16x16_S1x1_15_11 : ∀ a, (![15, 11] : Fin 2 → Nat) a + S1x1.size a ≤ S16x16.size a
  inb_S16x16_S1x1_0_12 : ∀ a, (![0, 12] : Fin 2 → Nat) a + S1x1.size a ≤ S16x16.size a
  inb_S16x16_S1x1_1_12 : ∀ a, (![1, 12] : Fin 2 → Nat) a + S1x1.size a ≤ S16x16.size a
  inb_S16x16_S1x1_2_12 : ∀ a, (![2, 12] : Fin 2 → Nat) a + S1x1.size a ≤ S16x16.size a
  inb_S16x16_S1x1_3_12 : ∀ a, (![3, 12] : Fin 2 → Nat) a + S1x1.size a ≤ S16x16.size a
  inb_S16x16_S1x1_4_12 : ∀ a, (![4, 12] : Fin 2 → Nat) a + S1x1.size a ≤ S16x16.size a
  inb_S16x16_S1x1_5_12 : ∀ a, (![5, 12] : Fin 2 → Nat) a + S1x1.size a ≤ S16x16.size a
  inb_S16x16_S1x1_6_12 : ∀ a, (![6, 12] : Fin 2 → Nat) a + S1x1.size a ≤ S16x16.size a
  inb_S16x16_S1x1_7_12 : ∀ a, (![7, 12] : Fin 2 → Nat) a + S1x1.size a ≤ S16x16.size a
  inb_S16x16_S1x1_8_12 : ∀ a, (![8, 12] : Fin 2 → Nat) a + S1x1.size a ≤ S16x16.size a
  inb_S16x16_S1x1_9_12 : ∀ a, (![9, 12] : Fin 2 → Nat) a + S1x1.size a ≤ S16x16.size a
  inb_S16x16_S1x1_10_12 : ∀ a, (![10, 12] : Fin 2 → Nat) a + S1x1.size a ≤ S16x16.size a
  inb_S16x16_S1x1_11_12 : ∀ a, (![11, 12] : Fin 2 → Nat) a + S1x1.size a ≤ S16x16.size a
  inb_S16x16_S1x1_12_12 : ∀ a, (![12, 12] : Fin 2 → Nat) a + S1x1.size a ≤ S16x16.size a
  inb_S16x16_S1x1_13_12 : ∀ a, (![13, 12] : Fin 2 → Nat) a + S1x1.size a ≤ S16x16.size a
  inb_S16x16_S1x1_14_12 : ∀ a, (![14, 12] : Fin 2 → Nat) a + S1x1.size a ≤ S16x16.size a
  inb_S16x16_S1x1_15_12 : ∀ a, (![15, 12] : Fin 2 → Nat) a + S1x1.size a ≤ S16x16.size a
  inb_S16x16_S1x1_0_13 : ∀ a, (![0, 13] : Fin 2 → Nat) a + S1x1.size a ≤ S16x16.size a
  inb_S16x16_S1x1_1_13 : ∀ a, (![1, 13] : Fin 2 → Nat) a + S1x1.size a ≤ S16x16.size a
  inb_S16x16_S1x1_2_13 : ∀ a, (![2, 13] : Fin 2 → Nat) a + S1x1.size a ≤ S16x16.size a
  inb_S16x16_S1x1_3_13 : ∀ a, (![3, 13] : Fin 2 → Nat) a + S1x1.size a ≤ S16x16.size a
  inb_S16x16_S1x1_4_13 : ∀ a, (![4, 13] : Fin 2 → Nat) a + S1x1.size a ≤ S16x16.size a
  inb_S16x16_S1x1_5_13 : ∀ a, (![5, 13] : Fin 2 → Nat) a + S1x1.size a ≤ S16x16.size a
  inb_S16x16_S1x1_6_13 : ∀ a, (![6, 13] : Fin 2 → Nat) a + S1x1.size a ≤ S16x16.size a
  inb_S16x16_S1x1_7_13 : ∀ a, (![7, 13] : Fin 2 → Nat) a + S1x1.size a ≤ S16x16.size a
  inb_S16x16_S1x1_8_13 : ∀ a, (![8, 13] : Fin 2 → Nat) a + S1x1.size a ≤ S16x16.size a
  inb_S16x16_S1x1_9_13 : ∀ a, (![9, 13] : Fin 2 → Nat) a + S1x1.size a ≤ S16x16.size a
  inb_S16x16_S1x1_10_13 : ∀ a, (![10, 13] : Fin 2 → Nat) a + S1x1.size a ≤ S16x16.size a
  inb_S16x16_S1x1_11_13 : ∀ a, (![11, 13] : Fin 2 → Nat) a + S1x1.size a ≤ S16x16.size a
  inb_S16x16_S1x1_12_13 : ∀ a, (![12, 13] : Fin 2 → Nat) a + S1x1.size a ≤ S16x16.size a
  inb_S16x16_S1x1_13_13 : ∀ a, (![13, 13] : Fin 2 → Nat) a + S1x1.size a ≤ S16x16.size a
  inb_S16x16_S1x1_14_13 : ∀ a, (![14, 13] : Fin 2 → Nat) a + S1x1.size a ≤ S16x16.size a
  inb_S16x16_S1x1_15_13 : ∀ a, (![15, 13] : Fin 2 → Nat) a + S1x1.size a ≤ S16x16.size a
  inb_S16x16_S1x1_0_14 : ∀ a, (![0, 14] : Fin 2 → Nat) a + S1x1.size a ≤ S16x16.size a
  inb_S16x16_S1x1_1_14 : ∀ a, (![1, 14] : Fin 2 → Nat) a + S1x1.size a ≤ S16x16.size a
  inb_S16x16_S1x1_2_14 : ∀ a, (![2, 14] : Fin 2 → Nat) a + S1x1.size a ≤ S16x16.size a
  inb_S16x16_S1x1_3_14 : ∀ a, (![3, 14] : Fin 2 → Nat) a + S1x1.size a ≤ S16x16.size a
  inb_S16x16_S1x1_4_14 : ∀ a, (![4, 14] : Fin 2 → Nat) a + S1x1.size a ≤ S16x16.size a
  inb_S16x16_S1x1_5_14 : ∀ a, (![5, 14] : Fin 2 → Nat) a + S1x1.size a ≤ S16x16.size a
  inb_S16x16_S1x1_6_14 : ∀ a, (![6, 14] : Fin 2 → Nat) a + S1x1.size a ≤ S16x16.size a
  inb_S16x16_S1x1_7_14 : ∀ a, (![7, 14] : Fin 2 → Nat) a + S1x1.size a ≤ S16x16.size a
  inb_S16x16_S1x1_8_14 : ∀ a, (![8, 14] : Fin 2 → Nat) a + S1x1.size a ≤ S16x16.size a
  inb_S16x16_S1x1_9_14 : ∀ a, (![9, 14] : Fin 2 → Nat) a + S1x1.size a ≤ S16x16.size a
  inb_S16x16_S1x1_10_14 : ∀ a, (![10, 14] : Fin 2 → Nat) a + S1x1.size a ≤ S16x16.size a
  inb_S16x16_S1x1_11_14 : ∀ a, (![11, 14] : Fin 2 → Nat) a + S1x1.size a ≤ S16x16.size a
  inb_S16x16_S1x1_12_14 : ∀ a, (![12, 14] : Fin 2 → Nat) a + S1x1.size a ≤ S16x16.size a
  inb_S16x16_S1x1_13_14 : ∀ a, (![13, 14] : Fin 2 → Nat) a + S1x1.size a ≤ S16x16.size a
  inb_S16x16_S1x1_14_14 : ∀ a, (![14, 14] : Fin 2 → Nat) a + S1x1.size a ≤ S16x16.size a
  inb_S16x16_S1x1_15_14 : ∀ a, (![15, 14] : Fin 2 → Nat) a + S1x1.size a ≤ S16x16.size a
  inb_S16x16_S1x1_0_15 : ∀ a, (![0, 15] : Fin 2 → Nat) a + S1x1.size a ≤ S16x16.size a
  inb_S16x16_S1x1_1_15 : ∀ a, (![1, 15] : Fin 2 → Nat) a + S1x1.size a ≤ S16x16.size a
  inb_S16x16_S1x1_2_15 : ∀ a, (![2, 15] : Fin 2 → Nat) a + S1x1.size a ≤ S16x16.size a
  inb_S16x16_S1x1_3_15 : ∀ a, (![3, 15] : Fin 2 → Nat) a + S1x1.size a ≤ S16x16.size a
  inb_S16x16_S1x1_4_15 : ∀ a, (![4, 15] : Fin 2 → Nat) a + S1x1.size a ≤ S16x16.size a
  inb_S16x16_S1x1_5_15 : ∀ a, (![5, 15] : Fin 2 → Nat) a + S1x1.size a ≤ S16x16.size a
  inb_S16x16_S1x1_6_15 : ∀ a, (![6, 15] : Fin 2 → Nat) a + S1x1.size a ≤ S16x16.size a
  inb_S16x16_S1x1_7_15 : ∀ a, (![7, 15] : Fin 2 → Nat) a + S1x1.size a ≤ S16x16.size a
  inb_S16x16_S1x1_8_15 : ∀ a, (![8, 15] : Fin 2 → Nat) a + S1x1.size a ≤ S16x16.size a
  inb_S16x16_S1x1_9_15 : ∀ a, (![9, 15] : Fin 2 → Nat) a + S1x1.size a ≤ S16x16.size a
  inb_S16x16_S1x1_10_15 : ∀ a, (![10, 15] : Fin 2 → Nat) a + S1x1.size a ≤ S16x16.size a
  inb_S16x16_S1x1_11_15 : ∀ a, (![11, 15] : Fin 2 → Nat) a + S1x1.size a ≤ S16x16.size a
  inb_S16x16_S1x1_12_15 : ∀ a, (![12, 15] : Fin 2 → Nat) a + S1x1.size a ≤ S16x16.size a
  inb_S16x16_S1x1_13_15 : ∀ a, (![13, 15] : Fin 2 → Nat) a + S1x1.size a ≤ S16x16.size a
  inb_S16x16_S1x1_14_15 : ∀ a, (![14, 15] : Fin 2 → Nat) a + S1x1.size a ≤ S16x16.size a
  inb_S16x16_S1x1_15_15 : ∀ a, (![15, 15] : Fin 2 → Nat) a + S1x1.size a ≤ S16x16.size a
  concatenates_S512x256_S512x256_S512x256_S512x256_S512x256_S512x256_S512x256_S512x256_S512x256_S512x256_S512x256_S512x256_S512x256_S512x256_S512x256_S512x256_S512x4096_d1 : Shape.Concatenates [S512x256, S512x256, S512x256, S512x256, S512x256, S512x256, S512x256, S512x256, S512x256, S512x256, S512x256, S512x256, S512x256, S512x256, S512x256, S512x256] S512x4096 1
  slices_S512x4096_o0_0_S512x256 : S512x4096.Slices ![0, 0] S512x256
  slices_S512x4096_o0_256_S512x256 : S512x4096.Slices ![0, 256] S512x256
  slices_S512x4096_o0_512_S512x256 : S512x4096.Slices ![0, 512] S512x256
  slices_S512x4096_o0_768_S512x256 : S512x4096.Slices ![0, 768] S512x256
  slices_S512x4096_o0_1024_S512x256 : S512x4096.Slices ![0, 1024] S512x256
  slices_S512x4096_o0_1280_S512x256 : S512x4096.Slices ![0, 1280] S512x256
  slices_S512x4096_o0_1536_S512x256 : S512x4096.Slices ![0, 1536] S512x256
  slices_S512x4096_o0_1792_S512x256 : S512x4096.Slices ![0, 1792] S512x256
  slices_S512x4096_o0_2048_S512x256 : S512x4096.Slices ![0, 2048] S512x256
  slices_S512x4096_o0_2304_S512x256 : S512x4096.Slices ![0, 2304] S512x256
  slices_S512x4096_o0_2560_S512x256 : S512x4096.Slices ![0, 2560] S512x256
  slices_S512x4096_o0_2816_S512x256 : S512x4096.Slices ![0, 2816] S512x256
  slices_S512x4096_o0_3072_S512x256 : S512x4096.Slices ![0, 3072] S512x256
  slices_S512x4096_o0_3328_S512x256 : S512x4096.Slices ![0, 3328] S512x256
  slices_S512x4096_o0_3584_S512x256 : S512x4096.Slices ![0, 3584] S512x256
  slices_S512x4096_o0_3840_S512x256 : S512x4096.Slices ![0, 3840] S512x256
  reduces_S512x256_S512 : S512x256.Reduces [1] S512
  shapeCasts_S512_S512x1 : S512.ShapeCasts S512x1
  inb_S16x16_S1x16_0_0 : ∀ a, (![0, 0] : Fin 2 → Nat) a + S1x16.size a ≤ S16x16.size a
  h_S1x16 : 0 < S1x16.numel
  broadcasts_S512x1_S512x16 : S512x1.Broadcasts S512x16
  broadcasts_S1x16_S512x16 : S1x16.Broadcasts S512x16
  inb_S16x16_S1x16_1_0 : ∀ a, (![1, 0] : Fin 2 → Nat) a + S1x16.size a ≤ S16x16.size a
  inb_S16x16_S1x16_2_0 : ∀ a, (![2, 0] : Fin 2 → Nat) a + S1x16.size a ≤ S16x16.size a
  inb_S16x16_S1x16_3_0 : ∀ a, (![3, 0] : Fin 2 → Nat) a + S1x16.size a ≤ S16x16.size a
  inb_S16x16_S1x16_4_0 : ∀ a, (![4, 0] : Fin 2 → Nat) a + S1x16.size a ≤ S16x16.size a
  inb_S16x16_S1x16_5_0 : ∀ a, (![5, 0] : Fin 2 → Nat) a + S1x16.size a ≤ S16x16.size a
  inb_S16x16_S1x16_6_0 : ∀ a, (![6, 0] : Fin 2 → Nat) a + S1x16.size a ≤ S16x16.size a
  inb_S16x16_S1x16_7_0 : ∀ a, (![7, 0] : Fin 2 → Nat) a + S1x16.size a ≤ S16x16.size a
  inb_S16x16_S1x16_8_0 : ∀ a, (![8, 0] : Fin 2 → Nat) a + S1x16.size a ≤ S16x16.size a
  inb_S16x16_S1x16_9_0 : ∀ a, (![9, 0] : Fin 2 → Nat) a + S1x16.size a ≤ S16x16.size a
  inb_S16x16_S1x16_10_0 : ∀ a, (![10, 0] : Fin 2 → Nat) a + S1x16.size a ≤ S16x16.size a
  inb_S16x16_S1x16_11_0 : ∀ a, (![11, 0] : Fin 2 → Nat) a + S1x16.size a ≤ S16x16.size a
  inb_S16x16_S1x16_12_0 : ∀ a, (![12, 0] : Fin 2 → Nat) a + S1x16.size a ≤ S16x16.size a
  inb_S16x16_S1x16_13_0 : ∀ a, (![13, 0] : Fin 2 → Nat) a + S1x16.size a ≤ S16x16.size a
  inb_S16x16_S1x16_14_0 : ∀ a, (![14, 0] : Fin 2 → Nat) a + S1x16.size a ≤ S16x16.size a
  inb_S16x16_S1x16_15_0 : ∀ a, (![15, 0] : Fin 2 → Nat) a + S1x16.size a ≤ S16x16.size a
  inb_S1x16_S1x16_0_0 : ∀ a, (![0, 0] : Fin 2 → Nat) a + S1x16.size a ≤ S1x16.size a
  shapeCasts_S1x16_S1x16 : S1x16.ShapeCasts S1x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  dot_S512x512_S512x2048_S512x2048_1_0_0_1_n_n_wf : DotDims.WF S512x512 S512x2048 S512x2048 [1] [0] [0] [1] [] []
  dot_S512x512_S512x4096_S512x4096_1_0_0_1_n_n_wf : DotDims.WF S512x512 S512x4096 S512x4096 [1] [0] [0] [1] [] []
  hcc0_scoped0 : 0 + S_.numel ≤ 17
  hcc0_scoped1 : 1 + S_.numel ≤ 17
  hcc0_scoped2 : 2 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ (r : Fin 8), ∀ a, (k0_off1 k0_t1 (BitVec.ofNat 32 r.val)) a + S16.size a ≤ S8208.size a
  k0_t2_ok : k0_t2_loop.OK
  k0_off2_inb : ∀ k0_t2 : Fin k0_t2_loop.trips, ∀ a, (k0_off2 k0_t2) a + S16.size a ≤ S8192.size a
  k0_off3_inb : ∀ k0_t2 : Fin k0_t2_loop.trips, ∀ a, (k0_off3 k0_t2) a + S16.size a ≤ S8192.size a
  k0_off4_inb : ∀ k0_t2 : Fin k0_t2_loop.trips, ∀ a, (k0_off4 k0_t2) a + S16.size a ≤ S8192.size a
  k0_off5_inb : ∀ k0_t2 : Fin k0_t2_loop.trips, ∀ a, (k0_off5 k0_t2) a + S16.size a ≤ S8192.size a
  k0_off6_inb : ∀ k0_t2 : Fin k0_t2_loop.trips, ∀ a, (k0_off6 k0_t2) a + S16.size a ≤ S8192.size a
  k0_off7_inb : ∀ k0_t2 : Fin k0_t2_loop.trips, ∀ a, (k0_off7 k0_t2) a + S16.size a ≤ S8192.size a
  k0_off8_inb : ∀ k0_t2 : Fin k0_t2_loop.trips, ∀ a, (k0_off8 k0_t2) a + S16.size a ≤ S8192.size a
  k0_off9_inb : ∀ k0_t2 : Fin k0_t2_loop.trips, ∀ a, (k0_off9 k0_t2) a + S16.size a ≤ S8192.size a
  k0_off10_inb : ∀ i : grid0.Coords, ∀ a, (k0_off10 i) a + S8192.size a ≤ S262144.size a
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .f32 = 32 ∨ (Rect.block (s := S512x512) S512x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x512x256.size a ≤ S8x512x512.size a
  hwx1_9 : ∀ i : grid1.Coords, EltTy.bits .bf16 = 32 ∨ (Rect.block (s := S8x512x512) S8x512x256.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S16x16.size a ≤ S16x16.size a
  hwx1_10 : ∀ i : grid1.Coords, EltTy.bits .f32 = 32 ∨ (Rect.block (s := S16x16) S16x16.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x16.size a ≤ S1x16.size a
  hwx1_11 : ∀ i : grid1.Coords, EltTy.bits .f32 = 32 ∨ (Rect.block (s := S1x16) S1x16.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512x16.size a ≤ S512x16.size a
  hwx1_12 : ∀ i : grid1.Coords, EltTy.bits .f32 = 32 ∨ (Rect.block (s := S512x16) S512x16.size (cc1_transform_12 i) (hinb1_12 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win1_0 : Pipeline.Window sig grid1 :=
  Pipeline.Window.ofSpec (Memref.whole main_v5) S1x1.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x16.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x16.size cc1_transform_4 reads1_4 false false 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x16.size cc1_transform_5 reads1_5 false false 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x16.size cc1_transform_6 reads1_6 false false 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x16.size cc1_transform_7 reads1_7 false false 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v2) S8x512x256.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S16x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S1x16.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v11) S512x16.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S1x512x512x8 : Shape := ⟨4, ![1, 512, 512, 8]⟩
abbrev S2x8192 : Shape := ⟨2, ![2, 8192]⟩
abbrev S8x16 : Shape := ⟨2, ![8, 16]⟩
abbrev S16 : Shape := ⟨1, ![16]⟩
abbrev S16x16 : Shape := ⟨2, ![16, 16]⟩
abbrev S_ : Shape := ⟨0, ![]⟩
abbrev S512x512x8 : Shape := ⟨3, ![512, 512, 8]⟩
abbrev S512 : Shape := ⟨1, ![512]⟩
abbrev S1x512 : Shape := ⟨2, ![1, 512]⟩
abbrev S1x1x1x512 : Shape := ⟨4, ![1, 1, 1, 512]⟩
abbrev S512x1x1x512 : Shape := ⟨4, ![512, 1, 1, 512]⟩
abbrev S512x512 : Shape := ⟨2, ![512, 512]⟩
abbrev S1x8192 : Shape := ⟨2, ![1, 8192]⟩
abbrev S8192 : Shape := ⟨1, ![8192]⟩
abbrev S8192x1 : Shape := ⟨2, ![8192, 1]⟩
abbrev S8192x512x8 : Shape := ⟨3, ![8192, 512, 8]⟩
abbrev S512x512x16 : Shape := ⟨3, ![512, 512, 16]⟩
abbrev S1x1x16 : Shape := ⟨3, ![1, 1, 16]⟩
abbrev S8192x512x16 : Shape := ⟨3, ![8192, 512, 16]⟩
abbrev S512x512x1 : Shape := ⟨3, ![512, 512, 1]⟩
abbrev S512x16 : Shape := ⟨2, ![512, 16]⟩

abbrev nBuf : Space → Nat
  | .hbm => 92
  | .vmem => 0
  | .smem => 0
  | _ => 0

abbrev bufTy : (tb : Table) → Fin (tcTables nBuf tb) → BufTy
  | .hbm, ⟨0, _⟩ => ⟨S1x512x512x8, .f32⟩
  | .hbm, ⟨1, _⟩ => ⟨S2x8192, .i32⟩
  | .hbm, ⟨2, _⟩ => ⟨S8x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S_, .f32⟩
  | .hbm, ⟨12, _⟩ => ⟨S512x512x8, .f32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S1x512, .i1⟩
  | .hbm, ⟨18, _⟩ => ⟨S1x1x1x512, .i1⟩
  | .hbm, ⟨19, _⟩ => ⟨S512x1x1x512, .i1⟩
  | .hbm, ⟨20, _⟩ => ⟨S512x512, .i1⟩
  | .hbm, ⟨21, _⟩ => ⟨S1x8192, .i32⟩
  | .hbm, ⟨22, _⟩ => ⟨S8192, .i32⟩
  | .hbm, ⟨23, _⟩ => ⟨S1x8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x512x8, .f32⟩
  | .hbm, ⟨34, _⟩ => ⟨S_, .f32⟩
  | .hbm, ⟨35, _⟩ => ⟨S512x512x8, .f32⟩
  | .hbm, ⟨36, _⟩ => ⟨S8192x1, .i32⟩
  | .hbm, ⟨37, _⟩ => ⟨S512x512x8, .f32⟩
  | .hbm, ⟨38, _⟩ => ⟨S_, .f32⟩
  | .hbm, ⟨39, _⟩ => ⟨S_, .f32⟩
  | .hbm, ⟨40, _⟩ => ⟨S512x512x8, .f32⟩
  | .hbm, ⟨41, _⟩ => ⟨S512x512x8, .f32⟩
  | .hbm, ⟨42, _⟩ => ⟨S512x512x8, .f32⟩
  | .hbm, ⟨43, _⟩ => ⟨S512x512x16, .f32⟩
  | .hbm, ⟨44, _⟩ => ⟨S1x1x16, .f32⟩
  | .hbm, ⟨45, _⟩ => ⟨S512x512x16, .f32⟩
  | .hbm, ⟨46, _⟩ => ⟨S512x512x16, .f32⟩
  | .hbm, ⟨47, _⟩ => ⟨S_, .f32⟩
  | .hbm, ⟨48, _⟩ => ⟨S512x512x16, .f32⟩
  | .hbm, ⟨49, _⟩ => ⟨S512x512x16, .f32⟩
  | .hbm, ⟨50, _⟩ => ⟨S512x512x16, .f32⟩
  | .hbm, ⟨51, _⟩ => ⟨S1x1x16, .f32⟩
  | .hbm, ⟨52, _⟩ => ⟨S512x512x16, .f32⟩
  | .hbm, ⟨53, _⟩ => ⟨S512x512x16, .f32⟩
  | .hbm, ⟨54, _⟩ => ⟨S_, .f32⟩
  | .hbm, ⟨55, _⟩ => ⟨S512x512x16, .f32⟩
  | .hbm, ⟨56, _⟩ => ⟨S512x512x16, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S8192x512x16, .f32⟩
  | .hbm, ⟨66, _⟩ => ⟨S_, .f32⟩
  | .hbm, ⟨67, _⟩ => ⟨S512x512x16, .f32⟩
  | .hbm, ⟨68, _⟩ => ⟨S8192x1, .i32⟩
  | .hbm, ⟨69, _⟩ => ⟨S512x512x16, .f32⟩
  | .hbm, ⟨70, _⟩ => ⟨S_, .f32⟩
  | .hbm, ⟨71, _⟩ => ⟨S_, .f32⟩
  | .hbm, ⟨72, _⟩ => ⟨S512x512x16, .f32⟩
  | .hbm, ⟨73, _⟩ => ⟨S512x512x16, .f32⟩
  | .hbm, ⟨74, _⟩ => ⟨S512x512x16, .f32⟩
  | .hbm, ⟨75, _⟩ => ⟨S512x512x16, .f32⟩
  | .hbm, ⟨76, _⟩ => ⟨S1x1x16, .f32⟩
  | .hbm, ⟨77, _⟩ => ⟨S512x512x16, .f32⟩
  | .hbm, ⟨78, _⟩ => ⟨S512x512x16, .f32⟩
  | .hbm, ⟨79, _⟩ => ⟨S_, .f32⟩
  | .hbm, ⟨80, _⟩ => ⟨S512x512x16, .f32⟩
  | .hbm, ⟨81, _⟩ => ⟨S512x512x16, .f32⟩
  | .hbm, ⟨82, _⟩ => ⟨S512x512x16, .f32⟩
  | .hbm, ⟨83, _⟩ => ⟨S1x1x16, .f32⟩
  | .hbm, ⟨84, _⟩ => ⟨S512x512x16, .f32⟩
  | .hbm, ⟨85, _⟩ => ⟨S512x512x16, .f32⟩
  | .hbm, ⟨86, _⟩ => ⟨S512x512x1, .i1⟩
  | .hbm, ⟨87, _⟩ => ⟨S512x512x1, .f32⟩
  | .hbm, ⟨88, _⟩ => ⟨S512x512x16, .f32⟩
  | .hbm, ⟨89, _⟩ => ⟨S512x512x16, .f32⟩
  | .hbm, ⟨90, _⟩ => ⟨S_, .f32⟩
  | .hbm, ⟨91, _⟩ => ⟨S512x16, .f32⟩
  | _, _ => ⟨S1x512x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_cst : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  shapeCasts_S1x512x512x8_S512x512x8 : S1x512x512x8.ShapeCasts S512x512x8
  bcast_S_S512 : S_.BroadcastsInDim S512 (![] : Fin 0 → Fin S512.rank)
  bcast_S512_S1x512_1 : S512.BroadcastsInDim S1x512 (![1] : Fin 1 → Fin S1x512.rank)
  shapeCasts_S1x512_S1x1x1x512 : S1x512.ShapeCasts S1x1x1x512
  bcast_S1x1x1x512_S512x1x1x512_0_1_2_3 : S1x1x1x512.BroadcastsInDim S512x1x1x512 (![0, 1, 2, 3] : Fin 4 → Fin S512x1x1x512.rank)
  shapeCasts_S512x1x1x512_S512x512 : S512x1x1x512.ShapeCasts S512x512
  slices_S2x8192_S1x8192_0_0 : S2x8192.Slices ![0, 0] S1x8192
  shapeCasts_S1x8192_S8192 : S1x8192.ShapeCasts S8192
  slices_S2x8192_S1x8192_1_0 : S2x8192.Slices ![1, 0] S1x8192
  bcast_S_S8192 : S_.BroadcastsInDim S8192 (![] : Fin 0 → Fin S8192.rank)
  bcast_S8192_S8192x1_0 : S8192.BroadcastsInDim S8192x1 (![0] : Fin 1 → Fin S8192x1.rank)
  bcast_S_S512x512x8 : S_.BroadcastsInDim S512x512x8 (![] : Fin 0 → Fin S512x512x8.rank)
  bcast_S16_S1x1x16_2 : S16.BroadcastsInDim S1x1x16 (![2] : Fin 1 → Fin S1x1x16.rank)
  bcast_S1x1x16_S512x512x16_0_1_2 : S1x1x16.BroadcastsInDim S512x512x16 (![0, 1, 2] : Fin 3 → Fin S512x512x16.rank)
  bcast_S_S512x512x16 : S_.BroadcastsInDim S512x512x16 (![] : Fin 0 → Fin S512x512x16.rank)
  bcast_S512x512_S512x512x1_0_1 : S512x512.BroadcastsInDim S512x512x1 (![0, 1] : Fin 2 → Fin S512x512x1.rank)
  bcast_S512x512x1_S512x512x16_0_1_2 : S512x512x1.BroadcastsInDim S512x512x16 (![0, 1, 2] : Fin 3 → Fin S512x512x16.rank)
  reducesTo_S512x512x16_S512x16_d1 : S512x512x16.ReducesTo [1] S512x16
  h_S_ : 0 < S_.numel
  gather_S512x512x8_S8192x1_S8192x512x8_12_0_n_n_0_1_15128_wf : GatherDims.WF S512x512x8 S8192x1 S8192x512x8 [1, 2] [0] [] [0] [] 1 ![1, 512, 8]
  scatter_S512x512x8_S8192x1_S8192x512x8_12_0_0_1_wf : ScatterDims.WF S512x512x8 S8192x1 S8192x512x8 [1, 2] [0] [0] 1
  dot_S512x512x8_S8x16_S512x512x16_2_0_01_1_n_n_wf : DotDims.WF S512x512x8 S8x16 S512x512x16 [2] [0] [0, 1] [1] [] []
  dot_S512x512x16_S16x16_S512x512x16_2_0_01_1_n_n_wf : DotDims.WF S512x512x16 S16x16 S512x512x16 [2] [0] [0, 1] [1] [] []
  gather_S512x512x16_S8192x1_S8192x512x16_12_0_n_n_0_1_151216_wf : GatherDims.WF S512x512x16 S8192x1 S8192x512x16 [1, 2] [0] [] [0] [] 1 ![1, 512, 16]
  scatter_S512x512x16_S8192x1_S8192x512x16_12_0_0_1_wf : ScatterDims.WF S512x512x16 S8192x1 S8192x512x16 [1, 2] [0] [0] 1

variable [Facts₀]

def gather_S512x512x8_S8192x1_S8192x512x8_12_0_n_n_0_1_15128 : GatherDims S512x512x8 S8192x1 S8192x512x8 where
  offsetDims := [1, 2]
  collapsedSliceDims := [0]
  operandBatchingDims := []
  startIndicesBatchingDims := []
  startIndexMap := [0]
  indexVectorDim := 1
  sliceSizes := ![1, 512, 8]
  wf := gather_S512x512x8_S8192x1_S8192x512x8_12_0_n_n_0_1_15128_wf
def scatter_S512x512x8_S8192x1_S8192x512x8_12_0_0_1 : ScatterDims S512x512x8 S8192x1 S8192x512x8 where
  updateWindowDims := [1, 2]
  insertedWindowDims := [0]
  scatterDimsToOperandDims := [0]
  indexVectorDim := 1
  wf := scatter_S512x512x8_S8192x1_S8192x512x8_12_0_0_1_wf
def dot_S512x512x8_S8x16_S512x512x16_2_0_01_1_n_n : DotDims S512x512x8 S8x16 S512x512x16 where
  lhsContracting := [2]
  rhsContracting := [0]
  lhsNonContracting := [0, 1]
  rhsNonContracting := [1]
  lhsBatch := []
  rhsBatch := []
  wf := dot_S512x512x8_S8x16_S512x512x16_2_0_01_1_n_n_wf
def dot_S512x512x16_S16x16_S512x512x16_2_0_01_1_n_n : DotDims S512x512x16 S16x16 S512x512x16 where
  lhsContracting := [2]
  rhsContracting := [0]
  lhsNonContracting := [0, 1]
  rhsNonContracting := [1]
  lhsBatch := []
  rhsBatch := []
  wf := dot_S512x512x16_S16x16_S512x512x16_2_0_01_1_n_n_wf
def gather_S512x512x16_S8192x1_S8192x512x16_12_0_n_n_0_1_151216 : GatherDims S512x512x16 S8192x1 S8192x512x16 where
  offsetDims := [1, 2]
  collapsedSliceDims := [0]
  operandBatchingDims := []
  startIndicesBatchingDims := []
  startIndexMap := [0]
  indexVectorDim := 1
  sliceSizes := ![1, 512, 16]
  wf := gather_S512x512x16_S8192x1_S8192x512x16_12_0_n_n_0_1_151216_wf
def scatter_S512x512x16_S8192x1_S8192x512x16_12_0_0_1 : ScatterDims S512x512x16 S8192x1 S8192x512x16 where
  updateWindowDims := [1, 2]
  insertedWindowDims := [0]
  scatterDimsToOperandDims := [0]
  indexVectorDim := 1
  wf := scatter_S512x512x16_S8192x1_S8192x512x16_12_0_0_1_wf

class Facts : Prop extends Facts₀ where

variable [Facts]
-- ==== Proof.IdealSetup.lean ====
/-
  The idealized kernel program as the SparseCore launch theorem sees it: its configuration, the facts the launch
  decides, the ghost algebra (the launch handshakes' rounds beside the pipeline's rounds and the local transfers'
  counters), and the arrays the two kernels touch.

  The program: three host operations make x0p (the features re-laid as [8, 512, 512]); a vector-subcore kernel on
  2 × 16 tiles builds the adjacency COUNT matrix, tile w = 16 c + s owning rows [16 w, 16 w + 16) of it, i.e. the
  8192 consecutive words [8192 w, 8192 w + 8192) of the flat result; host reshapes; then one TensorCore region
  computes the two GIN layers and the row sums.
-/
import proofs.«208141_g20598663152203_cont_8to1_341_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208141_g20598663152203_cont_8to1_341_30_alg».proof.Proof.Gen.KernelIdeal
import proofs.«208141_g20598663152203_cont_8to1_341_30_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds, the left factor; the pipeline's rounds and the transfers' counters sit in the right. -/
abbrev EH : Emb UH (MT nD τ sig (HIx 1) (Elt F) ℕ UU ℕ) := embL

/-! ## The arrays -/

variable (m : (ℓ : Loc nD τ sig) → Buf (Elt F) ℓ) (ρ : Dev nD → PrngReg)

/-- The edge list (row 0 the sources, row 1 the destinations) and the flat count matrix, as locations of device `d`. -/
abbrev eLoc (d : Dev nD) : Loc nD τ sig := (SparseCore.T d).loc main_arg1
abbrev aLoc (d : Dev nD) : Loc nD τ sig := (SparseCore.T d).loc main_v3

end Cert.Proof.KI

end
-- ==== Proof.Lane.lean ====
/-
  The index a lane of the adjacency kernel adds at: for an edge with destination word d and source word s, on the
  tile whose first row is lo (a multiple of 16, at most 496), it is (d - lo) * 512 + s when lo ≤ d < lo + 16 as
  signed words, and the spare slot 8192 otherwise. With s ≤ 511 it is below 8208, the accumulator's length: in the
  first case 0 ≤ d - lo ≤ 15, so the index is at most 15 * 512 + 511 = 8191 and no operation wraps.
-/
import Idealize.ShloMosaic.PureOps.Vector

namespace Cert.Proof.Lane

open Idealize.ShloMosaic

/-- The lane's index. -/
def lin (lo d s : BitVec 32) : BitVec 32 :=
  Scalar.select (IntOp.andi (IntOp.cmpi .sge d lo) (IntOp.cmpi .slt d (Scalar.addi lo 16#32)))
    (IntOp.addi (IntOp.muli (IntOp.subi d lo) 512#32) s) 8192#32

theorem andi_ofBool (p q : Bool) : IntOp.andi (BitVec.ofBool p) (BitVec.ofBool q) = BitVec.ofBool (p && q) := by
  cases p <;> cases q <;> decide

theorem ofBool_eq_one (p : Bool) : (BitVec.ofBool p = (1 : BitVec 1)) ↔ p = true := by cases p <;> decide

/-- Inside the tile's window the index is the row offset times 512 plus the source. -/
theorem lin_of_mem (lo d s : BitVec 32) (hlo : lo.toNat ≤ 496) (hs : s.toNat ≤ 511)
    (h : IntOp.andi (IntOp.cmpi .sge d lo) (IntOp.cmpi .slt d (Scalar.addi lo 16#32)) = (1 : BitVec 1)) :
    lo.toNat ≤ d.toNat ∧ d.toNat < lo.toNat + 16 ∧ (lin lo d s).toNat = (d.toNat - lo.toNat) * 512 + s.toNat := by
  have h' := h
  simp only [IntOp.cmpi, andi_ofBool, ofBool_eq_one, Bool.and_eq_true, BitVec.sle_eq_decide, BitVec.slt_eq_decide,
    decide_eq_true_eq, BitVec.toInt_eq_toNat_cond, Scalar.addi, IntOp.addi, BitVec.toNat_add, BitVec.toNat_ofNat,
    Nat.reducePow, Nat.reduceMod] at h'
  have hd := d.isLt
  have h1 : lo.toNat ≤ d.toNat ∧ d.toNat < lo.toNat + 16 := by omega
  refine ⟨h1.1, h1.2, ?_⟩
  unfold lin
  rw [Scalar.select, if_pos h]
  simp only [IntOp.addi, IntOp.muli, IntOp.subi, BitVec.toNat_add, BitVec.toNat_mul, BitVec.toNat_sub, BitVec.toNat_ofNat,
    Nat.reducePow, Nat.reduceMod]
  omega

/-- Outside it the index is the spare slot. -/
theorem lin_of_not_mem (lo d s : BitVec 32)
    (h : ¬ IntOp.andi (IntOp.cmpi .sge d lo) (IntOp.cmpi .slt d (Scalar.addi lo 16#32)) = (1 : BitVec 1)) :
    lin lo d s = 8192#32 := by
  unfold lin; rw [Scalar.select, if_neg h]

/-- The index names a word of the accumulator. -/
theorem lin_lt (lo d s : BitVec 32) (hlo : lo.toNat ≤ 496) (hs : s.toNat ≤ 511) : (lin lo d s).toNat < 8208 := by
  by_cases h : IntOp.andi (IntOp.cmpi .sge d lo) (IntOp.cmpi .slt d (Scalar.addi lo 16#32)) = (1 : BitVec 1)
  · obtain ⟨h1, h2, h3⟩ := lin_of_mem lo d s hlo hs h
    rw [h3]; omega
  · rw [lin_of_not_mem lo d s h]; decide

end Cert.Proof.Lane
-- ==== Proof.IdealTile.lean ====
/-
  One tile's task of the adjacency kernel, on vector subcore (L 0, L 1) of device d: it clears its accumulator,
  fetches the source row and the destination row of the edge list into its two index scratches, adds one at
  (dst - 16 w) * 512 + src for every edge whose destination lies in its sixteen rows (every other edge adds into the
  spare slot 8192), and writes the first 8192 words of the accumulator out to its own 8192 words of the result.
-/
import proofs.«208141_g20598663152203_cont_8to1_341_30_alg».proof.Proof.IdealSetup
import proofs.«208141_g20598663152203_cont_8to1_341_30_alg».proof.Proof.Lane

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "eW" => (Memref.whole Cert.KernelIdeal.main_arg1_scv : Memref Cert.KernelIdeal.sig Kind.scVector Space.hbm Cert.KernelIdeal.S2x8192 EltTy.i32)
local notation "aW" => (Memref.whole Cert.KernelIdeal.main_v3_scv : Memref Cert.KernelIdeal.sig Kind.scVector Space.hbm Cert.KernelIdeal.S262144 EltTy.f32)
local notation "sS" => (Memref.whole Cert.KernelIdeal.cc0_scratch0 : Memref Cert.KernelIdeal.sig Kind.scVector Space.vmem Cert.KernelIdeal.S8192 EltTy.i32)
local notation "sD" => (Memref.whole Cert.KernelIdeal.cc0_scratch1 : Memref Cert.KernelIdeal.sig Kind.scVector Space.vmem Cert.KernelIdeal.S8192 EltTy.i32)
local notation "sA" => (Memref.whole Cert.KernelIdeal.cc0_scratch2 : Memref Cert.KernelIdeal.sig Kind.scVector Space.vmem Cert.KernelIdeal.S8208 EltTy.f32)

/-- What the proof asks of the launch memory: every word of the edge list is at most 511 (as an unsigned word). -/
def PreOK : Prop := ∀ (d : Dev nD) (j : S2x8192.Idx), (m (eLoc d) j).toNat ≤ 511

section Tile

variable (d : Dev nD) (L : grid0.Coords)

abbrev cV (L : grid0.Coords) : Fin τ.nSC := (L 0).castLE hcore0
abbrev jV (L : grid0.Coords) : Fin τ.nSub := (L 1).castLE hsub0

/-- The tile's 8192 words of the flat result, as the kernel slices them. -/
abbrev aOut (L : grid0.Coords) : Memref sig .scVector .hbm S8192 .f32 :=
  (aW).slice (Rect.unit (s := S262144) (k0_off10 L) S8192.size (k0_off10_inb L)) (fun _ => rfl)

abbrev cAcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cBcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc0_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The first row of the tile, as the kernel computes it: 16 (16 c + s) with c < 2 and s < 16, at most 496. -/
abbrev loW (L : grid0.Coords) : BitVec 32 :=
  Scalar.muli (Scalar.addi (Scalar.muli (BitVec.ofNat 32 (L 0).val) 16#32) (BitVec.ofNat 32 (L 1).val)) 16#32

theorem loW_le : (loW L).toNat ≤ 496 := by
  have h0 : (L 0).val < 2 := (L 0).isLt
  have h1 : (L 1).val < 16 := (L 1).isLt
  simp only [loW, Scalar.muli, Scalar.addi, IntOp.muli, IntOp.addi, BitVec.toNat_mul, BitVec.toNat_add, BitVec.toNat_ofNat,
    Nat.reducePow, Nat.reduceMod]
  omega

/-- Every lane of an index vector built from sources at most 511 names a word of the accumulator. -/
theorem chk_lanes (lo : BitVec 32) (hlo : lo.toNat ≤ 496) (vd vs : IVec S16 32) (hs : ∀ x, (vs x).toNat ≤ 511) :
    ∀ a x, ((![fun x => Lane.lin lo (vd x) (vs x)] : Fin 1 → IVec S16 32) a x).toNat < S8208.size a := by
  intro a x
  obtain rfl : a = 0 := Subsingleton.elim _ _
  exact Lane.lin_lt lo (vd x) (vs x) hlo (hs x)

theorem pay1_eq (lo : BitVec 32) (vd vs : IVec S16 32) : k0_pay1 (F := F) lo vd vs = fun x => Lane.lin lo (vd x) (vs x) := rfl
theorem pay2_eq (lo : BitVec 32) (vd vs : IVec S16 32) : k0_pay2 (F := F) lo vd vs = fun x => Lane.lin lo (vd x) (vs x) := rfl
theorem pay3_eq (lo : BitVec 32) (vd vs : IVec S16 32) : k0_pay3 (F := F) lo vd vs = fun x => Lane.lin lo (vd x) (vs x) := rfl
theorem pay4_eq (lo : BitVec 32) (vd vs : IVec S16 32) : k0_pay4 (F := F) lo vd vs = fun x => Lane.lin lo (vd x) (vs x) := rfl
theorem pay5_eq (lo : BitVec 32) (vd vs : IVec S16 32) : k0_pay5 (F := F) lo vd vs = fun x => Lane.lin lo (vd x) (vs x) := rfl
theorem pay6_eq (lo : BitVec 32) (vd vs : IVec S16 32) : k0_pay6 (F := F) lo vd vs = fun x => Lane.lin lo (vd x) (vs x) := rfl
theorem pay10_eq (vd vs : IVec S16 32) : k0_pay10 (F := F) L vd vs (k0_pay7 (loW L)) = fun x => Lane.lin (loW L) (vd x) (vs x) := rfl
theorem pay11_eq (vd vs : IVec S16 32) : k0_pay11 (F := F) L vd vs = fun x => Lane.lin (loW L) (vd x) (vs x) := rfl

theorem chk1 (lo : BitVec 32) (hlo : lo.toNat ≤ 496) (vd vs : IVec S16 32) (hs : ∀ x, (vs x).toNat ≤ 511) : k0_chk1 (k0_pay1 (F := F) lo vd vs) := by
  rw [pay1_eq]; exact chk_lanes lo hlo vd vs hs
theorem chk2 (lo : BitVec 32) (hlo : lo.toNat ≤ 496) (vd vs : IVec S16 32) (hs : ∀ x, (vs x).toNat ≤ 511) : k0_chk2 (k0_pay2 (F := F) lo vd vs) := by
  rw [pay2_eq]; exact chk_lanes lo hlo vd vs hs
theorem chk3 (lo : BitVec 32) (hlo : lo.toNat ≤ 496) (vd vs : IVec S16 32) (hs : ∀ x, (vs x).toNat ≤ 511) : k0_chk3 (k0_pay3 (F := F) lo vd vs) := by
  rw [pay3_eq]; exact chk_lanes lo hlo vd vs hs
theorem chk4 (lo : BitVec 32) (hlo : lo.toNat ≤ 496) (vd vs : IVec S16 32) (hs : ∀ x, (vs x).toNat ≤ 511) : k0_chk4 (k0_pay4 (F := F) lo vd vs) := by
  rw [pay4_eq]; exact chk_lanes lo hlo vd vs hs
theorem chk5 (lo : BitVec 32) (hlo : lo.toNat ≤ 496) (vd vs : IVec S16 32) (hs : ∀ x, (vs x).toNat ≤ 511) : k0_chk5 (k0_pay5 (F := F) lo vd vs) := by
  rw [pay5_eq]; exact chk_lanes lo hlo vd vs hs
theorem chk6 (lo : BitVec 32) (hlo : lo.toNat ≤ 496) (vd vs : IVec S16 32) (hs : ∀ x, (vs x).toNat ≤ 511) : k0_chk6 (k0_pay6 (F := F) lo vd vs) := by
  rw [pay6_eq]; exact chk_lanes lo hlo vd vs hs
theorem chk7 (vd vs : IVec S16 32) (hs : ∀ x, (vs x).toNat ≤ 511) : k0_chk7 (k0_pay10 (F := F) L vd vs (k0_pay7 (loW L))) := by
  rw [pay10_eq]; exact chk_lanes (loW L) (loW_le L) vd vs hs
theorem chk8 (vd vs : IVec S16 32) (hs : ∀ x, (vs x).toNat ≤ 511) : k0_chk8 (k0_pay11 (F := F) L vd vs) := by
  rw [pay11_eq]; exact chk_lanes (loW L) (loW_le L) vd vs hs

/-- A vector loaded from a whole scratch whose words are at most 511 has lanes at most 511. -/
theorem readAt_le (g : S8192.Idx → BitVec 32) (hg : ∀ j, (g j).toNat ≤ 511) (off : Fin 1 → Nat) (h : ∀ a, off a + S16.size a ≤ S8192.size a) :
    ∀ x : S16.Idx, ((sS).view.readAt (Elt F) (Rect.unit (s := S8192) off S16.size h).toLoadRect g x).toNat ≤ 511 := by
  intro x
  simp only [View.readAt_apply, Memref.view_whole, View.read_whole]
  exact hg _

/-- The clearing loop's invariant: the accumulator whole, at some contents. -/
def inv1 (d : Dev nD) (c : Fin τ.nSC) (i : Fin τ.nSub) (_ : Nat) (_ : BitVec 32) : sProp 𝕄 :=
  iprop(∃ f, (sA).view.loc (V d c i) ↦{fullShare} f)

/-- The edge loop's invariant: the source scratch at words at most 511, the destination scratch and the accumulator whole. -/
def inv2 (d : Dev nD) (c : Fin τ.nSC) (i : Fin τ.nSub) (_ : Nat) (_ : BitVec 32) : sProp 𝕄 :=
  iprop((∃ g0 : S8192.Idx → BitVec 32, ((sS).view.loc (V d c i) ↦{fullShare} g0) ∗ ⌜∀ j, (g0 j).toNat ≤ 511⌝) ∗ (∃ g1, (sD).view.loc (V d c i) ↦{fullShare} g1)
    ∗ ∃ f, (sA).view.loc (V d c i) ↦{fullShare} f)

/-- The tile's words of the flat result, as a set of indices of the whole array. -/
def tileSetL (L : grid0.Coords) : Finset S262144.Idx := (aOut L).view.set

theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_a (f : Buf (Elt F) (aLoc d)) :
    ((aOut L).view.loc (V d (cV L) (jV L)) ↦[(aOut L).view.set]{fullShare} f : sProp 𝕄) = aLoc d ↦[tileSetL L]{fullShare} f := rfl
theorem pts_s0 (f : Buf (Elt F) ((V d (cV L) (jV L)).loc cc0_scratch0)) :
    ((sS).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((sD).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl

variable [FloatOps F]

set_option maxHeartbeats 8000000 in
set_option sl_exec.dischHeartbeats 400000 in
/-- The task. -/
theorem tile_body (q : PosShare TreeShare) (hF : (K (F := F)).Facts) (hpre : PreOK m) (O : CellTallies nD τ sig (HIx 1)) (W : Waits sig (HIx 1)) (hO : ∀ g, O g none = 0) :
    iprop((levAts (K (F := F)).L (K (F := F)).lev : sProp 𝕄) ∗ (emp : sProp 𝕄)
        ∗ ((eLoc d ↦{q} m (eLoc d)) ∗ (aLoc d ↦[tileSetL L]{fullShare} m (aLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_adj L eW (Memref.isWhole_whole _) aW (Memref.isWhole_whole _)
            sS (Memref.isWhole_whole _) sD (Memref.isWhole_whole _) sA (Memref.isWhole_whole _) cc0_scoped0 cc0_scoped1 cc0_scoped2)
          fun _ => iprop(((eLoc d ↦{q} m (eLoc d)) ∗ ∃ f, (aLoc d ↦[tileSetL L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_adj_eq_skeleton]; unfold cc0_adj_skel
  rw [(K (F := F)).scopedBufs_V hF d (cV L) (jV L), SparseCore.Cfg.scopedSems0_V (Val := Elt F) d (cV L) (jV L), ownSems0_V, ownBufs_V]
  iintro ⟨#Hlv, -, ⟨He, Ha⟩, ⟨⟨%f0, Hs0⟩, ⟨%f1, Hs1⟩, ⟨%f2, Hs2⟩, Hbufs⟩, ⟨HsemA, HsemX, HsemB, Hsems⟩, HO⟩
  ihave Hmw := ((K (F := F)).mayWaits_none (thr := V d (cV L) (jV L)) hO) $$ Hlv
  ihave He := (Entails.of_eq (pts_e (F := F) d L q _).symm) $$ He
  ihave Ha := (Entails.of_eq (pts_a (F := F) d L _).symm) $$ Ha
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  sl_exec
  sl_for (inv1 (F := F) d (cV L) (jV L)) $$ [Hs2]
  case region =>
    intro k _
    unfold inv1
    iintro ⟨%f, Hs2⟩
    sl_exec
    sl_step
    iexists _; iexact Hs2
  · unfold inv1
    iexists _; iexact Hs2
  iintro %_ HI
  unfold inv1
  icases HI with ⟨%f2', Hs2⟩
  sl_exec
  sl_for (inv2 (F := F) d (cV L) (jV L)) $$ [Hs0 Hs1 Hs2]
  case region =>
    intro k _
    unfold inv2
    iintro ⟨⟨%g0, Hs0, %hg0⟩, ⟨%g1, Hs1⟩, ⟨%f, Hs2⟩⟩
    sl_exec
    iapply (wp_assume _ _ _ _ (chk1 (F := F) (loW L) (loW_le L) _ _ (readAt_le (F := F) g0 hg0 _ _)))
    rw [SparseCore.vectorStoreIdx_bind (c := V d (cV L) (jV L))]
    sl_exec
    iapply (wp_assume _ _ _ _ (chk2 (F := F) (loW L) (loW_le L) _ _ (readAt_le (F := F) g0 hg0 _ _)))
    rw [SparseCore.vectorStoreIdx_bind (c := V d (cV L) (jV L))]
    sl_exec
    iapply (wp_assume _ _ _ _ (chk3 (F := F) (loW L) (loW_le L) _ _ (readAt_le (F := F) g0 hg0 _ _)))
    rw [SparseCore.vectorStoreIdx_bind (c := V d (cV L) (jV L))]
    sl_exec
    iapply (wp_assume _ _ _ _ (chk4 (F := F) (loW L) (loW_le L) _ _ (readAt_le (F := F) g0 hg0 _ _)))
    rw [SparseCore.vectorStoreIdx_bind (c := V d (cV L) (jV L))]
    sl_exec
    iapply (wp_assume _ _ _ _ (chk5 (F := F) (loW L) (loW_le L) _ _ (readAt_le (F := F) g0 hg0 _ _)))
    rw [SparseCore.vectorStoreIdx_bind (c := V d (cV L) (jV L))]
    sl_exec
    iapply (wp_assume _ _ _ _ (chk6 (F := F) (loW L) (loW_le L) _ _ (readAt_le (F := F) g0 hg0 _ _)))
    rw [SparseCore.vectorStoreIdx_bind (c := V d (cV L) (jV L))]
    sl_exec
    iapply (wp_assume _ _ _ _ (chk7 (F := F) L _ _ (readAt_le (F := F) g0 hg0 _ _)))
    rw [SparseCore.vectorStoreIdx_bind (c := V d (cV L) (jV L))]
    sl_exec
    iapply (wp_assume _ _ _ _ (chk8 (F := F) L _ _ (readAt_le (F := F) g0 hg0 _ _)))
    rw [SparseCore.vectorStoreIdx_bind (c := V d (cV L) (jV L))]
    sl_exec
    sl_step
    isplitl [Hs0]
    · iexists g0; isplitl [Hs0]
      · iexact Hs0
      · ipureintro; exact hg0
    isplitl [Hs1]
    · iexists _; iexact Hs1
    · iexists _; iexact Hs2
  · unfold inv2
    isplitl [Hs0]
    · iexists _; isplitl [Hs0]
      · iexact Hs0
      · ipureintro; intro j
        show ((View.whole cc0_scratch0).write (Elt F) f0 _ Finset.univ j).toNat ≤ 511
        rw [View.write_whole_univ]
        first
          | exact hpre d _
          | exact (le_of_eq (congrArg BitVec.toNat ((View.read_apply _ _).trans (cast_eq _ _)))).trans (hpre d _)
    isplitl [Hs1]
    · iexists _; iexact Hs1
    · iexists _; iexact Hs2
  iintro %_ HI
  unfold inv2
  icases HI with ⟨⟨%g0, Hs0, -⟩, ⟨%g1, Hs1⟩, ⟨%fA, Hs2⟩⟩
  sl_exec
  sl_step
  isplitl [He Ha]
  · isplitl [He]
    · iapply (Entails.of_eq (pts_e (F := F) d L q _)); iexact He
    · iexists _; iapply (Entails.of_eq (pts_a (F := F) d L _)); iexact Ha
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemA HsemX HsemB Hsems]
  · isplitl [HsemA]; · iexact HsemA
    isplitl [HsemX]; · iexact HsemX
    isplitl [HsemB]; · iexact HsemB
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Proof.KI

end
-- ==== Proof.IdealSplit.lean ====
/-
  How the adjacency call's operands are dealt to the thirty-two tiles and gathered back.

  The flat result has 262144 words; tile (c, s) owns the 8192 words from 131072 c + 8192 s on: the ranges of the
  thirty-two tiles are pairwise disjoint and cover the array. The edge list is only read: the TensorCore keeps a
  share of it, each SparseCore is lent a share, and each tile a share of its SparseCore's.
-/
import proofs.«208141_g20598663152203_cont_8to1_341_30_alg».proof.Proof.IdealTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg1_scv : Memref Cert.KernelIdeal.sig Kind.scVector Space.hbm Cert.KernelIdeal.S2x8192 EltTy.i32)
local notation "aW" => (Memref.whole Cert.KernelIdeal.main_v3_scv : Memref Cert.KernelIdeal.sig Kind.scVector Space.hbm Cert.KernelIdeal.S262144 EltTy.f32)
local notation "sS" => (Memref.whole Cert.KernelIdeal.cc0_scratch0 : Memref Cert.KernelIdeal.sig Kind.scVector Space.vmem Cert.KernelIdeal.S8192 EltTy.i32)
local notation "sD" => (Memref.whole Cert.KernelIdeal.cc0_scratch1 : Memref Cert.KernelIdeal.sig Kind.scVector Space.vmem Cert.KernelIdeal.S8192 EltTy.i32)
local notation "sA" => (Memref.whole Cert.KernelIdeal.cc0_scratch2 : Memref Cert.KernelIdeal.sig Kind.scVector Space.vmem Cert.KernelIdeal.S8208 EltTy.f32)

variable (m : (ℓ : Loc nD τ sig) → Buf (Elt F) ℓ)

/-! ## The tiles' ranges -/

/-- The words of tile (c, s): the indices from 131072 c + 8192 s up to the next 8192. -/
def tset (c s : ℕ) : Finset S262144.Idx :=
  Finset.univ.filter fun j => 131072 * c + 8192 * s ≤ (j 0).val ∧ (j 0).val < 131072 * c + 8192 * s + 8192

/-- The slice a tile writes out to is its range. -/
theorem tileSetL_eq (L : grid0.Coords) : tileSetL L = tset (L 0).val (L 1).val := by
  ext j
  unfold tileSetL tset
  rw [show (aOut L).view.set = (Rect.unit (s := S262144) (k0_off10 L) S8192.size (k0_off10_inb L)).set from View.set_slice_whole _ _,
    Rect.mem_set_unit, Finset.mem_filter]
  simp only [Finset.mem_univ, true_and]
  constructor
  · intro h
    have h0 := h 0
    rw [k0_off10_eq] at h0
    exact h0
  · intro h a
    obtain rfl : a = 0 := Subsingleton.elim _ _
    rw [k0_off10_eq]
    exact h

def coordsV (c : Fin (grid0.bound 0)) (s : Fin (grid0.bound 1)) : grid0.Coords :=
  fun | 0 => c | 1 => s | ⟨_ + 2, h⟩ => absurd h (Nat.not_lt.2 (Nat.le_add_left _ _))

/-- Two different tiles' ranges do not meet. -/
theorem tset_disjoint : ∀ p ∈ (Finset.univ : Finset (Fin 2 × Fin 16)), ∀ p' ∈ (Finset.univ : Finset (Fin 2 × Fin 16)), p ≠ p' →
    Disjoint (tset p.1.val p.2.val) (tset p'.1.val p'.2.val) := by
  intro p _ p' _ hne
  refine Finset.disjoint_left.mpr fun j h1 h2 => hne ?_
  simp only [tset, Finset.mem_filter, Finset.mem_univ, true_and] at h1 h2
  have a1 := p.1.isLt; have a2 := p.2.isLt; have b1 := p'.1.isLt; have b2 := p'.2.isLt
  exact Prod.ext (Fin.ext (by omega)) (Fin.ext (by omega))

/-- Every word lies in some tile's range. -/
theorem tset_cover : (Finset.univ : Finset (Fin 2 × Fin 16)).biUnion (fun p => tset p.1.val p.2.val) = Finset.univ := by
  ext j
  simp only [Finset.mem_biUnion, Finset.mem_univ, true_and, iff_true]
  have hj : (j 0).val < 262144 := (j 0).isLt
  refine ⟨(⟨(j 0).val / 131072, by omega⟩, ⟨(j 0).val % 131072 / 8192, by omega⟩), ?_⟩
  simp only [tset, Finset.mem_filter, Finset.mem_univ, true_and]
  omega

/-- The result array whole is its thirty-two ranges. -/
theorem aPts_tiles (d : Dev nD) (f : Buf (Elt F) (aLoc d)) :
    (aLoc d ↦{fullShare} f : sProp 𝕄)
      = bigSep Finset.univ fun c : Fin 2 => bigSep Finset.univ fun s : Fin 16 => aLoc d ↦[tset c.val s.val]{fullShare} f := by
  rw [← bigSep_univ_prod (fun p : Fin 2 × Fin 16 => (aLoc d ↦[tset p.1.val p.2.val]{fullShare} f : sProp 𝕄)),
    ← pointsTo_biUnion Finset.univ (ℓ := aLoc d) (fun p : Fin 2 × Fin 16 => tset p.1.val p.2.val) tset_disjoint, tset_cover]

/-! ## What the handshakes carry -/

/-- The share of the edge list lent to SparseCore c, and to its tile s. -/
abbrev eCore (c : ℕ) : PosShare TreeShare := Transfers.shareTokN fullShare c
abbrev eTile (c s : ℕ) : PosShare TreeShare := Transfers.shareTokN (eCore c) s

/-- The call takes, per SparseCore, a share of the edge list and its sixteen ranges of the result; per tile a share
    and its range; and brings them back, the ranges at what the tiles wrote. -/
def P : (K (F := F)).Pay (nD := nD) (Val := Elt F) (Name := ℕ) (U := UU) where
  st := fun _ d c => iprop((eLoc d ↦{eCore c.val} m (eLoc d)) ∗ bigSep Finset.univ fun s : Fin 16 => aLoc d ↦[tset c.val s.val]{fullShare} m (aLoc d))
  dn := fun _ d c => iprop((eLoc d ↦{eCore c.val} m (eLoc d)) ∗ bigSep Finset.univ fun s : Fin 16 => iprop(∃ f, aLoc d ↦[tset c.val s.val]{fullShare} f))
  go := fun _ d c s => iprop((eLoc d ↦{eTile c.val s.val} m (eLoc d)) ∗ aLoc d ↦[tset c.val s.val]{fullShare} m (aLoc d))
  td := fun _ d c s => iprop((eLoc d ↦{eTile c.val s.val} m (eLoc d)) ∗ ∃ f, aLoc d ↦[tset c.val s.val]{fullShare} f)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

variable [FloatOps F]

theorem defs₀_vector (c : Fin τ.nSC) (s : Fin τ.nSub) :
    defs₀ (F := F) (.scVector c s) 0 ()
      = SparseCore.onTile hcore0 hsub0 (fun c s => cc0_adj (coordsV c s)
          eW (Memref.isWhole_whole _) aW (Memref.isWhole_whole _)
          sS (Memref.isWhole_whole _) sD (Memref.isWhole_whole _) sA (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body m d (coordsV ⟨_, hc.1⟩ ⟨_, hc.2⟩) (eTile c.val i.val) hF hpre O W hO
  rw [tileSetL_eq] at h
  exact h.trans (wp_mono frame _ _ fun _ => obl_post)

theorem vecSplit : (K (F := F)).VecSplit' (P m) 0 := by
  intro d c
  show iprop((eLoc d ↦{eCore c.val} m (eLoc d)) ∗ bigSep Finset.univ fun s : Fin 16 => aLoc d ↦[tset c.val s.val]{fullShare} m (aLoc d))
    ⊢ |={Set.univ}=> iprop(
      (bigSep Finset.univ fun s : Fin 16 => iprop((eLoc d ↦{eTile c.val s.val} m (eLoc d)) ∗ aLoc d ↦[tset c.val s.val]{fullShare} m (aLoc d)))
      ∗ ((bigSep Finset.univ fun s : Fin 16 => iprop((eLoc d ↦{eTile c.val s.val} m (eLoc d)) ∗ ∃ f, aLoc d ↦[tset c.val s.val]{fullShare} f))
          -∗ iprop((eLoc d ↦{eCore c.val} m (eLoc d)) ∗ bigSep Finset.univ fun s : Fin 16 => iprop(∃ f, aLoc d ↦[tset c.val s.val]{fullShare} f))))
  rw [bigSep_sep', bigSep_sep']
  iintro ⟨He, Ha⟩
  ihave He' := (Transfers.pointsTo_toks_split (eCore c.val) 16) $$ He
  icases He' with ⟨Hdrop, Htoks⟩
  imodintro
  isplitl [Htoks Ha]
  · isplitl [Htoks]; · iexact Htoks
    iexact Ha
  iintro ⟨Htoks, Ha⟩
  isplitl [Hdrop Htoks]
  · iapply (Transfers.pointsTo_toks_join (eCore c.val) 16)
    isplitl [Hdrop]; · iexact Hdrop
    iexact Htoks
  · iexact Ha

end Cert.Proof.KI

end
-- ==== Proof.RegionFrameBody.lean ====
import proofs.«208141_g20598663152203_cont_8to1_341_30_alg».proof.Proof.Gen.KernelIdeal.Skeleton
import Idealize.ShloMosaic.Lib.Tactic

noncomputable section

namespace Cert.KernelIdeal.Region

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

-- the run is one elaboration step over the body's 79 printed parts
set_option maxHeartbeats 4000000 in
/-- The kernel body at any grid point, on any whole staging memrefs: from the thirteen buffers held whole it runs to its
    return, nothing faulting, and hands back the twelve operands' buffers as they were and the result's at some contents. -/
theorem kernelRun (𝒱₀ : Variants) (c : Dev nD) (i : grid1.Coords)
    (M1 : Memref sig .tc .smem S1x1 .f32) (h1 : M1.IsWhole) (M2 : Memref sig .tc .smem S1x1 .f32) (h2 : M2.IsWhole) (M3 : Memref sig .tc .smem S8x16 .f32) (h3 : M3.IsWhole) (M4 : Memref sig .tc .smem S16x16 .f32) (h4 : M4.IsWhole) (M5 : Memref sig .tc .smem S16x16 .f32) (h5 : M5.IsWhole) (M6 : Memref sig .tc .smem S1x16 .f32) (h6 : M6.IsWhole) (M7 : Memref sig .tc .smem S1x16 .f32) (h7 : M7.IsWhole) (M8 : Memref sig .tc .smem S1x16 .f32) (h8 : M8.IsWhole) (M9 : Memref sig .tc .vmem S512x512 .f32) (h9 : M9.IsWhole) (M10 : Memref sig .tc .vmem S8x512x256 .bf16) (h10 : M10.IsWhole) (M11 : Memref sig .tc .vmem S16x16 .f32) (h11 : M11.IsWhole) (M12 : Memref sig .tc .vmem S1x16 .f32) (h12 : M12.IsWhole) (M13 : Memref sig .tc .vmem S512x16 .f32) (h13 : M13.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)
    (E : Set Name) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
        ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ (∃ f, pt c M13 f)) -∗ Q ⟨⟩))
      ⊢ wp frame (wpE (defs₀ (F := F)) 𝒱₀ c none) E (cc1__gin_body i M1 h1 M2 h2 M3 h3 M4 h4 M5 h5 M6 h6 M7 h7 M8 h8 M9 h9 M10 h10 M11 h11 M12 h12 M13 h13) Q := by
  iintro ⟨H1, H2, H3, H4, H5, H6, H7, H8, H9, H10, H11, H12, H13, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

end Cert.KernelIdeal.Region
-- ==== Proof.RegionFrame.lean ====
import proofs.«208141_g20598663152203_cont_8to1_341_30_alg».proof.Proof.RegionFrameBody
import proofs.«208141_g20598663152203_cont_8to1_341_30_alg».proof.Proof.Gen.KernelIdeal.Launch
import proofs.«208141_g20598663152203_cont_8to1_341_30_alg».proof.Proof.Gen.KernelIdeal.Points
import Idealize.ShloMosaic.Lib.Pipeline.Regions

noncomputable section

namespace Cert.KernelIdeal.Region

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A valuation of the TensorCore's buffers on every core: what the region is entered at. -/
abbrev Val1 (F : FTy → Type) := (c : Dev nD) → (b : Ref sig .tc) → Buf (Elt F) ((c : Thread nD τ).loc b)

/-- The region's proof data on core `c`: the windows' arrays at the valuation `V`; nothing said of what the body leaves
    in a staging buffer; the invariant the scoped buffers no window stages; the core owing `O c` throughout, its recorded
    pairs within `B c`. -/
def rdats (V : Val1 F) (O : Dev nD → CellTallies nD τ sig Ix) (B : Dev nD → Set (SemLoc sig × Ix))
    (_ : Fin 1) (c : Dev nD) : RDat τ (Elt F) Ix Name U Lvl cfg1 c where
  A w := V c (Pipeline.arrRef spec1 w)
  after _ _ _ _ := True
  Φ _ := Pipeline.scopedRest (Ix := Ix) (Name := Name) (U := U) (Lvl := Lvl) (Val := Elt F) spec1 c
  q _ := fullShare
  owed _ := O c
  recorded _ := B c

abbrev adm : (p : Fin 1) → (pcfgs (F := F) p).Adm := fun p => (cfgs p).toPCfg_adm

/-- The twelve operand arrays, whole, at `V`. -/
def operands (V : Val1 F) (c : Dev nD) : sProp 𝕄 :=
  iprop((((c : Thread nD τ).loc main_v5) ↦{fullShare} V c main_v5) ∗ (((c : Thread nD τ).loc main_v6) ↦{fullShare} V c main_v6)
    ∗ (((c : Thread nD τ).loc main_arg2) ↦{fullShare} V c main_arg2) ∗ (((c : Thread nD τ).loc main_arg4) ↦{fullShare} V c main_arg4)
    ∗ (((c : Thread nD τ).loc main_arg7) ↦{fullShare} V c main_arg7) ∗ (((c : Thread nD τ).loc main_v7) ↦{fullShare} V c main_v7)
    ∗ (((c : Thread nD τ).loc main_v8) ↦{fullShare} V c main_v8) ∗ (((c : Thread nD τ).loc main_v9) ↦{fullShare} V c main_v9)
    ∗ (((c : Thread nD τ).loc main_v4) ↦{fullShare} V c main_v4) ∗ (((c : Thread nD τ).loc main_v2) ↦{fullShare} V c main_v2)
    ∗ (((c : Thread nD τ).loc main_arg9) ↦{fullShare} V c main_arg9) ∗ (((c : Thread nD τ).loc main_v10) ↦{fullShare} V c main_v10))

/-- What the region is entered from: the operands and the result's array whole, and the core's `owes`. -/
def regionPre (V : Val1 F) (O : Dev nD → CellTallies nD τ sig Ix) (B : Dev nD → Set (SemLoc sig × Ix)) (c : Dev nD) : sProp 𝕄 :=
  iprop(operands V c ∗ (((c : Thread nD τ).loc main_v11) ↦{fullShare} V c main_v11) ∗ Pipeline.owesWithin c (O c) (B c))

/-- What it leaves: the operands as they were, the result's array at some contents, the core's `owes` with the loop's own
    wait pairs recorded. -/
def regionPost (ι : Ix) (V : Val1 F) (O : Dev nD → CellTallies nD τ sig Ix) (B : Dev nD → Set (SemLoc sig × Ix)) (c : Dev nD) : sProp 𝕄 :=
  iprop(operands V c ∗ (∃ f, ((c : Thread nD τ).loc main_v11) ↦{fullShare} f) ∗ Pipeline.owesWithin c (O c) (B c ∪ cfg1.waitPairs ι))

variable (V : Val1 F) (O : Dev nD → CellTallies nD τ sig Ix) (B : Dev nD → Set (SemLoc sig × Ix)) (ι : Ix)
  (𝒱₀ : Variants) (L : GSem nD τ sig → Finset Ix) (lv : GSem nD τ sig → Ix → Lvl)

/-- Every array is held at the full share. -/
theorem share_eq (c : Dev nD) (w : Fin cfg1.W) : (rdats (Name := Name) (U := U) (Lvl := Lvl) V O B 0 c).share w = fullShare :=
  (rdats V O B 0 c).share_full (fun _ => rfl) w

/-- A window's array, as the pipeline holds it, is its buffer held whole. -/
theorem arr_pt (c : Dev nD) (w : Fin cfg1.W) (G : Buf (Elt F) ((cfg1.win w).arr.view.loc (c : Thread nD τ))) :
    (((cfg1.win w).arr.view.loc (c : Thread nD τ)) ↦[(cfg1.win w).arr.view.set]{(rdats (Name := Name) (U := U) (Lvl := Lvl) V O B 0 c).share w} G : sProp 𝕄)
      = (((c : Thread nD τ).loc (Pipeline.arrRef spec1 w)) ↦{fullShare} G : sProp 𝕄) := by
  rw [(arr_whole1 w).set_eq_univ, share_eq]

/-- An operand's array is never written back. -/
theorem arrAt_in (c : Dev nD) (w : Fin cfg1.W) (hw : (cfg1.win w).isOut = false) (n : Nat)
    (G : Buf (Elt F) ((cfg1.win w).arr.view.loc (c : Thread nD τ))) :
    (rdats (Name := Name) (U := U) (Lvl := Lvl) V O B 0 c).ArrAt w n G ↔ G = (rdats (Name := Name) (U := U) (Lvl := Lvl) V O B 0 c).A w := by
  rw [(rdats (Name := Name) (U := U) (Lvl := Lvl) V O B 0 c).ArrAt_in w hw]

/-- Buffer `b` held whole at `V` is window `w`'s array at the entry contents, `b` being that array's buffer. -/
theorem entry_pt (c : Dev nD) (w : Fin cfg1.W) (b : Ref sig .tc) (hb : Pipeline.arrRef spec1 w = b) :
    (((c : Thread nD τ).loc b) ↦{fullShare} V c b : sProp 𝕄)
      ⊢ (((cfg1.win w).arr.view.loc (c : Thread nD τ)) ↦[(cfg1.win w).arr.view.set]{(rdats (Name := Name) (U := U) (Lvl := Lvl) V O B 0 c).share w} (rdats (Name := Name) (U := U) (Lvl := Lvl) V O B 0 c).A w : sProp 𝕄) := by
  subst hb
  rw [arr_pt]
  exact BI.Entails.refl _

/-- An operand's array after the region: its buffer whole at `V`. -/
theorem exit_pt (c : Dev nD) (w : Fin cfg1.W) (hw : (cfg1.win w).isOut = false) (b : Ref sig .tc) (hb : Pipeline.arrRef spec1 w = b) (n : Nat) :
    iprop(∃ G, ⌜(rdats (Name := Name) (U := U) (Lvl := Lvl) V O B 0 c).ArrAt w n G⌝ ∗ (((cfg1.win w).arr.view.loc (c : Thread nD τ)) ↦[(cfg1.win w).arr.view.set]{(rdats (Name := Name) (U := U) (Lvl := Lvl) V O B 0 c).share w} G : sProp 𝕄))
      ⊢ (((c : Thread nD τ).loc b) ↦{fullShare} V c b : sProp 𝕄) := by
  subst hb
  iintro ⟨%G, %hG, H⟩
  obtain rfl := (arrAt_in V O B c w hw n G).mp hG
  ihave H' := (Entails.of_eq (arr_pt V O B c w _)) $$ H
  iexact H'

/-- The result's array after the region: its buffer whole at some contents. -/
theorem exit_pt_out (c : Dev nD) (w : Fin cfg1.W) (b : Ref sig .tc) (hb : Pipeline.arrRef spec1 w = b) (n : Nat) :
    iprop(∃ G, ⌜(rdats (Name := Name) (U := U) (Lvl := Lvl) V O B 0 c).ArrAt w n G⌝ ∗ (((cfg1.win w).arr.view.loc (c : Thread nD τ)) ↦[(cfg1.win w).arr.view.set]{(rdats (Name := Name) (U := U) (Lvl := Lvl) V O B 0 c).share w} G : sProp 𝕄))
      ⊢ iprop(∃ f, (((c : Thread nD τ).loc b) ↦{fullShare} f : sProp 𝕄)) := by
  subst hb
  iintro ⟨%G, -, H⟩
  ihave H' := (Entails.of_eq (arr_pt V O B c w _)) $$ H
  iexists G
  iexact H'

theorem entry_entails (c : Dev nD) :
    iprop(regionPre V O B c ∗ Pipeline.ownSems0 (fun k : PEmpty => k.elim) c ∗ levAts L lv)
      ⊢ |={Set.univ}=> iprop((rdats (Name := Name) (U := U) (Lvl := Lvl) V O B 0 c).arrays (rdats (Name := Name) (U := U) (Lvl := Lvl) V O B 0 c).A ∗ Pipeline.prefHeld (pcfgs (F := F) 0).pre c (fun _ => fullShare) (adm (F := F) 0).1
        ∗ (rdats (Name := Name) (U := U) (Lvl := Lvl) V O B 0 c).owesAt ι 0 ∗ (iprop(emp) : sProp 𝕄) ∗ (iprop(emp) : sProp 𝕄)) := by
  unfold regionPre operands RDat.arrays
  rw [bigSep_W1]
  iintro ⟨⟨⟨H0, H1, H2, H3, H4, H5, H6, H7, H8, H9, H10, H11⟩, H12, HO⟩, -, -⟩
  imodintro
  isplitl [H0 H1 H2 H3 H4 H5 H6 H7 H8 H9 H10 H11 H12]
  · isplitl [H0]; · iapply (entry_pt V O B c 0 _ rfl); iexact H0
    isplitl [H1]; · iapply (entry_pt V O B c 1 _ rfl); iexact H1
    isplitl [H2]; · iapply (entry_pt V O B c 2 _ rfl); iexact H2
    isplitl [H3]; · iapply (entry_pt V O B c 3 _ rfl); iexact H3
    isplitl [H4]; · iapply (entry_pt V O B c 4 _ rfl); iexact H4
    isplitl [H5]; · iapply (entry_pt V O B c 5 _ rfl); iexact H5
    isplitl [H6]; · iapply (entry_pt V O B c 6 _ rfl); iexact H6
    isplitl [H7]; · iapply (entry_pt V O B c 7 _ rfl); iexact H7
    isplitl [H8]; · iapply (entry_pt V O B c 8 _ rfl); iexact H8
    isplitl [H9]; · iapply (entry_pt V O B c 9 _ rfl); iexact H9
    isplitl [H10]; · iapply (entry_pt V O B c 10 _ rfl); iexact H10
    isplitl [H11]; · iapply (entry_pt V O B c 11 _ rfl); iexact H11
    iapply (entry_pt V O B c 12 _ rfl); iexact H12
  isplitr
  · unfold Pipeline.prefHeld; rw [show (Finset.univ : Finset (Fin 0)) = ∅ from rfl, BI.bigSep_empty]; iempintro
  isplitl [HO]
  · iapply (Pipeline.owesWithin_mono c (O c) Set.subset_union_left); iexact HO
  isplitr <;> iempintro

theorem exit_entails (c : Dev nD) :
    iprop((rdats (Name := Name) (U := U) (Lvl := Lvl) V O B 0 c).arraysAt cfg1.N ∗ (rdats (Name := Name) (U := U) (Lvl := Lvl) V O B 0 c).owesAt ι (Fin.last cfg1.N) ∗ (iprop(emp) : sProp 𝕄) ∗ (iprop(emp) : sProp 𝕄))
      ⊢ |={Set.univ}=> regionPost ι V O B c := by
  unfold regionPost operands RDat.arraysAt
  rw [bigSep_W1]
  iintro ⟨⟨H0, H1, H2, H3, H4, H5, H6, H7, H8, H9, H10, H11, H12⟩, HO, -, -⟩
  imodintro
  isplitl [H0 H1 H2 H3 H4 H5 H6 H7 H8 H9 H10 H11]
  · isplitl [H0]; · iapply (exit_pt V O B c 0 rfl _ rfl); iexact H0
    isplitl [H1]; · iapply (exit_pt V O B c 1 rfl _ rfl); iexact H1
    isplitl [H2]; · iapply (exit_pt V O B c 2 rfl _ rfl); iexact H2
    isplitl [H3]; · iapply (exit_pt V O B c 3 rfl _ rfl); iexact H3
    isplitl [H4]; · iapply (exit_pt V O B c 4 rfl _ rfl); iexact H4
    isplitl [H5]; · iapply (exit_pt V O B c 5 rfl _ rfl); iexact H5
    isplitl [H6]; · iapply (exit_pt V O B c 6 rfl _ rfl); iexact H6
    isplitl [H7]; · iapply (exit_pt V O B c 7 rfl _ rfl); iexact H7
    isplitl [H8]; · iapply (exit_pt V O B c 8 rfl _ rfl); iexact H8
    isplitl [H9]; · iapply (exit_pt V O B c 9 rfl _ rfl); iexact H9
    isplitl [H10]; · iapply (exit_pt V O B c 10 rfl _ rfl); iexact H10
    iapply (exit_pt V O B c 11 rfl _ rfl); iexact H11
  isplitl [H12]
  · iapply (exit_pt_out V O B c 12 _ rfl); iexact H12
  iexact HO

/-- A whole memref owned at some contents is its buffer held whole at some contents. -/
theorem owns_pt (c : Dev nD) {sp : Space} {sh : Shape} {e : EltTy} (M : Memref sig .tc sp sh e) (h : M.IsWhole) (X : sh.Idx → Elt F e) :
    (owns (c : Thread nD τ) M fullShare X : sProp 𝕄) ⊢ iprop(∃ f, pt c M f) := by
  unfold owns
  rw [h.set_eq_univ]
  iintro ⟨%f, -, H⟩
  iexists f
  iexact H

/-- and back, at what the memref reads of the contents. -/
theorem pt_owns (c : Dev nD) {sp : Space} {sh : Shape} {e : EltTy} (M : Memref sig .tc sp sh e) (h : M.IsWhole) (f : Bf (F := F) c M) :
    (pt c M f : sProp 𝕄) ⊢ iprop(∃ X, ⌜True⌝ ∗ owns (c : Thread nD τ) M fullShare X) := by
  unfold owns
  rw [h.set_eq_univ]
  iintro H
  iexists (M.view.read (Elt F) f)
  isplitr; · ipureintro; trivial
  iexists f
  isplitr; · ipureintro; rfl
  iexact H

/-- The body at point `t`, on what the pipeline calls it with: from the invariant, the core's `owes` and the thirteen
    current staging buffers at any contents, to the same with the buffers at some contents. -/
theorem sound_body (c : Dev nD) (t : Fin cfg1.N) (Y : (w : Fin cfg1.W) → (cfg1.win w).block.Idx → Elt F (cfg1.win w).elt) :
    iprop((rdats (Name := Name) (U := U) (Lvl := Lvl) V O B 0 c).Φ t.castSucc ∗ (rdats (Name := Name) (U := U) (Lvl := Lvl) V O B 0 c).owesAt ι t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8)
        ∗ owns (c : Thread nD τ) (st1_9 t) fullShare (Y 9)
        ∗ owns (c : Thread nD τ) (st1_10 t) fullShare (Y 10)
        ∗ owns (c : Thread nD τ) (st1_11 t) fullShare (Y 11)
        ∗ owns (c : Thread nD τ) (st1_12 t) fullShare (Y 12))
      ⊢ wp frame (wpE (defs₀ (F := F)) 𝒱₀ c none) Set.univ (bodyAt1 t) fun _ =>
          iprop((rdats (Name := Name) (U := U) (Lvl := Lvl) V O B 0 c).Φ t.succ ∗ (rdats (Name := Name) (U := U) (Lvl := Lvl) V O B 0 c).owesAt ι t.succ
            ∗ (∃ X, ⌜(rdats (Name := Name) (U := U) (Lvl := Lvl) V O B 0 c).after 0 t (Y 0) X⌝ ∗ owns (c : Thread nD τ) (st1_0 t) fullShare X)
            ∗ (∃ X, ⌜(rdats (Name := Name) (U := U) (Lvl := Lvl) V O B 0 c).after 1 t (Y 1) X⌝ ∗ owns (c : Thread nD τ) (st1_1 t) fullShare X)
            ∗ (∃ X, ⌜(rdats (Name := Name) (U := U) (Lvl := Lvl) V O B 0 c).after 2 t (Y 2) X⌝ ∗ owns (c : Thread nD τ) (st1_2 t) fullShare X)
            ∗ (∃ X, ⌜(rdats (Name := Name) (U := U) (Lvl := Lvl) V O B 0 c).after 3 t (Y 3) X⌝ ∗ owns (c : Thread nD τ) (st1_3 t) fullShare X)
            ∗ (∃ X, ⌜(rdats (Name := Name) (U := U) (Lvl := Lvl) V O B 0 c).after 4 t (Y 4) X⌝ ∗ owns (c : Thread nD τ) (st1_4 t) fullShare X)
            ∗ (∃ X, ⌜(rdats (Name := Name) (U := U) (Lvl := Lvl) V O B 0 c).after 5 t (Y 5) X⌝ ∗ owns (c : Thread nD τ) (st1_5 t) fullShare X)
            ∗ (∃ X, ⌜(rdats (Name := Name) (U := U) (Lvl := Lvl) V O B 0 c).after 6 t (Y 6) X⌝ ∗ owns (c : Thread nD τ) (st1_6 t) fullShare X)
            ∗ (∃ X, ⌜(rdats (Name := Name) (U := U) (Lvl := Lvl) V O B 0 c).after 7 t (Y 7) X⌝ ∗ owns (c : Thread nD τ) (st1_7 t) fullShare X)
            ∗ (∃ X, ⌜(rdats (Name := Name) (U := U) (Lvl := Lvl) V O B 0 c).after 8 t (Y 8) X⌝ ∗ owns (c : Thread nD τ) (st1_8 t) fullShare X)
            ∗ (∃ X, ⌜(rdats (Name := Name) (U := U) (Lvl := Lvl) V O B 0 c).after 9 t (Y 9) X⌝ ∗ owns (c : Thread nD τ) (st1_9 t) fullShare X)
            ∗ (∃ X, ⌜(rdats (Name := Name) (U := U) (Lvl := Lvl) V O B 0 c).after 10 t (Y 10) X⌝ ∗ owns (c : Thread nD τ) (st1_10 t) fullShare X)
            ∗ (∃ X, ⌜(rdats (Name := Name) (U := U) (Lvl := Lvl) V O B 0 c).after 11 t (Y 11) X⌝ ∗ owns (c : Thread nD τ) (st1_11 t) fullShare X)
            ∗ (∃ X, ⌜(rdats (Name := Name) (U := U) (Lvl := Lvl) V O B 0 c).after 12 t (Y 12) X⌝ ∗ owns (c : Thread nD τ) (st1_12 t) fullShare X)) := by
  rw [show (rdats (Name := Name) (U := U) (Lvl := Lvl) V O B 0 c).Φ t.succ = (rdats (Name := Name) (U := U) (Lvl := Lvl) V O B 0 c).Φ t.castSucc from rfl,
    show (rdats (Name := Name) (U := U) (Lvl := Lvl) V O B 0 c).owesAt ι t.succ = (rdats (Name := Name) (U := U) (Lvl := Lvl) V O B 0 c).owesAt ι t.castSucc from rfl]
  iintro ⟨HΦ, HO, H0, H1, H2, H3, H4, H5, H6, H7, H8, H9, H10, H11, H12⟩
  ihave G0 := (owns_pt c (st1_0 t) (hstage1_0 ((cfg1.slots t 0).cast nbuf1_0)) (Y 0)) $$ H0
  icases G0 with ⟨%f0, G0⟩
  ihave G1 := (owns_pt c (st1_1 t) (hstage1_1 ((cfg1.slots t 1).cast nbuf1_1)) (Y 1)) $$ H1
  icases G1 with ⟨%f1, G1⟩
  ihave G2 := (owns_pt c (st1_2 t) (hstage1_2 ((cfg1.slots t 2).cast nbuf1_2)) (Y 2)) $$ H2
  icases G2 with ⟨%f2, G2⟩
  ihave G3 := (owns_pt c (st1_3 t) (hstage1_3 ((cfg1.slots t 3).cast nbuf1_3)) (Y 3)) $$ H3
  icases G3 with ⟨%f3, G3⟩
  ihave G4 := (owns_pt c (st1_4 t) (hstage1_4 ((cfg1.slots t 4).cast nbuf1_4)) (Y 4)) $$ H4
  icases G4 with ⟨%f4, G4⟩
  ihave G5 := (owns_pt c (st1_5 t) (hstage1_5 ((cfg1.slots t 5).cast nbuf1_5)) (Y 5)) $$ H5
  icases G5 with ⟨%f5, G5⟩
  ihave G6 := (owns_pt c (st1_6 t) (hstage1_6 ((cfg1.slots t 6).cast nbuf1_6)) (Y 6)) $$ H6
  icases G6 with ⟨%f6, G6⟩
  ihave G7 := (owns_pt c (st1_7 t) (hstage1_7 ((cfg1.slots t 7).cast nbuf1_7)) (Y 7)) $$ H7
  icases G7 with ⟨%f7, G7⟩
  ihave G8 := (owns_pt c (st1_8 t) (hstage1_8 ((cfg1.slots t 8).cast nbuf1_8)) (Y 8)) $$ H8
  icases G8 with ⟨%f8, G8⟩
  ihave G9 := (owns_pt c (st1_9 t) (hstage1_9 ((cfg1.slots t 9).cast nbuf1_9)) (Y 9)) $$ H9
  icases G9 with ⟨%f9, G9⟩
  ihave G10 := (owns_pt c (st1_10 t) (hstage1_10 ((cfg1.slots t 10).cast nbuf1_10)) (Y 10)) $$ H10
  icases G10 with ⟨%f10, G10⟩
  ihave G11 := (owns_pt c (st1_11 t) (hstage1_11 ((cfg1.slots t 11).cast nbuf1_11)) (Y 11)) $$ H11
  icases G11 with ⟨%f11, G11⟩
  ihave G12 := (owns_pt c (st1_12 t) (hstage1_12 ((cfg1.slots t 12).cast nbuf1_12)) (Y 12)) $$ H12
  icases G12 with ⟨%f12, G12⟩
  iapply (kernelRun 𝒱₀ c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) f0 f1 f2 f3 f4 f5 f6 f7 f8 f9 f10 f11 f12 Set.univ _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iintro ⟨G0, G1, G2, G3, G4, G5, G6, G7, G8, G9, G10, G11, ⟨%g12, G12⟩⟩
  isplitl [HΦ]; · iexact HΦ
  isplitl [HO]; · iexact HO
  isplitl [G0]; · iapply (pt_owns c (st1_0 t) (hstage1_0 ((cfg1.slots t 0).cast nbuf1_0)) _); iexact G0
  isplitl [G1]; · iapply (pt_owns c (st1_1 t) (hstage1_1 ((cfg1.slots t 1).cast nbuf1_1)) _); iexact G1
  isplitl [G2]; · iapply (pt_owns c (st1_2 t) (hstage1_2 ((cfg1.slots t 2).cast nbuf1_2)) _); iexact G2
  isplitl [G3]; · iapply (pt_owns c (st1_3 t) (hstage1_3 ((cfg1.slots t 3).cast nbuf1_3)) _); iexact G3
  isplitl [G4]; · iapply (pt_owns c (st1_4 t) (hstage1_4 ((cfg1.slots t 4).cast nbuf1_4)) _); iexact G4
  isplitl [G5]; · iapply (pt_owns c (st1_5 t) (hstage1_5 ((cfg1.slots t 5).cast nbuf1_5)) _); iexact G5
  isplitl [G6]; · iapply (pt_owns c (st1_6 t) (hstage1_6 ((cfg1.slots t 6).cast nbuf1_6)) _); iexact G6
  isplitl [G7]; · iapply (pt_owns c (st1_7 t) (hstage1_7 ((cfg1.slots t 7).cast nbuf1_7)) _); iexact G7
  isplitl [G8]; · iapply (pt_owns c (st1_8 t) (hstage1_8 ((cfg1.slots t 8).cast nbuf1_8)) _); iexact G8
  isplitl [G9]; · iapply (pt_owns c (st1_9 t) (hstage1_9 ((cfg1.slots t 9).cast nbuf1_9)) _); iexact G9
  isplitl [G10]; · iapply (pt_owns c (st1_10 t) (hstage1_10 ((cfg1.slots t 10).cast nbuf1_10)) _); iexact G10
  isplitl [G11]; · iapply (pt_owns c (st1_11 t) (hstage1_11 ((cfg1.slots t 11).cast nbuf1_11)) _); iexact G11
  iapply (pt_owns c (st1_12 t) (hstage1_12 ((cfg1.slots t 12).cast nbuf1_12)) _); iexact G12

/-- The library's body obligation, at every point. -/
theorem body_obligation (c : Dev nD) :
    (rdats (Name := Name) (U := U) (Lvl := Lvl) V O B 0 c).BodyObligation (defs₀ (F := F)) 𝒱₀ ι Set.univ := fun t Y _ => by
  rw [bigSep_W1, bigSep_W1]
  exact sound_body V O B ι 𝒱₀ c t Y

set_option backward.isDefEq.respectTransparency.types false in
/-- THE REGION as the library's record: the windows' decided layout, no semaphore of the kernel's own, the body obligation, and
    the entry / exit entailments around `regionPre` / `regionPost`. -/
def reg (hwaits : ∀ c, (levAts L lv : sProp 𝕄) ⊢ Pipeline.RDat.cellsWaits (Pipeline.pin (pcfgs (F := F)) adm) (rdats V O B) ι 0 c) :
    Pipeline.RDat.RegionSeg (pcfgs (F := F)) adm (rdats (Name := Name) (U := U) (Lvl := Lvl) V O B) ι defs₀ 𝒱₀ L lv 0 where
  win := launch1.win.to₀
  block_pos := launch1.block_pos
  stage_whole := launch1.stage_whole
  K := PEmpty
  osem := fun k => k.elim
  ho := Pipeline.OwnSemFacts.none _
  hbody c := body_obligation V O B ι 𝒱₀ c
  hwaits := hwaits
  pre := regionPre V O B
  post := regionPost ι V O B
  X _ := iprop(emp)
  Y _ := iprop(emp)
  Z _ := iprop(emp)
  hentry c := entry_entails V O B ι L lv c
  hin c := by
    rw [show (rdats (Name := Name) (U := U) (Lvl := Lvl) V O B 0 c).Φ 0 = Pipeline.scopedRest (Ix := Ix) (Name := Name) (U := U) (Lvl := Lvl) (Val := Elt F) spec1 c from rfl]
    iintro ⟨-, -, Hr⟩
    iexact Hr
  hout c := by
    rw [Pipeline.ownSems0_none, show (rdats (Name := Name) (U := U) (Lvl := Lvl) V O B 0 c).Φ (Fin.last cfg1.N) = Pipeline.scopedRest (Ix := Ix) (Name := Name) (U := U) (Lvl := Lvl) (Val := Elt F) spec1 c from rfl]
    iintro Hr
    isplitr; · iempintro
    isplitr; · iempintro
    iexact Hr
  hexit c := exit_entails V O B ι c

set_option backward.isDefEq.respectTransparency.types false in
/-- THE REGION CALL on core `c`'s TensorCore, under the pipelines' body table: from the region boundary, the thirteen arrays
    whole at `V`, the core's `owes`, the level facts and the pipeline's launch ghost state, `customCall (entry 0) ()` runs —
    every weakly fair execution of it terminates, nothing faulting — to the boundary, the twelve operands' arrays as they were,
    the result's at some contents, and the core's `owes`, for the continuation. -/
theorem region_wp [∀ e, Nonempty (Elt F e)] [Infinite Name]
    (EP : Emb (URounds (GSem nD τ sig) Unit) 𝕄) [EP.LandsIn (upEmb : UEmb _ 𝕄)]
    (hwaits : ∀ c, (levAts L lv : sProp 𝕄) ⊢ Pipeline.RDat.cellsWaits (Pipeline.pin (pcfgs (F := F)) adm) (rdats V O B) ι 0 c)
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ regionPost ι V O B c)
            -∗ wp frame (wpE (Pipeline.defs (pcfgs (F := F)) defs₀) (Variants.lift 𝒱₀) (c.tc : Thread nD τ) bd) Set.univ (k ⟨⟩) Q)
        ∗ boundary (c.tc : Thread nD τ) ∗ regionPre V O B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ
          (.op (.customCall (Pipeline.entry (0 : Fin 1)) ()) k) Q :=
  Pipeline.RDat.RegionSeg.wp (pcfgs (F := F)) adm (rdats V O B) ι cellOf_inj EP defs₀ 𝒱₀ L lv (reg V O B ι 𝒱₀ L lv hwaits) c bd hv k Q

end Cert.KernelIdeal.Region
-- ==== Proof.IdealMainA.lean ====
/-
  The idealized kernel program's run, first part: the launch element of the ghost state (the launch handshakes' rounds and
  the region's cells), @main on the TensorCore spelt as two lines of host operations around the adjacency call and
  before the region, and how the TensorCore's whole buffers are taken out of, and put back into, the set it holds.
-/
import proofs.«208141_g20598663152203_cont_8to1_341_30_alg».proof.Proof.IdealSplit
import proofs.«208141_g20598663152203_cont_8to1_341_30_alg».proof.Proof.RegionFrame
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after seq)
open Cert.KernelIdeal.Region (region_wp regionPre regionPost operands rdats adm Val1)

variable {F : FTy → Type}

local notation "𝕄" => MT nD τ sig (HIx 1) (Elt F) ℕ UU ℕ

variable (m : (ℓ : Loc nD τ sig) → Buf (Elt F) ℓ) (ρ : Dev nD → PrngReg)

/-! ## The pipeline's rounds in the algebra, and the launch element -/

/-- The pipeline's rounds: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

variable [FloatOps F]

/-- What @main's proof starts from on device d, beyond what the launch deals: the region's cells' ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  imod (Pipeline.fund_ghost (Pipeline.pin (pcfgs (F := F)) adm) (EP (F := F)) cellOf_inj) $$ [HR] with ⟨Hg, Ht⟩
  · iexact HR
  imodintro
  isplitl [HH]; · iexact HH
  isplitl [Hg Ht]
  · unfold G
    rw [bigSep_sep']
    isplitl [Hg]
    · iapply (Entails.of_eq (bigSep_congr fun (d : Dev nD) _ => (bigSep_univ_of_subsingleton (0 : Fin 1)
        (Φ := fun p => Pipeline.cellsGhost (Pipeline.pin (pcfgs (F := F)) adm) (EP (F := F)) p d))))
      iexact Hg
    · iapply (Entails.of_eq (bigSep_congr fun (d : Dev nD) _ => (bigSep_univ_of_subsingleton (0 : Fin 1)
        (Φ := fun p => Pipeline.toksInit (Pipeline.pin (pcfgs (F := F)) adm) (EP (F := F)) p d))))
      iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## @main on the TensorCore -/

/-- The host operations before the adjacency call, and those between it and the region. -/
def ops0 : List (HloOp τ sig (Elt F)) :=
  [StableHlo.reshape main_arg0 main_v0 rfl shapeCasts_S1x512x512x8_S512x512x8,
   StableHlo.unary main_v0 main_v1 ((truncf .bf16 · bitsLt_bf16_f32) : (⟨S512x512x8, .f32⟩ : BufTy).Contents (Elt F) → (⟨S512x512x8, .bf16⟩ : BufTy).Contents (Elt F)),
   StableHlo.unary main_v1 main_v2 ((transpose S8x512x512 [2, 0, 1] · transposes_S512x512x8_S8x512x512_2_0_1) : (⟨S512x512x8, .bf16⟩ : BufTy).Contents (Elt F) → (⟨S8x512x512, .bf16⟩ : BufTy).Contents (Elt F))]
def ops1 : List (HloOp τ sig (Elt F)) :=
  [StableHlo.reshape main_v3 main_v4 rfl shapeCasts_S262144_S512x512,
   StableHlo.reshape main_arg6 main_v5 rfl shapeCasts_S_S1x1,
   StableHlo.reshape main_arg11 main_v6 rfl shapeCasts_S_S1x1,
   StableHlo.reshape main_arg3 main_v7 rfl shapeCasts_S16_S1x16,
   StableHlo.reshape main_arg5 main_v8 rfl shapeCasts_S16_S1x16,
   StableHlo.reshape main_arg8 main_v9 rfl shapeCasts_S16_S1x16,
   StableHlo.reshape main_arg10 main_v10 rfl shapeCasts_S16_S1x16]

abbrev ΛS : Labels := SparseCore.Sig (ΛP (F := F)) 1

theorem main_eq (d : Dev nD) :
    main (F := F) d = ((seq ops0 : Prog (TpuEff nD τ sig (Elt F) (ΛS (F := F)) .tc) PUnit) >>= fun _ => (sc (F := F)).run d 0 >>= fun _ => (seq ops1 : Prog (TpuEff nD τ sig (Elt F) (ΛS (F := F)) .tc) PUnit) >>= fun _ =>
      (Prog.lift (.customCall (SparseCore.inner (Pipeline.entry 0)) ()) >>= fun _ => pure ⟨⟩)) := rfl

theorem hS0 : ∀ op ∈ (ops0 (F := F)), op.bufs ⊆ Pipeline.ucRefs τ sig := by
  intro op hop
  simp only [ops0, List.mem_cons, List.not_mem_nil, _root_.or_false] at hop
  rcases hop with rfl | rfl | rfl <;> exact Pipeline.sub_ucRefs _ (by simp)
theorem hf0 : ∀ op ∈ (ops0 (F := F)), op.fresh = ∅ := by
  intro op hop
  simp only [ops0, List.mem_cons, List.not_mem_nil, _root_.or_false] at hop
  rcases hop with rfl | rfl | rfl <;> rfl
theorem hS1 : ∀ op ∈ (ops1 (F := F)), op.bufs ⊆ Pipeline.ucRefs τ sig := by
  intro op hop
  simp only [ops1, List.mem_cons, List.not_mem_nil, _root_.or_false] at hop
  rcases hop with rfl | rfl | rfl | rfl | rfl | rfl | rfl <;> exact Pipeline.sub_ucRefs _ (by simp)
theorem hf1 : ∀ op ∈ (ops1 (F := F)), op.fresh = ∅ := by
  intro op hop
  simp only [ops1, List.mem_cons, List.not_mem_nil, _root_.or_false] at hop
  rcases hop with rfl | rfl | rfl | rfl | rfl | rfl | rfl <;> rfl

abbrev e' : DevRef τ sig := Proc.devRef .tc (main_arg1 : Ref sig .tc)
abbrev a' : DevRef τ sig := Proc.devRef .tc (main_v3 : Ref sig .tc)

omit [FloatOps F] in
theorem held_ea (d : Dev nD) (V : Valuation τ sig (Elt F)) :
    (held (SparseCore.T d) ({e', a'} : Finset (DevRef τ sig)) V : sProp 𝕄) = iprop((eLoc d ↦{fullShare} V e') ∗ (aLoc d ↦{fullShare} V a')) := by
  unfold held
  rw [SparseCore.bigSep_insert' (by decide), bigSep_singleton]

theorem hea : ({e', a'} : Finset (DevRef τ sig)) ⊆ Pipeline.ucRefs τ sig := by decide

theorem after0_e (d : Dev nD) : after (ops0 (F := F)) (StableHlo.launchContents m d) e' = m (eLoc d) := by
  unfold ops0; after_results
theorem after0_a (d : Dev nD) : after (ops0 (F := F)) (StableHlo.launchContents m d) a' = m (aLoc d) := by
  unfold ops0; after_results

/-- What the call takes for the two SparseCores, and what it hands back. -/
theorem st0_eq (d : Dev nD) : (bigSep Finset.univ fun c : Fin ((K (F := F)).nCore 0) => (P m).st 0 d c)
    = iprop((bigSep Finset.univ fun c : Fin 2 => eLoc d ↦{Transfers.shareTok fullShare 2 c} m (eLoc d))
        ∗ bigSep Finset.univ fun c : Fin 2 => bigSep Finset.univ fun s : Fin 16 => aLoc d ↦[tset c.val s.val]{fullShare} m (aLoc d)) := by
  show (bigSep (Finset.univ : Finset (Fin 2)) fun c => iprop((eLoc d ↦{eCore c.val} m (eLoc d))
    ∗ bigSep Finset.univ fun s : Fin 16 => aLoc d ↦[tset c.val s.val]{fullShare} m (aLoc d))) = _
  rw [bigSep_sep']
theorem dn0_eq (d : Dev nD) : (bigSep Finset.univ fun c : Fin ((K (F := F)).nCore 0) => (P m).dn 0 d c)
    = iprop((bigSep Finset.univ fun c : Fin 2 => eLoc d ↦{Transfers.shareTok fullShare 2 c} m (eLoc d))
        ∗ bigSep Finset.univ fun c : Fin 2 => bigSep Finset.univ fun s : Fin 16 => iprop(∃ f, aLoc d ↦[tset c.val s.val]{fullShare} f)) := by
  show (bigSep (Finset.univ : Finset (Fin 2)) fun c => iprop((eLoc d ↦{eCore c.val} m (eLoc d))
    ∗ bigSep Finset.univ fun s : Fin 16 => iprop(∃ f, aLoc d ↦[tset c.val s.val]{fullShare} f))) = _
  rw [bigSep_sep']

/-- The thirty-two ranges, each at some contents, are the result array whole at some contents. -/
theorem aTiles_join (d : Dev nD) :
    (bigSep Finset.univ fun c : Fin 2 => bigSep Finset.univ fun s : Fin 16 => iprop(∃ f, aLoc d ↦[tset c.val s.val]{fullShare} f))
      ⊢ (iprop(∃ g, aLoc d ↦{fullShare} g) : sProp 𝕄) := by
  rw [← bigSep_univ_prod (fun p : Fin 2 × Fin 16 => (iprop(∃ f, aLoc d ↦[tset p.1.val p.2.val]{fullShare} f) : sProp 𝕄))]
  refine (bigSep_exists_pi Finset.univ (fun (p : Fin 2 × Fin 16) (f : Buf (Elt F) (aLoc d)) => (aLoc d ↦[tset p.1.val p.2.val]{fullShare} f : sProp 𝕄))).trans ?_
  iintro ⟨%fs, H⟩
  ihave H' := (pointsTo_biUnion_join Finset.univ (fun p : Fin 2 × Fin 16 => tset p.1.val p.2.val) fs (fs (0, 0)) tset_disjoint) $$ H
  icases H' with ⟨%g, -, Hg⟩
  rw [tset_cover]
  iexists g; iexact Hg

/-- The valuation after the adjacency call: the result array at what the tiles wrote. -/
def V1 (d : Dev nD) (g : Buf (Elt F) (aLoc d)) : Valuation τ sig (Elt F) :=
  Function.update (after (ops0 (F := F)) (StableHlo.launchContents m d)) a' g

theorem V1_e (d : Dev nD) (g : Buf (Elt F) (aLoc d)) : V1 m d g e' = m (eLoc d) :=
  (Function.update_of_ne (show e' ≠ a' by decide) _ _).trans (after0_e m d)
theorem V1_a (d : Dev nD) (g : Buf (Elt F) (aLoc d)) : V1 m d g a' = g := Function.update_self _ _ _

theorem held_V1 (d : Dev nD) (g : Buf (Elt F) (aLoc d)) :
    (held (SparseCore.T d) (Pipeline.ucRefs τ sig) (V1 m d g) : sProp 𝕄)
      = iprop(((eLoc d ↦{fullShare} m (eLoc d)) ∗ (aLoc d ↦{fullShare} g))
          ∗ held (SparseCore.T d) (Pipeline.ucRefs τ sig \ {e', a'}) (after (ops0 (F := F)) (StableHlo.launchContents m d))) := by
  rw [held_sub_split (SparseCore.T d) hea, held_ea, V1_e, V1_a,
    held_congr (SparseCore.T d) (V := V1 m d g) (V' := after (ops0 (F := F)) (StableHlo.launchContents m d)) fun b hb =>
      Function.update_of_ne (fun e => (Finset.mem_sdiff.mp hb).2 (by rw [e]; exact Finset.mem_insert_of_mem (Finset.mem_singleton_self _))) _ _]

abbrev rT (b : Ref sig .tc) : DevRef τ sig := Proc.devRef .tc b
/-- The region's twelve operands and its result. -/
abbrev T13 : Finset (DevRef τ sig) := {rT main_v5, rT main_v6, rT main_arg2, rT main_arg4, rT main_arg7, rT main_v7, rT main_v8, rT main_v9, rT main_v4, rT main_v2, rT main_arg9, rT main_v10, rT main_v11}
theorem hT13 : (T13 : Finset (DevRef τ sig)) ⊆ Pipeline.ucRefs τ sig := by decide

omit [FloatOps F] in
theorem held_T13 (d : Dev nD) (V : Valuation τ sig (Elt F)) :
    (held (SparseCore.T d) T13 V : sProp 𝕄)
      = iprop((((SparseCore.T d).loc main_v5) ↦{fullShare} V (rT main_v5))
        ∗ (((SparseCore.T d).loc main_v6) ↦{fullShare} V (rT main_v6))
        ∗ (((SparseCore.T d).loc main_arg2) ↦{fullShare} V (rT main_arg2))
        ∗ (((SparseCore.T d).loc main_arg4) ↦{fullShare} V (rT main_arg4))
        ∗ (((SparseCore.T d).loc main_arg7) ↦{fullShare} V (rT main_arg7))
        ∗ (((SparseCore.T d).loc main_v7) ↦{fullShare} V (rT main_v7))
        ∗ (((SparseCore.T d).loc main_v8) ↦{fullShare} V (rT main_v8))
        ∗ (((SparseCore.T d).loc main_v9) ↦{fullShare} V (rT main_v9))
        ∗ (((SparseCore.T d).loc main_v4) ↦{fullShare} V (rT main_v4))
        ∗ (((SparseCore.T d).loc main_v2) ↦{fullShare} V (rT main_v2))
        ∗ (((SparseCore.T d).loc main_arg9) ↦{fullShare} V (rT main_arg9))
        ∗ (((SparseCore.T d).loc main_v10) ↦{fullShare} V (rT main_v10))
        ∗ (((SparseCore.T d).loc main_v11) ↦{fullShare} V (rT main_v11))) := by
  unfold held T13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- With one SparseCore call, the TensorCore owes nothing after it. -/
theorem Otc_one (d : Dev nD) : (K (F := F)).Otc d 1 = 0 := by
  unfold SparseCore.Cfg.Otc
  exact Finset.sum_eq_zero fun q _ => if_neg (by have := q.isLt; omega)

end Cert.Proof.KI

end
-- ==== Proof.IdealMain.lean ====
/-
  The idealized kernel program's run, second part: the TensorCore region entered from the TensorCore's holdings at any
  valuation (the thirteen arrays out of the held set, what it owes handed to the region and back, the region's cells'
  ghost state), @main whole — three host operations, the adjacency call on the thirty-two tiles with the edge list lent
  by shares and the result dealt by ranges, seven reshapes, the region — and the launch theorem applied: every weakly
  fair execution of the device's thirty-five threads terminates, nothing faulting, the twelve arguments unchanged.
-/
import proofs.«208141_g20598663152203_cont_8to1_341_30_alg».proof.Proof.IdealMainA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after seq)
open Cert.KernelIdeal.Region (region_wp regionPre regionPost operands rdats adm Val1)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The region, from the TensorCore's holdings at any valuation -/

/-- The region is entered at the valuation the held set is at. -/
def VrA (V : Valuation τ sig (Elt F)) : Val1 F := fun _ b => V (rT b)
/-- What the TensorCore owes after the one call (nothing), and the bound on its recorded waits. -/
def Or : Dev nD → CellTallies nD τ sig (HIx 1) := fun d' => (K (F := F)).Otc d' 1
def Br : Dev nD → Set (SemLoc sig × HIx 1) := fun d' => {p | (K (F := F)).lev (SparseCore.T d', p.1) p.2 ≤ 8 * 1}

theorem hwaitsA (V : Valuation τ sig (Elt F)) :
    ∀ c, (levAts (K (F := F)).L (K (F := F)).lev : sProp 𝕄)
      ⊢ Pipeline.RDat.cellsWaits (Pipeline.pin (pcfgs (F := F)) adm) (rdats (Name := ℕ) (U := UU) (Lvl := ℕ) (VrA V) (Or (F := F)) (Br (F := F))) none 0 c :=
  fun c => Pipeline.RDat.cellsWaits_intro (Pipeline.pin (pcfgs (F := F)) adm) (rdats (Name := ℕ) (U := UU) (Lvl := ℕ) (VrA V) (Or (F := F)) (Br (F := F))) none 0 c
    (R := levAts (K (F := F)).L (K (F := F)).lev) fun w s t =>
      (K (F := F)).mayWait_none (thr := SparseCore.T c) _ (fun g' => by show (K (F := F)).Otc c 1 g' none = 0; rw [Otc_one]; rfl)

omit [FloatOps F] in
theorem held_T13_upd (d : Dev nD) (V : Valuation τ sig (Elt F)) (f : Buf (Elt F) ((SparseCore.T d).loc main_v11)) :
    (held (SparseCore.T d) T13 (Function.update V (rT main_v11) f) : sProp 𝕄)
      = iprop((((SparseCore.T d).loc main_v5) ↦{fullShare} V (rT main_v5))
        ∗ (((SparseCore.T d).loc main_v6) ↦{fullShare} V (rT main_v6))
        ∗ (((SparseCore.T d).loc main_arg2) ↦{fullShare} V (rT main_arg2))
        ∗ (((SparseCore.T d).loc main_arg4) ↦{fullShare} V (rT main_arg4))
        ∗ (((SparseCore.T d).loc main_arg7) ↦{fullShare} V (rT main_arg7))
        ∗ (((SparseCore.T d).loc main_v7) ↦{fullShare} V (rT main_v7))
        ∗ (((SparseCore.T d).loc main_v8) ↦{fullShare} V (rT main_v8))
        ∗ (((SparseCore.T d).loc main_v9) ↦{fullShare} V (rT main_v9))
        ∗ (((SparseCore.T d).loc main_v4) ↦{fullShare} V (rT main_v4))
        ∗ (((SparseCore.T d).loc main_v2) ↦{fullShare} V (rT main_v2))
        ∗ (((SparseCore.T d).loc main_arg9) ↦{fullShare} V (rT main_arg9))
        ∗ (((SparseCore.T d).loc main_v10) ↦{fullShare} V (rT main_v10))
        ∗ (((SparseCore.T d).loc main_v11) ↦{fullShare} f)) := by
  rw [held_T13, Function.update_self,
    Function.update_of_ne (show (rT main_v5 : DevRef τ sig) ≠ rT main_v11 by decide),
    Function.update_of_ne (show (rT main_v6 : DevRef τ sig) ≠ rT main_v11 by decide),
    Function.update_of_ne (show (rT main_arg2 : DevRef τ sig) ≠ rT main_v11 by decide),
    Function.update_of_ne (show (rT main_arg4 : DevRef τ sig) ≠ rT main_v11 by decide),
    Function.update_of_ne (show (rT main_arg7 : DevRef τ sig) ≠ rT main_v11 by decide),
    Function.update_of_ne (show (rT main_v7 : DevRef τ sig) ≠ rT main_v11 by decide),
    Function.update_of_ne (show (rT main_v8 : DevRef τ sig) ≠ rT main_v11 by decide),
    Function.update_of_ne (show (rT main_v9 : DevRef τ sig) ≠ rT main_v11 by decide),
    Function.update_of_ne (show (rT main_v4 : DevRef τ sig) ≠ rT main_v11 by decide),
    Function.update_of_ne (show (rT main_v2 : DevRef τ sig) ≠ rT main_v11 by decide),
    Function.update_of_ne (show (rT main_arg9 : DevRef τ sig) ≠ rT main_v11 by decide),
    Function.update_of_ne (show (rT main_v10 : DevRef τ sig) ≠ rT main_v11 by decide)]

/-- What the region leaves, for the continuation. -/
abbrev regionΦ (d : Dev nD) (V : Valuation τ sig (Elt F)) (R : sProp 𝕄) : PUnit → sProp 𝕄 :=
  fun _ => iprop(R ∗ boundary (SparseCore.T d) ∗ (∃ f, held (SparseCore.T d) T13 (Function.update V (rT main_v11) f))
    ∗ (K (F := F)).tcSt EH d 1)

set_option maxHeartbeats 4000000 in
/-- From the TensorCore's holdings to what the region's rule asks, and from what it leaves back to them. -/
theorem region_pre (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ iprop((iprop(boundary (SparseCore.T d) ∗ regionPost none (VrA V) (Or (F := F)) (Br (F := F)) d)
            -∗ wp frame (wpE (Pipeline.defs (pcfgs (F := F)) defs₀) (Variants.lift 𝒱₀) (SparseCore.T d) none) Set.univ (.ret ⟨⟩) (regionΦ d V R))
        ∗ boundary (SparseCore.T d) ∗ regionPre (VrA V) (Or (F := F)) (Br (F := F)) d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  rw [held_T13]
  unfold G regionPre operands regionΦ SparseCore.Cfg.tcSt
  iintro ⟨HR, #Hlv, Hb, ⟨P1, P2, P3, P4, P5, P6, P7, P8, P9, P10, P11, P12, P13⟩, ⟨⟨%W, %hW, HO⟩, Hat⟩, ⟨Hcg, Hti⟩⟩
  isplitl [HR Hat]
  · iintro ⟨Hb, Hpost⟩
    unfold regionPost operands
    icases Hpost with ⟨⟨Q1, Q2, Q3, Q4, Q5, Q6, Q7, Q8, Q9, Q10, Q11, Q12⟩, ⟨%f, Q13⟩, ⟨%W', %hW', HO⟩⟩
    rw [wp_ret]; imodintro
    isplitl [HR]; · iexact HR
    isplitl [Hb]; · iexact Hb
    isplitl [Q1 Q2 Q3 Q4 Q5 Q6 Q7 Q8 Q9 Q10 Q11 Q12 Q13]
    · iexists f
      rw [held_T13_upd]
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      iexact Q13
    · isplitl [HO]
      · iexists W'; isplitr
        · ipureintro; intro p hp
          rcases hW' (Finset.mem_coe.mpr hp) with h | ⟨w, s, rfl⟩
          · exact h
          · show (K (F := F)).lev _ none ≤ 8 * 1
            rw [SparseCore.Cfg.lev_none]; omega
        · iexact HO
      · iexact Hat
  isplitl [Hb]; · iexact Hb
  isplitl [P1 P2 P3 P4 P5 P6 P7 P8 P9 P10 P11 P12 P13 HO]
  · isplitl [P1 P2 P3 P4 P5 P6 P7 P8 P9 P10 P11 P12]
    · isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [P13]; · iexact P13
    iexists W; isplitr
    · ipureintro; intro p hp; exact hW p (Finset.mem_coe.mp hp)
    · iexact HO
  isplitr; · iexact Hlv
  isplitl [Hcg]; · iexact Hcg
  iexact Hti

/-- THE REGION on device d's TensorCore, from its holdings at any valuation V: the thirteen arrays among what it holds,
    what it owes, the region's cells' ghost state; it ends with the thirteen back, the result at some contents. -/
theorem region_step [∀ e, Nonempty (Elt F e)] (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ wp frame (wpE ((K (F := F)).defs (D (F := F))) 𝒱 (SparseCore.T d) none) Set.univ
          (Prog.lift (.customCall (SparseCore.inner (Pipeline.entry 0)) ())) (regionΦ d V R) :=
  (region_pre d V R).trans
    ((region_wp (VrA V) (Or (F := F)) (Br (F := F)) none 𝒱₀ (K (F := F)).L (K (F := F)).lev (EP (F := F)) (hwaitsA V) d none
        (by intro u hu; cases hu) (fun x => .ret x) _).trans
      ((K (F := F)).wp_liftProg (D (F := F)) 𝒱 (SparseCore.T d) Set.univ none (Prog.lift (.customCall (Pipeline.entry (0 : Fin 1)) ())) _))

/-! ## @main, whole -/

/-- The valuation the region is entered at: after the reshapes. -/
def V2 (d : Dev nD) (g : Buf (Elt F) (aLoc d)) : Valuation τ sig (Elt F) := after (ops1 (F := F)) (V1 m d g)

/-- The twelve arguments, as the TensorCore's buffers. -/
abbrev argRef : Fin 12 → DevRef τ sig :=
  fun k => rT (![main_arg0, main_arg1, main_arg2, main_arg3, main_arg4, main_arg5, main_arg6, main_arg7, main_arg8, main_arg9, main_arg10, main_arg11] k)

/-- No operation of @main writes an argument: after the reshapes each holds its launch contents. -/
theorem V2_arg (d : Dev nD) (g : Buf (Elt F) (aLoc d)) (k : Fin 12) : V2 m d g (argRef k) = m (d, argRef k) := by
  fin_cases k <;>
    (show after (ops1 (F := F)) (V1 m d g) (rT _) = _
     unfold ops1; after_results
     unfold V1; rw [Function.update_of_ne (by decide)]
     unfold ops0; after_results)

/-- What @main leaves the claim: every unscoped buffer of the TensorCore held at a valuation that is the launch
    memory on the twelve arguments. -/
def FIN (d : Dev nD) : sProp 𝕄 :=
  iprop(∃ V : Valuation τ sig (Elt F), ⌜∀ k : Fin 12, V (argRef k) = m (d, argRef k)⌝ ∗ held (SparseCore.T d) (Pipeline.ucRefs τ sig) V)

/-- After the region: the held set re-formed at the result's new contents. -/
theorem fin_of_region (d : Dev nD) (g : Buf (Elt F) (aLoc d)) (u : PUnit) :
    regionΦ (F := F) d (V2 m d g) (held (SparseCore.T d) (Pipeline.ucRefs τ sig \ T13) (V2 m d g)) u
      ⊢ wp frame (wpE ((K (F := F)).defs (D (F := F))) 𝒱 (SparseCore.T d) none) Set.univ (Pure.pure PUnit.unit)
          fun _ => iprop((K (F := F)).tcSt EH d 1 ∗ FIN m d) := by
  unfold regionΦ FIN
  iintro ⟨Hrest, -, ⟨%f, H13⟩, Hst⟩
  rw [wp_pure]; imodintro
  isplitl [Hst]; · iexact Hst
  iexists (Function.update (V2 m d g) (rT main_v11) f)
  isplitr
  · ipureintro; intro k
    rw [Function.update_of_ne (by revert k; decide)]
    exact V2_arg m d g k
  · rw [held_sub_split (SparseCore.T d) hT13 (Function.update (V2 m d g) (rT main_v11) f)]
    isplitl [H13]; · iexact H13
    rw [held_congr (SparseCore.T d) (V := Function.update (V2 m d g) (rT main_v11) f) (V' := V2 m d g) fun b hb =>
      Function.update_of_ne (fun e => (Finset.mem_sdiff.mp hb).2 (by rw [e]; decide)) _ _]
    iexact Hrest

set_option maxHeartbeats 4000000 in
/-- @main on device d's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) (Pipeline.ucRefs τ sig) (StableHlo.launchContents m d)
    from Pipeline.unscopedBufs_held d (StableHlo.launchContents m d), main_eq]
  iintro ⟨#Hctx, Hst, ⟨Hb, Hheld, -, -⟩, HG⟩
  iapply (wp_seq 𝒱 none Set.univ d (Pipeline.ucRefs τ sig) _ ops0 hS0 hf0 (StableHlo.launchContents m d)) $$ [Hb Hheld]
  · isplitl [Hb]; · iexact Hb
    iexact Hheld
  iintro ⟨Hb, Hheld⟩
  -- the adjacency call: the edge list lent by shares, the result array dealt by ranges
  ihave Hh := (Entails.of_eq (held_sub_split (SparseCore.T d) hea _)) $$ Hheld
  icases Hh with ⟨Hea, Hrest⟩
  ihave Hea := (Entails.of_eq (held_ea (F := F) d _)) $$ Hea
  icases Hea with ⟨He, Ha⟩
  rw [after0_e, after0_a]
  ihave He := (Transfers.pointsTo_toks_split fullShare 2) $$ He
  icases He with ⟨Hdrop, Htoks⟩
  ihave Ha := (Entails.of_eq (aPts_tiles (F := F) d _)) $$ Ha
  rw [wp_bind]
  iapply ((K (F := F)).wp_run (D (F := F)) 𝒱 (EH := EH) (P := P m) κ d 0) $$ [Hst Htoks Ha Hdrop Hrest Hb HG]
  isplitr; · iexact Hctx
  isplitl [Hst]; · iexact Hst
  isplitl [Htoks Ha]
  · rw [st0_eq]
    isplitl [Htoks]; · iexact Htoks
    iexact Ha
  iintro ⟨Hst, Hdn⟩
  ihave Hdn := (Entails.of_eq (dn0_eq m d)) $$ Hdn
  icases Hdn with ⟨Htoks, Ha⟩
  ihave He := (Transfers.pointsTo_toks_join fullShare 2) $$ [Hdrop Htoks]
  · isplitl [Hdrop]; · iexact Hdrop
    iexact Htoks
  ihave Ha := (aTiles_join (F := F) d) $$ Ha
  icases Ha with ⟨%g, Ha⟩
  -- back into the held set; the reshapes
  ihave Hheld := (Entails.of_eq (held_V1 m d g).symm) $$ [He Ha Hrest]
  · isplitl [He Ha]
    · isplitl [He]; · iexact He
      iexact Ha
    · iexact Hrest
  iapply (wp_seq 𝒱 none Set.univ d (Pipeline.ucRefs τ sig) _ ops1 hS1 hf1 (V1 m d g)) $$ [Hb Hheld]
  · isplitl [Hb]; · iexact Hb
    iexact Hheld
  iintro ⟨Hb, Hheld⟩
  -- the region, from the thirteen arrays among what is held
  ihave Hheld := (Entails.of_eq (show (held (SparseCore.T d) (Pipeline.ucRefs τ sig) (after (ops1 (F := F)) (V1 m d g)) : sProp 𝕄)
    = held (SparseCore.T d) (Pipeline.ucRefs τ sig) (V2 m d g) from rfl)) $$ Hheld
  ihave Hh := (Entails.of_eq (held_sub_split (SparseCore.T d) hT13 (V2 m d g))) $$ Hheld
  icases Hh with ⟨H13, Hrest⟩
  ihave Hlv := (SparseCore.Cfg.ctx_levAts (K := K (F := F)) (EH := EH) (P := P m) κ) $$ Hctx
  rw [wp_bind]
  iapply ((region_step (F := F) d (V2 m d g) (held (SparseCore.T d) (Pipeline.ucRefs τ sig \ T13) (V2 m d g))).trans
    (wp_mono frame _ _ (fin_of_region m d g))) $$ [Hrest Hlv Hb H13 Hst HG]
  isplitl [Hrest]; · iexact Hrest
  isplitl [Hlv]; · iexact Hlv
  isplitl [Hb]; · iexact Hb
  isplitl [H13]; · iexact H13
  isplitl [Hst]; · iexact Hst
  iexact HG

/-! ## The program's run and the claim -/

def fq (d : Dev nD) (s' : Phys nD τ sig (Elt F)) : Prop := ∀ k : Fin 12, s'.mem.mem (d, argRef k) = m (d, argRef k)

theorem hfin (d : Dev nD) (s' : Phys nD τ sig (Elt F)) : iprop(FIN m d ∗ SI s') ⊢ (⌜fq m d s'⌝ : sProp 𝕄) := by
  unfold FIN held
  iintro ⟨⟨%V, %hV, H⟩, HSI⟩
  ihave %h := (SI_pointsTo_bufs_agree (qs := fun _ => fullShare) (Pipeline.ucRefs τ sig)) $$ [HSI H]
  · isplitl [HSI]; · iexact HSI
    iexact H
  ipureintro
  intro k
  rw [h (argRef k) (by revert k; decide), hV k]

def QC : PUnit × MemSt nD τ sig (Elt F) → Prop := fun r => ∀ (c : Dev nD) (k : Fin 12), r.2.mem (c, argRef k) = m (c, argRef k)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.KI

end
-- ==== Proof.BitsSetup.lean ====
/-
  The kernel program as printed as the SparseCore launch theorem sees it: its configuration, the facts the launch
  decides, the ghost algebra (the launch handshakes' rounds beside the pipeline's rounds and the local transfers'
  counters), and the arrays the two kernels touch.

  The program: three host operations make x0p (the features re-laid as [8, 512, 512]); a vector-subcore kernel on
  2 × 16 tiles builds the adjacency COUNT matrix, tile w = 16 c + s owning rows [16 w, 16 w + 16) of it, i.e. the
  8192 consecutive words [8192 w, 8192 w + 8192) of the flat result; host reshapes; then one TensorCore region
  computes the two GIN layers and the row sums.
-/
import proofs.«208141_g20598663152203_cont_8to1_341_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208141_g20598663152203_cont_8to1_341_30_alg».proof.Proof.Gen.Kernel
import proofs.«208141_g20598663152203_cont_8to1_341_30_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds, the left factor; the pipeline's rounds and the transfers' counters sit in the right. -/
abbrev EH : Emb UH (MT nD τ sig (HIx 1) (Elt F) ℕ UU ℕ) := embL

/-! ## The arrays -/

variable (m : (ℓ : Loc nD τ sig) → Buf (Elt F) ℓ) (ρ : Dev nD → PrngReg)

/-- The edge list (row 0 the sources, row 1 the destinations) and the flat count matrix, as locations of device `d`. -/
abbrev eLoc (d : Dev nD) : Loc nD τ sig := (SparseCore.T d).loc main_arg1
abbrev aLoc (d : Dev nD) : Loc nD τ sig := (SparseCore.T d).loc main_v3

end Cert.Proof.KB

end
-- ==== Proof.BitsTile.lean ====
/-
  One tile's task of the adjacency kernel, on vector subcore (L 0, L 1) of device d: it clears its accumulator,
  fetches the source row and the destination row of the edge list into its two index scratches, adds one at
  (dst - 16 w) * 512 + src for every edge whose destination lies in its sixteen rows (every other edge adds into the
  spare slot 8192), and writes the first 8192 words of the accumulator out to its own 8192 words of the result.
-/
import proofs.«208141_g20598663152203_cont_8to1_341_30_alg».proof.Proof.BitsSetup
import proofs.«208141_g20598663152203_cont_8to1_341_30_alg».proof.Proof.Lane

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "eW" => (Memref.whole Cert.Kernel.main_arg1_scv : Memref Cert.Kernel.sig Kind.scVector Space.hbm Cert.Kernel.S2x8192 EltTy.i32)
local notation "aW" => (Memref.whole Cert.Kernel.main_v3_scv : Memref Cert.Kernel.sig Kind.scVector Space.hbm Cert.Kernel.S262144 EltTy.f32)
local notation "sS" => (Memref.whole Cert.Kernel.cc0_scratch0 : Memref Cert.Kernel.sig Kind.scVector Space.vmem Cert.Kernel.S8192 EltTy.i32)
local notation "sD" => (Memref.whole Cert.Kernel.cc0_scratch1 : Memref Cert.Kernel.sig Kind.scVector Space.vmem Cert.Kernel.S8192 EltTy.i32)
local notation "sA" => (Memref.whole Cert.Kernel.cc0_scratch2 : Memref Cert.Kernel.sig Kind.scVector Space.vmem Cert.Kernel.S8208 EltTy.f32)

/-- What the proof asks of the launch memory: every word of the edge list is at most 511 (as an unsigned word). -/
def PreOK : Prop := ∀ (d : Dev nD) (j : S2x8192.Idx), (m (eLoc d) j).toNat ≤ 511

section Tile

variable (d : Dev nD) (L : grid0.Coords)

abbrev cV (L : grid0.Coords) : Fin τ.nSC := (L 0).castLE hcore0
abbrev jV (L : grid0.Coords) : Fin τ.nSub := (L 1).castLE hsub0

/-- The tile's 8192 words of the flat result, as the kernel slices them. -/
abbrev aOut (L : grid0.Coords) : Memref sig .scVector .hbm S8192 .f32 :=
  (aW).slice (Rect.unit (s := S262144) (k0_off10 L) S8192.size (k0_off10_inb L)) (fun _ => rfl)

abbrev cAcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cBcell (d : Dev nD) (c : Fin τ.nSC) (i : Fin τ.nSub) : GSem nD τ sig := (V d c i, .dma cc0_scoped2.sem)

theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc0_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The first row of the tile, as the kernel computes it: 16 (16 c + s) with c < 2 and s < 16, at most 496. -/
abbrev loW (L : grid0.Coords) : BitVec 32 :=
  Scalar.muli (Scalar.addi (Scalar.muli (BitVec.ofNat 32 (L 0).val) 16#32) (BitVec.ofNat 32 (L 1).val)) 16#32

theorem loW_le : (loW L).toNat ≤ 496 := by
  have h0 : (L 0).val < 2 := (L 0).isLt
  have h1 : (L 1).val < 16 := (L 1).isLt
  simp only [loW, Scalar.muli, Scalar.addi, IntOp.muli, IntOp.addi, BitVec.toNat_mul, BitVec.toNat_add, BitVec.toNat_ofNat,
    Nat.reducePow, Nat.reduceMod]
  omega

/-- Every lane of an index vector built from sources at most 511 names a word of the accumulator. -/
theorem chk_lanes (lo : BitVec 32) (hlo : lo.toNat ≤ 496) (vd vs : IVec S16 32) (hs : ∀ x, (vs x).toNat ≤ 511) :
    ∀ a x, ((![fun x => Lane.lin lo (vd x) (vs x)] : Fin 1 → IVec S16 32) a x).toNat < S8208.size a := by
  intro a x
  obtain rfl : a = 0 := Subsingleton.elim _ _
  exact Lane.lin_lt lo (vd x) (vs x) hlo (hs x)

theorem pay1_eq (lo : BitVec 32) (vd vs : IVec S16 32) : k0_pay1 (F := F) lo vd vs = fun x => Lane.lin lo (vd x) (vs x) := rfl
theorem pay2_eq (lo : BitVec 32) (vd vs : IVec S16 32) : k0_pay2 (F := F) lo vd vs = fun x => Lane.lin lo (vd x) (vs x) := rfl
theorem pay3_eq (lo : BitVec 32) (vd vs : IVec S16 32) : k0_pay3 (F := F) lo vd vs = fun x => Lane.lin lo (vd x) (vs x) := rfl
theorem pay4_eq (lo : BitVec 32) (vd vs : IVec S16 32) : k0_pay4 (F := F) lo vd vs = fun x => Lane.lin lo (vd x) (vs x) := rfl
theorem pay5_eq (lo : BitVec 32) (vd vs : IVec S16 32) : k0_pay5 (F := F) lo vd vs = fun x => Lane.lin lo (vd x) (vs x) := rfl
theorem pay6_eq (lo : BitVec 32) (vd vs : IVec S16 32) : k0_pay6 (F := F) lo vd vs = fun x => Lane.lin lo (vd x) (vs x) := rfl
theorem pay10_eq (vd vs : IVec S16 32) : k0_pay10 (F := F) L vd vs (k0_pay7 (loW L)) = fun x => Lane.lin (loW L) (vd x) (vs x) := rfl
theorem pay11_eq (vd vs : IVec S16 32) : k0_pay11 (F := F) L vd vs = fun x => Lane.lin (loW L) (vd x) (vs x) := rfl

theorem chk1 (lo : BitVec 32) (hlo : lo.toNat ≤ 496) (vd vs : IVec S16 32) (hs : ∀ x, (vs x).toNat ≤ 511) : k0_chk1 (k0_pay1 (F := F) lo vd vs) := by
  rw [pay1_eq]; exact chk_lanes lo hlo vd vs hs
theorem chk2 (lo : BitVec 32) (hlo : lo.toNat ≤ 496) (vd vs : IVec S16 32) (hs : ∀ x, (vs x).toNat ≤ 511) : k0_chk2 (k0_pay2 (F := F) lo vd vs) := by
  rw [pay2_eq]; exact chk_lanes lo hlo vd vs hs
theorem chk3 (lo : BitVec 32) (hlo : lo.toNat ≤ 496) (vd vs : IVec S16 32) (hs : ∀ x, (vs x).toNat ≤ 511) : k0_chk3 (k0_pay3 (F := F) lo vd vs) := by
  rw [pay3_eq]; exact chk_lanes lo hlo vd vs hs
theorem chk4 (lo : BitVec 32) (hlo : lo.toNat ≤ 496) (vd vs : IVec S16 32) (hs : ∀ x, (vs x).toNat ≤ 511) : k0_chk4 (k0_pay4 (F := F) lo vd vs) := by
  rw [pay4_eq]; exact chk_lanes lo hlo vd vs hs
theorem chk5 (lo : BitVec 32) (hlo : lo.toNat ≤ 496) (vd vs : IVec S16 32) (hs : ∀ x, (vs x).toNat ≤ 511) : k0_chk5 (k0_pay5 (F := F) lo vd vs) := by
  rw [pay5_eq]; exact chk_lanes lo hlo vd vs hs
theorem chk6 (lo : BitVec 32) (hlo : lo.toNat ≤ 496) (vd vs : IVec S16 32) (hs : ∀ x, (vs x).toNat ≤ 511) : k0_chk6 (k0_pay6 (F := F) lo vd vs) := by
  rw [pay6_eq]; exact chk_lanes lo hlo vd vs hs
theorem chk7 (vd vs : IVec S16 32) (hs : ∀ x, (vs x).toNat ≤ 511) : k0_chk7 (k0_pay10 (F := F) L vd vs (k0_pay7 (loW L))) := by
  rw [pay10_eq]; exact chk_lanes (loW L) (loW_le L) vd vs hs
theorem chk8 (vd vs : IVec S16 32) (hs : ∀ x, (vs x).toNat ≤ 511) : k0_chk8 (k0_pay11 (F := F) L vd vs) := by
  rw [pay11_eq]; exact chk_lanes (loW L) (loW_le L) vd vs hs

/-- A vector loaded from a whole scratch whose words are at most 511 has lanes at most 511. -/
theorem readAt_le (g : S8192.Idx → BitVec 32) (hg : ∀ j, (g j).toNat ≤ 511) (off : Fin 1 → Nat) (h : ∀ a, off a + S16.size a ≤ S8192.size a) :
    ∀ x : S16.Idx, ((sS).view.readAt (Elt F) (Rect.unit (s := S8192) off S16.size h).toLoadRect g x).toNat ≤ 511 := by
  intro x
  simp only [View.readAt_apply, Memref.view_whole, View.read_whole]
  exact hg _

/-- The clearing loop's invariant: the accumulator whole, at some contents. -/
def inv1 (d : Dev nD) (c : Fin τ.nSC) (i : Fin τ.nSub) (_ : Nat) (_ : BitVec 32) : sProp 𝕄 :=
  iprop(∃ f, (sA).view.loc (V d c i) ↦{fullShare} f)

/-- The edge loop's invariant: the source scratch at words at most 511, the destination scratch and the accumulator whole. -/
def inv2 (d : Dev nD) (c : Fin τ.nSC) (i : Fin τ.nSub) (_ : Nat) (_ : BitVec 32) : sProp 𝕄 :=
  iprop((∃ g0 : S8192.Idx → BitVec 32, ((sS).view.loc (V d c i) ↦{fullShare} g0) ∗ ⌜∀ j, (g0 j).toNat ≤ 511⌝) ∗ (∃ g1, (sD).view.loc (V d c i) ↦{fullShare} g1)
    ∗ ∃ f, (sA).view.loc (V d c i) ↦{fullShare} f)

/-- The tile's words of the flat result, as a set of indices of the whole array. -/
def tileSetL (L : grid0.Coords) : Finset S262144.Idx := (aOut L).view.set

theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_a (f : Buf (Elt F) (aLoc d)) :
    ((aOut L).view.loc (V d (cV L) (jV L)) ↦[(aOut L).view.set]{fullShare} f : sProp 𝕄) = aLoc d ↦[tileSetL L]{fullShare} f := rfl
theorem pts_s0 (f : Buf (Elt F) ((V d (cV L) (jV L)).loc cc0_scratch0)) :
    ((sS).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((sD).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl

variable [FloatOps F]

set_option maxHeartbeats 8000000 in
set_option sl_exec.dischHeartbeats 400000 in
/-- The task. -/
theorem tile_body (q : PosShare TreeShare) (hF : (K (F := F)).Facts) (hpre : PreOK m) (O : CellTallies nD τ sig (HIx 1)) (W : Waits sig (HIx 1)) (hO : ∀ g, O g none = 0) :
    iprop((levAts (K (F := F)).L (K (F := F)).lev : sProp 𝕄) ∗ (emp : sProp 𝕄)
        ∗ ((eLoc d ↦{q} m (eLoc d)) ∗ (aLoc d ↦[tileSetL L]{fullShare} m (aLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_adj L eW (Memref.isWhole_whole _) aW (Memref.isWhole_whole _)
            sS (Memref.isWhole_whole _) sD (Memref.isWhole_whole _) sA (Memref.isWhole_whole _) cc0_scoped0 cc0_scoped1 cc0_scoped2)
          fun _ => iprop(((eLoc d ↦{q} m (eLoc d)) ∗ ∃ f, (aLoc d ↦[tileSetL L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_adj_eq_skeleton]; unfold cc0_adj_skel
  rw [(K (F := F)).scopedBufs_V hF d (cV L) (jV L), SparseCore.Cfg.scopedSems0_V (Val := Elt F) d (cV L) (jV L), ownSems0_V, ownBufs_V]
  iintro ⟨#Hlv, -, ⟨He, Ha⟩, ⟨⟨%f0, Hs0⟩, ⟨%f1, Hs1⟩, ⟨%f2, Hs2⟩, Hbufs⟩, ⟨HsemA, HsemX, HsemB, Hsems⟩, HO⟩
  ihave Hmw := ((K (F := F)).mayWaits_none (thr := V d (cV L) (jV L)) hO) $$ Hlv
  ihave He := (Entails.of_eq (pts_e (F := F) d L q _).symm) $$ He
  ihave Ha := (Entails.of_eq (pts_a (F := F) d L _).symm) $$ Ha
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  sl_exec
  sl_for (inv1 (F := F) d (cV L) (jV L)) $$ [Hs2]
  case region =>
    intro k _
    unfold inv1
    iintro ⟨%f, Hs2⟩
    sl_exec
    sl_step
    iexists _; iexact Hs2
  · unfold inv1
    iexists _; iexact Hs2
  iintro %_ HI
  unfold inv1
  icases HI with ⟨%f2', Hs2⟩
  sl_exec
  sl_for (inv2 (F := F) d (cV L) (jV L)) $$ [Hs0 Hs1 Hs2]
  case region =>
    intro k _
    unfold inv2
    iintro ⟨⟨%g0, Hs0, %hg0⟩, ⟨%g1, Hs1⟩, ⟨%f, Hs2⟩⟩
    sl_exec
    iapply (wp_assume _ _ _ _ (chk1 (F := F) (loW L) (loW_le L) _ _ (readAt_le (F := F) g0 hg0 _ _)))
    rw [SparseCore.vectorStoreIdx_bind (c := V d (cV L) (jV L))]
    sl_exec
    iapply (wp_assume _ _ _ _ (chk2 (F := F) (loW L) (loW_le L) _ _ (readAt_le (F := F) g0 hg0 _ _)))
    rw [SparseCore.vectorStoreIdx_bind (c := V d (cV L) (jV L))]
    sl_exec
    iapply (wp_assume _ _ _ _ (chk3 (F := F) (loW L) (loW_le L) _ _ (readAt_le (F := F) g0 hg0 _ _)))
    rw [SparseCore.vectorStoreIdx_bind (c := V d (cV L) (jV L))]
    sl_exec
    iapply (wp_assume _ _ _ _ (chk4 (F := F) (loW L) (loW_le L) _ _ (readAt_le (F := F) g0 hg0 _ _)))
    rw [SparseCore.vectorStoreIdx_bind (c := V d (cV L) (jV L))]
    sl_exec
    iapply (wp_assume _ _ _ _ (chk5 (F := F) (loW L) (loW_le L) _ _ (readAt_le (F := F) g0 hg0 _ _)))
    rw [SparseCore.vectorStoreIdx_bind (c := V d (cV L) (jV L))]
    sl_exec
    iapply (wp_assume _ _ _ _ (chk6 (F := F) (loW L) (loW_le L) _ _ (readAt_le (F := F) g0 hg0 _ _)))
    rw [SparseCore.vectorStoreIdx_bind (c := V d (cV L) (jV L))]
    sl_exec
    iapply (wp_assume _ _ _ _ (chk7 (F := F) L _ _ (readAt_le (F := F) g0 hg0 _ _)))
    rw [SparseCore.vectorStoreIdx_bind (c := V d (cV L) (jV L))]
    sl_exec
    iapply (wp_assume _ _ _ _ (chk8 (F := F) L _ _ (readAt_le (F := F) g0 hg0 _ _)))
    rw [SparseCore.vectorStoreIdx_bind (c := V d (cV L) (jV L))]
    sl_exec
    sl_step
    isplitl [Hs0]
    · iexists g0; isplitl [Hs0]
      · iexact Hs0
      · ipureintro; exact hg0
    isplitl [Hs1]
    · iexists _; iexact Hs1
    · iexists _; iexact Hs2
  · unfold inv2
    isplitl [Hs0]
    · iexists _; isplitl [Hs0]
      · iexact Hs0
      · ipureintro; intro j
        show ((View.whole cc0_scratch0).write (Elt F) f0 _ Finset.univ j).toNat ≤ 511
        rw [View.write_whole_univ]
        first
          | exact hpre d _
          | exact (le_of_eq (congrArg BitVec.toNat ((View.read_apply _ _).trans (cast_eq _ _)))).trans (hpre d _)
    isplitl [Hs1]
    · iexists _; iexact Hs1
    · iexists _; iexact Hs2
  iintro %_ HI
  unfold inv2
  icases HI with ⟨⟨%g0, Hs0, -⟩, ⟨%g1, Hs1⟩, ⟨%fA, Hs2⟩⟩
  sl_exec
  sl_step
  isplitl [He Ha]
  · isplitl [He]
    · iapply (Entails.of_eq (pts_e (F := F) d L q _)); iexact He
    · iexists _; iapply (Entails.of_eq (pts_a (F := F) d L _)); iexact Ha
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemA HsemX HsemB Hsems]
  · isplitl [HsemA]; · iexact HsemA
    isplitl [HsemX]; · iexact HsemX
    isplitl [HsemB]; · iexact HsemB
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Proof.KB

end
-- ==== Proof.BitsSplit.lean ====
/-
  How the adjacency call's operands are dealt to the thirty-two tiles and gathered back.

  The flat result has 262144 words; tile (c, s) owns the 8192 words from 131072 c + 8192 s on: the ranges of the
  thirty-two tiles are pairwise disjoint and cover the array. The edge list is only read: the TensorCore keeps a
  share of it, each SparseCore is lent a share, and each tile a share of its SparseCore's.
-/
import proofs.«208141_g20598663152203_cont_8to1_341_30_alg».proof.Proof.BitsTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.Kernel.main_arg1_scv : Memref Cert.Kernel.sig Kind.scVector Space.hbm Cert.Kernel.S2x8192 EltTy.i32)
local notation "aW" => (Memref.whole Cert.Kernel.main_v3_scv : Memref Cert.Kernel.sig Kind.scVector Space.hbm Cert.Kernel.S262144 EltTy.f32)
local notation "sS" => (Memref.whole Cert.Kernel.cc0_scratch0 : Memref Cert.Kernel.sig Kind.scVector Space.vmem Cert.Kernel.S8192 EltTy.i32)
local notation "sD" => (Memref.whole Cert.Kernel.cc0_scratch1 : Memref Cert.Kernel.sig Kind.scVector Space.vmem Cert.Kernel.S8192 EltTy.i32)
local notation "sA" => (Memref.whole Cert.Kernel.cc0_scratch2 : Memref Cert.Kernel.sig Kind.scVector Space.vmem Cert.Kernel.S8208 EltTy.f32)

variable (m : (ℓ : Loc nD τ sig) → Buf (Elt F) ℓ)

/-! ## The tiles' ranges -/

/-- The words of tile (c, s): the indices from 131072 c + 8192 s up to the next 8192. -/
def tset (c s : ℕ) : Finset S262144.Idx :=
  Finset.univ.filter fun j => 131072 * c + 8192 * s ≤ (j 0).val ∧ (j 0).val < 131072 * c + 8192 * s + 8192

/-- The slice a tile writes out to is its range. -/
theorem tileSetL_eq (L : grid0.Coords) : tileSetL L = tset (L 0).val (L 1).val := by
  ext j
  unfold tileSetL tset
  rw [show (aOut L).view.set = (Rect.unit (s := S262144) (k0_off10 L) S8192.size (k0_off10_inb L)).set from View.set_slice_whole _ _,
    Rect.mem_set_unit, Finset.mem_filter]
  simp only [Finset.mem_univ, true_and]
  constructor
  · intro h
    have h0 := h 0
    rw [k0_off10_eq] at h0
    exact h0
  · intro h a
    obtain rfl : a = 0 := Subsingleton.elim _ _
    rw [k0_off10_eq]
    exact h

def coordsV (c : Fin (grid0.bound 0)) (s : Fin (grid0.bound 1)) : grid0.Coords :=
  fun | 0 => c | 1 => s | ⟨_ + 2, h⟩ => absurd h (Nat.not_lt.2 (Nat.le_add_left _ _))

/-- Two different tiles' ranges do not meet. -/
theorem tset_disjoint : ∀ p ∈ (Finset.univ : Finset (Fin 2 × Fin 16)), ∀ p' ∈ (Finset.univ : Finset (Fin 2 × Fin 16)), p ≠ p' →
    Disjoint (tset p.1.val p.2.val) (tset p'.1.val p'.2.val) := by
  intro p _ p' _ hne
  refine Finset.disjoint_left.mpr fun j h1 h2 => hne ?_
  simp only [tset, Finset.mem_filter, Finset.mem_univ, true_and] at h1 h2
  have a1 := p.1.isLt; have a2 := p.2.isLt; have b1 := p'.1.isLt; have b2 := p'.2.isLt
  exact Prod.ext (Fin.ext (by omega)) (Fin.ext (by omega))

/-- Every word lies in some tile's range. -/
theorem tset_cover : (Finset.univ : Finset (Fin 2 × Fin 16)).biUnion (fun p => tset p.1.val p.2.val) = Finset.univ := by
  ext j
  simp only [Finset.mem_biUnion, Finset.mem_univ, true_and, iff_true]
  have hj : (j 0).val < 262144 := (j 0).isLt
  refine ⟨(⟨(j 0).val / 131072, by omega⟩, ⟨(j 0).val % 131072 / 8192, by omega⟩), ?_⟩
  simp only [tset, Finset.mem_filter, Finset.mem_univ, true_and]
  omega

/-- The result array whole is its thirty-two ranges. -/
theorem aPts_tiles (d : Dev nD) (f : Buf (Elt F) (aLoc d)) :
    (aLoc d ↦{fullShare} f : sProp 𝕄)
      = bigSep Finset.univ fun c : Fin 2 => bigSep Finset.univ fun s : Fin 16 => aLoc d ↦[tset c.val s.val]{fullShare} f := by
  rw [← bigSep_univ_prod (fun p : Fin 2 × Fin 16 => (aLoc d ↦[tset p.1.val p.2.val]{fullShare} f : sProp 𝕄)),
    ← pointsTo_biUnion Finset.univ (ℓ := aLoc d) (fun p : Fin 2 × Fin 16 => tset p.1.val p.2.val) tset_disjoint, tset_cover]

/-! ## What the handshakes carry -/

/-- The share of the edge list lent to SparseCore c, and to its tile s. -/
abbrev eCore (c : ℕ) : PosShare TreeShare := Transfers.shareTokN fullShare c
abbrev eTile (c s : ℕ) : PosShare TreeShare := Transfers.shareTokN (eCore c) s

/-- The call takes, per SparseCore, a share of the edge list and its sixteen ranges of the result; per tile a share
    and its range; and brings them back, the ranges at what the tiles wrote. -/
def P : (K (F := F)).Pay (nD := nD) (Val := Elt F) (Name := ℕ) (U := UU) where
  st := fun _ d c => iprop((eLoc d ↦{eCore c.val} m (eLoc d)) ∗ bigSep Finset.univ fun s : Fin 16 => aLoc d ↦[tset c.val s.val]{fullShare} m (aLoc d))
  dn := fun _ d c => iprop((eLoc d ↦{eCore c.val} m (eLoc d)) ∗ bigSep Finset.univ fun s : Fin 16 => iprop(∃ f, aLoc d ↦[tset c.val s.val]{fullShare} f))
  go := fun _ d c s => iprop((eLoc d ↦{eTile c.val s.val} m (eLoc d)) ∗ aLoc d ↦[tset c.val s.val]{fullShare} m (aLoc d))
  td := fun _ d c s => iprop((eLoc d ↦{eTile c.val s.val} m (eLoc d)) ∗ ∃ f, aLoc d ↦[tset c.val s.val]{fullShare} f)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

variable [FloatOps F]

theorem defs₀_vector (c : Fin τ.nSC) (s : Fin τ.nSub) :
    defs₀ (F := F) (.scVector c s) 0 ()
      = SparseCore.onTile hcore0 hsub0 (fun c s => cc0_adj (coordsV c s)
          eW (Memref.isWhole_whole _) aW (Memref.isWhole_whole _)
          sS (Memref.isWhole_whole _) sD (Memref.isWhole_whole _) sA (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body m d (coordsV ⟨_, hc.1⟩ ⟨_, hc.2⟩) (eTile c.val i.val) hF hpre O W hO
  rw [tileSetL_eq] at h
  exact h.trans (wp_mono frame _ _ fun _ => obl_post)

theorem vecSplit : (K (F := F)).VecSplit' (P m) 0 := by
  intro d c
  show iprop((eLoc d ↦{eCore c.val} m (eLoc d)) ∗ bigSep Finset.univ fun s : Fin 16 => aLoc d ↦[tset c.val s.val]{fullShare} m (aLoc d))
    ⊢ |={Set.univ}=> iprop(
      (bigSep Finset.univ fun s : Fin 16 => iprop((eLoc d ↦{eTile c.val s.val} m (eLoc d)) ∗ aLoc d ↦[tset c.val s.val]{fullShare} m (aLoc d)))
      ∗ ((bigSep Finset.univ fun s : Fin 16 => iprop((eLoc d ↦{eTile c.val s.val} m (eLoc d)) ∗ ∃ f, aLoc d ↦[tset c.val s.val]{fullShare} f))
          -∗ iprop((eLoc d ↦{eCore c.val} m (eLoc d)) ∗ bigSep Finset.univ fun s : Fin 16 => iprop(∃ f, aLoc d ↦[tset c.val s.val]{fullShare} f))))
  rw [bigSep_sep', bigSep_sep']
  iintro ⟨He, Ha⟩
  ihave He' := (Transfers.pointsTo_toks_split (eCore c.val) 16) $$ He
  icases He' with ⟨Hdrop, Htoks⟩
  imodintro
  isplitl [Htoks Ha]
  · isplitl [Htoks]; · iexact Htoks
    iexact Ha
  iintro ⟨Htoks, Ha⟩
  isplitl [Hdrop Htoks]
  · iapply (Transfers.pointsTo_toks_join (eCore c.val) 16)
    isplitl [Hdrop]; · iexact Hdrop
    iexact Htoks
  · iexact Ha

end Cert.Proof.KB

end
-- ==== Proof.RegionFrameBodyK.lean ====
import proofs.«208141_g20598663152203_cont_8to1_341_30_alg».proof.Proof.Gen.Kernel.Skeleton
import Idealize.ShloMosaic.Lib.Tactic

noncomputable section

namespace Cert.Kernel.Region

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

-- the run is one elaboration step over the body's 79 printed parts
set_option maxHeartbeats 4000000 in
/-- The kernel body at any grid point, on any whole staging memrefs: from the thirteen buffers held whole it runs to its
    return, nothing faulting, and hands back the twelve operands' buffers as they were and the result's at some contents. -/
theorem kernelRun (𝒱₀ : Variants) (c : Dev nD) (i : grid1.Coords)
    (M1 : Memref sig .tc .smem S1x1 .f32) (h1 : M1.IsWhole) (M2 : Memref sig .tc .smem S1x1 .f32) (h2 : M2.IsWhole) (M3 : Memref sig .tc .smem S8x16 .f32) (h3 : M3.IsWhole) (M4 : Memref sig .tc .smem S16x16 .f32) (h4 : M4.IsWhole) (M5 : Memref sig .tc .smem S16x16 .f32) (h5 : M5.IsWhole) (M6 : Memref sig .tc .smem S1x16 .f32) (h6 : M6.IsWhole) (M7 : Memref sig .tc .smem S1x16 .f32) (h7 : M7.IsWhole) (M8 : Memref sig .tc .smem S1x16 .f32) (h8 : M8.IsWhole) (M9 : Memref sig .tc .vmem S512x512 .f32) (h9 : M9.IsWhole) (M10 : Memref sig .tc .vmem S8x512x256 .bf16) (h10 : M10.IsWhole) (M11 : Memref sig .tc .vmem S16x16 .f32) (h11 : M11.IsWhole) (M12 : Memref sig .tc .vmem S1x16 .f32) (h12 : M12.IsWhole) (M13 : Memref sig .tc .vmem S512x16 .f32) (h13 : M13.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)
    (E : Set Name) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
        ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ (∃ f, pt c M13 f)) -∗ Q ⟨⟩))
      ⊢ wp frame (wpE (defs₀ (F := F)) 𝒱₀ c none) E (cc1__gin_body i M1 h1 M2 h2 M3 h3 M4 h4 M5 h5 M6 h6 M7 h7 M8 h8 M9 h9 M10 h10 M11 h11 M12 h12 M13 h13) Q := by
  iintro ⟨H1, H2, H3, H4, H5, H6, H7, H8, H9, H10, H11, H12, H13, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

end Cert.Kernel.Region
-- ==== Proof.RegionFrameK.lean ====
import proofs.«208141_g20598663152203_cont_8to1_341_30_alg».proof.Proof.RegionFrameBodyK
import proofs.«208141_g20598663152203_cont_8to1_341_30_alg».proof.Proof.Gen.Kernel.Launch
import proofs.«208141_g20598663152203_cont_8to1_341_30_alg».proof.Proof.Gen.Kernel.Points
import Idealize.ShloMosaic.Lib.Pipeline.Regions

noncomputable section

namespace Cert.Kernel.Region

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A valuation of the TensorCore's buffers on every core: what the region is entered at. -/
abbrev Val1 (F : FTy → Type) := (c : Dev nD) → (b : Ref sig .tc) → Buf (Elt F) ((c : Thread nD τ).loc b)

/-- The region's proof data on core `c`: the windows' arrays at the valuation `V`; nothing said of what the body leaves
    in a staging buffer; the invariant the scoped buffers no window stages; the core owing `O c` throughout, its recorded
    pairs within `B c`. -/
def rdats (V : Val1 F) (O : Dev nD → CellTallies nD τ sig Ix) (B : Dev nD → Set (SemLoc sig × Ix))
    (_ : Fin 1) (c : Dev nD) : RDat τ (Elt F) Ix Name U Lvl cfg1 c where
  A w := V c (Pipeline.arrRef spec1 w)
  after _ _ _ _ := True
  Φ _ := Pipeline.scopedRest (Ix := Ix) (Name := Name) (U := U) (Lvl := Lvl) (Val := Elt F) spec1 c
  q _ := fullShare
  owed _ := O c
  recorded _ := B c

abbrev adm : (p : Fin 1) → (pcfgs (F := F) p).Adm := fun p => (cfgs p).toPCfg_adm

/-- The twelve operand arrays, whole, at `V`. -/
def operands (V : Val1 F) (c : Dev nD) : sProp 𝕄 :=
  iprop((((c : Thread nD τ).loc main_v5) ↦{fullShare} V c main_v5) ∗ (((c : Thread nD τ).loc main_v6) ↦{fullShare} V c main_v6)
    ∗ (((c : Thread nD τ).loc main_arg2) ↦{fullShare} V c main_arg2) ∗ (((c : Thread nD τ).loc main_arg4) ↦{fullShare} V c main_arg4)
    ∗ (((c : Thread nD τ).loc main_arg7) ↦{fullShare} V c main_arg7) ∗ (((c : Thread nD τ).loc main_v7) ↦{fullShare} V c main_v7)
    ∗ (((c : Thread nD τ).loc main_v8) ↦{fullShare} V c main_v8) ∗ (((c : Thread nD τ).loc main_v9) ↦{fullShare} V c main_v9)
    ∗ (((c : Thread nD τ).loc main_v4) ↦{fullShare} V c main_v4) ∗ (((c : Thread nD τ).loc main_v2) ↦{fullShare} V c main_v2)
    ∗ (((c : Thread nD τ).loc main_arg9) ↦{fullShare} V c main_arg9) ∗ (((c : Thread nD τ).loc main_v10) ↦{fullShare} V c main_v10))

/-- What the region is entered from: the operands and the result's array whole, and the core's `owes`. -/
def regionPre (V : Val1 F) (O : Dev nD → CellTallies nD τ sig Ix) (B : Dev nD → Set (SemLoc sig × Ix)) (c : Dev nD) : sProp 𝕄 :=
  iprop(operands V c ∗ (((c : Thread nD τ).loc main_v11) ↦{fullShare} V c main_v11) ∗ Pipeline.owesWithin c (O c) (B c))

/-- What it leaves: the operands as they were, the result's array at some contents, the core's `owes` with the loop's own
    wait pairs recorded. -/
def regionPost (ι : Ix) (V : Val1 F) (O : Dev nD → CellTallies nD τ sig Ix) (B : Dev nD → Set (SemLoc sig × Ix)) (c : Dev nD) : sProp 𝕄 :=
  iprop(operands V c ∗ (∃ f, ((c : Thread nD τ).loc main_v11) ↦{fullShare} f) ∗ Pipeline.owesWithin c (O c) (B c ∪ cfg1.waitPairs ι))

variable (V : Val1 F) (O : Dev nD → CellTallies nD τ sig Ix) (B : Dev nD → Set (SemLoc sig × Ix)) (ι : Ix)
  (𝒱₀ : Variants) (L : GSem nD τ sig → Finset Ix) (lv : GSem nD τ sig → Ix → Lvl)

/-- Every array is held at the full share. -/
theorem share_eq (c : Dev nD) (w : Fin cfg1.W) : (rdats (Name := Name) (U := U) (Lvl := Lvl) V O B 0 c).share w = fullShare :=
  (rdats V O B 0 c).share_full (fun _ => rfl) w

/-- A window's array, as the pipeline holds it, is its buffer held whole. -/
theorem arr_pt (c : Dev nD) (w : Fin cfg1.W) (G : Buf (Elt F) ((cfg1.win w).arr.view.loc (c : Thread nD τ))) :
    (((cfg1.win w).arr.view.loc (c : Thread nD τ)) ↦[(cfg1.win w).arr.view.set]{(rdats (Name := Name) (U := U) (Lvl := Lvl) V O B 0 c).share w} G : sProp 𝕄)
      = (((c : Thread nD τ).loc (Pipeline.arrRef spec1 w)) ↦{fullShare} G : sProp 𝕄) := by
  rw [(arr_whole1 w).set_eq_univ, share_eq]

/-- An operand's array is never written back. -/
theorem arrAt_in (c : Dev nD) (w : Fin cfg1.W) (hw : (cfg1.win w).isOut = false) (n : Nat)
    (G : Buf (Elt F) ((cfg1.win w).arr.view.loc (c : Thread nD τ))) :
    (rdats (Name := Name) (U := U) (Lvl := Lvl) V O B 0 c).ArrAt w n G ↔ G = (rdats (Name := Name) (U := U) (Lvl := Lvl) V O B 0 c).A w := by
  rw [(rdats (Name := Name) (U := U) (Lvl := Lvl) V O B 0 c).ArrAt_in w hw]

/-- Buffer `b` held whole at `V` is window `w`'s array at the entry contents, `b` being that array's buffer. -/
theorem entry_pt (c : Dev nD) (w : Fin cfg1.W) (b : Ref sig .tc) (hb : Pipeline.arrRef spec1 w = b) :
    (((c : Thread nD τ).loc b) ↦{fullShare} V c b : sProp 𝕄)
      ⊢ (((cfg1.win w).arr.view.loc (c : Thread nD τ)) ↦[(cfg1.win w).arr.view.set]{(rdats (Name := Name) (U := U) (Lvl := Lvl) V O B 0 c).share w} (rdats (Name := Name) (U := U) (Lvl := Lvl) V O B 0 c).A w : sProp 𝕄) := by
  subst hb
  rw [arr_pt]
  exact BI.Entails.refl _

/-- An operand's array after the region: its buffer whole at `V`. -/
theorem exit_pt (c : Dev nD) (w : Fin cfg1.W) (hw : (cfg1.win w).isOut = false) (b : Ref sig .tc) (hb : Pipeline.arrRef spec1 w = b) (n : Nat) :
    iprop(∃ G, ⌜(rdats (Name := Name) (U := U) (Lvl := Lvl) V O B 0 c).ArrAt w n G⌝ ∗ (((cfg1.win w).arr.view.loc (c : Thread nD τ)) ↦[(cfg1.win w).arr.view.set]{(rdats (Name := Name) (U := U) (Lvl := Lvl) V O B 0 c).share w} G : sProp 𝕄))
      ⊢ (((c : Thread nD τ).loc b) ↦{fullShare} V c b : sProp 𝕄) := by
  subst hb
  iintro ⟨%G, %hG, H⟩
  obtain rfl := (arrAt_in V O B c w hw n G).mp hG
  ihave H' := (Entails.of_eq (arr_pt V O B c w _)) $$ H
  iexact H'

/-- The result's array after the region: its buffer whole at some contents. -/
theorem exit_pt_out (c : Dev nD) (w : Fin cfg1.W) (b : Ref sig .tc) (hb : Pipeline.arrRef spec1 w = b) (n : Nat) :
    iprop(∃ G, ⌜(rdats (Name := Name) (U := U) (Lvl := Lvl) V O B 0 c).ArrAt w n G⌝ ∗ (((cfg1.win w).arr.view.loc (c : Thread nD τ)) ↦[(cfg1.win w).arr.view.set]{(rdats (Name := Name) (U := U) (Lvl := Lvl) V O B 0 c).share w} G : sProp 𝕄))
      ⊢ iprop(∃ f, (((c : Thread nD τ).loc b) ↦{fullShare} f : sProp 𝕄)) := by
  subst hb
  iintro ⟨%G, -, H⟩
  ihave H' := (Entails.of_eq (arr_pt V O B c w _)) $$ H
  iexists G
  iexact H'

theorem entry_entails (c : Dev nD) :
    iprop(regionPre V O B c ∗ Pipeline.ownSems0 (fun k : PEmpty => k.elim) c ∗ levAts L lv)
      ⊢ |={Set.univ}=> iprop((rdats (Name := Name) (U := U) (Lvl := Lvl) V O B 0 c).arrays (rdats (Name := Name) (U := U) (Lvl := Lvl) V O B 0 c).A ∗ Pipeline.prefHeld (pcfgs (F := F) 0).pre c (fun _ => fullShare) (adm (F := F) 0).1
        ∗ (rdats (Name := Name) (U := U) (Lvl := Lvl) V O B 0 c).owesAt ι 0 ∗ (iprop(emp) : sProp 𝕄) ∗ (iprop(emp) : sProp 𝕄)) := by
  unfold regionPre operands RDat.arrays
  rw [bigSep_W1]
  iintro ⟨⟨⟨H0, H1, H2, H3, H4, H5, H6, H7, H8, H9, H10, H11⟩, H12, HO⟩, -, -⟩
  imodintro
  isplitl [H0 H1 H2 H3 H4 H5 H6 H7 H8 H9 H10 H11 H12]
  · isplitl [H0]; · iapply (entry_pt V O B c 0 _ rfl); iexact H0
    isplitl [H1]; · iapply (entry_pt V O B c 1 _ rfl); iexact H1
    isplitl [H2]; · iapply (entry_pt V O B c 2 _ rfl); iexact H2
    isplitl [H3]; · iapply (entry_pt V O B c 3 _ rfl); iexact H3
    isplitl [H4]; · iapply (entry_pt V O B c 4 _ rfl); iexact H4
    isplitl [H5]; · iapply (entry_pt V O B c 5 _ rfl); iexact H5
    isplitl [H6]; · iapply (entry_pt V O B c 6 _ rfl); iexact H6
    isplitl [H7]; · iapply (entry_pt V O B c 7 _ rfl); iexact H7
    isplitl [H8]; · iapply (entry_pt V O B c 8 _ rfl); iexact H8
    isplitl [H9]; · iapply (entry_pt V O B c 9 _ rfl); iexact H9
    isplitl [H10]; · iapply (entry_pt V O B c 10 _ rfl); iexact H10
    isplitl [H11]; · iapply (entry_pt V O B c 11 _ rfl); iexact H11
    iapply (entry_pt V O B c 12 _ rfl); iexact H12
  isplitr
  · unfold Pipeline.prefHeld; rw [show (Finset.univ : Finset (Fin 0)) = ∅ from rfl, BI.bigSep_empty]; iempintro
  isplitl [HO]
  · iapply (Pipeline.owesWithin_mono c (O c) Set.subset_union_left); iexact HO
  isplitr <;> iempintro

theorem exit_entails (c : Dev nD) :
    iprop((rdats (Name := Name) (U := U) (Lvl := Lvl) V O B 0 c).arraysAt cfg1.N ∗ (rdats (Name := Name) (U := U) (Lvl := Lvl) V O B 0 c).owesAt ι (Fin.last cfg1.N) ∗ (iprop(emp) : sProp 𝕄) ∗ (iprop(emp) : sProp 𝕄))
      ⊢ |={Set.univ}=> regionPost ι V O B c := by
  unfold regionPost operands RDat.arraysAt
  rw [bigSep_W1]
  iintro ⟨⟨H0, H1, H2, H3, H4, H5, H6, H7, H8, H9, H10, H11, H12⟩, HO, -, -⟩
  imodintro
  isplitl [H0 H1 H2 H3 H4 H5 H6 H7 H8 H9 H10 H11]
  · isplitl [H0]; · iapply (exit_pt V O B c 0 rfl _ rfl); iexact H0
    isplitl [H1]; · iapply (exit_pt V O B c 1 rfl _ rfl); iexact H1
    isplitl [H2]; · iapply (exit_pt V O B c 2 rfl _ rfl); iexact H2
    isplitl [H3]; · iapply (exit_pt V O B c 3 rfl _ rfl); iexact H3
    isplitl [H4]; · iapply (exit_pt V O B c 4 rfl _ rfl); iexact H4
    isplitl [H5]; · iapply (exit_pt V O B c 5 rfl _ rfl); iexact H5
    isplitl [H6]; · iapply (exit_pt V O B c 6 rfl _ rfl); iexact H6
    isplitl [H7]; · iapply (exit_pt V O B c 7 rfl _ rfl); iexact H7
    isplitl [H8]; · iapply (exit_pt V O B c 8 rfl _ rfl); iexact H8
    isplitl [H9]; · iapply (exit_pt V O B c 9 rfl _ rfl); iexact H9
    isplitl [H10]; · iapply (exit_pt V O B c 10 rfl _ rfl); iexact H10
    iapply (exit_pt V O B c 11 rfl _ rfl); iexact H11
  isplitl [H12]
  · iapply (exit_pt_out V O B c 12 _ rfl); iexact H12
  iexact HO

/-- A whole memref owned at some contents is its buffer held whole at some contents. -/
theorem owns_pt (c : Dev nD) {sp : Space} {sh : Shape} {e : EltTy} (M : Memref sig .tc sp sh e) (h : M.IsWhole) (X : sh.Idx → Elt F e) :
    (owns (c : Thread nD τ) M fullShare X : sProp 𝕄) ⊢ iprop(∃ f, pt c M f) := by
  unfold owns
  rw [h.set_eq_univ]
  iintro ⟨%f, -, H⟩
  iexists f
  iexact H

/-- and back, at what the memref reads of the contents. -/
theorem pt_owns (c : Dev nD) {sp : Space} {sh : Shape} {e : EltTy} (M : Memref sig .tc sp sh e) (h : M.IsWhole) (f : Bf (F := F) c M) :
    (pt c M f : sProp 𝕄) ⊢ iprop(∃ X, ⌜True⌝ ∗ owns (c : Thread nD τ) M fullShare X) := by
  unfold owns
  rw [h.set_eq_univ]
  iintro H
  iexists (M.view.read (Elt F) f)
  isplitr; · ipureintro; trivial
  iexists f
  isplitr; · ipureintro; rfl
  iexact H

/-- The body at point `t`, on what the pipeline calls it with: from the invariant, the core's `owes` and the thirteen
    current staging buffers at any contents, to the same with the buffers at some contents. -/
theorem sound_body (c : Dev nD) (t : Fin cfg1.N) (Y : (w : Fin cfg1.W) → (cfg1.win w).block.Idx → Elt F (cfg1.win w).elt) :
    iprop((rdats (Name := Name) (U := U) (Lvl := Lvl) V O B 0 c).Φ t.castSucc ∗ (rdats (Name := Name) (U := U) (Lvl := Lvl) V O B 0 c).owesAt ι t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8)
        ∗ owns (c : Thread nD τ) (st1_9 t) fullShare (Y 9)
        ∗ owns (c : Thread nD τ) (st1_10 t) fullShare (Y 10)
        ∗ owns (c : Thread nD τ) (st1_11 t) fullShare (Y 11)
        ∗ owns (c : Thread nD τ) (st1_12 t) fullShare (Y 12))
      ⊢ wp frame (wpE (defs₀ (F := F)) 𝒱₀ c none) Set.univ (bodyAt1 t) fun _ =>
          iprop((rdats (Name := Name) (U := U) (Lvl := Lvl) V O B 0 c).Φ t.succ ∗ (rdats (Name := Name) (U := U) (Lvl := Lvl) V O B 0 c).owesAt ι t.succ
            ∗ (∃ X, ⌜(rdats (Name := Name) (U := U) (Lvl := Lvl) V O B 0 c).after 0 t (Y 0) X⌝ ∗ owns (c : Thread nD τ) (st1_0 t) fullShare X)
            ∗ (∃ X, ⌜(rdats (Name := Name) (U := U) (Lvl := Lvl) V O B 0 c).after 1 t (Y 1) X⌝ ∗ owns (c : Thread nD τ) (st1_1 t) fullShare X)
            ∗ (∃ X, ⌜(rdats (Name := Name) (U := U) (Lvl := Lvl) V O B 0 c).after 2 t (Y 2) X⌝ ∗ owns (c : Thread nD τ) (st1_2 t) fullShare X)
            ∗ (∃ X, ⌜(rdats (Name := Name) (U := U) (Lvl := Lvl) V O B 0 c).after 3 t (Y 3) X⌝ ∗ owns (c : Thread nD τ) (st1_3 t) fullShare X)
            ∗ (∃ X, ⌜(rdats (Name := Name) (U := U) (Lvl := Lvl) V O B 0 c).after 4 t (Y 4) X⌝ ∗ owns (c : Thread nD τ) (st1_4 t) fullShare X)
            ∗ (∃ X, ⌜(rdats (Name := Name) (U := U) (Lvl := Lvl) V O B 0 c).after 5 t (Y 5) X⌝ ∗ owns (c : Thread nD τ) (st1_5 t) fullShare X)
            ∗ (∃ X, ⌜(rdats (Name := Name) (U := U) (Lvl := Lvl) V O B 0 c).after 6 t (Y 6) X⌝ ∗ owns (c : Thread nD τ) (st1_6 t) fullShare X)
            ∗ (∃ X, ⌜(rdats (Name := Name) (U := U) (Lvl := Lvl) V O B 0 c).after 7 t (Y 7) X⌝ ∗ owns (c : Thread nD τ) (st1_7 t) fullShare X)
            ∗ (∃ X, ⌜(rdats (Name := Name) (U := U) (Lvl := Lvl) V O B 0 c).after 8 t (Y 8) X⌝ ∗ owns (c : Thread nD τ) (st1_8 t) fullShare X)
            ∗ (∃ X, ⌜(rdats (Name := Name) (U := U) (Lvl := Lvl) V O B 0 c).after 9 t (Y 9) X⌝ ∗ owns (c : Thread nD τ) (st1_9 t) fullShare X)
            ∗ (∃ X, ⌜(rdats (Name := Name) (U := U) (Lvl := Lvl) V O B 0 c).after 10 t (Y 10) X⌝ ∗ owns (c : Thread nD τ) (st1_10 t) fullShare X)
            ∗ (∃ X, ⌜(rdats (Name := Name) (U := U) (Lvl := Lvl) V O B 0 c).after 11 t (Y 11) X⌝ ∗ owns (c : Thread nD τ) (st1_11 t) fullShare X)
            ∗ (∃ X, ⌜(rdats (Name := Name) (U := U) (Lvl := Lvl) V O B 0 c).after 12 t (Y 12) X⌝ ∗ owns (c : Thread nD τ) (st1_12 t) fullShare X)) := by
  rw [show (rdats (Name := Name) (U := U) (Lvl := Lvl) V O B 0 c).Φ t.succ = (rdats (Name := Name) (U := U) (Lvl := Lvl) V O B 0 c).Φ t.castSucc from rfl,
    show (rdats (Name := Name) (U := U) (Lvl := Lvl) V O B 0 c).owesAt ι t.succ = (rdats (Name := Name) (U := U) (Lvl := Lvl) V O B 0 c).owesAt ι t.castSucc from rfl]
  iintro ⟨HΦ, HO, H0, H1, H2, H3, H4, H5, H6, H7, H8, H9, H10, H11, H12⟩
  ihave G0 := (owns_pt c (st1_0 t) (hstage1_0 ((cfg1.slots t 0).cast nbuf1_0)) (Y 0)) $$ H0
  icases G0 with ⟨%f0, G0⟩
  ihave G1 := (owns_pt c (st1_1 t) (hstage1_1 ((cfg1.slots t 1).cast nbuf1_1)) (Y 1)) $$ H1
  icases G1 with ⟨%f1, G1⟩
  ihave G2 := (owns_pt c (st1_2 t) (hstage1_2 ((cfg1.slots t 2).cast nbuf1_2)) (Y 2)) $$ H2
  icases G2 with ⟨%f2, G2⟩
  ihave G3 := (owns_pt c (st1_3 t) (hstage1_3 ((cfg1.slots t 3).cast nbuf1_3)) (Y 3)) $$ H3
  icases G3 with ⟨%f3, G3⟩
  ihave G4 := (owns_pt c (st1_4 t) (hstage1_4 ((cfg1.slots t 4).cast nbuf1_4)) (Y 4)) $$ H4
  icases G4 with ⟨%f4, G4⟩
  ihave G5 := (owns_pt c (st1_5 t) (hstage1_5 ((cfg1.slots t 5).cast nbuf1_5)) (Y 5)) $$ H5
  icases G5 with ⟨%f5, G5⟩
  ihave G6 := (owns_pt c (st1_6 t) (hstage1_6 ((cfg1.slots t 6).cast nbuf1_6)) (Y 6)) $$ H6
  icases G6 with ⟨%f6, G6⟩
  ihave G7 := (owns_pt c (st1_7 t) (hstage1_7 ((cfg1.slots t 7).cast nbuf1_7)) (Y 7)) $$ H7
  icases G7 with ⟨%f7, G7⟩
  ihave G8 := (owns_pt c (st1_8 t) (hstage1_8 ((cfg1.slots t 8).cast nbuf1_8)) (Y 8)) $$ H8
  icases G8 with ⟨%f8, G8⟩
  ihave G9 := (owns_pt c (st1_9 t) (hstage1_9 ((cfg1.slots t 9).cast nbuf1_9)) (Y 9)) $$ H9
  icases G9 with ⟨%f9, G9⟩
  ihave G10 := (owns_pt c (st1_10 t) (hstage1_10 ((cfg1.slots t 10).cast nbuf1_10)) (Y 10)) $$ H10
  icases G10 with ⟨%f10, G10⟩
  ihave G11 := (owns_pt c (st1_11 t) (hstage1_11 ((cfg1.slots t 11).cast nbuf1_11)) (Y 11)) $$ H11
  icases G11 with ⟨%f11, G11⟩
  ihave G12 := (owns_pt c (st1_12 t) (hstage1_12 ((cfg1.slots t 12).cast nbuf1_12)) (Y 12)) $$ H12
  icases G12 with ⟨%f12, G12⟩
  iapply (kernelRun 𝒱₀ c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) f0 f1 f2 f3 f4 f5 f6 f7 f8 f9 f10 f11 f12 Set.univ _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iintro ⟨G0, G1, G2, G3, G4, G5, G6, G7, G8, G9, G10, G11, ⟨%g12, G12⟩⟩
  isplitl [HΦ]; · iexact HΦ
  isplitl [HO]; · iexact HO
  isplitl [G0]; · iapply (pt_owns c (st1_0 t) (hstage1_0 ((cfg1.slots t 0).cast nbuf1_0)) _); iexact G0
  isplitl [G1]; · iapply (pt_owns c (st1_1 t) (hstage1_1 ((cfg1.slots t 1).cast nbuf1_1)) _); iexact G1
  isplitl [G2]; · iapply (pt_owns c (st1_2 t) (hstage1_2 ((cfg1.slots t 2).cast nbuf1_2)) _); iexact G2
  isplitl [G3]; · iapply (pt_owns c (st1_3 t) (hstage1_3 ((cfg1.slots t 3).cast nbuf1_3)) _); iexact G3
  isplitl [G4]; · iapply (pt_owns c (st1_4 t) (hstage1_4 ((cfg1.slots t 4).cast nbuf1_4)) _); iexact G4
  isplitl [G5]; · iapply (pt_owns c (st1_5 t) (hstage1_5 ((cfg1.slots t 5).cast nbuf1_5)) _); iexact G5
  isplitl [G6]; · iapply (pt_owns c (st1_6 t) (hstage1_6 ((cfg1.slots t 6).cast nbuf1_6)) _); iexact G6
  isplitl [G7]; · iapply (pt_owns c (st1_7 t) (hstage1_7 ((cfg1.slots t 7).cast nbuf1_7)) _); iexact G7
  isplitl [G8]; · iapply (pt_owns c (st1_8 t) (hstage1_8 ((cfg1.slots t 8).cast nbuf1_8)) _); iexact G8
  isplitl [G9]; · iapply (pt_owns c (st1_9 t) (hstage1_9 ((cfg1.slots t 9).cast nbuf1_9)) _); iexact G9
  isplitl [G10]; · iapply (pt_owns c (st1_10 t) (hstage1_10 ((cfg1.slots t 10).cast nbuf1_10)) _); iexact G10
  isplitl [G11]; · iapply (pt_owns c (st1_11 t) (hstage1_11 ((cfg1.slots t 11).cast nbuf1_11)) _); iexact G11
  iapply (pt_owns c (st1_12 t) (hstage1_12 ((cfg1.slots t 12).cast nbuf1_12)) _); iexact G12

/-- The library's body obligation, at every point. -/
theorem body_obligation (c : Dev nD) :
    (rdats (Name := Name) (U := U) (Lvl := Lvl) V O B 0 c).BodyObligation (defs₀ (F := F)) 𝒱₀ ι Set.univ := fun t Y _ => by
  rw [bigSep_W1, bigSep_W1]
  exact sound_body V O B ι 𝒱₀ c t Y

set_option backward.isDefEq.respectTransparency.types false in
/-- THE REGION as the library's record: the windows' decided layout, no semaphore of the kernel's own, the body obligation, and
    the entry / exit entailments around `regionPre` / `regionPost`. -/
def reg (hwaits : ∀ c, (levAts L lv : sProp 𝕄) ⊢ Pipeline.RDat.cellsWaits (Pipeline.pin (pcfgs (F := F)) adm) (rdats V O B) ι 0 c) :
    Pipeline.RDat.RegionSeg (pcfgs (F := F)) adm (rdats (Name := Name) (U := U) (Lvl := Lvl) V O B) ι defs₀ 𝒱₀ L lv 0 where
  win := launch1.win.to₀
  block_pos := launch1.block_pos
  stage_whole := launch1.stage_whole
  K := PEmpty
  osem := fun k => k.elim
  ho := Pipeline.OwnSemFacts.none _
  hbody c := body_obligation V O B ι 𝒱₀ c
  hwaits := hwaits
  pre := regionPre V O B
  post := regionPost ι V O B
  X _ := iprop(emp)
  Y _ := iprop(emp)
  Z _ := iprop(emp)
  hentry c := entry_entails V O B ι L lv c
  hin c := by
    rw [show (rdats (Name := Name) (U := U) (Lvl := Lvl) V O B 0 c).Φ 0 = Pipeline.scopedRest (Ix := Ix) (Name := Name) (U := U) (Lvl := Lvl) (Val := Elt F) spec1 c from rfl]
    iintro ⟨-, -, Hr⟩
    iexact Hr
  hout c := by
    rw [Pipeline.ownSems0_none, show (rdats (Name := Name) (U := U) (Lvl := Lvl) V O B 0 c).Φ (Fin.last cfg1.N) = Pipeline.scopedRest (Ix := Ix) (Name := Name) (U := U) (Lvl := Lvl) (Val := Elt F) spec1 c from rfl]
    iintro Hr
    isplitr; · iempintro
    isplitr; · iempintro
    iexact Hr
  hexit c := exit_entails V O B ι c

set_option backward.isDefEq.respectTransparency.types false in
/-- THE REGION CALL on core `c`'s TensorCore, under the pipelines' body table: from the region boundary, the thirteen arrays
    whole at `V`, the core's `owes`, the level facts and the pipeline's launch ghost state, `customCall (entry 0) ()` runs —
    every weakly fair execution of it terminates, nothing faulting — to the boundary, the twelve operands' arrays as they were,
    the result's at some contents, and the core's `owes`, for the continuation. -/
theorem region_wp [∀ e, Nonempty (Elt F e)] [Infinite Name]
    (EP : Emb (URounds (GSem nD τ sig) Unit) 𝕄) [EP.LandsIn (upEmb : UEmb _ 𝕄)]
    (hwaits : ∀ c, (levAts L lv : sProp 𝕄) ⊢ Pipeline.RDat.cellsWaits (Pipeline.pin (pcfgs (F := F)) adm) (rdats V O B) ι 0 c)
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ regionPost ι V O B c)
            -∗ wp frame (wpE (Pipeline.defs (pcfgs (F := F)) defs₀) (Variants.lift 𝒱₀) (c.tc : Thread nD τ) bd) Set.univ (k ⟨⟩) Q)
        ∗ boundary (c.tc : Thread nD τ) ∗ regionPre V O B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ
          (.op (.customCall (Pipeline.entry (0 : Fin 1)) ()) k) Q :=
  Pipeline.RDat.RegionSeg.wp (pcfgs (F := F)) adm (rdats V O B) ι cellOf_inj EP defs₀ 𝒱₀ L lv (reg V O B ι 𝒱₀ L lv hwaits) c bd hv k Q

end Cert.Kernel.Region
-- ==== Proof.BitsMainA.lean ====
/-
  The kernel program as printed's run, first part: the launch element of the ghost state (the launch handshakes' rounds and
  the region's cells), @main on the TensorCore spelt as two lines of host operations around the adjacency call and
  before the region, and how the TensorCore's whole buffers are taken out of, and put back into, the set it holds.
-/
import proofs.«208141_g20598663152203_cont_8to1_341_30_alg».proof.Proof.BitsSplit
import proofs.«208141_g20598663152203_cont_8to1_341_30_alg».proof.Proof.RegionFrameK
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after seq)
open Cert.Kernel.Region (region_wp regionPre regionPost operands rdats adm Val1)

variable {F : FTy → Type}

local notation "𝕄" => MT nD τ sig (HIx 1) (Elt F) ℕ UU ℕ

variable (m : (ℓ : Loc nD τ sig) → Buf (Elt F) ℓ) (ρ : Dev nD → PrngReg)

/-! ## The pipeline's rounds in the algebra, and the launch element -/

/-- The pipeline's rounds: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

variable [FloatOps F]

/-- What @main's proof starts from on device d, beyond what the launch deals: the region's cells' ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  imod (Pipeline.fund_ghost (Pipeline.pin (pcfgs (F := F)) adm) (EP (F := F)) cellOf_inj) $$ [HR] with ⟨Hg, Ht⟩
  · iexact HR
  imodintro
  isplitl [HH]; · iexact HH
  isplitl [Hg Ht]
  · unfold G
    rw [bigSep_sep']
    isplitl [Hg]
    · iapply (Entails.of_eq (bigSep_congr fun (d : Dev nD) _ => (bigSep_univ_of_subsingleton (0 : Fin 1)
        (Φ := fun p => Pipeline.cellsGhost (Pipeline.pin (pcfgs (F := F)) adm) (EP (F := F)) p d))))
      iexact Hg
    · iapply (Entails.of_eq (bigSep_congr fun (d : Dev nD) _ => (bigSep_univ_of_subsingleton (0 : Fin 1)
        (Φ := fun p => Pipeline.toksInit (Pipeline.pin (pcfgs (F := F)) adm) (EP (F := F)) p d))))
      iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## @main on the TensorCore -/

/-- The host operations before the adjacency call, and those between it and the region. -/
def ops0 : List (HloOp τ sig (Elt F)) :=
  [StableHlo.reshape main_arg0 main_v0 rfl shapeCasts_S1x512x512x8_S512x512x8,
   StableHlo.unary main_v0 main_v1 ((truncf .bf16 · bitsLt_bf16_f32) : (⟨S512x512x8, .f32⟩ : BufTy).Contents (Elt F) → (⟨S512x512x8, .bf16⟩ : BufTy).Contents (Elt F)),
   StableHlo.unary main_v1 main_v2 ((transpose S8x512x512 [2, 0, 1] · transposes_S512x512x8_S8x512x512_2_0_1) : (⟨S512x512x8, .bf16⟩ : BufTy).Contents (Elt F) → (⟨S8x512x512, .bf16⟩ : BufTy).Contents (Elt F))]
def ops1 : List (HloOp τ sig (Elt F)) :=
  [StableHlo.reshape main_v3 main_v4 rfl shapeCasts_S262144_S512x512,
   StableHlo.reshape main_arg6 main_v5 rfl shapeCasts_S_S1x1,
   StableHlo.reshape main_arg11 main_v6 rfl shapeCasts_S_S1x1,
   StableHlo.reshape main_arg3 main_v7 rfl shapeCasts_S16_S1x16,
   StableHlo.reshape main_arg5 main_v8 rfl shapeCasts_S16_S1x16,
   StableHlo.reshape main_arg8 main_v9 rfl shapeCasts_S16_S1x16,
   StableHlo.reshape main_arg10 main_v10 rfl shapeCasts_S16_S1x16]

abbrev ΛS : Labels := SparseCore.Sig (ΛP (F := F)) 1

theorem main_eq (d : Dev nD) :
    main (F := F) d = ((seq ops0 : Prog (TpuEff nD τ sig (Elt F) (ΛS (F := F)) .tc) PUnit) >>= fun _ => (sc (F := F)).run d 0 >>= fun _ => (seq ops1 : Prog (TpuEff nD τ sig (Elt F) (ΛS (F := F)) .tc) PUnit) >>= fun _ =>
      (Prog.lift (.customCall (SparseCore.inner (Pipeline.entry 0)) ()) >>= fun _ => pure ⟨⟩)) := rfl

theorem hS0 : ∀ op ∈ (ops0 (F := F)), op.bufs ⊆ Pipeline.ucRefs τ sig := by
  intro op hop
  simp only [ops0, List.mem_cons, List.not_mem_nil, _root_.or_false] at hop
  rcases hop with rfl | rfl | rfl <;> exact Pipeline.sub_ucRefs _ (by simp)
theorem hf0 : ∀ op ∈ (ops0 (F := F)), op.fresh = ∅ := by
  intro op hop
  simp only [ops0, List.mem_cons, List.not_mem_nil, _root_.or_false] at hop
  rcases hop with rfl | rfl | rfl <;> rfl
theorem hS1 : ∀ op ∈ (ops1 (F := F)), op.bufs ⊆ Pipeline.ucRefs τ sig := by
  intro op hop
  simp only [ops1, List.mem_cons, List.not_mem_nil, _root_.or_false] at hop
  rcases hop with rfl | rfl | rfl | rfl | rfl | rfl | rfl <;> exact Pipeline.sub_ucRefs _ (by simp)
theorem hf1 : ∀ op ∈ (ops1 (F := F)), op.fresh = ∅ := by
  intro op hop
  simp only [ops1, List.mem_cons, List.not_mem_nil, _root_.or_false] at hop
  rcases hop with rfl | rfl | rfl | rfl | rfl | rfl | rfl <;> rfl

abbrev e' : DevRef τ sig := Proc.devRef .tc (main_arg1 : Ref sig .tc)
abbrev a' : DevRef τ sig := Proc.devRef .tc (main_v3 : Ref sig .tc)

omit [FloatOps F] in
theorem held_ea (d : Dev nD) (V : Valuation τ sig (Elt F)) :
    (held (SparseCore.T d) ({e', a'} : Finset (DevRef τ sig)) V : sProp 𝕄) = iprop((eLoc d ↦{fullShare} V e') ∗ (aLoc d ↦{fullShare} V a')) := by
  unfold held
  rw [SparseCore.bigSep_insert' (by decide), bigSep_singleton]

theorem hea : ({e', a'} : Finset (DevRef τ sig)) ⊆ Pipeline.ucRefs τ sig := by decide

theorem after0_e (d : Dev nD) : after (ops0 (F := F)) (StableHlo.launchContents m d) e' = m (eLoc d) := by
  unfold ops0; after_results
theorem after0_a (d : Dev nD) : after (ops0 (F := F)) (StableHlo.launchContents m d) a' = m (aLoc d) := by
  unfold ops0; after_results

/-- What the call takes for the two SparseCores, and what it hands back. -/
theorem st0_eq (d : Dev nD) : (bigSep Finset.univ fun c : Fin ((K (F := F)).nCore 0) => (P m).st 0 d c)
    = iprop((bigSep Finset.univ fun c : Fin 2 => eLoc d ↦{Transfers.shareTok fullShare 2 c} m (eLoc d))
        ∗ bigSep Finset.univ fun c : Fin 2 => bigSep Finset.univ fun s : Fin 16 => aLoc d ↦[tset c.val s.val]{fullShare} m (aLoc d)) := by
  show (bigSep (Finset.univ : Finset (Fin 2)) fun c => iprop((eLoc d ↦{eCore c.val} m (eLoc d))
    ∗ bigSep Finset.univ fun s : Fin 16 => aLoc d ↦[tset c.val s.val]{fullShare} m (aLoc d))) = _
  rw [bigSep_sep']
theorem dn0_eq (d : Dev nD) : (bigSep Finset.univ fun c : Fin ((K (F := F)).nCore 0) => (P m).dn 0 d c)
    = iprop((bigSep Finset.univ fun c : Fin 2 => eLoc d ↦{Transfers.shareTok fullShare 2 c} m (eLoc d))
        ∗ bigSep Finset.univ fun c : Fin 2 => bigSep Finset.univ fun s : Fin 16 => iprop(∃ f, aLoc d ↦[tset c.val s.val]{fullShare} f)) := by
  show (bigSep (Finset.univ : Finset (Fin 2)) fun c => iprop((eLoc d ↦{eCore c.val} m (eLoc d))
    ∗ bigSep Finset.univ fun s : Fin 16 => iprop(∃ f, aLoc d ↦[tset c.val s.val]{fullShare} f))) = _
  rw [bigSep_sep']

/-- The thirty-two ranges, each at some contents, are the result array whole at some contents. -/
theorem aTiles_join (d : Dev nD) :
    (bigSep Finset.univ fun c : Fin 2 => bigSep Finset.univ fun s : Fin 16 => iprop(∃ f, aLoc d ↦[tset c.val s.val]{fullShare} f))
      ⊢ (iprop(∃ g, aLoc d ↦{fullShare} g) : sProp 𝕄) := by
  rw [← bigSep_univ_prod (fun p : Fin 2 × Fin 16 => (iprop(∃ f, aLoc d ↦[tset p.1.val p.2.val]{fullShare} f) : sProp 𝕄))]
  refine (bigSep_exists_pi Finset.univ (fun (p : Fin 2 × Fin 16) (f : Buf (Elt F) (aLoc d)) => (aLoc d ↦[tset p.1.val p.2.val]{fullShare} f : sProp 𝕄))).trans ?_
  iintro ⟨%fs, H⟩
  ihave H' := (pointsTo_biUnion_join Finset.univ (fun p : Fin 2 × Fin 16 => tset p.1.val p.2.val) fs (fs (0, 0)) tset_disjoint) $$ H
  icases H' with ⟨%g, -, Hg⟩
  rw [tset_cover]
  iexists g; iexact Hg

/-- The valuation after the adjacency call: the result array at what the tiles wrote. -/
def V1 (d : Dev nD) (g : Buf (Elt F) (aLoc d)) : Valuation τ sig (Elt F) :=
  Function.update (after (ops0 (F := F)) (StableHlo.launchContents m d)) a' g

theorem V1_e (d : Dev nD) (g : Buf (Elt F) (aLoc d)) : V1 m d g e' = m (eLoc d) :=
  (Function.update_of_ne (show e' ≠ a' by decide) _ _).trans (after0_e m d)
theorem V1_a (d : Dev nD) (g : Buf (Elt F) (aLoc d)) : V1 m d g a' = g := Function.update_self _ _ _

theorem held_V1 (d : Dev nD) (g : Buf (Elt F) (aLoc d)) :
    (held (SparseCore.T d) (Pipeline.ucRefs τ sig) (V1 m d g) : sProp 𝕄)
      = iprop(((eLoc d ↦{fullShare} m (eLoc d)) ∗ (aLoc d ↦{fullShare} g))
          ∗ held (SparseCore.T d) (Pipeline.ucRefs τ sig \ {e', a'}) (after (ops0 (F := F)) (StableHlo.launchContents m d))) := by
  rw [held_sub_split (SparseCore.T d) hea, held_ea, V1_e, V1_a,
    held_congr (SparseCore.T d) (V := V1 m d g) (V' := after (ops0 (F := F)) (StableHlo.launchContents m d)) fun b hb =>
      Function.update_of_ne (fun e => (Finset.mem_sdiff.mp hb).2 (by rw [e]; exact Finset.mem_insert_of_mem (Finset.mem_singleton_self _))) _ _]

abbrev rT (b : Ref sig .tc) : DevRef τ sig := Proc.devRef .tc b
/-- The region's twelve operands and its result. -/
abbrev T13 : Finset (DevRef τ sig) := {rT main_v5, rT main_v6, rT main_arg2, rT main_arg4, rT main_arg7, rT main_v7, rT main_v8, rT main_v9, rT main_v4, rT main_v2, rT main_arg9, rT main_v10, rT main_v11}
theorem hT13 : (T13 : Finset (DevRef τ sig)) ⊆ Pipeline.ucRefs τ sig := by decide

omit [FloatOps F] in
theorem held_T13 (d : Dev nD) (V : Valuation τ sig (Elt F)) :
    (held (SparseCore.T d) T13 V : sProp 𝕄)
      = iprop((((SparseCore.T d).loc main_v5) ↦{fullShare} V (rT main_v5))
        ∗ (((SparseCore.T d).loc main_v6) ↦{fullShare} V (rT main_v6))
        ∗ (((SparseCore.T d).loc main_arg2) ↦{fullShare} V (rT main_arg2))
        ∗ (((SparseCore.T d).loc main_arg4) ↦{fullShare} V (rT main_arg4))
        ∗ (((SparseCore.T d).loc main_arg7) ↦{fullShare} V (rT main_arg7))
        ∗ (((SparseCore.T d).loc main_v7) ↦{fullShare} V (rT main_v7))
        ∗ (((SparseCore.T d).loc main_v8) ↦{fullShare} V (rT main_v8))
        ∗ (((SparseCore.T d).loc main_v9) ↦{fullShare} V (rT main_v9))
        ∗ (((SparseCore.T d).loc main_v4) ↦{fullShare} V (rT main_v4))
        ∗ (((SparseCore.T d).loc main_v2) ↦{fullShare} V (rT main_v2))
        ∗ (((SparseCore.T d).loc main_arg9) ↦{fullShare} V (rT main_arg9))
        ∗ (((SparseCore.T d).loc main_v10) ↦{fullShare} V (rT main_v10))
        ∗ (((SparseCore.T d).loc main_v11) ↦{fullShare} V (rT main_v11))) := by
  unfold held T13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- With one SparseCore call, the TensorCore owes nothing after it. -/
theorem Otc_one (d : Dev nD) : (K (F := F)).Otc d 1 = 0 := by
  unfold SparseCore.Cfg.Otc
  exact Finset.sum_eq_zero fun q _ => if_neg (by have := q.isLt; omega)

end Cert.Proof.KB

end
-- ==== Proof.BitsMain.lean ====
/-
  The kernel program as printed's run, second part: the TensorCore region entered from the TensorCore's holdings at any
  valuation (the thirteen arrays out of the held set, what it owes handed to the region and back, the region's cells'
  ghost state), @main whole — three host operations, the adjacency call on the thirty-two tiles with the edge list lent
  by shares and the result dealt by ranges, seven reshapes, the region — and the launch theorem applied: every weakly
  fair execution of the device's thirty-five threads terminates, nothing faulting, the twelve arguments unchanged.
-/
import proofs.«208141_g20598663152203_cont_8to1_341_30_alg».proof.Proof.BitsMainA

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after seq)
open Cert.Kernel.Region (region_wp regionPre regionPost operands rdats adm Val1)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The region, from the TensorCore's holdings at any valuation -/

/-- The region is entered at the valuation the held set is at. -/
def VrA (V : Valuation τ sig (Elt F)) : Val1 F := fun _ b => V (rT b)
/-- What the TensorCore owes after the one call (nothing), and the bound on its recorded waits. -/
def Or : Dev nD → CellTallies nD τ sig (HIx 1) := fun d' => (K (F := F)).Otc d' 1
def Br : Dev nD → Set (SemLoc sig × HIx 1) := fun d' => {p | (K (F := F)).lev (SparseCore.T d', p.1) p.2 ≤ 8 * 1}

theorem hwaitsA (V : Valuation τ sig (Elt F)) :
    ∀ c, (levAts (K (F := F)).L (K (F := F)).lev : sProp 𝕄)
      ⊢ Pipeline.RDat.cellsWaits (Pipeline.pin (pcfgs (F := F)) adm) (rdats (Name := ℕ) (U := UU) (Lvl := ℕ) (VrA V) (Or (F := F)) (Br (F := F))) none 0 c :=
  fun c => Pipeline.RDat.cellsWaits_intro (Pipeline.pin (pcfgs (F := F)) adm) (rdats (Name := ℕ) (U := UU) (Lvl := ℕ) (VrA V) (Or (F := F)) (Br (F := F))) none 0 c
    (R := levAts (K (F := F)).L (K (F := F)).lev) fun w s t =>
      (K (F := F)).mayWait_none (thr := SparseCore.T c) _ (fun g' => by show (K (F := F)).Otc c 1 g' none = 0; rw [Otc_one]; rfl)

omit [FloatOps F] in
theorem held_T13_upd (d : Dev nD) (V : Valuation τ sig (Elt F)) (f : Buf (Elt F) ((SparseCore.T d).loc main_v11)) :
    (held (SparseCore.T d) T13 (Function.update V (rT main_v11) f) : sProp 𝕄)
      = iprop((((SparseCore.T d).loc main_v5) ↦{fullShare} V (rT main_v5))
        ∗ (((SparseCore.T d).loc main_v6) ↦{fullShare} V (rT main_v6))
        ∗ (((SparseCore.T d).loc main_arg2) ↦{fullShare} V (rT main_arg2))
        ∗ (((SparseCore.T d).loc main_arg4) ↦{fullShare} V (rT main_arg4))
        ∗ (((SparseCore.T d).loc main_arg7) ↦{fullShare} V (rT main_arg7))
        ∗ (((SparseCore.T d).loc main_v7) ↦{fullShare} V (rT main_v7))
        ∗ (((SparseCore.T d).loc main_v8) ↦{fullShare} V (rT main_v8))
        ∗ (((SparseCore.T d).loc main_v9) ↦{fullShare} V (rT main_v9))
        ∗ (((SparseCore.T d).loc main_v4) ↦{fullShare} V (rT main_v4))
        ∗ (((SparseCore.T d).loc main_v2) ↦{fullShare} V (rT main_v2))
        ∗ (((SparseCore.T d).loc main_arg9) ↦{fullShare} V (rT main_arg9))
        ∗ (((SparseCore.T d).loc main_v10) ↦{fullShare} V (rT main_v10))
        ∗ (((SparseCore.T d).loc main_v11) ↦{fullShare} f)) := by
  rw [held_T13, Function.update_self,
    Function.update_of_ne (show (rT main_v5 : DevRef τ sig) ≠ rT main_v11 by decide),
    Function.update_of_ne (show (rT main_v6 : DevRef τ sig) ≠ rT main_v11 by decide),
    Function.update_of_ne (show (rT main_arg2 : DevRef τ sig) ≠ rT main_v11 by decide),
    Function.update_of_ne (show (rT main_arg4 : DevRef τ sig) ≠ rT main_v11 by decide),
    Function.update_of_ne (show (rT main_arg7 : DevRef τ sig) ≠ rT main_v11 by decide),
    Function.update_of_ne (show (rT main_v7 : DevRef τ sig) ≠ rT main_v11 by decide),
    Function.update_of_ne (show (rT main_v8 : DevRef τ sig) ≠ rT main_v11 by decide),
    Function.update_of_ne (show (rT main_v9 : DevRef τ sig) ≠ rT main_v11 by decide),
    Function.update_of_ne (show (rT main_v4 : DevRef τ sig) ≠ rT main_v11 by decide),
    Function.update_of_ne (show (rT main_v2 : DevRef τ sig) ≠ rT main_v11 by decide),
    Function.update_of_ne (show (rT main_arg9 : DevRef τ sig) ≠ rT main_v11 by decide),
    Function.update_of_ne (show (rT main_v10 : DevRef τ sig) ≠ rT main_v11 by decide)]

/-- What the region leaves, for the continuation. -/
abbrev regionΦ (d : Dev nD) (V : Valuation τ sig (Elt F)) (R : sProp 𝕄) : PUnit → sProp 𝕄 :=
  fun _ => iprop(R ∗ boundary (SparseCore.T d) ∗ (∃ f, held (SparseCore.T d) T13 (Function.update V (rT main_v11) f))
    ∗ (K (F := F)).tcSt EH d 1)

set_option maxHeartbeats 4000000 in
/-- From the TensorCore's holdings to what the region's rule asks, and from what it leaves back to them. -/
theorem region_pre (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ iprop((iprop(boundary (SparseCore.T d) ∗ regionPost none (VrA V) (Or (F := F)) (Br (F := F)) d)
            -∗ wp frame (wpE (Pipeline.defs (pcfgs (F := F)) defs₀) (Variants.lift 𝒱₀) (SparseCore.T d) none) Set.univ (.ret ⟨⟩) (regionΦ d V R))
        ∗ boundary (SparseCore.T d) ∗ regionPre (VrA V) (Or (F := F)) (Br (F := F)) d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  rw [held_T13]
  unfold G regionPre operands regionΦ SparseCore.Cfg.tcSt
  iintro ⟨HR, #Hlv, Hb, ⟨P1, P2, P3, P4, P5, P6, P7, P8, P9, P10, P11, P12, P13⟩, ⟨⟨%W, %hW, HO⟩, Hat⟩, ⟨Hcg, Hti⟩⟩
  isplitl [HR Hat]
  · iintro ⟨Hb, Hpost⟩
    unfold regionPost operands
    icases Hpost with ⟨⟨Q1, Q2, Q3, Q4, Q5, Q6, Q7, Q8, Q9, Q10, Q11, Q12⟩, ⟨%f, Q13⟩, ⟨%W', %hW', HO⟩⟩
    rw [wp_ret]; imodintro
    isplitl [HR]; · iexact HR
    isplitl [Hb]; · iexact Hb
    isplitl [Q1 Q2 Q3 Q4 Q5 Q6 Q7 Q8 Q9 Q10 Q11 Q12 Q13]
    · iexists f
      rw [held_T13_upd]
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      iexact Q13
    · isplitl [HO]
      · iexists W'; isplitr
        · ipureintro; intro p hp
          rcases hW' (Finset.mem_coe.mpr hp) with h | ⟨w, s, rfl⟩
          · exact h
          · show (K (F := F)).lev _ none ≤ 8 * 1
            rw [SparseCore.Cfg.lev_none]; omega
        · iexact HO
      · iexact Hat
  isplitl [Hb]; · iexact Hb
  isplitl [P1 P2 P3 P4 P5 P6 P7 P8 P9 P10 P11 P12 P13 HO]
  · isplitl [P1 P2 P3 P4 P5 P6 P7 P8 P9 P10 P11 P12]
    · isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [P13]; · iexact P13
    iexists W; isplitr
    · ipureintro; intro p hp; exact hW p (Finset.mem_coe.mp hp)
    · iexact HO
  isplitr; · iexact Hlv
  isplitl [Hcg]; · iexact Hcg
  iexact Hti

/-- THE REGION on device d's TensorCore, from its holdings at any valuation V: the thirteen arrays among what it holds,
    what it owes, the region's cells' ghost state; it ends with the thirteen back, the result at some contents. -/
theorem region_step [∀ e, Nonempty (Elt F e)] (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ wp frame (wpE ((K (F := F)).defs (D (F := F))) 𝒱 (SparseCore.T d) none) Set.univ
          (Prog.lift (.customCall (SparseCore.inner (Pipeline.entry 0)) ())) (regionΦ d V R) :=
  (region_pre d V R).trans
    ((region_wp (VrA V) (Or (F := F)) (Br (F := F)) none 𝒱₀ (K (F := F)).L (K (F := F)).lev (EP (F := F)) (hwaitsA V) d none
        (by intro u hu; cases hu) (fun x => .ret x) _).trans
      ((K (F := F)).wp_liftProg (D (F := F)) 𝒱 (SparseCore.T d) Set.univ none (Prog.lift (.customCall (Pipeline.entry (0 : Fin 1)) ())) _))

/-! ## @main, whole -/

/-- The valuation the region is entered at: after the reshapes. -/
def V2 (d : Dev nD) (g : Buf (Elt F) (aLoc d)) : Valuation τ sig (Elt F) := after (ops1 (F := F)) (V1 m d g)

/-- The twelve arguments, as the TensorCore's buffers. -/
abbrev argRef : Fin 12 → DevRef τ sig :=
  fun k => rT (![main_arg0, main_arg1, main_arg2, main_arg3, main_arg4, main_arg5, main_arg6, main_arg7, main_arg8, main_arg9, main_arg10, main_arg11] k)

/-- No operation of @main writes an argument: after the reshapes each holds its launch contents. -/
theorem V2_arg (d : Dev nD) (g : Buf (Elt F) (aLoc d)) (k : Fin 12) : V2 m d g (argRef k) = m (d, argRef k) := by
  fin_cases k <;>
    (show after (ops1 (F := F)) (V1 m d g) (rT _) = _
     unfold ops1; after_results
     unfold V1; rw [Function.update_of_ne (by decide)]
     unfold ops0; after_results)

/-- What @main leaves the claim: every unscoped buffer of the TensorCore held at a valuation that is the launch
    memory on the twelve arguments. -/
def FIN (d : Dev nD) : sProp 𝕄 :=
  iprop(∃ V : Valuation τ sig (Elt F), ⌜∀ k : Fin 12, V (argRef k) = m (d, argRef k)⌝ ∗ held (SparseCore.T d) (Pipeline.ucRefs τ sig) V)

/-- After the region: the held set re-formed at the result's new contents. -/
theorem fin_of_region (d : Dev nD) (g : Buf (Elt F) (aLoc d)) (u : PUnit) :
    regionΦ (F := F) d (V2 m d g) (held (SparseCore.T d) (Pipeline.ucRefs τ sig \ T13) (V2 m d g)) u
      ⊢ wp frame (wpE ((K (F := F)).defs (D (F := F))) 𝒱 (SparseCore.T d) none) Set.univ (Pure.pure PUnit.unit)
          fun _ => iprop((K (F := F)).tcSt EH d 1 ∗ FIN m d) := by
  unfold regionΦ FIN
  iintro ⟨Hrest, -, ⟨%f, H13⟩, Hst⟩
  rw [wp_pure]; imodintro
  isplitl [Hst]; · iexact Hst
  iexists (Function.update (V2 m d g) (rT main_v11) f)
  isplitr
  · ipureintro; intro k
    rw [Function.update_of_ne (by revert k; decide)]
    exact V2_arg m d g k
  · rw [held_sub_split (SparseCore.T d) hT13 (Function.update (V2 m d g) (rT main_v11) f)]
    isplitl [H13]; · iexact H13
    rw [held_congr (SparseCore.T d) (V := Function.update (V2 m d g) (rT main_v11) f) (V' := V2 m d g) fun b hb =>
      Function.update_of_ne (fun e => (Finset.mem_sdiff.mp hb).2 (by rw [e]; decide)) _ _]
    iexact Hrest

set_option maxHeartbeats 4000000 in
/-- @main on device d's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (SparseCore.T d) (Pipeline.ucRefs τ sig) (StableHlo.launchContents m d)
    from Pipeline.unscopedBufs_held d (StableHlo.launchContents m d), main_eq]
  iintro ⟨#Hctx, Hst, ⟨Hb, Hheld, -, -⟩, HG⟩
  iapply (wp_seq 𝒱 none Set.univ d (Pipeline.ucRefs τ sig) _ ops0 hS0 hf0 (StableHlo.launchContents m d)) $$ [Hb Hheld]
  · isplitl [Hb]; · iexact Hb
    iexact Hheld
  iintro ⟨Hb, Hheld⟩
  -- the adjacency call: the edge list lent by shares, the result array dealt by ranges
  ihave Hh := (Entails.of_eq (held_sub_split (SparseCore.T d) hea _)) $$ Hheld
  icases Hh with ⟨Hea, Hrest⟩
  ihave Hea := (Entails.of_eq (held_ea (F := F) d _)) $$ Hea
  icases Hea with ⟨He, Ha⟩
  rw [after0_e, after0_a]
  ihave He := (Transfers.pointsTo_toks_split fullShare 2) $$ He
  icases He with ⟨Hdrop, Htoks⟩
  ihave Ha := (Entails.of_eq (aPts_tiles (F := F) d _)) $$ Ha
  rw [wp_bind]
  iapply ((K (F := F)).wp_run (D (F := F)) 𝒱 (EH := EH) (P := P m) κ d 0) $$ [Hst Htoks Ha Hdrop Hrest Hb HG]
  isplitr; · iexact Hctx
  isplitl [Hst]; · iexact Hst
  isplitl [Htoks Ha]
  · rw [st0_eq]
    isplitl [Htoks]; · iexact Htoks
    iexact Ha
  iintro ⟨Hst, Hdn⟩
  ihave Hdn := (Entails.of_eq (dn0_eq m d)) $$ Hdn
  icases Hdn with ⟨Htoks, Ha⟩
  ihave He := (Transfers.pointsTo_toks_join fullShare 2) $$ [Hdrop Htoks]
  · isplitl [Hdrop]; · iexact Hdrop
    iexact Htoks
  ihave Ha := (aTiles_join (F := F) d) $$ Ha
  icases Ha with ⟨%g, Ha⟩
  -- back into the held set; the reshapes
  ihave Hheld := (Entails.of_eq (held_V1 m d g).symm) $$ [He Ha Hrest]
  · isplitl [He Ha]
    · isplitl [He]; · iexact He
      iexact Ha
    · iexact Hrest
  iapply (wp_seq 𝒱 none Set.univ d (Pipeline.ucRefs τ sig) _ ops1 hS1 hf1 (V1 m d g)) $$ [Hb Hheld]
  · isplitl [Hb]; · iexact Hb
    iexact Hheld
  iintro ⟨Hb, Hheld⟩
  -- the region, from the thirteen arrays among what is held
  ihave Hheld := (Entails.of_eq (show (held (SparseCore.T d) (Pipeline.ucRefs τ sig) (after (ops1 (F := F)) (V1 m d g)) : sProp 𝕄)
    = held (SparseCore.T d) (Pipeline.ucRefs τ sig) (V2 m d g) from rfl)) $$ Hheld
  ihave Hh := (Entails.of_eq (held_sub_split (SparseCore.T d) hT13 (V2 m d g))) $$ Hheld
  icases Hh with ⟨H13, Hrest⟩
  ihave Hlv := (SparseCore.Cfg.ctx_levAts (K := K (F := F)) (EH := EH) (P := P m) κ) $$ Hctx
  rw [wp_bind]
  iapply ((region_step (F := F) d (V2 m d g) (held (SparseCore.T d) (Pipeline.ucRefs τ sig \ T13) (V2 m d g))).trans
    (wp_mono frame _ _ (fin_of_region m d g))) $$ [Hrest Hlv Hb H13 Hst HG]
  isplitl [Hrest]; · iexact Hrest
  isplitl [Hlv]; · iexact Hlv
  isplitl [Hb]; · iexact Hb
  isplitl [H13]; · iexact H13
  isplitl [Hst]; · iexact Hst
  iexact HG

/-! ## The program's run and the claim -/

def fq (d : Dev nD) (s' : Phys nD τ sig (Elt F)) : Prop := ∀ k : Fin 12, s'.mem.mem (d, argRef k) = m (d, argRef k)

theorem hfin (d : Dev nD) (s' : Phys nD τ sig (Elt F)) : iprop(FIN m d ∗ SI s') ⊢ (⌜fq m d s'⌝ : sProp 𝕄) := by
  unfold FIN held
  iintro ⟨⟨%V, %hV, H⟩, HSI⟩
  ihave %h := (SI_pointsTo_bufs_agree (qs := fun _ => fullShare) (Pipeline.ucRefs τ sig)) $$ [HSI H]
  · isplitl [HSI]; · iexact HSI
    iexact H
  ipureintro
  intro k
  rw [h (argRef k) (by revert k; decide), hV k]

def QC : PUnit × MemSt nD τ sig (Elt F) → Prop := fun r => ∀ (c : Dev nD) (k : Fin 12), r.2.mem (c, argRef k) = m (c, argRef k)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.KB

end
-- ==== Proof.RefPre.lean ====
/-
  The precondition, decoded.  It is the conjunction, over the twelve argument arrays, of "every element's
  absolute value is below +∞" for the eleven float arrays and "every element lies between 0 and 511" for
  the edge list, each an all-reduction by `and` of an array of comparison bits.  An extended real whose
  absolute value is below +∞ is neither infinity.
-/
import proofs.«208141_g20598663152203_cont_8to1_341_30_alg».proof.Pre_input_domain
import Idealize.ShloMosaic.Lib.ReduceAll
import Idealize.ShloMosaic.Lib.ValueIdx
import Idealize.ShloMosaic.PureOps.Ideal.Laws

noncomputable section

namespace Cert.RefPre

open Idealize.ShloMosaic Idealize.ShloMosaic.ValueIdx

instance : Subsingleton Cert.Pre_input_domain.S_.Idx := ⟨fun a b => funext fun d => d.elim0⟩

theorem ofBool_eq_one (b : Bool) : BitVec.ofBool b = 1#1 ↔ b = true := by cases b <;> decide

/-- An extended real whose absolute value compares below a float constant is neither infinity. -/
theorem finite_of_abs_lt (x : EReal) (c : EReal) (h : Ideal.cmp .olt (max x (-x)) c = 1#1) : x ≠ ⊤ ∧ x ≠ ⊥ := by
  have h' : BitVec.ofBool (decide (max x (-x) < c)) = 1#1 := h
  have h1 : max x (-x) < c := of_decide_eq_true ((ofBool_eq_one _).1 h')
  have h2 : max x (-x) < ⊤ := lt_of_lt_of_le h1 le_top
  constructor
  · rintro rfl
    simp at h2
  · rintro rfl
    simp at h2

/-- A finite extended real is a real number. -/
theorem exists_real (x : EReal) (h : x ≠ ⊤ ∧ x ≠ ⊥) : ∃ r : ℝ, x = (r : EReal) := by
  induction x using EReal.rec with
  | bot => exact absurd rfl h.2
  | coe r => exact ⟨r, rfl⟩
  | top => exact absurd rfl h.1

/-- A word between 0 and 511, read signed. -/
theorem range_of_cmp (w : BitVec 32)
    (h : IntOp.andi (IntOp.cmpi .sge w 0#32) (IntOp.cmpi .sle w 511#32) = 1#1) : 0 ≤ w.toInt ∧ w.toInt ≤ 511 := by
  obtain ⟨h0, h1⟩ := IntOp.andi_eq_one.1 h
  have a := IntOp.cmpi_sge.1 h0
  have b := IntOp.cmpi_sle.1 h1
  have z : (0#32 : BitVec 32).toInt = 0 := by decide
  have t : (511#32 : BitVec 32).toInt = 511 := by decide
  rw [z] at a
  rw [t] at b
  exact ⟨a, b⟩

/-- What the precondition says of the twelve argument arrays. -/
structure Dom
    (x0 : FVec Ideal Cert.Pre_input_domain.S1x512x512x8 .f32)
    (x1 : IVec Cert.Pre_input_domain.S2x8192 32)
    (x2 : FVec Ideal Cert.Pre_input_domain.S8x16 .f32)
    (x3 : FVec Ideal Cert.Pre_input_domain.S16 .f32)
    (x4 : FVec Ideal Cert.Pre_input_domain.S16x16 .f32)
    (x5 : FVec Ideal Cert.Pre_input_domain.S16 .f32)
    (x6 : FVec Ideal Cert.Pre_input_domain.S_ .f32)
    (x7 : FVec Ideal Cert.Pre_input_domain.S16x16 .f32)
    (x8 : FVec Ideal Cert.Pre_input_domain.S16 .f32)
    (x9 : FVec Ideal Cert.Pre_input_domain.S16x16 .f32)
    (x10 : FVec Ideal Cert.Pre_input_domain.S16 .f32)
    (x11 : FVec Ideal Cert.Pre_input_domain.S_ .f32) : Prop where
  rng : ∀ i, 0 ≤ (x1 i).toInt ∧ (x1 i).toInt ≤ 511
  fin_x0 : ∀ i, x0 i ≠ ⊤ ∧ x0 i ≠ ⊥
  fin_x2 : ∀ i, x2 i ≠ ⊤ ∧ x2 i ≠ ⊥
  fin_x3 : ∀ i, x3 i ≠ ⊤ ∧ x3 i ≠ ⊥
  fin_x4 : ∀ i, x4 i ≠ ⊤ ∧ x4 i ≠ ⊥
  fin_x5 : ∀ i, x5 i ≠ ⊤ ∧ x5 i ≠ ⊥
  fin_x6 : ∀ i, x6 i ≠ ⊤ ∧ x6 i ≠ ⊥
  fin_x7 : ∀ i, x7 i ≠ ⊤ ∧ x7 i ≠ ⊥
  fin_x8 : ∀ i, x8 i ≠ ⊤ ∧ x8 i ≠ ⊥
  fin_x9 : ∀ i, x9 i ≠ ⊤ ∧ x9 i ≠ ⊥
  fin_x10 : ∀ i, x10 i ≠ ⊤ ∧ x10 i ≠ ⊥
  fin_x11 : ∀ i, x11 i ≠ ⊤ ∧ x11 i ≠ ⊥

/-- THE PRECONDITION DECODED: every float argument finite, every edge endpoint in the node range. -/
theorem dom_of_pre [Cert.Pre_input_domain.Facts]
    (x0 : FVec Ideal Cert.Pre_input_domain.S1x512x512x8 .f32)
    (x1 : IVec Cert.Pre_input_domain.S2x8192 32)
    (x2 : FVec Ideal Cert.Pre_input_domain.S8x16 .f32)
    (x3 : FVec Ideal Cert.Pre_input_domain.S16 .f32)
    (x4 : FVec Ideal Cert.Pre_input_domain.S16x16 .f32)
    (x5 : FVec Ideal Cert.Pre_input_domain.S16 .f32)
    (x6 : FVec Ideal Cert.Pre_input_domain.S_ .f32)
    (x7 : FVec Ideal Cert.Pre_input_domain.S16x16 .f32)
    (x8 : FVec Ideal Cert.Pre_input_domain.S16 .f32)
    (x9 : FVec Ideal Cert.Pre_input_domain.S16x16 .f32)
    (x10 : FVec Ideal Cert.Pre_input_domain.S16 .f32)
    (x11 : FVec Ideal Cert.Pre_input_domain.S_ .f32)
    (h : Cert.Pre_input_domain.fn (F := Ideal) x0 x1 x2 x3 x4 x5 x6 x7 x8 x9 x10 x11 = fun _ => 1#1) :
    Dom x0 x1 x2 x3 x4 x5 x6 x7 x8 x9 x10 x11 := by
  have e := congrFun h ix0
  unfold Cert.Pre_input_domain.fn Cert.Pre_input_domain.fn_part1 Cert.Pre_input_domain.fn_part2 Cert.Pre_input_domain.fn_part3 at e
  dsimp only at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, h1⟩ := e
  exact
    { rng := fun i => range_of_cmp _ (Host.reduce_andi_all _ _ _ _ _ h1 i)
      fin_x0 := fun i => finite_of_abs_lt _ _ (Host.reduce_andi_all _ _ _ _ _ h0 i)
      fin_x2 := fun i => finite_of_abs_lt _ _ (Host.reduce_andi_all _ _ _ _ _ h2 i)
      fin_x3 := fun i => finite_of_abs_lt _ _ (Host.reduce_andi_all _ _ _ _ _ h3 i)
      fin_x4 := fun i => finite_of_abs_lt _ _ (Host.reduce_andi_all _ _ _ _ _ h4 i)
      fin_x5 := fun i => finite_of_abs_lt _ _ (Host.reduce_andi_all _ _ _ _ _ h5 i)
      fin_x6 := fun i => finite_of_abs_lt _ _ (Host.reduce_andi_all _ _ _ _ _ h6 i)
      fin_x7 := fun i => finite_of_abs_lt _ _ (Host.reduce_andi_all _ _ _ _ _ h7 i)
      fin_x8 := fun i => finite_of_abs_lt _ _ (Host.reduce_andi_all _ _ _ _ _ h8 i)
      fin_x9 := fun i => finite_of_abs_lt _ _ (Host.reduce_andi_all _ _ _ _ _ h9 i)
      fin_x10 := fun i => finite_of_abs_lt _ _ (Host.reduce_andi_all _ _ _ _ _ h10 i)
      fin_x11 := fun i => finite_of_abs_lt _ _ (Host.reduce_andi_all _ _ _ _ _ h11 i) }

end Cert.RefPre

end
-- ==== Proof.PreRange.lean ====
/-
  The edge list's range out of the precondition, at any float instance: the range conjunct compares
  only the integer argument, so what the floats are does not matter.
-/
import proofs.«208141_g20598663152203_cont_8to1_341_30_alg».proof.Pre_input_domain
import proofs.«208141_g20598663152203_cont_8to1_341_30_alg».proof.Proof.RefPre
import Idealize.ShloMosaic.Lib.ReduceAll
import Idealize.ShloMosaic.Lib.ValueIdx

noncomputable section

namespace Cert.PreRange

open Idealize.ShloMosaic Idealize.ShloMosaic.ValueIdx

/-- A word between 0 and 511 read signed is at most 511 read unsigned. -/
theorem toNat_le_of_toInt (w : BitVec 32) (h : 0 ≤ w.toInt ∧ w.toInt ≤ 511) : w.toNat ≤ 511 := by
  have hb := w.isLt
  have hc := BitVec.toInt_eq_toNat_cond w
  obtain ⟨h0, h1⟩ := h
  split_ifs at hc <;> omega

/-- Every edge endpoint lies in the node range, read signed. -/
theorem rng_int_of_pre {F : FTy → Type} [FloatOps F] [Cert.Pre_input_domain.Facts]
    (x0 : FVec F Cert.Pre_input_domain.S1x512x512x8 .f32)
    (x1 : IVec Cert.Pre_input_domain.S2x8192 32)
    (x2 : FVec F Cert.Pre_input_domain.S8x16 .f32)
    (x3 : FVec F Cert.Pre_input_domain.S16 .f32)
    (x4 : FVec F Cert.Pre_input_domain.S16x16 .f32)
    (x5 : FVec F Cert.Pre_input_domain.S16 .f32)
    (x6 : FVec F Cert.Pre_input_domain.S_ .f32)
    (x7 : FVec F Cert.Pre_input_domain.S16x16 .f32)
    (x8 : FVec F Cert.Pre_input_domain.S16 .f32)
    (x9 : FVec F Cert.Pre_input_domain.S16x16 .f32)
    (x10 : FVec F Cert.Pre_input_domain.S16 .f32)
    (x11 : FVec F Cert.Pre_input_domain.S_ .f32)
    (h : Cert.Pre_input_domain.fn (F := F) x0 x1 x2 x3 x4 x5 x6 x7 x8 x9 x10 x11 = fun _ => 1#1) :
    ∀ i, 0 ≤ (x1 i).toInt ∧ (x1 i).toInt ≤ 511 := by
  have e := congrFun h ix0
  unfold Cert.Pre_input_domain.fn Cert.Pre_input_domain.fn_part1 Cert.Pre_input_domain.fn_part2 Cert.Pre_input_domain.fn_part3 at e
  dsimp only at e
  simp only [andi, IntOp.andi_eq_one] at e
  obtain ⟨-, h1⟩ := e
  exact fun i => Cert.RefPre.range_of_cmp _ (Host.reduce_andi_all _ _ _ _ _ h1 i)

/-- Every edge endpoint is at most 511, read unsigned. -/
theorem rng_of_pre {F : FTy → Type} [FloatOps F] [Cert.Pre_input_domain.Facts]
    (x0 : FVec F Cert.Pre_input_domain.S1x512x512x8 .f32)
    (x1 : IVec Cert.Pre_input_domain.S2x8192 32)
    (x2 : FVec F Cert.Pre_input_domain.S8x16 .f32)
    (x3 : FVec F Cert.Pre_input_domain.S16 .f32)
    (x4 : FVec F Cert.Pre_input_domain.S16x16 .f32)
    (x5 : FVec F Cert.Pre_input_domain.S16 .f32)
    (x6 : FVec F Cert.Pre_input_domain.S_ .f32)
    (x7 : FVec F Cert.Pre_input_domain.S16x16 .f32)
    (x8 : FVec F Cert.Pre_input_domain.S16 .f32)
    (x9 : FVec F Cert.Pre_input_domain.S16x16 .f32)
    (x10 : FVec F Cert.Pre_input_domain.S16 .f32)
    (x11 : FVec F Cert.Pre_input_domain.S_ .f32)
    (h : Cert.Pre_input_domain.fn (F := F) x0 x1 x2 x3 x4 x5 x6 x7 x8 x9 x10 x11 = fun _ => 1#1) :
    ∀ i, (x1 i).toNat ≤ 511 :=
  fun i => toNat_le_of_toInt _ (rng_int_of_pre x0 x1 x2 x3 x4 x5 x6 x7 x8 x9 x10 x11 h i)

end Cert.PreRange

end
-- ==== Proof.Frames.lean ====
/-
  The two kernel frames. Each is the program's run (the launch theorem applied, at its float instance) with the twelve
  unchanged-argument conjuncts read off; the run asks of the launch memory only that every word of the edge list is at
  most 511, which the precondition's range conjunct gives at either instance (it reads the integer input alone).
-/
import proofs.«208141_g20598663152203_cont_8to1_341_30_alg».proof.Proof.IdealMain
import proofs.«208141_g20598663152203_cont_8to1_341_30_alg».proof.Proof.BitsMain
import proofs.«208141_g20598663152203_cont_8to1_341_30_alg».proof.Proof.PreRange
import proofs.«208141_g20598663152203_cont_8to1_341_30_alg».proof.Proof.Gen.Pre_input_domain

noncomputable section

namespace Cert.Proof

open Idealize.ShloMosaic Idealize.SL.Sem

theorem preOK_ki (m : (ℓ : Loc Cert.KernelIdeal.nD Cert.KernelIdeal.τ Cert.KernelIdeal.sig) → Buf (Elt Ideal) ℓ) (h : Cert.Pre_KernelIdeal m) :
    KI.PreOK (F := Ideal) m :=
  fun d j => Cert.PreRange.rng_of_pre _ _ _ _ _ _ _ _ _ _ _ _ (h d) j

theorem preOK_k (m : (ℓ : Loc Cert.Kernel.nD Cert.Kernel.τ Cert.Kernel.sig) → Buf (Elt Bits) ℓ) (h : Cert.Pre_Kernel m) :
    KB.PreOK (F := Bits) m :=
  fun d j => Cert.PreRange.rng_of_pre _ _ _ _ _ _ _ _ _ _ _ _ (h d) j

/-- The idealized kernel runs, nothing faulting, and leaves its twelve arguments unchanged. -/
theorem frame_ki : Cert.frame_KernelIdeal := fun m ρ hpre =>
  (θ_run Cert.KernelIdeal.defs _ _).mono
    (fun _ h c => ⟨h c 0, h c 1, h c 2, h c 3, h c 4, h c 5, h c 6, h c 7, h c 8, h c 9, h c 10, h c 11⟩)
    (KI.run_main (F := Ideal) m ρ (preOK_ki m hpre))

/-- The kernel as printed runs, nothing faulting, and leaves its twelve arguments unchanged. -/
theorem frame_k : Cert.frame_Kernel := fun m ρ hpre =>
  (θ_run Cert.Kernel.defs _ _).mono
    (fun _ h c => ⟨h c 0, h c 1, h c 2, h c 3, h c 4, h c 5, h c 6, h c 7, h c 8, h c 9, h c 10, h c 11⟩)
    (KB.run_main (F := Bits) m ρ (preOK_k m hpre))

end Cert.Proof

end
-- ==== Proof.Spec.lean ====
/-
  The value both programs compute, as one function of the argument arrays, index by index.

  A graph on 512 nodes is given by 8192 directed edges k ↦ (src k, dst k) = (e 0 k, e 1 k), read as
  natural numbers.  The adjacency COUNT matrix is  adj e n s = #{k | dst k = n ∧ src k = s}.  One
  aggregation of a node-indexed vector x is
      aggr e eps x n = (1 + eps) * x n + ∑ s, adj e n s * x s
  (every edge into n contributes the value at its source).  The network applies it twice, each time on
  every (eigen-channel m, feature) column, with a two-layer perceptron per position after the first
  aggregation, a rectifier max · 0 between the layers, and finally sums the second perceptron's output
  over the channel axis m.
-/
import Idealize.ShloMosaic.PureOps.Ideal
import Idealize.ShloMosaic.Lib.ValueIdx

noncomputable section

open scoped BigOperators

namespace Cert.Spec

/-- The adjacency count matrix: `adj e n s` is the number of edges `k` with destination `n` and source `s`
    (as an extended real; it is a natural number). -/
def adj (e : Fin 2 → Fin 8192 → BitVec 32) (n s : Fin 512) : EReal :=
  ∑ k : Fin 8192, if (e 1 k).toNat = n.val ∧ (e 0 k).toNat = s.val then (1 : EReal) else 0

/-- One aggregation of a node-indexed vector, in adjacency form. -/
def aggr (e : Fin 2 → Fin 8192 → BitVec 32) (eps : EReal) (x : Fin 512 → EReal) (n : Fin 512) : EReal :=
  (1 + eps) * x n + ∑ s : Fin 512, adj e n s * x s

/-- First aggregation, of the input features. -/
def h1 (W : Fin 512 → Fin 512 → Fin 8 → EReal) (e : Fin 2 → Fin 8192 → BitVec 32) (eps1 : EReal)
    (n m : Fin 512) (d : Fin 8) : EReal :=
  (1 + eps1) * W n m d + ∑ s : Fin 512, adj e n s * W s m d

/-- First perceptron, hidden layer. -/
def t1 (W : Fin 512 → Fin 512 → Fin 8 → EReal) (e : Fin 2 → Fin 8192 → BitVec 32)
    (w1a : Fin 8 → Fin 16 → EReal) (b1a : Fin 16 → EReal) (eps1 : EReal)
    (n m : Fin 512) (f : Fin 16) : EReal :=
  max (∑ d : Fin 8, h1 W e eps1 n m d * w1a d f + b1a f) 0

/-- First perceptron's output, rectified: the second layer's input. -/
def x1 (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (n m : Fin 512) (g : Fin 16) : EReal :=
  max (∑ f : Fin 16, t1 W e w1a b1a eps1 n m f * w2a f g + b2a g) 0

/-- Second aggregation. -/
def h2 (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 eps2 : EReal) (n m : Fin 512) (g : Fin 16) : EReal :=
  (1 + eps2) * x1 W e w1a b1a w2a b2a eps1 n m g + ∑ s : Fin 512, adj e n s * x1 W e w1a b1a w2a b2a eps1 s m g

/-- Second perceptron, hidden layer. -/
def t2 (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (w1b : Fin 16 → Fin 16 → EReal) (b1b : Fin 16 → EReal) (eps2 : EReal)
    (n m : Fin 512) (f : Fin 16) : EReal :=
  max (∑ g : Fin 16, h2 W e w1a b1a w2a b2a eps1 eps2 n m g * w1b g f + b1b f) 0

/-- The result: the second perceptron's output summed over the channel axis. -/
def gin (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (w1b : Fin 16 → Fin 16 → EReal) (b1b : Fin 16 → EReal) (w2b : Fin 16 → Fin 16 → EReal)
    (b2b : Fin 16 → EReal) (eps2 : EReal) (n : Fin 512) (o : Fin 16) : EReal :=
  ∑ m : Fin 512, (∑ f : Fin 16, t2 W e w1a b1a w2a b2a eps1 w1b b1b eps2 n m f * w2b f o + b2b o)

/-! ### The argument arrays, as functions of their coordinates

An array of a literal shape is a function of an index; these read it at coordinates, so that both programs'
argument arrays enter `gin` in the same way. -/

section Args
open Idealize.ShloMosaic Idealize.ShloMosaic.ValueIdx

/-- The features `[1, 512, 512, 8]` at `(n, m, d)` (the leading axis has one point). -/
def feat (x : (⟨4, ![1, 512, 512, 8]⟩ : Shape).Idx → EReal) : Fin 512 → Fin 512 → Fin 8 → EReal :=
  fun n m d => x (ix4 (0 : Fin 1) n m d)
/-- The edge list `[2, 8192]`: row 0 the sources, row 1 the destinations. -/
def edges (x : (⟨2, ![2, 8192]⟩ : Shape).Idx → BitVec 32) : Fin 2 → Fin 8192 → BitVec 32 :=
  fun r k => x (ix2 r k)
/-- A weight matrix `[8, 16]`. -/
def mat8x16 (x : (⟨2, ![8, 16]⟩ : Shape).Idx → EReal) : Fin 8 → Fin 16 → EReal := fun a b => x (ix2 a b)
/-- A weight matrix `[16, 16]`. -/
def mat16x16 (x : (⟨2, ![16, 16]⟩ : Shape).Idx → EReal) : Fin 16 → Fin 16 → EReal := fun a b => x (ix2 a b)
/-- A bias vector `[16]`. -/
def vec16 (x : (⟨1, ![16]⟩ : Shape).Idx → EReal) : Fin 16 → EReal := fun a => x (ix1 a)
/-- A scalar `[]`. -/
def scal (x : (⟨0, ![]⟩ : Shape).Idx → EReal) : EReal := x ix0

theorem feat_apply (x : (⟨4, ![1, 512, 512, 8]⟩ : Shape).Idx → EReal) (n m : Fin 512) (d : Fin 8) :
    feat x n m d = x (ix4 (0 : Fin 1) n m d) := rfl
theorem edges_apply (x : (⟨2, ![2, 8192]⟩ : Shape).Idx → BitVec 32) (r : Fin 2) (k : Fin 8192) :
    edges x r k = x (ix2 r k) := rfl
theorem mat8x16_apply (x : (⟨2, ![8, 16]⟩ : Shape).Idx → EReal) (a : Fin 8) (b : Fin 16) :
    mat8x16 x a b = x (ix2 a b) := rfl
theorem mat16x16_apply (x : (⟨2, ![16, 16]⟩ : Shape).Idx → EReal) (a b : Fin 16) :
    mat16x16 x a b = x (ix2 a b) := rfl
theorem vec16_apply (x : (⟨1, ![16]⟩ : Shape).Idx → EReal) (a : Fin 16) : vec16 x a = x (ix1 a) := rfl
theorem scal_apply (x : (⟨0, ![]⟩ : Shape).Idx → EReal) : scal x = x ix0 := rfl

/-- The whole result as a function of the twelve argument arrays, at `(n, o)`. -/
def ginOf (x0 : (⟨4, ![1, 512, 512, 8]⟩ : Shape).Idx → EReal) (x1 : (⟨2, ![2, 8192]⟩ : Shape).Idx → BitVec 32)
    (x2 : (⟨2, ![8, 16]⟩ : Shape).Idx → EReal) (x3 : (⟨1, ![16]⟩ : Shape).Idx → EReal)
    (x4 : (⟨2, ![16, 16]⟩ : Shape).Idx → EReal) (x5 : (⟨1, ![16]⟩ : Shape).Idx → EReal)
    (x6 : (⟨0, ![]⟩ : Shape).Idx → EReal) (x7 : (⟨2, ![16, 16]⟩ : Shape).Idx → EReal)
    (x8 : (⟨1, ![16]⟩ : Shape).Idx → EReal) (x9 : (⟨2, ![16, 16]⟩ : Shape).Idx → EReal)
    (x10 : (⟨1, ![16]⟩ : Shape).Idx → EReal) (x11 : (⟨0, ![]⟩ : Shape).Idx → EReal) (n : Fin 512) (o : Fin 16) : EReal :=
  gin (feat x0) (edges x1) (mat8x16 x2) (vec16 x3) (mat16x16 x4) (vec16 x5) (scal x6) (mat16x16 x7) (vec16 x8)
    (mat16x16 x9) (vec16 x10) (scal x11) n o

end Args

/-- Both aggregations are `aggr` of a column. -/
theorem h1_eq_aggr (W : Fin 512 → Fin 512 → Fin 8 → EReal) (e : Fin 2 → Fin 8192 → BitVec 32) (eps1 : EReal)
    (n m : Fin 512) (d : Fin 8) : h1 W e eps1 n m d = aggr e eps1 (fun s => W s m d) n := rfl

theorem h2_eq_aggr (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 eps2 : EReal) (n m : Fin 512) (g : Fin 16) :
    h2 W e w1a b1a w2a b2a eps1 eps2 n m g = aggr e eps2 (fun s => x1 W e w1a b1a w2a b2a eps1 s m g) n := rfl

/-- The two float literals the programs use, as extended reals. -/
theorem ofBits_one_f32 : Idealize.ShloMosaic.Ideal.ofBits .f32 0x3F800000#32 = 1 := by
  simp [Idealize.ShloMosaic.Ideal.ofBits, Idealize.ShloMosaic.Ideal.ieee, -EReal.coe_mul]; norm_num

end Cert.Spec

end
-- ==== Proof.RefMask.lean ====
/-
  The reference's mask is identically one: it compares the channel index, which runs over 512 values,
  with 512; the comparison is always true, and the word 1 converts to the number 1.
-/
import proofs.«208141_g20598663152203_cont_8to1_341_30_alg».proof.Proof.Gen.ReferenceIdeal.Read
import Idealize.ShloMosaic.Lib.Affine

noncomputable section

namespace Cert.ReferenceIdeal.RefMask

open Cert.ReferenceIdeal Cert.ReferenceIdeal.Gen Cert.ReferenceIdeal.Read Idealize.ShloMosaic Idealize.ShloMosaic.ValueIdx

/-- Every channel index is below 512. -/
theorem v3_one (j : S512.Idx) : val_main_v3 (F := Ideal) j = 1#1 := by
  obtain ⟨a, rfl⟩ : ∃ a : Fin 512, j = ix1 a := ⟨j 0, eq_ix1 j⟩
  rw [val_main_v3_apply, val_main_v1_apply, val_main_v2_apply, val_main_c_apply]
  refine IntOp.cmpi_slt.2 ?_
  have ha : a.val < 512 := a.isLt
  have h1 : (BitVec.ofNat 32 a.val).toNat = a.val := by
    rw [BitVec.toNat_ofNat]; omega
  have h2 : (BitVec.ofNat 32 a.val).toInt = (a.val : Int) := by
    rw [BitVec.toInt_eq_toNat_of_lt (by rw [h1]; omega), h1]
  have h3 : (512#32 : BitVec 32).toInt = 512 := by decide
  show (BitVec.ofNat 32 a.val).toInt < (512#32 : BitVec 32).toInt
  rw [h2, h3]; omega

/-- The mask as a 512 × 512 array of bits. -/
theorem v7_one (i : S512x512.Idx) : val_main_v7 (F := Ideal) i = 1#1 := by
  rw [val_main_v7_apply, val_main_v6_apply, val_main_v5_apply, val_main_v4_apply, v3_one]

/-- The mask as the float array the result is multiplied by. -/
theorem v61_one (i : S512x512x16.Idx) : val_main_v61 (F := Ideal) i = 1 := by
  rw [val_main_v61_apply, val_main_v60_apply, val_main_v59_apply, v7_one]
  show (((1#1 : BitVec 1).toNat : ℝ) : EReal) = 1
  simp

end Cert.ReferenceIdeal.RefMask

end
-- ==== Proof.SpecLaws.lean ====
/-
  Algebra on the extended reals used to pass between the two arrangements of an aggregation.

  The extended reals are not distributive in general, but (a + b) * c = a * c + b * c holds whenever
  a, b ≥ 0, for every c.  Counts are ≥ 0, so a sum of counts may be multiplied through; this is all
  that is needed to show that "gather the source rows, then add each into its destination row" is the
  product with the adjacency count matrix — with no finiteness assumption on the values.
-/
import Idealize.ShloMosaic.PureOps.Ideal
import proofs.«208141_g20598663152203_cont_8to1_341_30_alg».proof.Proof.Spec

noncomputable section

open scoped BigOperators

namespace Cert.Spec

/-- A sum of nonnegative extended reals may be multiplied through on the right. -/
theorem sum_mul_of_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- The same on the left. -/
theorem mul_sum_of_nonneg {ι : Type} (s : Finset ι) (f : ι → EReal) (c : EReal) (hf : ∀ i ∈ s, 0 ≤ f i) :
    c * (∑ i ∈ s, f i) = ∑ i ∈ s, c * f i := by
  rw [mul_comm, sum_mul_of_nonneg s f c hf]
  exact Finset.sum_congr rfl fun i _ => mul_comm _ _

/-- A natural-number multiple is the product with the number: `n • c = (n : EReal) * c`. -/
theorem nsmul_eq_natCast_mul (n : ℕ) (c : EReal) : n • c = (n : EReal) * c := by
  induction n with
  | zero => simp
  | succ k ih =>
    rw [succ_nsmul, ih, Nat.cast_succ,
      EReal.right_distrib_of_nonneg (by exact_mod_cast Nat.zero_le k) zero_le_one, one_mul]

/-- GATHER THEN SCATTER-ADD IS THE PRODUCT WITH THE COUNT MATRIX.  Over any finite edge set `K` and node
    set `S`: adding, over the edges `k` selected by `p`, the value at the edge's source, equals the sum
    over nodes `s` of (the number of selected edges with source `s`) times the value at `s`. -/
theorem gather_scatter_eq_count {K S : Type} [Fintype K] [Fintype S] [DecidableEq S]
    (p : K → Prop) [DecidablePred p] (src : K → S) (x : S → EReal) :
    (∑ k, if p k then x (src k) else 0)
      = ∑ s, (∑ k, if p k ∧ src k = s then (1 : EReal) else 0) * x s := by
  symm
  calc ∑ s, (∑ k, if p k ∧ src k = s then (1 : EReal) else 0) * x s
      = ∑ s, ∑ k, (if p k ∧ src k = s then (1 : EReal) else 0) * x s := by
        refine Finset.sum_congr rfl fun s _ => sum_mul_of_nonneg _ _ _ (fun k _ => ?_)
        split_ifs
        · exact zero_le_one
        · exact le_refl _
    _ = ∑ k, ∑ s, (if p k ∧ src k = s then (1 : EReal) else 0) * x s := Finset.sum_comm
    _ = ∑ k, if p k then x (src k) else 0 := by
        refine Finset.sum_congr rfl fun k _ => ?_
        by_cases h : p k
        · rw [if_pos h, Finset.sum_eq_single (src k)]
          · rw [if_pos ⟨h, rfl⟩, one_mul]
          · intro s _ hs
            rw [if_neg (fun hh => hs hh.2.symm), zero_mul]
          · intro hh; exact absurd (Finset.mem_univ _) hh
        · rw [if_neg h]
          refine Finset.sum_eq_zero fun s _ => ?_
          rw [if_neg (fun hh => h hh.1), zero_mul]

/-- The adjacency part of an aggregation, edge by edge: for a source map `src` into the node set that agrees
    with the edge list's first row. -/
theorem adj_sum_eq_edges (e : Fin 2 → Fin 8192 → BitVec 32) (src : Fin 8192 → Fin 512)
    (hsrc : ∀ k, (src k).val = (e 0 k).toNat) (x : Fin 512 → EReal) (n : Fin 512) :
    ∑ s : Fin 512, adj e n s * x s = ∑ k : Fin 8192, if (e 1 k).toNat = n.val then x (src k) else 0 := by
  rw [gather_scatter_eq_count (fun k => (e 1 k).toNat = n.val) src x]
  refine Finset.sum_congr rfl fun s _ => ?_
  unfold adj
  congr 1
  refine Finset.sum_congr rfl fun k _ => ?_
  have : ((e 0 k).toNat = s.val) ↔ (src k = s) := by
    rw [← hsrc k]; exact Fin.ext_iff.symm
  simp only [this]

end Cert.Spec

end
-- ==== Proof.RefScatter.lean ====
/-
  The reference's gather (rows of a node-indexed array picked by the edges' sources) and its scatter-add
  (those rows added into the rows named by the edges' destinations), read at an index.

  Both operations move whole (channel, feature) rows: index axis 0 is the node, and only it is looked up.
  For the scatter the updates landing on element (n, m, d) are exactly the elements (k, m, d) with edge
  k's destination index equal to n; an index outside the node range names no element, so such an update
  is dropped.
-/
import proofs.«208141_g20598663152203_cont_8to1_341_30_alg».proof.Proof.Gen.ReferenceIdeal
import Idealize.ShloMosaic.Lib.ValueIdx
import Idealize.ShloMosaic.PureOps.Ideal.Laws

noncomputable section

open scoped BigOperators

namespace Cert.ReferenceIdeal.RefScatter

open Cert.ReferenceIdeal Cert.ReferenceIdeal.Gen Idealize.ShloMosaic Idealize.ShloMosaic.ValueIdx

/-- An update lands on `i` exactly when, on every axis, start plus window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + ((d.window j a : Nat) : Int) = ((i a).val : Int) := by
  unfold ScatterDims.resultIdx?
  split
  · rename_i h
    rw [Option.some.injEq]
    constructor
    · intro hfg a
      have h1 := congrArg (fun f => ((f a).val : Int)) hfg
      simp only at h1
      rw [← h1]
      have := (h a).1
      omega
    · intro hall
      funext a
      apply Fin.ext
      show (d.start j idx a + ((d.window j a : Nat) : Int)).toNat = (i a).val
      have := hall a
      omega
  · rename_i h
    constructor
    · intro hh; cases hh
    · intro hall
      exfalso
      apply h
      intro a
      have h1 := hall a
      have h2 := (i a).isLt
      constructor <;> omega

/-! ### Feature width 8 -/

/-- The gather at `(k, m, d)`: the operand's row at edge `k`'s start index (read signed, clamped into the node range), same `(m, d)`. -/
theorem gather8_apply {α : Type} (x : S512x512x8.Idx → α) (idx : IVec S8192x1 32) (k : Fin 8192) (m : Fin 512) (d : Fin 8) :
    Host.gather gather_S512x512x8_S8192x1_S8192x512x8_12_0_n_n_0_1_15128 x idx (ix3 k m d)
      = x (ix3 (⟨min (idx (ix2 k 0)).toInt.toNat 511, by omega⟩ : Fin 512) m d) := by
  have hsi : (gather_S512x512x8_S8192x1_S8192x512x8_12_0_n_n_0_1_15128).siIdx (ix3 k m d) ⟨List.idxOf (0 : Fin 3) (gather_S512x512x8_S8192x1_S8192x512x8_12_0_n_n_0_1_15128).startIndexMap,
      List.idxOf_lt_length_iff.2 (List.mem_singleton.mpr rfl)⟩ = ix2 k 0 := by
    funext b; refine Fin.ext ?_
    match b with
    | ⟨0, _⟩ => rfl
    | ⟨1, _⟩ => rfl
  have h0 : (gather_S512x512x8_S8192x1_S8192x512x8_12_0_n_n_0_1_15128).start (ix3 k m d) idx 0 + (gather_S512x512x8_S8192x1_S8192x512x8_12_0_n_n_0_1_15128).batchCoord (ix3 k m d) 0 + (gather_S512x512x8_S8192x1_S8192x512x8_12_0_n_n_0_1_15128).offCoord (ix3 k m d) 0
      = min (idx (ix2 k 0)).toInt.toNat 511 := by
    rw [GatherDims.batchCoord_eq_zero _ _ _ List.not_mem_nil, Nat.add_zero,
      GatherDims.offCoord_eq_zero _ _ _ (by decide), Nat.add_zero]
    unfold GatherDims.start
    rw [dif_pos (by decide), hsi]
    rfl
  have h1 : (gather_S512x512x8_S8192x1_S8192x512x8_12_0_n_n_0_1_15128).start (ix3 k m d) idx 1 + (gather_S512x512x8_S8192x1_S8192x512x8_12_0_n_n_0_1_15128).batchCoord (ix3 k m d) 1 + (gather_S512x512x8_S8192x1_S8192x512x8_12_0_n_n_0_1_15128).offCoord (ix3 k m d) 1
      = m.val := by
    rw [GatherDims.batchCoord_eq_zero _ _ _ List.not_mem_nil, Nat.add_zero]
    unfold GatherDims.start GatherDims.offCoord
    rw [dif_neg (by decide), dif_pos (by decide), Nat.zero_add]
    rfl
  have h2 : (gather_S512x512x8_S8192x1_S8192x512x8_12_0_n_n_0_1_15128).start (ix3 k m d) idx 2 + (gather_S512x512x8_S8192x1_S8192x512x8_12_0_n_n_0_1_15128).batchCoord (ix3 k m d) 2 + (gather_S512x512x8_S8192x1_S8192x512x8_12_0_n_n_0_1_15128).offCoord (ix3 k m d) 2
      = d.val := by
    rw [GatherDims.batchCoord_eq_zero _ _ _ List.not_mem_nil, Nat.add_zero]
    unfold GatherDims.start GatherDims.offCoord
    rw [dif_neg (by decide), dif_pos (by decide), Nat.zero_add]
    rfl
  unfold Host.gather
  refine congrArg x ?_
  funext a
  refine Fin.ext ?_
  match a with
  | ⟨0, _⟩ => exact h0
  | ⟨1, _⟩ => exact h1
  | ⟨2, _⟩ => exact h2

/-- Where update `(k, m, d)` of the scatter lands: row = edge `k`'s index read signed (dropped when outside the node range), same `(m, d)`. -/
theorem scatter8_resultIdx (idx : IVec S8192x1 32) (k : Fin 8192) (m : Fin 512) (d : Fin 8) (n m' : Fin 512) (d' : Fin 8) :
    (scatter_S512x512x8_S8192x1_S8192x512x8_12_0_0_1).resultIdx? (ix3 k m d) idx = some (ix3 n m' d')
      ↔ (idx (ix2 k 0)).toInt = (n.val : Int) ∧ m = m' ∧ d = d' := by
  have hsi : (scatter_S512x512x8_S8192x1_S8192x512x8_12_0_0_1).siIdx (ix3 k m d) ⟨List.idxOf (0 : Fin 3) (scatter_S512x512x8_S8192x1_S8192x512x8_12_0_0_1).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  have hs0 : (scatter_S512x512x8_S8192x1_S8192x512x8_12_0_0_1).start (ix3 k m d) idx 0 = (idx (ix2 k 0)).toInt := by
    unfold ScatterDims.start
    rw [dif_pos (by decide), hsi]
  have hs1 : (scatter_S512x512x8_S8192x1_S8192x512x8_12_0_0_1).start (ix3 k m d) idx 1 = 0 := by
    unfold ScatterDims.start
    rw [dif_neg (by decide)]
  have hs2 : (scatter_S512x512x8_S8192x1_S8192x512x8_12_0_0_1).start (ix3 k m d) idx 2 = 0 := by
    unfold ScatterDims.start
    rw [dif_neg (by decide)]
  have hw0 : (scatter_S512x512x8_S8192x1_S8192x512x8_12_0_0_1).window (ix3 k m d) 0 = 0 := by
    unfold ScatterDims.window
    rw [dif_neg (by decide)]
  have hw1 : (scatter_S512x512x8_S8192x1_S8192x512x8_12_0_0_1).window (ix3 k m d) 1 = m.val := by
    unfold ScatterDims.window
    rw [dif_pos (by decide)]
    rfl
  have hw2 : (scatter_S512x512x8_S8192x1_S8192x512x8_12_0_0_1).window (ix3 k m d) 2 = d.val := by
    unfold ScatterDims.window
    rw [dif_pos (by decide)]
    rfl
  rw [resultIdx?_eq_some_iff]
  constructor
  · intro h
    have h0 := h 0
    have h1 := h 1
    have h2 := h 2
    rw [hs0, hw0] at h0
    rw [hs1, hw1] at h1
    rw [hs2, hw2] at h2
    refine ⟨?_, Fin.ext ?_, Fin.ext ?_⟩
    · have : (((ix3 n m' d' : S512x512x8.Idx) 0).val : Int) = (n.val : Int) := rfl
      omega
    · have : (((ix3 n m' d' : S512x512x8.Idx) 1).val : Int) = (m'.val : Int) := rfl
      omega
    · have : (((ix3 n m' d' : S512x512x8.Idx) 2).val : Int) = (d'.val : Int) := rfl
      omega
  · rintro ⟨h0, rfl, rfl⟩ a
    match a with
    | ⟨0, _⟩ =>
      show (scatter_S512x512x8_S8192x1_S8192x512x8_12_0_0_1).start (ix3 k m d) idx 0 + (((scatter_S512x512x8_S8192x1_S8192x512x8_12_0_0_1).window (ix3 k m d) 0 : Nat) : Int) = (n.val : Int)
      rw [hs0, hw0, h0]; simp
    | ⟨1, _⟩ =>
      show (scatter_S512x512x8_S8192x1_S8192x512x8_12_0_0_1).start (ix3 k m d) idx 1 + (((scatter_S512x512x8_S8192x1_S8192x512x8_12_0_0_1).window (ix3 k m d) 1 : Nat) : Int) = (m.val : Int)
      rw [hs1, hw1]; simp
    | ⟨2, _⟩ =>
      show (scatter_S512x512x8_S8192x1_S8192x512x8_12_0_0_1).start (ix3 k m d) idx 2 + (((scatter_S512x512x8_S8192x1_S8192x512x8_12_0_0_1).window (ix3 k m d) 2 : Nat) : Int) = (d.val : Int)
      rw [hs2, hw2]; simp

/-- THE SCATTER-ADD AT `(n, m, d)`: the operand's element plus the sum, over the edges whose index is `n`, of update `(k, m, d)`. -/
theorem scatterAdd8_apply (x : S512x512x8.Idx → EReal) (idx : IVec S8192x1 32) (upd : S8192x512x8.Idx → EReal)
    (n m : Fin 512) (d : Fin 8) :
    Host.scatterAdd (F := Ideal) (φ := .f32) scatter_S512x512x8_S8192x1_S8192x512x8_12_0_0_1 x idx upd (ix3 n m d)
      = x (ix3 n m d) + ∑ k : Fin 8192, if (idx (ix2 k 0)).toInt = (n.val : Int) then upd (ix3 k m d) else 0 := by
  unfold Host.scatterAdd
  rw [Ideal.hostScatterAdd_def]
  unfold Ideal.hostScatterAdd
  refine congrArg (x (ix3 n m d) + ·) ?_
  rw [← Finset.sum_filter]
  refine Finset.sum_nbij' (fun j => (j 0 : Fin 8192)) (fun k => ix3 k m d) ?_ ?_ ?_ ?_ ?_
  · intro j hj
    obtain ⟨k, m', d', rfl⟩ : ∃ (k : Fin 8192) (m' : Fin 512) (d' : Fin 8), j = ix3 k m' d' :=
      ⟨j 0, j 1, j 2, eq_ix3 j⟩
    have h := (scatter8_resultIdx idx k m' d' n m d).1 (Finset.mem_filter.1 hj).2
    exact Finset.mem_filter.2 ⟨Finset.mem_univ _, h.1⟩
  · intro k hk
    exact Finset.mem_filter.2 ⟨Finset.mem_univ _,
      (scatter8_resultIdx idx k m d n m d).2 ⟨(Finset.mem_filter.1 hk).2, rfl, rfl⟩⟩
  · intro j hj
    obtain ⟨k, m', d', rfl⟩ : ∃ (k : Fin 8192) (m' : Fin 512) (d' : Fin 8), j = ix3 k m' d' :=
      ⟨j 0, j 1, j 2, eq_ix3 j⟩
    obtain ⟨_, rfl, rfl⟩ := (scatter8_resultIdx idx k m' d' n m d).1 (Finset.mem_filter.1 hj).2
    rfl
  · intro k _
    rfl
  · intro j hj
    obtain ⟨k, m', d', rfl⟩ : ∃ (k : Fin 8192) (m' : Fin 512) (d' : Fin 8), j = ix3 k m' d' :=
      ⟨j 0, j 1, j 2, eq_ix3 j⟩
    obtain ⟨_, rfl, rfl⟩ := (scatter8_resultIdx idx k m' d' n m d).1 (Finset.mem_filter.1 hj).2
    rfl

/-! ### Feature width 16 -/

/-- The gather at `(k, m, d)`: the operand's row at edge `k`'s start index (read signed, clamped into the node range), same `(m, d)`. -/
theorem gather16_apply {α : Type} (x : S512x512x16.Idx → α) (idx : IVec S8192x1 32) (k : Fin 8192) (m : Fin 512) (d : Fin 16) :
    Host.gather gather_S512x512x16_S8192x1_S8192x512x16_12_0_n_n_0_1_151216 x idx (ix3 k m d)
      = x (ix3 (⟨min (idx (ix2 k 0)).toInt.toNat 511, by omega⟩ : Fin 512) m d) := by
  have hsi : (gather_S512x512x16_S8192x1_S8192x512x16_12_0_n_n_0_1_151216).siIdx (ix3 k m d) ⟨List.idxOf (0 : Fin 3) (gather_S512x512x16_S8192x1_S8192x512x16_12_0_n_n_0_1_151216).startIndexMap,
      List.idxOf_lt_length_iff.2 (List.mem_singleton.mpr rfl)⟩ = ix2 k 0 := by
    funext b; refine Fin.ext ?_
    match b with
    | ⟨0, _⟩ => rfl
    | ⟨1, _⟩ => rfl
  have h0 : (gather_S512x512x16_S8192x1_S8192x512x16_12_0_n_n_0_1_151216).start (ix3 k m d) idx 0 + (gather_S512x512x16_S8192x1_S8192x512x16_12_0_n_n_0_1_151216).batchCoord (ix3 k m d) 0 + (gather_S512x512x16_S8192x1_S8192x512x16_12_0_n_n_0_1_151216).offCoord (ix3 k m d) 0
      = min (idx (ix2 k 0)).toInt.toNat 511 := by
    rw [GatherDims.batchCoord_eq_zero _ _ _ List.not_mem_nil, Nat.add_zero,
      GatherDims.offCoord_eq_zero _ _ _ (by decide), Nat.add_zero]
    unfold GatherDims.start
    rw [dif_pos (by decide), hsi]
    rfl
  have h1 : (gather_S512x512x16_S8192x1_S8192x512x16_12_0_n_n_0_1_151216).start (ix3 k m d) idx 1 + (gather_S512x512x16_S8192x1_S8192x512x16_12_0_n_n_0_1_151216).batchCoord (ix3 k m d) 1 + (gather_S512x512x16_S8192x1_S8192x512x16_12_0_n_n_0_1_151216).offCoord (ix3 k m d) 1
      = m.val := by
    rw [GatherDims.batchCoord_eq_zero _ _ _ List.not_mem_nil, Nat.add_zero]
    unfold GatherDims.start GatherDims.offCoord
    rw [dif_neg (by decide), dif_pos (by decide), Nat.zero_add]
    rfl
  have h2 : (gather_S512x512x16_S8192x1_S8192x512x16_12_0_n_n_0_1_151216).start (ix3 k m d) idx 2 + (gather_S512x512x16_S8192x1_S8192x512x16_12_0_n_n_0_1_151216).batchCoord (ix3 k m d) 2 + (gather_S512x512x16_S8192x1_S8192x512x16_12_0_n_n_0_1_151216).offCoord (ix3 k m d) 2
      = d.val := by
    rw [GatherDims.batchCoord_eq_zero _ _ _ List.not_mem_nil, Nat.add_zero]
    unfold GatherDims.start GatherDims.offCoord
    rw [dif_neg (by decide), dif_pos (by decide), Nat.zero_add]
    rfl
  unfold Host.gather
  refine congrArg x ?_
  funext a
  refine Fin.ext ?_
  match a with
  | ⟨0, _⟩ => exact h0
  | ⟨1, _⟩ => exact h1
  | ⟨2, _⟩ => exact h2

/-- Where update `(k, m, d)` of the scatter lands: row = edge `k`'s index read signed (dropped when outside the node range), same `(m, d)`. -/
theorem scatter16_resultIdx (idx : IVec S8192x1 32) (k : Fin 8192) (m : Fin 512) (d : Fin 16) (n m' : Fin 512) (d' : Fin 16) :
    (scatter_S512x512x16_S8192x1_S8192x512x16_12_0_0_1).resultIdx? (ix3 k m d) idx = some (ix3 n m' d')
      ↔ (idx (ix2 k 0)).toInt = (n.val : Int) ∧ m = m' ∧ d = d' := by
  have hsi : (scatter_S512x512x16_S8192x1_S8192x512x16_12_0_0_1).siIdx (ix3 k m d) ⟨List.idxOf (0 : Fin 3) (scatter_S512x512x16_S8192x1_S8192x512x16_12_0_0_1).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  have hs0 : (scatter_S512x512x16_S8192x1_S8192x512x16_12_0_0_1).start (ix3 k m d) idx 0 = (idx (ix2 k 0)).toInt := by
    unfold ScatterDims.start
    rw [dif_pos (by decide), hsi]
  have hs1 : (scatter_S512x512x16_S8192x1_S8192x512x16_12_0_0_1).start (ix3 k m d) idx 1 = 0 := by
    unfold ScatterDims.start
    rw [dif_neg (by decide)]
  have hs2 : (scatter_S512x512x16_S8192x1_S8192x512x16_12_0_0_1).start (ix3 k m d) idx 2 = 0 := by
    unfold ScatterDims.start
    rw [dif_neg (by decide)]
  have hw0 : (scatter_S512x512x16_S8192x1_S8192x512x16_12_0_0_1).window (ix3 k m d) 0 = 0 := by
    unfold ScatterDims.window
    rw [dif_neg (by decide)]
  have hw1 : (scatter_S512x512x16_S8192x1_S8192x512x16_12_0_0_1).window (ix3 k m d) 1 = m.val := by
    unfold ScatterDims.window
    rw [dif_pos (by decide)]
    rfl
  have hw2 : (scatter_S512x512x16_S8192x1_S8192x512x16_12_0_0_1).window (ix3 k m d) 2 = d.val := by
    unfold ScatterDims.window
    rw [dif_pos (by decide)]
    rfl
  rw [resultIdx?_eq_some_iff]
  constructor
  · intro h
    have h0 := h 0
    have h1 := h 1
    have h2 := h 2
    rw [hs0, hw0] at h0
    rw [hs1, hw1] at h1
    rw [hs2, hw2] at h2
    refine ⟨?_, Fin.ext ?_, Fin.ext ?_⟩
    · have : (((ix3 n m' d' : S512x512x16.Idx) 0).val : Int) = (n.val : Int) := rfl
      omega
    · have : (((ix3 n m' d' : S512x512x16.Idx) 1).val : Int) = (m'.val : Int) := rfl
      omega
    · have : (((ix3 n m' d' : S512x512x16.Idx) 2).val : Int) = (d'.val : Int) := rfl
      omega
  · rintro ⟨h0, rfl, rfl⟩ a
    match a with
    | ⟨0, _⟩ =>
      show (scatter_S512x512x16_S8192x1_S8192x512x16_12_0_0_1).start (ix3 k m d) idx 0 + (((scatter_S512x512x16_S8192x1_S8192x512x16_12_0_0_1).window (ix3 k m d) 0 : Nat) : Int) = (n.val : Int)
      rw [hs0, hw0, h0]; simp
    | ⟨1, _⟩ =>
      show (scatter_S512x512x16_S8192x1_S8192x512x16_12_0_0_1).start (ix3 k m d) idx 1 + (((scatter_S512x512x16_S8192x1_S8192x512x16_12_0_0_1).window (ix3 k m d) 1 : Nat) : Int) = (m.val : Int)
      rw [hs1, hw1]; simp
    | ⟨2, _⟩ =>
      show (scatter_S512x512x16_S8192x1_S8192x512x16_12_0_0_1).start (ix3 k m d) idx 2 + (((scatter_S512x512x16_S8192x1_S8192x512x16_12_0_0_1).window (ix3 k m d) 2 : Nat) : Int) = (d.val : Int)
      rw [hs2, hw2]; simp

/-- THE SCATTER-ADD AT `(n, m, d)`: the operand's element plus the sum, over the edges whose index is `n`, of update `(k, m, d)`. -/
theorem scatterAdd16_apply (x : S512x512x16.Idx → EReal) (idx : IVec S8192x1 32) (upd : S8192x512x16.Idx → EReal)
    (n m : Fin 512) (d : Fin 16) :
    Host.scatterAdd (F := Ideal) (φ := .f32) scatter_S512x512x16_S8192x1_S8192x512x16_12_0_0_1 x idx upd (ix3 n m d)
      = x (ix3 n m d) + ∑ k : Fin 8192, if (idx (ix2 k 0)).toInt = (n.val : Int) then upd (ix3 k m d) else 0 := by
  unfold Host.scatterAdd
  rw [Ideal.hostScatterAdd_def]
  unfold Ideal.hostScatterAdd
  refine congrArg (x (ix3 n m d) + ·) ?_
  rw [← Finset.sum_filter]
  refine Finset.sum_nbij' (fun j => (j 0 : Fin 8192)) (fun k => ix3 k m d) ?_ ?_ ?_ ?_ ?_
  · intro j hj
    obtain ⟨k, m', d', rfl⟩ : ∃ (k : Fin 8192) (m' : Fin 512) (d' : Fin 16), j = ix3 k m' d' :=
      ⟨j 0, j 1, j 2, eq_ix3 j⟩
    have h := (scatter16_resultIdx idx k m' d' n m d).1 (Finset.mem_filter.1 hj).2
    exact Finset.mem_filter.2 ⟨Finset.mem_univ _, h.1⟩
  · intro k hk
    exact Finset.mem_filter.2 ⟨Finset.mem_univ _,
      (scatter16_resultIdx idx k m d n m d).2 ⟨(Finset.mem_filter.1 hk).2, rfl, rfl⟩⟩
  · intro j hj
    obtain ⟨k, m', d', rfl⟩ : ∃ (k : Fin 8192) (m' : Fin 512) (d' : Fin 16), j = ix3 k m' d' :=
      ⟨j 0, j 1, j 2, eq_ix3 j⟩
    obtain ⟨_, rfl, rfl⟩ := (scatter16_resultIdx idx k m' d' n m d).1 (Finset.mem_filter.1 hj).2
    rfl
  · intro k _
    rfl
  · intro j hj
    obtain ⟨k, m', d', rfl⟩ : ∃ (k : Fin 8192) (m' : Fin 512) (d' : Fin 16), j = ix3 k m' d' :=
      ⟨j 0, j 1, j 2, eq_ix3 j⟩
    obtain ⟨_, rfl, rfl⟩ := (scatter16_resultIdx idx k m' d' n m d).1 (Finset.mem_filter.1 hj).2
    rfl

end Cert.ReferenceIdeal.RefScatter

end
-- ==== Proof.RefEdges.lean ====
/-
  The reference's index arithmetic, read at an index.

  The edge list is a 2 × 8192 integer array: row 0 holds the sources, row 1 the destinations.  The
  reference wraps a negative source around (adds 512) before the gather; for a source in the node
  range that does nothing.  Its input features are the 1 × 512 × 512 × 8 array with the leading unit
  axis dropped, and its mask — "channel index below 512" on an axis of extent 512 — is identically one.
-/
import proofs.«208141_g20598663152203_cont_8to1_341_30_alg».proof.Proof.Gen.ReferenceIdeal.Read
import Idealize.ShloMosaic.Lib.Affine

noncomputable section

open scoped BigOperators

namespace Cert.ReferenceIdeal.RefEdges

open Cert.ReferenceIdeal Cert.ReferenceIdeal.Gen Cert.ReferenceIdeal.Read Idealize.ShloMosaic Idealize.ShloMosaic.ValueIdx

/-- Row 0 of the edge list as a flat array. -/
theorem v9_apply (x1 : (⟨S2x8192, .i32⟩ : BufTy).Contents (Elt Ideal)) (k : Fin 8192) :
    val_main_v9 (F := Ideal) x1 (ix1 k) = x1 (ix2 (0 : Fin 2) k) := by
  rw [val_main_v9_apply, val_main_v8_apply]
  refine congrArg x1 (funext fun a => Fin.ext ?_)
  match a with
  | ⟨0, _⟩ => rfl
  | ⟨1, _⟩ => show (k.val) % 8192 = k.val; omega

/-- Row 1 of the edge list as a flat array. -/
theorem v11_apply (x1 : (⟨S2x8192, .i32⟩ : BufTy).Contents (Elt Ideal)) (k : Fin 8192) :
    val_main_v11 (F := Ideal) x1 (ix1 k) = x1 (ix2 (1 : Fin 2) k) := by
  rw [val_main_v11_apply, val_main_v10_apply]
  refine congrArg x1 (funext fun a => Fin.ext ?_)
  match a with
  | ⟨0, _⟩ => rfl
  | ⟨1, _⟩ => show (k.val) % 8192 = k.val; omega

/-- A nonnegative word is not below zero. -/
theorem slt_zero_of_nonneg (b : BitVec 32) (h : 0 ≤ b.toInt) : IntOp.cmpi .slt b 0#32 = 0#1 :=
  eq_zero_of_ne_one fun hh => by
    have h1 := IntOp.cmpi_slt.1 hh
    rw [BitVec.toInt_zero] at h1
    omega

/-- The first gather's start indices: edge `k`'s source, when it is nonnegative. -/
theorem v17_apply (x1 : (⟨S2x8192, .i32⟩ : BufTy).Contents (Elt Ideal)) (k : Fin 8192)
    (h : 0 ≤ (x1 (ix2 (0 : Fin 2) k)).toInt) :
    val_main_v17 (F := Ideal) x1 (ix2 k (0 : Fin 1)) = x1 (ix2 (0 : Fin 2) k) := by
  have e : idx_main_v17 (ix2 k (0 : Fin 1)) = ix1 k :=
    funext fun a => Fin.ext (by match a with | ⟨0, _⟩ => rfl)
  rw [val_main_v17_apply, e, val_main_v16_apply, val_main_v13_apply, v9_apply, val_main_v12_apply, val_main_c_0_apply,
    slt_zero_of_nonneg _ h, select_zero]

/-- The second gather's start indices: the same. -/
theorem v41_apply (x1 : (⟨S2x8192, .i32⟩ : BufTy).Contents (Elt Ideal)) (k : Fin 8192)
    (h : 0 ≤ (x1 (ix2 (0 : Fin 2) k)).toInt) :
    val_main_v41 (F := Ideal) x1 (ix2 k (0 : Fin 1)) = x1 (ix2 (0 : Fin 2) k) := by
  have e : idx_main_v41 (ix2 k (0 : Fin 1)) = ix1 k :=
    funext fun a => Fin.ext (by match a with | ⟨0, _⟩ => rfl)
  rw [val_main_v41_apply, e, val_main_v40_apply, val_main_v37_apply, v9_apply, val_main_v36_apply, val_main_c_3_apply,
    slt_zero_of_nonneg _ h, select_zero]

/-- The first scatter's indices: edge `k`'s destination. -/
theorem v20_apply (x1 : (⟨S2x8192, .i32⟩ : BufTy).Contents (Elt Ideal)) (k : Fin 8192) :
    val_main_v20 (F := Ideal) x1 (ix2 k (0 : Fin 1)) = x1 (ix2 (1 : Fin 2) k) := by
  have e : idx_main_v20 (ix2 k (0 : Fin 1)) = ix1 k :=
    funext fun a => Fin.ext (by match a with | ⟨0, _⟩ => rfl)
  rw [val_main_v20_apply, e, v11_apply]

/-- The second scatter's indices: the same. -/
theorem v44_apply (x1 : (⟨S2x8192, .i32⟩ : BufTy).Contents (Elt Ideal)) (k : Fin 8192) :
    val_main_v44 (F := Ideal) x1 (ix2 k (0 : Fin 1)) = x1 (ix2 (1 : Fin 2) k) := by
  have e : idx_main_v44 (ix2 k (0 : Fin 1)) = ix1 k :=
    funext fun a => Fin.ext (by match a with | ⟨0, _⟩ => rfl)
  rw [val_main_v44_apply, e, v11_apply]

/-- The input features with the leading unit axis dropped. -/
theorem v0_apply (x0 : (⟨S1x512x512x8, .f32⟩ : BufTy).Contents (Elt Ideal)) (s m : Fin 512) (d : Fin 8) :
    val_main_v0 (F := Ideal) x0 (ix3 s m d) = x0 (ix4 (0 : Fin 1) s m d) := by
  rw [val_main_v0_apply]
  refine congrArg x0 (funext fun a => Fin.ext ?_)
  have hs := s.isLt
  have hm := m.isLt
  have hd := d.isLt
  match a with
  | ⟨0, _⟩ => rfl
  | ⟨1, _⟩ => show ((s.val * 512 + m.val) * 8 + d.val) / 4096 % 512 = s.val; omega
  | ⟨2, _⟩ => show ((s.val * 512 + m.val) * 8 + d.val) / 8 % 512 = m.val; omega
  | ⟨3, _⟩ => show ((s.val * 512 + m.val) * 8 + d.val) % 8 = d.val; omega

end Cert.ReferenceIdeal.RefEdges

end
-- ==== Proof.RefLayer1.lean ====
/-
  The reference's first layer, read at an index: its gather / scatter-add aggregation is the adjacency
  form of the specification (the sources lie in the node range, so the gather's clamp does nothing), and
  the two dense layers with their rectifiers follow term by term.
-/
import proofs.«208141_g20598663152203_cont_8to1_341_30_alg».proof.Proof.Gen.ReferenceIdeal.Read
import proofs.«208141_g20598663152203_cont_8to1_341_30_alg».proof.Proof.Spec
import proofs.«208141_g20598663152203_cont_8to1_341_30_alg».proof.Proof.SpecLaws
import proofs.«208141_g20598663152203_cont_8to1_341_30_alg».proof.Proof.RefScatter
import proofs.«208141_g20598663152203_cont_8to1_341_30_alg».proof.Proof.RefEdges

noncomputable section

open scoped BigOperators

namespace Cert.ReferenceIdeal.RefLayer1

open Cert.ReferenceIdeal Cert.ReferenceIdeal.Gen Cert.ReferenceIdeal.Read Idealize.ShloMosaic Idealize.ShloMosaic.ValueIdx

/-- A word read signed equals a small natural number exactly when it does read unsigned. -/
theorem toInt_eq_iff (b : BitVec 32) (n : Nat) (hn : n < 512) : b.toInt = (n : Int) ↔ b.toNat = n := by
  have hb := b.isLt
  have hc := BitVec.toInt_eq_toNat_cond b
  split_ifs at hc <;> omega

/-- A word in the node range is its own clamp. -/
theorem clamp_eq (b : BitVec 32) (h0 : 0 ≤ b.toInt) (h1 : b.toInt ≤ 511) : min b.toInt.toNat 511 = b.toNat := by
  have hb := b.isLt
  have hc := BitVec.toInt_eq_toNat_cond b
  split_ifs at hc <;> omega

/-- The first aggregation's neighbour sum is the adjacency sum of the input features. -/
theorem v21_eq (x0 : (⟨S1x512x512x8, .f32⟩ : BufTy).Contents (Elt Ideal)) (x1 : (⟨S2x8192, .i32⟩ : BufTy).Contents (Elt Ideal)) (hrng : ∀ i : S2x8192.Idx, 0 ≤ (x1 i).toInt ∧ (x1 i).toInt ≤ 511) (n m : Fin 512) (d : Fin 8) :
    val_main_v21 (F := Ideal) x0 x1 (ix3 n m d)
      = ∑ s : Fin 512, Cert.Spec.adj (Cert.Spec.edges x1) n s * Cert.Spec.feat x0 s m d := by
  have hsrc : ∀ k : Fin 8192, min (x1 (ix2 (0 : Fin 2) k)).toInt.toNat 511 = (x1 (ix2 (0 : Fin 2) k)).toNat :=
    fun k => clamp_eq _ (hrng _).1 (hrng _).2
  refine Eq.trans ?_ (Cert.Spec.adj_sum_eq_edges (Cert.Spec.edges x1)
    (fun k => (⟨min (x1 (ix2 (0 : Fin 2) k)).toInt.toNat 511, by omega⟩ : Fin 512)) (fun k => hsrc k)
    (fun s => Cert.Spec.feat x0 s m d) n).symm
  unfold val_main_v21
  rw [RefScatter.scatterAdd8_apply, val_main_v19_apply, val_main_cst_apply, Ideal.ofBits_def, Ideal.ofBits_zero_f32, zero_add]
  refine Finset.sum_congr rfl fun k _ => ?_
  have he : Cert.Spec.edges x1 1 k = x1 (ix2 (1 : Fin 2) k) := rfl
  rw [RefEdges.v20_apply, he]
  by_cases hk : (x1 (ix2 (1 : Fin 2) k)).toNat = n.val
  · rw [if_pos ((toInt_eq_iff _ _ n.isLt).2 hk), if_pos hk]
    unfold val_main_v18
    rw [RefScatter.gather8_apply, RefEdges.v0_apply]
    simp only [RefEdges.v17_apply x1 k (hrng _).1]
    rfl
  · rw [if_neg (fun h => hk ((toInt_eq_iff _ _ n.isLt).1 h)), if_neg hk]

/-- The first aggregation. -/
theorem v25_eq (x0 : (⟨S1x512x512x8, .f32⟩ : BufTy).Contents (Elt Ideal)) (x1 : (⟨S2x8192, .i32⟩ : BufTy).Contents (Elt Ideal)) (x6 : (⟨S_, .f32⟩ : BufTy).Contents (Elt Ideal)) (hrng : ∀ i : S2x8192.Idx, 0 ≤ (x1 i).toInt ∧ (x1 i).toInt ≤ 511) (n m : Fin 512) (d : Fin 8) :
    val_main_v25 (F := Ideal) x0 x1 x6 (ix3 n m d)
      = Cert.Spec.h1 (Cert.Spec.feat x0) (Cert.Spec.edges x1) (Cert.Spec.scal x6) n m d := by
  rw [val_main_v25_apply, val_main_v24_apply, val_main_v23_apply, val_main_v22_apply, val_main_cst_2_apply,
    RefEdges.v0_apply, v21_eq x0 x1 hrng]
  simp only [Ideal.addf_def, Ideal.mulf_def, Ideal.ofBits_def, Cert.Spec.ofBits_one_f32]
  rfl

/-- The first dense layer, rectified. -/
theorem v30_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x6 : (⟨S_, .f32⟩ : BufTy).Contents (Elt Ideal)) (hrng : ∀ i : S2x8192.Idx, 0 ≤ (x1 i).toInt ∧ (x1 i).toInt ≤ 511) (n m : Fin 512) (f : Fin 16) :
    val_main_v30 (F := Ideal) x0 x1 x2 x3 x6 (ix3 n m f)
      = Cert.Spec.t1 (Cert.Spec.feat x0) (Cert.Spec.edges x1) (Cert.Spec.mat8x16 x2) (Cert.Spec.vec16 x3)
          (Cert.Spec.scal x6) n m f := by
  have el : ∀ k : Fin 8, lidx_main_v26 (ix3 n m f) k = ix3 n m k := fun k =>
    funext fun a => Fin.ext (by match a with | ⟨0, _⟩ => rfl | ⟨1, _⟩ => rfl | ⟨2, _⟩ => rfl)
  have er : ∀ k : Fin 8, ridx_main_v26 (ix3 n m f) k = ix2 k f := fun k =>
    funext fun a => Fin.ext (by match a with | ⟨0, _⟩ => rfl | ⟨1, _⟩ => rfl)
  have eb : idx_main_v27 (idx_main_v28 (ix3 n m f)) = ix1 f :=
    funext fun a => Fin.ext (by match a with | ⟨0, _⟩ => rfl)
  rw [val_main_v30_apply, val_main_v29_apply, val_main_v26_apply, val_main_v28_apply, val_main_v27_apply,
    val_main_call0_v0_apply, val_main_call0_cst_apply, eb]
  simp only [el, er, v25_eq x0 x1 x6 hrng, Ideal.maximumf_def, Ideal.addf_def, Ideal.ofBits_def, Ideal.ofBits_zero_f32]
  rfl

/-- The second dense layer, rectified: the second aggregation's input. -/
theorem v35_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (hrng : ∀ i : S2x8192.Idx, 0 ≤ (x1 i).toInt ∧ (x1 i).toInt ≤ 511) (n m : Fin 512) (g : Fin 16) :
    val_main_v35 (F := Ideal) x0 x1 x2 x3 x4 x5 x6 (ix3 n m g)
      = Cert.Spec.x1 (Cert.Spec.feat x0) (Cert.Spec.edges x1) (Cert.Spec.mat8x16 x2) (Cert.Spec.vec16 x3)
          (Cert.Spec.mat16x16 x4) (Cert.Spec.vec16 x5) (Cert.Spec.scal x6) n m g := by
  have el : ∀ k : Fin 16, lidx_main_v31 (ix3 n m g) k = ix3 n m k := fun k =>
    funext fun a => Fin.ext (by match a with | ⟨0, _⟩ => rfl | ⟨1, _⟩ => rfl | ⟨2, _⟩ => rfl)
  have er : ∀ k : Fin 16, ridx_main_v31 (ix3 n m g) k = ix2 k g := fun k =>
    funext fun a => Fin.ext (by match a with | ⟨0, _⟩ => rfl | ⟨1, _⟩ => rfl)
  have eb : idx_main_v32 (idx_main_v33 (ix3 n m g)) = ix1 g :=
    funext fun a => Fin.ext (by match a with | ⟨0, _⟩ => rfl)
  rw [val_main_v35_apply, val_main_v34_apply, val_main_v31_apply, val_main_v33_apply, val_main_v32_apply,
    val_main_call1_v0_apply, val_main_call1_cst_apply, eb]
  simp only [el, er, v30_eq x0 x1 x2 x3 x6 hrng, Ideal.maximumf_def, Ideal.addf_def, Ideal.ofBits_def,
    Ideal.ofBits_zero_f32]
  rfl

end Cert.ReferenceIdeal.RefLayer1

end
-- ==== Proof.RefLayer2.lean ====
/-
  The reference's second layer, read at an index: the same aggregation, now of the rectified output of
  the first layer, followed by one dense layer with its rectifier.
-/
import proofs.«208141_g20598663152203_cont_8to1_341_30_alg».proof.Proof.Gen.ReferenceIdeal.Read
import proofs.«208141_g20598663152203_cont_8to1_341_30_alg».proof.Proof.Spec
import proofs.«208141_g20598663152203_cont_8to1_341_30_alg».proof.Proof.SpecLaws
import proofs.«208141_g20598663152203_cont_8to1_341_30_alg».proof.Proof.RefScatter
import proofs.«208141_g20598663152203_cont_8to1_341_30_alg».proof.Proof.RefEdges
import proofs.«208141_g20598663152203_cont_8to1_341_30_alg».proof.Proof.RefLayer1

noncomputable section

open scoped BigOperators

namespace Cert.ReferenceIdeal.RefLayer2

open Cert.ReferenceIdeal Cert.ReferenceIdeal.Gen Cert.ReferenceIdeal.Read Idealize.ShloMosaic Idealize.ShloMosaic.ValueIdx
open Cert.ReferenceIdeal.RefLayer1 (toInt_eq_iff clamp_eq v35_eq)

/-- The second aggregation's neighbour sum is the adjacency sum of the first layer's output. -/
theorem v45_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (hrng : ∀ i : S2x8192.Idx, 0 ≤ (x1 i).toInt ∧ (x1 i).toInt ≤ 511) (n m : Fin 512) (g : Fin 16) :
    val_main_v45 (F := Ideal) x0 x1 x2 x3 x4 x5 x6 (ix3 n m g)
      = ∑ s : Fin 512, Cert.Spec.adj (Cert.Spec.edges x1) n s
          * Cert.Spec.x1 (Cert.Spec.feat x0) (Cert.Spec.edges x1) (Cert.Spec.mat8x16 x2) (Cert.Spec.vec16 x3)
          (Cert.Spec.mat16x16 x4) (Cert.Spec.vec16 x5) (Cert.Spec.scal x6) s m g := by
  have hsrc : ∀ k : Fin 8192, min (x1 (ix2 (0 : Fin 2) k)).toInt.toNat 511 = (x1 (ix2 (0 : Fin 2) k)).toNat :=
    fun k => clamp_eq _ (hrng _).1 (hrng _).2
  refine Eq.trans ?_ (Cert.Spec.adj_sum_eq_edges (Cert.Spec.edges x1)
    (fun k => (⟨min (x1 (ix2 (0 : Fin 2) k)).toInt.toNat 511, by omega⟩ : Fin 512)) (fun k => hsrc k)
    (fun s => Cert.Spec.x1 (Cert.Spec.feat x0) (Cert.Spec.edges x1) (Cert.Spec.mat8x16 x2) (Cert.Spec.vec16 x3)
          (Cert.Spec.mat16x16 x4) (Cert.Spec.vec16 x5) (Cert.Spec.scal x6) s m g) n).symm
  unfold val_main_v45
  rw [RefScatter.scatterAdd16_apply, val_main_v43_apply, val_main_cst_5_apply, Ideal.ofBits_def, Ideal.ofBits_zero_f32, zero_add]
  refine Finset.sum_congr rfl fun k _ => ?_
  have he : Cert.Spec.edges x1 1 k = x1 (ix2 (1 : Fin 2) k) := rfl
  rw [RefEdges.v44_apply, he]
  by_cases hk : (x1 (ix2 (1 : Fin 2) k)).toNat = n.val
  · rw [if_pos ((toInt_eq_iff _ _ n.isLt).2 hk), if_pos hk]
    unfold val_main_v42
    rw [RefScatter.gather16_apply, v35_eq x0 x1 x2 x3 x4 x5 x6 hrng]
    simp only [RefEdges.v41_apply x1 k (hrng _).1]
  · rw [if_neg (fun h => hk ((toInt_eq_iff _ _ n.isLt).1 h)), if_neg hk]

/-- The second aggregation. -/
theorem v49_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (x11 : (⟨S_, .f32⟩ : BufTy).Contents (Elt Ideal)) (hrng : ∀ i : S2x8192.Idx, 0 ≤ (x1 i).toInt ∧ (x1 i).toInt ≤ 511) (n m : Fin 512) (g : Fin 16) :
    val_main_v49 (F := Ideal) x0 x1 x2 x3 x4 x5 x6 x11 (ix3 n m g)
      = Cert.Spec.h2 (Cert.Spec.feat x0) (Cert.Spec.edges x1) (Cert.Spec.mat8x16 x2) (Cert.Spec.vec16 x3)
          (Cert.Spec.mat16x16 x4) (Cert.Spec.vec16 x5) (Cert.Spec.scal x6) (Cert.Spec.scal x11) n m g := by
  rw [val_main_v49_apply, val_main_v48_apply, val_main_v47_apply, val_main_v46_apply, val_main_cst_6_apply,
    v35_eq x0 x1 x2 x3 x4 x5 x6 hrng, v45_eq x0 x1 x2 x3 x4 x5 x6 hrng]
  simp only [Ideal.addf_def, Ideal.mulf_def, Ideal.ofBits_def, Cert.Spec.ofBits_one_f32]
  rfl

/-- The second layer's hidden dense layer, rectified. -/
theorem v54_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (x7 : (⟨S16x16, .f32⟩ : BufTy).Contents (Elt Ideal)) (x8 : (⟨S16, .f32⟩ : BufTy).Contents (Elt Ideal)) (x11 : (⟨S_, .f32⟩ : BufTy).Contents (Elt Ideal)) (hrng : ∀ i : S2x8192.Idx, 0 ≤ (x1 i).toInt ∧ (x1 i).toInt ≤ 511) (n m : Fin 512) (f : Fin 16) :
    val_main_v54 (F := Ideal) x0 x1 x2 x3 x4 x5 x6 x7 x8 x11 (ix3 n m f)
      = Cert.Spec.t2 (Cert.Spec.feat x0) (Cert.Spec.edges x1) (Cert.Spec.mat8x16 x2) (Cert.Spec.vec16 x3)
          (Cert.Spec.mat16x16 x4) (Cert.Spec.vec16 x5) (Cert.Spec.scal x6) (Cert.Spec.mat16x16 x7) (Cert.Spec.vec16 x8) (Cert.Spec.scal x11) n m f := by
  have el : ∀ k : Fin 16, lidx_main_v50 (ix3 n m f) k = ix3 n m k := fun k =>
    funext fun a => Fin.ext (by match a with | ⟨0, _⟩ => rfl | ⟨1, _⟩ => rfl | ⟨2, _⟩ => rfl)
  have er : ∀ k : Fin 16, ridx_main_v50 (ix3 n m f) k = ix2 k f := fun k =>
    funext fun a => Fin.ext (by match a with | ⟨0, _⟩ => rfl | ⟨1, _⟩ => rfl)
  have eb : idx_main_v51 (idx_main_v52 (ix3 n m f)) = ix1 f :=
    funext fun a => Fin.ext (by match a with | ⟨0, _⟩ => rfl)
  rw [val_main_v54_apply, val_main_v53_apply, val_main_v50_apply, val_main_v52_apply, val_main_v51_apply,
    val_main_call2_v0_apply, val_main_call2_cst_apply, eb]
  simp only [el, er, v49_eq x0 x1 x2 x3 x4 x5 x6 x11 hrng, Ideal.maximumf_def, Ideal.addf_def, Ideal.ofBits_def,
    Ideal.ofBits_zero_f32]
  rfl

end Cert.ReferenceIdeal.RefLayer2

end
-- ==== Proof.RefValue.lean ====
/-
  The reference's result is the specification: after the second layer's last dense map, the mask
  (identically one) is multiplied in and the channel axis is summed, starting from zero.
-/
import proofs.«208141_g20598663152203_cont_8to1_341_30_alg».proof.Proof.Gen.ReferenceIdeal.Read
import proofs.«208141_g20598663152203_cont_8to1_341_30_alg».proof.Proof.Spec
import proofs.«208141_g20598663152203_cont_8to1_341_30_alg».proof.Proof.RefMask
import proofs.«208141_g20598663152203_cont_8to1_341_30_alg».proof.Proof.RefLayer2

noncomputable section

open scoped BigOperators

namespace Cert.ReferenceIdeal.RefValue

open Cert.ReferenceIdeal Cert.ReferenceIdeal.Gen Cert.ReferenceIdeal.Read Idealize.ShloMosaic Idealize.ShloMosaic.ValueIdx

/-- THE REFERENCE'S RESULT AT `(n, o)` is the specification of the twelve argument arrays, when every edge
    endpoint lies in the node range. -/
theorem ref_eq (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S_, .f32⟩ : BufTy).Contents (Elt Ideal))
    (hrng : ∀ i : S2x8192.Idx, 0 ≤ (x1 i).toInt ∧ (x1 i).toInt ≤ 511) (n : Fin 512) (o : Fin 16) :
    val_main_v63 (F := Ideal) x0 x1 x2 x3 x4 x5 x6 x7 x8 x9 x10 x11 (ix2 n o)
      = Cert.Spec.ginOf x0 x1 x2 x3 x4 x5 x6 x7 x8 x9 x10 x11 n o := by
  rw [val_main_v63_apply, val_main_cst_7_apply, Ideal.ofBits_def, Ideal.ofBits_zero_f32, zero_add]
  unfold Cert.Spec.ginOf Cert.Spec.gin
  refine Finset.sum_congr rfl fun m _ => ?_
  have e63 : idx_main_v63 (ix2 n o) m = ix3 n m o :=
    funext fun a => Fin.ext (by match a with | ⟨0, _⟩ => rfl | ⟨1, _⟩ => rfl | ⟨2, _⟩ => rfl)
  have el : ∀ k : Fin 16, lidx_main_v55 (ix3 n m o) k = ix3 n m k := fun k =>
    funext fun a => Fin.ext (by match a with | ⟨0, _⟩ => rfl | ⟨1, _⟩ => rfl | ⟨2, _⟩ => rfl)
  have er : ∀ k : Fin 16, ridx_main_v55 (ix3 n m o) k = ix2 k o := fun k =>
    funext fun a => Fin.ext (by match a with | ⟨0, _⟩ => rfl | ⟨1, _⟩ => rfl)
  have eb : idx_main_v56 (idx_main_v57 (ix3 n m o)) = ix1 o :=
    funext fun a => Fin.ext (by match a with | ⟨0, _⟩ => rfl)
  rw [e63, val_main_v62_apply, RefMask.v61_one, val_main_v58_apply, val_main_v55_apply, val_main_v57_apply,
    val_main_v56_apply, eb]
  simp only [el, er, RefLayer2.v54_eq x0 x1 x2 x3 x4 x5 x6 x7 x8 x11 hrng, Ideal.mulf_def, Ideal.addf_def, mul_one]
  rfl

/-- The same, as an equation of arrays. -/
theorem ref_eq_fun (x0 : (⟨S1x512x512x8, .f32⟩ : BufTy).Contents (Elt Ideal)) (x1 : (⟨S2x8192, .i32⟩ : BufTy).Contents (Elt Ideal)) (x2 : (⟨S8x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S_, .f32⟩ : BufTy).Contents (Elt Ideal))
    (hrng : ∀ i : S2x8192.Idx, 0 ≤ (x1 i).toInt ∧ (x1 i).toInt ≤ 511) :
    val_main_v63 (F := Ideal) x0 x1 x2 x3 x4 x5 x6 x7 x8 x9 x10 x11
      = fun i => Cert.Spec.ginOf x0 x1 x2 x3 x4 x5 x6 x7 x8 x9 x10 x11 (i 0) (i 1) := by
  funext i
  obtain ⟨n, o, rfl⟩ : ∃ (n : Fin 512) (o : Fin 16), i = ix2 n o := ⟨i 0, i 1, eq_ix2 i⟩
  exact ref_eq x0 x1 x2 x3 x4 x5 x6 x7 x8 x9 x10 x11 hrng n o

end Cert.ReferenceIdeal.RefValue

end
-- ==== Proof.RefRun.lean ====
/-
  The reference's run, with its result stated as the specification of its argument arrays, and its frame.
-/
import proofs.«208141_g20598663152203_cont_8to1_341_30_alg».proof.Defs
import proofs.«208141_g20598663152203_cont_8to1_341_30_alg».proof.Proof.Gen.ReferenceIdeal.Read
import proofs.«208141_g20598663152203_cont_8to1_341_30_alg».proof.Proof.Spec
import proofs.«208141_g20598663152203_cont_8to1_341_30_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-- From any memory whose edge endpoints lie in the node range, every weakly fair execution of the reference
    terminates with its result the specification of the argument arrays, and the arguments unchanged. -/
theorem run_spec (m : (ℓ : Loc nD τ sig) → Buf (Elt Ideal) ℓ) (ρ : Dev nD → PrngReg)
    (hrng : ∀ (c : Dev nD) (i : S2x8192.Idx), 0 ≤ (m ((c.tc : Thread nD τ).loc main_arg1) i).toInt
      ∧ (m ((c.tc : Thread nD τ).loc main_arg1) i).toInt ≤ 511) :
    θ_run defs (onTc (τ := τ) (main (F := Ideal))) ⟨m, fun _ => 0, ρ⟩ fun r => ∀ c : Dev nD,
      r.2.mem ((c.tc : Thread nD τ).loc main_v63)
        = (fun i : S512x16.Idx => Cert.Spec.ginOf (m ((c.tc : Thread nD τ).loc main_arg0))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨by
        rw [(h c).1, Cert.ReferenceIdeal.Read.val_main_v63_eq]
        exact Cert.ReferenceIdeal.RefValue.ref_eq_fun _ _ _ _ _ _ _ _ _ _ _ _ (hrng c), (h c).2⟩)
    (Cert.ReferenceIdeal.Value.run (F := Ideal) m ρ)

/-- The reference's frame: it runs to the end without a fault and leaves its argument arrays unchanged (its run, with
    the result dropped; the precondition is not needed). -/
theorem frame_ri [hR : Cert.ReferenceIdeal.Facts] [hP : Cert.Pre_input_domain.Facts] : Cert.frame_ReferenceIdeal :=
  fun m ρ _ => (θ_run Cert.ReferenceIdeal.defs _ _).mono (fun _ h c => (h c).2)
    (Cert.ReferenceIdeal.Value.run (F := Ideal) m ρ)

end Cert.ReferenceIdeal.RefRun

end
-- ==== Proof.IdealSplitV.lean ====
/-
  The adjacency call's payloads with what each tile wrote: the same shares and ranges as the frame's, and on the way back
  each range's contents under a fact TF c s about them (in the end: "the adjacency counts of rows 16 (16 c + s) …"),
  which the gathered array then satisfies for all thirty-two tiles at once, since the fact of a tile reads only its range.
-/
import proofs.«208141_g20598663152203_cont_8to1_341_30_alg».proof.Proof.IdealSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eW" => (Memref.whole Cert.KernelIdeal.main_arg1_scv : Memref Cert.KernelIdeal.sig Kind.scVector Space.hbm Cert.KernelIdeal.S2x8192 EltTy.i32)
local notation "aW" => (Memref.whole Cert.KernelIdeal.main_v3_scv : Memref Cert.KernelIdeal.sig Kind.scVector Space.hbm Cert.KernelIdeal.S262144 EltTy.f32)
local notation "sS" => (Memref.whole Cert.KernelIdeal.cc0_scratch0 : Memref Cert.KernelIdeal.sig Kind.scVector Space.vmem Cert.KernelIdeal.S8192 EltTy.i32)
local notation "sD" => (Memref.whole Cert.KernelIdeal.cc0_scratch1 : Memref Cert.KernelIdeal.sig Kind.scVector Space.vmem Cert.KernelIdeal.S8192 EltTy.i32)
local notation "sA" => (Memref.whole Cert.KernelIdeal.cc0_scratch2 : Memref Cert.KernelIdeal.sig Kind.scVector Space.vmem Cert.KernelIdeal.S8208 EltTy.f32)

variable (m : (ℓ : Loc nD τ sig) → Buf (Elt F) ℓ)

-- a fact about what tile (c, s) of device d leaves in the result array
variable (TF : (d : Dev nD) → ℕ → ℕ → Buf (Elt F) (aLoc d) → Prop)

/-- The payloads, with the tiles' facts on the way back. -/
def PV : (K (F := F)).Pay (nD := nD) (Val := Elt F) (Name := ℕ) (U := UU) where
  st := fun _ d c => iprop((eLoc d ↦{eCore c.val} m (eLoc d)) ∗ bigSep Finset.univ fun s : Fin 16 => aLoc d ↦[tset c.val s.val]{fullShare} m (aLoc d))
  dn := fun _ d c => iprop((eLoc d ↦{eCore c.val} m (eLoc d)) ∗ bigSep Finset.univ fun s : Fin 16 => iprop(∃ f, ⌜TF d c.val s.val f⌝ ∗ aLoc d ↦[tset c.val s.val]{fullShare} f))
  go := fun _ d c s => iprop((eLoc d ↦{eTile c.val s.val} m (eLoc d)) ∗ aLoc d ↦[tset c.val s.val]{fullShare} m (aLoc d))
  td := fun _ d c s => iprop((eLoc d ↦{eTile c.val s.val} m (eLoc d)) ∗ ∃ f, ⌜TF d c.val s.val f⌝ ∗ aLoc d ↦[tset c.val s.val]{fullShare} f)
  x := fun _ _ => iprop(emp)

instance PV_storable : (PV (F := F) m TF).IsStorable where
  st _ d c := by unfold PV; infer_instance
  dn _ d c := by unfold PV; infer_instance
  go _ _ _ _ := by unfold PV; infer_instance
  td _ _ _ _ := by unfold PV; infer_instance

variable [FloatOps F]

/-- The tile's task with its value: what `tileOblV` asks of the body's proof. -/
def TileValue : Prop :=
  ∀ (d : Dev nD) (L : grid0.Coords) (q : PosShare TreeShare) (O : CellTallies nD τ sig (HIx 1)) (W : Waits sig (HIx 1)), (∀ g, O g none = 0) →
    iprop((levAts (K (F := F)).L (K (F := F)).lev : sProp 𝕄) ∗ (emp : sProp 𝕄)
        ∗ ((eLoc d ↦{q} m (eLoc d)) ∗ (aLoc d ↦[tileSetL L]{fullShare} m (aLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_adj L eW (Memref.isWhole_whole _) aW (Memref.isWhole_whole _)
            sS (Memref.isWhole_whole _) sD (Memref.isWhole_whole _) sA (Memref.isWhole_whole _) cc0_scoped0 cc0_scoped1 cc0_scoped2)
          fun _ => iprop(((eLoc d ↦{q} m (eLoc d)) ∗ ∃ f, ⌜TF d (L 0).val (L 1).val f⌝ ∗ (aLoc d ↦[tileSetL L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W')

theorem tileOblV (htile : TileValue m TF) : (K (F := F)).TileObl (D (F := F)) 𝒱 (PV m TF) v₀ 0 := by
  intro d c i O W hO _ _
  simp only [show (PV m TF).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := htile d (coordsV ⟨_, hc.1⟩ ⟨_, hc.2⟩) (eTile c.val i.val) O W hO
  rw [tileSetL_eq] at h
  exact h.trans (wp_mono frame _ _ fun _ => obl_post)

theorem vecSplitV : (K (F := F)).VecSplit' (PV m TF) 0 := by
  intro d c
  show iprop((eLoc d ↦{eCore c.val} m (eLoc d)) ∗ bigSep Finset.univ fun s : Fin 16 => aLoc d ↦[tset c.val s.val]{fullShare} m (aLoc d))
    ⊢ |={Set.univ}=> iprop(
      (bigSep Finset.univ fun s : Fin 16 => iprop((eLoc d ↦{eTile c.val s.val} m (eLoc d)) ∗ aLoc d ↦[tset c.val s.val]{fullShare} m (aLoc d)))
      ∗ ((bigSep Finset.univ fun s : Fin 16 => iprop((eLoc d ↦{eTile c.val s.val} m (eLoc d)) ∗ ∃ f, ⌜TF d c.val s.val f⌝ ∗ aLoc d ↦[tset c.val s.val]{fullShare} f))
          -∗ iprop((eLoc d ↦{eCore c.val} m (eLoc d)) ∗ bigSep Finset.univ fun s : Fin 16 => iprop(∃ f, ⌜TF d c.val s.val f⌝ ∗ aLoc d ↦[tset c.val s.val]{fullShare} f))))
  rw [bigSep_sep', bigSep_sep']
  iintro ⟨He, Ha⟩
  ihave He' := (Transfers.pointsTo_toks_split (eCore c.val) 16) $$ He
  icases He' with ⟨Hdrop, Htoks⟩
  imodintro
  isplitl [Htoks Ha]
  · isplitl [Htoks]; · iexact Htoks
    iexact Ha
  iintro ⟨Htoks, Ha⟩
  isplitl [Hdrop Htoks]
  · iapply (Transfers.pointsTo_toks_join (eCore c.val) 16)
    isplitl [Hdrop]; · iexact Hdrop
    iexact Htoks
  · iexact Ha

/-- The thirty-two ranges, each at contents satisfying its tile's fact, are the result array whole at contents that agree
    with each tile's on its range. -/
theorem aTiles_joinV (d : Dev nD) :
    (bigSep Finset.univ fun c : Fin 2 => bigSep Finset.univ fun s : Fin 16 => iprop(∃ f, ⌜TF d c.val s.val f⌝ ∗ aLoc d ↦[tset c.val s.val]{fullShare} f))
      ⊢ (iprop(∃ g, ⌜∀ (c : Fin 2) (s : Fin 16), ∃ f, TF d c.val s.val f ∧ ∀ i ∈ tset c.val s.val, g i = f i⌝ ∗ aLoc d ↦{fullShare} g) : sProp 𝕄) := by
  rw [← bigSep_univ_prod (fun p : Fin 2 × Fin 16 => (iprop(∃ f, ⌜TF d p.1.val p.2.val f⌝ ∗ aLoc d ↦[tset p.1.val p.2.val]{fullShare} f) : sProp 𝕄))]
  refine (bigSep_exists_pi Finset.univ (fun (p : Fin 2 × Fin 16) (f : Buf (Elt F) (aLoc d)) =>
    (iprop(⌜TF d p.1.val p.2.val f⌝ ∗ aLoc d ↦[tset p.1.val p.2.val]{fullShare} f) : sProp 𝕄))).trans ?_
  iintro ⟨%fs, H⟩
  ihave H := (bigSep_pure_sep Finset.univ (fun p : Fin 2 × Fin 16 => TF d p.1.val p.2.val (fs p))
    (fun p : Fin 2 × Fin 16 => (aLoc d ↦[tset p.1.val p.2.val]{fullShare} fs p : sProp 𝕄))) $$ H
  icases H with ⟨%hp, H⟩
  ihave H' := (pointsTo_biUnion_join Finset.univ (fun p : Fin 2 × Fin 16 => tset p.1.val p.2.val) fs (fs (0, 0)) tset_disjoint) $$ H
  icases H' with ⟨%g, %hg, Hg⟩
  rw [tset_cover]
  iexists g; isplitr
  · ipureintro; intro c s
    exact ⟨fs (c, s), hp (c, s) (Finset.mem_univ _), hg (c, s) (Finset.mem_univ _)⟩
  · iexact Hg

end Cert.Proof.KI

end
-- ==== Proof.RegionValueBody.lean ====
import proofs.«208141_g20598663152203_cont_8to1_341_30_alg».proof.Proof.RegionFrameBody

noncomputable section

namespace Cert.KernelIdeal.Region

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- What the kernel body leaves in the result's staging buffer at grid point `i`, as a function of the thirteen buffers'
    contents, WITH the proof — in every instance of the logic — that from the buffers held whole at those contents the body
    runs to its return, the twelve operands' buffers as they were and the result's at that contents. The contents is the
    witness the run finds. -/
noncomputable def kernelRunV (𝒱₀ : Variants) (c : Dev nD) (i : grid1.Coords)
    (M1 : Memref sig .tc .smem S1x1 .f32) (h1 : M1.IsWhole) (M2 : Memref sig .tc .smem S1x1 .f32) (h2 : M2.IsWhole) (M3 : Memref sig .tc .smem S8x16 .f32) (h3 : M3.IsWhole) (M4 : Memref sig .tc .smem S16x16 .f32) (h4 : M4.IsWhole) (M5 : Memref sig .tc .smem S16x16 .f32) (h5 : M5.IsWhole) (M6 : Memref sig .tc .smem S1x16 .f32) (h6 : M6.IsWhole) (M7 : Memref sig .tc .smem S1x16 .f32) (h7 : M7.IsWhole) (M8 : Memref sig .tc .smem S1x16 .f32) (h8 : M8.IsWhole) (M9 : Memref sig .tc .vmem S512x512 .f32) (h9 : M9.IsWhole) (M10 : Memref sig .tc .vmem S8x512x256 .bf16) (h10 : M10.IsWhole) (M11 : Memref sig .tc .vmem S16x16 .f32) (h11 : M11.IsWhole) (M12 : Memref sig .tc .vmem S1x16 .f32) (h12 : M12.IsWhole) (M13 : Memref sig .tc .vmem S512x16 .f32) (h13 : M13.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) :
    { W : Bf (F := F) c M13 //
      ∀ (Ix : Type) [DecidableEq Ix] (Name : Type) [DecidableEq Name] (U : Type) [URA U] (Lvl : Type) [Preorder Lvl]
        (E : Set Name) (Q : PUnit → sProp (MT nD τ sig Ix (Elt F) Name U Lvl)),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
            ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 W) -∗ Q ⟨⟩))
          ⊢ wp frame (wpE (defs₀ (F := F)) 𝒱₀ c none) E (cc1__gin_body i M1 h1 M2 h2 M3 h3 M4 h4 M5 h5 M6 h6 M7 h7 M8 h8 M9 h9 M10 h10 M11 h11 M12 h12 M13 h13) Q } := by
  refine ⟨?_, fun Ix _ Name _ U _ Lvl _ E Q => ?run⟩
  case run =>
    iintro ⟨H1, H2, H3, H4, H5, H6, H7, H8, H9, H10, H11, H12, H13, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.KernelIdeal.Region
-- ==== Proof.RegionValue.lean ====
import proofs.«208141_g20598663152203_cont_8to1_341_30_alg».proof.Proof.RegionFrame
import proofs.«208141_g20598663152203_cont_8to1_341_30_alg».proof.Proof.RegionValueBody
import Idealize.ShloMosaic.Lib.Pipeline.Frame

noncomputable section

namespace Cert.KernelIdeal.Region

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The contents of window `w`'s staging buffers. -/
abbrev Blk (F : FTy → Type) (w : Fin cfg1.W) : Type := (cfg1.win w).block.Idx → Elt F (cfg1.win w).elt

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)
abbrev hs1_7 (t : Fin cfg1.N) : (st1_7 t).IsWhole := hstage1_7 ((cfg1.slots t 7).cast nbuf1_7)
abbrev hs1_8 (t : Fin cfg1.N) : (st1_8 t).IsWhole := hstage1_8 ((cfg1.slots t 8).cast nbuf1_8)
abbrev hs1_9 (t : Fin cfg1.N) : (st1_9 t).IsWhole := hstage1_9 ((cfg1.slots t 9).cast nbuf1_9)
abbrev hs1_10 (t : Fin cfg1.N) : (st1_10 t).IsWhole := hstage1_10 ((cfg1.slots t 10).cast nbuf1_10)
abbrev hs1_11 (t : Fin cfg1.N) : (st1_11 t).IsWhole := hstage1_11 ((cfg1.slots t 11).cast nbuf1_11)
abbrev hs1_12 (t : Fin cfg1.N) : (st1_12 t).IsWhole := hstage1_12 ((cfg1.slots t 12).cast nbuf1_12)

/-- THE STEP: what the body leaves in the result's current staging buffer at point `t`, as a function of what the thirteen
    current staging buffers held when it was called (the operands' `Yin`, the result's `Y`). -/
def stepX (𝒱₀ : Variants) (c : Dev nD) (t : Fin cfg1.N) (Yin : (w : Fin cfg1.W) → Blk F w) (Y : Blk F 12) : Blk F 12 :=
  (st1_12 t).view.read (Elt F)
    (kernelRunV 𝒱₀ c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) (st1_9 t) (hs1_9 t) (st1_10 t) (hs1_10 t) (st1_11 t) (hs1_11 t) (st1_12 t) (hs1_12 t)
      ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9)) ((hs1_10 t).unread (Yin 10)) ((hs1_11 t).unread (Yin 11)) ((hs1_12 t).unread Y)).1

/-- The proof data of the operands alone: the arrays at `V`; the body leaves each staging buffer as it found it. -/
def rdIn (V : Val1 F) (O : Dev nD → CellTallies nD τ sig Ix) (B : Dev nD → Set (SemLoc sig × Ix))
    (_ : Fin 1) (c : Dev nD) : RDat τ (Elt F) Ix Name U Lvl cfg1 c where
  A w := V c (Pipeline.arrRef spec1 w)
  after _ _ Y X := X = Y
  Φ _ := Pipeline.scopedRest (Ix := Ix) (Name := Name) (U := U) (Lvl := Lvl) (Val := Elt F) spec1 c
  q _ := fullShare
  owed _ := O c
  recorded _ := B c

/-- The result's relation at point `t`: what the body leaves there is THE STEP of contents the operands' buffers may hold
    at `t` and of what the result's buffer held. -/
def outRel (𝒱₀ : Variants) (V : Val1 F) (O : Dev nD → CellTallies nD τ sig Ix) (B : Dev nD → Set (SemLoc sig × Ix)) (c : Dev nD) :
    Fin cfg1.N → (Y X : Blk F 12) → Prop := fun t Y X =>
  ∃ Yin : (w : Fin cfg1.W) → Blk F w, (∀ w, w ≠ 12 → (rdIn (Ix := Ix) (Name := Name) (U := U) (Lvl := Lvl) V O B 0 c).Finds w t (Yin w)) ∧ X = stepX 𝒱₀ c t Yin Y

/-- The result's window alone is constrained otherwise than "left as found". -/
def ovr (𝒱₀ : Variants) (V : Val1 F) (O : Dev nD → CellTallies nD τ sig Ix) (B : Dev nD → Set (SemLoc sig × Ix)) (c : Dev nD) :
    (w : Fin cfg1.W) → Option (Fin cfg1.N → (Y X : Blk F w) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => none
  | ⟨10, _⟩ => none
  | ⟨11, _⟩ => none
  | ⟨12, _⟩ => some (outRel (Ix := Ix) (Name := Name) (U := U) (Lvl := Lvl) 𝒱₀ V O B c)
  | ⟨_ + 13, h⟩ => absurd h (Nat.not_lt.2 (Nat.le_add_left _ _))

/-- The region's proof data with the result's contents constrained. -/
def rdV (𝒱₀ : Variants) (V : Val1 F) (O : Dev nD → CellTallies nD τ sig Ix) (B : Dev nD → Set (SemLoc sig × Ix))
    (p : Fin 1) (c : Dev nD) : RDat τ (Elt F) Ix Name U Lvl cfg1 c :=
  (rdIn V O B p c).override (ovr (Ix := Ix) (Name := Name) (U := U) (Lvl := Lvl) 𝒱₀ V O B c)

/-- What the region leaves: the operands as they were, the result's array at contents the proof data admits after both
    points, the core's `owes`. -/
def regionPostV (ι : Ix) (𝒱₀ : Variants) (V : Val1 F) (O : Dev nD → CellTallies nD τ sig Ix) (B : Dev nD → Set (SemLoc sig × Ix)) (c : Dev nD) : sProp 𝕄 :=
  iprop(operands V c
    ∗ (∃ G : Buf (Elt F) ((cfg1.win 12).arr.view.loc (c : Thread nD τ)), ⌜(rdV (Ix := Ix) (Name := Name) (U := U) (Lvl := Lvl) 𝒱₀ V O B 0 c).ArrAt 12 cfg1.N G⌝
        ∗ (((c : Thread nD τ).loc (Pipeline.arrRef spec1 12)) ↦{fullShare} G))
    ∗ Pipeline.owesWithin c (O c) (B c ∪ cfg1.waitPairs ι))

variable (𝒱₀ : Variants) (V : Val1 F) (O : Dev nD → CellTallies nD τ sig Ix) (B : Dev nD → Set (SemLoc sig × Ix)) (ι : Ix)
  (L : GSem nD τ sig → Finset Ix) (lv : GSem nD τ sig → Ix → Lvl)

theorem ovr_none (c : Dev nD) : ∀ w : Fin cfg1.W, w ≠ 12 → ovr (Ix := Ix) (Name := Name) (U := U) (Lvl := Lvl) 𝒱₀ V O B c w = none
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, h => absurd rfl h
  | ⟨_ + 13, h⟩, _ => absurd h (Nat.not_lt.2 (Nat.le_add_left _ _))

/-- An operand's staging buffer is left as found. -/
theorem after_in (c : Dev nD) (w : Fin cfg1.W) (hw : w ≠ 12) (t : Fin cfg1.N) (Y : Blk F w) : (rdV (Ix := Ix) (Name := Name) (U := U) (Lvl := Lvl) 𝒱₀ V O B 0 c).after w t Y Y := by
  unfold rdV
  rw [RDat.override_after_of_eq_none _ (ovr_none 𝒱₀ V O B c w hw)]
  exact rfl

/-- The result's is left at THE STEP. -/
theorem after_out (c : Dev nD) (t : Fin cfg1.N) (Y : (w : Fin cfg1.W) → Blk F w)
    (hY : ∀ w, w ≠ 12 → (rdIn (Ix := Ix) (Name := Name) (U := U) (Lvl := Lvl) V O B 0 c).Finds w t (Y w)) : (rdV (Ix := Ix) (Name := Name) (U := U) (Lvl := Lvl) 𝒱₀ V O B 0 c).after 12 t (Y 12) (stepX 𝒱₀ c t Y (Y 12)) := by
  unfold rdV
  rw [RDat.override_after_of_eq_some _ (show ovr (Ix := Ix) (Name := Name) (U := U) (Lvl := Lvl) 𝒱₀ V O B c 12 = some (outRel (Ix := Ix) (Name := Name) (U := U) (Lvl := Lvl) 𝒱₀ V O B c) from rfl)]
  exact ⟨Y, hY, rfl⟩

set_option maxHeartbeats 1000000 in
/-- The body at point `t`: each operand's current staging buffer is handed back as it was, the result's at THE STEP. -/
theorem sound_bodyV (c : Dev nD) (t : Fin cfg1.N) (Y : (w : Fin cfg1.W) → Blk F w)
    (hY : ∀ w, w ≠ 12 → (rdIn (Ix := Ix) (Name := Name) (U := U) (Lvl := Lvl) V O B 0 c).Finds w t (Y w)) :
    iprop((rdV (Ix := Ix) (Name := Name) (U := U) (Lvl := Lvl) 𝒱₀ V O B 0 c).Φ t.castSucc ∗ (rdV (Ix := Ix) (Name := Name) (U := U) (Lvl := Lvl) 𝒱₀ V O B 0 c).owesAt ι t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8)
        ∗ owns (c : Thread nD τ) (st1_9 t) fullShare (Y 9)
        ∗ owns (c : Thread nD τ) (st1_10 t) fullShare (Y 10)
        ∗ owns (c : Thread nD τ) (st1_11 t) fullShare (Y 11)
        ∗ owns (c : Thread nD τ) (st1_12 t) fullShare (Y 12))
      ⊢ wp frame (wpE (defs₀ (F := F)) 𝒱₀ c none) Set.univ (bodyAt1 t) fun _ =>
          iprop((rdV (Ix := Ix) (Name := Name) (U := U) (Lvl := Lvl) 𝒱₀ V O B 0 c).Φ t.succ ∗ (rdV (Ix := Ix) (Name := Name) (U := U) (Lvl := Lvl) 𝒱₀ V O B 0 c).owesAt ι t.succ
            ∗ (∃ X, ⌜(rdV (Ix := Ix) (Name := Name) (U := U) (Lvl := Lvl) 𝒱₀ V O B 0 c).after 0 t (Y 0) X⌝ ∗ owns (c : Thread nD τ) (st1_0 t) fullShare X)
            ∗ (∃ X, ⌜(rdV (Ix := Ix) (Name := Name) (U := U) (Lvl := Lvl) 𝒱₀ V O B 0 c).after 1 t (Y 1) X⌝ ∗ owns (c : Thread nD τ) (st1_1 t) fullShare X)
            ∗ (∃ X, ⌜(rdV (Ix := Ix) (Name := Name) (U := U) (Lvl := Lvl) 𝒱₀ V O B 0 c).after 2 t (Y 2) X⌝ ∗ owns (c : Thread nD τ) (st1_2 t) fullShare X)
            ∗ (∃ X, ⌜(rdV (Ix := Ix) (Name := Name) (U := U) (Lvl := Lvl) 𝒱₀ V O B 0 c).after 3 t (Y 3) X⌝ ∗ owns (c : Thread nD τ) (st1_3 t) fullShare X)
            ∗ (∃ X, ⌜(rdV (Ix := Ix) (Name := Name) (U := U) (Lvl := Lvl) 𝒱₀ V O B 0 c).after 4 t (Y 4) X⌝ ∗ owns (c : Thread nD τ) (st1_4 t) fullShare X)
            ∗ (∃ X, ⌜(rdV (Ix := Ix) (Name := Name) (U := U) (Lvl := Lvl) 𝒱₀ V O B 0 c).after 5 t (Y 5) X⌝ ∗ owns (c : Thread nD τ) (st1_5 t) fullShare X)
            ∗ (∃ X, ⌜(rdV (Ix := Ix) (Name := Name) (U := U) (Lvl := Lvl) 𝒱₀ V O B 0 c).after 6 t (Y 6) X⌝ ∗ owns (c : Thread nD τ) (st1_6 t) fullShare X)
            ∗ (∃ X, ⌜(rdV (Ix := Ix) (Name := Name) (U := U) (Lvl := Lvl) 𝒱₀ V O B 0 c).after 7 t (Y 7) X⌝ ∗ owns (c : Thread nD τ) (st1_7 t) fullShare X)
            ∗ (∃ X, ⌜(rdV (Ix := Ix) (Name := Name) (U := U) (Lvl := Lvl) 𝒱₀ V O B 0 c).after 8 t (Y 8) X⌝ ∗ owns (c : Thread nD τ) (st1_8 t) fullShare X)
            ∗ (∃ X, ⌜(rdV (Ix := Ix) (Name := Name) (U := U) (Lvl := Lvl) 𝒱₀ V O B 0 c).after 9 t (Y 9) X⌝ ∗ owns (c : Thread nD τ) (st1_9 t) fullShare X)
            ∗ (∃ X, ⌜(rdV (Ix := Ix) (Name := Name) (U := U) (Lvl := Lvl) 𝒱₀ V O B 0 c).after 10 t (Y 10) X⌝ ∗ owns (c : Thread nD τ) (st1_10 t) fullShare X)
            ∗ (∃ X, ⌜(rdV (Ix := Ix) (Name := Name) (U := U) (Lvl := Lvl) 𝒱₀ V O B 0 c).after 11 t (Y 11) X⌝ ∗ owns (c : Thread nD τ) (st1_11 t) fullShare X)
            ∗ (∃ X, ⌜(rdV (Ix := Ix) (Name := Name) (U := U) (Lvl := Lvl) 𝒱₀ V O B 0 c).after 12 t (Y 12) X⌝ ∗ owns (c : Thread nD τ) (st1_12 t) fullShare X)) := by
  rw [show (rdV (Ix := Ix) (Name := Name) (U := U) (Lvl := Lvl) 𝒱₀ V O B 0 c).Φ t.succ = (rdV (Ix := Ix) (Name := Name) (U := U) (Lvl := Lvl) 𝒱₀ V O B 0 c).Φ t.castSucc from rfl,
    show (rdV (Ix := Ix) (Name := Name) (U := U) (Lvl := Lvl) 𝒱₀ V O B 0 c).owesAt ι t.succ = (rdV (Ix := Ix) (Name := Name) (U := U) (Lvl := Lvl) 𝒱₀ V O B 0 c).owesAt ι t.castSucc from rfl]
  unfold owns
  simp only [(hs1_0 t).set_eq_univ, (hs1_1 t).set_eq_univ, (hs1_2 t).set_eq_univ, (hs1_3 t).set_eq_univ, (hs1_4 t).set_eq_univ, (hs1_5 t).set_eq_univ, (hs1_6 t).set_eq_univ, (hs1_7 t).set_eq_univ, (hs1_8 t).set_eq_univ, (hs1_9 t).set_eq_univ, (hs1_10 t).set_eq_univ, (hs1_11 t).set_eq_univ, (hs1_12 t).set_eq_univ]
  iintro ⟨HΦ, HO, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  obtain rfl := (hs1_0 t).eq_unread hf0
  obtain rfl := (hs1_1 t).eq_unread hf1
  obtain rfl := (hs1_2 t).eq_unread hf2
  obtain rfl := (hs1_3 t).eq_unread hf3
  obtain rfl := (hs1_4 t).eq_unread hf4
  obtain rfl := (hs1_5 t).eq_unread hf5
  obtain rfl := (hs1_6 t).eq_unread hf6
  obtain rfl := (hs1_7 t).eq_unread hf7
  obtain rfl := (hs1_8 t).eq_unread hf8
  obtain rfl := (hs1_9 t).eq_unread hf9
  obtain rfl := (hs1_10 t).eq_unread hf10
  obtain rfl := (hs1_11 t).eq_unread hf11
  obtain rfl := (hs1_12 t).eq_unread hf12
  iapply ((kernelRunV 𝒱₀ c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (st1_8 t) (hs1_8 t) (st1_9 t) (hs1_9 t) (st1_10 t) (hs1_10 t) (st1_11 t) (hs1_11 t) (st1_12 t) (hs1_12 t)
    ((hs1_0 t).unread (Y 0)) ((hs1_1 t).unread (Y 1)) ((hs1_2 t).unread (Y 2)) ((hs1_3 t).unread (Y 3)) ((hs1_4 t).unread (Y 4)) ((hs1_5 t).unread (Y 5)) ((hs1_6 t).unread (Y 6)) ((hs1_7 t).unread (Y 7)) ((hs1_8 t).unread (Y 8)) ((hs1_9 t).unread (Y 9)) ((hs1_10 t).unread (Y 10)) ((hs1_11 t).unread (Y 11)) ((hs1_12 t).unread (Y 12))).2 Ix Name U Lvl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨G0, G1, G2, G3, G4, G5, G6, G7, G8, G9, G10, G11, G12⟩
  isplitl [HΦ]; · iexact HΦ
  isplitl [HO]; · iexact HO
  isplitl [G0]
  · iexists (Y 0); isplitr; · ipureintro; exact after_in 𝒱₀ V O B c 0 (by decide) t (Y 0)
    iexists _; isplitr; · ipureintro; exact (hs1_0 t).read_unread _
    iexact G0
  isplitl [G1]
  · iexists (Y 1); isplitr; · ipureintro; exact after_in 𝒱₀ V O B c 1 (by decide) t (Y 1)
    iexists _; isplitr; · ipureintro; exact (hs1_1 t).read_unread _
    iexact G1
  isplitl [G2]
  · iexists (Y 2); isplitr; · ipureintro; exact after_in 𝒱₀ V O B c 2 (by decide) t (Y 2)
    iexists _; isplitr; · ipureintro; exact (hs1_2 t).read_unread _
    iexact G2
  isplitl [G3]
  · iexists (Y 3); isplitr; · ipureintro; exact after_in 𝒱₀ V O B c 3 (by decide) t (Y 3)
    iexists _; isplitr; · ipureintro; exact (hs1_3 t).read_unread _
    iexact G3
  isplitl [G4]
  · iexists (Y 4); isplitr; · ipureintro; exact after_in 𝒱₀ V O B c 4 (by decide) t (Y 4)
    iexists _; isplitr; · ipureintro; exact (hs1_4 t).read_unread _
    iexact G4
  isplitl [G5]
  · iexists (Y 5); isplitr; · ipureintro; exact after_in 𝒱₀ V O B c 5 (by decide) t (Y 5)
    iexists _; isplitr; · ipureintro; exact (hs1_5 t).read_unread _
    iexact G5
  isplitl [G6]
  · iexists (Y 6); isplitr; · ipureintro; exact after_in 𝒱₀ V O B c 6 (by decide) t (Y 6)
    iexists _; isplitr; · ipureintro; exact (hs1_6 t).read_unread _
    iexact G6
  isplitl [G7]
  · iexists (Y 7); isplitr; · ipureintro; exact after_in 𝒱₀ V O B c 7 (by decide) t (Y 7)
    iexists _; isplitr; · ipureintro; exact (hs1_7 t).read_unread _
    iexact G7
  isplitl [G8]
  · iexists (Y 8); isplitr; · ipureintro; exact after_in 𝒱₀ V O B c 8 (by decide) t (Y 8)
    iexists _; isplitr; · ipureintro; exact (hs1_8 t).read_unread _
    iexact G8
  isplitl [G9]
  · iexists (Y 9); isplitr; · ipureintro; exact after_in 𝒱₀ V O B c 9 (by decide) t (Y 9)
    iexists _; isplitr; · ipureintro; exact (hs1_9 t).read_unread _
    iexact G9
  isplitl [G10]
  · iexists (Y 10); isplitr; · ipureintro; exact after_in 𝒱₀ V O B c 10 (by decide) t (Y 10)
    iexists _; isplitr; · ipureintro; exact (hs1_10 t).read_unread _
    iexact G10
  isplitl [G11]
  · iexists (Y 11); isplitr; · ipureintro; exact after_in 𝒱₀ V O B c 11 (by decide) t (Y 11)
    iexists _; isplitr; · ipureintro; exact (hs1_11 t).read_unread _
    iexact G11
  iexists (stepX 𝒱₀ c t Y (Y 12)); isplitr; · ipureintro; exact after_out 𝒱₀ V O B c t Y hY
  iexists _; isplitr; · ipureintro; rfl
  iexact G12

/-- The library's body obligation, at every point. -/
theorem body_obligationV (c : Dev nD) :
    (rdV (Ix := Ix) (Name := Name) (U := U) (Lvl := Lvl) 𝒱₀ V O B 0 c).BodyObligation (defs₀ (F := F)) 𝒱₀ ι Set.univ := fun t Y hY => by
  rw [bigSep_W1, bigSep_W1]
  exact sound_bodyV 𝒱₀ V O B ι c t Y fun w hw =>
    (RDat.override_finds (rdIn (Ix := Ix) (Name := Name) (U := U) (Lvl := Lvl) V O B 0 c) (ovr_none 𝒱₀ V O B c w hw) t (Y w)).mp (hY w)

/-- Every array is held at the full share. -/
theorem share_eqV (c : Dev nD) (w : Fin cfg1.W) : (rdV (Ix := Ix) (Name := Name) (U := U) (Lvl := Lvl) 𝒱₀ V O B 0 c).share w = fullShare :=
  (rdV (Ix := Ix) (Name := Name) (U := U) (Lvl := Lvl) 𝒱₀ V O B 0 c).share_full (fun _ => rfl) w

/-- A window's array, as the pipeline holds it, is its buffer held whole. -/
theorem arr_ptV (c : Dev nD) (w : Fin cfg1.W) (G : Buf (Elt F) ((cfg1.win w).arr.view.loc (c : Thread nD τ))) :
    (((cfg1.win w).arr.view.loc (c : Thread nD τ)) ↦[(cfg1.win w).arr.view.set]{(rdV (Ix := Ix) (Name := Name) (U := U) (Lvl := Lvl) 𝒱₀ V O B 0 c).share w} G : sProp 𝕄)
      = (((c : Thread nD τ).loc (Pipeline.arrRef spec1 w)) ↦{fullShare} G : sProp 𝕄) := by
  rw [(arr_whole1 w).set_eq_univ, share_eqV]

/-- An operand's array is never written back. -/
theorem arrAt_inV (c : Dev nD) (w : Fin cfg1.W) (hw : (cfg1.win w).isOut = false) (n : Nat)
    (G : Buf (Elt F) ((cfg1.win w).arr.view.loc (c : Thread nD τ))) :
    (rdV (Ix := Ix) (Name := Name) (U := U) (Lvl := Lvl) 𝒱₀ V O B 0 c).ArrAt w n G ↔ G = (rdV (Ix := Ix) (Name := Name) (U := U) (Lvl := Lvl) 𝒱₀ V O B 0 c).A w := by
  rw [(rdV (Ix := Ix) (Name := Name) (U := U) (Lvl := Lvl) 𝒱₀ V O B 0 c).ArrAt_in w hw]

/-- Buffer `b` held whole at `V` is window `w`'s array at the entry contents, `b` being that array's buffer. -/
theorem entry_ptV (c : Dev nD) (w : Fin cfg1.W) (b : Ref sig .tc) (hb : Pipeline.arrRef spec1 w = b) :
    (((c : Thread nD τ).loc b) ↦{fullShare} V c b : sProp 𝕄)
      ⊢ (((cfg1.win w).arr.view.loc (c : Thread nD τ)) ↦[(cfg1.win w).arr.view.set]{(rdV (Ix := Ix) (Name := Name) (U := U) (Lvl := Lvl) 𝒱₀ V O B 0 c).share w} (rdV (Ix := Ix) (Name := Name) (U := U) (Lvl := Lvl) 𝒱₀ V O B 0 c).A w : sProp 𝕄) := by
  subst hb
  rw [arr_ptV]
  exact BI.Entails.refl _

/-- An operand's array after the region: its buffer whole at `V`. -/
theorem exit_ptV (c : Dev nD) (w : Fin cfg1.W) (hw : (cfg1.win w).isOut = false) (b : Ref sig .tc) (hb : Pipeline.arrRef spec1 w = b) (n : Nat) :
    iprop(∃ G, ⌜(rdV (Ix := Ix) (Name := Name) (U := U) (Lvl := Lvl) 𝒱₀ V O B 0 c).ArrAt w n G⌝ ∗ (((cfg1.win w).arr.view.loc (c : Thread nD τ)) ↦[(cfg1.win w).arr.view.set]{(rdV (Ix := Ix) (Name := Name) (U := U) (Lvl := Lvl) 𝒱₀ V O B 0 c).share w} G : sProp 𝕄))
      ⊢ (((c : Thread nD τ).loc b) ↦{fullShare} V c b : sProp 𝕄) := by
  subst hb
  iintro ⟨%G, %hG, H⟩
  obtain rfl := (arrAt_inV 𝒱₀ V O B c w hw n G).mp hG
  ihave H' := (Entails.of_eq (arr_ptV 𝒱₀ V O B c w _)) $$ H
  iexact H'

/-- The result's array after the region: its buffer whole at contents the proof data admits. -/
theorem exit_pt_outV (c : Dev nD) (n : Nat) :
    iprop(∃ G, ⌜(rdV (Ix := Ix) (Name := Name) (U := U) (Lvl := Lvl) 𝒱₀ V O B 0 c).ArrAt 12 n G⌝ ∗ (((cfg1.win 12).arr.view.loc (c : Thread nD τ)) ↦[(cfg1.win 12).arr.view.set]{(rdV (Ix := Ix) (Name := Name) (U := U) (Lvl := Lvl) 𝒱₀ V O B 0 c).share 12} G : sProp 𝕄))
      ⊢ iprop(∃ G : Buf (Elt F) ((cfg1.win 12).arr.view.loc (c : Thread nD τ)), ⌜(rdV (Ix := Ix) (Name := Name) (U := U) (Lvl := Lvl) 𝒱₀ V O B 0 c).ArrAt 12 n G⌝
          ∗ (((c : Thread nD τ).loc (Pipeline.arrRef spec1 12)) ↦{fullShare} G : sProp 𝕄)) := by
  iintro ⟨%G, %hG, H⟩
  ihave H' := (Entails.of_eq (arr_ptV 𝒱₀ V O B c 12 _)) $$ H
  iexists G
  isplitr; · ipureintro; exact hG
  iexact H'

theorem entry_entailsV (c : Dev nD) :
    iprop(regionPre V O B c ∗ Pipeline.ownSems0 (fun k : PEmpty => k.elim) c ∗ levAts L lv)
      ⊢ |={Set.univ}=> iprop((rdV (Ix := Ix) (Name := Name) (U := U) (Lvl := Lvl) 𝒱₀ V O B 0 c).arrays (rdV (Ix := Ix) (Name := Name) (U := U) (Lvl := Lvl) 𝒱₀ V O B 0 c).A ∗ Pipeline.prefHeld (pcfgs (F := F) 0).pre c (fun _ => fullShare) (adm (F := F) 0).1
        ∗ (rdV (Ix := Ix) (Name := Name) (U := U) (Lvl := Lvl) 𝒱₀ V O B 0 c).owesAt ι 0 ∗ (iprop(emp) : sProp 𝕄) ∗ (iprop(emp) : sProp 𝕄)) := by
  unfold regionPre operands RDat.arrays
  rw [bigSep_W1]
  iintro ⟨⟨⟨H0, H1, H2, H3, H4, H5, H6, H7, H8, H9, H10, H11⟩, H12, HO⟩, -, -⟩
  imodintro
  isplitl [H0 H1 H2 H3 H4 H5 H6 H7 H8 H9 H10 H11 H12]
  · isplitl [H0]; · iapply (entry_ptV 𝒱₀ V O B c 0 _ rfl); iexact H0
    isplitl [H1]; · iapply (entry_ptV 𝒱₀ V O B c 1 _ rfl); iexact H1
    isplitl [H2]; · iapply (entry_ptV 𝒱₀ V O B c 2 _ rfl); iexact H2
    isplitl [H3]; · iapply (entry_ptV 𝒱₀ V O B c 3 _ rfl); iexact H3
    isplitl [H4]; · iapply (entry_ptV 𝒱₀ V O B c 4 _ rfl); iexact H4
    isplitl [H5]; · iapply (entry_ptV 𝒱₀ V O B c 5 _ rfl); iexact H5
    isplitl [H6]; · iapply (entry_ptV 𝒱₀ V O B c 6 _ rfl); iexact H6
    isplitl [H7]; · iapply (entry_ptV 𝒱₀ V O B c 7 _ rfl); iexact H7
    isplitl [H8]; · iapply (entry_ptV 𝒱₀ V O B c 8 _ rfl); iexact H8
    isplitl [H9]; · iapply (entry_ptV 𝒱₀ V O B c 9 _ rfl); iexact H9
    isplitl [H10]; · iapply (entry_ptV 𝒱₀ V O B c 10 _ rfl); iexact H10
    isplitl [H11]; · iapply (entry_ptV 𝒱₀ V O B c 11 _ rfl); iexact H11
    iapply (entry_ptV 𝒱₀ V O B c 12 _ rfl); iexact H12
  isplitr
  · unfold Pipeline.prefHeld; rw [show (Finset.univ : Finset (Fin 0)) = ∅ from rfl, BI.bigSep_empty]; iempintro
  isplitl [HO]
  · iapply (Pipeline.owesWithin_mono c (O c) Set.subset_union_left); iexact HO
  isplitr <;> iempintro

theorem exit_entailsV (c : Dev nD) :
    iprop((rdV (Ix := Ix) (Name := Name) (U := U) (Lvl := Lvl) 𝒱₀ V O B 0 c).arraysAt cfg1.N ∗ (rdV (Ix := Ix) (Name := Name) (U := U) (Lvl := Lvl) 𝒱₀ V O B 0 c).owesAt ι (Fin.last cfg1.N) ∗ (iprop(emp) : sProp 𝕄) ∗ (iprop(emp) : sProp 𝕄))
      ⊢ |={Set.univ}=> regionPostV ι 𝒱₀ V O B c := by
  unfold regionPostV operands RDat.arraysAt
  rw [bigSep_W1]
  iintro ⟨⟨H0, H1, H2, H3, H4, H5, H6, H7, H8, H9, H10, H11, H12⟩, HO, -, -⟩
  imodintro
  isplitl [H0 H1 H2 H3 H4 H5 H6 H7 H8 H9 H10 H11]
  · isplitl [H0]; · iapply (exit_ptV 𝒱₀ V O B c 0 rfl _ rfl); iexact H0
    isplitl [H1]; · iapply (exit_ptV 𝒱₀ V O B c 1 rfl _ rfl); iexact H1
    isplitl [H2]; · iapply (exit_ptV 𝒱₀ V O B c 2 rfl _ rfl); iexact H2
    isplitl [H3]; · iapply (exit_ptV 𝒱₀ V O B c 3 rfl _ rfl); iexact H3
    isplitl [H4]; · iapply (exit_ptV 𝒱₀ V O B c 4 rfl _ rfl); iexact H4
    isplitl [H5]; · iapply (exit_ptV 𝒱₀ V O B c 5 rfl _ rfl); iexact H5
    isplitl [H6]; · iapply (exit_ptV 𝒱₀ V O B c 6 rfl _ rfl); iexact H6
    isplitl [H7]; · iapply (exit_ptV 𝒱₀ V O B c 7 rfl _ rfl); iexact H7
    isplitl [H8]; · iapply (exit_ptV 𝒱₀ V O B c 8 rfl _ rfl); iexact H8
    isplitl [H9]; · iapply (exit_ptV 𝒱₀ V O B c 9 rfl _ rfl); iexact H9
    isplitl [H10]; · iapply (exit_ptV 𝒱₀ V O B c 10 rfl _ rfl); iexact H10
    iapply (exit_ptV 𝒱₀ V O B c 11 rfl _ rfl); iexact H11
  isplitl [H12]
  · iapply (exit_pt_outV 𝒱₀ V O B c); iexact H12
  iexact HO

set_option backward.isDefEq.respectTransparency.types false in
/-- THE REGION as the library's record: the windows' decided layout, no semaphore of the kernel's own, the body obligation, and
    the entry / exit entailments around `regionPre` / `regionPost`. -/
def regV (hwaits : ∀ c, (levAts L lv : sProp 𝕄) ⊢ Pipeline.RDat.cellsWaits (Pipeline.pin (pcfgs (F := F)) adm) (rdV 𝒱₀ V O B) ι 0 c) :
    Pipeline.RDat.RegionSeg (pcfgs (F := F)) adm (rdV (Ix := Ix) (Name := Name) (U := U) (Lvl := Lvl) 𝒱₀ V O B) ι defs₀ 𝒱₀ L lv 0 where
  win := launch1.win.to₀
  block_pos := launch1.block_pos
  stage_whole := launch1.stage_whole
  K := PEmpty
  osem := fun k => k.elim
  ho := Pipeline.OwnSemFacts.none _
  hbody c := body_obligationV 𝒱₀ V O B ι c
  hwaits := hwaits
  pre := regionPre V O B
  post := regionPostV ι 𝒱₀ V O B
  X _ := iprop(emp)
  Y _ := iprop(emp)
  Z _ := iprop(emp)
  hentry c := entry_entailsV 𝒱₀ V O B ι L lv c
  hin c := by
    rw [show (rdV (Ix := Ix) (Name := Name) (U := U) (Lvl := Lvl) 𝒱₀ V O B 0 c).Φ 0 = Pipeline.scopedRest (Ix := Ix) (Name := Name) (U := U) (Lvl := Lvl) (Val := Elt F) spec1 c from rfl]
    iintro ⟨-, -, Hr⟩
    iexact Hr
  hout c := by
    rw [Pipeline.ownSems0_none, show (rdV (Ix := Ix) (Name := Name) (U := U) (Lvl := Lvl) 𝒱₀ V O B 0 c).Φ (Fin.last cfg1.N) = Pipeline.scopedRest (Ix := Ix) (Name := Name) (U := U) (Lvl := Lvl) (Val := Elt F) spec1 c from rfl]
    iintro Hr
    isplitr; · iempintro
    isplitr; · iempintro
    iexact Hr
  hexit c := exit_entailsV 𝒱₀ V O B ι c

set_option backward.isDefEq.respectTransparency.types false in
/-- THE REGION CALL on core `c`'s TensorCore, under the pipelines' body table: from the region boundary, the thirteen arrays
    whole at `V`, the core's `owes`, the level facts and the pipeline's launch ghost state, `customCall (entry 0) ()` runs —
    every weakly fair execution of it terminates, nothing faulting — to the boundary, the twelve operands' arrays as they were,
    the result's at contents the proof data admits, and the core's `owes`, for the continuation. -/
theorem region_wpV [∀ e, Nonempty (Elt F e)] [Infinite Name]
    (EP : Emb (URounds (GSem nD τ sig) Unit) 𝕄) [EP.LandsIn (upEmb : UEmb _ 𝕄)]
    (hwaits : ∀ c, (levAts L lv : sProp 𝕄) ⊢ Pipeline.RDat.cellsWaits (Pipeline.pin (pcfgs (F := F)) adm) (rdV 𝒱₀ V O B) ι 0 c)
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ regionPostV ι 𝒱₀ V O B c)
            -∗ wp frame (wpE (Pipeline.defs (pcfgs (F := F)) defs₀) (Variants.lift 𝒱₀) (c.tc : Thread nD τ) bd) Set.univ (k ⟨⟩) Q)
        ∗ boundary (c.tc : Thread nD τ) ∗ regionPre V O B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ
          (.op (.customCall (Pipeline.entry (0 : Fin 1)) ()) k) Q :=
  Pipeline.RDat.RegionSeg.wp (pcfgs (F := F)) adm (rdV 𝒱₀ V O B) ι cellOf_inj EP defs₀ 𝒱₀ L lv (regV 𝒱₀ V O B ι L lv hwaits) c bd hv k Q

end Cert.KernelIdeal.Region
-- ==== Proof.IdealMainV.lean ====
/-
  The idealized kernel program's run WITH ITS VALUES: the same launch as the frame's, the payloads carrying what each
  tile wrote (IdealSplitV) and the region entered through its value form, so that the final memory has the region's
  result at contents G the region's proof data admits, entered at the valuation the host operations leave — the
  adjacency array at contents that satisfy every tile's fact.
-/
import proofs.«208141_g20598663152203_cont_8to1_341_30_alg».proof.Proof.IdealMain
import proofs.«208141_g20598663152203_cont_8to1_341_30_alg».proof.Proof.IdealSplitV
import proofs.«208141_g20598663152203_cont_8to1_341_30_alg».proof.Proof.RegionValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after seq)
open Cert.KernelIdeal.Region (region_wpV regionPre regionPostV operands rdV adm Val1)

variable {F : FTy → Type}

local notation "𝕄" => MT nD τ sig (HIx 1) (Elt F) ℕ UU ℕ

variable (m : (ℓ : Loc nD τ sig) → Buf (Elt F) ℓ) (ρ : Dev nD → PrngReg)
variable (TF : (d : Dev nD) → ℕ → ℕ → Buf (Elt F) (aLoc d) → Prop)

variable [FloatOps F]

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PV m TF).x q thr) :=
  hu₀ m

theorem st0V_eq (d : Dev nD) : (bigSep Finset.univ fun c : Fin ((K (F := F)).nCore 0) => (PV m TF).st 0 d c)
    = iprop((bigSep Finset.univ fun c : Fin 2 => eLoc d ↦{Transfers.shareTok fullShare 2 c} m (eLoc d))
        ∗ bigSep Finset.univ fun c : Fin 2 => bigSep Finset.univ fun s : Fin 16 => aLoc d ↦[tset c.val s.val]{fullShare} m (aLoc d)) :=
  st0_eq m d
theorem dn0V_eq (d : Dev nD) : (bigSep Finset.univ fun c : Fin ((K (F := F)).nCore 0) => (PV m TF).dn 0 d c)
    = iprop((bigSep Finset.univ fun c : Fin 2 => eLoc d ↦{Transfers.shareTok fullShare 2 c} m (eLoc d))
        ∗ bigSep Finset.univ fun c : Fin 2 => bigSep Finset.univ fun s : Fin 16 => iprop(∃ f, ⌜TF d c.val s.val f⌝ ∗ aLoc d ↦[tset c.val s.val]{fullShare} f)) := by
  show (bigSep (Finset.univ : Finset (Fin 2)) fun c => iprop((eLoc d ↦{eCore c.val} m (eLoc d))
    ∗ bigSep Finset.univ fun s : Fin 16 => iprop(∃ f, ⌜TF d c.val s.val f⌝ ∗ aLoc d ↦[tset c.val s.val]{fullShare} f))) = _
  rw [bigSep_sep']

/-! ## The region, value form -/

theorem hwaitsV (V : Valuation τ sig (Elt F)) :
    ∀ c, (levAts (K (F := F)).L (K (F := F)).lev : sProp 𝕄)
      ⊢ Pipeline.RDat.cellsWaits (Pipeline.pin (pcfgs (F := F)) adm) (rdV (Name := ℕ) (U := UU) (Lvl := ℕ) 𝒱₀ (VrA V) (Or (F := F)) (Br (F := F))) none 0 c :=
  fun c => Pipeline.RDat.cellsWaits_intro (Pipeline.pin (pcfgs (F := F)) adm) (rdV (Name := ℕ) (U := UU) (Lvl := ℕ) 𝒱₀ (VrA V) (Or (F := F)) (Br (F := F))) none 0 c
    (R := levAts (K (F := F)).L (K (F := F)).lev) fun w s t =>
      (K (F := F)).mayWait_none (thr := SparseCore.T c) _ (fun g' => by show (K (F := F)).Otc c 1 g' none = 0; rw [Otc_one]; rfl)

/-- What the region's proof data says of the result's contents G, entered at V. -/
abbrev RegFact (d : Dev nD) (V : Valuation τ sig (Elt F)) (G : Buf (Elt F) ((SparseCore.T d : Thread nD τ).loc main_v11)) : Prop :=
  (rdV (Ix := HIx 1) (Name := ℕ) (U := UU) (Lvl := ℕ) 𝒱₀ (VrA V) (Or (F := F)) (Br (F := F)) 0 d).ArrAt 12 cfg1.N G

abbrev regionΦV (d : Dev nD) (V : Valuation τ sig (Elt F)) (R : sProp 𝕄) : PUnit → sProp 𝕄 :=
  fun _ => iprop(R ∗ boundary (SparseCore.T d) ∗ (∃ G, ⌜RegFact d V G⌝ ∗ held (SparseCore.T d) T13 (Function.update V (rT main_v11) G))
    ∗ (K (F := F)).tcSt EH d 1)

set_option maxHeartbeats 4000000 in
theorem region_preV (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ iprop((iprop(boundary (SparseCore.T d) ∗ regionPostV none 𝒱₀ (VrA V) (Or (F := F)) (Br (F := F)) d)
            -∗ wp frame (wpE (Pipeline.defs (pcfgs (F := F)) defs₀) (Variants.lift 𝒱₀) (SparseCore.T d) none) Set.univ (.ret ⟨⟩) (regionΦV d V R))
        ∗ boundary (SparseCore.T d) ∗ regionPre (VrA V) (Or (F := F)) (Br (F := F)) d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  rw [held_T13]
  unfold G regionPre operands regionΦV SparseCore.Cfg.tcSt
  iintro ⟨HR, #Hlv, Hb, ⟨P1, P2, P3, P4, P5, P6, P7, P8, P9, P10, P11, P12, P13⟩, ⟨⟨%W, %hW, HO⟩, Hat⟩, ⟨Hcg, Hti⟩⟩
  isplitl [HR Hat]
  · iintro ⟨Hb, Hpost⟩
    unfold regionPostV operands
    icases Hpost with ⟨⟨Q1, Q2, Q3, Q4, Q5, Q6, Q7, Q8, Q9, Q10, Q11, Q12⟩, ⟨%G, %hG, Q13⟩, ⟨%W', %hW', HO⟩⟩
    rw [wp_ret]; imodintro
    isplitl [HR]; · iexact HR
    isplitl [Hb]; · iexact Hb
    isplitl [Q1 Q2 Q3 Q4 Q5 Q6 Q7 Q8 Q9 Q10 Q11 Q12 Q13]
    · iexists G
      isplitr; · ipureintro; exact hG
      rw [held_T13_upd]
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      iexact Q13
    · isplitl [HO]
      · iexists W'; isplitr
        · ipureintro; intro p hp
          rcases hW' (Finset.mem_coe.mpr hp) with h | ⟨w, s, rfl⟩
          · exact h
          · show (K (F := F)).lev _ none ≤ 8 * 1
            rw [SparseCore.Cfg.lev_none]; omega
        · iexact HO
      · iexact Hat
  isplitl [Hb]; · iexact Hb
  isplitl [P1 P2 P3 P4 P5 P6 P7 P8 P9 P10 P11 P12 P13 HO]
  · isplitl [P1 P2 P3 P4 P5 P6 P7 P8 P9 P10 P11 P12]
    ·
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [P13]; · iexact P13
    iexists W; isplitr
    · ipureintro; intro p hp; exact hW p (Finset.mem_coe.mp hp)
    · iexact HO
  isplitr; · iexact Hlv
  isplitl [Hcg]; · iexact Hcg
  iexact Hti

theorem region_stepV [∀ e, Nonempty (Elt F e)] (d : Dev nD) (V : Valuation τ sig (Elt F)) (R : sProp 𝕄) :
    iprop(R ∗ (levAts (K (F := F)).L (K (F := F)).lev : sProp 𝕄) ∗ boundary (SparseCore.T d) ∗ held (SparseCore.T d) T13 V
        ∗ (K (F := F)).tcSt EH d 1 ∗ G (F := F) d)
      ⊢ wp frame (wpE ((K (F := F)).defs (D (F := F))) 𝒱 (SparseCore.T d) none) Set.univ
          (Prog.lift (.customCall (SparseCore.inner (Pipeline.entry 0)) ())) (regionΦV d V R) :=
  (region_preV d V R).trans
    ((region_wpV 𝒱₀ (VrA V) (Or (F := F)) (Br (F := F)) none (K (F := F)).L (K (F := F)).lev (EP (F := F)) (hwaitsV V) d none
        (by intro u hu; cases hu) (fun x => .ret x) _).trans
      ((K (F := F)).wp_liftProg (D (F := F)) 𝒱 (SparseCore.T d) Set.univ none (Prog.lift (.customCall (Pipeline.entry (0 : Fin 1)) ())) _))

/-! ## @main with its values -/

/-- The gathered adjacency array: it agrees, on each tile's range, with contents satisfying that tile's fact. -/
abbrev Gathered (d : Dev nD) (g : Buf (Elt F) (aLoc d)) : Prop :=
  ∀ (c : Fin 2) (s : Fin 16), ∃ f, TF d c.val s.val f ∧ ∀ i ∈ tset c.val s.val, g i = f i

/-- What @main leaves the claim: the TensorCore's unscoped buffers held at a valuation that is the launch memory on the
    arguments and, on the result, contents G the region's data admits when entered after a gathered adjacency array g. -/
def FINV (d : Dev nD) : sProp 𝕄 :=
  iprop(∃ (V : Valuation τ sig (Elt F)) (g : Buf (Elt F) (aLoc d)) (G : Buf (Elt F) ((SparseCore.T d : Thread nD τ).loc main_v11)),
    ⌜(∀ k : Fin 12, V (argRef k) = m (d, argRef k)) ∧ Gathered TF d g ∧ RegFact d (V2 m d g) G ∧ V (rT main_v11) = G⌝
    ∗ held (SparseCore.T d) (Pipeline.ucRefs τ sig) V)

theorem fin_of_regionV (d : Dev nD) (g : Buf (Elt F) (aLoc d)) (hg : Gathered TF d g) (u : PUnit) :
    regionΦV (F := F) d (V2 m d g) (held (SparseCore.T d) (Pipeline.ucRefs τ sig \ T13) (V2 m d g)) u
      ⊢ wp frame (wpE ((K (F := F)).defs (D (F := F))) 𝒱 (SparseCore.T d) none) Set.univ (Pure.pure PUnit.unit)
          fun _ => iprop((K (F := F)).tcSt EH d 1 ∗ FINV m TF d) := by
  unfold regionΦV FINV
  iintro ⟨Hrest, -, ⟨%G, %hG, H13⟩, Hst⟩
  rw [wp_pure]; imodintro
  isplitl [Hst]; · iexact Hst
  iexists (Function.update (V2 m d g) (rT main_v11) G), g, G
  isplitr
  · ipureintro
    refine ⟨fun k => ?_, hg, hG, Function.update_self _ _ _⟩
    rw [Function.update_of_ne (by revert k; decide)]
    exact V2_arg m d g k
  · rw [held_sub_split (SparseCore.T d) hT13 (Function.update (V2 m d g) (rT main_v11) G)]
    isplitl [H13]; · iexact H13
    rw [held_congr (SparseCore.T d) (V := Function.update (V2 m d g) (rT main_v11) G) (V' := V2 m d g) fun b hb =>
      Function.update_of_ne (fun e => (Finset.mem_sdiff.mp hb).2 (by rw [e]; decide)) _ _]
    iexact Hrest

set_option maxHeartbeats 4000000 in
theorem hmainV [∀ e, Nonempty (Elt F e)] (κ : GSem nD τ sig → ℕ) (d : Dev nD) :
    iprop((K (F := F)).ctx EH (PV m TF) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m TF d) := by
  unfold SparseCore.Cfg.tcRes
  rw [show unscopedBufs d (fun b => m ((SparseCore.T d).loc b)) = held (SparseCore.T d) (Pipeline.ucRefs τ sig) (StableHlo.launchContents m d)
    from Pipeline.unscopedBufs_held d (StableHlo.launchContents m d), main_eq]
  iintro ⟨#Hctx, Hst, ⟨Hb, Hheld, -, -⟩, HG⟩
  iapply (wp_seq 𝒱 none Set.univ d (Pipeline.ucRefs τ sig) _ ops0 hS0 hf0 (StableHlo.launchContents m d)) $$ [Hb Hheld]
  · isplitl [Hb]; · iexact Hb
    iexact Hheld
  iintro ⟨Hb, Hheld⟩
  ihave Hh := (Entails.of_eq (held_sub_split (SparseCore.T d) hea _)) $$ Hheld
  icases Hh with ⟨Hea, Hrest⟩
  ihave Hea := (Entails.of_eq (held_ea (F := F) d _)) $$ Hea
  icases Hea with ⟨He, Ha⟩
  rw [after0_e, after0_a]
  ihave He := (Transfers.pointsTo_toks_split fullShare 2) $$ He
  icases He with ⟨Hdrop, Htoks⟩
  ihave Ha := (Entails.of_eq (aPts_tiles (F := F) d _)) $$ Ha
  rw [wp_bind]
  iapply ((K (F := F)).wp_run (D (F := F)) 𝒱 (EH := EH) (P := PV m TF) κ d 0) $$ [Hst Htoks Ha Hdrop Hrest Hb HG]
  isplitr; · iexact Hctx
  isplitl [Hst]; · iexact Hst
  isplitl [Htoks Ha]
  · rw [st0V_eq]
    isplitl [Htoks]; · iexact Htoks
    iexact Ha
  iintro ⟨Hst, Hdn⟩
  ihave Hdn := (Entails.of_eq (dn0V_eq m TF d)) $$ Hdn
  icases Hdn with ⟨Htoks, Ha⟩
  ihave He := (Transfers.pointsTo_toks_join fullShare 2) $$ [Hdrop Htoks]
  · isplitl [Hdrop]; · iexact Hdrop
    iexact Htoks
  ihave Ha := (aTiles_joinV (F := F) TF d) $$ Ha
  icases Ha with ⟨%g, %hg, Ha⟩
  ihave Hheld := (Entails.of_eq (held_V1 m d g).symm) $$ [He Ha Hrest]
  · isplitl [He Ha]
    · isplitl [He]; · iexact He
      iexact Ha
    · iexact Hrest
  iapply (wp_seq 𝒱 none Set.univ d (Pipeline.ucRefs τ sig) _ ops1 hS1 hf1 (V1 m d g)) $$ [Hb Hheld]
  · isplitl [Hb]; · iexact Hb
    iexact Hheld
  iintro ⟨Hb, Hheld⟩
  ihave Hheld := (Entails.of_eq (show (held (SparseCore.T d) (Pipeline.ucRefs τ sig) (after (ops1 (F := F)) (V1 m d g)) : sProp 𝕄)
    = held (SparseCore.T d) (Pipeline.ucRefs τ sig) (V2 m d g) from rfl)) $$ Hheld
  ihave Hh := (Entails.of_eq (held_sub_split (SparseCore.T d) hT13 (V2 m d g))) $$ Hheld
  icases Hh with ⟨H13, Hrest⟩
  ihave Hlv := (SparseCore.Cfg.ctx_levAts (K := K (F := F)) (EH := EH) (P := PV m TF) κ) $$ Hctx
  rw [wp_bind]
  iapply ((region_stepV (F := F) d (V2 m d g) (held (SparseCore.T d) (Pipeline.ucRefs τ sig \ T13) (V2 m d g))).trans
    (wp_mono frame _ _ (fin_of_regionV m TF d g hg))) $$ [Hrest Hlv Hb H13 Hst HG]
  isplitl [Hrest]; · iexact Hrest
  isplitl [Hlv]; · iexact Hlv
  isplitl [Hb]; · iexact Hb
  isplitl [H13]; · iexact H13
  isplitl [Hst]; · iexact Hst
  iexact HG

/-! ## The run with its values -/

def fqV (d : Dev nD) (s' : Phys nD τ sig (Elt F)) : Prop :=
  ∃ (g : Buf (Elt F) (aLoc d)) (G : Buf (Elt F) ((SparseCore.T d : Thread nD τ).loc main_v11)),
    Gathered TF d g ∧ RegFact d (V2 m d g) G ∧ s'.mem.mem (d, rT main_v11) = G ∧ ∀ k : Fin 12, s'.mem.mem (d, argRef k) = m (d, argRef k)

theorem hfinV (d : Dev nD) (s' : Phys nD τ sig (Elt F)) : iprop(FINV m TF d ∗ SI s') ⊢ (⌜fqV m TF d s'⌝ : sProp 𝕄) := by
  unfold FINV held
  iintro ⟨⟨%V, %g, %G, %hV, H⟩, HSI⟩
  ihave %h := (SI_pointsTo_bufs_agree (qs := fun _ => fullShare) (Pipeline.ucRefs τ sig)) $$ [HSI H]
  · isplitl [HSI]; · iexact HSI
    iexact H
  ipureintro
  refine ⟨g, G, hV.2.1, hV.2.2.1, ?_, fun k => ?_⟩
  · rw [h (rT main_v11) (by decide), hV.2.2.2]
  · rw [h (argRef k) (by revert k; decide), hV.1 k]

def QCV : PUnit × MemSt nD τ sig (Elt F) → Prop := fun r => ∀ c : Dev nD,
  ∃ (g : Buf (Elt F) (aLoc c)) (G : Buf (Elt F) ((SparseCore.T c : Thread nD τ).loc main_v11)),
    Gathered TF c g ∧ RegFact c (V2 m c g) G ∧ r.2.mem (c, rT main_v11) = G ∧ ∀ k : Fin 12, r.2.mem (c, argRef k) = m (c, argRef k)

theorem run_mainV [∀ e, Nonempty (Elt F e)] (htile : TileValue m TF) :
    θ_run (Cert.KernelIdeal.defs (F := F)) (Cert.KernelIdeal.threads (F := F)) ⟨m, fun _ => 0, ρ⟩ (QCV m TF) :=
  SparseCore.Cfg.θ_run_sc (K := K (F := F)) (D := D (F := F)) (𝒱 := 𝒱) (EH := EH) (P := PV m TF) facts v₀
    (fun q hq => match q with | 0 => nomatch hq)
    (fun q _ => match q with | 0 => tileOblV m TF htile)
    (fun q _ => match q with | 0 => SparseCore.Cfg.VecSplit.of_plain (vecSplitV m TF))
    m ρ main (G (F := F)) (FINV m TF) (u₀ (F := F)) (sep_elim_left.trans (hu₀V m TF)) (hmainV m ρ TF) (fqV m TF) (hfinV m TF) (QCV m TF) (fun _ h => h)

end Cert.Proof.KI

end
-- ==== Proof.ValueJoinA.lean ====
/-
  The value join, first part: what a tile leaves in its range, and what the thirty-two ranges then hold together — the
  flat adjacency count matrix, word 512 n + s at the number of edges s → n.
-/
import proofs.«208141_g20598663152203_cont_8to1_341_30_alg».proof.Proof.IdealMainV
import proofs.«208141_g20598663152203_cont_8to1_341_30_alg».proof.Proof.Spec

noncomputable section

namespace Cert.Proof

open Cert.KernelIdeal Idealize.ShloMosaic Idealize.ShloMosaic.ValueIdx

/-- Tile (c, s)'s range of the flat result holds the adjacency counts of its sixteen rows 16 (16 c + s) + r. -/
def TileFact (m : (ℓ : Loc nD τ sig) → Buf (Elt Ideal) ℓ) : (d : Dev nD) → ℕ → ℕ → Buf (Elt Ideal) (KI.aLoc d) → Prop :=
  fun d c s f => ∀ (r : Fin 16) (s' : Fin 512) (hc : c < 2) (hs : s < 16),
    f (ix1 ⟨131072 * c + 8192 * s + 512 * r.val + s'.val, by omega⟩)
      = Cert.Spec.adj (Cert.Spec.edges (m (KI.eLoc d))) ⟨16 * (16 * c + s) + r.val, by omega⟩ s'

/-- The gathered array is the flat count matrix: row n is row n % 16 of tile (n / 256, n % 256 / 16). -/
theorem adj_of_gathered (m : (ℓ : Loc nD τ sig) → Buf (Elt Ideal) ℓ) (d : Dev nD) (g : Buf (Elt Ideal) (KI.aLoc d))
    (hg : KI.Gathered (TileFact m) d g) (n s' : Fin 512) :
    g (ix1 ⟨512 * n.val + s'.val, by omega⟩) = Cert.Spec.adj (Cert.Spec.edges (m (KI.eLoc d))) n s' := by
  have hn := n.isLt; have hs' := s'.isLt
  obtain ⟨f, hf, hag⟩ := hg ⟨n.val / 256, by omega⟩ ⟨n.val % 256 / 16, by omega⟩
  have h1 := hf ⟨n.val % 16, by omega⟩ s' (by show n.val / 256 < 2; omega) (by show n.val % 256 / 16 < 16; omega)
  have hmem : (ix1 ⟨512 * n.val + s'.val, by omega⟩ : S262144.Idx) ∈ KI.tset (n.val / 256) (n.val % 256 / 16) := by
    simp only [KI.tset, Finset.mem_filter, Finset.mem_univ, true_and]
    show 131072 * (n.val / 256) + 8192 * (n.val % 256 / 16) ≤ 512 * n.val + s'.val ∧ 512 * n.val + s'.val < 131072 * (n.val / 256) + 8192 * (n.val % 256 / 16) + 8192
    omega
  rw [hag _ hmem]
  have e1 : (⟨131072 * (n.val / 256) + 8192 * (n.val % 256 / 16) + 512 * (n.val % 16) + s'.val, by omega⟩ : Fin 262144) = ⟨512 * n.val + s'.val, by omega⟩ :=
    Fin.ext (by show 131072 * (n.val / 256) + 8192 * (n.val % 256 / 16) + 512 * (n.val % 16) + s'.val = 512 * n.val + s'.val; omega)
  have e2 : (⟨16 * (16 * (n.val / 256) + n.val % 256 / 16) + n.val % 16, by omega⟩ : Fin 512) = n :=
    Fin.ext (by show 16 * (16 * (n.val / 256) + n.val % 256 / 16) + n.val % 16 = n.val; omega)
  rw [← e1, h1, e2]

end Cert.Proof

end
-- ==== Proof.ValueJoinB.lean ====
/-
  The value join, second part: what the region's operands hold when it is entered, read at coordinates. The host
  operations only re-lay arrays: the count matrix is the gathered flat array at 512 n + s, the features' array is the
  argument with the channel axis first (the cast to bf16 is the identity over the extended reals), a scalar is its 1 × 1
  array, a bias its 1 × 16 row; four weights are arguments, untouched.
-/
import proofs.«208141_g20598663152203_cont_8to1_341_30_alg».proof.Proof.ValueJoinA
import Idealize.ShloMosaic.Lib.Pipeline.Value
import Idealize.ShloMosaic.Lib.ValueIdx

noncomputable section

namespace Cert.Proof.KI

open Cert.KernelIdeal Cert.KernelIdeal.Gen Idealize.ShloMosaic Idealize.ShloMosaic.ValueIdx
open Idealize.ShloMosaic.StableHlo (held after seq)

variable (m : (ℓ : Loc nD τ sig) → Buf (Elt Ideal) ℓ) (d : Dev nD) (g : Buf (Elt Ideal) (aLoc d))

/-- An array no operation before the adjacency call writes holds its launch contents after it. -/
theorem V1_arg (k : Fin 12) : V1 m d g (argRef k) = m (d, argRef k) := by
  fin_cases k <;>
    (show V1 m d g (rT _) = _
     unfold V1; rw [Function.update_of_ne (by decide)]
     unfold ops0; after_results)

theorem V2_v4 (n s : Fin 512) : V2 m d g (rT main_v4) (ix2 n s) = g (ix1 ⟨512 * n.val + s.val, by have := n.isLt; have := s.isLt; omega⟩) := by
  have e : V2 m d g (rT main_v4) = fun i => shapeCast S512x512 (V1 m d g (rT main_v3)) shapeCasts_S262144_S512x512 i := by
    show after (ops1 (F := Ideal)) (V1 m d g) (rT main_v4) = _
    unfold ops1; after_results; rfl
  rw [e, V1_a]
  exact shapeCast_apply g shapeCasts_S262144_S512x512 (ix2 n s) (ix1 _) (by
    show (S262144.rowMajor (ix1 _)).val = (S512x512.rowMajor (ix2 n s)).val
    rw [Shape.rowMajor_val_one, Shape.rowMajor_val_two]
    show 512 * n.val + s.val = n.val * 512 + s.val
    omega)

theorem V2_v2 (dch : Fin 8) (s mch : Fin 512) : V2 m d g (rT main_v2) (ix3 dch s mch) = m (d, rT main_arg0) (ix4 (0 : Fin 1) s mch dch) := by
  have e : V2 m d g (rT main_v2) = transpose S8x512x512 [2, 0, 1]
      (truncf (F := Ideal) FTy.bf16 (fun i => shapeCast S512x512x8 (StableHlo.launchContents m d (rT main_arg0)) shapeCasts_S1x512x512x8_S512x512x8 i) bitsLt_bf16_f32)
      transposes_S512x512x8_S8x512x512_2_0_1 := by
    show after (ops1 (F := Ideal)) (V1 m d g) (rT main_v2) = _
    unfold ops1; after_results
    unfold V1; rw [Function.update_of_ne (by decide)]
    unfold ops0; after_results; rfl
  rw [e, transpose_apply [2, 0, 1] _ transposes_S512x512x8_S8x512x512_2_0_1 (ix3 dch s mch) (ix3 s mch dch)
    (by intro b; fin_cases b <;> rfl), truncf_apply]
  exact shapeCast_apply _ shapeCasts_S1x512x512x8_S512x512x8 (ix3 s mch dch) (ix4 (0 : Fin 1) s mch dch) (by
    rw [Shape.rowMajor_val_four, Shape.rowMajor_val_three]
    show ((0 * 512 + s.val) * 512 + mch.val) * 8 + dch.val = (s.val * 512 + mch.val) * 8 + dch.val
    omega)

theorem V2_v5 : V2 m d g (rT main_v5) (ix2 (0 : Fin 1) (0 : Fin 1)) = m (d, rT main_arg6) ix0 := by
  have e : V2 m d g (rT main_v5) = fun i => shapeCast S1x1 (V1 m d g (rT main_arg6)) shapeCasts_S_S1x1 i := by
    show after (ops1 (F := Ideal)) (V1 m d g) (rT main_v5) = _
    unfold ops1; after_results; rfl
  rw [e, show V1 m d g (rT main_arg6) = m (d, rT main_arg6) from V1_arg m d g 6]
  exact shapeCast_apply _ shapeCasts_S_S1x1 (ix2 (0 : Fin 1) (0 : Fin 1)) ix0 (by
    rw [Shape.rowMajor_val_two]
    show _ = 0 * 1 + 0
    exact Nat.lt_one_iff.mp (show _ < 1 from Fin.isLt _))

theorem V2_v6 : V2 m d g (rT main_v6) (ix2 (0 : Fin 1) (0 : Fin 1)) = m (d, rT main_arg11) ix0 := by
  have e : V2 m d g (rT main_v6) = fun i => shapeCast S1x1 (V1 m d g (rT main_arg11)) shapeCasts_S_S1x1 i := by
    show after (ops1 (F := Ideal)) (V1 m d g) (rT main_v6) = _
    unfold ops1; after_results; rfl
  rw [e, show V1 m d g (rT main_arg11) = m (d, rT main_arg11) from V1_arg m d g 11]
  exact shapeCast_apply _ shapeCasts_S_S1x1 (ix2 (0 : Fin 1) (0 : Fin 1)) ix0 (by
    rw [Shape.rowMajor_val_two]
    show _ = 0 * 1 + 0
    exact Nat.lt_one_iff.mp (show _ < 1 from Fin.isLt _))

theorem V2_v7 (f : Fin 16) : V2 m d g (rT main_v7) (ix2 (0 : Fin 1) f) = m (d, rT main_arg3) (ix1 f) := by
  have e : V2 m d g (rT main_v7) = fun i => shapeCast S1x16 (V1 m d g (rT main_arg3)) shapeCasts_S16_S1x16 i := by
    show after (ops1 (F := Ideal)) (V1 m d g) (rT main_v7) = _
    unfold ops1; after_results; rfl
  rw [e, show V1 m d g (rT main_arg3) = m (d, rT main_arg3) from V1_arg m d g 3]
  exact shapeCast_apply _ shapeCasts_S16_S1x16 (ix2 (0 : Fin 1) f) (ix1 f) (by
    rw [Shape.rowMajor_val_one, Shape.rowMajor_val_two]
    show f.val = 0 * 16 + f.val
    omega)

theorem V2_v8 (f : Fin 16) : V2 m d g (rT main_v8) (ix2 (0 : Fin 1) f) = m (d, rT main_arg5) (ix1 f) := by
  have e : V2 m d g (rT main_v8) = fun i => shapeCast S1x16 (V1 m d g (rT main_arg5)) shapeCasts_S16_S1x16 i := by
    show after (ops1 (F := Ideal)) (V1 m d g) (rT main_v8) = _
    unfold ops1; after_results; rfl
  rw [e, show V1 m d g (rT main_arg5) = m (d, rT main_arg5) from V1_arg m d g 5]
  exact shapeCast_apply _ shapeCasts_S16_S1x16 (ix2 (0 : Fin 1) f) (ix1 f) (by
    rw [Shape.rowMajor_val_one, Shape.rowMajor_val_two]
    show f.val = 0 * 16 + f.val
    omega)

theorem V2_v9 (f : Fin 16) : V2 m d g (rT main_v9) (ix2 (0 : Fin 1) f) = m (d, rT main_arg8) (ix1 f) := by
  have e : V2 m d g (rT main_v9) = fun i => shapeCast S1x16 (V1 m d g (rT main_arg8)) shapeCasts_S16_S1x16 i := by
    show after (ops1 (F := Ideal)) (V1 m d g) (rT main_v9) = _
    unfold ops1; after_results; rfl
  rw [e, show V1 m d g (rT main_arg8) = m (d, rT main_arg8) from V1_arg m d g 8]
  exact shapeCast_apply _ shapeCasts_S16_S1x16 (ix2 (0 : Fin 1) f) (ix1 f) (by
    rw [Shape.rowMajor_val_one, Shape.rowMajor_val_two]
    show f.val = 0 * 16 + f.val
    omega)

theorem V2_v10 (f : Fin 16) : V2 m d g (rT main_v10) (ix2 (0 : Fin 1) f) = m (d, rT main_arg10) (ix1 f) := by
  have e : V2 m d g (rT main_v10) = fun i => shapeCast S1x16 (V1 m d g (rT main_arg10)) shapeCasts_S16_S1x16 i := by
    show after (ops1 (F := Ideal)) (V1 m d g) (rT main_v10) = _
    unfold ops1; after_results; rfl
  rw [e, show V1 m d g (rT main_arg10) = m (d, rT main_arg10) from V1_arg m d g 10]
  exact shapeCast_apply _ shapeCasts_S16_S1x16 (ix2 (0 : Fin 1) f) (ix1 f) (by
    rw [Shape.rowMajor_val_one, Shape.rowMajor_val_two]
    show f.val = 0 * 16 + f.val
    omega)

end Cert.Proof.KI

end
-- ==== Proof.SpecKernel.lean ====
/-
  The same mathematics in the arrangement a blocked kernel computes it in.

  The last layer.  The reference forms, for every channel m, the product row ∑ f, t m f * w f + b and sums
  over the 512 channels.  A kernel that walks the channels in two blocks of 256 first sums t over a block
  for each f, multiplies the row sums by w, and adds 512 * b once.  The two agree because t ≥ 0 (it is a
  maximum with 0): nonnegative sums may be multiplied through on the extended reals, for ANY w and b, so no
  finiteness is needed.

  The aggregation.  The kernel adds the two terms of an aggregation in the other order.
-/
import proofs.«208141_g20598663152203_cont_8to1_341_30_alg».proof.Proof.Spec
import proofs.«208141_g20598663152203_cont_8to1_341_30_alg».proof.Proof.SpecLaws

noncomputable section

open scoped BigOperators

namespace Cert.Spec

/-- The f32 word 0x44000000 is 512. -/
theorem ofBits_512_f32 : Idealize.ShloMosaic.Ideal.ofBits .f32 0x44000000#32 = 512 := by
  simp [Idealize.ShloMosaic.Ideal.ofBits, Idealize.ShloMosaic.Ideal.ieee, -EReal.coe_mul]; norm_num
  rfl

/-- A sum over 512 channels is the sum over two blocks of 256. -/
theorem sum_two_blocks {M : Type} [AddCommMonoid M] (g : Fin 512 → M) :
    ∑ i : Fin 2, ∑ mm : Fin 256, g ⟨256 * i.val + mm.val, by omega⟩ = ∑ m : Fin 512, g m := by
  rw [Fin.sum_univ_two]
  have h := Fin.sum_univ_add (a := 256) (b := 256) (fun m : Fin (256 + 256) => g ⟨m.val, by omega⟩)
  have e0 : ∀ mm : Fin 256, (⟨256 * ((0 : Fin 2) : Fin 2).val + mm.val, by omega⟩ : Fin 512)
      = ⟨(Fin.castAdd 256 mm).val, by have := mm.isLt; simp only [Fin.val_castAdd]; omega⟩ :=
    fun mm => Fin.ext (by simp)
  have e1 : ∀ mm : Fin 256, (⟨256 * ((1 : Fin 2) : Fin 2).val + mm.val, by omega⟩ : Fin 512)
      = ⟨(Fin.natAdd 256 mm).val, by have := mm.isLt; simp only [Fin.val_natAdd]; omega⟩ :=
    fun mm => Fin.ext (by simp only [Fin.val_natAdd, Fin.val_one] <;> omega)
  simp only [e0, e1]
  exact h.symm

/-- A constant summed over the 512 channels is 512 times it. -/
theorem sum_const_512 (b : EReal) : ∑ _m : Fin 512, b = (512 : EReal) * b := by
  rw [Finset.sum_const, Finset.card_univ, Fintype.card_fin, nsmul_eq_natCast_mul]
  norm_num

/-- THE LAST LAYER, blocked: for t ≥ 0, any weights w and bias b. -/
theorem last_layer_blocked (t : Fin 512 → Fin 16 → EReal) (ht : ∀ m f, 0 ≤ t m f) (w : Fin 16 → EReal) (b : EReal) :
    (512 : EReal) * b + ∑ i : Fin 2, ∑ f : Fin 16, (∑ mm : Fin 256, t ⟨256 * i.val + mm.val, by omega⟩ f) * w f
      = ∑ m : Fin 512, (∑ f : Fin 16, t m f * w f + b) := by
  have hL : ∑ i : Fin 2, ∑ f : Fin 16, (∑ mm : Fin 256, t ⟨256 * i.val + mm.val, by omega⟩ f) * w f
      = ∑ m : Fin 512, ∑ f : Fin 16, t m f * w f := by
    rw [← sum_two_blocks (fun m => ∑ f : Fin 16, t m f * w f)]
    refine Finset.sum_congr rfl fun i _ => ?_
    rw [Finset.sum_comm]
    refine Finset.sum_congr rfl fun f _ => ?_
    exact sum_mul_of_nonneg _ _ _ (fun mm _ => ht _ _)
  rw [hL, Finset.sum_add_distrib, sum_const_512, add_comm]

/-- The same with the two blocks written out, added one after the other onto 512 * b. -/
theorem last_layer_two_steps (t : Fin 512 → Fin 16 → EReal) (ht : ∀ m f, 0 ≤ t m f) (w : Fin 16 → EReal) (b : EReal) :
    ((512 : EReal) * b + ∑ f : Fin 16, (∑ mm : Fin 256, t ⟨mm.val, by omega⟩ f) * w f)
        + ∑ f : Fin 16, (∑ mm : Fin 256, t ⟨256 + mm.val, by omega⟩ f) * w f
      = ∑ m : Fin 512, (∑ f : Fin 16, t m f * w f + b) := by
  rw [← last_layer_blocked t ht w b, Fin.sum_univ_two, add_assoc]
  refine congrArg ((512 : EReal) * b + ·) (congrArg₂ (· + ·) ?_ ?_)
  · exact Finset.sum_congr rfl fun f _ => congrArg (· * w f)
      (Finset.sum_congr rfl fun mm _ => congrArg (fun m => t m f) (Fin.ext (by simp)))
  · exact Finset.sum_congr rfl fun f _ => congrArg (· * w f)
      (Finset.sum_congr rfl fun mm _ => congrArg (fun m => t m f) (Fin.ext (by simp)))

/-- The last layer of the specification in blocked form: `gin` from the row sums of `t2`. -/
theorem gin_blocked (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (w1b : Fin 16 → Fin 16 → EReal) (b1b : Fin 16 → EReal) (w2b : Fin 16 → Fin 16 → EReal)
    (b2b : Fin 16 → EReal) (eps2 : EReal) (n : Fin 512) (o : Fin 16) :
    (512 : EReal) * b2b o + ∑ i : Fin 2, ∑ f : Fin 16,
        (∑ mm : Fin 256, t2 W e w1a b1a w2a b2a eps1 w1b b1b eps2 n ⟨256 * i.val + mm.val, by omega⟩ f) * w2b f o
      = gin W e w1a b1a w2a b2a eps1 w1b b1b w2b b2b eps2 n o :=
  last_layer_blocked (fun m f => t2 W e w1a b1a w2a b2a eps1 w1b b1b eps2 n m f)
    (fun _ _ => le_max_right _ _) (fun f => w2b f o) (b2b o)

/-- Every rectified value is ≥ 0. -/
theorem t1_nonneg (W : Fin 512 → Fin 512 → Fin 8 → EReal) (e : Fin 2 → Fin 8192 → BitVec 32)
    (w1a : Fin 8 → Fin 16 → EReal) (b1a : Fin 16 → EReal) (eps1 : EReal) (n m : Fin 512) (f : Fin 16) :
    0 ≤ t1 W e w1a b1a eps1 n m f := le_max_right _ _
theorem x1_nonneg (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (n m : Fin 512) (g : Fin 16) : 0 ≤ x1 W e w1a b1a w2a b2a eps1 n m g := le_max_right _ _
theorem t2_nonneg (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 : EReal) (w1b : Fin 16 → Fin 16 → EReal) (b1b : Fin 16 → EReal) (eps2 : EReal) (n m : Fin 512) (f : Fin 16) :
    0 ≤ t2 W e w1a b1a w2a b2a eps1 w1b b1b eps2 n m f := le_max_right _ _

/-- The aggregation with its two terms in the kernel's order: the product with the count matrix first. -/
theorem aggr_comm (e : Fin 2 → Fin 8192 → BitVec 32) (eps : EReal) (x : Fin 512 → EReal) (n : Fin 512) :
    (∑ s : Fin 512, adj e n s * x s) + (1 + eps) * x n = aggr e eps x n := add_comm _ _
theorem h1_comm (W : Fin 512 → Fin 512 → Fin 8 → EReal) (e : Fin 2 → Fin 8192 → BitVec 32) (eps1 : EReal)
    (n m : Fin 512) (d : Fin 8) :
    (∑ s : Fin 512, adj e n s * W s m d) + (1 + eps1) * W n m d = h1 W e eps1 n m d := add_comm _ _
theorem h2_comm (W : Fin 512 → Fin 512 → Fin 8 → EReal) (e : Fin 2 → Fin 8192 → BitVec 32)
    (w1a : Fin 8 → Fin 16 → EReal) (b1a : Fin 16 → EReal) (w2a : Fin 16 → Fin 16 → EReal) (b2a : Fin 16 → EReal)
    (eps1 eps2 : EReal) (n m : Fin 512) (g : Fin 16) :
    (∑ s : Fin 512, adj e n s * x1 W e w1a b1a w2a b2a eps1 s m g) + (1 + eps2) * x1 W e w1a b1a w2a b2a eps1 n m g
      = h2 W e w1a b1a w2a b2a eps1 eps2 n m g := add_comm _ _

/-- The rectifier in either argument order. -/
theorem max_zero_comm (x : EReal) : max 0 x = max x 0 := max_comm _ _

end Cert.Spec

end
-- ==== Proof.SpecA.lean ====
/-
  The network over an ABSTRACT count matrix A in place of the adjacency counts of an edge list: the same
  layers, so that a program that is handed the matrix as an array can be read against them; at A = adj e
  they are the specification's own, by definition.
-/
import proofs.«208141_g20598663152203_cont_8to1_341_30_alg».proof.Proof.Spec
import proofs.«208141_g20598663152203_cont_8to1_341_30_alg».proof.Proof.SpecKernel

noncomputable section

open scoped BigOperators

namespace Cert.Spec

/-- One aggregation of a node-indexed vector by a count matrix. -/
def aggrA (A : Fin 512 → Fin 512 → EReal) (eps : EReal) (x : Fin 512 → EReal) (n : Fin 512) : EReal :=
  (1 + eps) * x n + ∑ s : Fin 512, A n s * x s

def h1A (A : Fin 512 → Fin 512 → EReal) (W : Fin 512 → Fin 512 → Fin 8 → EReal) (eps1 : EReal) (n m : Fin 512) (d : Fin 8) : EReal :=
  (1 + eps1) * W n m d + ∑ s : Fin 512, A n s * W s m d

def t1A (A : Fin 512 → Fin 512 → EReal) (W : Fin 512 → Fin 512 → Fin 8 → EReal) (w1a : Fin 8 → Fin 16 → EReal) (b1a : Fin 16 → EReal) (eps1 : EReal) (n m : Fin 512) (f : Fin 16) : EReal :=
  max (∑ d : Fin 8, h1A A W eps1 n m d * w1a d f + b1a f) 0

def x1A (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (n m : Fin 512) (g : Fin 16) : EReal :=
  max (∑ f : Fin 16, t1A A W w1a b1a eps1 n m f * w2a f g + b2a g) 0

def h2A (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 eps2 : EReal) (n m : Fin 512) (g : Fin 16) : EReal :=
  (1 + eps2) * x1A A W w1a b1a w2a b2a eps1 n m g + ∑ s : Fin 512, A n s * x1A A W w1a b1a w2a b2a eps1 s m g

def t2A (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (eps2 : EReal) (n m : Fin 512) (f : Fin 16) : EReal :=
  max (∑ g : Fin 16, h2A A W w1a b1a w2a b2a eps1 eps2 n m g * w1b g f + b1b f) 0

def ginA (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (w2b : Fin 16 → Fin 16 → EReal) (b2b : Fin 16 → EReal) (eps2 : EReal) (n : Fin 512) (o : Fin 16) : EReal :=
  ∑ m : Fin 512, (∑ f : Fin 16, t2A A W w1a b1a w2a b2a eps1 w1b b1b eps2 n m f * w2b f o + b2b o)

/-! At the adjacency counts of an edge list these are the specification's layers. -/

theorem aggrA_adj (e : Fin 2 → Fin 8192 → BitVec 32) (eps : EReal) (x : Fin 512 → EReal) : aggrA (adj e) eps x = aggr e eps x := rfl
theorem h1A_adj (e : Fin 2 → Fin 8192 → BitVec 32) (W : Fin 512 → Fin 512 → Fin 8 → EReal) (eps1 : EReal) : h1A (adj e) W eps1 = h1 W e eps1 := rfl
theorem t1A_adj (e : Fin 2 → Fin 8192 → BitVec 32) (W : Fin 512 → Fin 512 → Fin 8 → EReal) (w1a : Fin 8 → Fin 16 → EReal) (b1a : Fin 16 → EReal) (eps1 : EReal) : t1A (adj e) W w1a b1a eps1 = t1 W e w1a b1a eps1 := rfl
theorem x1A_adj (e : Fin 2 → Fin 8192 → BitVec 32) (W : Fin 512 → Fin 512 → Fin 8 → EReal) (w1a : Fin 8 → Fin 16 → EReal) (b1a : Fin 16 → EReal) (w2a : Fin 16 → Fin 16 → EReal) (b2a : Fin 16 → EReal) (eps1 : EReal) :
    x1A (adj e) W w1a b1a w2a b2a eps1 = x1 W e w1a b1a w2a b2a eps1 := rfl
theorem h2A_adj (e : Fin 2 → Fin 8192 → BitVec 32) (W : Fin 512 → Fin 512 → Fin 8 → EReal) (w1a : Fin 8 → Fin 16 → EReal) (b1a : Fin 16 → EReal) (w2a : Fin 16 → Fin 16 → EReal) (b2a : Fin 16 → EReal) (eps1 eps2 : EReal) :
    h2A (adj e) W w1a b1a w2a b2a eps1 eps2 = h2 W e w1a b1a w2a b2a eps1 eps2 := rfl
theorem t2A_adj (e : Fin 2 → Fin 8192 → BitVec 32) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (eps2 : EReal) :
    t2A (adj e) W w1a b1a w2a b2a eps1 w1b b1b eps2 = t2 W e w1a b1a w2a b2a eps1 w1b b1b eps2 := rfl
theorem ginA_adj (e : Fin 2 → Fin 8192 → BitVec 32) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (w2b : Fin 16 → Fin 16 → EReal) (b2b : Fin 16 → EReal) (eps2 : EReal) :
    ginA (adj e) W w1a b1a w2a b2a eps1 w1b b1b w2b b2b eps2 = gin W e w1a b1a w2a b2a eps1 w1b b1b w2b b2b eps2 := rfl

theorem t1A_nonneg (A : Fin 512 → Fin 512 → EReal) (W : Fin 512 → Fin 512 → Fin 8 → EReal) (w1a : Fin 8 → Fin 16 → EReal) (b1a : Fin 16 → EReal) (eps1 : EReal) (n m : Fin 512) (f : Fin 16) :
    0 ≤ t1A A W w1a b1a eps1 n m f := le_max_right _ _
theorem x1A_nonneg (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (n m : Fin 512) (g : Fin 16) :
    0 ≤ x1A A W w1a b1a w2a b2a eps1 n m g := le_max_right _ _
theorem t2A_nonneg (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (eps2 : EReal) (n m : Fin 512) (f : Fin 16) :
    0 ≤ t2A A W w1a b1a w2a b2a eps1 w1b b1b eps2 n m f := le_max_right _ _

/-- The last layer in blocked form, over an abstract count matrix. -/
theorem gin_blockedA (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (w2b : Fin 16 → Fin 16 → EReal) (b2b : Fin 16 → EReal) (eps2 : EReal) (n : Fin 512) (o : Fin 16) :
    (512 : EReal) * b2b o + ∑ i : Fin 2, ∑ f : Fin 16,
        (∑ mm : Fin 256, t2A A W w1a b1a w2a b2a eps1 w1b b1b eps2 n ⟨256 * i.val + mm.val, by omega⟩ f) * w2b f o
      = ginA A W w1a b1a w2a b2a eps1 w1b b1b w2b b2b eps2 n o :=
  last_layer_blocked (fun m f => t2A A W w1a b1a w2a b2a eps1 w1b b1b eps2 n m f)
    (fun _ _ => le_max_right _ _) (fun f => w2b f o) (b2b o)

/-- The same with the two blocks added one after the other. -/
theorem gin_two_stepsA (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (w2b : Fin 16 → Fin 16 → EReal) (b2b : Fin 16 → EReal) (eps2 : EReal) (n : Fin 512) (o : Fin 16) :
    ((512 : EReal) * b2b o + ∑ f : Fin 16, (∑ mm : Fin 256, t2A A W w1a b1a w2a b2a eps1 w1b b1b eps2 n ⟨mm.val, by omega⟩ f) * w2b f o)
        + ∑ f : Fin 16, (∑ mm : Fin 256, t2A A W w1a b1a w2a b2a eps1 w1b b1b eps2 n ⟨256 + mm.val, by omega⟩ f) * w2b f o
      = ginA A W w1a b1a w2a b2a eps1 w1b b1b w2b b2b eps2 n o :=
  last_layer_two_steps (fun m f => t2A A W w1a b1a w2a b2a eps1 w1b b1b eps2 n m f)
    (fun _ _ => le_max_right _ _) (fun f => w2b f o) (b2b o)

/-- The aggregation with its two terms in the other order. -/
theorem h1A_comm (A : Fin 512 → Fin 512 → EReal) (W : Fin 512 → Fin 512 → Fin 8 → EReal) (eps1 : EReal) (n m : Fin 512) (d : Fin 8) :
    (∑ s : Fin 512, A n s * W s m d) + (1 + eps1) * W n m d = h1A A W eps1 n m d := add_comm _ _
theorem h2A_comm (A : Fin 512 → Fin 512 → EReal) (W : Fin 512 → Fin 512 → Fin 8 → EReal) (w1a : Fin 8 → Fin 16 → EReal) (b1a : Fin 16 → EReal) (w2a : Fin 16 → Fin 16 → EReal) (b2a : Fin 16 → EReal) (eps1 eps2 : EReal) (n m : Fin 512) (g : Fin 16) :
    (∑ s : Fin 512, A n s * x1A A W w1a b1a w2a b2a eps1 s m g) + (1 + eps2) * x1A A W w1a b1a w2a b2a eps1 n m g
      = h2A A W w1a b1a w2a b2a eps1 eps2 n m g := add_comm _ _

end Cert.Spec

end
-- ==== Proof.ValueJoinC.lean ====
/-
  The value join, last part: the kernel's result is the specification's function of the arguments — the region's
  closed form over its operands, the operands read back to the arguments, the gathered array the count matrix — and
  so is the reference's; hence the two programs end with equal results.
-/
import proofs.«208141_g20598663152203_cont_8to1_341_30_alg».proof.Proof.ValueJoinB
import proofs.«208141_g20598663152203_cont_8to1_341_30_alg».proof.Proof.SpecA
import proofs.«208141_g20598663152203_cont_8to1_341_30_alg».proof.Proof.RefRun
import proofs.«208141_g20598663152203_cont_8to1_341_30_alg».proof.Proof.PreRange
import proofs.«208141_g20598663152203_cont_8to1_341_30_alg».proof.Proof.Gen.Pre_input_domain
import proofs.«208141_g20598663152203_cont_8to1_341_30_alg».proof.Proof.Frames

noncomputable section

namespace Cert.Proof

open Cert.KernelIdeal Cert.KernelIdeal.Gen Idealize.ShloMosaic Idealize.ShloMosaic.ValueIdx Idealize.SL.Sem
open Cert.KernelIdeal.Region (rdV Val1)

/-- The region's closed form, over its operands at the entry valuation: what `algebraic_of` asks of the region's value. -/
def RegionClosed : Prop :=
  ∀ (V : Val1 Ideal) (d : Dev nD) (G : Buf (Elt Ideal) ((SparseCore.T d : Thread nD τ).loc main_v11)),
    (rdV (Ix := SparseCore.Cfg.HIx 1) (Name := ℕ) (U := KI.UU) (Lvl := ℕ) KI.𝒱₀ V (KI.Or (F := Ideal)) (KI.Br (F := Ideal)) 0 d).ArrAt 12 cfg1.N G →
    ∀ (n : Fin 512) (o : Fin 16), G (ix2 n o)
      = Cert.Spec.ginA (fun n s => V d main_v4 (ix2 n s)) (fun s mch dch => V d main_v2 (ix3 dch s mch)) (fun dch f => V d main_arg2 (ix2 dch f))
          (fun f => V d main_v7 (ix2 (0 : Fin 1) f)) (fun f g => V d main_arg4 (ix2 f g)) (fun g => V d main_v8 (ix2 (0 : Fin 1) g)) (V d main_v5 (ix2 (0 : Fin 1) (0 : Fin 1)))
          (fun g f => V d main_arg7 (ix2 g f)) (fun f => V d main_v9 (ix2 (0 : Fin 1) f)) (fun f o => V d main_arg9 (ix2 f o)) (fun o => V d main_v10 (ix2 (0 : Fin 1) o))
          (V d main_v6 (ix2 (0 : Fin 1) (0 : Fin 1))) n o

/-- The specification over a count matrix respects equality of each of its twelve arguments. -/
theorem ginA_congr {A A' : Fin 512 → Fin 512 → EReal} {W W' : Fin 512 → Fin 512 → Fin 8 → EReal} {w1a w1a' : Fin 8 → Fin 16 → EReal}
    {b1a b1a' : Fin 16 → EReal} {w2a w2a' : Fin 16 → Fin 16 → EReal} {b2a b2a' : Fin 16 → EReal} {e1 e1' : EReal}
    {w1b w1b' : Fin 16 → Fin 16 → EReal} {b1b b1b' : Fin 16 → EReal} {w2b w2b' : Fin 16 → Fin 16 → EReal} {b2b b2b' : Fin 16 → EReal} {e2 e2' : EReal}
    (hA : A = A') (hW : W = W') (h1 : w1a = w1a') (h2 : b1a = b1a') (h3 : w2a = w2a') (h4 : b2a = b2a') (h5 : e1 = e1')
    (h6 : w1b = w1b') (h7 : b1b = b1b') (h8 : w2b = w2b') (h9 : b2b = b2b') (h10 : e2 = e2') (n : Fin 512) (o : Fin 16) :
    Cert.Spec.ginA A W w1a b1a w2a b2a e1 w1b b1b w2b b2b e2 n o = Cert.Spec.ginA A' W' w1a' b1a' w2a' b2a' e1' w1b' b1b' w2b' b2b' e2' n o := by
  subst hA hW h1 h2 h3 h4 h5 h6 h7 h8 h9 h10; rfl

/-- The kernel's result array, from the region's closed form: the specification's function of the arguments. -/
theorem result_eq (hclosed : RegionClosed) (m : (ℓ : Loc nD τ sig) → Buf (Elt Ideal) ℓ) (d : Dev nD) (g : Buf (Elt Ideal) (KI.aLoc d))
    (G : Buf (Elt Ideal) ((SparseCore.T d : Thread nD τ).loc main_v11)) (hg : KI.Gathered (TileFact m) d g) (hG : KI.RegFact d (KI.V2 m d g) G) :
    G = fun i => Cert.Spec.ginOf (m (d, KI.argRef 0)) (m (d, KI.argRef 1)) (m (d, KI.argRef 2)) (m (d, KI.argRef 3)) (m (d, KI.argRef 4)) (m (d, KI.argRef 5))
      (m (d, KI.argRef 6)) (m (d, KI.argRef 7)) (m (d, KI.argRef 8)) (m (d, KI.argRef 9)) (m (d, KI.argRef 10)) (m (d, KI.argRef 11)) (i 0) (i 1) := by
  funext i
  obtain ⟨n, o, rfl⟩ : ∃ (n : Fin 512) (o : Fin 16), i = ix2 n o := ⟨i 0, i 1, eq_ix2 i⟩
  rw [hclosed (KI.VrA (KI.V2 m d g)) d G hG n o]
  show _ = Cert.Spec.ginA (Cert.Spec.adj (Cert.Spec.edges (m (d, KI.argRef 1)))) (Cert.Spec.feat (m (d, KI.argRef 0))) (Cert.Spec.mat8x16 (m (d, KI.argRef 2)))
    (Cert.Spec.vec16 (m (d, KI.argRef 3))) (Cert.Spec.mat16x16 (m (d, KI.argRef 4))) (Cert.Spec.vec16 (m (d, KI.argRef 5))) (Cert.Spec.scal (m (d, KI.argRef 6)))
    (Cert.Spec.mat16x16 (m (d, KI.argRef 7))) (Cert.Spec.vec16 (m (d, KI.argRef 8))) (Cert.Spec.mat16x16 (m (d, KI.argRef 9))) (Cert.Spec.vec16 (m (d, KI.argRef 10)))
    (Cert.Spec.scal (m (d, KI.argRef 11))) n o
  exact ginA_congr
    (funext fun n => funext fun s => (KI.V2_v4 m d g n s).trans (adj_of_gathered m d g hg n s))
    (funext fun s => funext fun mch => funext fun dch => KI.V2_v2 m d g dch s mch)
    (funext fun dch => funext fun f => congrFun (KI.V2_arg m d g 2) (ix2 dch f))
    (funext fun f => KI.V2_v7 m d g f)
    (funext fun f => funext fun g' => congrFun (KI.V2_arg m d g 4) (ix2 f g'))
    (funext fun g' => KI.V2_v8 m d g g')
    (KI.V2_v5 m d g)
    (funext fun g' => funext fun f => congrFun (KI.V2_arg m d g 7) (ix2 g' f))
    (funext fun f => KI.V2_v9 m d g f)
    (funext fun f => funext fun o => congrFun (KI.V2_arg m d g 9) (ix2 f o))
    (funext fun o => KI.V2_v10 m d g o)
    (KI.V2_v6 m d g) n o

/-- The two idealized programs end with equal results: both at the specification's function of the arguments. -/
theorem algebraic_of (hclosed : RegionClosed)
    (htile : ∀ (m : (ℓ : Loc nD τ sig) → Buf (Elt Ideal) ℓ), KI.PreOK (F := Ideal) m → KI.TileValue (F := Ideal) m (TileFact m)) :
    Cert.algebraic_KernelIdeal_ReferenceIdeal := by
  intro m ρ m' ρ' hpre hagree
  refine ⟨fun c => fun i => Cert.Spec.ginOf (m (c, KI.argRef 0)) (m (c, KI.argRef 1)) (m (c, KI.argRef 2)) (m (c, KI.argRef 3)) (m (c, KI.argRef 4)) (m (c, KI.argRef 5))
      (m (c, KI.argRef 6)) (m (c, KI.argRef 7)) (m (c, KI.argRef 8)) (m (c, KI.argRef 9)) (m (c, KI.argRef 10)) (m (c, KI.argRef 11)) (i 0) (i 1), ?_, ?_⟩
  · refine (θ_run Cert.KernelIdeal.defs _ _).mono (fun r h c => ?_)
      (KI.run_mainV (F := Ideal) m ρ (TileFact m) (htile m (preOK_ki m hpre)))
    obtain ⟨g, G, hg, hG, hv, hargs⟩ := h c
    exact ⟨hv.trans (result_eq hclosed m c g G hg hG), hargs 0, hargs 1, hargs 2, hargs 3, hargs 4, hargs 5, hargs 6, hargs 7, hargs 8, hargs 9, hargs 10, hargs 11⟩
  · have hrng : ∀ (c : Dev Cert.ReferenceIdeal.nD) (i : Cert.ReferenceIdeal.S2x8192.Idx),
        0 ≤ (m' ((c.tc : Thread Cert.ReferenceIdeal.nD Cert.ReferenceIdeal.τ).loc Cert.ReferenceIdeal.main_arg1) i).toInt
          ∧ (m' ((c.tc : Thread Cert.ReferenceIdeal.nD Cert.ReferenceIdeal.τ).loc Cert.ReferenceIdeal.main_arg1) i).toInt ≤ 511 := by
      intro c i
      rw [(hagree c).2.1]
      exact Cert.PreRange.rng_int_of_pre _ _ _ _ _ _ _ _ _ _ _ _ (hpre c) i
    refine (θ_run Cert.ReferenceIdeal.defs _ _).mono (fun r h c => ?_) (Cert.ReferenceIdeal.RefRun.run_spec m' ρ' hrng)
    obtain ⟨hv, h0, h1, h2, h3, h4, h5, h6, h7, h8, h9, h10, h11⟩ := h c
    obtain ⟨a0, a1, a2, a3, a4, a5, a6, a7, a8, a9, a10, a11⟩ := hagree c
    refine ⟨?_, h0, h1, h2, h3, h4, h5, h6, h7, h8, h9, h10, h11⟩
    rw [hv, a0, a1, a2, a3, a4, a5, a6, a7, a8, a9, a10, a11]
    rfl

end Cert.Proof

end
-- ==== Proof.SpecCount.lean ====
/-
  The adjacency count matrix as it is accumulated by indexed stores with add.

  One tile owns 16 consecutive rows of the 512 × 512 count matrix, laid out flat in 8192 words, with one
  spare word at 8192.  It walks the 8192 edges 16 at a time; each edge adds 1 at the word
  (destination − first row) * 512 + source when its destination is one of the tile's rows, and at the spare
  word otherwise.  An indexed store with add of a vector of ones adds, at each word, the number of lanes that
  name it.  Hence after all 512 steps, word 512 * r + s holds the number of edges with destination
  (first row + r) and source s.
-/
import proofs.«208141_g20598663152203_cont_8to1_341_30_alg».proof.Proof.Spec
import proofs.«208141_g20598663152203_cont_8to1_341_30_alg».proof.Proof.SpecLaws
import proofs.«208141_g20598663152203_cont_8to1_341_30_alg».proof.Proof.Lane
import Idealize.ShloMosaic.PureOps.ShapeOps
import Idealize.ShloMosaic.PureOps.Ideal
import Idealize.ShloMosaic.Lib.ValueIdx
import Idealize.ShloMosaic.Lib.Affine

noncomputable section

open scoped BigOperators

namespace Cert.Spec

open Idealize.ShloMosaic Idealize.ShloMosaic.ValueIdx

/-- AN INDEXED STORE WITH ADD, every lane set, at the ideal values: each element gains the sum of the stored lanes
    whose index vectors name it. -/
theorem storeIdx_add_apply {s : Shape} {d : Fin 1 → Nat} (f : Vec Ideal s .f32) (idxs : Fin s.rank → IVec ⟨1, d⟩ 32)
    (v : Vec Ideal ⟨1, d⟩ .f32) (h : ∀ a x, (idxs a x).toNat < s.size a) (j : s.Idx) :
    storeIdx (F := Ideal) (e := .f32) f idxs v (fun _ => 1#1) true h j
      = f j + ∑ k : Fin (d 0),
          if (∀ a, (j a).val = (idxs a (Shape.ofLane k)).toNat) then v (Shape.ofLane k) else 0 := by
  unfold storeIdx
  rw [Fin.sum_univ_def]
  generalize List.finRange (d 0) = l
  induction l generalizing f with
  | nil => simp
  | cons k l ih =>
    rw [List.foldl_cons, ih, List.map_cons, List.sum_cons, ← add_assoc]
    refine congrArg (· + _) ?_
    dsimp only
    rw [if_pos (show (1#1 : BitVec 1) = 1 from rfl), if_pos (show true = true from rfl)]
    by_cases hj : ∀ a, (j a).val = (idxs a (Shape.ofLane k)).toNat
    · have hi : idxAt idxs h (Shape.ofLane k) = j := funext fun a => Fin.ext (hj a).symm
      rw [if_pos hj, if_pos (show ∀ a, (j a).val = (idxAt idxs h (Shape.ofLane k) a).val from hj), hi]
      rfl
    · rw [if_neg hj, if_neg (show ¬ ∀ a, (j a).val = (idxAt idxs h (Shape.ofLane k) a).val from hj), add_zero]

/-- A destination inside the tile's window passes the lane's test. -/
theorem window_of_mem (lo d : BitVec 32) (hlo : lo.toNat ≤ 496) (h1 : lo.toNat ≤ d.toNat) (h2 : d.toNat < lo.toNat + 16) :
    IntOp.andi (IntOp.cmpi .sge d lo) (IntOp.cmpi .slt d (Scalar.addi lo 16#32)) = (1 : BitVec 1) := by
  have hlo' : lo.toInt = (lo.toNat : Int) := BitVec.toInt_eq_toNat_of_lt (by omega)
  have hd' : d.toInt = (d.toNat : Int) := BitVec.toInt_eq_toNat_of_lt (by omega)
  have ha : (Scalar.addi lo 16#32).toNat = lo.toNat + 16 := by
    show (lo + 16#32).toNat = _
    rw [BitVec.toNat_add]
    simp only [BitVec.toNat_ofNat, Nat.reducePow, Nat.reduceMod]
    omega
  have ha' : (Scalar.addi lo 16#32).toInt = ((lo.toNat + 16 : Nat) : Int) := by
    rw [BitVec.toInt_eq_toNat_of_lt (by rw [ha]; omega), ha]
  refine IntOp.andi_eq_one.2 ⟨IntOp.cmpi_sge.2 ?_, IntOp.cmpi_slt.2 ?_⟩
  · rw [hlo', hd']; omega
  · rw [hd', ha']; omega

/-- Which word a lane adds at: word `512 * r + s'` of the tile exactly for an edge into row `first + r` from `s'`. -/
theorem lin_toNat_eq_iff (lo d s : BitVec 32) (hlo : lo.toNat ≤ 496) (hs : s.toNat ≤ 511)
    (r : Nat) (hr : r < 16) (s' : Nat) (hs' : s' < 512) :
    (Cert.Proof.Lane.lin lo d s).toNat = 512 * r + s' ↔ d.toNat = lo.toNat + r ∧ s.toNat = s' := by
  by_cases h : IntOp.andi (IntOp.cmpi .sge d lo) (IntOp.cmpi .slt d (Scalar.addi lo 16#32)) = (1 : BitVec 1)
  · obtain ⟨h1, h2, h3⟩ := Cert.Proof.Lane.lin_of_mem lo d s hlo hs h
    rw [h3]
    constructor
    · intro e; constructor <;> omega
    · rintro ⟨e1, e2⟩; rw [e1, e2]; omega
  · rw [Cert.Proof.Lane.lin_of_not_mem lo d s h]
    have e8 : (8192#32 : BitVec 32).toNat = 8192 := by decide
    rw [e8]
    constructor
    · intro e; omega
    · rintro ⟨e1, _⟩
      exact absurd (window_of_mem lo d hlo (by omega) (by omega)) h

/-- The edge list with the given source and destination rows. -/
def edgeRows (src dst : Fin 8192 → BitVec 32) : Fin 2 → Fin 8192 → BitVec 32 :=
  fun row k => if row = 0 then src k else dst k

/-- THE COUNT, from the recurrence: an accumulator that starts at zero on the tile's 8192 words and at step `k` gains,
    at each word, the number of the 16 edges `16 k … 16 k + 15` whose lane index is that word, ends with the count
    matrix's rows `16 w … 16 w + 15`. -/
theorem count_of_steps (lo : BitVec 32) (w : Nat) (hw : w < 32) (hlo : lo.toNat = 16 * w)
    (src dst : Fin 8192 → BitVec 32) (hsrc : ∀ k, (src k).toNat ≤ 511)
    (acc : Nat → (⟨1, ![8208]⟩ : Shape).Idx → EReal)
    (h0 : ∀ j, (j 0).val < 8192 → acc 0 j = 0)
    (hstep : ∀ (k : Nat) (hk : k < 512) (j : (⟨1, ![8208]⟩ : Shape).Idx), acc (k + 1) j = acc k j
      + ∑ x : Fin 16, if (Cert.Proof.Lane.lin lo (dst ⟨16 * k + x.val, by omega⟩) (src ⟨16 * k + x.val, by omega⟩)).toNat
          = (j 0).val then (1 : EReal) else 0)
    (r : Fin 16) (s : Fin 512) :
    acc 512 (ix1 (⟨512 * r.val + s.val, by omega⟩ : Fin 8208))
      = adj (edgeRows src dst) ⟨16 * w + r.val, by omega⟩ s := by
  have hr := r.isLt
  have hs := s.isLt
  -- the count of one edge, as a function on the naturals
  let G : Nat → EReal := fun e => if he : e < 8192 then
    (if (Cert.Proof.Lane.lin lo (dst ⟨e, he⟩) (src ⟨e, he⟩)).toNat = 512 * r.val + s.val then (1 : EReal) else 0) else 0
  have hG : ∀ (e : Nat) (he : e < 8192), G e
      = if (Cert.Proof.Lane.lin lo (dst ⟨e, he⟩) (src ⟨e, he⟩)).toNat = 512 * r.val + s.val then (1 : EReal) else 0 :=
    fun e he => dif_pos he
  have key : ∀ k : Nat, k ≤ 512 → acc k (ix1 (⟨512 * r.val + s.val, by omega⟩ : Fin 8208))
      = ∑ e ∈ Finset.range (16 * k), G e := by
    intro k
    induction k with
    | zero =>
      intro _
      rw [h0 _ (show 512 * r.val + s.val < 8192 by omega)]
      simp
    | succ k ih =>
      intro hk
      have hk' : k < 512 := by omega
      rw [hstep k hk', ih (by omega), show 16 * (k + 1) = 16 * k + 16 by omega, Finset.sum_range_add]
      refine congrArg (_ + ·) ?_
      rw [← Fin.sum_univ_eq_sum_range (fun x => G (16 * k + x)) 16]
      refine Finset.sum_congr rfl fun x _ => ?_
      have hx := x.isLt
      rw [hG (16 * k + x.val) (by omega)]
  rw [key 512 (le_refl _), show 16 * 512 = 8192 by norm_num, ← Fin.sum_univ_eq_sum_range G 8192]
  unfold adj
  refine Finset.sum_congr rfl fun e _ => ?_
  rw [hG e.val e.isLt]
  have hiff := lin_toNat_eq_iff lo (dst e) (src e) (by omega) (hsrc e) r.val hr s.val hs
  have e1 : edgeRows src dst 1 e = dst e := if_neg (by decide)
  have e0 : edgeRows src dst 0 e = src e := if_pos rfl
  rw [e1, e0]
  by_cases hc : (dst e).toNat = 16 * w + r.val ∧ (src e).toNat = s.val
  · rw [if_pos hc, if_pos (hiff.2 ⟨by omega, hc.2⟩)]
  · rw [if_neg hc, if_neg (fun hh => hc ⟨by have := (hiff.1 hh).1; omega, (hiff.1 hh).2⟩)]

/-- The 16 lane indices of step `k`, as an index vector. -/
def laneIdx (lo : BitVec 32) (src dst : Fin 8192 → BitVec 32) (k : Nat) (hk : k < 512) : IVec ⟨1, ![16]⟩ 32 :=
  fun x => Cert.Proof.Lane.lin lo (dst ⟨16 * k + (x 0).val, by have : (x 0).val < 16 := (x 0).isLt; omega⟩)
    (src ⟨16 * k + (x 0).val, by have : (x 0).val < 16 := (x 0).isLt; omega⟩)

/-- One step of the accumulation as an indexed store with add of ones: the recurrence `count_of_steps` asks for. -/
theorem storeIdx_laneIdx (lo : BitVec 32) (src dst : Fin 8192 → BitVec 32) (k : Nat) (hk : k < 512)
    (g : Vec Ideal ⟨1, ![8208]⟩ .f32)
    (h : ∀ (a : Fin 1) (x : (⟨1, ![16]⟩ : Shape).Idx),
      ((fun _ => laneIdx lo src dst k hk : Fin 1 → IVec ⟨1, ![16]⟩ 32) a x).toNat < (⟨1, ![8208]⟩ : Shape).size a)
    (j : (⟨1, ![8208]⟩ : Shape).Idx) :
    storeIdx (F := Ideal) (e := .f32) (s := ⟨1, ![8208]⟩) g (fun _ => laneIdx lo src dst k hk)
        (fun _ => Ideal.ofBits .f32 0x3F800000#32) (fun _ => 1#1) true h j
      = g j + ∑ x : Fin 16, if (Cert.Proof.Lane.lin lo (dst ⟨16 * k + x.val, by omega⟩) (src ⟨16 * k + x.val, by omega⟩)).toNat
          = (j 0).val then (1 : EReal) else 0 := by
  rw [storeIdx_add_apply]
  refine congrArg (g j + ·) ?_
  show ∑ x : Fin 16, (if (∀ a : Fin 1, (j a).val = (laneIdx lo src dst k hk (Shape.ofLane (d := ![16]) x)).toNat)
      then Ideal.ofBits .f32 0x3F800000#32 else 0) = _
  refine Finset.sum_congr rfl fun x _ => ?_
  have hx : x.val < 16 := x.isLt
  have hl : laneIdx lo src dst k hk (Shape.ofLane (d := ![16]) x)
      = Cert.Proof.Lane.lin lo (dst ⟨16 * k + x.val, by omega⟩) (src ⟨16 * k + x.val, by omega⟩) := rfl
  rw [ofBits_one_f32, hl]
  by_cases hc : (Cert.Proof.Lane.lin lo (dst ⟨16 * k + x.val, by omega⟩) (src ⟨16 * k + x.val, by omega⟩)).toNat = (j 0).val
  · rw [if_pos hc, if_pos (fun a => by obtain rfl : a = 0 := Subsingleton.elim _ _; exact hc.symm)]
  · rw [if_neg hc, if_neg (fun hh => hc (hh 0).symm)]

/-- The rows of an edge list array, put back together, are the array's edge list. -/
theorem edgeRows_edges (x : (⟨2, ![2, 8192]⟩ : Shape).Idx → BitVec 32) :
    edgeRows (fun k => x (ix2 (0 : Fin 2) k)) (fun k => x (ix2 (1 : Fin 2) k)) = edges x := by
  funext row k
  unfold edgeRows edges
  match row with
  | ⟨0, _⟩ => rfl
  | ⟨1, _⟩ => rfl

/-- THE COUNT, from the stores: an accumulator that is zero on the tile's 8192 words and is then updated, for
    `k = 0 … 511`, by the indexed store with add of sixteen ones at step `k`'s lane indices, ends holding the count
    matrix's rows `16 w … 16 w + 15`. -/
theorem count_of_storeIdx (lo : BitVec 32) (w : Nat) (hw : w < 32) (hlo : lo.toNat = 16 * w)
    (src dst : Fin 8192 → BitVec 32) (hsrc : ∀ k, (src k).toNat ≤ 511)
    (acc : Nat → Vec Ideal ⟨1, ![8208]⟩ .f32)
    (h0 : ∀ j, (j 0).val < 8192 → acc 0 j = 0)
    (hrec : ∀ (k : Nat) (hk : k < 512), ∃ h, acc (k + 1)
      = storeIdx (F := Ideal) (e := .f32) (s := ⟨1, ![8208]⟩) (acc k) (fun _ => laneIdx lo src dst k hk)
          (fun _ => Ideal.ofBits .f32 0x3F800000#32) (fun _ => 1#1) true h)
    (r : Fin 16) (s : Fin 512) :
    acc 512 (ix1 (⟨512 * r.val + s.val, by omega⟩ : Fin 8208))
      = adj (edgeRows src dst) ⟨16 * w + r.val, by omega⟩ s :=
  count_of_steps lo w hw hlo src dst hsrc acc h0
    (fun k hk j => by
      obtain ⟨h, e⟩ := hrec k hk
      rw [e]
      exact storeIdx_laneIdx lo src dst k hk (acc k) h j) r s

end Cert.Spec

end
-- ==== Proof.IdealTileValue.lean ====
/-
  One tile's task of the adjacency kernel WITH ITS VALUE: the tile's 8192 words of the flat result end at the
  adjacency counts of its sixteen rows.

  The accumulator is first cleared: after trip k of the clearing loop the words below 128 k are zero.  The two
  fetches leave row 0 (the sources) and row 1 (the destinations) of the edge list in the two index scratches.
  The edge loop then visits the edges sixteen at a time: an indexed store with add of sixteen ones adds, at every
  word, the number of the sixteen lanes that name it, so after the first n groups the accumulator holds, at word j,
  its cleared contents plus the number of the first 16 n edges whose lane index is j.  The lane index of an edge is
  (destination − first row) * 512 + source when the destination is one of the tile's rows and the spare word 8192
  otherwise; hence after all 512 groups word 512 r + s holds the number of edges from s into row (first row + r).
  The copy-out moves the first 8192 words to the tile's slice of the result.
-/
import proofs.«208141_g20598663152203_cont_8to1_341_30_alg».proof.Proof.IdealTile
import proofs.«208141_g20598663152203_cont_8to1_341_30_alg».proof.Proof.IdealSplitV
import proofs.«208141_g20598663152203_cont_8to1_341_30_alg».proof.Proof.SpecCount
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

-- the kernel's memrefs, spelt as the body table passes them
local notation "eW" => (Memref.whole Cert.KernelIdeal.main_arg1_scv : Memref Cert.KernelIdeal.sig Kind.scVector Space.hbm Cert.KernelIdeal.S2x8192 EltTy.i32)
local notation "aW" => (Memref.whole Cert.KernelIdeal.main_v3_scv : Memref Cert.KernelIdeal.sig Kind.scVector Space.hbm Cert.KernelIdeal.S262144 EltTy.f32)
local notation "sS" => (Memref.whole Cert.KernelIdeal.cc0_scratch0 : Memref Cert.KernelIdeal.sig Kind.scVector Space.vmem Cert.KernelIdeal.S8192 EltTy.i32)
local notation "sD" => (Memref.whole Cert.KernelIdeal.cc0_scratch1 : Memref Cert.KernelIdeal.sig Kind.scVector Space.vmem Cert.KernelIdeal.S8192 EltTy.i32)
local notation "sA" => (Memref.whole Cert.KernelIdeal.cc0_scratch2 : Memref Cert.KernelIdeal.sig Kind.scVector Space.vmem Cert.KernelIdeal.S8208 EltTy.f32)

open Idealize.ShloMosaic.ValueIdx

/-! ## Pieces written through the whole accumulator, read at an index -/

section Pieces
variable {κ : Kind} (b : Ref sig κ)

/-- Off a rectangle, a write through it leaves the whole buffer's element as it was. -/
theorem write_slice_whole_of_not_mem (r : Rect b.ty.shape) (f : b.ty.Contents (Elt Ideal)) (w : r.shape.Idx → Elt Ideal b.ty.elt)
    (j : b.ty.Idx) (hj : j ∉ r.set) : ((View.whole b).slice r).write (Elt Ideal) f w Finset.univ j = f j := by
  refine View.write_of_not_mem _ _ _ ?_
  rw [View.setOn_univ, View.set_slice_whole]
  exact hj

/-- On a rectangle, a write through it leaves the payload's element. -/
theorem write_slice_whole_emb (r : Rect b.ty.shape) (f : b.ty.Contents (Elt Ideal)) (w : r.shape.Idx → Elt Ideal b.ty.elt)
    (x : r.shape.Idx) : ((View.whole b).slice r).write (Elt Ideal) f w Finset.univ (r.emb x) = w x := by
  have h := View.write_emb_of_mem (v := (View.whole b).slice r) (Val := Elt Ideal) f w (M := Finset.univ) (x := x) (Finset.mem_univ _)
  exact h

theorem exists_emb_of_mem (r : Rect b.ty.shape) (j : b.ty.Idx) (hj : j ∈ r.set) : ∃ x, r.emb x = j := by
  rw [← Rect.map_emb_univ] at hj
  obtain ⟨x, -, hx⟩ := Finset.mem_map.mp hj
  exact ⟨x, hx⟩

end Pieces

section Pieces2
variable {κ : Kind} (b : Ref sig κ)

/-- After a list of writes of one constant through rectangles of a whole buffer, an element is that constant, or no
    rectangle holds it and it is as before. -/
theorem writes_whole_of_const (Lp : List (View.Piece (Elt Ideal) b.ty.shape b.ty.elt)) (f : b.ty.Contents (Elt Ideal))
    (z : Elt Ideal b.ty.elt) (hz : ∀ p ∈ Lp, ∀ x, p.2 x = z) (j : b.ty.Idx) :
    (View.whole b).writes (Elt Ideal) f Lp j = z
      ∨ ((∀ p ∈ Lp, j ∉ p.1.set) ∧ (View.whole b).writes (Elt Ideal) f Lp j = f j) := by
  induction Lp with
  | nil => exact Or.inr ⟨fun _ h => absurd h (List.not_mem_nil), rfl⟩
  | cons p Lp ih =>
    rw [View.writes_cons]
    by_cases hj : j ∈ p.1.set
    · obtain ⟨x, rfl⟩ := exists_emb_of_mem b p.1 j hj
      left
      rw [write_slice_whole_emb]
      exact hz p List.mem_cons_self x
    · rw [write_slice_whole_of_not_mem b p.1 _ p.2 j hj]
      rcases ih (fun p' hp' => hz p' (List.mem_cons_of_mem _ hp')) with h | ⟨h1, h2⟩
      · exact Or.inl h
      · refine Or.inr ⟨fun p' hp' => ?_, h2⟩
        rcases List.mem_cons.mp hp' with rfl | hp'
        · exact hj
        · exact h1 p' hp'

end Pieces2

/-- The clearing store's payload is zero. -/
theorem pay8_zero (x : S16.Idx) : k0_pay8 (F := Ideal) x = (0 : EReal) := by
  show Ideal.ofBits .f32 0x00000000#32 = 0
  exact Ideal.ofBits_zero_f32

/-- The eight stores of one trip of the clearing loop, last first. -/
def clearPieces (k : Fin k0_t1_loop.trips)
    (i0 : ∀ a, (k0_off1 k 0#32) a + S16.size a ≤ S8208.size a) (i1 : ∀ a, (k0_off1 k 1#32) a + S16.size a ≤ S8208.size a) (i2 : ∀ a, (k0_off1 k 2#32) a + S16.size a ≤ S8208.size a) (i3 : ∀ a, (k0_off1 k 3#32) a + S16.size a ≤ S8208.size a) (i4 : ∀ a, (k0_off1 k 4#32) a + S16.size a ≤ S8208.size a) (i5 : ∀ a, (k0_off1 k 5#32) a + S16.size a ≤ S8208.size a) (i6 : ∀ a, (k0_off1 k 6#32) a + S16.size a ≤ S8208.size a) (i7 : ∀ a, (k0_off1 k 7#32) a + S16.size a ≤ S8208.size a)
    : List (View.Piece (Elt Ideal) S8208 .f32) :=
  [⟨Rect.unit (s := S8208) (k0_off1 k 7#32) S16.size i7, k0_pay8 (F := Ideal)⟩, ⟨Rect.unit (s := S8208) (k0_off1 k 6#32) S16.size i6, k0_pay8 (F := Ideal)⟩,
   ⟨Rect.unit (s := S8208) (k0_off1 k 5#32) S16.size i5, k0_pay8 (F := Ideal)⟩, ⟨Rect.unit (s := S8208) (k0_off1 k 4#32) S16.size i4, k0_pay8 (F := Ideal)⟩,
   ⟨Rect.unit (s := S8208) (k0_off1 k 3#32) S16.size i3, k0_pay8 (F := Ideal)⟩, ⟨Rect.unit (s := S8208) (k0_off1 k 2#32) S16.size i2, k0_pay8 (F := Ideal)⟩,
   ⟨Rect.unit (s := S8208) (k0_off1 k 1#32) S16.size i1, k0_pay8 (F := Ideal)⟩, ⟨Rect.unit (s := S8208) (k0_off1 k 0#32) S16.size i0, k0_pay8 (F := Ideal)⟩]

/-- One trip of the clearing loop: eight stores of sixteen zeros at words 128 k + 16 u extend the cleared prefix. -/
theorem clear_step (k : Fin k0_t1_loop.trips) (f : S8208.Idx → EReal) (hf : ∀ j : S8208.Idx, (j 0).val < 128 * k.val → f j = 0)

    (i0 : ∀ a, (k0_off1 k 0#32) a + S16.size a ≤ S8208.size a) (i1 : ∀ a, (k0_off1 k 1#32) a + S16.size a ≤ S8208.size a) (i2 : ∀ a, (k0_off1 k 2#32) a + S16.size a ≤ S8208.size a) (i3 : ∀ a, (k0_off1 k 3#32) a + S16.size a ≤ S8208.size a) (i4 : ∀ a, (k0_off1 k 4#32) a + S16.size a ≤ S8208.size a) (i5 : ∀ a, (k0_off1 k 5#32) a + S16.size a ≤ S8208.size a) (i6 : ∀ a, (k0_off1 k 6#32) a + S16.size a ≤ S8208.size a) (i7 : ∀ a, (k0_off1 k 7#32) a + S16.size a ≤ S8208.size a)
    (j : S8208.Idx) (hj : (j 0).val < 128 * (k.val + 1)) :
    (sA).view.writes (Elt Ideal) f (clearPieces k i0 i1 i2 i3 i4 i5 i6 i7) j = (0 : EReal) := by
  have e0 : k0_off1 k 0#32 = ![128 * k.val + 16 * 0] := Gen.k0_off1_eq k ⟨0, by decide⟩
  have e1 : k0_off1 k 1#32 = ![128 * k.val + 16 * 1] := Gen.k0_off1_eq k ⟨1, by decide⟩
  have e2 : k0_off1 k 2#32 = ![128 * k.val + 16 * 2] := Gen.k0_off1_eq k ⟨2, by decide⟩
  have e3 : k0_off1 k 3#32 = ![128 * k.val + 16 * 3] := Gen.k0_off1_eq k ⟨3, by decide⟩
  have e4 : k0_off1 k 4#32 = ![128 * k.val + 16 * 4] := Gen.k0_off1_eq k ⟨4, by decide⟩
  have e5 : k0_off1 k 5#32 = ![128 * k.val + 16 * 5] := Gen.k0_off1_eq k ⟨5, by decide⟩
  have e6 : k0_off1 k 6#32 = ![128 * k.val + 16 * 6] := Gen.k0_off1_eq k ⟨6, by decide⟩
  have e7 : k0_off1 k 7#32 = ![128 * k.val + 16 * 7] := Gen.k0_off1_eq k ⟨7, by decide⟩
  rcases writes_whole_of_const cc0_scratch2 (clearPieces k i0 i1 i2 i3 i4 i5 i6 i7) f (0 : EReal)
    (by intro p hp x; unfold clearPieces at hp; simp only [List.mem_cons, List.not_mem_nil, _root_.or_false] at hp
        rcases hp with rfl | rfl | rfl | rfl | rfl | rfl | rfl | rfl <;> exact pay8_zero x) j with h | ⟨hno, heq⟩
  · exact h
  · refine heq.trans (hf j ?_)
    by_contra hlt
    have hmem : ∀ (u : Nat) (off : Fin 1 → Nat) (inb : ∀ a, off a + S16.size a ≤ S8208.size a), off = ![128 * k.val + 16 * u] →
        128 * k.val + 16 * u ≤ (j 0).val → (j 0).val < 128 * k.val + 16 * u + 16 → j ∈ (Rect.unit (s := S8208) off S16.size inb).set := by
      intro u off inb hoff h1 h2
      subst hoff
      rw [Rect.mem_set_unit]
      intro a
      obtain rfl : a = 0 := Subsingleton.elim _ _
      exact ⟨h1, h2⟩
    have hge : 128 * k.val ≤ (j 0).val := by omega
    unfold clearPieces at hno
    have c7 := hno _ List.mem_cons_self
    have c6 := hno _ (List.mem_cons_of_mem _ List.mem_cons_self)
    have c5 := hno _ (List.mem_cons_of_mem _ (List.mem_cons_of_mem _ List.mem_cons_self))
    have c4 := hno _ (List.mem_cons_of_mem _ (List.mem_cons_of_mem _ (List.mem_cons_of_mem _ List.mem_cons_self)))
    have c3 := hno _ (List.mem_cons_of_mem _ (List.mem_cons_of_mem _ (List.mem_cons_of_mem _ (List.mem_cons_of_mem _ List.mem_cons_self))))
    have c2 := hno _ (List.mem_cons_of_mem _ (List.mem_cons_of_mem _ (List.mem_cons_of_mem _ (List.mem_cons_of_mem _ (List.mem_cons_of_mem _ List.mem_cons_self)))))
    have c1 := hno _ (List.mem_cons_of_mem _ (List.mem_cons_of_mem _ (List.mem_cons_of_mem _ (List.mem_cons_of_mem _ (List.mem_cons_of_mem _ (List.mem_cons_of_mem _ List.mem_cons_self))))))
    have c0 := hno _ (List.mem_cons_of_mem _ (List.mem_cons_of_mem _ (List.mem_cons_of_mem _ (List.mem_cons_of_mem _ (List.mem_cons_of_mem _ (List.mem_cons_of_mem _ (List.mem_cons_of_mem _ List.mem_cons_self)))))))
    have d0 : ¬ (128 * k.val + 16 * 0 ≤ (j 0).val ∧ (j 0).val < 128 * k.val + 16 * 0 + 16) := fun h => c0 (hmem 0 _ i0 e0 h.1 h.2)
    have d1 : ¬ (128 * k.val + 16 * 1 ≤ (j 0).val ∧ (j 0).val < 128 * k.val + 16 * 1 + 16) := fun h => c1 (hmem 1 _ i1 e1 h.1 h.2)
    have d2 : ¬ (128 * k.val + 16 * 2 ≤ (j 0).val ∧ (j 0).val < 128 * k.val + 16 * 2 + 16) := fun h => c2 (hmem 2 _ i2 e2 h.1 h.2)
    have d3 : ¬ (128 * k.val + 16 * 3 ≤ (j 0).val ∧ (j 0).val < 128 * k.val + 16 * 3 + 16) := fun h => c3 (hmem 3 _ i3 e3 h.1 h.2)
    have d4 : ¬ (128 * k.val + 16 * 4 ≤ (j 0).val ∧ (j 0).val < 128 * k.val + 16 * 4 + 16) := fun h => c4 (hmem 4 _ i4 e4 h.1 h.2)
    have d5 : ¬ (128 * k.val + 16 * 5 ≤ (j 0).val ∧ (j 0).val < 128 * k.val + 16 * 5 + 16) := fun h => c5 (hmem 5 _ i5 e5 h.1 h.2)
    have d6 : ¬ (128 * k.val + 16 * 6 ≤ (j 0).val ∧ (j 0).val < 128 * k.val + 16 * 6 + 16) := fun h => c6 (hmem 6 _ i6 e6 h.1 h.2)
    have d7 : ¬ (128 * k.val + 16 * 7 ≤ (j 0).val ∧ (j 0).val < 128 * k.val + 16 * 7 + 16) := fun h => c7 (hmem 7 _ i7 e7 h.1 h.2)
    omega

/-! ## The edges and the running count -/

/-- Edge `e`'s source and destination words in the launch memory's edge list. -/
def srcOf (m : (ℓ : Loc nD τ sig) → Buf (Elt Ideal) ℓ) (d : Dev nD) (e : Fin 8192) : BitVec 32 := m (eLoc d) (ix2 (0 : Fin 2) e)
def dstOf (m : (ℓ : Loc nD τ sig) → Buf (Elt Ideal) ℓ) (d : Dev nD) (e : Fin 8192) : BitVec 32 := m (eLoc d) (ix2 (1 : Fin 2) e)

/-- What edge `e` adds at word `jv` of the tile's accumulator: one when its lane index is `jv`. -/
def hits (lo : BitVec 32) (src dst : Fin 8192 → BitVec 32) (jv : Nat) (e : Nat) : EReal :=
  if he : e < 8192 then (if (Lane.lin lo (dst ⟨e, he⟩) (src ⟨e, he⟩)).toNat = jv then (1 : EReal) else 0) else 0

/-- The scatter's stored vector is one in every lane. -/
theorem pay9_one (x : S16.Idx) : k0_pay9 (F := Ideal) x = (1 : EReal) := by
  show Ideal.ofBits .f32 0x3F800000#32 = 1
  exact Cert.Spec.ofBits_one_f32

/-- A write through the whole accumulator replaces its contents. -/
theorem writes_whole_cons (f w : S8208.Idx → EReal) (Lp : List (View.Piece (Elt Ideal) S8208 .f32)) :
    (sA).view.writes (Elt Ideal) f (⟨Rect.whole S8208, w⟩ :: Lp) = w := by
  rw [View.writes_cons]
  exact Memref.write_access_whole_univ (Elt Ideal) cc0_scratch2 _ w

/-- A load of the whole accumulator reads its contents. -/
theorem readAt_whole_acc (f : S8208.Idx → EReal) :
    View.readAt (Elt Ideal) (sA).view (LoadRect.whole S8208) f = f :=
  Memref.readAt_whole (Elt Ideal) cc0_scratch2 f

/-- The sixteen edges of one step, added to the running count. -/
theorem hits_sum_succ (lo : BitVec 32) (src dst : Fin 8192 → BitVec 32) (jv n : Nat) (hn : n < 512) :
    ∑ e ∈ Finset.range (16 * (n + 1)), hits lo src dst jv e
      = ∑ e ∈ Finset.range (16 * n), hits lo src dst jv e
        + ∑ x : Fin 16, if (Lane.lin lo (dst ⟨16 * n + x.val, by omega⟩) (src ⟨16 * n + x.val, by omega⟩)).toNat = jv
            then (1 : EReal) else 0 := by
  rw [show 16 * (n + 1) = 16 * n + 16 by omega, Finset.sum_range_add]
  refine congrArg (_ + ·) ?_
  rw [← Fin.sum_univ_eq_sum_range (fun x => hits lo src dst jv (16 * n + x)) 16]
  refine Finset.sum_congr rfl fun x _ => ?_
  have hx := x.isLt
  unfold hits
  rw [dif_pos (by omega)]

/-- ONE SCATTER-ADD SITE: the accumulator after the indexed store with add of sixteen ones at the lane indices of
    edges `16 n … 16 n + 15` holds the count of the first `16 (n + 1)` edges. -/
theorem site_step (lo : BitVec 32) (src dst : Fin 8192 → BitVec 32) (fi T : S8208.Idx → EReal) (n n' : Nat) (hn : n < 512)
    (hn' : n' = n + 1)
    (hT : ∀ j : S8208.Idx, T j = fi j + ∑ e ∈ Finset.range (16 * n), hits lo src dst (j 0).val e)
    (p : IVec S16 32)
    (hp : ∀ x : Fin 16, p (ix1 x) = Lane.lin lo (dst ⟨16 * n + x.val, by omega⟩) (src ⟨16 * n + x.val, by omega⟩))
    (h : ∀ a x, ((![p] : Fin 1 → IVec S16 32) a x).toNat < S8208.size a) (j : S8208.Idx) :
    storeIdx (F := Ideal) (e := .f32) (s := S8208) T ![p] (k0_pay9 (F := Ideal)) (fun _ => 1#1) true h j
      = fi j + ∑ e ∈ Finset.range (16 * n'), hits lo src dst (j 0).val e := by
  subst hn'
  rw [Cert.Spec.storeIdx_add_apply, hT j, hits_sum_succ lo src dst (j 0).val n hn, add_assoc]
  refine congrArg (fi j + ·) (congrArg (_ + ·) ?_)
  refine Finset.sum_congr rfl fun x _ => ?_
  have hx : x.val < 16 := x.isLt
  have hl : Shape.ofLane (d := ![16]) x = ix1 (⟨x.val, hx⟩ : Fin 16) := funext fun a => by
    obtain rfl : a = 0 := Subsingleton.elim _ _
    rfl
  rw [pay9_one, hl]
  have hp' := hp ⟨x.val, hx⟩
  by_cases hc : (Lane.lin lo (dst ⟨16 * n + x.val, by omega⟩) (src ⟨16 * n + x.val, by omega⟩)).toNat = (j 0).val
  · rw [if_pos hc, if_pos (fun a => by
      obtain rfl : a = 0 := Subsingleton.elim _ _
      exact hc.symm.trans (congrArg BitVec.toNat hp'.symm))]
  · rw [if_neg hc, if_neg (fun hh => hc (((hh 0).trans (congrArg BitVec.toNat hp')).symm))]

/-- A lane of a vector loaded from the source scratch at word offset `o`. -/
theorem readS_lane (g : S8192.Idx → BitVec 32) (off : Fin 1 → Nat) (o : Nat) (hoff : off = ![o])
    (h : ∀ a, off a + S16.size a ≤ S8192.size a) (x : Fin 16) (ho : o + x.val < 8192) :
    (sS).view.readAt (Elt Ideal) (Rect.unit (s := S8192) off S16.size h).toLoadRect g (ix1 x) = g (ix1 ⟨o + x.val, ho⟩) := by
  subst hoff
  simp only [View.readAt_apply, Memref.view_whole, View.read_whole]
  refine congrArg g (funext fun a => Fin.ext ?_)
  match a with
  | ⟨0, _⟩ => show o + 1 * x.val = o + x.val; omega

/-- A lane of a vector loaded from the destination scratch at word offset `o`. -/
theorem readD_lane (g : S8192.Idx → BitVec 32) (off : Fin 1 → Nat) (o : Nat) (hoff : off = ![o])
    (h : ∀ a, off a + S16.size a ≤ S8192.size a) (x : Fin 16) (ho : o + x.val < 8192) :
    (sD).view.readAt (Elt Ideal) (Rect.unit (s := S8192) off S16.size h).toLoadRect g (ix1 x) = g (ix1 ⟨o + x.val, ho⟩) := by
  subst hoff
  simp only [View.readAt_apply, Memref.view_whole, View.read_whole]
  refine congrArg g (funext fun a => Fin.ext ?_)
  match a with
  | ⟨0, _⟩ => show o + 1 * x.val = o + x.val; omega

section Site
variable (m : (ℓ : Loc nD τ sig) → Buf (Elt Ideal) ℓ) (d : Dev nD) (L : grid0.Coords)

/-- ONE SCATTER-ADD SITE, on the accumulator's points-to: after site `u` of trip `k` the accumulator holds the count
    of the first `16 (8 k + u + 1)` edges. -/
theorem acc_site (c : Fin τ.nSC) (i : Fin τ.nSub) (fi T : S8208.Idx → EReal) (k : Fin k0_t2_loop.trips) (u n' : Nat) (hu : u < 8)
    (hk : k.val < 64) (hn' : n' = 8 * k.val + u + 1)
    (g0 g1 : S8192.Idx → BitVec 32) (hg0 : ∀ e : Fin 8192, g0 (ix1 e) = srcOf m d e) (hg1 : ∀ e : Fin 8192, g1 (ix1 e) = dstOf m d e)
    (off : Fin 1 → Nat) (o : Nat) (hoff : off = ![o]) (ho : o = 128 * k.val + 16 * u)
    (i0 : ∀ a, off a + S16.size a ≤ S8192.size a) (i1 : ∀ a, off a + S16.size a ≤ S8192.size a)
    (p : IVec S16 32)
    (hp : p = fun x => Lane.lin (loW L) ((sD).view.readAt (Elt Ideal) (Rect.unit (s := S8192) off S16.size i1).toLoadRect g1 x)
      ((sS).view.readAt (Elt Ideal) (Rect.unit (s := S8192) off S16.size i0).toLoadRect g0 x))
    (h : ∀ a x, ((![p] : Fin 1 → IVec S16 32) a x).toNat < S8208.size a)
    (hT : ∀ j : S8208.Idx, T j = fi j + ∑ e ∈ Finset.range (16 * (8 * k.val + u)), hits (loW L) (srcOf m d) (dstOf m d) (j 0).val e) :
    ((sA).view.loc (V d c i) ↦{fullShare} (sA).view.writes (Elt Ideal) T
        [⟨Rect.whole S8208, storeIdx (F := Ideal) (e := .f32) (View.readAt (Elt Ideal) (sA).view (LoadRect.whole S8208) T) ![p]
          (k0_pay9 (F := Ideal)) (fun _ => 1#1) true h⟩] : sProp 𝕄)
      ⊢ ∃ T' : S8208.Idx → EReal, ((sA).view.loc (V d c i) ↦{fullShare} T')
          ∗ ⌜∀ j : S8208.Idx, T' j = fi j + ∑ e ∈ Finset.range (16 * n'), hits (loW L) (srcOf m d) (dstOf m d) (j 0).val e⌝ := by
  iintro H
  iexists _
  isplitl [H]
  · iexact H
  · ipureintro
    intro j
    rw [writes_whole_cons]
    have hpl : ∀ x : Fin 16, p (ix1 x) = Lane.lin (loW L) (dstOf m d ⟨16 * (8 * k.val + u) + x.val, by omega⟩)
        (srcOf m d ⟨16 * (8 * k.val + u) + x.val, by omega⟩) := by
      intro x
      have hx := x.isLt
      have hD := (readD_lane g1 off o hoff i1 x (by omega)).trans (hg1 _)
      have hS := (readS_lane g0 off o hoff i0 x (by omega)).trans (hg0 _)
      have e : (⟨o + x.val, by omega⟩ : Fin 8192) = ⟨16 * (8 * k.val + u) + x.val, by omega⟩ := Fin.ext (by show o + x.val = 16 * (8 * k.val + u) + x.val; omega)
      subst hp
      show Lane.lin (loW L) _ _ = _
      rw [hD, hS, e]
    rw [readAt_whole_acc]
    exact site_step (loW L) (srcOf m d) (dstOf m d) fi T (8 * k.val + u) n' (by omega) hn' hT p hpl h j

end Site

/-- The row-major position of `(0, e)` in a `1 × 8192` array is `e`. -/
theorem reshape_row (e : Fin 8192) (h : S8192.numel = S1x8192.numel) :
    Shape.reshapeEquiv h (ix1 e) = ix2 (0 : Fin 1) e :=
  Shape.reshapeEquiv_eq_of_rowMajor h (by
    rw [Shape.rowMajor_val_two, Shape.rowMajor_val_one]
    show 0 * 8192 + e.val = e.val
    omega)

/-- Word `e` of the edge list's row 0, as the first fetch's source names it. -/
theorem row0_emb (e : Fin 8192) (inb) (h1) (hsq) :
    ((((Memref.whole main_arg1_scv : Memref sig .scVector .hbm S2x8192 .i32).slice
        (Rect.unit (s := S2x8192) ![0, 0] S1x8192.size inb) h1).squeeze S8192 hsq).view.emb (ix1 e)) = ix2 (0 : Fin 2) e := by
  funext a
  apply Fin.ext
  match a with
  | ⟨0, _⟩ => simp; rw [reshape_row]; rfl
  | ⟨1, _⟩ => simp; rw [reshape_row]

/-- Word `e` of the edge list's row 1, as the second fetch's source names it. -/
theorem row1_emb (e : Fin 8192) (inb) (h1) (hsq) :
    ((((Memref.whole main_arg1_scv : Memref sig .scVector .hbm S2x8192 .i32).slice
        (Rect.unit (s := S2x8192) ![1, 0] S1x8192.size inb) h1).squeeze S8192 hsq).view.emb (ix1 e)) = ix2 (1 : Fin 2) e := by
  funext a
  apply Fin.ext
  match a with
  | ⟨0, _⟩ => simp; rw [reshape_row]; rfl
  | ⟨1, _⟩ => simp; rw [reshape_row]

theorem trips1_eq : Scf.trips k0_t1_loop.lb k0_t1_loop.ub k0_t1_loop.st = 64 := by decide
theorem trips2_eq : Scf.trips k0_t2_loop.lb k0_t2_loop.ub k0_t2_loop.st = 64 := by decide

/-- The tile's first row as a number. -/
theorem loW_toNat (L : grid0.Coords) : (loW L).toNat = 16 * (16 * (L 0).val + (L 1).val) := by
  have h0 : (L 0).val < 2 := (L 0).isLt
  have h1 : (L 1).val < 16 := (L 1).isLt
  simp only [loW, Scalar.muli, Scalar.addi, IntOp.muli, IntOp.addi, BitVec.toNat_mul, BitVec.toNat_add, BitVec.toNat_ofNat,
    Nat.reducePow, Nat.reduceMod]
  omega

/-- ALL THE EDGES: what the 8192 edges add at word `512 r + s` of tile `w` is the count matrix's entry `(16 w + r, s)`. -/
theorem hits_total (lo : BitVec 32) (w : Nat) (hw : w < 32) (hlo : lo.toNat = 16 * w)
    (src dst : Fin 8192 → BitVec 32) (hsrc : ∀ k, (src k).toNat ≤ 511) (r : Fin 16) (s : Fin 512) :
    ∑ e ∈ Finset.range 8192, hits lo src dst (512 * r.val + s.val) e
      = Cert.Spec.adj (Cert.Spec.edgeRows src dst) ⟨16 * w + r.val, by omega⟩ s := by
  have h := Cert.Spec.count_of_steps lo w hw hlo src dst hsrc
    (fun k j => ∑ e ∈ Finset.range (16 * k), hits lo src dst (j 0).val e)
    (fun j _ => by simp)
    (fun k hk j => hits_sum_succ lo src dst (j 0).val k hk) r s
  exact h

section Out
variable (L : grid0.Coords)

/-- Word `t` of the tile's slice of the flat result, after the slice is overwritten by `w`. -/
theorem out_write (base : S262144.Idx → EReal) (w : S8192.Idx → EReal) (t : Fin 8192)
    (hlt : 131072 * (L 0).val + 8192 * (L 1).val + t.val < 262144) :
    (aOut L).view.writes (Elt Ideal) base [⟨Rect.whole S8192, w⟩]
      (ix1 (⟨131072 * (L 0).val + 8192 * (L 1).val + t.val, hlt⟩ : Fin 262144)) = w (ix1 t) := by
  rw [View.writes_cons, View.writes_nil]
  have he : ((aOut L).view.slice (Rect.whole S8192)).emb (ix1 t)
      = ix1 (⟨131072 * (L 0).val + 8192 * (L 1).val + t.val, hlt⟩ : Fin 262144) := by
    funext a
    apply Fin.ext
    match a with
    | ⟨0, _⟩ =>
      simp
      rw [Rect.emb_apply, Rect.off_unit, Rect.stride_unit]
      have h10 : k0_off10 L 0 = 131072 * (L 0).val + 8192 * (L 1).val := congrFun (Gen.k0_off10_eq L) 0
      show k0_off10 L 0 + 1 * t.val = 131072 * (L 0).val + 8192 * (L 1).val + t.val
      omega
  rw [← he]
  exact View.write_emb_of_mem _ _ (Finset.mem_univ _)

end Out

/-- Word `t` of the accumulator's first 8192 words, as the copy-out's source names it. -/
theorem acc_slice_emb (t : Fin 8192) (inb) (h1) :
    (((sA).slice (Rect.unit (s := S8208) ![0] S8192.size inb) h1).view.emb (ix1 t)) = ix1 (⟨t.val, by omega⟩ : Fin 8208) := by
  funext a
  apply Fin.ext
  match a with
  | ⟨0, _⟩ =>
    simp
    try rw [Rect.emb_apply, Rect.off_unit, Rect.stride_unit]
    try (show 0 + 1 * t.val = t.val; omega)

/-- What tile `(c, s)` of device `d` leaves in the flat result `f`: its 8192 words are the adjacency counts of the
    sixteen rows from `16 (16 c + s)`. -/
def TileFact (m : (ℓ : Loc nD τ sig) → Buf (Elt Ideal) ℓ) (d : Dev nD) (c s : Nat) (f : Buf (Elt Ideal) (aLoc d)) : Prop :=
  ∀ (r : Fin 16) (s' : Fin 512) (hc : c < 2) (hs : s < 16),
    f (ix1 (⟨131072 * c + 8192 * s + 512 * r.val + s'.val, by omega⟩ : Fin 262144))
      = Cert.Spec.adj (Cert.Spec.edges (m (eLoc d))) ⟨16 * (16 * c + s) + r.val, by omega⟩ s'

variable (m : (ℓ : Loc nD τ sig) → Buf (Elt Ideal) ℓ)

section Tile
variable (d : Dev nD) (L : grid0.Coords)

/-- The clearing loop's invariant: the accumulator whole, zero on the words below 128 k. -/
def inv1v (d : Dev nD) (c : Fin τ.nSC) (i : Fin τ.nSub) (k : Nat) (_ : BitVec 32) : sProp 𝕄 :=
  iprop(∃ f : S8208.Idx → EReal, ((sA).view.loc (V d c i) ↦{fullShare} f) ∗ ⌜∀ j : S8208.Idx, (j 0).val < 128 * k → f j = 0⌝)

/-- The edge loop's invariant: the two index scratches hold the edge list's rows, and the accumulator holds its
    contents after the clearing loop plus what the first 128 k edges added. -/
def inv2v (m : (ℓ : Loc nD τ sig) → Buf (Elt Ideal) ℓ) (d : Dev nD) (L : grid0.Coords) (fi : S8208.Idx → EReal)
    (c : Fin τ.nSC) (i : Fin τ.nSub) (k : Nat) (_ : BitVec 32) : sProp 𝕄 :=
  iprop((∃ g0 : S8192.Idx → BitVec 32, ((sS).view.loc (V d c i) ↦{fullShare} g0) ∗ ⌜∀ e : Fin 8192, g0 (ix1 e) = srcOf m d e⌝)
    ∗ (∃ g1 : S8192.Idx → BitVec 32, ((sD).view.loc (V d c i) ↦{fullShare} g1) ∗ ⌜∀ e : Fin 8192, g1 (ix1 e) = dstOf m d e⌝)
    ∗ ∃ f : S8208.Idx → EReal, ((sA).view.loc (V d c i) ↦{fullShare} f)
        ∗ ⌜∀ j : S8208.Idx, f j = fi j + ∑ e ∈ Finset.range (16 * (8 * k)), hits (loW L) (srcOf m d) (dstOf m d) (j 0).val e⌝)

set_option maxHeartbeats 8000000 in
set_option sl_exec.dischHeartbeats 400000 in
/-- THE TASK, with the value of what it leaves in the result. -/
theorem tile_value (q : PosShare TreeShare) (hF : (K (F := Ideal)).Facts) (hpre : PreOK m) (O : CellTallies nD τ sig (HIx 1)) (W : Waits sig (HIx 1)) (hO : ∀ g, O g none = 0) :
    iprop((levAts (K (F := Ideal)).L (K (F := Ideal)).lev : sProp 𝕄) ∗ (emp : sProp 𝕄)
        ∗ ((eLoc d ↦{q} m (eLoc d)) ∗ (aLoc d ↦[tileSetL L]{fullShare} m (aLoc d)))
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc0_adj L eW (Memref.isWhole_whole _) aW (Memref.isWhole_whole _)
            sS (Memref.isWhole_whole _) sD (Memref.isWhole_whole _) sA (Memref.isWhole_whole _) cc0_scoped0 cc0_scoped1 cc0_scoped2)
          fun _ => iprop(((eLoc d ↦{q} m (eLoc d)) ∗ ∃ f, ⌜TileFact m d (L 0).val (L 1).val f⌝ ∗ (aLoc d ↦[tileSetL L]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_adj_eq_skeleton]; unfold cc0_adj_skel
  rw [(K (F := Ideal)).scopedBufs_V hF d (cV L) (jV L), SparseCore.Cfg.scopedSems0_V (Val := Elt Ideal) d (cV L) (jV L), ownSems0_V, ownBufs_V]
  iintro ⟨#Hlv, -, ⟨He, Ha⟩, ⟨⟨%f0, Hs0⟩, ⟨%f1, Hs1⟩, ⟨%f2, Hs2⟩, Hbufs⟩, ⟨HsemA, HsemX, HsemB, Hsems⟩, HO⟩
  ihave Hmw := ((K (F := Ideal)).mayWaits_none (thr := V d (cV L) (jV L)) hO) $$ Hlv
  ihave He := (Entails.of_eq (pts_e (F := Ideal) d L q _).symm) $$ He
  ihave Ha := (Entails.of_eq (pts_a (F := Ideal) d L _).symm) $$ Ha
  ihave Hs0 := (Entails.of_eq (pts_s0 (F := Ideal) d L _).symm) $$ Hs0
  ihave Hs1 := (Entails.of_eq (pts_s1 (F := Ideal) d L _).symm) $$ Hs1
  ihave Hs2 := (Entails.of_eq (pts_s2 (F := Ideal) d L _).symm) $$ Hs2
  sl_exec
  sl_for (inv1v d (cV L) (jV L)) $$ [Hs2]
  case region =>
    intro k hk
    unfold inv1v
    iintro ⟨%f, Hs2, %hf⟩
    sl_exec
    sl_step
    iexists _; isplitl [Hs2]
    · iexact Hs2
    · ipureintro
      intro j hj
      exact clear_step k f hf _ _ _ _ _ _ _ _ j hj
  · unfold inv1v
    iexists _; isplitl [Hs2]
    · iexact Hs2
    · ipureintro
      intro j hj
      exact absurd hj (by omega)
  iintro %_ HI
  unfold inv1v
  icases HI with ⟨%f2', Hs2, %hf2⟩
  sl_exec
  sl_for (inv2v m d L f2' (cV L) (jV L)) $$ [Hs0 Hs1 Hs2]
  case region =>
    intro k _
    unfold inv2v
    iintro ⟨⟨%g0, Hs0, %hg0⟩, ⟨%g1, Hs1, %hg1⟩, ⟨%f, Hs2, %hf⟩⟩
    have hk64 : k.val < 64 := lt_of_lt_of_le k.isLt Gen.k0_t2_abs.2.1
    have hg0' : ∀ j : S8192.Idx, (g0 j).toNat ≤ 511 := fun j => by
      obtain ⟨e, rfl⟩ : ∃ e : Fin 8192, j = ix1 e := ⟨j 0, eq_ix1 j⟩
      rw [hg0]; exact hpre d _
    sl_exec
    iapply (wp_assume _ _ _ _ (chk1 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' f k 0 (8 * k.val + 1) (by decide) hk64 rfl g0 g1 hg0 hg1 _ _
      (Gen.k0_off2_eq k) (by omega) _ _ _ (pay1_eq (F := Ideal) (loW L) _ _) _ hf) $$ Hs2
    icases Hs2 with ⟨%T1, Hs2, %hT1⟩
    iapply (wp_assume _ _ _ _ (chk2 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' T1 k 1 (8 * k.val + 2) (by decide) hk64 rfl g0 g1 hg0 hg1 _ _
      (Gen.k0_off3_eq k) (by omega) _ _ _ (pay2_eq (F := Ideal) (loW L) _ _) _ hT1) $$ Hs2
    icases Hs2 with ⟨%T2, Hs2, %hT2⟩
    iapply (wp_assume _ _ _ _ (chk3 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' T2 k 2 (8 * k.val + 3) (by decide) hk64 rfl g0 g1 hg0 hg1 _ _
      (Gen.k0_off4_eq k) (by omega) _ _ _ (pay3_eq (F := Ideal) (loW L) _ _) _ hT2) $$ Hs2
    icases Hs2 with ⟨%T3, Hs2, %hT3⟩
    iapply (wp_assume _ _ _ _ (chk4 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' T3 k 3 (8 * k.val + 4) (by decide) hk64 rfl g0 g1 hg0 hg1 _ _
      (Gen.k0_off5_eq k) (by omega) _ _ _ (pay4_eq (F := Ideal) (loW L) _ _) _ hT3) $$ Hs2
    icases Hs2 with ⟨%T4, Hs2, %hT4⟩
    iapply (wp_assume _ _ _ _ (chk5 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' T4 k 4 (8 * k.val + 5) (by decide) hk64 rfl g0 g1 hg0 hg1 _ _
      (Gen.k0_off6_eq k) (by omega) _ _ _ (pay5_eq (F := Ideal) (loW L) _ _) _ hT4) $$ Hs2
    icases Hs2 with ⟨%T5, Hs2, %hT5⟩
    iapply (wp_assume _ _ _ _ (chk6 (F := Ideal) (loW L) (loW_le L) _ _ (readAt_le (F := Ideal) g0 hg0' _ _)))
    rw [SparseCore.vectorStoreIdx_bind (c := V d (cV L) (jV L))]
    sl_exec
    sl_unfold_run_names
    ihave Hs2 := (acc_site m d L (cV L) (jV L) f2' T5 k 5 (8 * k.val + 6) (by decide) hk64 rfl g0 g1 hg0 hg1 _ _
      (Gen.k0_off7_eq k) (by omega) _ _ _ (pay6_eq (F := Ideal) (loW L) _ _) _ hT5) $$ Hs2
    icases Hs2 with ⟨%T6, Hs2, %hT6⟩
    iapply (wp_assume _ _ _ _ (chk7 (F := Ideal) L _ _ (readAt_le (F := Ideal) g0 hg0' _ _)))
    rw [SparseCore.vectorStoreIdx_bind (c := V d (cV L) (jV L))]
    sl_exec
    sl_unfold_run_names
    ihave Hs2 := (acc_site m d L (cV L) (jV L) f2' T6 k 6 (8 * k.val + 7) (by decide) hk64 rfl g0 g1 hg0 hg1 _ _
      (Gen.k0_off8_eq k) (by omega) _ _ _ (pay10_eq (F := Ideal) L _ _) _ hT6) $$ Hs2
    icases Hs2 with ⟨%T7, Hs2, %hT7⟩
    iapply (wp_assume _ _ _ _ (chk8 (F := Ideal) L _ _ (readAt_le (F := Ideal) g0 hg0' _ _)))
    rw [SparseCore.vectorStoreIdx_bind (c := V d (cV L) (jV L))]
    sl_exec
    sl_unfold_run_names
    ihave Hs2 := (acc_site m d L (cV L) (jV L) f2' T7 k 7 (8 * (k.val + 1)) (by decide) hk64 (by omega) g0 g1 hg0 hg1 _ _
      (Gen.k0_off9_eq k) (by omega) _ _ _ (pay11_eq (F := Ideal) L _ _) _ hT7) $$ Hs2
    icases Hs2 with ⟨%T8, Hs2, %hT8⟩
    sl_step
    isplitl [Hs0]
    · iexists g0; isplitl [Hs0]
      · iexact Hs0
      · ipureintro; exact hg0
    isplitl [Hs1]
    · iexists g1; isplitl [Hs1]
      · iexact Hs1
      · ipureintro; exact hg1
    · iexists T8; isplitl [Hs2]
      · iexact Hs2
      · ipureintro; exact hT8
  · unfold inv2v
    isplitl [Hs0]
    · iexists _; isplitl [Hs0]
      · iexact Hs0
      · ipureintro; intro e
        show (View.whole cc0_scratch0).write (Elt Ideal) f0 _ Finset.univ (ix1 e) = srcOf m d e
        rw [View.write_whole_univ]
        sl_unfold_run_names
        refine ((View.read_apply _ _).trans (cast_eq _ _)).trans ?_
        exact congrArg (m (eLoc d)) (row0_emb e _ _ _)
    isplitl [Hs1]
    · iexists _; isplitl [Hs1]
      · iexact Hs1
      · ipureintro; intro e
        show (View.whole cc0_scratch1).write (Elt Ideal) f1 _ Finset.univ (ix1 e) = dstOf m d e
        rw [View.write_whole_univ]
        sl_unfold_run_names
        refine ((View.read_apply _ _).trans (cast_eq _ _)).trans ?_
        exact congrArg (m (eLoc d)) (row1_emb e _ _ _)
    · iexists f2'; isplitl [Hs2]
      · iexact Hs2
      · ipureintro; intro j
        simp
  iintro %_ HI
  unfold inv2v
  icases HI with ⟨⟨%g0, Hs0, %hg0⟩, ⟨%g1, Hs1, %hg1⟩, ⟨%fA, Hs2, %hfA⟩⟩
  sl_exec
  sl_step
  isplitl [He Ha]
  · isplitl [He]
    · iapply (Entails.of_eq (pts_e (F := Ideal) d L q _)); iexact He
    · iexists _; isplitr
      swap
      · iapply (Entails.of_eq (pts_a (F := Ideal) d L _)); iexact Ha
      · ipureintro; intro r s h0 h1
        have hr := r.isLt
        have hs := s.isLt
        have key := fun w => out_write L (m (aLoc d)) w ⟨512 * r.val + s.val, by omega⟩
          (by show 131072 * (L 0).val + 8192 * (L 1).val + (512 * r.val + s.val) < 262144; omega)
        have e1 : (⟨131072 * (L 0).val + 8192 * (L 1).val + 512 * r.val + s.val, by omega⟩ : Fin 262144)
            = ⟨131072 * (L 0).val + 8192 * (L 1).val + (⟨512 * r.val + s.val, by omega⟩ : Fin 8192).val,
                by show 131072 * (L 0).val + 8192 * (L 1).val + (512 * r.val + s.val) < 262144; omega⟩ :=
          Fin.ext (by
            show 131072 * (L 0).val + 8192 * (L 1).val + 512 * r.val + s.val
              = 131072 * (L 0).val + 8192 * (L 1).val + (512 * r.val + s.val)
            omega)
        rw [e1, key]
        sl_unfold_run_names
        refine ((View.read_apply _ _).trans (cast_eq _ _)).trans ?_
        rw [acc_slice_emb, hfA, hf2 _ (by rw [trips1_eq]; show 512 * r.val + s.val < 128 * 64; omega), zero_add, trips2_eq]
        refine (hits_total (loW L) (16 * (L 0).val + (L 1).val) (by omega) (loW_toNat L) (srcOf m d) (dstOf m d)
          (fun k => hpre d _) r s).trans ?_
        rw [show Cert.Spec.edgeRows (srcOf m d) (dstOf m d) = Cert.Spec.edges (m (eLoc d)) from
          Cert.Spec.edgeRows_edges (m (eLoc d))]
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemA HsemX HsemB Hsems]
  · isplitl [HsemA]; · iexact HsemA
    isplitl [HsemX]; · iexact HsemX
    isplitl [HsemB]; · iexact HsemB
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-- The tile's task with its value, in the form the launch asks for. -/
theorem tileValue (m : (ℓ : Loc nD τ sig) → Buf (Elt Ideal) ℓ) (hpre : PreOK m) : TileValue (F := Ideal) m (TileFact m) :=
  fun d L q O W hO => tile_value m d L q (facts (F := Ideal)) hpre O W hO

end Cert.Proof.KI

end
-- ==== Proof.RegionValueFinal.lean ====
import proofs.«208141_g20598663152203_cont_8to1_341_30_alg».proof.Proof.RegionValue
import Idealize.ShloMosaic.Lib.Pipeline.FrameBody

noncomputable section

namespace Cert.KernelIdeal.Region

open Cert.KernelIdeal Cert.KernelIdeal.Gen

open Idealize.ShloMosaic
open Idealize.ShloMosaic.TcCoe
open Idealize.SL Idealize.SL.RA Idealize.SL.BI
open Idealize.ShloMosaic.Pipeline (RDat Dat Cfg Window cellOf)

variable {F : FTy → Type} [FloatOps F]
variable {Ix : Type} [DecidableEq Ix] {Name : Type} [DecidableEq Name] {U : Type} [URA U] {Lvl : Type} [Preorder Lvl]

variable (𝒱₀ : Variants) (V : Val1 F) (O : Dev nD → CellTallies nD τ sig Ix) (B : Dev nD → Set (SemLoc sig × Ix))

theorem isOut_in : ∀ w : Fin cfg1.W, w ≠ 12 → (cfg1.win w).isOut = false
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, h => absurd rfl h
  | ⟨_ + 13, h⟩, _ => absurd h (Nat.not_lt.2 (Nat.le_add_left _ _))

/-- No window's block is cut at any point. -/
theorem clip_const : ∀ (w : Fin cfg1.W) (t t' : Fin cfg1.N), (cfg1.win w).clip (cfg1.grid.coords t) = (cfg1.win w).clip (cfg1.grid.coords t')
  | ⟨0, _⟩, _, _ => rfl
  | ⟨1, _⟩, _, _ => rfl
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨9, _⟩, _, _ => rfl
  | ⟨10, _⟩, _, _ => rfl
  | ⟨11, _⟩, _, _ => rfl
  | ⟨12, _⟩, _, _ => rfl
  | ⟨_ + 13, h⟩, _, _ => absurd h (Nat.not_lt.2 (Nat.le_add_left _ _))

/-- Whatever an operand's current staging buffer may hold at a point is what a fetch there puts in it. -/
theorem in_fetched [∀ e, Nonempty (Elt F e)] (c : Dev nD) (w : Fin cfg1.W) (hw : w ≠ 12) (t : Fin cfg1.N) (Y : Blk F w)
    (h : (rdIn (Ix := Ix) (Name := Name) (U := U) (Lvl := Lvl) V O B 0 c).Finds w t Y) : ∃ d, Y = (rdIn (Ix := Ix) (Name := Name) (U := U) (Lvl := Lvl) V O B 0 c).fetched w t d :=
  RDat.finds_in_eq_fetched (rdIn (Ix := Ix) (Name := Name) (U := U) (Lvl := Lvl) V O B 0 c) w (isOut_in w hw) (fun t t' _ => clip_const w t t') (fun _ _ _ h => h) t Y h

/-- The result's relation, unfolded. -/
theorem after12_iff (c : Dev nD) (t : Fin cfg1.N) (Y X : Blk F 12) :
    (rdV (Ix := Ix) (Name := Name) (U := U) (Lvl := Lvl) 𝒱₀ V O B 0 c).after 12 t Y X ↔ outRel (Ix := Ix) (Name := Name) (U := U) (Lvl := Lvl) 𝒱₀ V O B c t Y X := by
  unfold rdV
  rw [RDat.override_after_of_eq_some _ (show ovr (Ix := Ix) (Name := Name) (U := U) (Lvl := Lvl) 𝒱₀ V O B c 12 = some (outRel (Ix := Ix) (Name := Name) (U := U) (Lvl := Lvl) 𝒱₀ V O B c) from rfl)]

/-- What the result's array may hold after both points: its block written once, after the second point, with THE STEP there
    of THE STEP at the first point. -/
theorem arrAt_outV (c : Dev nD) (G : Buf (Elt F) ((cfg1.win 12).arr.view.loc (c : Thread nD τ)))
    (h : (rdV (Ix := Ix) (Name := Name) (U := U) (Lvl := Lvl) 𝒱₀ V O B 0 c).ArrAt 12 cfg1.N G) :
    ∃ (Y0 : Blk F 12) (Yin0 Yin1 : (w : Fin cfg1.W) → Blk F w),
      (∀ w, w ≠ 12 → (rdIn (Ix := Ix) (Name := Name) (U := U) (Lvl := Lvl) V O B 0 c).Finds w t1_0 (Yin0 w)) ∧ (∀ w, w ≠ 12 → (rdIn (Ix := Ix) (Name := Name) (U := U) (Lvl := Lvl) V O B 0 c).Finds w t1_1 (Yin1 w)) ∧
      G = ((cfg1.win 12).blk t1_1).view.write (Elt F) ((rdV (Ix := Ix) (Name := Name) (U := U) (Lvl := Lvl) 𝒱₀ V O B 0 c).A 12)
            ((cfg1.win 12).cut (grid1.coords t1_1) (stepX 𝒱₀ c t1_1 Yin1 (stepX 𝒱₀ c t1_0 Yin0 Y0))) Finset.univ := by
  have h1 : 1 < cfg1.N := by decide
  have h0 : 0 < cfg1.N := by decide
  have hf1 : (cfg1.win 12).flush ⟨1, h1⟩ = true := (flush1_12 ⟨1, h1⟩).mpr rfl
  have hf0 : (cfg1.win 12).flush ⟨0, h0⟩ = false := by
    cases hb : (cfg1.win 12).flush ⟨0, h0⟩ with
    | false => rfl
    | true => exact absurd ((flush1_12 ⟨0, h0⟩).mp hb) (by simp)
  rw [show cfg1.N = 1 + 1 from N_1] at h
  simp only [RDat.ArrAt, dif_pos h1, dif_pos h0, hf1, hf0, ↓reduceIte, Bool.false_eq_true] at h
  obtain ⟨G₀, X, hG₀, ⟨Y, hFY, hRX⟩, rfl⟩ := h
  subst hG₀
  obtain ⟨Yin1, hIn1, rfl⟩ := (after12_iff 𝒱₀ V O B c _ _ _).mp hRX
  have hfe : (cfg1.win 12).fetch ⟨1, h1⟩ = false := rfl
  rcases ((rdV (Ix := Ix) (Name := Name) (U := U) (Lvl := Lvl) 𝒱₀ V O B 0 c).finds_of_pos hfe (by simp) Y).mp hFY with hfl | ⟨Y0, hFY0, hR0⟩
  · exact absurd (hfl.symm.trans hf0) (by simp)
  obtain ⟨Yin0, hIn0, rfl⟩ := (after12_iff 𝒱₀ V O B c _ _ _).mp hR0
  exact ⟨Y0, Yin0, Yin1, hIn0, hIn1, rfl⟩

end Cert.KernelIdeal.Region
-- ==== Proof.RegionFetched.lean ====
/-
  What the region's operands look like from inside a grid point. Every operand's block but the features' is its whole
  array (block index 0 on each axis), so a fetch leaves the array itself in the staging buffer, index by index; the
  features' block at point t is the 256 eigen-channels from 256 t on; and the result's block is the whole result,
  written back uncut, so the array after the write-back is what the staging buffer held, index by index.
-/
import proofs.«208141_g20598663152203_cont_8to1_341_30_alg».proof.Proof.RegionValueFinal
import Idealize.ShloMosaic.Lib.ValueIdx

noncomputable section

namespace Cert.KernelIdeal.Region

open Cert.KernelIdeal Cert.KernelIdeal.Gen

open Idealize.ShloMosaic
open Idealize.ShloMosaic.TcCoe
open Idealize.ShloMosaic.ValueIdx
open Idealize.SL Idealize.SL.RA Idealize.SL.BI
open Idealize.ShloMosaic.Pipeline (RDat Dat Cfg Window cellOf)

variable {F : FTy → Type} [FloatOps F]
variable {Ix : Type} [DecidableEq Ix] {Name : Type} [DecidableEq Name] {U : Type} [URA U] {Lvl : Type} [Preorder Lvl]

variable (V : Val1 F) (O : Dev nD → CellTallies nD τ sig Ix) (B : Dev nD → Set (SemLoc sig × Ix))

/-! ## The printed index maps, decided over the two grid points -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_9 : ∀ t : Fin cfg1.N, win1_9.index t (0 : Fin 3) = 0 ∧ win1_9.index t (1 : Fin 3) = 0 ∧ win1_9.index t (2 : Fin 3) = t.val :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)

/-! ## What a fetch leaves in an operand's staging buffer, at an index: the array there (a whole-array window's block is the array) -/

theorem fetched_0 (c : Dev nD) (t : Fin cfg1.N) (d : Blk F 0) (j : (cfg1.win 0).block.Idx) :
    (rdIn (Ix := Ix) (Name := Name) (U := U) (Lvl := Lvl) V O B 0 c).fetched 0 t d j = V c main_v5 j := by
  have hm : (cfg1.win 0).moved (cfg1.grid.coords t) j = true := ((cfg1.win 0).moved_iff _ j).mpr fun a => (j a).isLt
  unfold RDat.fetched Window.fill
  rw [dif_pos hm]
  unfold RDat.blockOf
  rw [View.read_apply]
  refine (cast_eq _ _).trans ?_
  show V c main_v5 _ = V c main_v5 j
  refine congrArg (V c main_v5) (funext fun a => Fin.ext ?_)
  obtain ⟨e0, e1⟩ := idx1_0 t
  match a with
  | ⟨0, _⟩ => show win1_0.index t (0 : Fin 2) * 1 + 1 * (j 0).val = (j 0).val; omega
  | ⟨1, _⟩ => show win1_0.index t (1 : Fin 2) * 1 + 1 * (j 1).val = (j 1).val; omega

theorem fetched_1 (c : Dev nD) (t : Fin cfg1.N) (d : Blk F 1) (j : (cfg1.win 1).block.Idx) :
    (rdIn (Ix := Ix) (Name := Name) (U := U) (Lvl := Lvl) V O B 0 c).fetched 1 t d j = V c main_v6 j := by
  have hm : (cfg1.win 1).moved (cfg1.grid.coords t) j = true := ((cfg1.win 1).moved_iff _ j).mpr fun a => (j a).isLt
  unfold RDat.fetched Window.fill
  rw [dif_pos hm]
  unfold RDat.blockOf
  rw [View.read_apply]
  refine (cast_eq _ _).trans ?_
  show V c main_v6 _ = V c main_v6 j
  refine congrArg (V c main_v6) (funext fun a => Fin.ext ?_)
  obtain ⟨e0, e1⟩ := idx1_1 t
  match a with
  | ⟨0, _⟩ => show win1_1.index t (0 : Fin 2) * 1 + 1 * (j 0).val = (j 0).val; omega
  | ⟨1, _⟩ => show win1_1.index t (1 : Fin 2) * 1 + 1 * (j 1).val = (j 1).val; omega

theorem fetched_2 (c : Dev nD) (t : Fin cfg1.N) (d : Blk F 2) (j : (cfg1.win 2).block.Idx) :
    (rdIn (Ix := Ix) (Name := Name) (U := U) (Lvl := Lvl) V O B 0 c).fetched 2 t d j = V c main_arg2 j := by
  have hm : (cfg1.win 2).moved (cfg1.grid.coords t) j = true := ((cfg1.win 2).moved_iff _ j).mpr fun a => (j a).isLt
  unfold RDat.fetched Window.fill
  rw [dif_pos hm]
  unfold RDat.blockOf
  rw [View.read_apply]
  refine (cast_eq _ _).trans ?_
  show V c main_arg2 _ = V c main_arg2 j
  refine congrArg (V c main_arg2) (funext fun a => Fin.ext ?_)
  obtain ⟨e0, e1⟩ := idx1_2 t
  match a with
  | ⟨0, _⟩ => show win1_2.index t (0 : Fin 2) * 8 + 1 * (j 0).val = (j 0).val; omega
  | ⟨1, _⟩ => show win1_2.index t (1 : Fin 2) * 16 + 1 * (j 1).val = (j 1).val; omega

theorem fetched_3 (c : Dev nD) (t : Fin cfg1.N) (d : Blk F 3) (j : (cfg1.win 3).block.Idx) :
    (rdIn (Ix := Ix) (Name := Name) (U := U) (Lvl := Lvl) V O B 0 c).fetched 3 t d j = V c main_arg4 j := by
  have hm : (cfg1.win 3).moved (cfg1.grid.coords t) j = true := ((cfg1.win 3).moved_iff _ j).mpr fun a => (j a).isLt
  unfold RDat.fetched Window.fill
  rw [dif_pos hm]
  unfold RDat.blockOf
  rw [View.read_apply]
  refine (cast_eq _ _).trans ?_
  show V c main_arg4 _ = V c main_arg4 j
  refine congrArg (V c main_arg4) (funext fun a => Fin.ext ?_)
  obtain ⟨e0, e1⟩ := idx1_3 t
  match a with
  | ⟨0, _⟩ => show win1_3.index t (0 : Fin 2) * 16 + 1 * (j 0).val = (j 0).val; omega
  | ⟨1, _⟩ => show win1_3.index t (1 : Fin 2) * 16 + 1 * (j 1).val = (j 1).val; omega

theorem fetched_4 (c : Dev nD) (t : Fin cfg1.N) (d : Blk F 4) (j : (cfg1.win 4).block.Idx) :
    (rdIn (Ix := Ix) (Name := Name) (U := U) (Lvl := Lvl) V O B 0 c).fetched 4 t d j = V c main_arg7 j := by
  have hm : (cfg1.win 4).moved (cfg1.grid.coords t) j = true := ((cfg1.win 4).moved_iff _ j).mpr fun a => (j a).isLt
  unfold RDat.fetched Window.fill
  rw [dif_pos hm]
  unfold RDat.blockOf
  rw [View.read_apply]
  refine (cast_eq _ _).trans ?_
  show V c main_arg7 _ = V c main_arg7 j
  refine congrArg (V c main_arg7) (funext fun a => Fin.ext ?_)
  obtain ⟨e0, e1⟩ := idx1_4 t
  match a with
  | ⟨0, _⟩ => show win1_4.index t (0 : Fin 2) * 16 + 1 * (j 0).val = (j 0).val; omega
  | ⟨1, _⟩ => show win1_4.index t (1 : Fin 2) * 16 + 1 * (j 1).val = (j 1).val; omega

theorem fetched_5 (c : Dev nD) (t : Fin cfg1.N) (d : Blk F 5) (j : (cfg1.win 5).block.Idx) :
    (rdIn (Ix := Ix) (Name := Name) (U := U) (Lvl := Lvl) V O B 0 c).fetched 5 t d j = V c main_v7 j := by
  have hm : (cfg1.win 5).moved (cfg1.grid.coords t) j = true := ((cfg1.win 5).moved_iff _ j).mpr fun a => (j a).isLt
  unfold RDat.fetched Window.fill
  rw [dif_pos hm]
  unfold RDat.blockOf
  rw [View.read_apply]
  refine (cast_eq _ _).trans ?_
  show V c main_v7 _ = V c main_v7 j
  refine congrArg (V c main_v7) (funext fun a => Fin.ext ?_)
  obtain ⟨e0, e1⟩ := idx1_5 t
  match a with
  | ⟨0, _⟩ => show win1_5.index t (0 : Fin 2) * 1 + 1 * (j 0).val = (j 0).val; omega
  | ⟨1, _⟩ => show win1_5.index t (1 : Fin 2) * 16 + 1 * (j 1).val = (j 1).val; omega

theorem fetched_6 (c : Dev nD) (t : Fin cfg1.N) (d : Blk F 6) (j : (cfg1.win 6).block.Idx) :
    (rdIn (Ix := Ix) (Name := Name) (U := U) (Lvl := Lvl) V O B 0 c).fetched 6 t d j = V c main_v8 j := by
  have hm : (cfg1.win 6).moved (cfg1.grid.coords t) j = true := ((cfg1.win 6).moved_iff _ j).mpr fun a => (j a).isLt
  unfold RDat.fetched Window.fill
  rw [dif_pos hm]
  unfold RDat.blockOf
  rw [View.read_apply]
  refine (cast_eq _ _).trans ?_
  show V c main_v8 _ = V c main_v8 j
  refine congrArg (V c main_v8) (funext fun a => Fin.ext ?_)
  obtain ⟨e0, e1⟩ := idx1_6 t
  match a with
  | ⟨0, _⟩ => show win1_6.index t (0 : Fin 2) * 1 + 1 * (j 0).val = (j 0).val; omega
  | ⟨1, _⟩ => show win1_6.index t (1 : Fin 2) * 16 + 1 * (j 1).val = (j 1).val; omega

theorem fetched_7 (c : Dev nD) (t : Fin cfg1.N) (d : Blk F 7) (j : (cfg1.win 7).block.Idx) :
    (rdIn (Ix := Ix) (Name := Name) (U := U) (Lvl := Lvl) V O B 0 c).fetched 7 t d j = V c main_v9 j := by
  have hm : (cfg1.win 7).moved (cfg1.grid.coords t) j = true := ((cfg1.win 7).moved_iff _ j).mpr fun a => (j a).isLt
  unfold RDat.fetched Window.fill
  rw [dif_pos hm]
  unfold RDat.blockOf
  rw [View.read_apply]
  refine (cast_eq _ _).trans ?_
  show V c main_v9 _ = V c main_v9 j
  refine congrArg (V c main_v9) (funext fun a => Fin.ext ?_)
  obtain ⟨e0, e1⟩ := idx1_7 t
  match a with
  | ⟨0, _⟩ => show win1_7.index t (0 : Fin 2) * 1 + 1 * (j 0).val = (j 0).val; omega
  | ⟨1, _⟩ => show win1_7.index t (1 : Fin 2) * 16 + 1 * (j 1).val = (j 1).val; omega

theorem fetched_8 (c : Dev nD) (t : Fin cfg1.N) (d : Blk F 8) (j : (cfg1.win 8).block.Idx) :
    (rdIn (Ix := Ix) (Name := Name) (U := U) (Lvl := Lvl) V O B 0 c).fetched 8 t d j = V c main_v4 j := by
  have hm : (cfg1.win 8).moved (cfg1.grid.coords t) j = true := ((cfg1.win 8).moved_iff _ j).mpr fun a => (j a).isLt
  unfold RDat.fetched Window.fill
  rw [dif_pos hm]
  unfold RDat.blockOf
  rw [View.read_apply]
  refine (cast_eq _ _).trans ?_
  show V c main_v4 _ = V c main_v4 j
  refine congrArg (V c main_v4) (funext fun a => Fin.ext ?_)
  obtain ⟨e0, e1⟩ := idx1_8 t
  match a with
  | ⟨0, _⟩ => show win1_8.index t (0 : Fin 2) * 512 + 1 * (j 0).val = (j 0).val; omega
  | ⟨1, _⟩ => show win1_8.index t (1 : Fin 2) * 512 + 1 * (j 1).val = (j 1).val; omega

theorem fetched_10 (c : Dev nD) (t : Fin cfg1.N) (d : Blk F 10) (j : (cfg1.win 10).block.Idx) :
    (rdIn (Ix := Ix) (Name := Name) (U := U) (Lvl := Lvl) V O B 0 c).fetched 10 t d j = V c main_arg9 j := by
  have hm : (cfg1.win 10).moved (cfg1.grid.coords t) j = true := ((cfg1.win 10).moved_iff _ j).mpr fun a => (j a).isLt
  unfold RDat.fetched Window.fill
  rw [dif_pos hm]
  unfold RDat.blockOf
  rw [View.read_apply]
  refine (cast_eq _ _).trans ?_
  show V c main_arg9 _ = V c main_arg9 j
  refine congrArg (V c main_arg9) (funext fun a => Fin.ext ?_)
  obtain ⟨e0, e1⟩ := idx1_10 t
  match a with
  | ⟨0, _⟩ => show win1_10.index t (0 : Fin 2) * 16 + 1 * (j 0).val = (j 0).val; omega
  | ⟨1, _⟩ => show win1_10.index t (1 : Fin 2) * 16 + 1 * (j 1).val = (j 1).val; omega

theorem fetched_11 (c : Dev nD) (t : Fin cfg1.N) (d : Blk F 11) (j : (cfg1.win 11).block.Idx) :
    (rdIn (Ix := Ix) (Name := Name) (U := U) (Lvl := Lvl) V O B 0 c).fetched 11 t d j = V c main_v10 j := by
  have hm : (cfg1.win 11).moved (cfg1.grid.coords t) j = true := ((cfg1.win 11).moved_iff _ j).mpr fun a => (j a).isLt
  unfold RDat.fetched Window.fill
  rw [dif_pos hm]
  unfold RDat.blockOf
  rw [View.read_apply]
  refine (cast_eq _ _).trans ?_
  show V c main_v10 _ = V c main_v10 j
  refine congrArg (V c main_v10) (funext fun a => Fin.ext ?_)
  obtain ⟨e0, e1⟩ := idx1_11 t
  match a with
  | ⟨0, _⟩ => show win1_11.index t (0 : Fin 2) * 1 + 1 * (j 0).val = (j 0).val; omega
  | ⟨1, _⟩ => show win1_11.index t (1 : Fin 2) * 16 + 1 * (j 1).val = (j 1).val; omega

/-- The features' window: its block at point t is the channels 256 t … 256 t + 255 of the array. -/
theorem fetched_9 (c : Dev nD) (t : Fin cfg1.N) (d : Blk F 9) (dch : Fin 8) (s : Fin 512) (mm : Fin 256) :
    (rdIn (Ix := Ix) (Name := Name) (U := U) (Lvl := Lvl) V O B 0 c).fetched 9 t d (ix3 dch s mm)
      = V c main_v2 (ix3 dch s ⟨256 * t.val + mm.val, by have := t.isLt; have := mm.isLt; have h2 : cfg1.N = 2 := N_1; omega⟩) := by
  have hm : (cfg1.win 9).moved (cfg1.grid.coords t) (ix3 dch s mm) = true :=
    ((cfg1.win 9).moved_iff _ _).mpr fun a => ((ix3 dch s mm : (cfg1.win 9).block.Idx) a).isLt
  unfold RDat.fetched Window.fill
  rw [dif_pos hm]
  unfold RDat.blockOf
  rw [View.read_apply]
  refine (cast_eq _ _).trans ?_
  show V c main_v2 _ = V c main_v2 _
  refine congrArg (V c main_v2) (funext fun a => Fin.ext ?_)
  obtain ⟨e0, e1, e2⟩ := idx1_9 t
  match a with
  | ⟨0, _⟩ => show win1_9.index t (0 : Fin 3) * 8 + 1 * dch.val = dch.val; omega
  | ⟨1, _⟩ => show win1_9.index t (1 : Fin 3) * 512 + 1 * s.val = s.val; omega
  | ⟨2, _⟩ => show win1_9.index t (2 : Fin 3) * 256 + 1 * mm.val = 256 * t.val + mm.val; omega

/-- The result read back: the result's block is the whole array, uncut, so an array whose block reads as the leading part
    of X is X, index by index. -/
theorem out_at (c : Dev nD) (G : Buf (Elt F) ((cfg1.win 12).arr.view.loc (c : Thread nD τ))) (X : Blk F 12)
    (h : ((cfg1.win 12).blk t1_1).view.read (Elt F) G = (cfg1.win 12).cut (grid1.coords t1_1) X) (n : Fin 512) (o : Fin 16) :
    G (ix2 n o) = X (ix2 n o) := by
  have hx := congrFun h (ix2 n o)
  rw [View.read_apply] at hx
  have e1 : (((cfg1.win 12).blk t1_1).view.emb (ix2 n o) : S512x16.Idx) = ix2 n o := by
    funext a; apply Fin.ext
    obtain ⟨e0, e1⟩ := idx1_12 t1_1
    match a with
    | ⟨0, _⟩ => show win1_12.index t1_1 (0 : Fin 2) * 512 + 1 * n.val = n.val; omega
    | ⟨1, _⟩ => show win1_12.index t1_1 (1 : Fin 2) * 16 + 1 * o.val = o.val; omega
  have e2 : (cfg1.win 12).cut (grid1.coords t1_1) X (ix2 n o) = X (ix2 n o) := congrArg X (funext fun a => Fin.ext rfl)
  calc G (ix2 n o) = G (((cfg1.win 12).blk t1_1).view.emb (ix2 n o)) := by rw [e1]
    _ = (cfg1.win 12).cut (grid1.coords t1_1) X (ix2 n o) := (cast_eq _ _).symm.trans hx
    _ = X (ix2 n o) := e2

end Cert.KernelIdeal.Region

end
-- ==== Proof.RegionValueStep.lean ====
import proofs.«208141_g20598663152203_cont_8to1_341_30_alg».proof.Proof.RegionValueFinal
import Idealize.ShloMosaic.Lib.WholeRead
import Idealize.ShloMosaic.Lib.Writes

noncomputable section

namespace Cert.KernelIdeal.Region

open Cert.KernelIdeal Cert.KernelIdeal.Gen

open Idealize.ShloMosaic
open Idealize.ShloMosaic.TcCoe
open Idealize.SL Idealize.SL.RA Idealize.SL.BI
open Idealize.ShloMosaic.Pipeline (RDat Dat Cfg Window cellOf)

variable {F : FTy → Type} [FloatOps F]

/-- The rectangle of the result's whole block. -/
abbrev R13 : Rect S512x16 := Rect.unit (s := S512x16) ![0, 0] S512x16.size inb_S512x16_S512x16_0_0

/-- The last four terms of the point's sum over the hidden channels, added to the first twelve. -/
def pe201 (v3005 v3007 v3009 v3011 : FVec F S512x1 .f32) (v3067 v3071 : FVec F S512x16 .f32)
    (v3073 v3078 v3083 v3088 : Vec F S1x16 .f32) : FVec F S512x16 .f32 :=
  addf (addf (addf (addf (addf v3067 v3071)
    (mulf (broadcastTo S512x16 v3005 broadcasts_S512x1_S512x16) (broadcastTo S512x16 v3073 broadcasts_S1x16_S512x16)))
    (mulf (broadcastTo S512x16 v3007 broadcasts_S512x1_S512x16) (broadcastTo S512x16 v3078 broadcasts_S1x16_S512x16)))
    (mulf (broadcastTo S512x16 v3009 broadcasts_S512x1_S512x16) (broadcastTo S512x16 v3083 broadcasts_S1x16_S512x16)))
    (mulf (broadcastTo S512x16 v3011 broadcasts_S512x1_S512x16) (broadcastTo S512x16 v3088 broadcasts_S1x16_S512x16))

/-- The body's last value: what the result's buffer held, plus the point's sum. -/
theorem k1_pay201_eq (v3005 v3007 v3009 v3011 : FVec F S512x1 .f32) (v3067 v3071 : FVec F S512x16 .f32)
    (v3073 v3078 v3083 v3088 : Vec F S1x16 .f32) (v3096 : Vec F S512x16 .f32) :
    k1_pay201 v3005 v3007 v3009 v3011 v3067 v3071 v3073 v3078 v3083 v3088 v3096
      = addf (shapeCast S512x16 v3096 shapeCasts_S512x16_S512x16) (pe201 v3005 v3007 v3009 v3011 v3067 v3071 v3073 v3078 v3083 v3088) := rfl

/-- THE POINT'S SUM: what point `t` adds to the result's block, a function of the operands' staging contents alone. -/
def peX (c : Dev nD) (t : Fin cfg1.N) (Yin : (w : Fin cfg1.W) → Blk F w) : FVec F S512x16 .f32 :=
  pe201 (kernelRunV.sl.r_878 c (st1_0 t) (st1_1 t) (st1_2 t) (st1_3 t) (st1_4 t) (st1_5 t) (st1_6 t) (st1_7 t) (st1_8 t) (st1_9 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9))) (kernelRunV.sl.r_879 c (st1_0 t) (st1_1 t) (st1_2 t) (st1_3 t) (st1_4 t) (st1_5 t) (st1_6 t) (st1_7 t) (st1_8 t) (st1_9 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9))) (kernelRunV.sl.r_880 c (st1_0 t) (st1_1 t) (st1_2 t) (st1_3 t) (st1_4 t) (st1_5 t) (st1_6 t) (st1_7 t) (st1_8 t) (st1_9 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9))) (kernelRunV.sl.r_881 c (st1_0 t) (st1_1 t) (st1_2 t) (st1_3 t) (st1_4 t) (st1_5 t) (st1_6 t) (st1_7 t) (st1_8 t) (st1_9 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9))) (kernelRunV.sl.r_883 c (st1_0 t) (st1_1 t) (st1_2 t) (st1_3 t) (st1_4 t) (st1_5 t) (st1_6 t) (st1_7 t) (st1_8 t) (st1_9 t) (st1_10 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9)) ((hs1_10 t).unread (Yin 10))) (kernelRunV.sl.r_884 c (st1_0 t) (st1_1 t) (st1_2 t) (st1_3 t) (st1_4 t) (st1_5 t) (st1_6 t) (st1_7 t) (st1_8 t) (st1_9 t) (st1_10 t) ((hs1_0 t).unread (Yin 0)) ((hs1_1 t).unread (Yin 1)) ((hs1_2 t).unread (Yin 2)) ((hs1_3 t).unread (Yin 3)) ((hs1_4 t).unread (Yin 4)) ((hs1_5 t).unread (Yin 5)) ((hs1_6 t).unread (Yin 6)) ((hs1_7 t).unread (Yin 7)) ((hs1_8 t).unread (Yin 8)) ((hs1_9 t).unread (Yin 9)) ((hs1_10 t).unread (Yin 10))) (View.readAt (Elt F) (st1_10 t).view (Rect.unit (s := S16x16) ![12, 0] S1x16.size inb_S16x16_S1x16_12_0).toLoadRect ((hs1_10 t).unread (Yin 10))) (View.readAt (Elt F) (st1_10 t).view (Rect.unit (s := S16x16) ![13, 0] S1x16.size inb_S16x16_S1x16_13_0).toLoadRect ((hs1_10 t).unread (Yin 10))) (View.readAt (Elt F) (st1_10 t).view (Rect.unit (s := S16x16) ![14, 0] S1x16.size inb_S16x16_S1x16_14_0).toLoadRect ((hs1_10 t).unread (Yin 10))) (View.readAt (Elt F) (st1_10 t).view (Rect.unit (s := S16x16) ![15, 0] S1x16.size inb_S16x16_S1x16_15_0).toLoadRect ((hs1_10 t).unread (Yin 10)))

variable (𝒱₀ : Variants)

/-- THE STEP at an index of the block: what the body read back of the result's buffer, plus the point's sum. -/
theorem stepX_emb (c : Dev nD) (t : Fin cfg1.N) (Yin : (w : Fin cfg1.W) → Blk F w) (Y : Blk F 12) (x : R13.shape.Idx) :
    stepX 𝒱₀ c t Yin Y (R13.emb x)
      = addf (shapeCast S512x16 (kernelRunV.sl.v3096 c (grid1.coords t) (st1_11 t) (st1_12 t) ((hs1_11 t).unread (Yin 11)) ((hs1_12 t).unread Y)) shapeCasts_S512x16_S512x16) (peX c t Yin) x := by
  unfold stepX peX
  rw [← k1_pay201_eq]
  exact View.read_writes_cons_emb _ _ R13 _ [] x

/-- The first point takes the branch that resets the result's block; the second does not. -/
theorem cond_first : kernelRunV.sl.v3095 (grid1.coords t1_0) = 1#1 := by decide
theorem cond_second : ¬ kernelRunV.sl.v3095 (grid1.coords t1_1) = 1#1 := by decide

/-- Where the branch is taken, the body reads back what it has just stored: 512 times the bias row, broadcast. -/
theorem v3096_first (c : Dev nD) (t : Fin cfg1.N) (hc : kernelRunV.sl.v3095 (grid1.coords t) = 1#1)
    (Yin : (w : Fin cfg1.W) → Blk F w) (Y : Blk F 12) :
    (kernelRunV.sl.v3096 c (grid1.coords t) (st1_11 t) (st1_12 t) ((hs1_11 t).unread (Yin 11)) ((hs1_12 t).unread Y)) = k1_pay200 (View.readAt (Elt F) (st1_11 t).view (Rect.unit (s := S1x16) ![0, 0] S1x16.size inb_S1x16_S1x16_0_0).toLoadRect ((hs1_11 t).unread (Yin 11))) := by
  funext x
  unfold kernelRunV.sl.v3096
  rw [dif_pos hc, View.readAt_apply]
  exact View.read_writes_cons_emb _ _ R13 _ [] x

/-- Where it is not, it reads what the buffer held. -/
theorem v3096_later (c : Dev nD) (t : Fin cfg1.N) (hc : ¬ kernelRunV.sl.v3095 (grid1.coords t) = 1#1)
    (Yin : (w : Fin cfg1.W) → Blk F w) (Y : Blk F 12) :
    (kernelRunV.sl.v3096 c (grid1.coords t) (st1_11 t) (st1_12 t) ((hs1_11 t).unread (Yin 11)) ((hs1_12 t).unread Y)) = fun x => Y (R13.toLoadRect.idx x) := by
  funext x
  unfold kernelRunV.sl.v3096
  rw [dif_neg hc]
  exact (hs1_12 t).readAt_unread Y _ x

/-- THE STEP at the first point: 512 times the bias row plus the point's sum, whatever the buffer held. -/
theorem stepX_first (c : Dev nD) (Yin : (w : Fin cfg1.W) → Blk F w) (Y : Blk F 12) (x : R13.shape.Idx) :
    stepX 𝒱₀ c t1_0 Yin Y (R13.emb x)
      = addf (shapeCast S512x16 (k1_pay200 (View.readAt (Elt F) (st1_11 t1_0).view (Rect.unit (s := S1x16) ![0, 0] S1x16.size inb_S1x16_S1x16_0_0).toLoadRect ((hs1_11 t1_0).unread (Yin 11)))) shapeCasts_S512x16_S512x16) (peX c t1_0 Yin) x := by
  rw [stepX_emb, v3096_first c t1_0 cond_first]

/-- THE STEP at the second point: what the buffer held plus the point's sum. -/
theorem stepX_second (c : Dev nD) (Yin : (w : Fin cfg1.W) → Blk F w) (Y : Blk F 12) (x : R13.shape.Idx) :
    stepX 𝒱₀ c t1_1 Yin Y (R13.emb x)
      = addf (shapeCast S512x16 (fun x => Y (R13.toLoadRect.idx x)) shapeCasts_S512x16_S512x16) (peX c t1_1 Yin) x := by
  rw [stepX_emb, v3096_later c t1_1 cond_second]

/-- BOTH POINTS: the second step of the first step is 512 times the bias row plus the two points' sums, whatever the
    result's buffer held before the first point. -/
theorem stepX_both (c : Dev nD) (Yin0 Yin1 : (w : Fin cfg1.W) → Blk F w) (Y0 : Blk F 12) (x : R13.shape.Idx) :
    stepX 𝒱₀ c t1_1 Yin1 (stepX 𝒱₀ c t1_0 Yin0 Y0) (R13.emb x)
      = addf (shapeCast S512x16
            (addf (shapeCast S512x16 (k1_pay200 (View.readAt (Elt F) (st1_11 t1_0).view (Rect.unit (s := S1x16) ![0, 0] S1x16.size inb_S1x16_S1x16_0_0).toLoadRect ((hs1_11 t1_0).unread (Yin0 11)))) shapeCasts_S512x16_S512x16) (peX c t1_0 Yin0))
            shapeCasts_S512x16_S512x16) (peX c t1_1 Yin1) x := by
  rw [stepX_second]
  have e : (fun x' => stepX 𝒱₀ c t1_0 Yin0 Y0 (R13.toLoadRect.idx x'))
      = addf (shapeCast S512x16 (k1_pay200 (View.readAt (Elt F) (st1_11 t1_0).view (Rect.unit (s := S1x16) ![0, 0] S1x16.size inb_S1x16_S1x16_0_0).toLoadRect ((hs1_11 t1_0).unread (Yin0 11)))) shapeCasts_S512x16_S512x16) (peX c t1_0 Yin0) := by
    funext x'
    exact stepX_first 𝒱₀ c Yin0 Y0 x'
  rw [e]

variable {Ix : Type} [DecidableEq Ix] {Name : Type} [DecidableEq Name] {U : Type} [URA U] {Lvl : Type} [Preorder Lvl]
variable (V : Val1 F) (O : Dev nD → CellTallies nD τ sig Ix) (B : Dev nD → Set (SemLoc sig × Ix))

/-- THE RESULT: whatever the result's array may hold after the region reads, through its block at the last point, as the
    second step of the first step, at contents the operands' staging buffers may hold at the two points. -/
theorem out_read (c : Dev nD) (G : Buf (Elt F) ((cfg1.win 12).arr.view.loc (c : Thread nD τ)))
    (h : (rdV (Ix := Ix) (Name := Name) (U := U) (Lvl := Lvl) 𝒱₀ V O B 0 c).ArrAt 12 cfg1.N G) :
    ∃ (Y0 : Blk F 12) (Yin0 Yin1 : (w : Fin cfg1.W) → Blk F w),
      (∀ w, w ≠ 12 → (rdIn (Ix := Ix) (Name := Name) (U := U) (Lvl := Lvl) V O B 0 c).Finds w t1_0 (Yin0 w)) ∧ (∀ w, w ≠ 12 → (rdIn (Ix := Ix) (Name := Name) (U := U) (Lvl := Lvl) V O B 0 c).Finds w t1_1 (Yin1 w)) ∧
      ((cfg1.win 12).blk t1_1).view.read (Elt F) G
        = (cfg1.win 12).cut (grid1.coords t1_1) (stepX 𝒱₀ c t1_1 Yin1 (stepX 𝒱₀ c t1_0 Yin0 Y0)) := by
  obtain ⟨Y0, Yin0, Yin1, h0, h1, rfl⟩ := arrAt_outV 𝒱₀ V O B c G h
  exact ⟨Y0, Yin0, Yin1, h0, h1, View.read_write_univ _ _⟩

end Cert.KernelIdeal.Region
-- ==== Proof.RegionValueChains.lean ====
/-
  Left-nested sums as the kernel's unrolled loops leave them, against the sums of the specification: a sum
  that starts from the float zero and adds its terms one after the other is the sum over the index set
  (addition on the extended reals is associative and commutative), and the rectifier is the maximum with zero.
-/
import Idealize.ShloMosaic.PureOps.Ideal.Laws
import Idealize.ShloMosaic.Lib.ValueIdx

noncomputable section

open scoped BigOperators

namespace Cert.KernelIdeal.Region

open Idealize.ShloMosaic

/-- The float zero, as the kernel's accumulations start from it. -/
abbrev Z : Ideal .f32 := (Scalar.ofBits .f32 0x00000000#32 : Ideal .f32)

theorem Z_eq : Z = (0 : EReal) := Ideal.ofBits_zero_f32

/-- The float one. -/
theorem one_f32 : (Scalar.ofBits .f32 0x3F800000#32 : Ideal .f32) = (1 : EReal) := by
  show Ideal.ofBits .f32 0x3F800000#32 = 1
  simp [Ideal.ofBits, Ideal.ieee, -EReal.coe_mul]; norm_num

theorem sum8 (a : Fin 8 → EReal) : ∑ d : Fin 8, a d = a 0 + a 1 + a 2 + a 3 + a 4 + a 5 + a 6 + a 7 :=
  Fin.sum_univ_eight a

theorem sum16 (a : Fin 16 → EReal) :
    ∑ f : Fin 16, a f = a 0 + a 1 + a 2 + a 3 + a 4 + a 5 + a 6 + a 7 + a 8 + a 9 + a 10 + a 11 + a 12 + a 13 + a 14 + a 15 := by
  have h := Fin.sum_univ_add (a := 8) (b := 8) (fun i : Fin (8 + 8) => a i)
  rw [Fin.sum_univ_eight, Fin.sum_univ_eight] at h
  refine Eq.trans h ?_
  simp only [← add_assoc]
  rfl

/-- Eight terms added onto zero one after the other, a bias, the rectifier. -/
theorem chain8 (a : Fin 8 → EReal) (b : EReal) :
    max (((((((((Z + a 0) + a 1) + a 2) + a 3) + a 4) + a 5) + a 6) + a 7) + b) Z = max (∑ d : Fin 8, a d + b) 0 := by
  rw [sum8, Z_eq, zero_add]

/-- Sixteen terms added onto zero one after the other, a bias, the rectifier. -/
theorem chain16 (a : Fin 16 → EReal) (b : EReal) :
    max (((((((((((((((((Z + a 0) + a 1) + a 2) + a 3) + a 4) + a 5) + a 6) + a 7) + a 8) + a 9) + a 10) + a 11) + a 12) + a 13) + a 14) + a 15) + b) Z = max (∑ f : Fin 16, a f + b) 0 := by
  rw [sum16, Z_eq, zero_add]

/-- Sixteen terms added onto zero one after the other. -/
theorem chain16' (a : Fin 16 → EReal) :
    ((((((((((((((((Z + a 0) + a 1) + a 2) + a 3) + a 4) + a 5) + a 6) + a 7) + a 8) + a 9) + a 10) + a 11) + a 12) + a 13) + a 14) + a 15) = ∑ f : Fin 16, a f := by
  rw [sum16, Z_eq, zero_add]

end Cert.KernelIdeal.Region

end
-- ==== Proof.SpecACongr.lean ====
/-
  The layers over a count matrix read the feature array at ONE channel: every aggregation and every dense
  layer acts along the node axis and the feature axis only.  So two feature arrays that agree on a pair of
  channels give the same values there.
-/
import proofs.«208141_g20598663152203_cont_8to1_341_30_alg».proof.Proof.SpecA

noncomputable section

open scoped BigOperators

namespace Cert.Spec

theorem h1A_congr (A : Fin 512 → Fin 512 → EReal) (W W' : Fin 512 → Fin 512 → Fin 8 → EReal) (eps1 : EReal) (n m m' : Fin 512) (d : Fin 8) (h : ∀ s d, W s m d = W' s m' d) :
    h1A A W eps1 n m d = h1A A W' eps1 n m' d := by
  unfold h1A
  rw [h n d]
  exact congrArg (_ + ·) (Finset.sum_congr rfl fun s _ => by rw [h s d])

theorem t1A_congr (A : Fin 512 → Fin 512 → EReal) (W W' : Fin 512 → Fin 512 → Fin 8 → EReal) (w1a : Fin 8 → Fin 16 → EReal) (b1a : Fin 16 → EReal) (eps1 : EReal) (n m m' : Fin 512) (f : Fin 16) (h : ∀ s d, W s m d = W' s m' d) :
    t1A A W w1a b1a eps1 n m f = t1A A W' w1a b1a eps1 n m' f := by
  unfold t1A
  exact congrArg (fun z => max (z + b1a f) 0)
    (Finset.sum_congr rfl fun d _ => by rw [h1A_congr A W W' eps1 n m m' d h])

theorem x1A_congr (A : Fin 512 → Fin 512 → EReal) (W W' : Fin 512 → Fin 512 → Fin 8 → EReal) (w1a : Fin 8 → Fin 16 → EReal) (b1a : Fin 16 → EReal) (w2a : Fin 16 → Fin 16 → EReal) (b2a : Fin 16 → EReal) (eps1 : EReal) (n m m' : Fin 512) (g : Fin 16) (h : ∀ s d, W s m d = W' s m' d) :
    x1A A W w1a b1a w2a b2a eps1 n m g = x1A A W' w1a b1a w2a b2a eps1 n m' g := by
  unfold x1A
  exact congrArg (fun z => max (z + b2a g) 0)
    (Finset.sum_congr rfl fun f _ => by rw [t1A_congr A W W' w1a b1a eps1 n m m' f h])

theorem h2A_congr (A : Fin 512 → Fin 512 → EReal) (W W' : Fin 512 → Fin 512 → Fin 8 → EReal) (w1a : Fin 8 → Fin 16 → EReal) (b1a : Fin 16 → EReal) (w2a : Fin 16 → Fin 16 → EReal) (b2a : Fin 16 → EReal) (eps1 eps2 : EReal) (n m m' : Fin 512) (g : Fin 16) (h : ∀ s d, W s m d = W' s m' d) :
    h2A A W w1a b1a w2a b2a eps1 eps2 n m g = h2A A W' w1a b1a w2a b2a eps1 eps2 n m' g := by
  unfold h2A
  rw [x1A_congr A W W' w1a b1a w2a b2a eps1 n m m' g h]
  exact congrArg (_ + ·) (Finset.sum_congr rfl fun s _ => by rw [x1A_congr A W W' w1a b1a w2a b2a eps1 s m m' g h])

theorem t2A_congr (A : Fin 512 → Fin 512 → EReal) (W W' : Fin 512 → Fin 512 → Fin 8 → EReal) (w1a : Fin 8 → Fin 16 → EReal) (b1a : Fin 16 → EReal) (w2a : Fin 16 → Fin 16 → EReal) (b2a : Fin 16 → EReal) (eps1 : EReal) (w1b : Fin 16 → Fin 16 → EReal) (b1b : Fin 16 → EReal) (eps2 : EReal) (n m m' : Fin 512) (f : Fin 16) (h : ∀ s d, W s m d = W' s m' d) :
    t2A A W w1a b1a w2a b2a eps1 w1b b1b eps2 n m f = t2A A W' w1a b1a w2a b2a eps1 w1b b1b eps2 n m' f := by
  unfold t2A
  exact congrArg (fun z => max (z + b1b f) 0)
    (Finset.sum_congr rfl fun g _ => by rw [h2A_congr A W W' w1a b1a w2a b2a eps1 eps2 n m m' g h])

end Cert.Spec

end
-- ==== Proof.RegionValueReads.lean ====
import proofs.«208141_g20598663152203_cont_8to1_341_30_alg».proof.Proof.RegionValueBody
import Idealize.ShloMosaic.Lib.WholeRead
import Idealize.ShloMosaic.PureOps.Ideal.Laws
import Idealize.ShloMosaic.Lib.ValueIdx

noncomputable section

namespace Cert.KernelIdeal.Region

open Cert.KernelIdeal Cert.KernelIdeal.Gen
open Idealize.ShloMosaic Idealize.ShloMosaic.ValueIdx
open scoped BigOperators

variable {sp : Space}

/-- A one-word load at (a, b) of a whole [p, q] buffer held at the contents that read `Y`: `Y` at (a, b). -/
theorem scal_read {p q : Nat} (M : Memref sig .tc sp (⟨2, ![p, q]⟩ : Shape) .f32) (h : M.IsWhole) (Y : (⟨2, ![p, q]⟩ : Shape).Idx → Ideal .f32)
    (a b : Nat) (ha : a < p) (hb : b < q) (inb : ∀ k, (![a, b] : Fin 2 → Nat) k + S1x1.size k ≤ (⟨2, ![p, q]⟩ : Shape).size k)
    (x : (Rect.unit (s := (⟨2, ![p, q]⟩ : Shape)) ![a, b] S1x1.size inb).toLoadRect.shape.Idx) :
    View.readAt (Elt Ideal) M.view (Rect.unit (s := (⟨2, ![p, q]⟩ : Shape)) ![a, b] S1x1.size inb).toLoadRect (h.unread Y) x
      = Y (ix2 ⟨a, ha⟩ ⟨b, hb⟩) := by
  rw [h.readAt_unread]
  refine congrArg Y (funext fun k => Fin.ext ?_)
  match k with
  | ⟨0, _⟩ =>
    have := (x ⟨0, (by decide : 0 < 2)⟩).isLt
    show a + 1 * (x ⟨0, (by decide : 0 < 2)⟩).val = a
    have h1 : (x ⟨0, (by decide : 0 < 2)⟩).val < 1 := this
    omega
  | ⟨1, _⟩ =>
    have := (x ⟨1, (by decide : 1 < 2)⟩).isLt
    show b + 1 * (x ⟨1, (by decide : 1 < 2)⟩).val = b
    have h1 : (x ⟨1, (by decide : 1 < 2)⟩).val < 1 := this
    omega

/-- A load of the [p', q'] rectangle at offset (a, b) of a whole [p, q] buffer held at the contents that read `Y`, at (i, j):
    `Y` at (a + i, b + j). -/
theorem rect2_read {p q p' q' : Nat} (M : Memref sig .tc sp (⟨2, ![p, q]⟩ : Shape) .f32) (h : M.IsWhole) (Y : (⟨2, ![p, q]⟩ : Shape).Idx → Ideal .f32)
    (a b : Nat) (inb : ∀ k, (![a, b] : Fin 2 → Nat) k + (⟨2, ![p', q']⟩ : Shape).size k ≤ (⟨2, ![p, q]⟩ : Shape).size k)
    (i : Fin p') (j : Fin q') (ha : a + i.val < p) (hb : b + j.val < q) :
    View.readAt (Elt Ideal) M.view (Rect.unit (s := (⟨2, ![p, q]⟩ : Shape)) ![a, b] (⟨2, ![p', q']⟩ : Shape).size inb).toLoadRect (h.unread Y) (ix2 i j)
      = Y (ix2 ⟨a + i.val, ha⟩ ⟨b + j.val, hb⟩) := by
  rw [h.readAt_unread]
  refine congrArg Y (funext fun k => Fin.ext ?_)
  match k with
  | ⟨0, _⟩ => show a + 1 * i.val = a + i.val; omega
  | ⟨1, _⟩ => show b + 1 * j.val = b + j.val; omega

/-- A load of channel `d` of the [8, 512, 256] block, at (s, mm). -/
theorem chan_read (M : Memref sig .tc sp S8x512x256 .bf16) (h : M.IsWhole) (Y : S8x512x256.Idx → Ideal .bf16)
    (d : Nat) (hd : d < 8) (inb : ∀ k, (![d, 0, 0] : Fin 3 → Nat) k + S1x512x256.size k ≤ S8x512x256.size k)
    (s : Fin 512) (mm : Fin 256) :
    View.readAt (Elt Ideal) M.view (Rect.unit (s := S8x512x256) ![d, 0, 0] S1x512x256.size inb).toLoadRect (h.unread Y) (ix3 (0 : Fin 1) s mm)
      = Y (ix3 ⟨d, hd⟩ s mm) := by
  rw [h.readAt_unread]
  refine congrArg Y (funext fun k => Fin.ext ?_)
  match k with
  | ⟨0, _⟩ => show d + 1 * 0 = d; omega
  | ⟨1, _⟩ => show 0 + 1 * s.val = s.val; omega
  | ⟨2, _⟩ => show 0 + 1 * mm.val = mm.val; omega

/-- The same at offset (0, 0): the buffer's own entry. -/
theorem whole2_read {p q : Nat} (M : Memref sig .tc sp (⟨2, ![p, q]⟩ : Shape) .f32) (h : M.IsWhole) (Y : (⟨2, ![p, q]⟩ : Shape).Idx → Ideal .f32)
    (inb : ∀ k, (![0, 0] : Fin 2 → Nat) k + (⟨2, ![p, q]⟩ : Shape).size k ≤ (⟨2, ![p, q]⟩ : Shape).size k) (i : Fin p) (j : Fin q) :
    View.readAt (Elt Ideal) M.view (Rect.unit (s := (⟨2, ![p, q]⟩ : Shape)) ![0, 0] (⟨2, ![p, q]⟩ : Shape).size inb).toLoadRect (h.unread Y) (ix2 i j)
      = Y (ix2 i j) := by
  rw [rect2_read M h Y 0 0 inb i j (by have := i.isLt; omega) (by have := j.isLt; omega)]
  exact congrArg Y (congrArg₂ ix2 (Fin.ext (Nat.zero_add _)) (Fin.ext (Nat.zero_add _)))

/-- Row `f` of a [p, q] buffer, as a [1, q] rectangle, at (0, j). -/
theorem row_read {p q : Nat} (M : Memref sig .tc sp (⟨2, ![p, q]⟩ : Shape) .f32) (h : M.IsWhole) (Y : (⟨2, ![p, q]⟩ : Shape).Idx → Ideal .f32)
    (f : Nat) (hf : f < p) (inb : ∀ k, (![f, 0] : Fin 2 → Nat) k + (⟨2, ![1, q]⟩ : Shape).size k ≤ (⟨2, ![p, q]⟩ : Shape).size k) (j : Fin q) :
    View.readAt (Elt Ideal) M.view (Rect.unit (s := (⟨2, ![p, q]⟩ : Shape)) ![f, 0] (⟨2, ![1, q]⟩ : Shape).size inb).toLoadRect (h.unread Y) (ix2 (0 : Fin 1) j)
      = Y (ix2 ⟨f, hf⟩ j) := by
  rw [rect2_read M h Y f 0 inb (0 : Fin 1) j (by simpa using hf) (by have := j.isLt; omega)]
  exact congrArg Y (congrArg₂ ix2 (Fin.ext (by simp)) (Fin.ext (Nat.zero_add _)))

end Cert.KernelIdeal.Region
-- ==== Proof.RegionValueClosed.lean ====
/-
  The region's result in closed form.  The result's array after the region is what the second grid point's step
  leaves of the first point's: 512 times the bias row, plus the two points' sums.  Each point's sum is, by
  hypothesis, the blocked last layer of the network over the count matrix and the 256 channels the point holds;
  what a point's staging buffers hold is what a fetch puts there, i.e. the operand arrays themselves (for the
  features: the channels 256 t … 256 t + 255).  The two blocks together are the whole channel axis, and the
  blocked last layer over both is the network's result.
-/
import proofs.«208141_g20598663152203_cont_8to1_341_30_alg».proof.Proof.RegionFetched
import proofs.«208141_g20598663152203_cont_8to1_341_30_alg».proof.Proof.RegionValueStep
import proofs.«208141_g20598663152203_cont_8to1_341_30_alg».proof.Proof.RegionValueChains
import proofs.«208141_g20598663152203_cont_8to1_341_30_alg».proof.Proof.SpecACongr
import proofs.«208141_g20598663152203_cont_8to1_341_30_alg».proof.Proof.SpecKernel
import proofs.«208141_g20598663152203_cont_8to1_341_30_alg».proof.Proof.RegionValueReads
import Idealize.ShloMosaic.Lib.Pipeline.Value
import Idealize.ShloMosaic.Lib.ValueLayout
import Idealize.ShloMosaic.PureOps.Ideal.Laws

noncomputable section

open scoped BigOperators

namespace Cert.KernelIdeal.Region

open Cert.KernelIdeal Cert.KernelIdeal.Gen

open Idealize.ShloMosaic
open Idealize.ShloMosaic.TcCoe
open Idealize.ShloMosaic.ValueIdx
open Idealize.SL Idealize.SL.RA Idealize.SL.BI
open Idealize.ShloMosaic.Pipeline (RDat Dat Cfg Window cellOf)

variable {Ix : Type} [DecidableEq Ix] {Name : Type} [DecidableEq Name] {U : Type} [URA U] {Lvl : Type} [Preorder Lvl]

variable (𝒱₀ : Variants) (V : Val1 Ideal) (O : Dev nD → CellTallies nD τ sig Ix) (B : Dev nD → Set (SemLoc sig × Ix))

instance nonemptyEltIdeal : ∀ e, Nonempty (Elt Ideal e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(0 : EReal)⟩ | .fp8e5m2 => ⟨(0 : EReal)⟩ | .bf16 => ⟨(0 : EReal)⟩ | .f16 => ⟨(0 : EReal)⟩ | .f32 => ⟨(0 : EReal)⟩

/-- The block of 256 channels a point holds, as a feature array (channel `m` read at `m mod 256`). -/
def WmB (Y : S8x512x256.Idx → Ideal .bf16) : Fin 512 → Fin 512 → Fin 8 → EReal :=
  fun s m d => Y (ix3 d s ⟨m.val % 256, Nat.mod_lt _ (by decide)⟩)

/-- A weight row broadcast along the node axis, at `(n, o)`. -/
theorem bcastRow16 (w : FVec Ideal S1x16 .f32) (n : Fin 512) (o : Fin 16) :
    broadcastTo S512x16 w broadcasts_S1x16_S512x16 (ix2 n o) = w (ix2 (0 : Fin 1) o) :=
  have h1 : ¬ S1x16.size 1 = 1 := by decide
  broadcastTo_apply w broadcasts_S1x16_S512x16 (ix2 n o) (ix2 (0 : Fin 1) o) (fun a => by
    match a with
    | ⟨0, _⟩ => exact (if_pos rfl).symm
    | ⟨1, _⟩ => exact (if_neg h1).symm)

/-- The block's reset value at `(n, o)`: 512 times the bias row. -/
theorem pay200_apply (v : Vec Ideal S1x16 .f32) (n : Fin 512) (o : Fin 16) :
    k1_pay200 (F := Ideal) v (ix2 n o) = (512 : EReal) * v (ix2 (0 : Fin 1) o) := by
  unfold k1_pay200
  simp only [mulf_apply, broadcast_apply, shapeCast_self, bcastRow16]
  show Ideal.ofBits .f32 0x44000000#32 * _ = _
  rw [Cert.Spec.ofBits_512_f32]

section Operands
variable (c : Dev nD) (t : Fin cfg1.N) (Yin : (w : Fin cfg1.W) → Blk Ideal w)
  (hF : ∀ w, w ≠ 12 → (rdIn (Ix := Ix) (Name := Name) (U := U) (Lvl := Lvl) V O B 0 c).Finds w t (Yin w))
include hF

theorem op0 (j) : Yin 0 j = V c main_v5 j := by
  obtain ⟨d, hd⟩ := in_fetched V O B c 0 (by decide) t (Yin 0) (hF 0 (by decide)); rw [hd]; exact fetched_0 V O B c t d j
theorem op1 (j) : Yin 1 j = V c main_v6 j := by
  obtain ⟨d, hd⟩ := in_fetched V O B c 1 (by decide) t (Yin 1) (hF 1 (by decide)); rw [hd]; exact fetched_1 V O B c t d j
theorem op2 (j) : Yin 2 j = V c main_arg2 j := by
  obtain ⟨d, hd⟩ := in_fetched V O B c 2 (by decide) t (Yin 2) (hF 2 (by decide)); rw [hd]; exact fetched_2 V O B c t d j
theorem op3 (j) : Yin 3 j = V c main_arg4 j := by
  obtain ⟨d, hd⟩ := in_fetched V O B c 3 (by decide) t (Yin 3) (hF 3 (by decide)); rw [hd]; exact fetched_3 V O B c t d j
theorem op4 (j) : Yin 4 j = V c main_arg7 j := by
  obtain ⟨d, hd⟩ := in_fetched V O B c 4 (by decide) t (Yin 4) (hF 4 (by decide)); rw [hd]; exact fetched_4 V O B c t d j
theorem op5 (j) : Yin 5 j = V c main_v7 j := by
  obtain ⟨d, hd⟩ := in_fetched V O B c 5 (by decide) t (Yin 5) (hF 5 (by decide)); rw [hd]; exact fetched_5 V O B c t d j
theorem op6 (j) : Yin 6 j = V c main_v8 j := by
  obtain ⟨d, hd⟩ := in_fetched V O B c 6 (by decide) t (Yin 6) (hF 6 (by decide)); rw [hd]; exact fetched_6 V O B c t d j
theorem op7 (j) : Yin 7 j = V c main_v9 j := by
  obtain ⟨d, hd⟩ := in_fetched V O B c 7 (by decide) t (Yin 7) (hF 7 (by decide)); rw [hd]; exact fetched_7 V O B c t d j
theorem op8 (j) : Yin 8 j = V c main_v4 j := by
  obtain ⟨d, hd⟩ := in_fetched V O B c 8 (by decide) t (Yin 8) (hF 8 (by decide)); rw [hd]; exact fetched_8 V O B c t d j
theorem op10 (j) : Yin 10 j = V c main_arg9 j := by
  obtain ⟨d, hd⟩ := in_fetched V O B c 10 (by decide) t (Yin 10) (hF 10 (by decide)); rw [hd]; exact fetched_10 V O B c t d j
theorem op11 (j) : Yin 11 j = V c main_v10 j := by
  obtain ⟨d, hd⟩ := in_fetched V O B c 11 (by decide) t (Yin 11) (hF 11 (by decide)); rw [hd]; exact fetched_11 V O B c t d j
theorem op9 (dch : Fin 8) (s : Fin 512) (mm : Fin 256) :
    Yin 9 (ix3 dch s mm) = V c main_v2 (ix3 dch s ⟨256 * t.val + mm.val, by
      have := t.isLt; have := mm.isLt; have h2 : cfg1.N = 2 := N_1; omega⟩) := by
  obtain ⟨d, hd⟩ := in_fetched V O B c 9 (by decide) t (Yin 9) (hF 9 (by decide)); rw [hd]; exact fetched_9 V O B c t d dch s mm

/-- THE POINT'S INNER SUMS over the operand arrays: the 256 channels the point holds are the channels from 256 t on. -/
theorem point_sum (n : Fin 512) (f : Fin 16) :
    ∑ mm : Fin 256, Cert.Spec.t2A (fun n s => Yin 8 (ix2 n s)) (WmB (Yin 9)) (fun d f => Yin 2 (ix2 d f)) (fun f => Yin 5 (ix2 0 f)) (fun f g => Yin 3 (ix2 f g)) (fun g => Yin 6 (ix2 0 g)) (Yin 0 (ix2 0 0)) (fun g f => Yin 4 (ix2 g f)) (fun f => Yin 7 (ix2 0 f)) (Yin 1 (ix2 0 0)) n ⟨mm.val, by have := mm.isLt; omega⟩ f
      = ∑ mm : Fin 256, Cert.Spec.t2A (fun n s => V c main_v4 (ix2 n s)) (fun s m d => V c main_v2 (ix3 d s m)) (fun d f => V c main_arg2 (ix2 d f)) (fun f => V c main_v7 (ix2 0 f)) (fun f g => V c main_arg4 (ix2 f g)) (fun g => V c main_v8 (ix2 0 g)) (V c main_v5 (ix2 0 0)) (fun g f => V c main_arg7 (ix2 g f)) (fun f => V c main_v9 (ix2 0 f)) (V c main_v6 (ix2 0 0)) n ⟨256 * t.val + mm.val, by
          have := t.isLt; have := mm.isLt; have h2 : cfg1.N = 2 := N_1; omega⟩ f := by
  have e8 : (fun n s => Yin 8 (ix2 n s)) = fun n s => V c main_v4 (ix2 n s) := funext fun n => funext fun s => op8 V O B c t Yin hF _
  have e2 : (fun d f => Yin 2 (ix2 d f)) = fun d f => V c main_arg2 (ix2 d f) := funext fun d => funext fun f => op2 V O B c t Yin hF _
  have e5 : (fun f => Yin 5 (ix2 0 f)) = fun f => V c main_v7 (ix2 0 f) := funext fun f => op5 V O B c t Yin hF _
  have e3 : (fun f g => Yin 3 (ix2 f g)) = fun f g => V c main_arg4 (ix2 f g) := funext fun f => funext fun g => op3 V O B c t Yin hF _
  have e6 : (fun g => Yin 6 (ix2 0 g)) = fun g => V c main_v8 (ix2 0 g) := funext fun g => op6 V O B c t Yin hF _
  have e4 : (fun g f => Yin 4 (ix2 g f)) = fun g f => V c main_arg7 (ix2 g f) := funext fun g => funext fun f => op4 V O B c t Yin hF _
  have e7 : (fun f => Yin 7 (ix2 0 f)) = fun f => V c main_v9 (ix2 0 f) := funext fun f => op7 V O B c t Yin hF _
  rw [e8, e2, e5, e3, e6, e4, e7, op0 V O B c t Yin hF, op1 V O B c t Yin hF]
  refine Finset.sum_congr rfl fun mm _ => ?_
  refine Cert.Spec.t2A_congr _ _ _ _ _ _ _ _ _ _ _ n _ _ f (fun s d => ?_)
  have hmm := mm.isLt
  show Yin 9 (ix3 d s ⟨mm.val % 256, _⟩) = _
  have e : (⟨mm.val % 256, Nat.mod_lt _ (by decide)⟩ : Fin 256) = mm := Fin.ext (Nat.mod_eq_of_lt hmm)
  rw [e]
  exact op9 V O B c t Yin hF d s mm

end Operands

/-- THE REGION'S RESULT IN CLOSED FORM, given each point's sum in closed form. -/
theorem region_value_closed
    (hpe : ∀ (c : Dev nD) (t : Fin cfg1.N) (Yin : (w : Fin cfg1.W) → Blk Ideal w) (n : Fin 512) (o : Fin 16),
       peX (F := Ideal) c t Yin (ix2 n o) = ∑ f : Fin 16, (∑ mm : Fin 256, Cert.Spec.t2A (fun n s => Yin 8 (ix2 n s)) (WmB (Yin 9)) (fun d f => Yin 2 (ix2 d f)) (fun f => Yin 5 (ix2 0 f)) (fun f g => Yin 3 (ix2 f g)) (fun g => Yin 6 (ix2 0 g)) (Yin 0 (ix2 0 0)) (fun g f => Yin 4 (ix2 g f)) (fun f => Yin 7 (ix2 0 f)) (Yin 1 (ix2 0 0)) n ⟨mm.val, by have := mm.isLt; omega⟩ f) * Yin 10 (ix2 f o))
    (c : Dev nD) (G : Buf (Elt Ideal) ((cfg1.win 12).arr.view.loc (c : Thread nD τ)))
    (h : (rdV (Ix := Ix) (Name := Name) (U := U) (Lvl := Lvl) 𝒱₀ V O B 0 c).ArrAt 12 cfg1.N G) (n : Fin 512) (o : Fin 16) :
    G (ix2 n o) = Cert.Spec.ginA (fun n s => V c main_v4 (ix2 n s)) (fun s m d => V c main_v2 (ix3 d s m)) (fun d f => V c main_arg2 (ix2 d f)) (fun f => V c main_v7 (ix2 0 f)) (fun f g => V c main_arg4 (ix2 f g)) (fun g => V c main_v8 (ix2 0 g)) (V c main_v5 (ix2 0 0)) (fun g f => V c main_arg7 (ix2 g f)) (fun f => V c main_v9 (ix2 0 f)) (fun f o => V c main_arg9 (ix2 f o)) (fun o => V c main_v10 (ix2 0 o)) (V c main_v6 (ix2 0 0)) n o := by
  obtain ⟨Y0, Yin0, Yin1, hF0, hF1, hread⟩ := out_read 𝒱₀ V O B c G h
  rw [out_at c G _ hread n o]
  have eidx : (ix2 n o : S512x16.Idx) = R13.emb (ix2 n o) := by
    funext a; apply Fin.ext
    match a with
    | ⟨0, _⟩ => show n.val = 0 + 1 * n.val; omega
    | ⟨1, _⟩ => show o.val = 0 + 1 * o.val; omega
  rw [eidx, stepX_both 𝒱₀ c Yin0 Yin1 Y0 (ix2 n o)]
  rw [addf_apply, shapeCast_self, addf_apply, shapeCast_self, pay200_apply,
    whole2_read (st1_11 t1_0) (hs1_11 t1_0) (Yin0 11) _ (0 : Fin 1) o,
    hpe c t1_0 Yin0 n o, hpe c t1_1 Yin1 n o]
  simp only [point_sum V O B c t1_0 Yin0 hF0, point_sum V O B c t1_1 Yin1 hF1,
    op10 V O B c t1_0 Yin0 hF0, op10 V O B c t1_1 Yin1 hF1, op11 V O B c t1_0 Yin0 hF0]
  refine Eq.trans ?_ (Cert.Spec.gin_two_stepsA _ _ _ _ _ _ _ _ _ _ _ _ n o)
  refine congrArg₂ (· + ·) (congrArg (_ + ·) (Finset.sum_congr rfl fun f _ => congrArg (· * _)
      (Finset.sum_congr rfl fun mm _ => congrArg (fun m => Cert.Spec.t2A _ _ _ _ _ _ _ _ _ _ n m f) (Fin.ext ?_))))
    (Finset.sum_congr rfl fun f _ => congrArg (· * _)
      (Finset.sum_congr rfl fun mm _ => congrArg (fun m => Cert.Spec.t2A _ _ _ _ _ _ _ _ _ _ n m f) (Fin.ext ?_)))
  · show 256 * 0 + mm.val = mm.val; omega
  · show 256 * 1 + mm.val = 256 + mm.val; omega

end Cert.KernelIdeal.Region

end
-- ==== Proof.ValueJoinD.lean ====
/-
  The value join's two inputs at this certificate's ghost algebra: the region's closed form over its operands follows
  from the closed form of one grid point's sum (the two points' sums and 512 times the bias add up to the
  specification's last layer), and each tile's value is the tile's fact.
-/
import proofs.«208141_g20598663152203_cont_8to1_341_30_alg».proof.Proof.ValueJoinC
import proofs.«208141_g20598663152203_cont_8to1_341_30_alg».proof.Proof.RegionValueClosed

noncomputable section

namespace Cert.Proof

open Cert.KernelIdeal Idealize.ShloMosaic

/-- The region's closed form at this certificate's algebra, from the per-point sum's. -/
theorem regionClosed_of
    (hpe : ∀ (c : Dev nD) (t : Fin cfg1.N) (Yin : (w : Fin cfg1.W) → Cert.KernelIdeal.Region.Blk Ideal w) (n : Fin 512) (o : Fin 16),
       Cert.KernelIdeal.Region.peX (F := Ideal) c t Yin (ValueIdx.ix2 n o) = ∑ f : Fin 16, (∑ mm : Fin 256, Cert.Spec.t2A (fun n s => Yin 8 (ValueIdx.ix2 n s)) (Cert.KernelIdeal.Region.WmB (Yin 9)) (fun d f => Yin 2 (ValueIdx.ix2 d f)) (fun f => Yin 5 (ValueIdx.ix2 0 f)) (fun f g => Yin 3 (ValueIdx.ix2 f g)) (fun g => Yin 6 (ValueIdx.ix2 0 g)) (Yin 0 (ValueIdx.ix2 0 0)) (fun g f => Yin 4 (ValueIdx.ix2 g f)) (fun f => Yin 7 (ValueIdx.ix2 0 f)) (Yin 1 (ValueIdx.ix2 0 0)) n ⟨mm.val, by have := mm.isLt; omega⟩ f) * Yin 10 (ValueIdx.ix2 f o)) :
    RegionClosed :=
  fun V d G h n o => Cert.KernelIdeal.Region.region_value_closed KI.𝒱₀ V (KI.Or (F := Ideal)) (KI.Br (F := Ideal)) hpe d G h n o

end Cert.Proof

end
-- ==== Proof.RegionValueStage2.lean ====
import proofs.«208141_g20598663152203_cont_8to1_341_30_alg».proof.Proof.RegionValueBody
import Idealize.ShloMosaic.PureOps.Ideal.Laws
import Idealize.ShloMosaic.Lib.ValueIdx

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13)

/-! The first perceptron at an index of a channel block, in the kernel's order of additions: every value is a maximum with
    zero of a sum that starts at zero, adds the products one by one and the bias last. -/

theorem t1_0_apply (i : S512x256.Idx) :
    (kernelRunV.sl.r_37 c M1 M3 M6 M9 M10 f1 f3 f6 f9 f10) i = max ((((((((((Scalar.ofBits .f32 0x00000000#32 : Ideal .f32) + (kernelRunV.sl.r_18 c M1 M9 M10 f1 f9 f10) i * (kernelRunV.sl.r_15 c M3 f3)) + (kernelRunV.sl.r_19 c M1 M9 M10 f1 f9 f10) i * (kernelRunV.sl.r_16 c M3 f3)) + (kernelRunV.sl.r_20 c M1 M9 M10 f1 f9 f10) i * (kernelRunV.sl.r_17 c M3 f3)) + (kernelRunV.sl.r_21 c M1 M9 M10 f1 f9 f10) i * (kernelRunV.sl.r_27 c M3 f3)) + (kernelRunV.sl.r_22 c M1 M9 M10 f1 f9 f10) i * (kernelRunV.sl.r_28 c M3 f3)) + (kernelRunV.sl.r_23 c M1 M9 M10 f1 f9 f10) i * (kernelRunV.sl.r_29 c M3 f3)) + (kernelRunV.sl.r_24 c M1 M9 M10 f1 f9 f10) i * (kernelRunV.sl.r_30 c M3 f3)) + (kernelRunV.sl.r_25 c M1 M9 M10 f1 f9 f10) i * (kernelRunV.sl.r_31 c M3 f3)) + (kernelRunV.sl.r_32 c M6 f6)) (Scalar.ofBits .f32 0x00000000#32 : Ideal .f32) := rfl

theorem t1_1_apply (i : S512x256.Idx) :
    (kernelRunV.sl.r_48 c M1 M3 M6 M9 M10 f1 f3 f6 f9 f10) i = max ((((((((((Scalar.ofBits .f32 0x00000000#32 : Ideal .f32) + (kernelRunV.sl.r_18 c M1 M9 M10 f1 f9 f10) i * (kernelRunV.sl.r_33 c M3 f3)) + (kernelRunV.sl.r_19 c M1 M9 M10 f1 f9 f10) i * (kernelRunV.sl.r_34 c M3 f3)) + (kernelRunV.sl.r_20 c M1 M9 M10 f1 f9 f10) i * (kernelRunV.sl.r_35 c M3 f3)) + (kernelRunV.sl.r_21 c M1 M9 M10 f1 f9 f10) i * (kernelRunV.sl.r_36 c M3 f3)) + (kernelRunV.sl.r_22 c M1 M9 M10 f1 f9 f10) i * (kernelRunV.sl.r_39 c M3 f3)) + (kernelRunV.sl.r_23 c M1 M9 M10 f1 f9 f10) i * (kernelRunV.sl.r_40 c M3 f3)) + (kernelRunV.sl.r_24 c M1 M9 M10 f1 f9 f10) i * (kernelRunV.sl.r_41 c M3 f3)) + (kernelRunV.sl.r_25 c M1 M9 M10 f1 f9 f10) i * (kernelRunV.sl.r_42 c M3 f3)) + (kernelRunV.sl.r_43 c M6 f6)) (Scalar.ofBits .f32 0x00000000#32 : Ideal .f32) := rfl

theorem t1_2_apply (i : S512x256.Idx) :
    (kernelRunV.sl.r_60 c M1 M3 M6 M9 M10 f1 f3 f6 f9 f10) i = max ((((((((((Scalar.ofBits .f32 0x00000000#32 : Ideal .f32) + (kernelRunV.sl.r_18 c M1 M9 M10 f1 f9 f10) i * (kernelRunV.sl.r_44 c M3 f3)) + (kernelRunV.sl.r_19 c M1 M9 M10 f1 f9 f10) i * (kernelRunV.sl.r_45 c M3 f3)) + (kernelRunV.sl.r_20 c M1 M9 M10 f1 f9 f10) i * (kernelRunV.sl.r_46 c M3 f3)) + (kernelRunV.sl.r_21 c M1 M9 M10 f1 f9 f10) i * (kernelRunV.sl.r_47 c M3 f3)) + (kernelRunV.sl.r_22 c M1 M9 M10 f1 f9 f10) i * (kernelRunV.sl.r_51 c M3 f3)) + (kernelRunV.sl.r_23 c M1 M9 M10 f1 f9 f10) i * (kernelRunV.sl.r_52 c M3 f3)) + (kernelRunV.sl.r_24 c M1 M9 M10 f1 f9 f10) i * (kernelRunV.sl.r_53 c M3 f3)) + (kernelRunV.sl.r_25 c M1 M9 M10 f1 f9 f10) i * (kernelRunV.sl.r_54 c M3 f3)) + (kernelRunV.sl.r_55 c M6 f6)) (Scalar.ofBits .f32 0x00000000#32 : Ideal .f32) := rfl

theorem t1_3_apply (i : S512x256.Idx) :
    (kernelRunV.sl.r_72 c M1 M3 M6 M9 M10 f1 f3 f6 f9 f10) i = max ((((((((((Scalar.ofBits .f32 0x00000000#32 : Ideal .f32) + (kernelRunV.sl.r_18 c M1 M9 M10 f1 f9 f10) i * (kernelRunV.sl.r_56 c M3 f3)) + (kernelRunV.sl.r_19 c M1 M9 M10 f1 f9 f10) i * (kernelRunV.sl.r_57 c M3 f3)) + (kernelRunV.sl.r_20 c M1 M9 M10 f1 f9 f10) i * (kernelRunV.sl.r_58 c M3 f3)) + (kernelRunV.sl.r_21 c M1 M9 M10 f1 f9 f10) i * (kernelRunV.sl.r_59 c M3 f3)) + (kernelRunV.sl.r_22 c M1 M9 M10 f1 f9 f10) i * (kernelRunV.sl.r_62 c M3 f3)) + (kernelRunV.sl.r_23 c M1 M9 M10 f1 f9 f10) i * (kernelRunV.sl.r_63 c M3 f3)) + (kernelRunV.sl.r_24 c M1 M9 M10 f1 f9 f10) i * (kernelRunV.sl.r_64 c M3 f3)) + (kernelRunV.sl.r_25 c M1 M9 M10 f1 f9 f10) i * (kernelRunV.sl.r_65 c M3 f3)) + (kernelRunV.sl.r_66 c M6 f6)) (Scalar.ofBits .f32 0x00000000#32 : Ideal .f32) := rfl

theorem t1_4_apply (i : S512x256.Idx) :
    (kernelRunV.sl.r_83 c M1 M3 M6 M9 M10 f1 f3 f6 f9 f10) i = max ((((((((((Scalar.ofBits .f32 0x00000000#32 : Ideal .f32) + (kernelRunV.sl.r_18 c M1 M9 M10 f1 f9 f10) i * (kernelRunV.sl.r_67 c M3 f3)) + (kernelRunV.sl.r_19 c M1 M9 M10 f1 f9 f10) i * (kernelRunV.sl.r_68 c M3 f3)) + (kernelRunV.sl.r_20 c M1 M9 M10 f1 f9 f10) i * (kernelRunV.sl.r_69 c M3 f3)) + (kernelRunV.sl.r_21 c M1 M9 M10 f1 f9 f10) i * (kernelRunV.sl.r_70 c M3 f3)) + (kernelRunV.sl.r_22 c M1 M9 M10 f1 f9 f10) i * (kernelRunV.sl.r_71 c M3 f3)) + (kernelRunV.sl.r_23 c M1 M9 M10 f1 f9 f10) i * (kernelRunV.sl.r_74 c M3 f3)) + (kernelRunV.sl.r_24 c M1 M9 M10 f1 f9 f10) i * (kernelRunV.sl.r_75 c M3 f3)) + (kernelRunV.sl.r_25 c M1 M9 M10 f1 f9 f10) i * (kernelRunV.sl.r_76 c M3 f3)) + (kernelRunV.sl.r_77 c M6 f6)) (Scalar.ofBits .f32 0x00000000#32 : Ideal .f32) := rfl

theorem t1_5_apply (i : S512x256.Idx) :
    (kernelRunV.sl.r_95 c M1 M3 M6 M9 M10 f1 f3 f6 f9 f10) i = max ((((((((((Scalar.ofBits .f32 0x00000000#32 : Ideal .f32) + (kernelRunV.sl.r_18 c M1 M9 M10 f1 f9 f10) i * (kernelRunV.sl.r_78 c M3 f3)) + (kernelRunV.sl.r_19 c M1 M9 M10 f1 f9 f10) i * (kernelRunV.sl.r_79 c M3 f3)) + (kernelRunV.sl.r_20 c M1 M9 M10 f1 f9 f10) i * (kernelRunV.sl.r_80 c M3 f3)) + (kernelRunV.sl.r_21 c M1 M9 M10 f1 f9 f10) i * (kernelRunV.sl.r_81 c M3 f3)) + (kernelRunV.sl.r_22 c M1 M9 M10 f1 f9 f10) i * (kernelRunV.sl.r_82 c M3 f3)) + (kernelRunV.sl.r_23 c M1 M9 M10 f1 f9 f10) i * (kernelRunV.sl.r_86 c M3 f3)) + (kernelRunV.sl.r_24 c M1 M9 M10 f1 f9 f10) i * (kernelRunV.sl.r_87 c M3 f3)) + (kernelRunV.sl.r_25 c M1 M9 M10 f1 f9 f10) i * (kernelRunV.sl.r_88 c M3 f3)) + (kernelRunV.sl.r_89 c M6 f6)) (Scalar.ofBits .f32 0x00000000#32 : Ideal .f32) := rfl

theorem t1_6_apply (i : S512x256.Idx) :
    (kernelRunV.sl.r_107 c M1 M3 M6 M9 M10 f1 f3 f6 f9 f10) i = max ((((((((((Scalar.ofBits .f32 0x00000000#32 : Ideal .f32) + (kernelRunV.sl.r_18 c M1 M9 M10 f1 f9 f10) i * (kernelRunV.sl.r_90 c M3 f3)) + (kernelRunV.sl.r_19 c M1 M9 M10 f1 f9 f10) i * (kernelRunV.sl.r_91 c M3 f3)) + (kernelRunV.sl.r_20 c M1 M9 M10 f1 f9 f10) i * (kernelRunV.sl.r_92 c M3 f3)) + (kernelRunV.sl.r_21 c M1 M9 M10 f1 f9 f10) i * (kernelRunV.sl.r_93 c M3 f3)) + (kernelRunV.sl.r_22 c M1 M9 M10 f1 f9 f10) i * (kernelRunV.sl.r_94 c M3 f3)) + (kernelRunV.sl.r_23 c M1 M9 M10 f1 f9 f10) i * (kernelRunV.sl.r_97 c M3 f3)) + (kernelRunV.sl.r_24 c M1 M9 M10 f1 f9 f10) i * (kernelRunV.sl.r_98 c M3 f3)) + (kernelRunV.sl.r_25 c M1 M9 M10 f1 f9 f10) i * (kernelRunV.sl.r_99 c M3 f3)) + (kernelRunV.sl.r_100 c M6 f6)) (Scalar.ofBits .f32 0x00000000#32 : Ideal .f32) := rfl

theorem t1_7_apply (i : S512x256.Idx) :
    (kernelRunV.sl.r_118 c M1 M3 M6 M9 M10 f1 f3 f6 f9 f10) i = max ((((((((((Scalar.ofBits .f32 0x00000000#32 : Ideal .f32) + (kernelRunV.sl.r_18 c M1 M9 M10 f1 f9 f10) i * (kernelRunV.sl.r_101 c M3 f3)) + (kernelRunV.sl.r_19 c M1 M9 M10 f1 f9 f10) i * (kernelRunV.sl.r_102 c M3 f3)) + (kernelRunV.sl.r_20 c M1 M9 M10 f1 f9 f10) i * (kernelRunV.sl.r_103 c M3 f3)) + (kernelRunV.sl.r_21 c M1 M9 M10 f1 f9 f10) i * (kernelRunV.sl.r_104 c M3 f3)) + (kernelRunV.sl.r_22 c M1 M9 M10 f1 f9 f10) i * (kernelRunV.sl.r_105 c M3 f3)) + (kernelRunV.sl.r_23 c M1 M9 M10 f1 f9 f10) i * (kernelRunV.sl.r_106 c M3 f3)) + (kernelRunV.sl.r_24 c M1 M9 M10 f1 f9 f10) i * (kernelRunV.sl.r_109 c M3 f3)) + (kernelRunV.sl.r_25 c M1 M9 M10 f1 f9 f10) i * (kernelRunV.sl.r_110 c M3 f3)) + (kernelRunV.sl.r_111 c M6 f6)) (Scalar.ofBits .f32 0x00000000#32 : Ideal .f32) := rfl

theorem t1_8_apply (i : S512x256.Idx) :
    (kernelRunV.sl.r_130 c M1 M3 M6 M9 M10 f1 f3 f6 f9 f10) i = max ((((((((((Scalar.ofBits .f32 0x00000000#32 : Ideal .f32) + (kernelRunV.sl.r_18 c M1 M9 M10 f1 f9 f10) i * (kernelRunV.sl.r_112 c M3 f3)) + (kernelRunV.sl.r_19 c M1 M9 M10 f1 f9 f10) i * (kernelRunV.sl.r_113 c M3 f3)) + (kernelRunV.sl.r_20 c M1 M9 M10 f1 f9 f10) i * (kernelRunV.sl.r_114 c M3 f3)) + (kernelRunV.sl.r_21 c M1 M9 M10 f1 f9 f10) i * (kernelRunV.sl.r_115 c M3 f3)) + (kernelRunV.sl.r_22 c M1 M9 M10 f1 f9 f10) i * (kernelRunV.sl.r_116 c M3 f3)) + (kernelRunV.sl.r_23 c M1 M9 M10 f1 f9 f10) i * (kernelRunV.sl.r_117 c M3 f3)) + (kernelRunV.sl.r_24 c M1 M9 M10 f1 f9 f10) i * (kernelRunV.sl.r_121 c M3 f3)) + (kernelRunV.sl.r_25 c M1 M9 M10 f1 f9 f10) i * (kernelRunV.sl.r_122 c M3 f3)) + (kernelRunV.sl.r_123 c M6 f6)) (Scalar.ofBits .f32 0x00000000#32 : Ideal .f32) := rfl

theorem t1_9_apply (i : S512x256.Idx) :
    (kernelRunV.sl.r_142 c M1 M3 M6 M9 M10 f1 f3 f6 f9 f10) i = max ((((((((((Scalar.ofBits .f32 0x00000000#32 : Ideal .f32) + (kernelRunV.sl.r_18 c M1 M9 M10 f1 f9 f10) i * (kernelRunV.sl.r_124 c M3 f3)) + (kernelRunV.sl.r_19 c M1 M9 M10 f1 f9 f10) i * (kernelRunV.sl.r_125 c M3 f3)) + (kernelRunV.sl.r_20 c M1 M9 M10 f1 f9 f10) i * (kernelRunV.sl.r_126 c M3 f3)) + (kernelRunV.sl.r_21 c M1 M9 M10 f1 f9 f10) i * (kernelRunV.sl.r_127 c M3 f3)) + (kernelRunV.sl.r_22 c M1 M9 M10 f1 f9 f10) i * (kernelRunV.sl.r_128 c M3 f3)) + (kernelRunV.sl.r_23 c M1 M9 M10 f1 f9 f10) i * (kernelRunV.sl.r_129 c M3 f3)) + (kernelRunV.sl.r_24 c M1 M9 M10 f1 f9 f10) i * (kernelRunV.sl.r_132 c M3 f3)) + (kernelRunV.sl.r_25 c M1 M9 M10 f1 f9 f10) i * (kernelRunV.sl.r_133 c M3 f3)) + (kernelRunV.sl.r_134 c M6 f6)) (Scalar.ofBits .f32 0x00000000#32 : Ideal .f32) := rfl

theorem t1_10_apply (i : S512x256.Idx) :
    (kernelRunV.sl.r_153 c M1 M3 M6 M9 M10 f1 f3 f6 f9 f10) i = max ((((((((((Scalar.ofBits .f32 0x00000000#32 : Ideal .f32) + (kernelRunV.sl.r_18 c M1 M9 M10 f1 f9 f10) i * (kernelRunV.sl.r_135 c M3 f3)) + (kernelRunV.sl.r_19 c M1 M9 M10 f1 f9 f10) i * (kernelRunV.sl.r_136 c M3 f3)) + (kernelRunV.sl.r_20 c M1 M9 M10 f1 f9 f10) i * (kernelRunV.sl.r_137 c M3 f3)) + (kernelRunV.sl.r_21 c M1 M9 M10 f1 f9 f10) i * (kernelRunV.sl.r_138 c M3 f3)) + (kernelRunV.sl.r_22 c M1 M9 M10 f1 f9 f10) i * (kernelRunV.sl.r_139 c M3 f3)) + (kernelRunV.sl.r_23 c M1 M9 M10 f1 f9 f10) i * (kernelRunV.sl.r_140 c M3 f3)) + (kernelRunV.sl.r_24 c M1 M9 M10 f1 f9 f10) i * (kernelRunV.sl.r_141 c M3 f3)) + (kernelRunV.sl.r_25 c M1 M9 M10 f1 f9 f10) i * (kernelRunV.sl.r_144 c M3 f3)) + (kernelRunV.sl.r_145 c M6 f6)) (Scalar.ofBits .f32 0x00000000#32 : Ideal .f32) := rfl

theorem t1_11_apply (i : S512x256.Idx) :
    (kernelRunV.sl.r_165 c M1 M3 M6 M9 M10 f1 f3 f6 f9 f10) i = max ((((((((((Scalar.ofBits .f32 0x00000000#32 : Ideal .f32) + (kernelRunV.sl.r_18 c M1 M9 M10 f1 f9 f10) i * (kernelRunV.sl.r_146 c M3 f3)) + (kernelRunV.sl.r_19 c M1 M9 M10 f1 f9 f10) i * (kernelRunV.sl.r_147 c M3 f3)) + (kernelRunV.sl.r_20 c M1 M9 M10 f1 f9 f10) i * (kernelRunV.sl.r_148 c M3 f3)) + (kernelRunV.sl.r_21 c M1 M9 M10 f1 f9 f10) i * (kernelRunV.sl.r_149 c M3 f3)) + (kernelRunV.sl.r_22 c M1 M9 M10 f1 f9 f10) i * (kernelRunV.sl.r_150 c M3 f3)) + (kernelRunV.sl.r_23 c M1 M9 M10 f1 f9 f10) i * (kernelRunV.sl.r_151 c M3 f3)) + (kernelRunV.sl.r_24 c M1 M9 M10 f1 f9 f10) i * (kernelRunV.sl.r_152 c M3 f3)) + (kernelRunV.sl.r_25 c M1 M9 M10 f1 f9 f10) i * (kernelRunV.sl.r_156 c M3 f3)) + (kernelRunV.sl.r_157 c M6 f6)) (Scalar.ofBits .f32 0x00000000#32 : Ideal .f32) := rfl

theorem t1_12_apply (i : S512x256.Idx) :
    (kernelRunV.sl.r_177 c M1 M3 M6 M9 M10 f1 f3 f6 f9 f10) i = max ((((((((((Scalar.ofBits .f32 0x00000000#32 : Ideal .f32) + (kernelRunV.sl.r_18 c M1 M9 M10 f1 f9 f10) i * (kernelRunV.sl.r_158 c M3 f3)) + (kernelRunV.sl.r_19 c M1 M9 M10 f1 f9 f10) i * (kernelRunV.sl.r_159 c M3 f3)) + (kernelRunV.sl.r_20 c M1 M9 M10 f1 f9 f10) i * (kernelRunV.sl.r_160 c M3 f3)) + (kernelRunV.sl.r_21 c M1 M9 M10 f1 f9 f10) i * (kernelRunV.sl.r_161 c M3 f3)) + (kernelRunV.sl.r_22 c M1 M9 M10 f1 f9 f10) i * (kernelRunV.sl.r_162 c M3 f3)) + (kernelRunV.sl.r_23 c M1 M9 M10 f1 f9 f10) i * (kernelRunV.sl.r_163 c M3 f3)) + (kernelRunV.sl.r_24 c M1 M9 M10 f1 f9 f10) i * (kernelRunV.sl.r_164 c M3 f3)) + (kernelRunV.sl.r_25 c M1 M9 M10 f1 f9 f10) i * (kernelRunV.sl.r_167 c M3 f3)) + (kernelRunV.sl.r_168 c M6 f6)) (Scalar.ofBits .f32 0x00000000#32 : Ideal .f32) := rfl

theorem t1_13_apply (i : S512x256.Idx) :
    (kernelRunV.sl.r_188 c M1 M3 M6 M9 M10 f1 f3 f6 f9 f10) i = max ((((((((((Scalar.ofBits .f32 0x00000000#32 : Ideal .f32) + (kernelRunV.sl.r_18 c M1 M9 M10 f1 f9 f10) i * (kernelRunV.sl.r_169 c M3 f3)) + (kernelRunV.sl.r_19 c M1 M9 M10 f1 f9 f10) i * (kernelRunV.sl.r_170 c M3 f3)) + (kernelRunV.sl.r_20 c M1 M9 M10 f1 f9 f10) i * (kernelRunV.sl.r_171 c M3 f3)) + (kernelRunV.sl.r_21 c M1 M9 M10 f1 f9 f10) i * (kernelRunV.sl.r_172 c M3 f3)) + (kernelRunV.sl.r_22 c M1 M9 M10 f1 f9 f10) i * (kernelRunV.sl.r_173 c M3 f3)) + (kernelRunV.sl.r_23 c M1 M9 M10 f1 f9 f10) i * (kernelRunV.sl.r_174 c M3 f3)) + (kernelRunV.sl.r_24 c M1 M9 M10 f1 f9 f10) i * (kernelRunV.sl.r_175 c M3 f3)) + (kernelRunV.sl.r_25 c M1 M9 M10 f1 f9 f10) i * (kernelRunV.sl.r_176 c M3 f3)) + (kernelRunV.sl.r_179 c M6 f6)) (Scalar.ofBits .f32 0x00000000#32 : Ideal .f32) := rfl

theorem t1_14_apply (i : S512x256.Idx) :
    (kernelRunV.sl.r_200 c M1 M3 M6 M9 M10 f1 f3 f6 f9 f10) i = max ((((((((((Scalar.ofBits .f32 0x00000000#32 : Ideal .f32) + (kernelRunV.sl.r_18 c M1 M9 M10 f1 f9 f10) i * (kernelRunV.sl.r_180 c M3 f3)) + (kernelRunV.sl.r_19 c M1 M9 M10 f1 f9 f10) i * (kernelRunV.sl.r_181 c M3 f3)) + (kernelRunV.sl.r_20 c M1 M9 M10 f1 f9 f10) i * (kernelRunV.sl.r_182 c M3 f3)) + (kernelRunV.sl.r_21 c M1 M9 M10 f1 f9 f10) i * (kernelRunV.sl.r_183 c M3 f3)) + (kernelRunV.sl.r_22 c M1 M9 M10 f1 f9 f10) i * (kernelRunV.sl.r_184 c M3 f3)) + (kernelRunV.sl.r_23 c M1 M9 M10 f1 f9 f10) i * (kernelRunV.sl.r_185 c M3 f3)) + (kernelRunV.sl.r_24 c M1 M9 M10 f1 f9 f10) i * (kernelRunV.sl.r_186 c M3 f3)) + (kernelRunV.sl.r_25 c M1 M9 M10 f1 f9 f10) i * (kernelRunV.sl.r_187 c M3 f3)) + (kernelRunV.sl.r_191 c M6 f6)) (Scalar.ofBits .f32 0x00000000#32 : Ideal .f32) := rfl

theorem t1_15_apply (i : S512x256.Idx) :
    (kernelRunV.sl.r_212 c M1 M3 M6 M9 M10 f1 f3 f6 f9 f10) i = max ((((((((((Scalar.ofBits .f32 0x00000000#32 : Ideal .f32) + (kernelRunV.sl.r_18 c M1 M9 M10 f1 f9 f10) i * (kernelRunV.sl.r_192 c M3 f3)) + (kernelRunV.sl.r_19 c M1 M9 M10 f1 f9 f10) i * (kernelRunV.sl.r_193 c M3 f3)) + (kernelRunV.sl.r_20 c M1 M9 M10 f1 f9 f10) i * (kernelRunV.sl.r_194 c M3 f3)) + (kernelRunV.sl.r_21 c M1 M9 M10 f1 f9 f10) i * (kernelRunV.sl.r_195 c M3 f3)) + (kernelRunV.sl.r_22 c M1 M9 M10 f1 f9 f10) i * (kernelRunV.sl.r_196 c M3 f3)) + (kernelRunV.sl.r_23 c M1 M9 M10 f1 f9 f10) i * (kernelRunV.sl.r_197 c M3 f3)) + (kernelRunV.sl.r_24 c M1 M9 M10 f1 f9 f10) i * (kernelRunV.sl.r_198 c M3 f3)) + (kernelRunV.sl.r_25 c M1 M9 M10 f1 f9 f10) i * (kernelRunV.sl.r_199 c M3 f3)) + (kernelRunV.sl.r_202 c M6 f6)) (Scalar.ofBits .f32 0x00000000#32 : Ideal .f32) := rfl

theorem x1_0_apply (i : S512x256.Idx) :
    (kernelRunV.sl.r_223 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_203 c M4 f4)) + (kernelRunV.sl.r_48 c M1 M3 M6 M9 M10 f1 f3 f6 f9 f10) i * (kernelRunV.sl.r_204 c M4 f4)) + (kernelRunV.sl.r_60 c M1 M3 M6 M9 M10 f1 f3 f6 f9 f10) i * (kernelRunV.sl.r_205 c M4 f4)) + (kernelRunV.sl.r_72 c M1 M3 M6 M9 M10 f1 f3 f6 f9 f10) i * (kernelRunV.sl.r_206 c M4 f4)) + (kernelRunV.sl.r_83 c M1 M3 M6 M9 M10 f1 f3 f6 f9 f10) i * (kernelRunV.sl.r_207 c M4 f4)) + (kernelRunV.sl.r_95 c M1 M3 M6 M9 M10 f1 f3 f6 f9 f10) i * (kernelRunV.sl.r_208 c M4 f4)) + (kernelRunV.sl.r_107 c M1 M3 M6 M9 M10 f1 f3 f6 f9 f10) i * (kernelRunV.sl.r_209 c M4 f4)) + (kernelRunV.sl.r_118 c M1 M3 M6 M9 M10 f1 f3 f6 f9 f10) i * (kernelRunV.sl.r_210 c M4 f4)) + (kernelRunV.sl.r_130 c M1 M3 M6 M9 M10 f1 f3 f6 f9 f10) i * (kernelRunV.sl.r_211 c M4 f4)) + (kernelRunV.sl.r_142 c M1 M3 M6 M9 M10 f1 f3 f6 f9 f10) i * (kernelRunV.sl.r_214 c M4 f4)) + (kernelRunV.sl.r_153 c M1 M3 M6 M9 M10 f1 f3 f6 f9 f10) i * (kernelRunV.sl.r_215 c M4 f4)) + (kernelRunV.sl.r_165 c M1 M3 M6 M9 M10 f1 f3 f6 f9 f10) i * (kernelRunV.sl.r_216 c M4 f4)) + (kernelRunV.sl.r_177 c M1 M3 M6 M9 M10 f1 f3 f6 f9 f10) i * (kernelRunV.sl.r_217 c M4 f4)) + (kernelRunV.sl.r_188 c M1 M3 M6 M9 M10 f1 f3 f6 f9 f10) i * (kernelRunV.sl.r_218 c M4 f4)) + (kernelRunV.sl.r_200 c M1 M3 M6 M9 M10 f1 f3 f6 f9 f10) i * (kernelRunV.sl.r_219 c M4 f4)) + (kernelRunV.sl.r_212 c M1 M3 M6 M9 M10 f1 f3 f6 f9 f10) i * (kernelRunV.sl.r_220 c M4 f4)) + (kernelRunV.sl.r_221 c M7 f7)) (Scalar.ofBits .f32 0x00000000#32 : Ideal .f32) := rfl

theorem x1_1_apply (i : S512x256.Idx) :
    (kernelRunV.sl.r_246 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_222 c M4 f4)) + (kernelRunV.sl.r_48 c M1 M3 M6 M9 M10 f1 f3 f6 f9 f10) i * (kernelRunV.sl.r_225 c M4 f4)) + (kernelRunV.sl.r_60 c M1 M3 M6 M9 M10 f1 f3 f6 f9 f10) i * (kernelRunV.sl.r_226 c M4 f4)) + (kernelRunV.sl.r_72 c M1 M3 M6 M9 M10 f1 f3 f6 f9 f10) i * (kernelRunV.sl.r_227 c M4 f4)) + (kernelRunV.sl.r_83 c M1 M3 M6 M9 M10 f1 f3 f6 f9 f10) i * (kernelRunV.sl.r_228 c M4 f4)) + (kernelRunV.sl.r_95 c M1 M3 M6 M9 M10 f1 f3 f6 f9 f10) i * (kernelRunV.sl.r_229 c M4 f4)) + (kernelRunV.sl.r_107 c M1 M3 M6 M9 M10 f1 f3 f6 f9 f10) i * (kernelRunV.sl.r_230 c M4 f4)) + (kernelRunV.sl.r_118 c M1 M3 M6 M9 M10 f1 f3 f6 f9 f10) i * (kernelRunV.sl.r_231 c M4 f4)) + (kernelRunV.sl.r_130 c M1 M3 M6 M9 M10 f1 f3 f6 f9 f10) i * (kernelRunV.sl.r_232 c M4 f4)) + (kernelRunV.sl.r_142 c M1 M3 M6 M9 M10 f1 f3 f6 f9 f10) i * (kernelRunV.sl.r_233 c M4 f4)) + (kernelRunV.sl.r_153 c M1 M3 M6 M9 M10 f1 f3 f6 f9 f10) i * (kernelRunV.sl.r_234 c M4 f4)) + (kernelRunV.sl.r_165 c M1 M3 M6 M9 M10 f1 f3 f6 f9 f10) i * (kernelRunV.sl.r_237 c M4 f4)) + (kernelRunV.sl.r_177 c M1 M3 M6 M9 M10 f1 f3 f6 f9 f10) i * (kernelRunV.sl.r_238 c M4 f4)) + (kernelRunV.sl.r_188 c M1 M3 M6 M9 M10 f1 f3 f6 f9 f10) i * (kernelRunV.sl.r_239 c M4 f4)) + (kernelRunV.sl.r_200 c M1 M3 M6 M9 M10 f1 f3 f6 f9 f10) i * (kernelRunV.sl.r_240 c M4 f4)) + (kernelRunV.sl.r_212 c M1 M3 M6 M9 M10 f1 f3 f6 f9 f10) i * (kernelRunV.sl.r_241 c M4 f4)) + (kernelRunV.sl.r_242 c M7 f7)) (Scalar.ofBits .f32 0x00000000#32 : Ideal .f32) := rfl

theorem x1_2_apply (i : S512x256.Idx) :
    (kernelRunV.sl.r_269 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_243 c M4 f4)) + (kernelRunV.sl.r_48 c M1 M3 M6 M9 M10 f1 f3 f6 f9 f10) i * (kernelRunV.sl.r_244 c M4 f4)) + (kernelRunV.sl.r_60 c M1 M3 M6 M9 M10 f1 f3 f6 f9 f10) i * (kernelRunV.sl.r_245 c M4 f4)) + (kernelRunV.sl.r_72 c M1 M3 M6 M9 M10 f1 f3 f6 f9 f10) i * (kernelRunV.sl.r_248 c M4 f4)) + (kernelRunV.sl.r_83 c M1 M3 M6 M9 M10 f1 f3 f6 f9 f10) i * (kernelRunV.sl.r_249 c M4 f4)) + (kernelRunV.sl.r_95 c M1 M3 M6 M9 M10 f1 f3 f6 f9 f10) i * (kernelRunV.sl.r_250 c M4 f4)) + (kernelRunV.sl.r_107 c M1 M3 M6 M9 M10 f1 f3 f6 f9 f10) i * (kernelRunV.sl.r_251 c M4 f4)) + (kernelRunV.sl.r_118 c M1 M3 M6 M9 M10 f1 f3 f6 f9 f10) i * (kernelRunV.sl.r_252 c M4 f4)) + (kernelRunV.sl.r_130 c M1 M3 M6 M9 M10 f1 f3 f6 f9 f10) i * (kernelRunV.sl.r_253 c M4 f4)) + (kernelRunV.sl.r_142 c M1 M3 M6 M9 M10 f1 f3 f6 f9 f10) i * (kernelRunV.sl.r_254 c M4 f4)) + (kernelRunV.sl.r_153 c M1 M3 M6 M9 M10 f1 f3 f6 f9 f10) i * (kernelRunV.sl.r_255 c M4 f4)) + (kernelRunV.sl.r_165 c M1 M3 M6 M9 M10 f1 f3 f6 f9 f10) i * (kernelRunV.sl.r_256 c M4 f4)) + (kernelRunV.sl.r_177 c M1 M3 M6 M9 M10 f1 f3 f6 f9 f10) i * (kernelRunV.sl.r_257 c M4 f4)) + (kernelRunV.sl.r_188 c M1 M3 M6 M9 M10 f1 f3 f6 f9 f10) i * (kernelRunV.sl.r_259 c M4 f4)) + (kernelRunV.sl.r_200 c M1 M3 M6 M9 M10 f1 f3 f6 f9 f10) i * (kernelRunV.sl.r_260 c M4 f4)) + (kernelRunV.sl.r_212 c M1 M3 M6 M9 M10 f1 f3 f6 f9 f10) i * (kernelRunV.sl.r_261 c M4 f4)) + (kernelRunV.sl.r_262 c M7 f7)) (Scalar.ofBits .f32 0x00000000#32 : Ideal .f32) := rfl

theorem x1_3_apply (i : S512x256.Idx) :
    (kernelRunV.sl.r_291 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_263 c M4 f4)) + (kernelRunV.sl.r_48 c M1 M3 M6 M9 M10 f1 f3 f6 f9 f10) i * (kernelRunV.sl.r_264 c M4 f4)) + (kernelRunV.sl.r_60 c M1 M3 M6 M9 M10 f1 f3 f6 f9 f10) i * (kernelRunV.sl.r_265 c M4 f4)) + (kernelRunV.sl.r_72 c M1 M3 M6 M9 M10 f1 f3 f6 f9 f10) i * (kernelRunV.sl.r_266 c M4 f4)) + (kernelRunV.sl.r_83 c M1 M3 M6 M9 M10 f1 f3 f6 f9 f10) i * (kernelRunV.sl.r_267 c M4 f4)) + (kernelRunV.sl.r_95 c M1 M3 M6 M9 M10 f1 f3 f6 f9 f10) i * (kernelRunV.sl.r_268 c M4 f4)) + (kernelRunV.sl.r_107 c M1 M3 M6 M9 M10 f1 f3 f6 f9 f10) i * (kernelRunV.sl.r_271 c M4 f4)) + (kernelRunV.sl.r_118 c M1 M3 M6 M9 M10 f1 f3 f6 f9 f10) i * (kernelRunV.sl.r_272 c M4 f4)) + (kernelRunV.sl.r_130 c M1 M3 M6 M9 M10 f1 f3 f6 f9 f10) i * (kernelRunV.sl.r_273 c M4 f4)) + (kernelRunV.sl.r_142 c M1 M3 M6 M9 M10 f1 f3 f6 f9 f10) i * (kernelRunV.sl.r_274 c M4 f4)) + (kernelRunV.sl.r_153 c M1 M3 M6 M9 M10 f1 f3 f6 f9 f10) i * (kernelRunV.sl.r_275 c M4 f4)) + (kernelRunV.sl.r_165 c M1 M3 M6 M9 M10 f1 f3 f6 f9 f10) i * (kernelRunV.sl.r_276 c M4 f4)) + (kernelRunV.sl.r_177 c M1 M3 M6 M9 M10 f1 f3 f6 f9 f10) i * (kernelRunV.sl.r_277 c M4 f4)) + (kernelRunV.sl.r_188 c M1 M3 M6 M9 M10 f1 f3 f6 f9 f10) i * (kernelRunV.sl.r_278 c M4 f4)) + (kernelRunV.sl.r_200 c M1 M3 M6 M9 M10 f1 f3 f6 f9 f10) i * (kernelRunV.sl.r_279 c M4 f4)) + (kernelRunV.sl.r_212 c M1 M3 M6 M9 M10 f1 f3 f6 f9 f10) i * (kernelRunV.sl.r_280 c M4 f4)) + (kernelRunV.sl.r_282 c M7 f7)) (Scalar.ofBits .f32 0x00000000#32 : Ideal .f32) := rfl

theorem x1_4_apply (i : S512x256.Idx) :
    (kernelRunV.sl.r_304 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_283 c M4 f4)) + (kernelRunV.sl.r_48 c M1 M3 M6 M9 M10 f1 f3 f6 f9 f10) i * (kernelRunV.sl.r_284 c M4 f4)) + (kernelRunV.sl.r_60 c M1 M3 M6 M9 M10 f1 f3 f6 f9 f10) i * (kernelRunV.sl.r_285 c M4 f4)) + (kernelRunV.sl.r_72 c M1 M3 M6 M9 M10 f1 f3 f6 f9 f10) i * (kernelRunV.sl.r_286 c M4 f4)) + (kernelRunV.sl.r_83 c M1 M3 M6 M9 M10 f1 f3 f6 f9 f10) i * (kernelRunV.sl.r_287 c M4 f4)) + (kernelRunV.sl.r_95 c M1 M3 M6 M9 M10 f1 f3 f6 f9 f10) i * (kernelRunV.sl.r_288 c M4 f4)) + (kernelRunV.sl.r_107 c M1 M3 M6 M9 M10 f1 f3 f6 f9 f10) i * (kernelRunV.sl.r_289 c M4 f4)) + (kernelRunV.sl.r_118 c M1 M3 M6 M9 M10 f1 f3 f6 f9 f10) i * (kernelRunV.sl.r_290 c M4 f4)) + (kernelRunV.sl.r_130 c M1 M3 M6 M9 M10 f1 f3 f6 f9 f10) i * (kernelRunV.sl.r_294 c M4 f4)) + (kernelRunV.sl.r_142 c M1 M3 M6 M9 M10 f1 f3 f6 f9 f10) i * (kernelRunV.sl.r_295 c M4 f4)) + (kernelRunV.sl.r_153 c M1 M3 M6 M9 M10 f1 f3 f6 f9 f10) i * (kernelRunV.sl.r_296 c M4 f4)) + (kernelRunV.sl.r_165 c M1 M3 M6 M9 M10 f1 f3 f6 f9 f10) i * (kernelRunV.sl.r_297 c M4 f4)) + (kernelRunV.sl.r_177 c M1 M3 M6 M9 M10 f1 f3 f6 f9 f10) i * (kernelRunV.sl.r_298 c M4 f4)) + (kernelRunV.sl.r_188 c M1 M3 M6 M9 M10 f1 f3 f6 f9 f10) i * (kernelRunV.sl.r_299 c M4 f4)) + (kernelRunV.sl.r_200 c M1 M3 M6 M9 M10 f1 f3 f6 f9 f10) i * (kernelRunV.sl.r_300 c M4 f4)) + (kernelRunV.sl.r_212 c M1 M3 M6 M9 M10 f1 f3 f6 f9 f10) i * (kernelRunV.sl.r_301 c M4 f4)) + (kernelRunV.sl.r_302 c M7 f7)) (Scalar.ofBits .f32 0x00000000#32 : Ideal .f32) := rfl

theorem x1_5_apply (i : S512x256.Idx) :
    (kernelRunV.sl.r_325 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_303 c M4 f4)) + (kernelRunV.sl.r_48 c M1 M3 M6 M9 M10 f1 f3 f6 f9 f10) i * (kernelRunV.sl.r_305 c M4 f4)) + (kernelRunV.sl.r_60 c M1 M3 M6 M9 M10 f1 f3 f6 f9 f10) i * (kernelRunV.sl.r_306 c M4 f4)) + (kernelRunV.sl.r_72 c M1 M3 M6 M9 M10 f1 f3 f6 f9 f10) i * (kernelRunV.sl.r_307 c M4 f4)) + (kernelRunV.sl.r_83 c M1 M3 M6 M9 M10 f1 f3 f6 f9 f10) i * (kernelRunV.sl.r_308 c M4 f4)) + (kernelRunV.sl.r_95 c M1 M3 M6 M9 M10 f1 f3 f6 f9 f10) i * (kernelRunV.sl.r_309 c M4 f4)) + (kernelRunV.sl.r_107 c M1 M3 M6 M9 M10 f1 f3 f6 f9 f10) i * (kernelRunV.sl.r_310 c M4 f4)) + (kernelRunV.sl.r_118 c M1 M3 M6 M9 M10 f1 f3 f6 f9 f10) i * (kernelRunV.sl.r_311 c M4 f4)) + (kernelRunV.sl.r_130 c M1 M3 M6 M9 M10 f1 f3 f6 f9 f10) i * (kernelRunV.sl.r_312 c M4 f4)) + (kernelRunV.sl.r_142 c M1 M3 M6 M9 M10 f1 f3 f6 f9 f10) i * (kernelRunV.sl.r_313 c M4 f4)) + (kernelRunV.sl.r_153 c M1 M3 M6 M9 M10 f1 f3 f6 f9 f10) i * (kernelRunV.sl.r_315 c M4 f4)) + (kernelRunV.sl.r_165 c M1 M3 M6 M9 M10 f1 f3 f6 f9 f10) i * (kernelRunV.sl.r_316 c M4 f4)) + (kernelRunV.sl.r_177 c M1 M3 M6 M9 M10 f1 f3 f6 f9 f10) i * (kernelRunV.sl.r_317 c M4 f4)) + (kernelRunV.sl.r_188 c M1 M3 M6 M9 M10 f1 f3 f6 f9 f10) i * (kernelRunV.sl.r_318 c M4 f4)) + (kernelRunV.sl.r_200 c M1 M3 M6 M9 M10 f1 f3 f6 f9 f10) i * (kernelRunV.sl.r_319 c M4 f4)) + (kernelRunV.sl.r_212 c M1 M3 M6 M9 M10 f1 f3 f6 f9 f10) i * (kernelRunV.sl.r_320 c M4 f4)) + (kernelRunV.sl.r_321 c M7 f7)) (Scalar.ofBits .f32 0x00000000#32 : Ideal .f32) := rfl

theorem x1_6_apply (i : S512x256.Idx) :
    (kernelRunV.sl.r_347 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_322 c M4 f4)) + (kernelRunV.sl.r_48 c M1 M3 M6 M9 M10 f1 f3 f6 f9 f10) i * (kernelRunV.sl.r_323 c M4 f4)) + (kernelRunV.sl.r_60 c M1 M3 M6 M9 M10 f1 f3 f6 f9 f10) i * (kernelRunV.sl.r_324 c M4 f4)) + (kernelRunV.sl.r_72 c M1 M3 M6 M9 M10 f1 f3 f6 f9 f10) i * (kernelRunV.sl.r_327 c M4 f4)) + (kernelRunV.sl.r_83 c M1 M3 M6 M9 M10 f1 f3 f6 f9 f10) i * (kernelRunV.sl.r_328 c M4 f4)) + (kernelRunV.sl.r_95 c M1 M3 M6 M9 M10 f1 f3 f6 f9 f10) i * (kernelRunV.sl.r_329 c M4 f4)) + (kernelRunV.sl.r_107 c M1 M3 M6 M9 M10 f1 f3 f6 f9 f10) i * (kernelRunV.sl.r_330 c M4 f4)) + (kernelRunV.sl.r_118 c M1 M3 M6 M9 M10 f1 f3 f6 f9 f10) i * (kernelRunV.sl.r_331 c M4 f4)) + (kernelRunV.sl.r_130 c M1 M3 M6 M9 M10 f1 f3 f6 f9 f10) i * (kernelRunV.sl.r_332 c M4 f4)) + (kernelRunV.sl.r_142 c M1 M3 M6 M9 M10 f1 f3 f6 f9 f10) i * (kernelRunV.sl.r_333 c M4 f4)) + (kernelRunV.sl.r_153 c M1 M3 M6 M9 M10 f1 f3 f6 f9 f10) i * (kernelRunV.sl.r_334 c M4 f4)) + (kernelRunV.sl.r_165 c M1 M3 M6 M9 M10 f1 f3 f6 f9 f10) i * (kernelRunV.sl.r_335 c M4 f4)) + (kernelRunV.sl.r_177 c M1 M3 M6 M9 M10 f1 f3 f6 f9 f10) i * (kernelRunV.sl.r_336 c M4 f4)) + (kernelRunV.sl.r_188 c M1 M3 M6 M9 M10 f1 f3 f6 f9 f10) i * (kernelRunV.sl.r_338 c M4 f4)) + (kernelRunV.sl.r_200 c M1 M3 M6 M9 M10 f1 f3 f6 f9 f10) i * (kernelRunV.sl.r_339 c M4 f4)) + (kernelRunV.sl.r_212 c M1 M3 M6 M9 M10 f1 f3 f6 f9 f10) i * (kernelRunV.sl.r_340 c M4 f4)) + (kernelRunV.sl.r_341 c M7 f7)) (Scalar.ofBits .f32 0x00000000#32 : Ideal .f32) := rfl

theorem x1_7_apply (i : S512x256.Idx) :
    (kernelRunV.sl.r_371 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_342 c M4 f4)) + (kernelRunV.sl.r_48 c M1 M3 M6 M9 M10 f1 f3 f6 f9 f10) i * (kernelRunV.sl.r_343 c M4 f4)) + (kernelRunV.sl.r_60 c M1 M3 M6 M9 M10 f1 f3 f6 f9 f10) i * (kernelRunV.sl.r_344 c M4 f4)) + (kernelRunV.sl.r_72 c M1 M3 M6 M9 M10 f1 f3 f6 f9 f10) i * (kernelRunV.sl.r_345 c M4 f4)) + (kernelRunV.sl.r_83 c M1 M3 M6 M9 M10 f1 f3 f6 f9 f10) i * (kernelRunV.sl.r_346 c M4 f4)) + (kernelRunV.sl.r_95 c M1 M3 M6 M9 M10 f1 f3 f6 f9 f10) i * (kernelRunV.sl.r_350 c M4 f4)) + (kernelRunV.sl.r_107 c M1 M3 M6 M9 M10 f1 f3 f6 f9 f10) i * (kernelRunV.sl.r_351 c M4 f4)) + (kernelRunV.sl.r_118 c M1 M3 M6 M9 M10 f1 f3 f6 f9 f10) i * (kernelRunV.sl.r_352 c M4 f4)) + (kernelRunV.sl.r_130 c M1 M3 M6 M9 M10 f1 f3 f6 f9 f10) i * (kernelRunV.sl.r_353 c M4 f4)) + (kernelRunV.sl.r_142 c M1 M3 M6 M9 M10 f1 f3 f6 f9 f10) i * (kernelRunV.sl.r_354 c M4 f4)) + (kernelRunV.sl.r_153 c M1 M3 M6 M9 M10 f1 f3 f6 f9 f10) i * (kernelRunV.sl.r_355 c M4 f4)) + (kernelRunV.sl.r_165 c M1 M3 M6 M9 M10 f1 f3 f6 f9 f10) i * (kernelRunV.sl.r_356 c M4 f4)) + (kernelRunV.sl.r_177 c M1 M3 M6 M9 M10 f1 f3 f6 f9 f10) i * (kernelRunV.sl.r_357 c M4 f4)) + (kernelRunV.sl.r_188 c M1 M3 M6 M9 M10 f1 f3 f6 f9 f10) i * (kernelRunV.sl.r_358 c M4 f4)) + (kernelRunV.sl.r_200 c M1 M3 M6 M9 M10 f1 f3 f6 f9 f10) i * (kernelRunV.sl.r_359 c M4 f4)) + (kernelRunV.sl.r_212 c M1 M3 M6 M9 M10 f1 f3 f6 f9 f10) i * (kernelRunV.sl.r_362 c M4 f4)) + (kernelRunV.sl.r_363 c M7 f7)) (Scalar.ofBits .f32 0x00000000#32 : Ideal .f32) := rfl

theorem x1_8_apply (i : S512x256.Idx) :
    (kernelRunV.sl.r_394 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_364 c M4 f4)) + (kernelRunV.sl.r_48 c M1 M3 M6 M9 M10 f1 f3 f6 f9 f10) i * (kernelRunV.sl.r_365 c M4 f4)) + (kernelRunV.sl.r_60 c M1 M3 M6 M9 M10 f1 f3 f6 f9 f10) i * (kernelRunV.sl.r_366 c M4 f4)) + (kernelRunV.sl.r_72 c M1 M3 M6 M9 M10 f1 f3 f6 f9 f10) i * (kernelRunV.sl.r_367 c M4 f4)) + (kernelRunV.sl.r_83 c M1 M3 M6 M9 M10 f1 f3 f6 f9 f10) i * (kernelRunV.sl.r_368 c M4 f4)) + (kernelRunV.sl.r_95 c M1 M3 M6 M9 M10 f1 f3 f6 f9 f10) i * (kernelRunV.sl.r_369 c M4 f4)) + (kernelRunV.sl.r_107 c M1 M3 M6 M9 M10 f1 f3 f6 f9 f10) i * (kernelRunV.sl.r_370 c M4 f4)) + (kernelRunV.sl.r_118 c M1 M3 M6 M9 M10 f1 f3 f6 f9 f10) i * (kernelRunV.sl.r_373 c M4 f4)) + (kernelRunV.sl.r_130 c M1 M3 M6 M9 M10 f1 f3 f6 f9 f10) i * (kernelRunV.sl.r_374 c M4 f4)) + (kernelRunV.sl.r_142 c M1 M3 M6 M9 M10 f1 f3 f6 f9 f10) i * (kernelRunV.sl.r_375 c M4 f4)) + (kernelRunV.sl.r_153 c M1 M3 M6 M9 M10 f1 f3 f6 f9 f10) i * (kernelRunV.sl.r_376 c M4 f4)) + (kernelRunV.sl.r_165 c M1 M3 M6 M9 M10 f1 f3 f6 f9 f10) i * (kernelRunV.sl.r_377 c M4 f4)) + (kernelRunV.sl.r_177 c M1 M3 M6 M9 M10 f1 f3 f6 f9 f10) i * (kernelRunV.sl.r_378 c M4 f4)) + (kernelRunV.sl.r_188 c M1 M3 M6 M9 M10 f1 f3 f6 f9 f10) i * (kernelRunV.sl.r_379 c M4 f4)) + (kernelRunV.sl.r_200 c M1 M3 M6 M9 M10 f1 f3 f6 f9 f10) i * (kernelRunV.sl.r_380 c M4 f4)) + (kernelRunV.sl.r_212 c M1 M3 M6 M9 M10 f1 f3 f6 f9 f10) i * (kernelRunV.sl.r_381 c M4 f4)) + (kernelRunV.sl.r_382 c M7 f7)) (Scalar.ofBits .f32 0x00000000#32 : Ideal .f32) := rfl

theorem x1_9_apply (i : S512x256.Idx) :
    (kernelRunV.sl.r_405 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_384 c M4 f4)) + (kernelRunV.sl.r_48 c M1 M3 M6 M9 M10 f1 f3 f6 f9 f10) i * (kernelRunV.sl.r_385 c M4 f4)) + (kernelRunV.sl.r_60 c M1 M3 M6 M9 M10 f1 f3 f6 f9 f10) i * (kernelRunV.sl.r_386 c M4 f4)) + (kernelRunV.sl.r_72 c M1 M3 M6 M9 M10 f1 f3 f6 f9 f10) i * (kernelRunV.sl.r_387 c M4 f4)) + (kernelRunV.sl.r_83 c M1 M3 M6 M9 M10 f1 f3 f6 f9 f10) i * (kernelRunV.sl.r_388 c M4 f4)) + (kernelRunV.sl.r_95 c M1 M3 M6 M9 M10 f1 f3 f6 f9 f10) i * (kernelRunV.sl.r_389 c M4 f4)) + (kernelRunV.sl.r_107 c M1 M3 M6 M9 M10 f1 f3 f6 f9 f10) i * (kernelRunV.sl.r_390 c M4 f4)) + (kernelRunV.sl.r_118 c M1 M3 M6 M9 M10 f1 f3 f6 f9 f10) i * (kernelRunV.sl.r_391 c M4 f4)) + (kernelRunV.sl.r_130 c M1 M3 M6 M9 M10 f1 f3 f6 f9 f10) i * (kernelRunV.sl.r_392 c M4 f4)) + (kernelRunV.sl.r_142 c M1 M3 M6 M9 M10 f1 f3 f6 f9 f10) i * (kernelRunV.sl.r_393 c M4 f4)) + (kernelRunV.sl.r_153 c M1 M3 M6 M9 M10 f1 f3 f6 f9 f10) i * (kernelRunV.sl.r_396 c M4 f4)) + (kernelRunV.sl.r_165 c M1 M3 M6 M9 M10 f1 f3 f6 f9 f10) i * (kernelRunV.sl.r_397 c M4 f4)) + (kernelRunV.sl.r_177 c M1 M3 M6 M9 M10 f1 f3 f6 f9 f10) i * (kernelRunV.sl.r_398 c M4 f4)) + (kernelRunV.sl.r_188 c M1 M3 M6 M9 M10 f1 f3 f6 f9 f10) i * (kernelRunV.sl.r_399 c M4 f4)) + (kernelRunV.sl.r_200 c M1 M3 M6 M9 M10 f1 f3 f6 f9 f10) i * (kernelRunV.sl.r_400 c M4 f4)) + (kernelRunV.sl.r_212 c M1 M3 M6 M9 M10 f1 f3 f6 f9 f10) i * (kernelRunV.sl.r_401 c M4 f4)) + (kernelRunV.sl.r_402 c M7 f7)) (Scalar.ofBits .f32 0x00000000#32 : Ideal .f32) := rfl

theorem x1_10_apply (i : S512x256.Idx) :
    (kernelRunV.sl.r_429 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_403 c M4 f4)) + (kernelRunV.sl.r_48 c M1 M3 M6 M9 M10 f1 f3 f6 f9 f10) i * (kernelRunV.sl.r_404 c M4 f4)) + (kernelRunV.sl.r_60 c M1 M3 M6 M9 M10 f1 f3 f6 f9 f10) i * (kernelRunV.sl.r_408 c M4 f4)) + (kernelRunV.sl.r_72 c M1 M3 M6 M9 M10 f1 f3 f6 f9 f10) i * (kernelRunV.sl.r_409 c M4 f4)) + (kernelRunV.sl.r_83 c M1 M3 M6 M9 M10 f1 f3 f6 f9 f10) i * (kernelRunV.sl.r_410 c M4 f4)) + (kernelRunV.sl.r_95 c M1 M3 M6 M9 M10 f1 f3 f6 f9 f10) i * (kernelRunV.sl.r_411 c M4 f4)) + (kernelRunV.sl.r_107 c M1 M3 M6 M9 M10 f1 f3 f6 f9 f10) i * (kernelRunV.sl.r_412 c M4 f4)) + (kernelRunV.sl.r_118 c M1 M3 M6 M9 M10 f1 f3 f6 f9 f10) i * (kernelRunV.sl.r_413 c M4 f4)) + (kernelRunV.sl.r_130 c M1 M3 M6 M9 M10 f1 f3 f6 f9 f10) i * (kernelRunV.sl.r_414 c M4 f4)) + (kernelRunV.sl.r_142 c M1 M3 M6 M9 M10 f1 f3 f6 f9 f10) i * (kernelRunV.sl.r_415 c M4 f4)) + (kernelRunV.sl.r_153 c M1 M3 M6 M9 M10 f1 f3 f6 f9 f10) i * (kernelRunV.sl.r_416 c M4 f4)) + (kernelRunV.sl.r_165 c M1 M3 M6 M9 M10 f1 f3 f6 f9 f10) i * (kernelRunV.sl.r_417 c M4 f4)) + (kernelRunV.sl.r_177 c M1 M3 M6 M9 M10 f1 f3 f6 f9 f10) i * (kernelRunV.sl.r_420 c M4 f4)) + (kernelRunV.sl.r_188 c M1 M3 M6 M9 M10 f1 f3 f6 f9 f10) i * (kernelRunV.sl.r_421 c M4 f4)) + (kernelRunV.sl.r_200 c M1 M3 M6 M9 M10 f1 f3 f6 f9 f10) i * (kernelRunV.sl.r_422 c M4 f4)) + (kernelRunV.sl.r_212 c M1 M3 M6 M9 M10 f1 f3 f6 f9 f10) i * (kernelRunV.sl.r_423 c M4 f4)) + (kernelRunV.sl.r_424 c M7 f7)) (Scalar.ofBits .f32 0x00000000#32 : Ideal .f32) := rfl

theorem x1_11_apply (i : S512x256.Idx) :
    (kernelRunV.sl.r_452 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_425 c M4 f4)) + (kernelRunV.sl.r_48 c M1 M3 M6 M9 M10 f1 f3 f6 f9 f10) i * (kernelRunV.sl.r_426 c M4 f4)) + (kernelRunV.sl.r_60 c M1 M3 M6 M9 M10 f1 f3 f6 f9 f10) i * (kernelRunV.sl.r_427 c M4 f4)) + (kernelRunV.sl.r_72 c M1 M3 M6 M9 M10 f1 f3 f6 f9 f10) i * (kernelRunV.sl.r_428 c M4 f4)) + (kernelRunV.sl.r_83 c M1 M3 M6 M9 M10 f1 f3 f6 f9 f10) i * (kernelRunV.sl.r_431 c M4 f4)) + (kernelRunV.sl.r_95 c M1 M3 M6 M9 M10 f1 f3 f6 f9 f10) i * (kernelRunV.sl.r_432 c M4 f4)) + (kernelRunV.sl.r_107 c M1 M3 M6 M9 M10 f1 f3 f6 f9 f10) i * (kernelRunV.sl.r_433 c M4 f4)) + (kernelRunV.sl.r_118 c M1 M3 M6 M9 M10 f1 f3 f6 f9 f10) i * (kernelRunV.sl.r_434 c M4 f4)) + (kernelRunV.sl.r_130 c M1 M3 M6 M9 M10 f1 f3 f6 f9 f10) i * (kernelRunV.sl.r_435 c M4 f4)) + (kernelRunV.sl.r_142 c M1 M3 M6 M9 M10 f1 f3 f6 f9 f10) i * (kernelRunV.sl.r_436 c M4 f4)) + (kernelRunV.sl.r_153 c M1 M3 M6 M9 M10 f1 f3 f6 f9 f10) i * (kernelRunV.sl.r_437 c M4 f4)) + (kernelRunV.sl.r_165 c M1 M3 M6 M9 M10 f1 f3 f6 f9 f10) i * (kernelRunV.sl.r_438 c M4 f4)) + (kernelRunV.sl.r_177 c M1 M3 M6 M9 M10 f1 f3 f6 f9 f10) i * (kernelRunV.sl.r_439 c M4 f4)) + (kernelRunV.sl.r_188 c M1 M3 M6 M9 M10 f1 f3 f6 f9 f10) i * (kernelRunV.sl.r_440 c M4 f4)) + (kernelRunV.sl.r_200 c M1 M3 M6 M9 M10 f1 f3 f6 f9 f10) i * (kernelRunV.sl.r_442 c M4 f4)) + (kernelRunV.sl.r_212 c M1 M3 M6 M9 M10 f1 f3 f6 f9 f10) i * (kernelRunV.sl.r_443 c M4 f4)) + (kernelRunV.sl.r_444 c M7 f7)) (Scalar.ofBits .f32 0x00000000#32 : Ideal .f32) := rfl

theorem x1_12_apply (i : S512x256.Idx) :
    (kernelRunV.sl.r_474 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_445 c M4 f4)) + (kernelRunV.sl.r_48 c M1 M3 M6 M9 M10 f1 f3 f6 f9 f10) i * (kernelRunV.sl.r_446 c M4 f4)) + (kernelRunV.sl.r_60 c M1 M3 M6 M9 M10 f1 f3 f6 f9 f10) i * (kernelRunV.sl.r_447 c M4 f4)) + (kernelRunV.sl.r_72 c M1 M3 M6 M9 M10 f1 f3 f6 f9 f10) i * (kernelRunV.sl.r_448 c M4 f4)) + (kernelRunV.sl.r_83 c M1 M3 M6 M9 M10 f1 f3 f6 f9 f10) i * (kernelRunV.sl.r_449 c M4 f4)) + (kernelRunV.sl.r_95 c M1 M3 M6 M9 M10 f1 f3 f6 f9 f10) i * (kernelRunV.sl.r_450 c M4 f4)) + (kernelRunV.sl.r_107 c M1 M3 M6 M9 M10 f1 f3 f6 f9 f10) i * (kernelRunV.sl.r_451 c M4 f4)) + (kernelRunV.sl.r_118 c M1 M3 M6 M9 M10 f1 f3 f6 f9 f10) i * (kernelRunV.sl.r_454 c M4 f4)) + (kernelRunV.sl.r_130 c M1 M3 M6 M9 M10 f1 f3 f6 f9 f10) i * (kernelRunV.sl.r_455 c M4 f4)) + (kernelRunV.sl.r_142 c M1 M3 M6 M9 M10 f1 f3 f6 f9 f10) i * (kernelRunV.sl.r_456 c M4 f4)) + (kernelRunV.sl.r_153 c M1 M3 M6 M9 M10 f1 f3 f6 f9 f10) i * (kernelRunV.sl.r_457 c M4 f4)) + (kernelRunV.sl.r_165 c M1 M3 M6 M9 M10 f1 f3 f6 f9 f10) i * (kernelRunV.sl.r_458 c M4 f4)) + (kernelRunV.sl.r_177 c M1 M3 M6 M9 M10 f1 f3 f6 f9 f10) i * (kernelRunV.sl.r_459 c M4 f4)) + (kernelRunV.sl.r_188 c M1 M3 M6 M9 M10 f1 f3 f6 f9 f10) i * (kernelRunV.sl.r_460 c M4 f4)) + (kernelRunV.sl.r_200 c M1 M3 M6 M9 M10 f1 f3 f6 f9 f10) i * (kernelRunV.sl.r_461 c M4 f4)) + (kernelRunV.sl.r_212 c M1 M3 M6 M9 M10 f1 f3 f6 f9 f10) i * (kernelRunV.sl.r_462 c M4 f4)) + (kernelRunV.sl.r_463 c M7 f7)) (Scalar.ofBits .f32 0x00000000#32 : Ideal .f32) := rfl

theorem x1_13_apply (i : S512x256.Idx) :
    (kernelRunV.sl.r_486 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_465 c M4 f4)) + (kernelRunV.sl.r_48 c M1 M3 M6 M9 M10 f1 f3 f6 f9 f10) i * (kernelRunV.sl.r_466 c M4 f4)) + (kernelRunV.sl.r_60 c M1 M3 M6 M9 M10 f1 f3 f6 f9 f10) i * (kernelRunV.sl.r_467 c M4 f4)) + (kernelRunV.sl.r_72 c M1 M3 M6 M9 M10 f1 f3 f6 f9 f10) i * (kernelRunV.sl.r_468 c M4 f4)) + (kernelRunV.sl.r_83 c M1 M3 M6 M9 M10 f1 f3 f6 f9 f10) i * (kernelRunV.sl.r_469 c M4 f4)) + (kernelRunV.sl.r_95 c M1 M3 M6 M9 M10 f1 f3 f6 f9 f10) i * (kernelRunV.sl.r_470 c M4 f4)) + (kernelRunV.sl.r_107 c M1 M3 M6 M9 M10 f1 f3 f6 f9 f10) i * (kernelRunV.sl.r_471 c M4 f4)) + (kernelRunV.sl.r_118 c M1 M3 M6 M9 M10 f1 f3 f6 f9 f10) i * (kernelRunV.sl.r_472 c M4 f4)) + (kernelRunV.sl.r_130 c M1 M3 M6 M9 M10 f1 f3 f6 f9 f10) i * (kernelRunV.sl.r_473 c M4 f4)) + (kernelRunV.sl.r_142 c M1 M3 M6 M9 M10 f1 f3 f6 f9 f10) i * (kernelRunV.sl.r_477 c M4 f4)) + (kernelRunV.sl.r_153 c M1 M3 M6 M9 M10 f1 f3 f6 f9 f10) i * (kernelRunV.sl.r_478 c M4 f4)) + (kernelRunV.sl.r_165 c M1 M3 M6 M9 M10 f1 f3 f6 f9 f10) i * (kernelRunV.sl.r_479 c M4 f4)) + (kernelRunV.sl.r_177 c M1 M3 M6 M9 M10 f1 f3 f6 f9 f10) i * (kernelRunV.sl.r_480 c M4 f4)) + (kernelRunV.sl.r_188 c M1 M3 M6 M9 M10 f1 f3 f6 f9 f10) i * (kernelRunV.sl.r_481 c M4 f4)) + (kernelRunV.sl.r_200 c M1 M3 M6 M9 M10 f1 f3 f6 f9 f10) i * (kernelRunV.sl.r_482 c M4 f4)) + (kernelRunV.sl.r_212 c M1 M3 M6 M9 M10 f1 f3 f6 f9 f10) i * (kernelRunV.sl.r_483 c M4 f4)) + (kernelRunV.sl.r_484 c M7 f7)) (Scalar.ofBits .f32 0x00000000#32 : Ideal .f32) := rfl

theorem x1_14_apply (i : S512x256.Idx) :
    (kernelRunV.sl.r_509 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_485 c M4 f4)) + (kernelRunV.sl.r_48 c M1 M3 M6 M9 M10 f1 f3 f6 f9 f10) i * (kernelRunV.sl.r_488 c M4 f4)) + (kernelRunV.sl.r_60 c M1 M3 M6 M9 M10 f1 f3 f6 f9 f10) i * (kernelRunV.sl.r_489 c M4 f4)) + (kernelRunV.sl.r_72 c M1 M3 M6 M9 M10 f1 f3 f6 f9 f10) i * (kernelRunV.sl.r_490 c M4 f4)) + (kernelRunV.sl.r_83 c M1 M3 M6 M9 M10 f1 f3 f6 f9 f10) i * (kernelRunV.sl.r_491 c M4 f4)) + (kernelRunV.sl.r_95 c M1 M3 M6 M9 M10 f1 f3 f6 f9 f10) i * (kernelRunV.sl.r_492 c M4 f4)) + (kernelRunV.sl.r_107 c M1 M3 M6 M9 M10 f1 f3 f6 f9 f10) i * (kernelRunV.sl.r_493 c M4 f4)) + (kernelRunV.sl.r_118 c M1 M3 M6 M9 M10 f1 f3 f6 f9 f10) i * (kernelRunV.sl.r_494 c M4 f4)) + (kernelRunV.sl.r_130 c M1 M3 M6 M9 M10 f1 f3 f6 f9 f10) i * (kernelRunV.sl.r_495 c M4 f4)) + (kernelRunV.sl.r_142 c M1 M3 M6 M9 M10 f1 f3 f6 f9 f10) i * (kernelRunV.sl.r_496 c M4 f4)) + (kernelRunV.sl.r_153 c M1 M3 M6 M9 M10 f1 f3 f6 f9 f10) i * (kernelRunV.sl.r_497 c M4 f4)) + (kernelRunV.sl.r_165 c M1 M3 M6 M9 M10 f1 f3 f6 f9 f10) i * (kernelRunV.sl.r_499 c M4 f4)) + (kernelRunV.sl.r_177 c M1 M3 M6 M9 M10 f1 f3 f6 f9 f10) i * (kernelRunV.sl.r_500 c M4 f4)) + (kernelRunV.sl.r_188 c M1 M3 M6 M9 M10 f1 f3 f6 f9 f10) i * (kernelRunV.sl.r_501 c M4 f4)) + (kernelRunV.sl.r_200 c M1 M3 M6 M9 M10 f1 f3 f6 f9 f10) i * (kernelRunV.sl.r_502 c M4 f4)) + (kernelRunV.sl.r_212 c M1 M3 M6 M9 M10 f1 f3 f6 f9 f10) i * (kernelRunV.sl.r_503 c M4 f4)) + (kernelRunV.sl.r_504 c M7 f7)) (Scalar.ofBits .f32 0x00000000#32 : Ideal .f32) := rfl

theorem x1_15_apply (i : S512x256.Idx) :
    (kernelRunV.sl.r_525 c M1 M3 M4 M6 M7 M9 M10 f1 f3 f4 f6 f7 f9 f10) i = max ((((((((((((((((((Scalar.ofBits .f32 0x00000000#32 : Ideal .f32) + (kernelRunV.sl.r_37 c M1 M3 M6 M9 M10 f1 f3 f6 f9 f10) i * (kernelRunV.sl.r_505 c M4 f4)) + (kernelRunV.sl.r_48 c M1 M3 M6 M9 M10 f1 f3 f6 f9 f10) i * (kernelRunV.sl.r_506 c M4 f4)) + (kernelRunV.sl.r_60 c M1 M3 M6 M9 M10 f1 f3 f6 f9 f10) i * (kernelRunV.sl.r_507 c M4 f4)) + (kernelRunV.sl.r_72 c M1 M3 M6 M9 M10 f1 f3 f6 f9 f10) i * (kernelRunV.sl.r_508 c M4 f4)) + (kernelRunV.sl.r_83 c M1 M3 M6 M9 M10 f1 f3 f6 f9 f10) i * (kernelRunV.sl.r_511 c M4 f4)) + (kernelRunV.sl.r_95 c M1 M3 M6 M9 M10 f1 f3 f6 f9 f10) i * (kernelRunV.sl.r_512 c M4 f4)) + (kernelRunV.sl.r_107 c M1 M3 M6 M9 M10 f1 f3 f6 f9 f10) i * (kernelRunV.sl.r_513 c M4 f4)) + (kernelRunV.sl.r_118 c M1 M3 M6 M9 M10 f1 f3 f6 f9 f10) i * (kernelRunV.sl.r_514 c M4 f4)) + (kernelRunV.sl.r_130 c M1 M3 M6 M9 M10 f1 f3 f6 f9 f10) i * (kernelRunV.sl.r_515 c M4 f4)) + (kernelRunV.sl.r_142 c M1 M3 M6 M9 M10 f1 f3 f6 f9 f10) i * (kernelRunV.sl.r_516 c M4 f4)) + (kernelRunV.sl.r_153 c M1 M3 M6 M9 M10 f1 f3 f6 f9 f10) i * (kernelRunV.sl.r_517 c M4 f4)) + (kernelRunV.sl.r_165 c M1 M3 M6 M9 M10 f1 f3 f6 f9 f10) i * (kernelRunV.sl.r_518 c M4 f4)) + (kernelRunV.sl.r_177 c M1 M3 M6 M9 M10 f1 f3 f6 f9 f10) i * (kernelRunV.sl.r_519 c M4 f4)) + (kernelRunV.sl.r_188 c M1 M3 M6 M9 M10 f1 f3 f6 f9 f10) i * (kernelRunV.sl.r_520 c M4 f4)) + (kernelRunV.sl.r_200 c M1 M3 M6 M9 M10 f1 f3 f6 f9 f10) i * (kernelRunV.sl.r_522 c M4 f4)) + (kernelRunV.sl.r_212 c M1 M3 M6 M9 M10 f1 f3 f6 f9 f10) i * (kernelRunV.sl.r_523 c M4 f4)) + (kernelRunV.sl.r_524 c M7 f7)) (Scalar.ofBits .f32 0x00000000#32 : Ideal .f32) := rfl

end Cert.KernelIdeal.Region
-- ==== Proof.RegionValueStage1.lean ====
import proofs.«208141_g20598663152203_cont_8to1_341_30_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Region

open Cert.KernelIdeal Cert.KernelIdeal.Gen
open Idealize.ShloMosaic Idealize.ShloMosaic.ValueIdx
open scoped BigOperators

/-- A channel's block [1, 512, 256] as a matrix [512, 256], at (s, mm). -/
theorem chan_apply (x : Vec Ideal S1x512x256 .bf16) (s : Fin 512) (mm : Fin 256) :
    shapeCast S512x256 x shapeCasts_S1x512x256_S512x256 (ix2 s mm) = x (ix3 (0 : Fin 1) s mm) := by
  rw [shapeCast_dropUnit_apply]
  refine congrArg x (funext fun a => ?_)
  match a with
  | ⟨0, _⟩ => rfl
  | ⟨1, _⟩ => rfl
  | ⟨2, _⟩ => rfl

/-- The count matrix rounded to bf16 is itself, at Ideal. -/
theorem k1_pay1_apply (adj : Vec Ideal S512x512 .f32) (i : S512x512.Idx) : k1_pay1 adj i = adj i := by
  unfold k1_pay1
  rw [truncf_apply, shapeCast_self]

theorem xcat_apply_0 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨0 + mm.val, by have := mm.isLt; omega⟩ : Fin 2048))
      = x0 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 0 (by simp) S512x256 (k1_pay4 x0) rfl rfl 0 rfl
    (ix2 s mm) (fun b hb => by
      match b with
      | ⟨0, _⟩ => rfl
      | ⟨1, _⟩ => exact absurd rfl hb) rfl]
  unfold k1_pay4
  exact chan_apply x0 s mm

theorem xcat_apply_1 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨256 + mm.val, by have := mm.isLt; omega⟩ : Fin 2048))
      = x1 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 1 (by simp) S512x256 (k1_pay5 x1) rfl rfl 256 rfl
    (ix2 s mm) (fun b hb => by
      match b with
      | ⟨0, _⟩ => rfl
      | ⟨1, _⟩ => exact absurd rfl hb) rfl]
  unfold k1_pay5
  exact chan_apply x1 s mm

theorem xcat_apply_2 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨512 + mm.val, by have := mm.isLt; omega⟩ : Fin 2048))
      = x2 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 2 (by simp) S512x256 (k1_pay6 x2) rfl rfl 512 rfl
    (ix2 s mm) (fun b hb => by
      match b with
      | ⟨0, _⟩ => rfl
      | ⟨1, _⟩ => exact absurd rfl hb) rfl]
  unfold k1_pay6
  exact chan_apply x2 s mm

theorem xcat_apply_3 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨768 + mm.val, by have := mm.isLt; omega⟩ : Fin 2048))
      = x3 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 3 (by simp) S512x256 (k1_pay7 x3) rfl rfl 768 rfl
    (ix2 s mm) (fun b hb => by
      match b with
      | ⟨0, _⟩ => rfl
      | ⟨1, _⟩ => exact absurd rfl hb) rfl]
  unfold k1_pay7
  exact chan_apply x3 s mm

theorem xcat_apply_4 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨1024 + mm.val, by have := mm.isLt; omega⟩ : Fin 2048))
      = x4 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 4 (by simp) S512x256 (k1_pay8 x4) rfl rfl 1024 rfl
    (ix2 s mm) (fun b hb => by
      match b with
      | ⟨0, _⟩ => rfl
      | ⟨1, _⟩ => exact absurd rfl hb) rfl]
  unfold k1_pay8
  exact chan_apply x4 s mm

theorem xcat_apply_5 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨1280 + mm.val, by have := mm.isLt; omega⟩ : Fin 2048))
      = x5 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 5 (by simp) S512x256 (k1_pay9 x5) rfl rfl 1280 rfl
    (ix2 s mm) (fun b hb => by
      match b with
      | ⟨0, _⟩ => rfl
      | ⟨1, _⟩ => exact absurd rfl hb) rfl]
  unfold k1_pay9
  exact chan_apply x5 s mm

theorem xcat_apply_6 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨1536 + mm.val, by have := mm.isLt; omega⟩ : Fin 2048))
      = x6 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 6 (by simp) S512x256 (k1_pay10 x6) rfl rfl 1536 rfl
    (ix2 s mm) (fun b hb => by
      match b with
      | ⟨0, _⟩ => rfl
      | ⟨1, _⟩ => exact absurd rfl hb) rfl]
  unfold k1_pay10
  exact chan_apply x6 s mm

theorem xcat_apply_7 (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (s : Fin 512) (mm : Fin 256) :
    (concatenate S512x2048 1 [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 : FVec Ideal S512x2048 .bf16)
        (ix2 s (⟨1792 + mm.val, by have := mm.isLt; omega⟩ : Fin 2048))
      = x7 (ix3 (0 : Fin 1) s mm) := by
  rw [concatenate_apply_piece (1 : Fin S512x2048.rank) [⟨S512x256, k1_pay4 x0⟩, ⟨S512x256, k1_pay5 x1⟩, ⟨S512x256, k1_pay6 x2⟩, ⟨S512x256, k1_pay7 x3⟩, ⟨S512x256, k1_pay8 x4⟩, ⟨S512x256, k1_pay9 x5⟩, ⟨S512x256, k1_pay10 x6⟩, ⟨S512x256, k1_pay11 x7⟩] concatenates_S512x256_S512x256_S512x256_S512x256_S512x256_S512x256_S512x256_S512x256_S512x2048_d1 _ 7 (by simp) S512x256 (k1_pay11 x7) rfl rfl 1792 rfl
    (ix2 s mm) (fun b hb => by
      match b with
      | ⟨0, _⟩ => rfl
      | ⟨1, _⟩ => exact absurd rfl hb) rfl]
  unfold k1_pay11
  exact chan_apply x7 s mm

theorem mm1_apply_l0 (j : S512x2048.Idx) (q : dot_S512x512_S512x2048_S512x2048_1_0_0_1_n_n.contr.Idx) : (dot_S512x512_S512x2048_S512x2048_1_0_0_1_n_n.lhsIdx j q 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem mm1_apply_r1 (j : S512x2048.Idx) (q : dot_S512x512_S512x2048_S512x2048_1_0_0_1_n_n.contr.Idx) : (dot_S512x512_S512x2048_S512x2048_1_0_0_1_n_n.rhsIdx j q 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product of a [512, 512] matrix with a [512, 2048] matrix into the zero accumulator, at (n, col). -/
theorem mm1_apply (L : FVec Ideal S512x512 .bf16) (R : FVec Ideal S512x2048 .bf16) (n : Fin 512) (col : Fin 2048) :
    matmul dot_S512x512_S512x2048_S512x2048_1_0_0_1_n_n none L R (constant S512x2048 .f32 0x00000000#32) (ix2 n col)
      = ∑ s : Fin 512, L (ix2 n s) * R (ix2 s col) := by
  simp only [matmul]
  rw [Ideal.matmul_constant_zero_apply, ← Equiv.sum_comp (contrEquiv1 dot_S512x512_S512x2048_S512x2048_1_0_0_1_n_n 512 rfl rfl).symm]
  refine Finset.sum_congr rfl fun s _ => ?_
  have hk := contrEquiv1_symm_val dot_S512x512_S512x2048_S512x2048_1_0_0_1_n_n 512 rfl rfl s
  have el : dot_S512x512_S512x2048_S512x2048_1_0_0_1_n_n.lhsIdx (ix2 n col) ((contrEquiv1 dot_S512x512_S512x2048_S512x2048_1_0_0_1_n_n 512 rfl rfl).symm s) = ix2 n s := funext fun a => Fin.ext (by
    match a with
    | ⟨0, _⟩ => exact mm1_apply_l0 _ _
    | ⟨1, _⟩ => exact (dot_S512x512_S512x2048_S512x2048_1_0_0_1_n_n.lhsIdx_val_of_single rfl _ _).trans hk)
  have er : dot_S512x512_S512x2048_S512x2048_1_0_0_1_n_n.rhsIdx (ix2 n col) ((contrEquiv1 dot_S512x512_S512x2048_S512x2048_1_0_0_1_n_n 512 rfl rfl).symm s) = ix2 s col := funext fun a => Fin.ext (by
    match a with
    | ⟨0, _⟩ => exact (dot_S512x512_S512x2048_S512x2048_1_0_0_1_n_n.rhsIdx_val_of_single rfl _ _).trans hk
    | ⟨1, _⟩ => exact mm1_apply_r1 _ _)
  rw [el, er]

/-- The first product at a column of channel block 0: the count matrix's row against the channel's column. -/
theorem hcat_apply_0 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨0 + mm.val, by have := mm.isLt; omega⟩ : Fin 2048))
      = ∑ s : Fin 512, adj (ix2 n s) * x0 (ix3 (0 : Fin 1) s mm) := by
  unfold k1_pay12
  rw [mm1_apply]
  refine Finset.sum_congr rfl fun s _ => ?_
  rw [k1_pay1_apply, xcat_apply_0]

/-- The first product at a column of channel block 1: the count matrix's row against the channel's column. -/
theorem hcat_apply_1 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨256 + mm.val, by have := mm.isLt; omega⟩ : Fin 2048))
      = ∑ s : Fin 512, adj (ix2 n s) * x1 (ix3 (0 : Fin 1) s mm) := by
  unfold k1_pay12
  rw [mm1_apply]
  refine Finset.sum_congr rfl fun s _ => ?_
  rw [k1_pay1_apply, xcat_apply_1]

/-- The first product at a column of channel block 2: the count matrix's row against the channel's column. -/
theorem hcat_apply_2 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨512 + mm.val, by have := mm.isLt; omega⟩ : Fin 2048))
      = ∑ s : Fin 512, adj (ix2 n s) * x2 (ix3 (0 : Fin 1) s mm) := by
  unfold k1_pay12
  rw [mm1_apply]
  refine Finset.sum_congr rfl fun s _ => ?_
  rw [k1_pay1_apply, xcat_apply_2]

/-- The first product at a column of channel block 3: the count matrix's row against the channel's column. -/
theorem hcat_apply_3 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨768 + mm.val, by have := mm.isLt; omega⟩ : Fin 2048))
      = ∑ s : Fin 512, adj (ix2 n s) * x3 (ix3 (0 : Fin 1) s mm) := by
  unfold k1_pay12
  rw [mm1_apply]
  refine Finset.sum_congr rfl fun s _ => ?_
  rw [k1_pay1_apply, xcat_apply_3]

/-- The first product at a column of channel block 4: the count matrix's row against the channel's column. -/
theorem hcat_apply_4 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨1024 + mm.val, by have := mm.isLt; omega⟩ : Fin 2048))
      = ∑ s : Fin 512, adj (ix2 n s) * x4 (ix3 (0 : Fin 1) s mm) := by
  unfold k1_pay12
  rw [mm1_apply]
  refine Finset.sum_congr rfl fun s _ => ?_
  rw [k1_pay1_apply, xcat_apply_4]

/-- The first product at a column of channel block 5: the count matrix's row against the channel's column. -/
theorem hcat_apply_5 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨1280 + mm.val, by have := mm.isLt; omega⟩ : Fin 2048))
      = ∑ s : Fin 512, adj (ix2 n s) * x5 (ix3 (0 : Fin 1) s mm) := by
  unfold k1_pay12
  rw [mm1_apply]
  refine Finset.sum_congr rfl fun s _ => ?_
  rw [k1_pay1_apply, xcat_apply_5]

/-- The first product at a column of channel block 6: the count matrix's row against the channel's column. -/
theorem hcat_apply_6 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨1536 + mm.val, by have := mm.isLt; omega⟩ : Fin 2048))
      = ∑ s : Fin 512, adj (ix2 n s) * x6 (ix3 (0 : Fin 1) s mm) := by
  unfold k1_pay12
  rw [mm1_apply]
  refine Finset.sum_congr rfl fun s _ => ?_
  rw [k1_pay1_apply, xcat_apply_6]

/-- The first product at a column of channel block 7: the count matrix's row against the channel's column. -/
theorem hcat_apply_7 (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay12 adj x0 x1 x2 x3 x4 x5 x6 x7 (ix2 n (⟨1792 + mm.val, by have := mm.isLt; omega⟩ : Fin 2048))
      = ∑ s : Fin 512, adj (ix2 n s) * x7 (ix3 (0 : Fin 1) s mm) := by
  unfold k1_pay12
  rw [mm1_apply]
  refine Finset.sum_congr rfl fun s _ => ?_
  rw [k1_pay1_apply, xcat_apply_7]

/-- The first aggregation of channel block 0, in the kernel's order: the product with the count matrix, plus (1 + eps) times
    the value itself (`e` is that factor). -/
theorem hs_apply_0 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay14 e (k1_pay4 x0) (k1_pay13 adj x0 x1 x2 x3 x4 x5 x6 x7) (ix2 n mm)
      = (∑ s : Fin 512, adj (ix2 n s) * x0 (ix3 (0 : Fin 1) s mm)) + e * x0 (ix3 (0 : Fin 1) n mm) := by
  unfold k1_pay14 k1_pay13
  rw [addf_apply, mulf_apply, broadcast_apply, extf_apply]
  rw [extractStridedSlice_apply ![0, 0] _ slices_S512x2048_o0_0_S512x256 (ix2 n mm) (ix2 n (⟨0 + mm.val, by have := mm.isLt; omega⟩ : Fin 2048))
    (fun a => by
      match a with
      | ⟨0, _⟩ => exact (Nat.zero_add _).symm
      | ⟨1, _⟩ => rfl)]
  rw [hcat_apply_0]
  unfold k1_pay4
  rw [chan_apply]

/-- The first aggregation of channel block 1, in the kernel's order: the product with the count matrix, plus (1 + eps) times
    the value itself (`e` is that factor). -/
theorem hs_apply_1 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay15 e (k1_pay5 x1) (k1_pay12 adj x0 x1 x2 x3 x4 x5 x6 x7) (ix2 n mm)
      = (∑ s : Fin 512, adj (ix2 n s) * x1 (ix3 (0 : Fin 1) s mm)) + e * x1 (ix3 (0 : Fin 1) n mm) := by
  unfold k1_pay15
  rw [addf_apply, mulf_apply, broadcast_apply, extf_apply]
  rw [extractStridedSlice_apply ![0, 256] _ slices_S512x2048_o0_256_S512x256 (ix2 n mm) (ix2 n (⟨256 + mm.val, by have := mm.isLt; omega⟩ : Fin 2048))
    (fun a => by
      match a with
      | ⟨0, _⟩ => exact (Nat.zero_add _).symm
      | ⟨1, _⟩ => rfl)]
  rw [hcat_apply_1]
  unfold k1_pay5
  rw [chan_apply]

/-- The first aggregation of channel block 2, in the kernel's order: the product with the count matrix, plus (1 + eps) times
    the value itself (`e` is that factor). -/
theorem hs_apply_2 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay16 e (k1_pay6 x2) (k1_pay12 adj x0 x1 x2 x3 x4 x5 x6 x7) (ix2 n mm)
      = (∑ s : Fin 512, adj (ix2 n s) * x2 (ix3 (0 : Fin 1) s mm)) + e * x2 (ix3 (0 : Fin 1) n mm) := by
  unfold k1_pay16
  rw [addf_apply, mulf_apply, broadcast_apply, extf_apply]
  rw [extractStridedSlice_apply ![0, 512] _ slices_S512x2048_o0_512_S512x256 (ix2 n mm) (ix2 n (⟨512 + mm.val, by have := mm.isLt; omega⟩ : Fin 2048))
    (fun a => by
      match a with
      | ⟨0, _⟩ => exact (Nat.zero_add _).symm
      | ⟨1, _⟩ => rfl)]
  rw [hcat_apply_2]
  unfold k1_pay6
  rw [chan_apply]

/-- The first aggregation of channel block 3, in the kernel's order: the product with the count matrix, plus (1 + eps) times
    the value itself (`e` is that factor). -/
theorem hs_apply_3 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay17 e (k1_pay7 x3) (k1_pay12 adj x0 x1 x2 x3 x4 x5 x6 x7) (ix2 n mm)
      = (∑ s : Fin 512, adj (ix2 n s) * x3 (ix3 (0 : Fin 1) s mm)) + e * x3 (ix3 (0 : Fin 1) n mm) := by
  unfold k1_pay17
  rw [addf_apply, mulf_apply, broadcast_apply, extf_apply]
  rw [extractStridedSlice_apply ![0, 768] _ slices_S512x2048_o0_768_S512x256 (ix2 n mm) (ix2 n (⟨768 + mm.val, by have := mm.isLt; omega⟩ : Fin 2048))
    (fun a => by
      match a with
      | ⟨0, _⟩ => exact (Nat.zero_add _).symm
      | ⟨1, _⟩ => rfl)]
  rw [hcat_apply_3]
  unfold k1_pay7
  rw [chan_apply]

/-- The first aggregation of channel block 4, in the kernel's order: the product with the count matrix, plus (1 + eps) times
    the value itself (`e` is that factor). -/
theorem hs_apply_4 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay18 e (k1_pay8 x4) (k1_pay12 adj x0 x1 x2 x3 x4 x5 x6 x7) (ix2 n mm)
      = (∑ s : Fin 512, adj (ix2 n s) * x4 (ix3 (0 : Fin 1) s mm)) + e * x4 (ix3 (0 : Fin 1) n mm) := by
  unfold k1_pay18
  rw [addf_apply, mulf_apply, broadcast_apply, extf_apply]
  rw [extractStridedSlice_apply ![0, 1024] _ slices_S512x2048_o0_1024_S512x256 (ix2 n mm) (ix2 n (⟨1024 + mm.val, by have := mm.isLt; omega⟩ : Fin 2048))
    (fun a => by
      match a with
      | ⟨0, _⟩ => exact (Nat.zero_add _).symm
      | ⟨1, _⟩ => rfl)]
  rw [hcat_apply_4]
  unfold k1_pay8
  rw [chan_apply]

/-- The first aggregation of channel block 5, in the kernel's order: the product with the count matrix, plus (1 + eps) times
    the value itself (`e` is that factor). -/
theorem hs_apply_5 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay19 e (k1_pay9 x5) (k1_pay12 adj x0 x1 x2 x3 x4 x5 x6 x7) (ix2 n mm)
      = (∑ s : Fin 512, adj (ix2 n s) * x5 (ix3 (0 : Fin 1) s mm)) + e * x5 (ix3 (0 : Fin 1) n mm) := by
  unfold k1_pay19
  rw [addf_apply, mulf_apply, broadcast_apply, extf_apply]
  rw [extractStridedSlice_apply ![0, 1280] _ slices_S512x2048_o0_1280_S512x256 (ix2 n mm) (ix2 n (⟨1280 + mm.val, by have := mm.isLt; omega⟩ : Fin 2048))
    (fun a => by
      match a with
      | ⟨0, _⟩ => exact (Nat.zero_add _).symm
      | ⟨1, _⟩ => rfl)]
  rw [hcat_apply_5]
  unfold k1_pay9
  rw [chan_apply]

/-- The first aggregation of channel block 6, in the kernel's order: the product with the count matrix, plus (1 + eps) times
    the value itself (`e` is that factor). -/
theorem hs_apply_6 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay20 e (k1_pay10 x6) (k1_pay12 adj x0 x1 x2 x3 x4 x5 x6 x7) (ix2 n mm)
      = (∑ s : Fin 512, adj (ix2 n s) * x6 (ix3 (0 : Fin 1) s mm)) + e * x6 (ix3 (0 : Fin 1) n mm) := by
  unfold k1_pay20
  rw [addf_apply, mulf_apply, broadcast_apply, extf_apply]
  rw [extractStridedSlice_apply ![0, 1536] _ slices_S512x2048_o0_1536_S512x256 (ix2 n mm) (ix2 n (⟨1536 + mm.val, by have := mm.isLt; omega⟩ : Fin 2048))
    (fun a => by
      match a with
      | ⟨0, _⟩ => exact (Nat.zero_add _).symm
      | ⟨1, _⟩ => rfl)]
  rw [hcat_apply_6]
  unfold k1_pay10
  rw [chan_apply]

/-- The first aggregation of channel block 7, in the kernel's order: the product with the count matrix, plus (1 + eps) times
    the value itself (`e` is that factor). -/
theorem hs_apply_7 (e : Ideal .f32) (adj : Vec Ideal S512x512 .f32) (x0 : Vec Ideal S1x512x256 .bf16) (x1 : Vec Ideal S1x512x256 .bf16) (x2 : Vec Ideal S1x512x256 .bf16) (x3 : Vec Ideal S1x512x256 .bf16) (x4 : Vec Ideal S1x512x256 .bf16) (x5 : Vec Ideal S1x512x256 .bf16) (x6 : Vec Ideal S1x512x256 .bf16) (x7 : Vec Ideal S1x512x256 .bf16) (n : Fin 512) (mm : Fin 256) :
    k1_pay21 e (k1_pay11 x7) (k1_pay12 adj x0 x1 x2 x3 x4 x5 x6 x7) (ix2 n mm)
      = (∑ s : Fin 512, adj (ix2 n s) * x7 (ix3 (0 : Fin 1) s mm)) + e * x7 (ix3 (0 : Fin 1) n mm) := by
  unfold k1_pay21
  rw [addf_apply, mulf_apply, broadcast_apply, extf_apply]
  rw [extractStridedSlice_apply ![0, 1792] _ slices_S512x2048_o0_1792_S512x256 (ix2 n mm) (ix2 n (⟨1792 + mm.val, by have := mm.isLt; omega⟩ : Fin 2048))
    (fun a => by
      match a with
      | ⟨0, _⟩ => exact (Nat.zero_add _).symm
      | ⟨1, _⟩ => rfl)]
  rw [hcat_apply_7]
  unfold k1_pay11
  rw [chan_apply]

end Cert.KernelIdeal.Region
-- ==== Proof.RegionValueStage3.lean ====
import proofs.«208141_g20598663152203_cont_8to1_341_30_alg».proof.Proof.RegionValueStage1

noncomputable section

namespace Cert.KernelIdeal.Region

open Cert.KernelIdeal Cert.KernelIdeal.Gen
open Idealize.ShloMosaic Idealize.ShloMosaic.ValueIdx
open scoped BigOperators

theorem mm2_apply_l0 (j : S512x4096.Idx) (q : dot_S512x512_S512x4096_S512x4096_1_0_0_1_n_n.contr.Idx) : (dot_S512x512_S512x4096_S512x4096_1_0_0_1_n_n.lhsIdx j q 0).val = (j 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
theorem mm2_apply_r1 (j : S512x4096.Idx) (q : dot_S512x512_S512x4096_S512x4096_1_0_0_1_n_n.contr.Idx) : (dot_S512x512_S512x4096_S512x4096_1_0_0_1_n_n.rhsIdx j q 1).val = (j 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The product of a [512, 512] matrix with a [512, 4096] matrix into the zero accumulator, at (n, col). -/
theorem mm2_apply (L : FVec Ideal S512x512 .bf16) (R : FVec Ideal S512x4096 .bf16) (n : Fin 512) (col : Fin 4096) :
    matmul dot_S512x512_S512x4096_S512x4096_1_0_0_1_n_n none L R (constant S512x4096 .f32 0x00000000#32) (ix2 n col)
      = ∑ s : Fin 512, L (ix2 n s) * R (ix2 s col) := by
  simp only [matmul]
  rw [Ideal.matmul_constant_zero_apply, ← Equiv.sum_comp (contrEquiv1 dot_S512x512_S512x4096_S512x4096_1_0_0_1_n_n 512 rfl rfl).symm]
  refine Finset.sum_congr rfl fun s _ => ?_
  have hk := contrEquiv1_symm_val dot_S512x512_S512x4096_S512x4096_1_0_0_1_n_n 512 rfl rfl s
  have el : dot_S512x512_S512x4096_S512x4096_1_0_0_1_n_n.lhsIdx (ix2 n col) ((contrEquiv1 dot_S512x512_S512x4096_S512x4096_1_0_0_1_n_n 512 rfl rfl).symm s) = ix2 n s := funext fun a => Fin.ext (by
    match a with
    | ⟨0, _⟩ => exact mm2_apply_l0 _ _
    | ⟨1, _⟩ => exact (dot_S512x512_S512x4096_S512x4096_1_0_0_1_n_n.lhsIdx_val_of_single rfl _ _).trans hk)
  have er : dot_S512x512_S512x4096_S512x4096_1_0_0_1_n_n.rhsIdx (ix2 n col) ((contrEquiv1 dot_S512x512_S512x4096_S512x4096_1_0_0_1_n_n 512 rfl rfl).symm s) = ix2 s col := funext fun a => Fin.ext (by
    match a with
    | ⟨0, _⟩ => exact (dot_S512x512_S512x4096_S512x4096_1_0_0_1_n_n.rhsIdx_val_of_single rfl _ _).trans hk
    | ⟨1, _⟩ => exact mm2_apply_r1 _ _)
  rw [el, er]

theorem cat16_apply_0 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨0 + mm.val, by have := mm.isLt; omega⟩ : Fin 4096))
      = X0 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 0 (by simp) S512x256 X0 rfl rfl 0 rfl
    (ix2 s mm) (fun b hb => by
      match b with
      | ⟨0, _⟩ => rfl
      | ⟨1, _⟩ => exact absurd rfl hb) rfl

theorem cat16_apply_1 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨256 + mm.val, by have := mm.isLt; omega⟩ : Fin 4096))
      = X1 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 1 (by simp) S512x256 X1 rfl rfl 256 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_2 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨512 + mm.val, by have := mm.isLt; omega⟩ : Fin 4096))
      = X2 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 2 (by simp) S512x256 X2 rfl rfl 512 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_3 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨768 + mm.val, by have := mm.isLt; omega⟩ : Fin 4096))
      = X3 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 3 (by simp) S512x256 X3 rfl rfl 768 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_4 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨1024 + mm.val, by have := mm.isLt; omega⟩ : Fin 4096))
      = X4 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 4 (by simp) S512x256 X4 rfl rfl 1024 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_5 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨1280 + mm.val, by have := mm.isLt; omega⟩ : Fin 4096))
      = X5 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 5 (by simp) S512x256 X5 rfl rfl 1280 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_6 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨1536 + mm.val, by have := mm.isLt; omega⟩ : Fin 4096))
      = X6 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 6 (by simp) S512x256 X6 rfl rfl 1536 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_7 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨1792 + mm.val, by have := mm.isLt; omega⟩ : Fin 4096))
      = X7 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 7 (by simp) S512x256 X7 rfl rfl 1792 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_8 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨2048 + mm.val, by have := mm.isLt; omega⟩ : Fin 4096))
      = X8 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 8 (by simp) S512x256 X8 rfl rfl 2048 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_9 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨2304 + mm.val, by have := mm.isLt; omega⟩ : Fin 4096))
      = X9 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 9 (by simp) S512x256 X9 rfl rfl 2304 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_10 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨2560 + mm.val, by have := mm.isLt; omega⟩ : Fin 4096))
      = X10 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 10 (by simp) S512x256 X10 rfl rfl 2560 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_11 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨2816 + mm.val, by have := mm.isLt; omega⟩ : Fin 4096))
      = X11 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 11 (by simp) S512x256 X11 rfl rfl 2816 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_12 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨3072 + mm.val, by have := mm.isLt; omega⟩ : Fin 4096))
      = X12 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 12 (by simp) S512x256 X12 rfl rfl 3072 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_13 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨3328 + mm.val, by have := mm.isLt; omega⟩ : Fin 4096))
      = X13 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 13 (by simp) S512x256 X13 rfl rfl 3328 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_14 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨3584 + mm.val, by have := mm.isLt; omega⟩ : Fin 4096))
      = X14 (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 14 (by simp) S512x256 X14 rfl rfl 3584 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl

theorem cat16_apply_15 (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (s : Fin 512) (mm : Fin 256) :
    (concatenate S512x4096 1 [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 : FVec Ideal S512x4096 .f32) (ix2 s (⟨3840 + mm.val, by have := mm.isLt; omega⟩ : Fin 4096))
      = (k1_pay110 t13 t14 t15 p s1 s2 s3 s4) (ix2 s mm) :=
  concatenate_apply_piece (1 : Fin S512x4096.rank) [⟨S512x256, X0⟩, ⟨S512x256, X1⟩, ⟨S512x256, X2⟩, ⟨S512x256, X3⟩, ⟨S512x256, X4⟩, ⟨S512x256, X5⟩, ⟨S512x256, X6⟩, ⟨S512x256, X7⟩, ⟨S512x256, X8⟩, ⟨S512x256, X9⟩, ⟨S512x256, X10⟩, ⟨S512x256, X11⟩, ⟨S512x256, X12⟩, ⟨S512x256, X13⟩, ⟨S512x256, X14⟩, ⟨S512x256, (k1_pay110 t13 t14 t15 p s1 s2 s3 s4)⟩] concatenates_S512x256_S512x256_S512x256_S512x256_S512x256_S512x256_S512x256_S512x256_S512x256_S512x256_S512x256_S512x256_S512x256_S512x256_S512x256_S512x256_S512x4096_d1 _ 15 (by simp) S512x256 (k1_pay110 t13 t14 t15 p s1 s2 s3 s4) rfl rfl 3840 (by simp only [List.take_succ_cons, List.take_zero, List.map_cons, List.map_nil, List.sum_cons, List.sum_nil]; decide)
    (ix2 s mm) (fun b hb => by
      match b with
      | ⟨0, _⟩ => rfl
      | ⟨1, _⟩ => exact absurd rfl hb) rfl
/-- The second product at a column of hidden feature 0: the count matrix's row against that feature's column. -/
theorem h2cat_apply_0 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨0 + mm.val, by have := mm.isLt; omega⟩ : Fin 4096)) = ∑ s : Fin 512, a (ix2 n s) * X0 (ix2 s mm) := by
  unfold k1_pay111
  rw [mm2_apply]
  refine Finset.sum_congr rfl fun s _ => ?_
  rw [truncf_apply, cat16_apply_0]

/-- The second product at a column of hidden feature 1: the count matrix's row against that feature's column. -/
theorem h2cat_apply_1 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨256 + mm.val, by have := mm.isLt; omega⟩ : Fin 4096)) = ∑ s : Fin 512, a (ix2 n s) * X1 (ix2 s mm) := by
  unfold k1_pay111
  rw [mm2_apply]
  refine Finset.sum_congr rfl fun s _ => ?_
  rw [truncf_apply, cat16_apply_1]

/-- The second product at a column of hidden feature 2: the count matrix's row against that feature's column. -/
theorem h2cat_apply_2 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨512 + mm.val, by have := mm.isLt; omega⟩ : Fin 4096)) = ∑ s : Fin 512, a (ix2 n s) * X2 (ix2 s mm) := by
  unfold k1_pay111
  rw [mm2_apply]
  refine Finset.sum_congr rfl fun s _ => ?_
  rw [truncf_apply, cat16_apply_2]

/-- The second product at a column of hidden feature 3: the count matrix's row against that feature's column. -/
theorem h2cat_apply_3 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨768 + mm.val, by have := mm.isLt; omega⟩ : Fin 4096)) = ∑ s : Fin 512, a (ix2 n s) * X3 (ix2 s mm) := by
  unfold k1_pay111
  rw [mm2_apply]
  refine Finset.sum_congr rfl fun s _ => ?_
  rw [truncf_apply, cat16_apply_3]

/-- The second product at a column of hidden feature 4: the count matrix's row against that feature's column. -/
theorem h2cat_apply_4 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨1024 + mm.val, by have := mm.isLt; omega⟩ : Fin 4096)) = ∑ s : Fin 512, a (ix2 n s) * X4 (ix2 s mm) := by
  unfold k1_pay111
  rw [mm2_apply]
  refine Finset.sum_congr rfl fun s _ => ?_
  rw [truncf_apply, cat16_apply_4]

/-- The second product at a column of hidden feature 5: the count matrix's row against that feature's column. -/
theorem h2cat_apply_5 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨1280 + mm.val, by have := mm.isLt; omega⟩ : Fin 4096)) = ∑ s : Fin 512, a (ix2 n s) * X5 (ix2 s mm) := by
  unfold k1_pay111
  rw [mm2_apply]
  refine Finset.sum_congr rfl fun s _ => ?_
  rw [truncf_apply, cat16_apply_5]

/-- The second product at a column of hidden feature 6: the count matrix's row against that feature's column. -/
theorem h2cat_apply_6 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨1536 + mm.val, by have := mm.isLt; omega⟩ : Fin 4096)) = ∑ s : Fin 512, a (ix2 n s) * X6 (ix2 s mm) := by
  unfold k1_pay111
  rw [mm2_apply]
  refine Finset.sum_congr rfl fun s _ => ?_
  rw [truncf_apply, cat16_apply_6]

/-- The second product at a column of hidden feature 7: the count matrix's row against that feature's column. -/
theorem h2cat_apply_7 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨1792 + mm.val, by have := mm.isLt; omega⟩ : Fin 4096)) = ∑ s : Fin 512, a (ix2 n s) * X7 (ix2 s mm) := by
  unfold k1_pay111
  rw [mm2_apply]
  refine Finset.sum_congr rfl fun s _ => ?_
  rw [truncf_apply, cat16_apply_7]

/-- The second product at a column of hidden feature 8: the count matrix's row against that feature's column. -/
theorem h2cat_apply_8 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨2048 + mm.val, by have := mm.isLt; omega⟩ : Fin 4096)) = ∑ s : Fin 512, a (ix2 n s) * X8 (ix2 s mm) := by
  unfold k1_pay111
  rw [mm2_apply]
  refine Finset.sum_congr rfl fun s _ => ?_
  rw [truncf_apply, cat16_apply_8]

/-- The second product at a column of hidden feature 9: the count matrix's row against that feature's column. -/
theorem h2cat_apply_9 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨2304 + mm.val, by have := mm.isLt; omega⟩ : Fin 4096)) = ∑ s : Fin 512, a (ix2 n s) * X9 (ix2 s mm) := by
  unfold k1_pay111
  rw [mm2_apply]
  refine Finset.sum_congr rfl fun s _ => ?_
  rw [truncf_apply, cat16_apply_9]

/-- The second product at a column of hidden feature 10: the count matrix's row against that feature's column. -/
theorem h2cat_apply_10 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨2560 + mm.val, by have := mm.isLt; omega⟩ : Fin 4096)) = ∑ s : Fin 512, a (ix2 n s) * X10 (ix2 s mm) := by
  unfold k1_pay111
  rw [mm2_apply]
  refine Finset.sum_congr rfl fun s _ => ?_
  rw [truncf_apply, cat16_apply_10]

/-- The second product at a column of hidden feature 11: the count matrix's row against that feature's column. -/
theorem h2cat_apply_11 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨2816 + mm.val, by have := mm.isLt; omega⟩ : Fin 4096)) = ∑ s : Fin 512, a (ix2 n s) * X11 (ix2 s mm) := by
  unfold k1_pay111
  rw [mm2_apply]
  refine Finset.sum_congr rfl fun s _ => ?_
  rw [truncf_apply, cat16_apply_11]

/-- The second product at a column of hidden feature 12: the count matrix's row against that feature's column. -/
theorem h2cat_apply_12 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨3072 + mm.val, by have := mm.isLt; omega⟩ : Fin 4096)) = ∑ s : Fin 512, a (ix2 n s) * X12 (ix2 s mm) := by
  unfold k1_pay111
  rw [mm2_apply]
  refine Finset.sum_congr rfl fun s _ => ?_
  rw [truncf_apply, cat16_apply_12]

/-- The second product at a column of hidden feature 13: the count matrix's row against that feature's column. -/
theorem h2cat_apply_13 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨3328 + mm.val, by have := mm.isLt; omega⟩ : Fin 4096)) = ∑ s : Fin 512, a (ix2 n s) * X13 (ix2 s mm) := by
  unfold k1_pay111
  rw [mm2_apply]
  refine Finset.sum_congr rfl fun s _ => ?_
  rw [truncf_apply, cat16_apply_13]

/-- The second product at a column of hidden feature 14: the count matrix's row against that feature's column. -/
theorem h2cat_apply_14 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨3584 + mm.val, by have := mm.isLt; omega⟩ : Fin 4096)) = ∑ s : Fin 512, a (ix2 n s) * X14 (ix2 s mm) := by
  unfold k1_pay111
  rw [mm2_apply]
  refine Finset.sum_congr rfl fun s _ => ?_
  rw [truncf_apply, cat16_apply_14]

/-- The second product at a column of hidden feature 15: the count matrix's row against that feature's column. -/
theorem h2cat_apply_15 (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay111 a t13 t14 t15 X0 X1 X2 X3 X4 X5 X6 X7 X8 X9 X10 X11 X12 X13 X14 p s1 s2 s3 s4 (ix2 n (⟨3840 + mm.val, by have := mm.isLt; omega⟩ : Fin 4096)) = ∑ s : Fin 512, a (ix2 n s) * (k1_pay110 t13 t14 t15 p s1 s2 s3 s4) (ix2 s mm) := by
  unfold k1_pay111
  rw [mm2_apply]
  refine Finset.sum_congr rfl fun s _ => ?_
  rw [truncf_apply, cat16_apply_15]
/-- The second aggregation of hidden feature 0, in the kernel's order (`e` is 1 + eps). -/
theorem hs2_apply_0 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay112 a e t13 t14 t15 X0 X1 X2 X3 X4 X5 X6 X7 X8 X9 X10 X11 X12 X13 X14 p s1 s2 s3 s4 (ix2 n mm) = (∑ s : Fin 512, a (ix2 n s) * X0 (ix2 s mm)) + e * X0 (ix2 n mm) := by
  unfold k1_pay112
  rw [addf_apply, mulf_apply, broadcast_apply]
  rw [extractStridedSlice_apply ![0, 0] _ slices_S512x4096_o0_0_S512x256 (ix2 n mm) (ix2 n (⟨0 + mm.val, by have := mm.isLt; omega⟩ : Fin 4096))
    (fun b => by
      match b with
      | ⟨0, _⟩ => exact (Nat.zero_add _).symm
      | ⟨1, _⟩ => rfl)]
  rw [h2cat_apply_0]

/-- The second aggregation of hidden feature 1, in the kernel's order (`e` is 1 + eps). -/
theorem hs2_apply_1 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay113 a e t13 t14 t15 X0 X1 X2 X3 X4 X5 X6 X7 X8 X9 X10 X11 X12 X13 X14 p s1 s2 s3 s4 (ix2 n mm) = (∑ s : Fin 512, a (ix2 n s) * X1 (ix2 s mm)) + e * X1 (ix2 n mm) := by
  unfold k1_pay113
  rw [addf_apply, mulf_apply, broadcast_apply]
  rw [extractStridedSlice_apply ![0, 256] _ slices_S512x4096_o0_256_S512x256 (ix2 n mm) (ix2 n (⟨256 + mm.val, by have := mm.isLt; omega⟩ : Fin 4096))
    (fun b => by
      match b with
      | ⟨0, _⟩ => exact (Nat.zero_add _).symm
      | ⟨1, _⟩ => rfl)]
  rw [h2cat_apply_1]

/-- The second aggregation of hidden feature 2, in the kernel's order (`e` is 1 + eps). -/
theorem hs2_apply_2 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay114 a e t13 t14 t15 X0 X1 X2 X3 X4 X5 X6 X7 X8 X9 X10 X11 X12 X13 X14 p s1 s2 s3 s4 (ix2 n mm) = (∑ s : Fin 512, a (ix2 n s) * X2 (ix2 s mm)) + e * X2 (ix2 n mm) := by
  unfold k1_pay114
  rw [addf_apply, mulf_apply, broadcast_apply]
  rw [extractStridedSlice_apply ![0, 512] _ slices_S512x4096_o0_512_S512x256 (ix2 n mm) (ix2 n (⟨512 + mm.val, by have := mm.isLt; omega⟩ : Fin 4096))
    (fun b => by
      match b with
      | ⟨0, _⟩ => exact (Nat.zero_add _).symm
      | ⟨1, _⟩ => rfl)]
  rw [h2cat_apply_2]

/-- The second aggregation of hidden feature 3, in the kernel's order (`e` is 1 + eps). -/
theorem hs2_apply_3 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay115 a e t13 t14 t15 X0 X1 X2 X3 X4 X5 X6 X7 X8 X9 X10 X11 X12 X13 X14 p s1 s2 s3 s4 (ix2 n mm) = (∑ s : Fin 512, a (ix2 n s) * X3 (ix2 s mm)) + e * X3 (ix2 n mm) := by
  unfold k1_pay115
  rw [addf_apply, mulf_apply, broadcast_apply]
  rw [extractStridedSlice_apply ![0, 768] _ slices_S512x4096_o0_768_S512x256 (ix2 n mm) (ix2 n (⟨768 + mm.val, by have := mm.isLt; omega⟩ : Fin 4096))
    (fun b => by
      match b with
      | ⟨0, _⟩ => exact (Nat.zero_add _).symm
      | ⟨1, _⟩ => rfl)]
  rw [h2cat_apply_3]

/-- The second aggregation of hidden feature 4, in the kernel's order (`e` is 1 + eps). -/
theorem hs2_apply_4 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay116 a e t13 t14 t15 X0 X1 X2 X3 X4 X5 X6 X7 X8 X9 X10 X11 X12 X13 X14 p s1 s2 s3 s4 (ix2 n mm) = (∑ s : Fin 512, a (ix2 n s) * X4 (ix2 s mm)) + e * X4 (ix2 n mm) := by
  unfold k1_pay116
  rw [addf_apply, mulf_apply, broadcast_apply]
  rw [extractStridedSlice_apply ![0, 1024] _ slices_S512x4096_o0_1024_S512x256 (ix2 n mm) (ix2 n (⟨1024 + mm.val, by have := mm.isLt; omega⟩ : Fin 4096))
    (fun b => by
      match b with
      | ⟨0, _⟩ => exact (Nat.zero_add _).symm
      | ⟨1, _⟩ => rfl)]
  rw [h2cat_apply_4]

/-- The second aggregation of hidden feature 5, in the kernel's order (`e` is 1 + eps). -/
theorem hs2_apply_5 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay117 a e t13 t14 t15 X0 X1 X2 X3 X4 X5 X6 X7 X8 X9 X10 X11 X12 X13 X14 p s1 s2 s3 s4 (ix2 n mm) = (∑ s : Fin 512, a (ix2 n s) * X5 (ix2 s mm)) + e * X5 (ix2 n mm) := by
  unfold k1_pay117
  rw [addf_apply, mulf_apply, broadcast_apply]
  rw [extractStridedSlice_apply ![0, 1280] _ slices_S512x4096_o0_1280_S512x256 (ix2 n mm) (ix2 n (⟨1280 + mm.val, by have := mm.isLt; omega⟩ : Fin 4096))
    (fun b => by
      match b with
      | ⟨0, _⟩ => exact (Nat.zero_add _).symm
      | ⟨1, _⟩ => rfl)]
  rw [h2cat_apply_5]

/-- The second aggregation of hidden feature 6, in the kernel's order (`e` is 1 + eps). -/
theorem hs2_apply_6 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay118 a e t13 t14 t15 X0 X1 X2 X3 X4 X5 X6 X7 X8 X9 X10 X11 X12 X13 X14 p s1 s2 s3 s4 (ix2 n mm) = (∑ s : Fin 512, a (ix2 n s) * X6 (ix2 s mm)) + e * X6 (ix2 n mm) := by
  unfold k1_pay118
  rw [addf_apply, mulf_apply, broadcast_apply]
  rw [extractStridedSlice_apply ![0, 1536] _ slices_S512x4096_o0_1536_S512x256 (ix2 n mm) (ix2 n (⟨1536 + mm.val, by have := mm.isLt; omega⟩ : Fin 4096))
    (fun b => by
      match b with
      | ⟨0, _⟩ => exact (Nat.zero_add _).symm
      | ⟨1, _⟩ => rfl)]
  rw [h2cat_apply_6]

/-- The second aggregation of hidden feature 7, in the kernel's order (`e` is 1 + eps). -/
theorem hs2_apply_7 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay119 a e t13 t14 t15 X0 X1 X2 X3 X4 X5 X6 X7 X8 X9 X10 X11 X12 X13 X14 p s1 s2 s3 s4 (ix2 n mm) = (∑ s : Fin 512, a (ix2 n s) * X7 (ix2 s mm)) + e * X7 (ix2 n mm) := by
  unfold k1_pay119
  rw [addf_apply, mulf_apply, broadcast_apply]
  rw [extractStridedSlice_apply ![0, 1792] _ slices_S512x4096_o0_1792_S512x256 (ix2 n mm) (ix2 n (⟨1792 + mm.val, by have := mm.isLt; omega⟩ : Fin 4096))
    (fun b => by
      match b with
      | ⟨0, _⟩ => exact (Nat.zero_add _).symm
      | ⟨1, _⟩ => rfl)]
  rw [h2cat_apply_7]

/-- The second aggregation of hidden feature 8, in the kernel's order (`e` is 1 + eps). -/
theorem hs2_apply_8 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay121 e X8 (k1_pay120 a t13 t14 t15 X0 X1 X2 X3 X4 X5 X6 X7 X8 X9 X10 X11 X12 X13 X14 p s1 s2 s3 s4) (ix2 n mm) = (∑ s : Fin 512, a (ix2 n s) * X8 (ix2 s mm)) + e * X8 (ix2 n mm) := by
  unfold k1_pay121 k1_pay120
  rw [addf_apply, mulf_apply, broadcast_apply]
  rw [extractStridedSlice_apply ![0, 2048] _ slices_S512x4096_o0_2048_S512x256 (ix2 n mm) (ix2 n (⟨2048 + mm.val, by have := mm.isLt; omega⟩ : Fin 4096))
    (fun b => by
      match b with
      | ⟨0, _⟩ => exact (Nat.zero_add _).symm
      | ⟨1, _⟩ => rfl)]
  rw [h2cat_apply_8]

/-- The second aggregation of hidden feature 9, in the kernel's order (`e` is 1 + eps). -/
theorem hs2_apply_9 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay122 e X9 (k1_pay111 a t13 t14 t15 X0 X1 X2 X3 X4 X5 X6 X7 X8 X9 X10 X11 X12 X13 X14 p s1 s2 s3 s4) (ix2 n mm) = (∑ s : Fin 512, a (ix2 n s) * X9 (ix2 s mm)) + e * X9 (ix2 n mm) := by
  unfold k1_pay122
  rw [addf_apply, mulf_apply, broadcast_apply]
  rw [extractStridedSlice_apply ![0, 2304] _ slices_S512x4096_o0_2304_S512x256 (ix2 n mm) (ix2 n (⟨2304 + mm.val, by have := mm.isLt; omega⟩ : Fin 4096))
    (fun b => by
      match b with
      | ⟨0, _⟩ => exact (Nat.zero_add _).symm
      | ⟨1, _⟩ => rfl)]
  rw [h2cat_apply_9]

/-- The second aggregation of hidden feature 10, in the kernel's order (`e` is 1 + eps). -/
theorem hs2_apply_10 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay123 e X10 (k1_pay111 a t13 t14 t15 X0 X1 X2 X3 X4 X5 X6 X7 X8 X9 X10 X11 X12 X13 X14 p s1 s2 s3 s4) (ix2 n mm) = (∑ s : Fin 512, a (ix2 n s) * X10 (ix2 s mm)) + e * X10 (ix2 n mm) := by
  unfold k1_pay123
  rw [addf_apply, mulf_apply, broadcast_apply]
  rw [extractStridedSlice_apply ![0, 2560] _ slices_S512x4096_o0_2560_S512x256 (ix2 n mm) (ix2 n (⟨2560 + mm.val, by have := mm.isLt; omega⟩ : Fin 4096))
    (fun b => by
      match b with
      | ⟨0, _⟩ => exact (Nat.zero_add _).symm
      | ⟨1, _⟩ => rfl)]
  rw [h2cat_apply_10]

/-- The second aggregation of hidden feature 11, in the kernel's order (`e` is 1 + eps). -/
theorem hs2_apply_11 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay124 e X11 (k1_pay111 a t13 t14 t15 X0 X1 X2 X3 X4 X5 X6 X7 X8 X9 X10 X11 X12 X13 X14 p s1 s2 s3 s4) (ix2 n mm) = (∑ s : Fin 512, a (ix2 n s) * X11 (ix2 s mm)) + e * X11 (ix2 n mm) := by
  unfold k1_pay124
  rw [addf_apply, mulf_apply, broadcast_apply]
  rw [extractStridedSlice_apply ![0, 2816] _ slices_S512x4096_o0_2816_S512x256 (ix2 n mm) (ix2 n (⟨2816 + mm.val, by have := mm.isLt; omega⟩ : Fin 4096))
    (fun b => by
      match b with
      | ⟨0, _⟩ => exact (Nat.zero_add _).symm
      | ⟨1, _⟩ => rfl)]
  rw [h2cat_apply_11]

/-- The second aggregation of hidden feature 12, in the kernel's order (`e` is 1 + eps). -/
theorem hs2_apply_12 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay125 e X12 (k1_pay111 a t13 t14 t15 X0 X1 X2 X3 X4 X5 X6 X7 X8 X9 X10 X11 X12 X13 X14 p s1 s2 s3 s4) (ix2 n mm) = (∑ s : Fin 512, a (ix2 n s) * X12 (ix2 s mm)) + e * X12 (ix2 n mm) := by
  unfold k1_pay125
  rw [addf_apply, mulf_apply, broadcast_apply]
  rw [extractStridedSlice_apply ![0, 3072] _ slices_S512x4096_o0_3072_S512x256 (ix2 n mm) (ix2 n (⟨3072 + mm.val, by have := mm.isLt; omega⟩ : Fin 4096))
    (fun b => by
      match b with
      | ⟨0, _⟩ => exact (Nat.zero_add _).symm
      | ⟨1, _⟩ => rfl)]
  rw [h2cat_apply_12]

/-- The second aggregation of hidden feature 13, in the kernel's order (`e` is 1 + eps). -/
theorem hs2_apply_13 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay126 e X13 (k1_pay111 a t13 t14 t15 X0 X1 X2 X3 X4 X5 X6 X7 X8 X9 X10 X11 X12 X13 X14 p s1 s2 s3 s4) (ix2 n mm) = (∑ s : Fin 512, a (ix2 n s) * X13 (ix2 s mm)) + e * X13 (ix2 n mm) := by
  unfold k1_pay126
  rw [addf_apply, mulf_apply, broadcast_apply]
  rw [extractStridedSlice_apply ![0, 3328] _ slices_S512x4096_o0_3328_S512x256 (ix2 n mm) (ix2 n (⟨3328 + mm.val, by have := mm.isLt; omega⟩ : Fin 4096))
    (fun b => by
      match b with
      | ⟨0, _⟩ => exact (Nat.zero_add _).symm
      | ⟨1, _⟩ => rfl)]
  rw [h2cat_apply_13]

/-- The second aggregation of hidden feature 14, in the kernel's order (`e` is 1 + eps). -/
theorem hs2_apply_14 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay127 e X14 (k1_pay111 a t13 t14 t15 X0 X1 X2 X3 X4 X5 X6 X7 X8 X9 X10 X11 X12 X13 X14 p s1 s2 s3 s4) (ix2 n mm) = (∑ s : Fin 512, a (ix2 n s) * X14 (ix2 s mm)) + e * X14 (ix2 n mm) := by
  unfold k1_pay127
  rw [addf_apply, mulf_apply, broadcast_apply]
  rw [extractStridedSlice_apply ![0, 3584] _ slices_S512x4096_o0_3584_S512x256 (ix2 n mm) (ix2 n (⟨3584 + mm.val, by have := mm.isLt; omega⟩ : Fin 4096))
    (fun b => by
      match b with
      | ⟨0, _⟩ => exact (Nat.zero_add _).symm
      | ⟨1, _⟩ => rfl)]
  rw [h2cat_apply_14]

/-- The second aggregation of hidden feature 15, in the kernel's order (`e` is 1 + eps). -/
theorem hs2_apply_15 (e : Ideal .f32) (a : FVec Ideal S512x512 .bf16) (t13 t14 t15 : FVec Ideal S512x256 .f32) (X0 : FVec Ideal S512x256 .f32) (X1 : FVec Ideal S512x256 .f32) (X2 : FVec Ideal S512x256 .f32) (X3 : FVec Ideal S512x256 .f32) (X4 : FVec Ideal S512x256 .f32) (X5 : FVec Ideal S512x256 .f32) (X6 : FVec Ideal S512x256 .f32) (X7 : FVec Ideal S512x256 .f32) (X8 : FVec Ideal S512x256 .f32) (X9 : FVec Ideal S512x256 .f32) (X10 : FVec Ideal S512x256 .f32) (X11 : FVec Ideal S512x256 .f32) (X12 : FVec Ideal S512x256 .f32) (X13 : FVec Ideal S512x256 .f32) (X14 : FVec Ideal S512x256 .f32) (p : FVec Ideal S512x256 .f32) (s1 s2 s3 s4 : Ideal .f32) (n : Fin 512) (mm : Fin 256) :
    k1_pay128 e (k1_pay110 t13 t14 t15 p s1 s2 s3 s4) (k1_pay111 a t13 t14 t15 X0 X1 X2 X3 X4 X5 X6 X7 X8 X9 X10 X11 X12 X13 X14 p s1 s2 s3 s4) (ix2 n mm) = (∑ s : Fin 512, a (ix2 n s) * (k1_pay110 t13 t14 t15 p s1 s2 s3 s4) (ix2 s mm)) + e * (k1_pay110 t13 t14 t15 p s1 s2 s3 s4) (ix2 n mm) := by
  unfold k1_pay128
  rw [addf_apply, mulf_apply, broadcast_apply]
  rw [extractStridedSlice_apply ![0, 3840] _ slices_S512x4096_o0_3840_S512x256 (ix2 n mm) (ix2 n (⟨3840 + mm.val, by have := mm.isLt; omega⟩ : Fin 4096))
    (fun b => by
      match b with
      | ⟨0, _⟩ => exact (Nat.zero_add _).symm
      | ⟨1, _⟩ => rfl)]
  rw [h2cat_apply_15]

end Cert.KernelIdeal.Region
-- ==== Proof.RegionValueStage4.lean ====
import proofs.«208141_g20598663152203_cont_8to1_341_30_alg».proof.Proof.RegionValueBody
import Idealize.ShloMosaic.PureOps.Ideal.Laws
import Idealize.ShloMosaic.Lib.ValueIdx

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13)

/-! The second perceptron's hidden layer at an index of a channel block, in the kernel's order of additions. -/

theorem t2_0_apply (i : S512x256.Idx) :
    (kernelRunV.sl.r_570 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_536 c M5 f5)) + (kernelRunV.sl.r_528 c M1 M2 M3 M4 M6 M7 M9 M10 f1 f2 f3 f4 f6 f7 f9 f10) i * (kernelRunV.sl.r_537 c M5 f5)) + (kernelRunV.sl.r_529 c M1 M2 M3 M4 M6 M7 M9 M10 f1 f2 f3 f4 f6 f7 f9 f10) i * (kernelRunV.sl.r_538 c M5 f5)) + (kernelRunV.sl.r_530 c M1 M2 M3 M4 M6 M7 M9 M10 f1 f2 f3 f4 f6 f7 f9 f10) i * (kernelRunV.sl.r_539 c M5 f5)) + (kernelRunV.sl.r_531 c M1 M2 M3 M4 M6 M7 M9 M10 f1 f2 f3 f4 f6 f7 f9 f10) i * (kernelRunV.sl.r_540 c M5 f5)) + (kernelRunV.sl.r_532 c M1 M2 M3 M4 M6 M7 M9 M10 f1 f2 f3 f4 f6 f7 f9 f10) i * (kernelRunV.sl.r_550 c M5 f5)) + (kernelRunV.sl.r_533 c M1 M2 M3 M4 M6 M7 M9 M10 f1 f2 f3 f4 f6 f7 f9 f10) i * (kernelRunV.sl.r_551 c M5 f5)) + (kernelRunV.sl.r_534 c M1 M2 M3 M4 M6 M7 M9 M10 f1 f2 f3 f4 f6 f7 f9 f10) i * (kernelRunV.sl.r_552 c M5 f5)) + (kernelRunV.sl.r_541 c M1 M2 M3 M4 M6 M7 M9 M10 f1 f2 f3 f4 f6 f7 f9 f10) i * (kernelRunV.sl.r_553 c M5 f5)) + (kernelRunV.sl.r_542 c M1 M2 M3 M4 M6 M7 M9 M10 f1 f2 f3 f4 f6 f7 f9 f10) i * (kernelRunV.sl.r_554 c M5 f5)) + (kernelRunV.sl.r_543 c M1 M2 M3 M4 M6 M7 M9 M10 f1 f2 f3 f4 f6 f7 f9 f10) i * (kernelRunV.sl.r_555 c M5 f5)) + (kernelRunV.sl.r_544 c M1 M2 M3 M4 M6 M7 M9 M10 f1 f2 f3 f4 f6 f7 f9 f10) i * (kernelRunV.sl.r_556 c M5 f5)) + (kernelRunV.sl.r_545 c M1 M2 M3 M4 M6 M7 M9 M10 f1 f2 f3 f4 f6 f7 f9 f10) i * (kernelRunV.sl.r_557 c M5 f5)) + (kernelRunV.sl.r_546 c M1 M2 M3 M4 M6 M7 M9 M10 f1 f2 f3 f4 f6 f7 f9 f10) i * (kernelRunV.sl.r_558 c M5 f5)) + (kernelRunV.sl.r_547 c M1 M2 M3 M4 M6 M7 M9 M10 f1 f2 f3 f4 f6 f7 f9 f10) i * (kernelRunV.sl.r_559 c M5 f5)) + (kernelRunV.sl.r_548 c M1 M2 M3 M4 M6 M7 M9 M10 f1 f2 f3 f4 f6 f7 f9 f10) i * (kernelRunV.sl.r_561 c M5 f5)) + (kernelRunV.sl.r_562 c M8 f8)) (Scalar.ofBits .f32 0x00000000#32 : Ideal .f32) := rfl

theorem t2_1_apply (i : S512x256.Idx) :
    (kernelRunV.sl.r_593 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_563 c M5 f5)) + (kernelRunV.sl.r_528 c M1 M2 M3 M4 M6 M7 M9 M10 f1 f2 f3 f4 f6 f7 f9 f10) i * (kernelRunV.sl.r_564 c M5 f5)) + (kernelRunV.sl.r_529 c M1 M2 M3 M4 M6 M7 M9 M10 f1 f2 f3 f4 f6 f7 f9 f10) i * (kernelRunV.sl.r_565 c M5 f5)) + (kernelRunV.sl.r_530 c M1 M2 M3 M4 M6 M7 M9 M10 f1 f2 f3 f4 f6 f7 f9 f10) i * (kernelRunV.sl.r_566 c M5 f5)) + (kernelRunV.sl.r_531 c M1 M2 M3 M4 M6 M7 M9 M10 f1 f2 f3 f4 f6 f7 f9 f10) i * (kernelRunV.sl.r_567 c M5 f5)) + (kernelRunV.sl.r_532 c M1 M2 M3 M4 M6 M7 M9 M10 f1 f2 f3 f4 f6 f7 f9 f10) i * (kernelRunV.sl.r_568 c M5 f5)) + (kernelRunV.sl.r_533 c M1 M2 M3 M4 M6 M7 M9 M10 f1 f2 f3 f4 f6 f7 f9 f10) i * (kernelRunV.sl.r_569 c M5 f5)) + (kernelRunV.sl.r_534 c M1 M2 M3 M4 M6 M7 M9 M10 f1 f2 f3 f4 f6 f7 f9 f10) i * (kernelRunV.sl.r_573 c M5 f5)) + (kernelRunV.sl.r_541 c M1 M2 M3 M4 M6 M7 M9 M10 f1 f2 f3 f4 f6 f7 f9 f10) i * (kernelRunV.sl.r_574 c M5 f5)) + (kernelRunV.sl.r_542 c M1 M2 M3 M4 M6 M7 M9 M10 f1 f2 f3 f4 f6 f7 f9 f10) i * (kernelRunV.sl.r_575 c M5 f5)) + (kernelRunV.sl.r_543 c M1 M2 M3 M4 M6 M7 M9 M10 f1 f2 f3 f4 f6 f7 f9 f10) i * (kernelRunV.sl.r_576 c M5 f5)) + (kernelRunV.sl.r_544 c M1 M2 M3 M4 M6 M7 M9 M10 f1 f2 f3 f4 f6 f7 f9 f10) i * (kernelRunV.sl.r_577 c M5 f5)) + (kernelRunV.sl.r_545 c M1 M2 M3 M4 M6 M7 M9 M10 f1 f2 f3 f4 f6 f7 f9 f10) i * (kernelRunV.sl.r_578 c M5 f5)) + (kernelRunV.sl.r_546 c M1 M2 M3 M4 M6 M7 M9 M10 f1 f2 f3 f4 f6 f7 f9 f10) i * (kernelRunV.sl.r_579 c M5 f5)) + (kernelRunV.sl.r_547 c M1 M2 M3 M4 M6 M7 M9 M10 f1 f2 f3 f4 f6 f7 f9 f10) i * (kernelRunV.sl.r_580 c M5 f5)) + (kernelRunV.sl.r_548 c M1 M2 M3 M4 M6 M7 M9 M10 f1 f2 f3 f4 f6 f7 f9 f10) i * (kernelRunV.sl.r_581 c M5 f5)) + (kernelRunV.sl.r_582 c M8 f8)) (Scalar.ofBits .f32 0x00000000#32 : Ideal .f32) := rfl

theorem t2_2_apply (i : S512x256.Idx) :
    (kernelRunV.sl.r_605 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_584 c M5 f5)) + (kernelRunV.sl.r_528 c M1 M2 M3 M4 M6 M7 M9 M10 f1 f2 f3 f4 f6 f7 f9 f10) i * (kernelRunV.sl.r_585 c M5 f5)) + (kernelRunV.sl.r_529 c M1 M2 M3 M4 M6 M7 M9 M10 f1 f2 f3 f4 f6 f7 f9 f10) i * (kernelRunV.sl.r_586 c M5 f5)) + (kernelRunV.sl.r_530 c M1 M2 M3 M4 M6 M7 M9 M10 f1 f2 f3 f4 f6 f7 f9 f10) i * (kernelRunV.sl.r_587 c M5 f5)) + (kernelRunV.sl.r_531 c M1 M2 M3 M4 M6 M7 M9 M10 f1 f2 f3 f4 f6 f7 f9 f10) i * (kernelRunV.sl.r_588 c M5 f5)) + (kernelRunV.sl.r_532 c M1 M2 M3 M4 M6 M7 M9 M10 f1 f2 f3 f4 f6 f7 f9 f10) i * (kernelRunV.sl.r_589 c M5 f5)) + (kernelRunV.sl.r_533 c M1 M2 M3 M4 M6 M7 M9 M10 f1 f2 f3 f4 f6 f7 f9 f10) i * (kernelRunV.sl.r_590 c M5 f5)) + (kernelRunV.sl.r_534 c M1 M2 M3 M4 M6 M7 M9 M10 f1 f2 f3 f4 f6 f7 f9 f10) i * (kernelRunV.sl.r_591 c M5 f5)) + (kernelRunV.sl.r_541 c M1 M2 M3 M4 M6 M7 M9 M10 f1 f2 f3 f4 f6 f7 f9 f10) i * (kernelRunV.sl.r_592 c M5 f5)) + (kernelRunV.sl.r_542 c M1 M2 M3 M4 M6 M7 M9 M10 f1 f2 f3 f4 f6 f7 f9 f10) i * (kernelRunV.sl.r_595 c M5 f5)) + (kernelRunV.sl.r_543 c M1 M2 M3 M4 M6 M7 M9 M10 f1 f2 f3 f4 f6 f7 f9 f10) i * (kernelRunV.sl.r_596 c M5 f5)) + (kernelRunV.sl.r_544 c M1 M2 M3 M4 M6 M7 M9 M10 f1 f2 f3 f4 f6 f7 f9 f10) i * (kernelRunV.sl.r_597 c M5 f5)) + (kernelRunV.sl.r_545 c M1 M2 M3 M4 M6 M7 M9 M10 f1 f2 f3 f4 f6 f7 f9 f10) i * (kernelRunV.sl.r_598 c M5 f5)) + (kernelRunV.sl.r_546 c M1 M2 M3 M4 M6 M7 M9 M10 f1 f2 f3 f4 f6 f7 f9 f10) i * (kernelRunV.sl.r_599 c M5 f5)) + (kernelRunV.sl.r_547 c M1 M2 M3 M4 M6 M7 M9 M10 f1 f2 f3 f4 f6 f7 f9 f10) i * (kernelRunV.sl.r_600 c M5 f5)) + (kernelRunV.sl.r_548 c M1 M2 M3 M4 M6 M7 M9 M10 f1 f2 f3 f4 f6 f7 f9 f10) i * (kernelRunV.sl.r_601 c M5 f5)) + (kernelRunV.sl.r_602 c M8 f8)) (Scalar.ofBits .f32 0x00000000#32 : Ideal .f32) := rfl

theorem t2_3_apply (i : S512x256.Idx) :
    (kernelRunV.sl.r_627 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_603 c M5 f5)) + (kernelRunV.sl.r_528 c M1 M2 M3 M4 M6 M7 M9 M10 f1 f2 f3 f4 f6 f7 f9 f10) i * (kernelRunV.sl.r_604 c M5 f5)) + (kernelRunV.sl.r_529 c M1 M2 M3 M4 M6 M7 M9 M10 f1 f2 f3 f4 f6 f7 f9 f10) i * (kernelRunV.sl.r_607 c M5 f5)) + (kernelRunV.sl.r_530 c M1 M2 M3 M4 M6 M7 M9 M10 f1 f2 f3 f4 f6 f7 f9 f10) i * (kernelRunV.sl.r_608 c M5 f5)) + (kernelRunV.sl.r_531 c M1 M2 M3 M4 M6 M7 M9 M10 f1 f2 f3 f4 f6 f7 f9 f10) i * (kernelRunV.sl.r_609 c M5 f5)) + (kernelRunV.sl.r_532 c M1 M2 M3 M4 M6 M7 M9 M10 f1 f2 f3 f4 f6 f7 f9 f10) i * (kernelRunV.sl.r_610 c M5 f5)) + (kernelRunV.sl.r_533 c M1 M2 M3 M4 M6 M7 M9 M10 f1 f2 f3 f4 f6 f7 f9 f10) i * (kernelRunV.sl.r_611 c M5 f5)) + (kernelRunV.sl.r_534 c M1 M2 M3 M4 M6 M7 M9 M10 f1 f2 f3 f4 f6 f7 f9 f10) i * (kernelRunV.sl.r_612 c M5 f5)) + (kernelRunV.sl.r_541 c M1 M2 M3 M4 M6 M7 M9 M10 f1 f2 f3 f4 f6 f7 f9 f10) i * (kernelRunV.sl.r_613 c M5 f5)) + (kernelRunV.sl.r_542 c M1 M2 M3 M4 M6 M7 M9 M10 f1 f2 f3 f4 f6 f7 f9 f10) i * (kernelRunV.sl.r_614 c M5 f5)) + (kernelRunV.sl.r_543 c M1 M2 M3 M4 M6 M7 M9 M10 f1 f2 f3 f4 f6 f7 f9 f10) i * (kernelRunV.sl.r_615 c M5 f5)) + (kernelRunV.sl.r_544 c M1 M2 M3 M4 M6 M7 M9 M10 f1 f2 f3 f4 f6 f7 f9 f10) i * (kernelRunV.sl.r_616 c M5 f5)) + (kernelRunV.sl.r_545 c M1 M2 M3 M4 M6 M7 M9 M10 f1 f2 f3 f4 f6 f7 f9 f10) i * (kernelRunV.sl.r_618 c M5 f5)) + (kernelRunV.sl.r_546 c M1 M2 M3 M4 M6 M7 M9 M10 f1 f2 f3 f4 f6 f7 f9 f10) i * (kernelRunV.sl.r_619 c M5 f5)) + (kernelRunV.sl.r_547 c M1 M2 M3 M4 M6 M7 M9 M10 f1 f2 f3 f4 f6 f7 f9 f10) i * (kernelRunV.sl.r_620 c M5 f5)) + (kernelRunV.sl.r_548 c M1 M2 M3 M4 M6 M7 M9 M10 f1 f2 f3 f4 f6 f7 f9 f10) i * (kernelRunV.sl.r_621 c M5 f5)) + (kernelRunV.sl.r_622 c M8 f8)) (Scalar.ofBits .f32 0x00000000#32 : Ideal .f32) := rfl

theorem t2_4_apply (i : S512x256.Idx) :
    (kernelRunV.sl.r_651 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_623 c M5 f5)) + (kernelRunV.sl.r_528 c M1 M2 M3 M4 M6 M7 M9 M10 f1 f2 f3 f4 f6 f7 f9 f10) i * (kernelRunV.sl.r_624 c M5 f5)) + (kernelRunV.sl.r_529 c M1 M2 M3 M4 M6 M7 M9 M10 f1 f2 f3 f4 f6 f7 f9 f10) i * (kernelRunV.sl.r_625 c M5 f5)) + (kernelRunV.sl.r_530 c M1 M2 M3 M4 M6 M7 M9 M10 f1 f2 f3 f4 f6 f7 f9 f10) i * (kernelRunV.sl.r_626 c M5 f5)) + (kernelRunV.sl.r_531 c M1 M2 M3 M4 M6 M7 M9 M10 f1 f2 f3 f4 f6 f7 f9 f10) i * (kernelRunV.sl.r_630 c M5 f5)) + (kernelRunV.sl.r_532 c M1 M2 M3 M4 M6 M7 M9 M10 f1 f2 f3 f4 f6 f7 f9 f10) i * (kernelRunV.sl.r_631 c M5 f5)) + (kernelRunV.sl.r_533 c M1 M2 M3 M4 M6 M7 M9 M10 f1 f2 f3 f4 f6 f7 f9 f10) i * (kernelRunV.sl.r_632 c M5 f5)) + (kernelRunV.sl.r_534 c M1 M2 M3 M4 M6 M7 M9 M10 f1 f2 f3 f4 f6 f7 f9 f10) i * (kernelRunV.sl.r_633 c M5 f5)) + (kernelRunV.sl.r_541 c M1 M2 M3 M4 M6 M7 M9 M10 f1 f2 f3 f4 f6 f7 f9 f10) i * (kernelRunV.sl.r_634 c M5 f5)) + (kernelRunV.sl.r_542 c M1 M2 M3 M4 M6 M7 M9 M10 f1 f2 f3 f4 f6 f7 f9 f10) i * (kernelRunV.sl.r_635 c M5 f5)) + (kernelRunV.sl.r_543 c M1 M2 M3 M4 M6 M7 M9 M10 f1 f2 f3 f4 f6 f7 f9 f10) i * (kernelRunV.sl.r_636 c M5 f5)) + (kernelRunV.sl.r_544 c M1 M2 M3 M4 M6 M7 M9 M10 f1 f2 f3 f4 f6 f7 f9 f10) i * (kernelRunV.sl.r_637 c M5 f5)) + (kernelRunV.sl.r_545 c M1 M2 M3 M4 M6 M7 M9 M10 f1 f2 f3 f4 f6 f7 f9 f10) i * (kernelRunV.sl.r_638 c M5 f5)) + (kernelRunV.sl.r_546 c M1 M2 M3 M4 M6 M7 M9 M10 f1 f2 f3 f4 f6 f7 f9 f10) i * (kernelRunV.sl.r_639 c M5 f5)) + (kernelRunV.sl.r_547 c M1 M2 M3 M4 M6 M7 M9 M10 f1 f2 f3 f4 f6 f7 f9 f10) i * (kernelRunV.sl.r_642 c M5 f5)) + (kernelRunV.sl.r_548 c M1 M2 M3 M4 M6 M7 M9 M10 f1 f2 f3 f4 f6 f7 f9 f10) i * (kernelRunV.sl.r_643 c M5 f5)) + (kernelRunV.sl.r_644 c M8 f8)) (Scalar.ofBits .f32 0x00000000#32 : Ideal .f32) := rfl

theorem t2_5_apply (i : S512x256.Idx) :
    (kernelRunV.sl.r_674 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_645 c M5 f5)) + (kernelRunV.sl.r_528 c M1 M2 M3 M4 M6 M7 M9 M10 f1 f2 f3 f4 f6 f7 f9 f10) i * (kernelRunV.sl.r_646 c M5 f5)) + (kernelRunV.sl.r_529 c M1 M2 M3 M4 M6 M7 M9 M10 f1 f2 f3 f4 f6 f7 f9 f10) i * (kernelRunV.sl.r_647 c M5 f5)) + (kernelRunV.sl.r_530 c M1 M2 M3 M4 M6 M7 M9 M10 f1 f2 f3 f4 f6 f7 f9 f10) i * (kernelRunV.sl.r_648 c M5 f5)) + (kernelRunV.sl.r_531 c M1 M2 M3 M4 M6 M7 M9 M10 f1 f2 f3 f4 f6 f7 f9 f10) i * (kernelRunV.sl.r_649 c M5 f5)) + (kernelRunV.sl.r_532 c M1 M2 M3 M4 M6 M7 M9 M10 f1 f2 f3 f4 f6 f7 f9 f10) i * (kernelRunV.sl.r_650 c M5 f5)) + (kernelRunV.sl.r_533 c M1 M2 M3 M4 M6 M7 M9 M10 f1 f2 f3 f4 f6 f7 f9 f10) i * (kernelRunV.sl.r_653 c M5 f5)) + (kernelRunV.sl.r_534 c M1 M2 M3 M4 M6 M7 M9 M10 f1 f2 f3 f4 f6 f7 f9 f10) i * (kernelRunV.sl.r_654 c M5 f5)) + (kernelRunV.sl.r_541 c M1 M2 M3 M4 M6 M7 M9 M10 f1 f2 f3 f4 f6 f7 f9 f10) i * (kernelRunV.sl.r_655 c M5 f5)) + (kernelRunV.sl.r_542 c M1 M2 M3 M4 M6 M7 M9 M10 f1 f2 f3 f4 f6 f7 f9 f10) i * (kernelRunV.sl.r_656 c M5 f5)) + (kernelRunV.sl.r_543 c M1 M2 M3 M4 M6 M7 M9 M10 f1 f2 f3 f4 f6 f7 f9 f10) i * (kernelRunV.sl.r_657 c M5 f5)) + (kernelRunV.sl.r_544 c M1 M2 M3 M4 M6 M7 M9 M10 f1 f2 f3 f4 f6 f7 f9 f10) i * (kernelRunV.sl.r_658 c M5 f5)) + (kernelRunV.sl.r_545 c M1 M2 M3 M4 M6 M7 M9 M10 f1 f2 f3 f4 f6 f7 f9 f10) i * (kernelRunV.sl.r_659 c M5 f5)) + (kernelRunV.sl.r_546 c M1 M2 M3 M4 M6 M7 M9 M10 f1 f2 f3 f4 f6 f7 f9 f10) i * (kernelRunV.sl.r_660 c M5 f5)) + (kernelRunV.sl.r_547 c M1 M2 M3 M4 M6 M7 M9 M10 f1 f2 f3 f4 f6 f7 f9 f10) i * (kernelRunV.sl.r_661 c M5 f5)) + (kernelRunV.sl.r_548 c M1 M2 M3 M4 M6 M7 M9 M10 f1 f2 f3 f4 f6 f7 f9 f10) i * (kernelRunV.sl.r_662 c M5 f5)) + (kernelRunV.sl.r_664 c M8 f8)) (Scalar.ofBits .f32 0x00000000#32 : Ideal .f32) := rfl

theorem t2_6_apply (i : S512x256.Idx) :
    (kernelRunV.sl.r_685 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_665 c M5 f5)) + (kernelRunV.sl.r_528 c M1 M2 M3 M4 M6 M7 M9 M10 f1 f2 f3 f4 f6 f7 f9 f10) i * (kernelRunV.sl.r_666 c M5 f5)) + (kernelRunV.sl.r_529 c M1 M2 M3 M4 M6 M7 M9 M10 f1 f2 f3 f4 f6 f7 f9 f10) i * (kernelRunV.sl.r_667 c M5 f5)) + (kernelRunV.sl.r_530 c M1 M2 M3 M4 M6 M7 M9 M10 f1 f2 f3 f4 f6 f7 f9 f10) i * (kernelRunV.sl.r_668 c M5 f5)) + (kernelRunV.sl.r_531 c M1 M2 M3 M4 M6 M7 M9 M10 f1 f2 f3 f4 f6 f7 f9 f10) i * (kernelRunV.sl.r_669 c M5 f5)) + (kernelRunV.sl.r_532 c M1 M2 M3 M4 M6 M7 M9 M10 f1 f2 f3 f4 f6 f7 f9 f10) i * (kernelRunV.sl.r_670 c M5 f5)) + (kernelRunV.sl.r_533 c M1 M2 M3 M4 M6 M7 M9 M10 f1 f2 f3 f4 f6 f7 f9 f10) i * (kernelRunV.sl.r_671 c M5 f5)) + (kernelRunV.sl.r_534 c M1 M2 M3 M4 M6 M7 M9 M10 f1 f2 f3 f4 f6 f7 f9 f10) i * (kernelRunV.sl.r_672 c M5 f5)) + (kernelRunV.sl.r_541 c M1 M2 M3 M4 M6 M7 M9 M10 f1 f2 f3 f4 f6 f7 f9 f10) i * (kernelRunV.sl.r_673 c M5 f5)) + (kernelRunV.sl.r_542 c M1 M2 M3 M4 M6 M7 M9 M10 f1 f2 f3 f4 f6 f7 f9 f10) i * (kernelRunV.sl.r_676 c M5 f5)) + (kernelRunV.sl.r_543 c M1 M2 M3 M4 M6 M7 M9 M10 f1 f2 f3 f4 f6 f7 f9 f10) i * (kernelRunV.sl.r_677 c M5 f5)) + (kernelRunV.sl.r_544 c M1 M2 M3 M4 M6 M7 M9 M10 f1 f2 f3 f4 f6 f7 f9 f10) i * (kernelRunV.sl.r_678 c M5 f5)) + (kernelRunV.sl.r_545 c M1 M2 M3 M4 M6 M7 M9 M10 f1 f2 f3 f4 f6 f7 f9 f10) i * (kernelRunV.sl.r_679 c M5 f5)) + (kernelRunV.sl.r_546 c M1 M2 M3 M4 M6 M7 M9 M10 f1 f2 f3 f4 f6 f7 f9 f10) i * (kernelRunV.sl.r_680 c M5 f5)) + (kernelRunV.sl.r_547 c M1 M2 M3 M4 M6 M7 M9 M10 f1 f2 f3 f4 f6 f7 f9 f10) i * (kernelRunV.sl.r_681 c M5 f5)) + (kernelRunV.sl.r_548 c M1 M2 M3 M4 M6 M7 M9 M10 f1 f2 f3 f4 f6 f7 f9 f10) i * (kernelRunV.sl.r_682 c M5 f5)) + (kernelRunV.sl.r_683 c M8 f8)) (Scalar.ofBits .f32 0x00000000#32 : Ideal .f32) := rfl

theorem t2_7_apply (i : S512x256.Idx) :
    (kernelRunV.sl.r_708 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_684 c M5 f5)) + (kernelRunV.sl.r_528 c M1 M2 M3 M4 M6 M7 M9 M10 f1 f2 f3 f4 f6 f7 f9 f10) i * (kernelRunV.sl.r_687 c M5 f5)) + (kernelRunV.sl.r_529 c M1 M2 M3 M4 M6 M7 M9 M10 f1 f2 f3 f4 f6 f7 f9 f10) i * (kernelRunV.sl.r_688 c M5 f5)) + (kernelRunV.sl.r_530 c M1 M2 M3 M4 M6 M7 M9 M10 f1 f2 f3 f4 f6 f7 f9 f10) i * (kernelRunV.sl.r_689 c M5 f5)) + (kernelRunV.sl.r_531 c M1 M2 M3 M4 M6 M7 M9 M10 f1 f2 f3 f4 f6 f7 f9 f10) i * (kernelRunV.sl.r_690 c M5 f5)) + (kernelRunV.sl.r_532 c M1 M2 M3 M4 M6 M7 M9 M10 f1 f2 f3 f4 f6 f7 f9 f10) i * (kernelRunV.sl.r_691 c M5 f5)) + (kernelRunV.sl.r_533 c M1 M2 M3 M4 M6 M7 M9 M10 f1 f2 f3 f4 f6 f7 f9 f10) i * (kernelRunV.sl.r_692 c M5 f5)) + (kernelRunV.sl.r_534 c M1 M2 M3 M4 M6 M7 M9 M10 f1 f2 f3 f4 f6 f7 f9 f10) i * (kernelRunV.sl.r_693 c M5 f5)) + (kernelRunV.sl.r_541 c M1 M2 M3 M4 M6 M7 M9 M10 f1 f2 f3 f4 f6 f7 f9 f10) i * (kernelRunV.sl.r_694 c M5 f5)) + (kernelRunV.sl.r_542 c M1 M2 M3 M4 M6 M7 M9 M10 f1 f2 f3 f4 f6 f7 f9 f10) i * (kernelRunV.sl.r_695 c M5 f5)) + (kernelRunV.sl.r_543 c M1 M2 M3 M4 M6 M7 M9 M10 f1 f2 f3 f4 f6 f7 f9 f10) i * (kernelRunV.sl.r_696 c M5 f5)) + (kernelRunV.sl.r_544 c M1 M2 M3 M4 M6 M7 M9 M10 f1 f2 f3 f4 f6 f7 f9 f10) i * (kernelRunV.sl.r_699 c M5 f5)) + (kernelRunV.sl.r_545 c M1 M2 M3 M4 M6 M7 M9 M10 f1 f2 f3 f4 f6 f7 f9 f10) i * (kernelRunV.sl.r_700 c M5 f5)) + (kernelRunV.sl.r_546 c M1 M2 M3 M4 M6 M7 M9 M10 f1 f2 f3 f4 f6 f7 f9 f10) i * (kernelRunV.sl.r_701 c M5 f5)) + (kernelRunV.sl.r_547 c M1 M2 M3 M4 M6 M7 M9 M10 f1 f2 f3 f4 f6 f7 f9 f10) i * (kernelRunV.sl.r_702 c M5 f5)) + (kernelRunV.sl.r_548 c M1 M2 M3 M4 M6 M7 M9 M10 f1 f2 f3 f4 f6 f7 f9 f10) i * (kernelRunV.sl.r_703 c M5 f5)) + (kernelRunV.sl.r_704 c M8 f8)) (Scalar.ofBits .f32 0x00000000#32 : Ideal .f32) := rfl

theorem t2_8_apply (i : S512x256.Idx) :
    (kernelRunV.sl.r_731 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_705 c M5 f5)) + (kernelRunV.sl.r_528 c M1 M2 M3 M4 M6 M7 M9 M10 f1 f2 f3 f4 f6 f7 f9 f10) i * (kernelRunV.sl.r_706 c M5 f5)) + (kernelRunV.sl.r_529 c M1 M2 M3 M4 M6 M7 M9 M10 f1 f2 f3 f4 f6 f7 f9 f10) i * (kernelRunV.sl.r_707 c M5 f5)) + (kernelRunV.sl.r_530 c M1 M2 M3 M4 M6 M7 M9 M10 f1 f2 f3 f4 f6 f7 f9 f10) i * (kernelRunV.sl.r_710 c M5 f5)) + (kernelRunV.sl.r_531 c M1 M2 M3 M4 M6 M7 M9 M10 f1 f2 f3 f4 f6 f7 f9 f10) i * (kernelRunV.sl.r_711 c M5 f5)) + (kernelRunV.sl.r_532 c M1 M2 M3 M4 M6 M7 M9 M10 f1 f2 f3 f4 f6 f7 f9 f10) i * (kernelRunV.sl.r_712 c M5 f5)) + (kernelRunV.sl.r_533 c M1 M2 M3 M4 M6 M7 M9 M10 f1 f2 f3 f4 f6 f7 f9 f10) i * (kernelRunV.sl.r_713 c M5 f5)) + (kernelRunV.sl.r_534 c M1 M2 M3 M4 M6 M7 M9 M10 f1 f2 f3 f4 f6 f7 f9 f10) i * (kernelRunV.sl.r_714 c M5 f5)) + (kernelRunV.sl.r_541 c M1 M2 M3 M4 M6 M7 M9 M10 f1 f2 f3 f4 f6 f7 f9 f10) i * (kernelRunV.sl.r_715 c M5 f5)) + (kernelRunV.sl.r_542 c M1 M2 M3 M4 M6 M7 M9 M10 f1 f2 f3 f4 f6 f7 f9 f10) i * (kernelRunV.sl.r_716 c M5 f5)) + (kernelRunV.sl.r_543 c M1 M2 M3 M4 M6 M7 M9 M10 f1 f2 f3 f4 f6 f7 f9 f10) i * (kernelRunV.sl.r_717 c M5 f5)) + (kernelRunV.sl.r_544 c M1 M2 M3 M4 M6 M7 M9 M10 f1 f2 f3 f4 f6 f7 f9 f10) i * (kernelRunV.sl.r_718 c M5 f5)) + (kernelRunV.sl.r_545 c M1 M2 M3 M4 M6 M7 M9 M10 f1 f2 f3 f4 f6 f7 f9 f10) i * (kernelRunV.sl.r_719 c M5 f5)) + (kernelRunV.sl.r_546 c M1 M2 M3 M4 M6 M7 M9 M10 f1 f2 f3 f4 f6 f7 f9 f10) i * (kernelRunV.sl.r_721 c M5 f5)) + (kernelRunV.sl.r_547 c M1 M2 M3 M4 M6 M7 M9 M10 f1 f2 f3 f4 f6 f7 f9 f10) i * (kernelRunV.sl.r_722 c M5 f5)) + (kernelRunV.sl.r_548 c M1 M2 M3 M4 M6 M7 M9 M10 f1 f2 f3 f4 f6 f7 f9 f10) i * (kernelRunV.sl.r_723 c M5 f5)) + (kernelRunV.sl.r_724 c M8 f8)) (Scalar.ofBits .f32 0x00000000#32 : Ideal .f32) := rfl

theorem t2_9_apply (i : S512x256.Idx) :
    (kernelRunV.sl.r_753 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_725 c M5 f5)) + (kernelRunV.sl.r_528 c M1 M2 M3 M4 M6 M7 M9 M10 f1 f2 f3 f4 f6 f7 f9 f10) i * (kernelRunV.sl.r_726 c M5 f5)) + (kernelRunV.sl.r_529 c M1 M2 M3 M4 M6 M7 M9 M10 f1 f2 f3 f4 f6 f7 f9 f10) i * (kernelRunV.sl.r_727 c M5 f5)) + (kernelRunV.sl.r_530 c M1 M2 M3 M4 M6 M7 M9 M10 f1 f2 f3 f4 f6 f7 f9 f10) i * (kernelRunV.sl.r_728 c M5 f5)) + (kernelRunV.sl.r_531 c M1 M2 M3 M4 M6 M7 M9 M10 f1 f2 f3 f4 f6 f7 f9 f10) i * (kernelRunV.sl.r_729 c M5 f5)) + (kernelRunV.sl.r_532 c M1 M2 M3 M4 M6 M7 M9 M10 f1 f2 f3 f4 f6 f7 f9 f10) i * (kernelRunV.sl.r_730 c M5 f5)) + (kernelRunV.sl.r_533 c M1 M2 M3 M4 M6 M7 M9 M10 f1 f2 f3 f4 f6 f7 f9 f10) i * (kernelRunV.sl.r_733 c M5 f5)) + (kernelRunV.sl.r_534 c M1 M2 M3 M4 M6 M7 M9 M10 f1 f2 f3 f4 f6 f7 f9 f10) i * (kernelRunV.sl.r_734 c M5 f5)) + (kernelRunV.sl.r_541 c M1 M2 M3 M4 M6 M7 M9 M10 f1 f2 f3 f4 f6 f7 f9 f10) i * (kernelRunV.sl.r_735 c M5 f5)) + (kernelRunV.sl.r_542 c M1 M2 M3 M4 M6 M7 M9 M10 f1 f2 f3 f4 f6 f7 f9 f10) i * (kernelRunV.sl.r_736 c M5 f5)) + (kernelRunV.sl.r_543 c M1 M2 M3 M4 M6 M7 M9 M10 f1 f2 f3 f4 f6 f7 f9 f10) i * (kernelRunV.sl.r_737 c M5 f5)) + (kernelRunV.sl.r_544 c M1 M2 M3 M4 M6 M7 M9 M10 f1 f2 f3 f4 f6 f7 f9 f10) i * (kernelRunV.sl.r_738 c M5 f5)) + (kernelRunV.sl.r_545 c M1 M2 M3 M4 M6 M7 M9 M10 f1 f2 f3 f4 f6 f7 f9 f10) i * (kernelRunV.sl.r_739 c M5 f5)) + (kernelRunV.sl.r_546 c M1 M2 M3 M4 M6 M7 M9 M10 f1 f2 f3 f4 f6 f7 f9 f10) i * (kernelRunV.sl.r_740 c M5 f5)) + (kernelRunV.sl.r_547 c M1 M2 M3 M4 M6 M7 M9 M10 f1 f2 f3 f4 f6 f7 f9 f10) i * (kernelRunV.sl.r_741 c M5 f5)) + (kernelRunV.sl.r_548 c M1 M2 M3 M4 M6 M7 M9 M10 f1 f2 f3 f4 f6 f7 f9 f10) i * (kernelRunV.sl.r_742 c M5 f5)) + (kernelRunV.sl.r_744 c M8 f8)) (Scalar.ofBits .f32 0x00000000#32 : Ideal .f32) := rfl

theorem t2_10_apply (i : S512x256.Idx) :
    (kernelRunV.sl.r_766 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_745 c M5 f5)) + (kernelRunV.sl.r_528 c M1 M2 M3 M4 M6 M7 M9 M10 f1 f2 f3 f4 f6 f7 f9 f10) i * (kernelRunV.sl.r_746 c M5 f5)) + (kernelRunV.sl.r_529 c M1 M2 M3 M4 M6 M7 M9 M10 f1 f2 f3 f4 f6 f7 f9 f10) i * (kernelRunV.sl.r_747 c M5 f5)) + (kernelRunV.sl.r_530 c M1 M2 M3 M4 M6 M7 M9 M10 f1 f2 f3 f4 f6 f7 f9 f10) i * (kernelRunV.sl.r_748 c M5 f5)) + (kernelRunV.sl.r_531 c M1 M2 M3 M4 M6 M7 M9 M10 f1 f2 f3 f4 f6 f7 f9 f10) i * (kernelRunV.sl.r_749 c M5 f5)) + (kernelRunV.sl.r_532 c M1 M2 M3 M4 M6 M7 M9 M10 f1 f2 f3 f4 f6 f7 f9 f10) i * (kernelRunV.sl.r_750 c M5 f5)) + (kernelRunV.sl.r_533 c M1 M2 M3 M4 M6 M7 M9 M10 f1 f2 f3 f4 f6 f7 f9 f10) i * (kernelRunV.sl.r_751 c M5 f5)) + (kernelRunV.sl.r_534 c M1 M2 M3 M4 M6 M7 M9 M10 f1 f2 f3 f4 f6 f7 f9 f10) i * (kernelRunV.sl.r_752 c M5 f5)) + (kernelRunV.sl.r_541 c M1 M2 M3 M4 M6 M7 M9 M10 f1 f2 f3 f4 f6 f7 f9 f10) i * (kernelRunV.sl.r_756 c M5 f5)) + (kernelRunV.sl.r_542 c M1 M2 M3 M4 M6 M7 M9 M10 f1 f2 f3 f4 f6 f7 f9 f10) i * (kernelRunV.sl.r_757 c M5 f5)) + (kernelRunV.sl.r_543 c M1 M2 M3 M4 M6 M7 M9 M10 f1 f2 f3 f4 f6 f7 f9 f10) i * (kernelRunV.sl.r_758 c M5 f5)) + (kernelRunV.sl.r_544 c M1 M2 M3 M4 M6 M7 M9 M10 f1 f2 f3 f4 f6 f7 f9 f10) i * (kernelRunV.sl.r_759 c M5 f5)) + (kernelRunV.sl.r_545 c M1 M2 M3 M4 M6 M7 M9 M10 f1 f2 f3 f4 f6 f7 f9 f10) i * (kernelRunV.sl.r_760 c M5 f5)) + (kernelRunV.sl.r_546 c M1 M2 M3 M4 M6 M7 M9 M10 f1 f2 f3 f4 f6 f7 f9 f10) i * (kernelRunV.sl.r_761 c M5 f5)) + (kernelRunV.sl.r_547 c M1 M2 M3 M4 M6 M7 M9 M10 f1 f2 f3 f4 f6 f7 f9 f10) i * (kernelRunV.sl.r_762 c M5 f5)) + (kernelRunV.sl.r_548 c M1 M2 M3 M4 M6 M7 M9 M10 f1 f2 f3 f4 f6 f7 f9 f10) i * (kernelRunV.sl.r_763 c M5 f5)) + (kernelRunV.sl.r_764 c M8 f8)) (Scalar.ofBits .f32 0x00000000#32 : Ideal .f32) := rfl

theorem t2_11_apply (i : S512x256.Idx) :
    (kernelRunV.sl.r_787 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_765 c M5 f5)) + (kernelRunV.sl.r_528 c M1 M2 M3 M4 M6 M7 M9 M10 f1 f2 f3 f4 f6 f7 f9 f10) i * (kernelRunV.sl.r_767 c M5 f5)) + (kernelRunV.sl.r_529 c M1 M2 M3 M4 M6 M7 M9 M10 f1 f2 f3 f4 f6 f7 f9 f10) i * (kernelRunV.sl.r_768 c M5 f5)) + (kernelRunV.sl.r_530 c M1 M2 M3 M4 M6 M7 M9 M10 f1 f2 f3 f4 f6 f7 f9 f10) i * (kernelRunV.sl.r_769 c M5 f5)) + (kernelRunV.sl.r_531 c M1 M2 M3 M4 M6 M7 M9 M10 f1 f2 f3 f4 f6 f7 f9 f10) i * (kernelRunV.sl.r_770 c M5 f5)) + (kernelRunV.sl.r_532 c M1 M2 M3 M4 M6 M7 M9 M10 f1 f2 f3 f4 f6 f7 f9 f10) i * (kernelRunV.sl.r_771 c M5 f5)) + (kernelRunV.sl.r_533 c M1 M2 M3 M4 M6 M7 M9 M10 f1 f2 f3 f4 f6 f7 f9 f10) i * (kernelRunV.sl.r_772 c M5 f5)) + (kernelRunV.sl.r_534 c M1 M2 M3 M4 M6 M7 M9 M10 f1 f2 f3 f4 f6 f7 f9 f10) i * (kernelRunV.sl.r_773 c M5 f5)) + (kernelRunV.sl.r_541 c M1 M2 M3 M4 M6 M7 M9 M10 f1 f2 f3 f4 f6 f7 f9 f10) i * (kernelRunV.sl.r_774 c M5 f5)) + (kernelRunV.sl.r_542 c M1 M2 M3 M4 M6 M7 M9 M10 f1 f2 f3 f4 f6 f7 f9 f10) i * (kernelRunV.sl.r_775 c M5 f5)) + (kernelRunV.sl.r_543 c M1 M2 M3 M4 M6 M7 M9 M10 f1 f2 f3 f4 f6 f7 f9 f10) i * (kernelRunV.sl.r_777 c M5 f5)) + (kernelRunV.sl.r_544 c M1 M2 M3 M4 M6 M7 M9 M10 f1 f2 f3 f4 f6 f7 f9 f10) i * (kernelRunV.sl.r_778 c M5 f5)) + (kernelRunV.sl.r_545 c M1 M2 M3 M4 M6 M7 M9 M10 f1 f2 f3 f4 f6 f7 f9 f10) i * (kernelRunV.sl.r_779 c M5 f5)) + (kernelRunV.sl.r_546 c M1 M2 M3 M4 M6 M7 M9 M10 f1 f2 f3 f4 f6 f7 f9 f10) i * (kernelRunV.sl.r_780 c M5 f5)) + (kernelRunV.sl.r_547 c M1 M2 M3 M4 M6 M7 M9 M10 f1 f2 f3 f4 f6 f7 f9 f10) i * (kernelRunV.sl.r_781 c M5 f5)) + (kernelRunV.sl.r_548 c M1 M2 M3 M4 M6 M7 M9 M10 f1 f2 f3 f4 f6 f7 f9 f10) i * (kernelRunV.sl.r_782 c M5 f5)) + (kernelRunV.sl.r_783 c M8 f8)) (Scalar.ofBits .f32 0x00000000#32 : Ideal .f32) := rfl

theorem t2_12_apply (i : S512x256.Idx) :
    (kernelRunV.sl.r_809 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_784 c M5 f5)) + (kernelRunV.sl.r_528 c M1 M2 M3 M4 M6 M7 M9 M10 f1 f2 f3 f4 f6 f7 f9 f10) i * (kernelRunV.sl.r_785 c M5 f5)) + (kernelRunV.sl.r_529 c M1 M2 M3 M4 M6 M7 M9 M10 f1 f2 f3 f4 f6 f7 f9 f10) i * (kernelRunV.sl.r_786 c M5 f5)) + (kernelRunV.sl.r_530 c M1 M2 M3 M4 M6 M7 M9 M10 f1 f2 f3 f4 f6 f7 f9 f10) i * (kernelRunV.sl.r_789 c M5 f5)) + (kernelRunV.sl.r_531 c M1 M2 M3 M4 M6 M7 M9 M10 f1 f2 f3 f4 f6 f7 f9 f10) i * (kernelRunV.sl.r_790 c M5 f5)) + (kernelRunV.sl.r_532 c M1 M2 M3 M4 M6 M7 M9 M10 f1 f2 f3 f4 f6 f7 f9 f10) i * (kernelRunV.sl.r_791 c M5 f5)) + (kernelRunV.sl.r_533 c M1 M2 M3 M4 M6 M7 M9 M10 f1 f2 f3 f4 f6 f7 f9 f10) i * (kernelRunV.sl.r_792 c M5 f5)) + (kernelRunV.sl.r_534 c M1 M2 M3 M4 M6 M7 M9 M10 f1 f2 f3 f4 f6 f7 f9 f10) i * (kernelRunV.sl.r_793 c M5 f5)) + (kernelRunV.sl.r_541 c M1 M2 M3 M4 M6 M7 M9 M10 f1 f2 f3 f4 f6 f7 f9 f10) i * (kernelRunV.sl.r_794 c M5 f5)) + (kernelRunV.sl.r_542 c M1 M2 M3 M4 M6 M7 M9 M10 f1 f2 f3 f4 f6 f7 f9 f10) i * (kernelRunV.sl.r_795 c M5 f5)) + (kernelRunV.sl.r_543 c M1 M2 M3 M4 M6 M7 M9 M10 f1 f2 f3 f4 f6 f7 f9 f10) i * (kernelRunV.sl.r_796 c M5 f5)) + (kernelRunV.sl.r_544 c M1 M2 M3 M4 M6 M7 M9 M10 f1 f2 f3 f4 f6 f7 f9 f10) i * (kernelRunV.sl.r_797 c M5 f5)) + (kernelRunV.sl.r_545 c M1 M2 M3 M4 M6 M7 M9 M10 f1 f2 f3 f4 f6 f7 f9 f10) i * (kernelRunV.sl.r_798 c M5 f5)) + (kernelRunV.sl.r_546 c M1 M2 M3 M4 M6 M7 M9 M10 f1 f2 f3 f4 f6 f7 f9 f10) i * (kernelRunV.sl.r_800 c M5 f5)) + (kernelRunV.sl.r_547 c M1 M2 M3 M4 M6 M7 M9 M10 f1 f2 f3 f4 f6 f7 f9 f10) i * (kernelRunV.sl.r_801 c M5 f5)) + (kernelRunV.sl.r_548 c M1 M2 M3 M4 M6 M7 M9 M10 f1 f2 f3 f4 f6 f7 f9 f10) i * (kernelRunV.sl.r_802 c M5 f5)) + (kernelRunV.sl.r_803 c M8 f8)) (Scalar.ofBits .f32 0x00000000#32 : Ideal .f32) := rfl

theorem t2_13_apply (i : S512x256.Idx) :
    (kernelRunV.sl.r_833 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_804 c M5 f5)) + (kernelRunV.sl.r_528 c M1 M2 M3 M4 M6 M7 M9 M10 f1 f2 f3 f4 f6 f7 f9 f10) i * (kernelRunV.sl.r_805 c M5 f5)) + (kernelRunV.sl.r_529 c M1 M2 M3 M4 M6 M7 M9 M10 f1 f2 f3 f4 f6 f7 f9 f10) i * (kernelRunV.sl.r_806 c M5 f5)) + (kernelRunV.sl.r_530 c M1 M2 M3 M4 M6 M7 M9 M10 f1 f2 f3 f4 f6 f7 f9 f10) i * (kernelRunV.sl.r_807 c M5 f5)) + (kernelRunV.sl.r_531 c M1 M2 M3 M4 M6 M7 M9 M10 f1 f2 f3 f4 f6 f7 f9 f10) i * (kernelRunV.sl.r_808 c M5 f5)) + (kernelRunV.sl.r_532 c M1 M2 M3 M4 M6 M7 M9 M10 f1 f2 f3 f4 f6 f7 f9 f10) i * (kernelRunV.sl.r_812 c M5 f5)) + (kernelRunV.sl.r_533 c M1 M2 M3 M4 M6 M7 M9 M10 f1 f2 f3 f4 f6 f7 f9 f10) i * (kernelRunV.sl.r_813 c M5 f5)) + (kernelRunV.sl.r_534 c M1 M2 M3 M4 M6 M7 M9 M10 f1 f2 f3 f4 f6 f7 f9 f10) i * (kernelRunV.sl.r_814 c M5 f5)) + (kernelRunV.sl.r_541 c M1 M2 M3 M4 M6 M7 M9 M10 f1 f2 f3 f4 f6 f7 f9 f10) i * (kernelRunV.sl.r_815 c M5 f5)) + (kernelRunV.sl.r_542 c M1 M2 M3 M4 M6 M7 M9 M10 f1 f2 f3 f4 f6 f7 f9 f10) i * (kernelRunV.sl.r_816 c M5 f5)) + (kernelRunV.sl.r_543 c M1 M2 M3 M4 M6 M7 M9 M10 f1 f2 f3 f4 f6 f7 f9 f10) i * (kernelRunV.sl.r_817 c M5 f5)) + (kernelRunV.sl.r_544 c M1 M2 M3 M4 M6 M7 M9 M10 f1 f2 f3 f4 f6 f7 f9 f10) i * (kernelRunV.sl.r_818 c M5 f5)) + (kernelRunV.sl.r_545 c M1 M2 M3 M4 M6 M7 M9 M10 f1 f2 f3 f4 f6 f7 f9 f10) i * (kernelRunV.sl.r_819 c M5 f5)) + (kernelRunV.sl.r_546 c M1 M2 M3 M4 M6 M7 M9 M10 f1 f2 f3 f4 f6 f7 f9 f10) i * (kernelRunV.sl.r_820 c M5 f5)) + (kernelRunV.sl.r_547 c M1 M2 M3 M4 M6 M7 M9 M10 f1 f2 f3 f4 f6 f7 f9 f10) i * (kernelRunV.sl.r_821 c M5 f5)) + (kernelRunV.sl.r_548 c M1 M2 M3 M4 M6 M7 M9 M10 f1 f2 f3 f4 f6 f7 f9 f10) i * (kernelRunV.sl.r_824 c M5 f5)) + (kernelRunV.sl.r_825 c M8 f8)) (Scalar.ofBits .f32 0x00000000#32 : Ideal .f32) := rfl

theorem t2_14_apply (i : S512x256.Idx) :
    (kernelRunV.sl.r_856 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_826 c M5 f5)) + (kernelRunV.sl.r_528 c M1 M2 M3 M4 M6 M7 M9 M10 f1 f2 f3 f4 f6 f7 f9 f10) i * (kernelRunV.sl.r_827 c M5 f5)) + (kernelRunV.sl.r_529 c M1 M2 M3 M4 M6 M7 M9 M10 f1 f2 f3 f4 f6 f7 f9 f10) i * (kernelRunV.sl.r_828 c M5 f5)) + (kernelRunV.sl.r_530 c M1 M2 M3 M4 M6 M7 M9 M10 f1 f2 f3 f4 f6 f7 f9 f10) i * (kernelRunV.sl.r_829 c M5 f5)) + (kernelRunV.sl.r_531 c M1 M2 M3 M4 M6 M7 M9 M10 f1 f2 f3 f4 f6 f7 f9 f10) i * (kernelRunV.sl.r_830 c M5 f5)) + (kernelRunV.sl.r_532 c M1 M2 M3 M4 M6 M7 M9 M10 f1 f2 f3 f4 f6 f7 f9 f10) i * (kernelRunV.sl.r_831 c M5 f5)) + (kernelRunV.sl.r_533 c M1 M2 M3 M4 M6 M7 M9 M10 f1 f2 f3 f4 f6 f7 f9 f10) i * (kernelRunV.sl.r_832 c M5 f5)) + (kernelRunV.sl.r_534 c M1 M2 M3 M4 M6 M7 M9 M10 f1 f2 f3 f4 f6 f7 f9 f10) i * (kernelRunV.sl.r_835 c M5 f5)) + (kernelRunV.sl.r_541 c M1 M2 M3 M4 M6 M7 M9 M10 f1 f2 f3 f4 f6 f7 f9 f10) i * (kernelRunV.sl.r_836 c M5 f5)) + (kernelRunV.sl.r_542 c M1 M2 M3 M4 M6 M7 M9 M10 f1 f2 f3 f4 f6 f7 f9 f10) i * (kernelRunV.sl.r_837 c M5 f5)) + (kernelRunV.sl.r_543 c M1 M2 M3 M4 M6 M7 M9 M10 f1 f2 f3 f4 f6 f7 f9 f10) i * (kernelRunV.sl.r_838 c M5 f5)) + (kernelRunV.sl.r_544 c M1 M2 M3 M4 M6 M7 M9 M10 f1 f2 f3 f4 f6 f7 f9 f10) i * (kernelRunV.sl.r_839 c M5 f5)) + (kernelRunV.sl.r_545 c M1 M2 M3 M4 M6 M7 M9 M10 f1 f2 f3 f4 f6 f7 f9 f10) i * (kernelRunV.sl.r_840 c M5 f5)) + (kernelRunV.sl.r_546 c M1 M2 M3 M4 M6 M7 M9 M10 f1 f2 f3 f4 f6 f7 f9 f10) i * (kernelRunV.sl.r_841 c M5 f5)) + (kernelRunV.sl.r_547 c M1 M2 M3 M4 M6 M7 M9 M10 f1 f2 f3 f4 f6 f7 f9 f10) i * (kernelRunV.sl.r_842 c M5 f5)) + (kernelRunV.sl.r_548 c M1 M2 M3 M4 M6 M7 M9 M10 f1 f2 f3 f4 f6 f7 f9 f10) i * (kernelRunV.sl.r_843 c M5 f5)) + (kernelRunV.sl.r_844 c M8 f8)) (Scalar.ofBits .f32 0x00000000#32 : Ideal .f32) := rfl

theorem t2_15_apply (i : S512x256.Idx) :
    (kernelRunV.sl.r_865 c M1 M2 M3 M4 M5 M6 M7 M8 M9 M10 f1 f2 f3 f4 f5 f6 f7 f8 f9 f10) i = max ((((((((((((((((((Scalar.ofBits .f32 0x00000000#32 : Ideal .f32) + (kernelRunV.sl.r_527 c M1 M2 M3 M4 M6 M7 M9 M10 f1 f2 f3 f4 f6 f7 f9 f10) i * (kernelRunV.sl.r_846 c M5 f5)) + (kernelRunV.sl.r_528 c M1 M2 M3 M4 M6 M7 M9 M10 f1 f2 f3 f4 f6 f7 f9 f10) i * (kernelRunV.sl.r_847 c M5 f5)) + (kernelRunV.sl.r_529 c M1 M2 M3 M4 M6 M7 M9 M10 f1 f2 f3 f4 f6 f7 f9 f10) i * (kernelRunV.sl.r_848 c M5 f5)) + (kernelRunV.sl.r_530 c M1 M2 M3 M4 M6 M7 M9 M10 f1 f2 f3 f4 f6 f7 f9 f10) i * (kernelRunV.sl.r_849 c M5 f5)) + (kernelRunV.sl.r_531 c M1 M2 M3 M4 M6 M7 M9 M10 f1 f2 f3 f4 f6 f7 f9 f10) i * (kernelRunV.sl.r_850 c M5 f5)) + (kernelRunV.sl.r_532 c M1 M2 M3 M4 M6 M7 M9 M10 f1 f2 f3 f4 f6 f7 f9 f10) i * (kernelRunV.sl.r_851 c M5 f5)) + (kernelRunV.sl.r_533 c M1 M2 M3 M4 M6 M7 M9 M10 f1 f2 f3 f4 f6 f7 f9 f10) i * (kernelRunV.sl.r_852 c M5 f5)) + (kernelRunV.sl.r_534 c M1 M2 M3 M4 M6 M7 M9 M10 f1 f2 f3 f4 f6 f7 f9 f10) i * (kernelRunV.sl.r_853 c M5 f5)) + (kernelRunV.sl.r_541 c M1 M2 M3 M4 M6 M7 M9 M10 f1 f2 f3 f4 f6 f7 f9 f10) i * (kernelRunV.sl.r_854 c M5 f5)) + (kernelRunV.sl.r_542 c M1 M2 M3 M4 M6 M7 M9 M10 f1 f2 f3 f4 f6 f7 f9 f10) i * (kernelRunV.sl.r_855 c M5 f5)) + (kernelRunV.sl.r_543 c M1 M2 M3 M4 M6 M7 M9 M10 f1 f2 f3 f4 f6 f7 f9 f10) i * (kernelRunV.sl.r_858 c M5 f5)) + (kernelRunV.sl.r_544 c M1 M2 M3 M4 M6 M7 M9 M10 f1 f2 f3 f4 f6 f7 f9 f10) i * (kernelRunV.sl.r_859 c M5 f5)) + (kernelRunV.sl.r_545 c M1 M2 M3 M4 M6 M7 M9 M10 f1 f2 f3 f4 f6 f7 f9 f10) i * (kernelRunV.sl.r_860 c M5 f5)) + (kernelRunV.sl.r_546 c M1 M2 M3 M4 M6 M7 M9 M10 f1 f2 f3 f4 f6 f7 f9 f10) i * (kernelRunV.sl.r_861 c M5 f5)) + (kernelRunV.sl.r_547 c M1 M2 M3 M4 M6 M7 M9 M10 f1 f2 f3 f4 f6 f7 f9 f10) i * (kernelRunV.sl.r_862 c M5 f5)) + (kernelRunV.sl.r_548 c M1 M2 M3 M4 M6 M7 M9 M10 f1 f2 f3 f4 f6 f7 f9 f10) i * (kernelRunV.sl.r_863 c M5 f5)) + (kernelRunV.sl.r_864 c M8 f8)) (Scalar.ofBits .f32 0x00000000#32 : Ideal .f32) := rfl

end Cert.KernelIdeal.Region
-- ==== Proof.RegionValueScalars.lean ====
import proofs.«208141_g20598663152203_cont_8to1_341_30_alg».proof.Proof.RegionValueBody
import proofs.«208141_g20598663152203_cont_8to1_341_30_alg».proof.Proof.RegionValueReads

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

/-! Each one-word load of a weight or a bias, the buffer held at the contents that read `Y`: `Y` at that entry. -/

theorem sc_r_1 : (kernelRunV.sl.r_1 (F := Ideal) c M2 (h2.unread Y2)) = Y2 (ix2 0 0) := scal_read M2 h2 Y2 0 0 (by decide) (by decide) _ _
theorem sc_r_15 : (kernelRunV.sl.r_15 (F := Ideal) c M3 (h3.unread Y3)) = Y3 (ix2 0 0) := scal_read M3 h3 Y3 0 0 (by decide) (by decide) _ _
theorem sc_r_16 : (kernelRunV.sl.r_16 (F := Ideal) c M3 (h3.unread Y3)) = Y3 (ix2 1 0) := scal_read M3 h3 Y3 1 0 (by decide) (by decide) _ _
theorem sc_r_17 : (kernelRunV.sl.r_17 (F := Ideal) c M3 (h3.unread Y3)) = Y3 (ix2 2 0) := scal_read M3 h3 Y3 2 0 (by decide) (by decide) _ _
theorem sc_r_27 : (kernelRunV.sl.r_27 (F := Ideal) c M3 (h3.unread Y3)) = Y3 (ix2 3 0) := scal_read M3 h3 Y3 3 0 (by decide) (by decide) _ _
theorem sc_r_28 : (kernelRunV.sl.r_28 (F := Ideal) c M3 (h3.unread Y3)) = Y3 (ix2 4 0) := scal_read M3 h3 Y3 4 0 (by decide) (by decide) _ _
theorem sc_r_29 : (kernelRunV.sl.r_29 (F := Ideal) c M3 (h3.unread Y3)) = Y3 (ix2 5 0) := scal_read M3 h3 Y3 5 0 (by decide) (by decide) _ _
theorem sc_r_30 : (kernelRunV.sl.r_30 (F := Ideal) c M3 (h3.unread Y3)) = Y3 (ix2 6 0) := scal_read M3 h3 Y3 6 0 (by decide) (by decide) _ _
theorem sc_r_31 : (kernelRunV.sl.r_31 (F := Ideal) c M3 (h3.unread Y3)) = Y3 (ix2 7 0) := scal_read M3 h3 Y3 7 0 (by decide) (by decide) _ _
theorem sc_r_32 : (kernelRunV.sl.r_32 (F := Ideal) c M6 (h6.unread Y6)) = Y6 (ix2 0 0) := scal_read M6 h6 Y6 0 0 (by decide) (by decide) _ _
theorem sc_r_33 : (kernelRunV.sl.r_33 (F := Ideal) c M3 (h3.unread Y3)) = Y3 (ix2 0 1) := scal_read M3 h3 Y3 0 1 (by decide) (by decide) _ _
theorem sc_r_34 : (kernelRunV.sl.r_34 (F := Ideal) c M3 (h3.unread Y3)) = Y3 (ix2 1 1) := scal_read M3 h3 Y3 1 1 (by decide) (by decide) _ _
theorem sc_r_35 : (kernelRunV.sl.r_35 (F := Ideal) c M3 (h3.unread Y3)) = Y3 (ix2 2 1) := scal_read M3 h3 Y3 2 1 (by decide) (by decide) _ _
theorem sc_r_36 : (kernelRunV.sl.r_36 (F := Ideal) c M3 (h3.unread Y3)) = Y3 (ix2 3 1) := scal_read M3 h3 Y3 3 1 (by decide) (by decide) _ _
theorem sc_r_39 : (kernelRunV.sl.r_39 (F := Ideal) c M3 (h3.unread Y3)) = Y3 (ix2 4 1) := scal_read M3 h3 Y3 4 1 (by decide) (by decide) _ _
theorem sc_r_40 : (kernelRunV.sl.r_40 (F := Ideal) c M3 (h3.unread Y3)) = Y3 (ix2 5 1) := scal_read M3 h3 Y3 5 1 (by decide) (by decide) _ _
theorem sc_r_41 : (kernelRunV.sl.r_41 (F := Ideal) c M3 (h3.unread Y3)) = Y3 (ix2 6 1) := scal_read M3 h3 Y3 6 1 (by decide) (by decide) _ _
theorem sc_r_42 : (kernelRunV.sl.r_42 (F := Ideal) c M3 (h3.unread Y3)) = Y3 (ix2 7 1) := scal_read M3 h3 Y3 7 1 (by decide) (by decide) _ _
theorem sc_r_43 : (kernelRunV.sl.r_43 (F := Ideal) c M6 (h6.unread Y6)) = Y6 (ix2 0 1) := scal_read M6 h6 Y6 0 1 (by decide) (by decide) _ _
theorem sc_r_44 : (kernelRunV.sl.r_44 (F := Ideal) c M3 (h3.unread Y3)) = Y3 (ix2 0 2) := scal_read M3 h3 Y3 0 2 (by decide) (by decide) _ _
theorem sc_r_45 : (kernelRunV.sl.r_45 (F := Ideal) c M3 (h3.unread Y3)) = Y3 (ix2 1 2) := scal_read M3 h3 Y3 1 2 (by decide) (by decide) _ _
theorem sc_r_46 : (kernelRunV.sl.r_46 (F := Ideal) c M3 (h3.unread Y3)) = Y3 (ix2 2 2) := scal_read M3 h3 Y3 2 2 (by decide) (by decide) _ _
theorem sc_r_47 : (kernelRunV.sl.r_47 (F := Ideal) c M3 (h3.unread Y3)) = Y3 (ix2 3 2) := scal_read M3 h3 Y3 3 2 (by decide) (by decide) _ _
theorem sc_r_51 : (kernelRunV.sl.r_51 (F := Ideal) c M3 (h3.unread Y3)) = Y3 (ix2 4 2) := scal_read M3 h3 Y3 4 2 (by decide) (by decide) _ _
theorem sc_r_52 : (kernelRunV.sl.r_52 (F := Ideal) c M3 (h3.unread Y3)) = Y3 (ix2 5 2) := scal_read M3 h3 Y3 5 2 (by decide) (by decide) _ _
theorem sc_r_53 : (kernelRunV.sl.r_53 (F := Ideal) c M3 (h3.unread Y3)) = Y3 (ix2 6 2) := scal_read M3 h3 Y3 6 2 (by decide) (by decide) _ _
theorem sc_r_54 : (kernelRunV.sl.r_54 (F := Ideal) c M3 (h3.unread Y3)) = Y3 (ix2 7 2) := scal_read M3 h3 Y3 7 2 (by decide) (by decide) _ _
theorem sc_r_55 : (kernelRunV.sl.r_55 (F := Ideal) c M6 (h6.unread Y6)) = Y6 (ix2 0 2) := scal_read M6 h6 Y6 0 2 (by decide) (by decide) _ _
theorem sc_r_56 : (kernelRunV.sl.r_56 (F := Ideal) c M3 (h3.unread Y3)) = Y3 (ix2 0 3) := scal_read M3 h3 Y3 0 3 (by decide) (by decide) _ _
theorem sc_r_57 : (kernelRunV.sl.r_57 (F := Ideal) c M3 (h3.unread Y3)) = Y3 (ix2 1 3) := scal_read M3 h3 Y3 1 3 (by decide) (by decide) _ _
theorem sc_r_58 : (kernelRunV.sl.r_58 (F := Ideal) c M3 (h3.unread Y3)) = Y3 (ix2 2 3) := scal_read M3 h3 Y3 2 3 (by decide) (by decide) _ _
theorem sc_r_59 : (kernelRunV.sl.r_59 (F := Ideal) c M3 (h3.unread Y3)) = Y3 (ix2 3 3) := scal_read M3 h3 Y3 3 3 (by decide) (by decide) _ _
theorem sc_r_62 : (kernelRunV.sl.r_62 (F := Ideal) c M3 (h3.unread Y3)) = Y3 (ix2 4 3) := scal_read M3 h3 Y3 4 3 (by decide) (by decide) _ _
theorem sc_r_63 : (kernelRunV.sl.r_63 (F := Ideal) c M3 (h3.unread Y3)) = Y3 (ix2 5 3) := scal_read M3 h3 Y3 5 3 (by decide) (by decide) _ _
theorem sc_r_64 : (kernelRunV.sl.r_64 (F := Ideal) c M3 (h3.unread Y3)) = Y3 (ix2 6 3) := scal_read M3 h3 Y3 6 3 (by decide) (by decide) _ _
theorem sc_r_65 : (kernelRunV.sl.r_65 (F := Ideal) c M3 (h3.unread Y3)) = Y3 (ix2 7 3) := scal_read M3 h3 Y3 7 3 (by decide) (by decide) _ _
theorem sc_r_66 : (kernelRunV.sl.r_66 (F := Ideal) c M6 (h6.unread Y6)) = Y6 (ix2 0 3) := scal_read M6 h6 Y6 0 3 (by decide) (by decide) _ _
theorem sc_r_67 : (kernelRunV.sl.r_67 (F := Ideal) c M3 (h3.unread Y3)) = Y3 (ix2 0 4) := scal_read M3 h3 Y3 0 4 (by decide) (by decide) _ _
theorem sc_r_68 : (kernelRunV.sl.r_68 (F := Ideal) c M3 (h3.unread Y3)) = Y3 (ix2 1 4) := scal_read M3 h3 Y3 1 4 (by decide) (by decide) _ _
theorem sc_r_69 : (kernelRunV.sl.r_69 (F := Ideal) c M3 (h3.unread Y3)) = Y3 (ix2 2 4) := scal_read M3 h3 Y3 2 4 (by decide) (by decide) _ _
theorem sc_r_70 : (kernelRunV.sl.r_70 (F := Ideal) c M3 (h3.unread Y3)) = Y3 (ix2 3 4) := scal_read M3 h3 Y3 3 4 (by decide) (by decide) _ _
theorem sc_r_71 : (kernelRunV.sl.r_71 (F := Ideal) c M3 (h3.unread Y3)) = Y3 (ix2 4 4) := scal_read M3 h3 Y3 4 4 (by decide) (by decide) _ _
theorem sc_r_74 : (kernelRunV.sl.r_74 (F := Ideal) c M3 (h3.unread Y3)) = Y3 (ix2 5 4) := scal_read M3 h3 Y3 5 4 (by decide) (by decide) _ _
theorem sc_r_75 : (kernelRunV.sl.r_75 (F := Ideal) c M3 (h3.unread Y3)) = Y3 (ix2 6 4) := scal_read M3 h3 Y3 6 4 (by decide) (by decide) _ _
theorem sc_r_76 : (kernelRunV.sl.r_76 (F := Ideal) c M3 (h3.unread Y3)) = Y3 (ix2 7 4) := scal_read M3 h3 Y3 7 4 (by decide) (by decide) _ _
theorem sc_r_77 : (kernelRunV.sl.r_77 (F := Ideal) c M6 (h6.unread Y6)) = Y6 (ix2 0 4) := scal_read M6 h6 Y6 0 4 (by decide) (by decide) _ _
theorem sc_r_78 : (kernelRunV.sl.r_78 (F := Ideal) c M3 (h3.unread Y3)) = Y3 (ix2 0 5) := scal_read M3 h3 Y3 0 5 (by decide) (by decide) _ _
theorem sc_r_79 : (kernelRunV.sl.r_79 (F := Ideal) c M3 (h3.unread Y3)) = Y3 (ix2 1 5) := scal_read M3 h3 Y3 1 5 (by decide) (by decide) _ _
theorem sc_r_80 : (kernelRunV.sl.r_80 (F := Ideal) c M3 (h3.unread Y3)) = Y3 (ix2 2 5) := scal_read M3 h3 Y3 2 5 (by decide) (by decide) _ _
theorem sc_r_81 : (kernelRunV.sl.r_81 (F := Ideal) c M3 (h3.unread Y3)) = Y3 (ix2 3 5) := scal_read M3 h3 Y3 3 5 (by decide) (by decide) _ _
theorem sc_r_82 : (kernelRunV.sl.r_82 (F := Ideal) c M3 (h3.unread Y3)) = Y3 (ix2 4 5) := scal_read M3 h3 Y3 4 5 (by decide) (by decide) _ _
theorem sc_r_86 : (kernelRunV.sl.r_86 (F := Ideal) c M3 (h3.unread Y3)) = Y3 (ix2 5 5) := scal_read M3 h3 Y3 5 5 (by decide) (by decide) _ _
theorem sc_r_87 : (kernelRunV.sl.r_87 (F := Ideal) c M3 (h3.unread Y3)) = Y3 (ix2 6 5) := scal_read M3 h3 Y3 6 5 (by decide) (by decide) _ _
theorem sc_r_88 : (kernelRunV.sl.r_88 (F := Ideal) c M3 (h3.unread Y3)) = Y3 (ix2 7 5) := scal_read M3 h3 Y3 7 5 (by decide) (by decide) _ _
theorem sc_r_89 : (kernelRunV.sl.r_89 (F := Ideal) c M6 (h6.unread Y6)) = Y6 (ix2 0 5) := scal_read M6 h6 Y6 0 5 (by decide) (by decide) _ _
theorem sc_r_90 : (kernelRunV.sl.r_90 (F := Ideal) c M3 (h3.unread Y3)) = Y3 (ix2 0 6) := scal_read M3 h3 Y3 0 6 (by decide) (by decide) _ _
theorem sc_r_91 : (kernelRunV.sl.r_91 (F := Ideal) c M3 (h3.unread Y3)) = Y3 (ix2 1 6) := scal_read M3 h3 Y3 1 6 (by decide) (by decide) _ _
theorem sc_r_92 : (kernelRunV.sl.r_92 (F := Ideal) c M3 (h3.unread Y3)) = Y3 (ix2 2 6) := scal_read M3 h3 Y3 2 6 (by decide) (by decide) _ _
theorem sc_r_93 : (kernelRunV.sl.r_93 (F := Ideal) c M3 (h3.unread Y3)) = Y3 (ix2 3 6) := scal_read M3 h3 Y3 3 6 (by decide) (by decide) _ _
theorem sc_r_94 : (kernelRunV.sl.r_94 (F := Ideal) c M3 (h3.unread Y3)) = Y3 (ix2 4 6) := scal_read M3 h3 Y3 4 6 (by decide) (by decide) _ _
theorem sc_r_97 : (kernelRunV.sl.r_97 (F := Ideal) c M3 (h3.unread Y3)) = Y3 (ix2 5 6) := scal_read M3 h3 Y3 5 6 (by decide) (by decide) _ _
theorem sc_r_98 : (kernelRunV.sl.r_98 (F := Ideal) c M3 (h3.unread Y3)) = Y3 (ix2 6 6) := scal_read M3 h3 Y3 6 6 (by decide) (by decide) _ _
theorem sc_r_99 : (kernelRunV.sl.r_99 (F := Ideal) c M3 (h3.unread Y3)) = Y3 (ix2 7 6) := scal_read M3 h3 Y3 7 6 (by decide) (by decide) _ _
theorem sc_r_100 : (kernelRunV.sl.r_100 (F := Ideal) c M6 (h6.unread Y6)) = Y6 (ix2 0 6) := scal_read M6 h6 Y6 0 6 (by decide) (by decide) _ _
theorem sc_r_101 : (kernelRunV.sl.r_101 (F := Ideal) c M3 (h3.unread Y3)) = Y3 (ix2 0 7) := scal_read M3 h3 Y3 0 7 (by decide) (by decide) _ _
theorem sc_r_102 : (kernelRunV.sl.r_102 (F := Ideal) c M3 (h3.unread Y3)) = Y3 (ix2 1 7) := scal_read M3 h3 Y3 1 7 (by decide) (by decide) _ _
theorem sc_r_103 : (kernelRunV.sl.r_103 (F := Ideal) c M3 (h3.unread Y3)) = Y3 (ix2 2 7) := scal_read M3 h3 Y3 2 7 (by decide) (by decide) _ _
theorem sc_r_104 : (kernelRunV.sl.r_104 (F := Ideal) c M3 (h3.unread Y3)) = Y3 (ix2 3 7) := scal_read M3 h3 Y3 3 7 (by decide) (by decide) _ _
theorem sc_r_105 : (kernelRunV.sl.r_105 (F := Ideal) c M3 (h3.unread Y3)) = Y3 (ix2 4 7) := scal_read M3 h3 Y3 4 7 (by decide) (by decide) _ _
theorem sc_r_106 : (kernelRunV.sl.r_106 (F := Ideal) c M3 (h3.unread Y3)) = Y3 (ix2 5 7) := scal_read M3 h3 Y3 5 7 (by decide) (by decide) _ _
theorem sc_r_109 : (kernelRunV.sl.r_109 (F := Ideal) c M3 (h3.unread Y3)) = Y3 (ix2 6 7) := scal_read M3 h3 Y3 6 7 (by decide) (by decide) _ _
theorem sc_r_110 : (kernelRunV.sl.r_110 (F := Ideal) c M3 (h3.unread Y3)) = Y3 (ix2 7 7) := scal_read M3 h3 Y3 7 7 (by decide) (by decide) _ _
theorem sc_r_111 : (kernelRunV.sl.r_111 (F := Ideal) c M6 (h6.unread Y6)) = Y6 (ix2 0 7) := scal_read M6 h6 Y6 0 7 (by decide) (by decide) _ _
theorem sc_r_112 : (kernelRunV.sl.r_112 (F := Ideal) c M3 (h3.unread Y3)) = Y3 (ix2 0 8) := scal_read M3 h3 Y3 0 8 (by decide) (by decide) _ _
theorem sc_r_113 : (kernelRunV.sl.r_113 (F := Ideal) c M3 (h3.unread Y3)) = Y3 (ix2 1 8) := scal_read M3 h3 Y3 1 8 (by decide) (by decide) _ _
theorem sc_r_114 : (kernelRunV.sl.r_114 (F := Ideal) c M3 (h3.unread Y3)) = Y3 (ix2 2 8) := scal_read M3 h3 Y3 2 8 (by decide) (by decide) _ _
theorem sc_r_115 : (kernelRunV.sl.r_115 (F := Ideal) c M3 (h3.unread Y3)) = Y3 (ix2 3 8) := scal_read M3 h3 Y3 3 8 (by decide) (by decide) _ _
theorem sc_r_116 : (kernelRunV.sl.r_116 (F := Ideal) c M3 (h3.unread Y3)) = Y3 (ix2 4 8) := scal_read M3 h3 Y3 4 8 (by decide) (by decide) _ _
theorem sc_r_117 : (kernelRunV.sl.r_117 (F := Ideal) c M3 (h3.unread Y3)) = Y3 (ix2 5 8) := scal_read M3 h3 Y3 5 8 (by decide) (by decide) _ _
theorem sc_r_121 : (kernelRunV.sl.r_121 (F := Ideal) c M3 (h3.unread Y3)) = Y3 (ix2 6 8) := scal_read M3 h3 Y3 6 8 (by decide) (by decide) _ _
theorem sc_r_122 : (kernelRunV.sl.r_122 (F := Ideal) c M3 (h3.unread Y3)) = Y3 (ix2 7 8) := scal_read M3 h3 Y3 7 8 (by decide) (by decide) _ _
theorem sc_r_123 : (kernelRunV.sl.r_123 (F := Ideal) c M6 (h6.unread Y6)) = Y6 (ix2 0 8) := scal_read M6 h6 Y6 0 8 (by decide) (by decide) _ _
theorem sc_r_124 : (kernelRunV.sl.r_124 (F := Ideal) c M3 (h3.unread Y3)) = Y3 (ix2 0 9) := scal_read M3 h3 Y3 0 9 (by decide) (by decide) _ _
theorem sc_r_125 : (kernelRunV.sl.r_125 (F := Ideal) c M3 (h3.unread Y3)) = Y3 (ix2 1 9) := scal_read M3 h3 Y3 1 9 (by decide) (by decide) _ _
theorem sc_r_126 : (kernelRunV.sl.r_126 (F := Ideal) c M3 (h3.unread Y3)) = Y3 (ix2 2 9) := scal_read M3 h3 Y3 2 9 (by decide) (by decide) _ _
theorem sc_r_127 : (kernelRunV.sl.r_127 (F := Ideal) c M3 (h3.unread Y3)) = Y3 (ix2 3 9) := scal_read M3 h3 Y3 3 9 (by decide) (by decide) _ _
theorem sc_r_128 : (kernelRunV.sl.r_128 (F := Ideal) c M3 (h3.unread Y3)) = Y3 (ix2 4 9) := scal_read M3 h3 Y3 4 9 (by decide) (by decide) _ _
theorem sc_r_129 : (kernelRunV.sl.r_129 (F := Ideal) c M3 (h3.unread Y3)) = Y3 (ix2 5 9) := scal_read M3 h3 Y3 5 9 (by decide) (by decide) _ _
theorem sc_r_132 : (kernelRunV.sl.r_132 (F := Ideal) c M3 (h3.unread Y3)) = Y3 (ix2 6 9) := scal_read M3 h3 Y3 6 9 (by decide) (by decide) _ _
theorem sc_r_133 : (kernelRunV.sl.r_133 (F := Ideal) c M3 (h3.unread Y3)) = Y3 (ix2 7 9) := scal_read M3 h3 Y3 7 9 (by decide) (by decide) _ _
theorem sc_r_134 : (kernelRunV.sl.r_134 (F := Ideal) c M6 (h6.unread Y6)) = Y6 (ix2 0 9) := scal_read M6 h6 Y6 0 9 (by decide) (by decide) _ _
theorem sc_r_135 : (kernelRunV.sl.r_135 (F := Ideal) c M3 (h3.unread Y3)) = Y3 (ix2 0 10) := scal_read M3 h3 Y3 0 10 (by decide) (by decide) _ _
theorem sc_r_136 : (kernelRunV.sl.r_136 (F := Ideal) c M3 (h3.unread Y3)) = Y3 (ix2 1 10) := scal_read M3 h3 Y3 1 10 (by decide) (by decide) _ _
theorem sc_r_137 : (kernelRunV.sl.r_137 (F := Ideal) c M3 (h3.unread Y3)) = Y3 (ix2 2 10) := scal_read M3 h3 Y3 2 10 (by decide) (by decide) _ _
theorem sc_r_138 : (kernelRunV.sl.r_138 (F := Ideal) c M3 (h3.unread Y3)) = Y3 (ix2 3 10) := scal_read M3 h3 Y3 3 10 (by decide) (by decide) _ _
theorem sc_r_139 : (kernelRunV.sl.r_139 (F := Ideal) c M3 (h3.unread Y3)) = Y3 (ix2 4 10) := scal_read M3 h3 Y3 4 10 (by decide) (by decide) _ _
theorem sc_r_140 : (kernelRunV.sl.r_140 (F := Ideal) c M3 (h3.unread Y3)) = Y3 (ix2 5 10) := scal_read M3 h3 Y3 5 10 (by decide) (by decide) _ _
theorem sc_r_141 : (kernelRunV.sl.r_141 (F := Ideal) c M3 (h3.unread Y3)) = Y3 (ix2 6 10) := scal_read M3 h3 Y3 6 10 (by decide) (by decide) _ _
theorem sc_r_144 : (kernelRunV.sl.r_144 (F := Ideal) c M3 (h3.unread Y3)) = Y3 (ix2 7 10) := scal_read M3 h3 Y3 7 10 (by decide) (by decide) _ _
theorem sc_r_145 : (kernelRunV.sl.r_145 (F := Ideal) c M6 (h6.unread Y6)) = Y6 (ix2 0 10) := scal_read M6 h6 Y6 0 10 (by decide) (by decide) _ _
theorem sc_r_146 : (kernelRunV.sl.r_146 (F := Ideal) c M3 (h3.unread Y3)) = Y3 (ix2 0 11) := scal_read M3 h3 Y3 0 11 (by decide) (by decide) _ _
theorem sc_r_147 : (kernelRunV.sl.r_147 (F := Ideal) c M3 (h3.unread Y3)) = Y3 (ix2 1 11) := scal_read M3 h3 Y3 1 11 (by decide) (by decide) _ _
theorem sc_r_148 : (kernelRunV.sl.r_148 (F := Ideal) c M3 (h3.unread Y3)) = Y3 (ix2 2 11) := scal_read M3 h3 Y3 2 11 (by decide) (by decide) _ _
theorem sc_r_149 : (kernelRunV.sl.r_149 (F := Ideal) c M3 (h3.unread Y3)) = Y3 (ix2 3 11) := scal_read M3 h3 Y3 3 11 (by decide) (by decide) _ _
theorem sc_r_150 : (kernelRunV.sl.r_150 (F := Ideal) c M3 (h3.unread Y3)) = Y3 (ix2 4 11) := scal_read M3 h3 Y3 4 11 (by decide) (by decide) _ _
theorem sc_r_151 : (kernelRunV.sl.r_151 (F := Ideal) c M3 (h3.unread Y3)) = Y3 (ix2 5 11) := scal_read M3 h3 Y3 5 11 (by decide) (by decide) _ _
theorem sc_r_152 : (kernelRunV.sl.r_152 (F := Ideal) c M3 (h3.unread Y3)) = Y3 (ix2 6 11) := scal_read M3 h3 Y3 6 11 (by decide) (by decide) _ _
theorem sc_r_156 : (kernelRunV.sl.r_156 (F := Ideal) c M3 (h3.unread Y3)) = Y3 (ix2 7 11) := scal_read M3 h3 Y3 7 11 (by decide) (by decide) _ _
theorem sc_r_157 : (kernelRunV.sl.r_157 (F := Ideal) c M6 (h6.unread Y6)) = Y6 (ix2 0 11) := scal_read M6 h6 Y6 0 11 (by decide) (by decide) _ _
theorem sc_r_158 : (kernelRunV.sl.r_158 (F := Ideal) c M3 (h3.unread Y3)) = Y3 (ix2 0 12) := scal_read M3 h3 Y3 0 12 (by decide) (by decide) _ _
theorem sc_r_159 : (kernelRunV.sl.r_159 (F := Ideal) c M3 (h3.unread Y3)) = Y3 (ix2 1 12) := scal_read M3 h3 Y3 1 12 (by decide) (by decide) _ _
theorem sc_r_160 : (kernelRunV.sl.r_160 (F := Ideal) c M3 (h3.unread Y3)) = Y3 (ix2 2 12) := scal_read M3 h3 Y3 2 12 (by decide) (by decide) _ _
theorem sc_r_161 : (kernelRunV.sl.r_161 (F := Ideal) c M3 (h3.unread Y3)) = Y3 (ix2 3 12) := scal_read M3 h3 Y3 3 12 (by decide) (by decide) _ _
theorem sc_r_162 : (kernelRunV.sl.r_162 (F := Ideal) c M3 (h3.unread Y3)) = Y3 (ix2 4 12) := scal_read M3 h3 Y3 4 12 (by decide) (by decide) _ _
theorem sc_r_163 : (kernelRunV.sl.r_163 (F := Ideal) c M3 (h3.unread Y3)) = Y3 (ix2 5 12) := scal_read M3 h3 Y3 5 12 (by decide) (by decide) _ _
theorem sc_r_164 : (kernelRunV.sl.r_164 (F := Ideal) c M3 (h3.unread Y3)) = Y3 (ix2 6 12) := scal_read M3 h3 Y3 6 12 (by decide) (by decide) _ _
theorem sc_r_167 : (kernelRunV.sl.r_167 (F := Ideal) c M3 (h3.unread Y3)) = Y3 (ix2 7 12) := scal_read M3 h3 Y3 7 12 (by decide) (by decide) _ _
theorem sc_r_168 : (kernelRunV.sl.r_168 (F := Ideal) c M6 (h6.unread Y6)) = Y6 (ix2 0 12) := scal_read M6 h6 Y6 0 12 (by decide) (by decide) _ _
theorem sc_r_169 : (kernelRunV.sl.r_169 (F := Ideal) c M3 (h3.unread Y3)) = Y3 (ix2 0 13) := scal_read M3 h3 Y3 0 13 (by decide) (by decide) _ _
theorem sc_r_170 : (kernelRunV.sl.r_170 (F := Ideal) c M3 (h3.unread Y3)) = Y3 (ix2 1 13) := scal_read M3 h3 Y3 1 13 (by decide) (by decide) _ _
theorem sc_r_171 : (kernelRunV.sl.r_171 (F := Ideal) c M3 (h3.unread Y3)) = Y3 (ix2 2 13) := scal_read M3 h3 Y3 2 13 (by decide) (by decide) _ _
theorem sc_r_172 : (kernelRunV.sl.r_172 (F := Ideal) c M3 (h3.unread Y3)) = Y3 (ix2 3 13) := scal_read M3 h3 Y3 3 13 (by decide) (by decide) _ _
theorem sc_r_173 : (kernelRunV.sl.r_173 (F := Ideal) c M3 (h3.unread Y3)) = Y3 (ix2 4 13) := scal_read M3 h3 Y3 4 13 (by decide) (by decide) _ _
theorem sc_r_174 : (kernelRunV.sl.r_174 (F := Ideal) c M3 (h3.unread Y3)) = Y3 (ix2 5 13) := scal_read M3 h3 Y3 5 13 (by decide) (by decide) _ _
theorem sc_r_175 : (kernelRunV.sl.r_175 (F := Ideal) c M3 (h3.unread Y3)) = Y3 (ix2 6 13) := scal_read M3 h3 Y3 6 13 (by decide) (by decide) _ _
theorem sc_r_176 : (kernelRunV.sl.r_176 (F := Ideal) c M3 (h3.unread Y3)) = Y3 (ix2 7 13) := scal_read M3 h3 Y3 7 13 (by decide) (by decide) _ _
theorem sc_r_179 : (kernelRunV.sl.r_179 (F := Ideal) c M6 (h6.unread Y6)) = Y6 (ix2 0 13) := scal_read M6 h6 Y6 0 13 (by decide) (by decide) _ _
theorem sc_r_180 : (kernelRunV.sl.r_180 (F := Ideal) c M3 (h3.unread Y3)) = Y3 (ix2 0 14) := scal_read M3 h3 Y3 0 14 (by decide) (by decide) _ _
theorem sc_r_181 : (kernelRunV.sl.r_181 (F := Ideal) c M3 (h3.unread Y3)) = Y3 (ix2 1 14) := scal_read M3 h3 Y3 1 14 (by decide) (by decide) _ _
theorem sc_r_182 : (kernelRunV.sl.r_182 (F := Ideal) c M3 (h3.unread Y3)) = Y3 (ix2 2 14) := scal_read M3 h3 Y3 2 14 (by decide) (by decide) _ _
theorem sc_r_183 : (kernelRunV.sl.r_183 (F := Ideal) c M3 (h3.unread Y3)) = Y3 (ix2 3 14) := scal_read M3 h3 Y3 3 14 (by decide) (by decide) _ _
theorem sc_r_184 : (kernelRunV.sl.r_184 (F := Ideal) c M3 (h3.unread Y3)) = Y3 (ix2 4 14) := scal_read M3 h3 Y3 4 14 (by decide) (by decide) _ _
theorem sc_r_185 : (kernelRunV.sl.r_185 (F := Ideal) c M3 (h3.unread Y3)) = Y3 (ix2 5 14) := scal_read M3 h3 Y3 5 14 (by decide) (by decide) _ _
theorem sc_r_186 : (kernelRunV.sl.r_186 (F := Ideal) c M3 (h3.unread Y3)) = Y3 (ix2 6 14) := scal_read M3 h3 Y3 6 14 (by decide) (by decide) _ _
theorem sc_r_187 : (kernelRunV.sl.r_187 (F := Ideal) c M3 (h3.unread Y3)) = Y3 (ix2 7 14) := scal_read M3 h3 Y3 7 14 (by decide) (by decide) _ _
theorem sc_r_191 : (kernelRunV.sl.r_191 (F := Ideal) c M6 (h6.unread Y6)) = Y6 (ix2 0 14) := scal_read M6 h6 Y6 0 14 (by decide) (by decide) _ _
theorem sc_r_192 : (kernelRunV.sl.r_192 (F := Ideal) c M3 (h3.unread Y3)) = Y3 (ix2 0 15) := scal_read M3 h3 Y3 0 15 (by decide) (by decide) _ _
theorem sc_r_193 : (kernelRunV.sl.r_193 (F := Ideal) c M3 (h3.unread Y3)) = Y3 (ix2 1 15) := scal_read M3 h3 Y3 1 15 (by decide) (by decide) _ _
theorem sc_r_194 : (kernelRunV.sl.r_194 (F := Ideal) c M3 (h3.unread Y3)) = Y3 (ix2 2 15) := scal_read M3 h3 Y3 2 15 (by decide) (by decide) _ _
theorem sc_r_195 : (kernelRunV.sl.r_195 (F := Ideal) c M3 (h3.unread Y3)) = Y3 (ix2 3 15) := scal_read M3 h3 Y3 3 15 (by decide) (by decide) _ _
theorem sc_r_196 : (kernelRunV.sl.r_196 (F := Ideal) c M3 (h3.unread Y3)) = Y3 (ix2 4 15) := scal_read M3 h3 Y3 4 15 (by decide) (by decide) _ _
theorem sc_r_197 : (kernelRunV.sl.r_197 (F := Ideal) c M3 (h3.unread Y3)) = Y3 (ix2 5 15) := scal_read M3 h3 Y3 5 15 (by decide) (by decide) _ _
theorem sc_r_198 : (kernelRunV.sl.r_198 (F := Ideal) c M3 (h3.unread Y3)) = Y3 (ix2 6 15) := scal_read M3 h3 Y3 6 15 (by decide) (by decide) _ _
theorem sc_r_199 : (kernelRunV.sl.r_199 (F := Ideal) c M3 (h3.unread Y3)) = Y3 (ix2 7 15) := scal_read M3 h3 Y3 7 15 (by decide) (by decide) _ _
theorem sc_r_202 : (kernelRunV.sl.r_202 (F := Ideal) c M6 (h6.unread Y6)) = Y6 (ix2 0 15) := scal_read M6 h6 Y6 0 15 (by decide) (by decide) _ _
theorem sc_r_203 : (kernelRunV.sl.r_203 (F := Ideal) c M4 (h4.unread Y4)) = Y4 (ix2 0 0) := scal_read M4 h4 Y4 0 0 (by decide) (by decide) _ _
theorem sc_r_204 : (kernelRunV.sl.r_204 (F := Ideal) c M4 (h4.unread Y4)) = Y4 (ix2 1 0) := scal_read M4 h4 Y4 1 0 (by decide) (by decide) _ _
theorem sc_r_205 : (kernelRunV.sl.r_205 (F := Ideal) c M4 (h4.unread Y4)) = Y4 (ix2 2 0) := scal_read M4 h4 Y4 2 0 (by decide) (by decide) _ _
theorem sc_r_206 : (kernelRunV.sl.r_206 (F := Ideal) c M4 (h4.unread Y4)) = Y4 (ix2 3 0) := scal_read M4 h4 Y4 3 0 (by decide) (by decide) _ _
theorem sc_r_207 : (kernelRunV.sl.r_207 (F := Ideal) c M4 (h4.unread Y4)) = Y4 (ix2 4 0) := scal_read M4 h4 Y4 4 0 (by decide) (by decide) _ _
theorem sc_r_208 : (kernelRunV.sl.r_208 (F := Ideal) c M4 (h4.unread Y4)) = Y4 (ix2 5 0) := scal_read M4 h4 Y4 5 0 (by decide) (by decide) _ _
theorem sc_r_209 : (kernelRunV.sl.r_209 (F := Ideal) c M4 (h4.unread Y4)) = Y4 (ix2 6 0) := scal_read M4 h4 Y4 6 0 (by decide) (by decide) _ _
theorem sc_r_210 : (kernelRunV.sl.r_210 (F := Ideal) c M4 (h4.unread Y4)) = Y4 (ix2 7 0) := scal_read M4 h4 Y4 7 0 (by decide) (by decide) _ _
theorem sc_r_211 : (kernelRunV.sl.r_211 (F := Ideal) c M4 (h4.unread Y4)) = Y4 (ix2 8 0) := scal_read M4 h4 Y4 8 0 (by decide) (by decide) _ _
theorem sc_r_214 : (kernelRunV.sl.r_214 (F := Ideal) c M4 (h4.unread Y4)) = Y4 (ix2 9 0) := scal_read M4 h4 Y4 9 0 (by decide) (by decide) _ _
theorem sc_r_215 : (kernelRunV.sl.r_215 (F := Ideal) c M4 (h4.unread Y4)) = Y4 (ix2 10 0) := scal_read M4 h4 Y4 10 0 (by decide) (by decide) _ _
theorem sc_r_216 : (kernelRunV.sl.r_216 (F := Ideal) c M4 (h4.unread Y4)) = Y4 (ix2 11 0) := scal_read M4 h4 Y4 11 0 (by decide) (by decide) _ _
theorem sc_r_217 : (kernelRunV.sl.r_217 (F := Ideal) c M4 (h4.unread Y4)) = Y4 (ix2 12 0) := scal_read M4 h4 Y4 12 0 (by decide) (by decide) _ _
theorem sc_r_218 : (kernelRunV.sl.r_218 (F := Ideal) c M4 (h4.unread Y4)) = Y4 (ix2 13 0) := scal_read M4 h4 Y4 13 0 (by decide) (by decide) _ _
theorem sc_r_219 : (kernelRunV.sl.r_219 (F := Ideal) c M4 (h4.unread Y4)) = Y4 (ix2 14 0) := scal_read M4 h4 Y4 14 0 (by decide) (by decide) _ _
theorem sc_r_220 : (kernelRunV.sl.r_220 (F := Ideal) c M4 (h4.unread Y4)) = Y4 (ix2 15 0) := scal_read M4 h4 Y4 15 0 (by decide) (by decide) _ _
theorem sc_r_221 : (kernelRunV.sl.r_221 (F := Ideal) c M7 (h7.unread Y7)) = Y7 (ix2 0 0) := scal_read M7 h7 Y7 0 0 (by decide) (by decide) _ _
theorem sc_r_222 : (kernelRunV.sl.r_222 (F := Ideal) c M4 (h4.unread Y4)) = Y4 (ix2 0 1) := scal_read M4 h4 Y4 0 1 (by decide) (by decide) _ _
theorem sc_r_225 : (kernelRunV.sl.r_225 (F := Ideal) c M4 (h4.unread Y4)) = Y4 (ix2 1 1) := scal_read M4 h4 Y4 1 1 (by decide) (by decide) _ _
theorem sc_r_226 : (kernelRunV.sl.r_226 (F := Ideal) c M4 (h4.unread Y4)) = Y4 (ix2 2 1) := scal_read M4 h4 Y4 2 1 (by decide) (by decide) _ _
theorem sc_r_227 : (kernelRunV.sl.r_227 (F := Ideal) c M4 (h4.unread Y4)) = Y4 (ix2 3 1) := scal_read M4 h4 Y4 3 1 (by decide) (by decide) _ _
theorem sc_r_228 : (kernelRunV.sl.r_228 (F := Ideal) c M4 (h4.unread Y4)) = Y4 (ix2 4 1) := scal_read M4 h4 Y4 4 1 (by decide) (by decide) _ _
theorem sc_r_229 : (kernelRunV.sl.r_229 (F := Ideal) c M4 (h4.unread Y4)) = Y4 (ix2 5 1) := scal_read M4 h4 Y4 5 1 (by decide) (by decide) _ _
theorem sc_r_230 : (kernelRunV.sl.r_230 (F := Ideal) c M4 (h4.unread Y4)) = Y4 (ix2 6 1) := scal_read M4 h4 Y4 6 1 (by decide) (by decide) _ _
theorem sc_r_231 : (kernelRunV.sl.r_231 (F := Ideal) c M4 (h4.unread Y4)) = Y4 (ix2 7 1) := scal_read M4 h4 Y4 7 1 (by decide) (by decide) _ _
theorem sc_r_232 : (kernelRunV.sl.r_232 (F := Ideal) c M4 (h4.unread Y4)) = Y4 (ix2 8 1) := scal_read M4 h4 Y4 8 1 (by decide) (by decide) _ _
theorem sc_r_233 : (kernelRunV.sl.r_233 (F := Ideal) c M4 (h4.unread Y4)) = Y4 (ix2 9 1) := scal_read M4 h4 Y4 9 1 (by decide) (by decide) _ _
theorem sc_r_234 : (kernelRunV.sl.r_234 (F := Ideal) c M4 (h4.unread Y4)) = Y4 (ix2 10 1) := scal_read M4 h4 Y4 10 1 (by decide) (by decide) _ _
theorem sc_r_237 : (kernelRunV.sl.r_237 (F := Ideal) c M4 (h4.unread Y4)) = Y4 (ix2 11 1) := scal_read M4 h4 Y4 11 1 (by decide) (by decide) _ _
theorem sc_r_238 : (kernelRunV.sl.r_238 (F := Ideal) c M4 (h4.unread Y4)) = Y4 (ix2 12 1) := scal_read M4 h4 Y4 12 1 (by decide) (by decide) _ _
theorem sc_r_239 : (kernelRunV.sl.r_239 (F := Ideal) c M4 (h4.unread Y4)) = Y4 (ix2 13 1) := scal_read M4 h4 Y4 13 1 (by decide) (by decide) _ _
theorem sc_r_240 : (kernelRunV.sl.r_240 (F := Ideal) c M4 (h4.unread Y4)) = Y4 (ix2 14 1) := scal_read M4 h4 Y4 14 1 (by decide) (by decide) _ _
theorem sc_r_241 : (kernelRunV.sl.r_241 (F := Ideal) c M4 (h4.unread Y4)) = Y4 (ix2 15 1) := scal_read M4 h4 Y4 15 1 (by decide) (by decide) _ _
theorem sc_r_242 : (kernelRunV.sl.r_242 (F := Ideal) c M7 (h7.unread Y7)) = Y7 (ix2 0 1) := scal_read M7 h7 Y7 0 1 (by decide) (by decide) _ _
theorem sc_r_243 : (kernelRunV.sl.r_243 (F := Ideal) c M4 (h4.unread Y4)) = Y4 (ix2 0 2) := scal_read M4 h4 Y4 0 2 (by decide) (by decide) _ _
theorem sc_r_244 : (kernelRunV.sl.r_244 (F := Ideal) c M4 (h4.unread Y4)) = Y4 (ix2 1 2) := scal_read M4 h4 Y4 1 2 (by decide) (by decide) _ _
theorem sc_r_245 : (kernelRunV.sl.r_245 (F := Ideal) c M4 (h4.unread Y4)) = Y4 (ix2 2 2) := scal_read M4 h4 Y4 2 2 (by decide) (by decide) _ _
theorem sc_r_248 : (kernelRunV.sl.r_248 (F := Ideal) c M4 (h4.unread Y4)) = Y4 (ix2 3 2) := scal_read M4 h4 Y4 3 2 (by decide) (by decide) _ _
theorem sc_r_249 : (kernelRunV.sl.r_249 (F := Ideal) c M4 (h4.unread Y4)) = Y4 (ix2 4 2) := scal_read M4 h4 Y4 4 2 (by decide) (by decide) _ _
theorem sc_r_250 : (kernelRunV.sl.r_250 (F := Ideal) c M4 (h4.unread Y4)) = Y4 (ix2 5 2) := scal_read M4 h4 Y4 5 2 (by decide) (by decide) _ _
theorem sc_r_251 : (kernelRunV.sl.r_251 (F := Ideal) c M4 (h4.unread Y4)) = Y4 (ix2 6 2) := scal_read M4 h4 Y4 6 2 (by decide) (by decide) _ _
theorem sc_r_252 : (kernelRunV.sl.r_252 (F := Ideal) c M4 (h4.unread Y4)) = Y4 (ix2 7 2) := scal_read M4 h4 Y4 7 2 (by decide) (by decide) _ _
theorem sc_r_253 : (kernelRunV.sl.r_253 (F := Ideal) c M4 (h4.unread Y4)) = Y4 (ix2 8 2) := scal_read M4 h4 Y4 8 2 (by decide) (by decide) _ _
theorem sc_r_254 : (kernelRunV.sl.r_254 (F := Ideal) c M4 (h4.unread Y4)) = Y4 (ix2 9 2) := scal_read M4 h4 Y4 9 2 (by decide) (by decide) _ _
theorem sc_r_255 : (kernelRunV.sl.r_255 (F := Ideal) c M4 (h4.unread Y4)) = Y4 (ix2 10 2) := scal_read M4 h4 Y4 10 2 (by decide) (by decide) _ _
theorem sc_r_256 : (kernelRunV.sl.r_256 (F := Ideal) c M4 (h4.unread Y4)) = Y4 (ix2 11 2) := scal_read M4 h4 Y4 11 2 (by decide) (by decide) _ _
theorem sc_r_257 : (kernelRunV.sl.r_257 (F := Ideal) c M4 (h4.unread Y4)) = Y4 (ix2 12 2) := scal_read M4 h4 Y4 12 2 (by decide) (by decide) _ _
theorem sc_r_259 : (kernelRunV.sl.r_259 (F := Ideal) c M4 (h4.unread Y4)) = Y4 (ix2 13 2) := scal_read M4 h4 Y4 13 2 (by decide) (by decide) _ _
theorem sc_r_260 : (kernelRunV.sl.r_260 (F := Ideal) c M4 (h4.unread Y4)) = Y4 (ix2 14 2) := scal_read M4 h4 Y4 14 2 (by decide) (by decide) _ _
theorem sc_r_261 : (kernelRunV.sl.r_261 (F := Ideal) c M4 (h4.unread Y4)) = Y4 (ix2 15 2) := scal_read M4 h4 Y4 15 2 (by decide) (by decide) _ _
theorem sc_r_262 : (kernelRunV.sl.r_262 (F := Ideal) c M7 (h7.unread Y7)) = Y7 (ix2 0 2) := scal_read M7 h7 Y7 0 2 (by decide) (by decide) _ _
theorem sc_r_263 : (kernelRunV.sl.r_263 (F := Ideal) c M4 (h4.unread Y4)) = Y4 (ix2 0 3) := scal_read M4 h4 Y4 0 3 (by decide) (by decide) _ _
theorem sc_r_264 : (kernelRunV.sl.r_264 (F := Ideal) c M4 (h4.unread Y4)) = Y4 (ix2 1 3) := scal_read M4 h4 Y4 1 3 (by decide) (by decide) _ _
theorem sc_r_265 : (kernelRunV.sl.r_265 (F := Ideal) c M4 (h4.unread Y4)) = Y4 (ix2 2 3) := scal_read M4 h4 Y4 2 3 (by decide) (by decide) _ _
theorem sc_r_266 : (kernelRunV.sl.r_266 (F := Ideal) c M4 (h4.unread Y4)) = Y4 (ix2 3 3) := scal_read M4 h4 Y4 3 3 (by decide) (by decide) _ _
theorem sc_r_267 : (kernelRunV.sl.r_267 (F := Ideal) c M4 (h4.unread Y4)) = Y4 (ix2 4 3) := scal_read M4 h4 Y4 4 3 (by decide) (by decide) _ _
theorem sc_r_268 : (kernelRunV.sl.r_268 (F := Ideal) c M4 (h4.unread Y4)) = Y4 (ix2 5 3) := scal_read M4 h4 Y4 5 3 (by decide) (by decide) _ _
theorem sc_r_271 : (kernelRunV.sl.r_271 (F := Ideal) c M4 (h4.unread Y4)) = Y4 (ix2 6 3) := scal_read M4 h4 Y4 6 3 (by decide) (by decide) _ _
theorem sc_r_272 : (kernelRunV.sl.r_272 (F := Ideal) c M4 (h4.unread Y4)) = Y4 (ix2 7 3) := scal_read M4 h4 Y4 7 3 (by decide) (by decide) _ _
theorem sc_r_273 : (kernelRunV.sl.r_273 (F := Ideal) c M4 (h4.unread Y4)) = Y4 (ix2 8 3) := scal_read M4 h4 Y4 8 3 (by decide) (by decide) _ _
theorem sc_r_274 : (kernelRunV.sl.r_274 (F := Ideal) c M4 (h4.unread Y4)) = Y4 (ix2 9 3) := scal_read M4 h4 Y4 9 3 (by decide) (by decide) _ _
theorem sc_r_275 : (kernelRunV.sl.r_275 (F := Ideal) c M4 (h4.unread Y4)) = Y4 (ix2 10 3) := scal_read M4 h4 Y4 10 3 (by decide) (by decide) _ _
theorem sc_r_276 : (kernelRunV.sl.r_276 (F := Ideal) c M4 (h4.unread Y4)) = Y4 (ix2 11 3) := scal_read M4 h4 Y4 11 3 (by decide) (by decide) _ _
theorem sc_r_277 : (kernelRunV.sl.r_277 (F := Ideal) c M4 (h4.unread Y4)) = Y4 (ix2 12 3) := scal_read M4 h4 Y4 12 3 (by decide) (by decide) _ _
theorem sc_r_278 : (kernelRunV.sl.r_278 (F := Ideal) c M4 (h4.unread Y4)) = Y4 (ix2 13 3) := scal_read M4 h4 Y4 13 3 (by decide) (by decide) _ _
theorem sc_r_279 : (kernelRunV.sl.r_279 (F := Ideal) c M4 (h4.unread Y4)) = Y4 (ix2 14 3) := scal_read M4 h4 Y4 14 3 (by decide) (by decide) _ _
theorem sc_r_280 : (kernelRunV.sl.r_280 (F := Ideal) c M4 (h4.unread Y4)) = Y4 (ix2 15 3) := scal_read M4 h4 Y4 15 3 (by decide) (by decide) _ _
theorem sc_r_282 : (kernelRunV.sl.r_282 (F := Ideal) c M7 (h7.unread Y7)) = Y7 (ix2 0 3) := scal_read M7 h7 Y7 0 3 (by decide) (by decide) _ _
theorem sc_r_283 : (kernelRunV.sl.r_283 (F := Ideal) c M4 (h4.unread Y4)) = Y4 (ix2 0 4) := scal_read M4 h4 Y4 0 4 (by decide) (by decide) _ _
theorem sc_r_284 : (kernelRunV.sl.r_284 (F := Ideal) c M4 (h4.unread Y4)) = Y4 (ix2 1 4) := scal_read M4 h4 Y4 1 4 (by decide) (by decide) _ _
theorem sc_r_285 : (kernelRunV.sl.r_285 (F := Ideal) c M4 (h4.unread Y4)) = Y4 (ix2 2 4) := scal_read M4 h4 Y4 2 4 (by decide) (by decide) _ _
theorem sc_r_286 : (kernelRunV.sl.r_286 (F := Ideal) c M4 (h4.unread Y4)) = Y4 (ix2 3 4) := scal_read M4 h4 Y4 3 4 (by decide) (by decide) _ _
theorem sc_r_287 : (kernelRunV.sl.r_287 (F := Ideal) c M4 (h4.unread Y4)) = Y4 (ix2 4 4) := scal_read M4 h4 Y4 4 4 (by decide) (by decide) _ _
theorem sc_r_288 : (kernelRunV.sl.r_288 (F := Ideal) c M4 (h4.unread Y4)) = Y4 (ix2 5 4) := scal_read M4 h4 Y4 5 4 (by decide) (by decide) _ _
theorem sc_r_289 : (kernelRunV.sl.r_289 (F := Ideal) c M4 (h4.unread Y4)) = Y4 (ix2 6 4) := scal_read M4 h4 Y4 6 4 (by decide) (by decide) _ _
theorem sc_r_290 : (kernelRunV.sl.r_290 (F := Ideal) c M4 (h4.unread Y4)) = Y4 (ix2 7 4) := scal_read M4 h4 Y4 7 4 (by decide) (by decide) _ _
theorem sc_r_294 : (kernelRunV.sl.r_294 (F := Ideal) c M4 (h4.unread Y4)) = Y4 (ix2 8 4) := scal_read M4 h4 Y4 8 4 (by decide) (by decide) _ _
theorem sc_r_295 : (kernelRunV.sl.r_295 (F := Ideal) c M4 (h4.unread Y4)) = Y4 (ix2 9 4) := scal_read M4 h4 Y4 9 4 (by decide) (by decide) _ _
theorem sc_r_296 : (kernelRunV.sl.r_296 (F := Ideal) c M4 (h4.unread Y4)) = Y4 (ix2 10 4) := scal_read M4 h4 Y4 10 4 (by decide) (by decide) _ _
theorem sc_r_297 : (kernelRunV.sl.r_297 (F := Ideal) c M4 (h4.unread Y4)) = Y4 (ix2 11 4) := scal_read M4 h4 Y4 11 4 (by decide) (by decide) _ _
theorem sc_r_298 : (kernelRunV.sl.r_298 (F := Ideal) c M4 (h4.unread Y4)) = Y4 (ix2 12 4) := scal_read M4 h4 Y4 12 4 (by decide) (by decide) _ _
theorem sc_r_299 : (kernelRunV.sl.r_299 (F := Ideal) c M4 (h4.unread Y4)) = Y4 (ix2 13 4) := scal_read M4 h4 Y4 13 4 (by decide) (by decide) _ _
theorem sc_r_300 : (kernelRunV.sl.r_300 (F := Ideal) c M4 (h4.unread Y4)) = Y4 (ix2 14 4) := scal_read M4 h4 Y4 14 4 (by decide) (by decide) _ _
theorem sc_r_301 : (kernelRunV.sl.r_301 (F := Ideal) c M4 (h4.unread Y4)) = Y4 (ix2 15 4) := scal_read M4 h4 Y4 15 4 (by decide) (by decide) _ _
theorem sc_r_302 : (kernelRunV.sl.r_302 (F := Ideal) c M7 (h7.unread Y7)) = Y7 (ix2 0 4) := scal_read M7 h7 Y7 0 4 (by decide) (by decide) _ _
theorem sc_r_303 : (kernelRunV.sl.r_303 (F := Ideal) c M4 (h4.unread Y4)) = Y4 (ix2 0 5) := scal_read M4 h4 Y4 0 5 (by decide) (by decide) _ _
theorem sc_r_305 : (kernelRunV.sl.r_305 (F := Ideal) c M4 (h4.unread Y4)) = Y4 (ix2 1 5) := scal_read M4 h4 Y4 1 5 (by decide) (by decide) _ _
theorem sc_r_306 : (kernelRunV.sl.r_306 (F := Ideal) c M4 (h4.unread Y4)) = Y4 (ix2 2 5) := scal_read M4 h4 Y4 2 5 (by decide) (by decide) _ _
theorem sc_r_307 : (kernelRunV.sl.r_307 (F := Ideal) c M4 (h4.unread Y4)) = Y4 (ix2 3 5) := scal_read M4 h4 Y4 3 5 (by decide) (by decide) _ _
theorem sc_r_308 : (kernelRunV.sl.r_308 (F := Ideal) c M4 (h4.unread Y4)) = Y4 (ix2 4 5) := scal_read M4 h4 Y4 4 5 (by decide) (by decide) _ _
theorem sc_r_309 : (kernelRunV.sl.r_309 (F := Ideal) c M4 (h4.unread Y4)) = Y4 (ix2 5 5) := scal_read M4 h4 Y4 5 5 (by decide) (by decide) _ _
theorem sc_r_310 : (kernelRunV.sl.r_310 (F := Ideal) c M4 (h4.unread Y4)) = Y4 (ix2 6 5) := scal_read M4 h4 Y4 6 5 (by decide) (by decide) _ _
theorem sc_r_311 : (kernelRunV.sl.r_311 (F := Ideal) c M4 (h4.unread Y4)) = Y4 (ix2 7 5) := scal_read M4 h4 Y4 7 5 (by decide) (by decide) _ _
theorem sc_r_312 : (kernelRunV.sl.r_312 (F := Ideal) c M4 (h4.unread Y4)) = Y4 (ix2 8 5) := scal_read M4 h4 Y4 8 5 (by decide) (by decide) _ _
theorem sc_r_313 : (kernelRunV.sl.r_313 (F := Ideal) c M4 (h4.unread Y4)) = Y4 (ix2 9 5) := scal_read M4 h4 Y4 9 5 (by decide) (by decide) _ _
theorem sc_r_315 : (kernelRunV.sl.r_315 (F := Ideal) c M4 (h4.unread Y4)) = Y4 (ix2 10 5) := scal_read M4 h4 Y4 10 5 (by decide) (by decide) _ _
theorem sc_r_316 : (kernelRunV.sl.r_316 (F := Ideal) c M4 (h4.unread Y4)) = Y4 (ix2 11 5) := scal_read M4 h4 Y4 11 5 (by decide) (by decide) _ _
theorem sc_r_317 : (kernelRunV.sl.r_317 (F := Ideal) c M4 (h4.unread Y4)) = Y4 (ix2 12 5) := scal_read M4 h4 Y4 12 5 (by decide) (by decide) _ _
theorem sc_r_318 : (kernelRunV.sl.r_318 (F := Ideal) c M4 (h4.unread Y4)) = Y4 (ix2 13 5) := scal_read M4 h4 Y4 13 5 (by decide) (by decide) _ _
theorem sc_r_319 : (kernelRunV.sl.r_319 (F := Ideal) c M4 (h4.unread Y4)) = Y4 (ix2 14 5) := scal_read M4 h4 Y4 14 5 (by decide) (by decide) _ _
theorem sc_r_320 : (kernelRunV.sl.r_320 (F := Ideal) c M4 (h4.unread Y4)) = Y4 (ix2 15 5) := scal_read M4 h4 Y4 15 5 (by decide) (by decide) _ _
theorem sc_r_321 : (kernelRunV.sl.r_321 (F := Ideal) c M7 (h7.unread Y7)) = Y7 (ix2 0 5) := scal_read M7 h7 Y7 0 5 (by decide) (by decide) _ _
theorem sc_r_322 : (kernelRunV.sl.r_322 (F := Ideal) c M4 (h4.unread Y4)) = Y4 (ix2 0 6) := scal_read M4 h4 Y4 0 6 (by decide) (by decide) _ _
theorem sc_r_323 : (kernelRunV.sl.r_323 (F := Ideal) c M4 (h4.unread Y4)) = Y4 (ix2 1 6) := scal_read M4 h4 Y4 1 6 (by decide) (by decide) _ _
theorem sc_r_324 : (kernelRunV.sl.r_324 (F := Ideal) c M4 (h4.unread Y4)) = Y4 (ix2 2 6) := scal_read M4 h4 Y4 2 6 (by decide) (by decide) _ _
theorem sc_r_327 : (kernelRunV.sl.r_327 (F := Ideal) c M4 (h4.unread Y4)) = Y4 (ix2 3 6) := scal_read M4 h4 Y4 3 6 (by decide) (by decide) _ _
theorem sc_r_328 : (kernelRunV.sl.r_328 (F := Ideal) c M4 (h4.unread Y4)) = Y4 (ix2 4 6) := scal_read M4 h4 Y4 4 6 (by decide) (by decide) _ _
theorem sc_r_329 : (kernelRunV.sl.r_329 (F := Ideal) c M4 (h4.unread Y4)) = Y4 (ix2 5 6) := scal_read M4 h4 Y4 5 6 (by decide) (by decide) _ _
theorem sc_r_330 : (kernelRunV.sl.r_330 (F := Ideal) c M4 (h4.unread Y4)) = Y4 (ix2 6 6) := scal_read M4 h4 Y4 6 6 (by decide) (by decide) _ _
theorem sc_r_331 : (kernelRunV.sl.r_331 (F := Ideal) c M4 (h4.unread Y4)) = Y4 (ix2 7 6) := scal_read M4 h4 Y4 7 6 (by decide) (by decide) _ _
theorem sc_r_332 : (kernelRunV.sl.r_332 (F := Ideal) c M4 (h4.unread Y4)) = Y4 (ix2 8 6) := scal_read M4 h4 Y4 8 6 (by decide) (by decide) _ _
theorem sc_r_333 : (kernelRunV.sl.r_333 (F := Ideal) c M4 (h4.unread Y4)) = Y4 (ix2 9 6) := scal_read M4 h4 Y4 9 6 (by decide) (by decide) _ _
theorem sc_r_334 : (kernelRunV.sl.r_334 (F := Ideal) c M4 (h4.unread Y4)) = Y4 (ix2 10 6) := scal_read M4 h4 Y4 10 6 (by decide) (by decide) _ _
theorem sc_r_335 : (kernelRunV.sl.r_335 (F := Ideal) c M4 (h4.unread Y4)) = Y4 (ix2 11 6) := scal_read M4 h4 Y4 11 6 (by decide) (by decide) _ _
theorem sc_r_336 : (kernelRunV.sl.r_336 (F := Ideal) c M4 (h4.unread Y4)) = Y4 (ix2 12 6) := scal_read M4 h4 Y4 12 6 (by decide) (by decide) _ _
theorem sc_r_338 : (kernelRunV.sl.r_338 (F := Ideal) c M4 (h4.unread Y4)) = Y4 (ix2 13 6) := scal_read M4 h4 Y4 13 6 (by decide) (by decide) _ _
theorem sc_r_339 : (kernelRunV.sl.r_339 (F := Ideal) c M4 (h4.unread Y4)) = Y4 (ix2 14 6) := scal_read M4 h4 Y4 14 6 (by decide) (by decide) _ _
theorem sc_r_340 : (kernelRunV.sl.r_340 (F := Ideal) c M4 (h4.unread Y4)) = Y4 (ix2 15 6) := scal_read M4 h4 Y4 15 6 (by decide) (by decide) _ _
theorem sc_r_341 : (kernelRunV.sl.r_341 (F := Ideal) c M7 (h7.unread Y7)) = Y7 (ix2 0 6) := scal_read M7 h7 Y7 0 6 (by decide) (by decide) _ _
theorem sc_r_342 : (kernelRunV.sl.r_342 (F := Ideal) c M4 (h4.unread Y4)) = Y4 (ix2 0 7) := scal_read M4 h4 Y4 0 7 (by decide) (by decide) _ _
theorem sc_r_343 : (kernelRunV.sl.r_343 (F := Ideal) c M4 (h4.unread Y4)) = Y4 (ix2 1 7) := scal_read M4 h4 Y4 1 7 (by decide) (by decide) _ _
theorem sc_r_344 : (kernelRunV.sl.r_344 (F := Ideal) c M4 (h4.unread Y4)) = Y4 (ix2 2 7) := scal_read M4 h4 Y4 2 7 (by decide) (by decide) _ _
theorem sc_r_345 : (kernelRunV.sl.r_345 (F := Ideal) c M4 (h4.unread Y4)) = Y4 (ix2 3 7) := scal_read M4 h4 Y4 3 7 (by decide) (by decide) _ _
theorem sc_r_346 : (kernelRunV.sl.r_346 (F := Ideal) c M4 (h4.unread Y4)) = Y4 (ix2 4 7) := scal_read M4 h4 Y4 4 7 (by decide) (by decide) _ _
theorem sc_r_350 : (kernelRunV.sl.r_350 (F := Ideal) c M4 (h4.unread Y4)) = Y4 (ix2 5 7) := scal_read M4 h4 Y4 5 7 (by decide) (by decide) _ _
theorem sc_r_351 : (kernelRunV.sl.r_351 (F := Ideal) c M4 (h4.unread Y4)) = Y4 (ix2 6 7) := scal_read M4 h4 Y4 6 7 (by decide) (by decide) _ _
theorem sc_r_352 : (kernelRunV.sl.r_352 (F := Ideal) c M4 (h4.unread Y4)) = Y4 (ix2 7 7) := scal_read M4 h4 Y4 7 7 (by decide) (by decide) _ _
theorem sc_r_353 : (kernelRunV.sl.r_353 (F := Ideal) c M4 (h4.unread Y4)) = Y4 (ix2 8 7) := scal_read M4 h4 Y4 8 7 (by decide) (by decide) _ _
theorem sc_r_354 : (kernelRunV.sl.r_354 (F := Ideal) c M4 (h4.unread Y4)) = Y4 (ix2 9 7) := scal_read M4 h4 Y4 9 7 (by decide) (by decide) _ _
theorem sc_r_355 : (kernelRunV.sl.r_355 (F := Ideal) c M4 (h4.unread Y4)) = Y4 (ix2 10 7) := scal_read M4 h4 Y4 10 7 (by decide) (by decide) _ _
theorem sc_r_356 : (kernelRunV.sl.r_356 (F := Ideal) c M4 (h4.unread Y4)) = Y4 (ix2 11 7) := scal_read M4 h4 Y4 11 7 (by decide) (by decide) _ _
theorem sc_r_357 : (kernelRunV.sl.r_357 (F := Ideal) c M4 (h4.unread Y4)) = Y4 (ix2 12 7) := scal_read M4 h4 Y4 12 7 (by decide) (by decide) _ _
theorem sc_r_358 : (kernelRunV.sl.r_358 (F := Ideal) c M4 (h4.unread Y4)) = Y4 (ix2 13 7) := scal_read M4 h4 Y4 13 7 (by decide) (by decide) _ _
theorem sc_r_359 : (kernelRunV.sl.r_359 (F := Ideal) c M4 (h4.unread Y4)) = Y4 (ix2 14 7) := scal_read M4 h4 Y4 14 7 (by decide) (by decide) _ _
theorem sc_r_362 : (kernelRunV.sl.r_362 (F := Ideal) c M4 (h4.unread Y4)) = Y4 (ix2 15 7) := scal_read M4 h4 Y4 15 7 (by decide) (by decide) _ _
theorem sc_r_363 : (kernelRunV.sl.r_363 (F := Ideal) c M7 (h7.unread Y7)) = Y7 (ix2 0 7) := scal_read M7 h7 Y7 0 7 (by decide) (by decide) _ _
theorem sc_r_364 : (kernelRunV.sl.r_364 (F := Ideal) c M4 (h4.unread Y4)) = Y4 (ix2 0 8) := scal_read M4 h4 Y4 0 8 (by decide) (by decide) _ _
theorem sc_r_365 : (kernelRunV.sl.r_365 (F := Ideal) c M4 (h4.unread Y4)) = Y4 (ix2 1 8) := scal_read M4 h4 Y4 1 8 (by decide) (by decide) _ _
theorem sc_r_366 : (kernelRunV.sl.r_366 (F := Ideal) c M4 (h4.unread Y4)) = Y4 (ix2 2 8) := scal_read M4 h4 Y4 2 8 (by decide) (by decide) _ _
theorem sc_r_367 : (kernelRunV.sl.r_367 (F := Ideal) c M4 (h4.unread Y4)) = Y4 (ix2 3 8) := scal_read M4 h4 Y4 3 8 (by decide) (by decide) _ _
theorem sc_r_368 : (kernelRunV.sl.r_368 (F := Ideal) c M4 (h4.unread Y4)) = Y4 (ix2 4 8) := scal_read M4 h4 Y4 4 8 (by decide) (by decide) _ _
theorem sc_r_369 : (kernelRunV.sl.r_369 (F := Ideal) c M4 (h4.unread Y4)) = Y4 (ix2 5 8) := scal_read M4 h4 Y4 5 8 (by decide) (by decide) _ _
theorem sc_r_370 : (kernelRunV.sl.r_370 (F := Ideal) c M4 (h4.unread Y4)) = Y4 (ix2 6 8) := scal_read M4 h4 Y4 6 8 (by decide) (by decide) _ _
theorem sc_r_373 : (kernelRunV.sl.r_373 (F := Ideal) c M4 (h4.unread Y4)) = Y4 (ix2 7 8) := scal_read M4 h4 Y4 7 8 (by decide) (by decide) _ _
theorem sc_r_374 : (kernelRunV.sl.r_374 (F := Ideal) c M4 (h4.unread Y4)) = Y4 (ix2 8 8) := scal_read M4 h4 Y4 8 8 (by decide) (by decide) _ _
theorem sc_r_375 : (kernelRunV.sl.r_375 (F := Ideal) c M4 (h4.unread Y4)) = Y4 (ix2 9 8) := scal_read M4 h4 Y4 9 8 (by decide) (by decide) _ _
theorem sc_r_376 : (kernelRunV.sl.r_376 (F := Ideal) c M4 (h4.unread Y4)) = Y4 (ix2 10 8) := scal_read M4 h4 Y4 10 8 (by decide) (by decide) _ _
theorem sc_r_377 : (kernelRunV.sl.r_377 (F := Ideal) c M4 (h4.unread Y4)) = Y4 (ix2 11 8) := scal_read M4 h4 Y4 11 8 (by decide) (by decide) _ _
theorem sc_r_378 : (kernelRunV.sl.r_378 (F := Ideal) c M4 (h4.unread Y4)) = Y4 (ix2 12 8) := scal_read M4 h4 Y4 12 8 (by decide) (by decide) _ _
theorem sc_r_379 : (kernelRunV.sl.r_379 (F := Ideal) c M4 (h4.unread Y4)) = Y4 (ix2 13 8) := scal_read M4 h4 Y4 13 8 (by decide) (by decide) _ _
theorem sc_r_380 : (kernelRunV.sl.r_380 (F := Ideal) c M4 (h4.unread Y4)) = Y4 (ix2 14 8) := scal_read M4 h4 Y4 14 8 (by decide) (by decide) _ _
theorem sc_r_381 : (kernelRunV.sl.r_381 (F := Ideal) c M4 (h4.unread Y4)) = Y4 (ix2 15 8) := scal_read M4 h4 Y4 15 8 (by decide) (by decide) _ _
theorem sc_r_382 : (kernelRunV.sl.r_382 (F := Ideal) c M7 (h7.unread Y7)) = Y7 (ix2 0 8) := scal_read M7 h7 Y7 0 8 (by decide) (by decide) _ _
theorem sc_r_384 : (kernelRunV.sl.r_384 (F := Ideal) c M4 (h4.unread Y4)) = Y4 (ix2 0 9) := scal_read M4 h4 Y4 0 9 (by decide) (by decide) _ _
theorem sc_r_385 : (kernelRunV.sl.r_385 (F := Ideal) c M4 (h4.unread Y4)) = Y4 (ix2 1 9) := scal_read M4 h4 Y4 1 9 (by decide) (by decide) _ _
theorem sc_r_386 : (kernelRunV.sl.r_386 (F := Ideal) c M4 (h4.unread Y4)) = Y4 (ix2 2 9) := scal_read M4 h4 Y4 2 9 (by decide) (by decide) _ _
theorem sc_r_387 : (kernelRunV.sl.r_387 (F := Ideal) c M4 (h4.unread Y4)) = Y4 (ix2 3 9) := scal_read M4 h4 Y4 3 9 (by decide) (by decide) _ _
theorem sc_r_388 : (kernelRunV.sl.r_388 (F := Ideal) c M4 (h4.unread Y4)) = Y4 (ix2 4 9) := scal_read M4 h4 Y4 4 9 (by decide) (by decide) _ _
theorem sc_r_389 : (kernelRunV.sl.r_389 (F := Ideal) c M4 (h4.unread Y4)) = Y4 (ix2 5 9) := scal_read M4 h4 Y4 5 9 (by decide) (by decide) _ _
theorem sc_r_390 : (kernelRunV.sl.r_390 (F := Ideal) c M4 (h4.unread Y4)) = Y4 (ix2 6 9) := scal_read M4 h4 Y4 6 9 (by decide) (by decide) _ _
theorem sc_r_391 : (kernelRunV.sl.r_391 (F := Ideal) c M4 (h4.unread Y4)) = Y4 (ix2 7 9) := scal_read M4 h4 Y4 7 9 (by decide) (by decide) _ _
theorem sc_r_392 : (kernelRunV.sl.r_392 (F := Ideal) c M4 (h4.unread Y4)) = Y4 (ix2 8 9) := scal_read M4 h4 Y4 8 9 (by decide) (by decide) _ _
theorem sc_r_393 : (kernelRunV.sl.r_393 (F := Ideal) c M4 (h4.unread Y4)) = Y4 (ix2 9 9) := scal_read M4 h4 Y4 9 9 (by decide) (by decide) _ _
theorem sc_r_396 : (kernelRunV.sl.r_396 (F := Ideal) c M4 (h4.unread Y4)) = Y4 (ix2 10 9) := scal_read M4 h4 Y4 10 9 (by decide) (by decide) _ _
theorem sc_r_397 : (kernelRunV.sl.r_397 (F := Ideal) c M4 (h4.unread Y4)) = Y4 (ix2 11 9) := scal_read M4 h4 Y4 11 9 (by decide) (by decide) _ _
theorem sc_r_398 : (kernelRunV.sl.r_398 (F := Ideal) c M4 (h4.unread Y4)) = Y4 (ix2 12 9) := scal_read M4 h4 Y4 12 9 (by decide) (by decide) _ _
theorem sc_r_399 : (kernelRunV.sl.r_399 (F := Ideal) c M4 (h4.unread Y4)) = Y4 (ix2 13 9) := scal_read M4 h4 Y4 13 9 (by decide) (by decide) _ _
theorem sc_r_400 : (kernelRunV.sl.r_400 (F := Ideal) c M4 (h4.unread Y4)) = Y4 (ix2 14 9) := scal_read M4 h4 Y4 14 9 (by decide) (by decide) _ _
theorem sc_r_401 : (kernelRunV.sl.r_401 (F := Ideal) c M4 (h4.unread Y4)) = Y4 (ix2 15 9) := scal_read M4 h4 Y4 15 9 (by decide) (by decide) _ _
theorem sc_r_402 : (kernelRunV.sl.r_402 (F := Ideal) c M7 (h7.unread Y7)) = Y7 (ix2 0 9) := scal_read M7 h7 Y7 0 9 (by decide) (by decide) _ _
theorem sc_r_403 : (kernelRunV.sl.r_403 (F := Ideal) c M4 (h4.unread Y4)) = Y4 (ix2 0 10) := scal_read M4 h4 Y4 0 10 (by decide) (by decide) _ _
theorem sc_r_404 : (kernelRunV.sl.r_404 (F := Ideal) c M4 (h4.unread Y4)) = Y4 (ix2 1 10) := scal_read M4 h4 Y4 1 10 (by decide) (by decide) _ _
theorem sc_r_408 : (kernelRunV.sl.r_408 (F := Ideal) c M4 (h4.unread Y4)) = Y4 (ix2 2 10) := scal_read M4 h4 Y4 2 10 (by decide) (by decide) _ _
theorem sc_r_409 : (kernelRunV.sl.r_409 (F := Ideal) c M4 (h4.unread Y4)) = Y4 (ix2 3 10) := scal_read M4 h4 Y4 3 10 (by decide) (by decide) _ _
theorem sc_r_410 : (kernelRunV.sl.r_410 (F := Ideal) c M4 (h4.unread Y4)) = Y4 (ix2 4 10) := scal_read M4 h4 Y4 4 10 (by decide) (by decide) _ _
theorem sc_r_411 : (kernelRunV.sl.r_411 (F := Ideal) c M4 (h4.unread Y4)) = Y4 (ix2 5 10) := scal_read M4 h4 Y4 5 10 (by decide) (by decide) _ _
theorem sc_r_412 : (kernelRunV.sl.r_412 (F := Ideal) c M4 (h4.unread Y4)) = Y4 (ix2 6 10) := scal_read M4 h4 Y4 6 10 (by decide) (by decide) _ _
theorem sc_r_413 : (kernelRunV.sl.r_413 (F := Ideal) c M4 (h4.unread Y4)) = Y4 (ix2 7 10) := scal_read M4 h4 Y4 7 10 (by decide) (by decide) _ _
theorem sc_r_414 : (kernelRunV.sl.r_414 (F := Ideal) c M4 (h4.unread Y4)) = Y4 (ix2 8 10) := scal_read M4 h4 Y4 8 10 (by decide) (by decide) _ _
theorem sc_r_415 : (kernelRunV.sl.r_415 (F := Ideal) c M4 (h4.unread Y4)) = Y4 (ix2 9 10) := scal_read M4 h4 Y4 9 10 (by decide) (by decide) _ _
theorem sc_r_416 : (kernelRunV.sl.r_416 (F := Ideal) c M4 (h4.unread Y4)) = Y4 (ix2 10 10) := scal_read M4 h4 Y4 10 10 (by decide) (by decide) _ _
theorem sc_r_417 : (kernelRunV.sl.r_417 (F := Ideal) c M4 (h4.unread Y4)) = Y4 (ix2 11 10) := scal_read M4 h4 Y4 11 10 (by decide) (by decide) _ _
theorem sc_r_420 : (kernelRunV.sl.r_420 (F := Ideal) c M4 (h4.unread Y4)) = Y4 (ix2 12 10) := scal_read M4 h4 Y4 12 10 (by decide) (by decide) _ _
theorem sc_r_421 : (kernelRunV.sl.r_421 (F := Ideal) c M4 (h4.unread Y4)) = Y4 (ix2 13 10) := scal_read M4 h4 Y4 13 10 (by decide) (by decide) _ _
theorem sc_r_422 : (kernelRunV.sl.r_422 (F := Ideal) c M4 (h4.unread Y4)) = Y4 (ix2 14 10) := scal_read M4 h4 Y4 14 10 (by decide) (by decide) _ _
theorem sc_r_423 : (kernelRunV.sl.r_423 (F := Ideal) c M4 (h4.unread Y4)) = Y4 (ix2 15 10) := scal_read M4 h4 Y4 15 10 (by decide) (by decide) _ _
theorem sc_r_424 : (kernelRunV.sl.r_424 (F := Ideal) c M7 (h7.unread Y7)) = Y7 (ix2 0 10) := scal_read M7 h7 Y7 0 10 (by decide) (by decide) _ _
theorem sc_r_425 : (kernelRunV.sl.r_425 (F := Ideal) c M4 (h4.unread Y4)) = Y4 (ix2 0 11) := scal_read M4 h4 Y4 0 11 (by decide) (by decide) _ _
theorem sc_r_426 : (kernelRunV.sl.r_426 (F := Ideal) c M4 (h4.unread Y4)) = Y4 (ix2 1 11) := scal_read M4 h4 Y4 1 11 (by decide) (by decide) _ _
theorem sc_r_427 : (kernelRunV.sl.r_427 (F := Ideal) c M4 (h4.unread Y4)) = Y4 (ix2 2 11) := scal_read M4 h4 Y4 2 11 (by decide) (by decide) _ _
theorem sc_r_428 : (kernelRunV.sl.r_428 (F := Ideal) c M4 (h4.unread Y4)) = Y4 (ix2 3 11) := scal_read M4 h4 Y4 3 11 (by decide) (by decide) _ _
theorem sc_r_431 : (kernelRunV.sl.r_431 (F := Ideal) c M4 (h4.unread Y4)) = Y4 (ix2 4 11) := scal_read M4 h4 Y4 4 11 (by decide) (by decide) _ _
theorem sc_r_432 : (kernelRunV.sl.r_432 (F := Ideal) c M4 (h4.unread Y4)) = Y4 (ix2 5 11) := scal_read M4 h4 Y4 5 11 (by decide) (by decide) _ _
theorem sc_r_433 : (kernelRunV.sl.r_433 (F := Ideal) c M4 (h4.unread Y4)) = Y4 (ix2 6 11) := scal_read M4 h4 Y4 6 11 (by decide) (by decide) _ _
theorem sc_r_434 : (kernelRunV.sl.r_434 (F := Ideal) c M4 (h4.unread Y4)) = Y4 (ix2 7 11) := scal_read M4 h4 Y4 7 11 (by decide) (by decide) _ _
theorem sc_r_435 : (kernelRunV.sl.r_435 (F := Ideal) c M4 (h4.unread Y4)) = Y4 (ix2 8 11) := scal_read M4 h4 Y4 8 11 (by decide) (by decide) _ _
theorem sc_r_436 : (kernelRunV.sl.r_436 (F := Ideal) c M4 (h4.unread Y4)) = Y4 (ix2 9 11) := scal_read M4 h4 Y4 9 11 (by decide) (by decide) _ _
theorem sc_r_437 : (kernelRunV.sl.r_437 (F := Ideal) c M4 (h4.unread Y4)) = Y4 (ix2 10 11) := scal_read M4 h4 Y4 10 11 (by decide) (by decide) _ _
theorem sc_r_438 : (kernelRunV.sl.r_438 (F := Ideal) c M4 (h4.unread Y4)) = Y4 (ix2 11 11) := scal_read M4 h4 Y4 11 11 (by decide) (by decide) _ _
theorem sc_r_439 : (kernelRunV.sl.r_439 (F := Ideal) c M4 (h4.unread Y4)) = Y4 (ix2 12 11) := scal_read M4 h4 Y4 12 11 (by decide) (by decide) _ _
theorem sc_r_440 : (kernelRunV.sl.r_440 (F := Ideal) c M4 (h4.unread Y4)) = Y4 (ix2 13 11) := scal_read M4 h4 Y4 13 11 (by decide) (by decide) _ _
theorem sc_r_442 : (kernelRunV.sl.r_442 (F := Ideal) c M4 (h4.unread Y4)) = Y4 (ix2 14 11) := scal_read M4 h4 Y4 14 11 (by decide) (by decide) _ _
theorem sc_r_443 : (kernelRunV.sl.r_443 (F := Ideal) c M4 (h4.unread Y4)) = Y4 (ix2 15 11) := scal_read M4 h4 Y4 15 11 (by decide) (by decide) _ _
theorem sc_r_444 : (kernelRunV.sl.r_444 (F := Ideal) c M7 (h7.unread Y7)) = Y7 (ix2 0 11) := scal_read M7 h7 Y7 0 11 (by decide) (by decide) _ _
theorem sc_r_445 : (kernelRunV.sl.r_445 (F := Ideal) c M4 (h4.unread Y4)) = Y4 (ix2 0 12) := scal_read M4 h4 Y4 0 12 (by decide) (by decide) _ _
theorem sc_r_446 : (kernelRunV.sl.r_446 (F := Ideal) c M4 (h4.unread Y4)) = Y4 (ix2 1 12) := scal_read M4 h4 Y4 1 12 (by decide) (by decide) _ _
theorem sc_r_447 : (kernelRunV.sl.r_447 (F := Ideal) c M4 (h4.unread Y4)) = Y4 (ix2 2 12) := scal_read M4 h4 Y4 2 12 (by decide) (by decide) _ _
theorem sc_r_448 : (kernelRunV.sl.r_448 (F := Ideal) c M4 (h4.unread Y4)) = Y4 (ix2 3 12) := scal_read M4 h4 Y4 3 12 (by decide) (by decide) _ _
theorem sc_r_449 : (kernelRunV.sl.r_449 (F := Ideal) c M4 (h4.unread Y4)) = Y4 (ix2 4 12) := scal_read M4 h4 Y4 4 12 (by decide) (by decide) _ _
theorem sc_r_450 : (kernelRunV.sl.r_450 (F := Ideal) c M4 (h4.unread Y4)) = Y4 (ix2 5 12) := scal_read M4 h4 Y4 5 12 (by decide) (by decide) _ _
theorem sc_r_451 : (kernelRunV.sl.r_451 (F := Ideal) c M4 (h4.unread Y4)) = Y4 (ix2 6 12) := scal_read M4 h4 Y4 6 12 (by decide) (by decide) _ _
theorem sc_r_454 : (kernelRunV.sl.r_454 (F := Ideal) c M4 (h4.unread Y4)) = Y4 (ix2 7 12) := scal_read M4 h4 Y4 7 12 (by decide) (by decide) _ _
theorem sc_r_455 : (kernelRunV.sl.r_455 (F := Ideal) c M4 (h4.unread Y4)) = Y4 (ix2 8 12) := scal_read M4 h4 Y4 8 12 (by decide) (by decide) _ _
theorem sc_r_456 : (kernelRunV.sl.r_456 (F := Ideal) c M4 (h4.unread Y4)) = Y4 (ix2 9 12) := scal_read M4 h4 Y4 9 12 (by decide) (by decide) _ _
theorem sc_r_457 : (kernelRunV.sl.r_457 (F := Ideal) c M4 (h4.unread Y4)) = Y4 (ix2 10 12) := scal_read M4 h4 Y4 10 12 (by decide) (by decide) _ _
theorem sc_r_458 : (kernelRunV.sl.r_458 (F := Ideal) c M4 (h4.unread Y4)) = Y4 (ix2 11 12) := scal_read M4 h4 Y4 11 12 (by decide) (by decide) _ _
theorem sc_r_459 : (kernelRunV.sl.r_459 (F := Ideal) c M4 (h4.unread Y4)) = Y4 (ix2 12 12) := scal_read M4 h4 Y4 12 12 (by decide) (by decide) _ _
theorem sc_r_460 : (kernelRunV.sl.r_460 (F := Ideal) c M4 (h4.unread Y4)) = Y4 (ix2 13 12) := scal_read M4 h4 Y4 13 12 (by decide) (by decide) _ _
theorem sc_r_461 : (kernelRunV.sl.r_461 (F := Ideal) c M4 (h4.unread Y4)) = Y4 (ix2 14 12) := scal_read M4 h4 Y4 14 12 (by decide) (by decide) _ _
theorem sc_r_462 : (kernelRunV.sl.r_462 (F := Ideal) c M4 (h4.unread Y4)) = Y4 (ix2 15 12) := scal_read M4 h4 Y4 15 12 (by decide) (by decide) _ _
theorem sc_r_463 : (kernelRunV.sl.r_463 (F := Ideal) c M7 (h7.unread Y7)) = Y7 (ix2 0 12) := scal_read M7 h7 Y7 0 12 (by decide) (by decide) _ _
theorem sc_r_465 : (kernelRunV.sl.r_465 (F := Ideal) c M4 (h4.unread Y4)) = Y4 (ix2 0 13) := scal_read M4 h4 Y4 0 13 (by decide) (by decide) _ _
theorem sc_r_466 : (kernelRunV.sl.r_466 (F := Ideal) c M4 (h4.unread Y4)) = Y4 (ix2 1 13) := scal_read M4 h4 Y4 1 13 (by decide) (by decide) _ _
theorem sc_r_467 : (kernelRunV.sl.r_467 (F := Ideal) c M4 (h4.unread Y4)) = Y4 (ix2 2 13) := scal_read M4 h4 Y4 2 13 (by decide) (by decide) _ _
theorem sc_r_468 : (kernelRunV.sl.r_468 (F := Ideal) c M4 (h4.unread Y4)) = Y4 (ix2 3 13) := scal_read M4 h4 Y4 3 13 (by decide) (by decide) _ _
theorem sc_r_469 : (kernelRunV.sl.r_469 (F := Ideal) c M4 (h4.unread Y4)) = Y4 (ix2 4 13) := scal_read M4 h4 Y4 4 13 (by decide) (by decide) _ _
theorem sc_r_470 : (kernelRunV.sl.r_470 (F := Ideal) c M4 (h4.unread Y4)) = Y4 (ix2 5 13) := scal_read M4 h4 Y4 5 13 (by decide) (by decide) _ _
theorem sc_r_471 : (kernelRunV.sl.r_471 (F := Ideal) c M4 (h4.unread Y4)) = Y4 (ix2 6 13) := scal_read M4 h4 Y4 6 13 (by decide) (by decide) _ _
theorem sc_r_472 : (kernelRunV.sl.r_472 (F := Ideal) c M4 (h4.unread Y4)) = Y4 (ix2 7 13) := scal_read M4 h4 Y4 7 13 (by decide) (by decide) _ _
theorem sc_r_473 : (kernelRunV.sl.r_473 (F := Ideal) c M4 (h4.unread Y4)) = Y4 (ix2 8 13) := scal_read M4 h4 Y4 8 13 (by decide) (by decide) _ _
theorem sc_r_477 : (kernelRunV.sl.r_477 (F := Ideal) c M4 (h4.unread Y4)) = Y4 (ix2 9 13) := scal_read M4 h4 Y4 9 13 (by decide) (by decide) _ _
theorem sc_r_478 : (kernelRunV.sl.r_478 (F := Ideal) c M4 (h4.unread Y4)) = Y4 (ix2 10 13) := scal_read M4 h4 Y4 10 13 (by decide) (by decide) _ _
theorem sc_r_479 : (kernelRunV.sl.r_479 (F := Ideal) c M4 (h4.unread Y4)) = Y4 (ix2 11 13) := scal_read M4 h4 Y4 11 13 (by decide) (by decide) _ _
theorem sc_r_480 : (kernelRunV.sl.r_480 (F := Ideal) c M4 (h4.unread Y4)) = Y4 (ix2 12 13) := scal_read M4 h4 Y4 12 13 (by decide) (by decide) _ _
theorem sc_r_481 : (kernelRunV.sl.r_481 (F := Ideal) c M4 (h4.unread Y4)) = Y4 (ix2 13 13) := scal_read M4 h4 Y4 13 13 (by decide) (by decide) _ _
theorem sc_r_482 : (kernelRunV.sl.r_482 (F := Ideal) c M4 (h4.unread Y4)) = Y4 (ix2 14 13) := scal_read M4 h4 Y4 14 13 (by decide) (by decide) _ _
theorem sc_r_483 : (kernelRunV.sl.r_483 (F := Ideal) c M4 (h4.unread Y4)) = Y4 (ix2 15 13) := scal_read M4 h4 Y4 15 13 (by decide) (by decide) _ _
theorem sc_r_484 : (kernelRunV.sl.r_484 (F := Ideal) c M7 (h7.unread Y7)) = Y7 (ix2 0 13) := scal_read M7 h7 Y7 0 13 (by decide) (by decide) _ _
theorem sc_r_485 : (kernelRunV.sl.r_485 (F := Ideal) c M4 (h4.unread Y4)) = Y4 (ix2 0 14) := scal_read M4 h4 Y4 0 14 (by decide) (by decide) _ _
theorem sc_r_488 : (kernelRunV.sl.r_488 (F := Ideal) c M4 (h4.unread Y4)) = Y4 (ix2 1 14) := scal_read M4 h4 Y4 1 14 (by decide) (by decide) _ _
theorem sc_r_489 : (kernelRunV.sl.r_489 (F := Ideal) c M4 (h4.unread Y4)) = Y4 (ix2 2 14) := scal_read M4 h4 Y4 2 14 (by decide) (by decide) _ _
theorem sc_r_490 : (kernelRunV.sl.r_490 (F := Ideal) c M4 (h4.unread Y4)) = Y4 (ix2 3 14) := scal_read M4 h4 Y4 3 14 (by decide) (by decide) _ _
theorem sc_r_491 : (kernelRunV.sl.r_491 (F := Ideal) c M4 (h4.unread Y4)) = Y4 (ix2 4 14) := scal_read M4 h4 Y4 4 14 (by decide) (by decide) _ _
theorem sc_r_492 : (kernelRunV.sl.r_492 (F := Ideal) c M4 (h4.unread Y4)) = Y4 (ix2 5 14) := scal_read M4 h4 Y4 5 14 (by decide) (by decide) _ _
theorem sc_r_493 : (kernelRunV.sl.r_493 (F := Ideal) c M4 (h4.unread Y4)) = Y4 (ix2 6 14) := scal_read M4 h4 Y4 6 14 (by decide) (by decide) _ _
theorem sc_r_494 : (kernelRunV.sl.r_494 (F := Ideal) c M4 (h4.unread Y4)) = Y4 (ix2 7 14) := scal_read M4 h4 Y4 7 14 (by decide) (by decide) _ _
theorem sc_r_495 : (kernelRunV.sl.r_495 (F := Ideal) c M4 (h4.unread Y4)) = Y4 (ix2 8 14) := scal_read M4 h4 Y4 8 14 (by decide) (by decide) _ _
theorem sc_r_496 : (kernelRunV.sl.r_496 (F := Ideal) c M4 (h4.unread Y4)) = Y4 (ix2 9 14) := scal_read M4 h4 Y4 9 14 (by decide) (by decide) _ _
theorem sc_r_497 : (kernelRunV.sl.r_497 (F := Ideal) c M4 (h4.unread Y4)) = Y4 (ix2 10 14) := scal_read M4 h4 Y4 10 14 (by decide) (by decide) _ _
theorem sc_r_499 : (kernelRunV.sl.r_499 (F := Ideal) c M4 (h4.unread Y4)) = Y4 (ix2 11 14) := scal_read M4 h4 Y4 11 14 (by decide) (by decide) _ _
theorem sc_r_500 : (kernelRunV.sl.r_500 (F := Ideal) c M4 (h4.unread Y4)) = Y4 (ix2 12 14) := scal_read M4 h4 Y4 12 14 (by decide) (by decide) _ _
theorem sc_r_501 : (kernelRunV.sl.r_501 (F := Ideal) c M4 (h4.unread Y4)) = Y4 (ix2 13 14) := scal_read M4 h4 Y4 13 14 (by decide) (by decide) _ _
theorem sc_r_502 : (kernelRunV.sl.r_502 (F := Ideal) c M4 (h4.unread Y4)) = Y4 (ix2 14 14) := scal_read M4 h4 Y4 14 14 (by decide) (by decide) _ _
theorem sc_r_503 : (kernelRunV.sl.r_503 (F := Ideal) c M4 (h4.unread Y4)) = Y4 (ix2 15 14) := scal_read M4 h4 Y4 15 14 (by decide) (by decide) _ _
theorem sc_r_504 : (kernelRunV.sl.r_504 (F := Ideal) c M7 (h7.unread Y7)) = Y7 (ix2 0 14) := scal_read M7 h7 Y7 0 14 (by decide) (by decide) _ _
theorem sc_r_505 : (kernelRunV.sl.r_505 (F := Ideal) c M4 (h4.unread Y4)) = Y4 (ix2 0 15) := scal_read M4 h4 Y4 0 15 (by decide) (by decide) _ _
theorem sc_r_506 : (kernelRunV.sl.r_506 (F := Ideal) c M4 (h4.unread Y4)) = Y4 (ix2 1 15) := scal_read M4 h4 Y4 1 15 (by decide) (by decide) _ _
theorem sc_r_507 : (kernelRunV.sl.r_507 (F := Ideal) c M4 (h4.unread Y4)) = Y4 (ix2 2 15) := scal_read M4 h4 Y4 2 15 (by decide) (by decide) _ _
theorem sc_r_508 : (kernelRunV.sl.r_508 (F := Ideal) c M4 (h4.unread Y4)) = Y4 (ix2 3 15) := scal_read M4 h4 Y4 3 15 (by decide) (by decide) _ _
theorem sc_r_511 : (kernelRunV.sl.r_511 (F := Ideal) c M4 (h4.unread Y4)) = Y4 (ix2 4 15) := scal_read M4 h4 Y4 4 15 (by decide) (by decide) _ _
theorem sc_r_512 : (kernelRunV.sl.r_512 (F := Ideal) c M4 (h4.unread Y4)) = Y4 (ix2 5 15) := scal_read M4 h4 Y4 5 15 (by decide) (by decide) _ _
theorem sc_r_513 : (kernelRunV.sl.r_513 (F := Ideal) c M4 (h4.unread Y4)) = Y4 (ix2 6 15) := scal_read M4 h4 Y4 6 15 (by decide) (by decide) _ _
theorem sc_r_514 : (kernelRunV.sl.r_514 (F := Ideal) c M4 (h4.unread Y4)) = Y4 (ix2 7 15) := scal_read M4 h4 Y4 7 15 (by decide) (by decide) _ _
theorem sc_r_515 : (kernelRunV.sl.r_515 (F := Ideal) c M4 (h4.unread Y4)) = Y4 (ix2 8 15) := scal_read M4 h4 Y4 8 15 (by decide) (by decide) _ _
theorem sc_r_516 : (kernelRunV.sl.r_516 (F := Ideal) c M4 (h4.unread Y4)) = Y4 (ix2 9 15) := scal_read M4 h4 Y4 9 15 (by decide) (by decide) _ _
theorem sc_r_517 : (kernelRunV.sl.r_517 (F := Ideal) c M4 (h4.unread Y4)) = Y4 (ix2 10 15) := scal_read M4 h4 Y4 10 15 (by decide) (by decide) _ _
theorem sc_r_518 : (kernelRunV.sl.r_518 (F := Ideal) c M4 (h4.unread Y4)) = Y4 (ix2 11 15) := scal_read M4 h4 Y4 11 15 (by decide) (by decide) _ _
theorem sc_r_519 : (kernelRunV.sl.r_519 (F := Ideal) c M4 (h4.unread Y4)) = Y4 (ix2 12 15) := scal_read M4 h4 Y4 12 15 (by decide) (by decide) _ _
theorem sc_r_520 : (kernelRunV.sl.r_520 (F := Ideal) c M4 (h4.unread Y4)) = Y4 (ix2 13 15) := scal_read M4 h4 Y4 13 15 (by decide) (by decide) _ _
theorem sc_r_522 : (kernelRunV.sl.r_522 (F := Ideal) c M4 (h4.unread Y4)) = Y4 (ix2 14 15) := scal_read M4 h4 Y4 14 15 (by decide) (by decide) _ _
theorem sc_r_523 : (kernelRunV.sl.r_523 (F := Ideal) c M4 (h4.unread Y4)) = Y4 (ix2 15 15) := scal_read M4 h4 Y4 15 15 (by decide) (by decide) _ _
theorem sc_r_524 : (kernelRunV.sl.r_524 (F := Ideal) c M7 (h7.unread Y7)) = Y7 (ix2 0 15) := scal_read M7 h7 Y7 0 15 (by decide) (by decide) _ _
theorem sc_r_536 : (kernelRunV.sl.r_536 (F := Ideal) c M5 (h5.unread Y5)) = Y5 (ix2 0 0) := scal_read M5 h5 Y5 0 0 (by decide) (by decide) _ _
theorem sc_r_537 : (kernelRunV.sl.r_537 (F := Ideal) c M5 (h5.unread Y5)) = Y5 (ix2 1 0) := scal_read M5 h5 Y5 1 0 (by decide) (by decide) _ _
theorem sc_r_538 : (kernelRunV.sl.r_538 (F := Ideal) c M5 (h5.unread Y5)) = Y5 (ix2 2 0) := scal_read M5 h5 Y5 2 0 (by decide) (by decide) _ _
theorem sc_r_539 : (kernelRunV.sl.r_539 (F := Ideal) c M5 (h5.unread Y5)) = Y5 (ix2 3 0) := scal_read M5 h5 Y5 3 0 (by decide) (by decide) _ _
theorem sc_r_540 : (kernelRunV.sl.r_540 (F := Ideal) c M5 (h5.unread Y5)) = Y5 (ix2 4 0) := scal_read M5 h5 Y5 4 0 (by decide) (by decide) _ _
theorem sc_r_550 : (kernelRunV.sl.r_550 (F := Ideal) c M5 (h5.unread Y5)) = Y5 (ix2 5 0) := scal_read M5 h5 Y5 5 0 (by decide) (by decide) _ _
theorem sc_r_551 : (kernelRunV.sl.r_551 (F := Ideal) c M5 (h5.unread Y5)) = Y5 (ix2 6 0) := scal_read M5 h5 Y5 6 0 (by decide) (by decide) _ _
theorem sc_r_552 : (kernelRunV.sl.r_552 (F := Ideal) c M5 (h5.unread Y5)) = Y5 (ix2 7 0) := scal_read M5 h5 Y5 7 0 (by decide) (by decide) _ _
theorem sc_r_553 : (kernelRunV.sl.r_553 (F := Ideal) c M5 (h5.unread Y5)) = Y5 (ix2 8 0) := scal_read M5 h5 Y5 8 0 (by decide) (by decide) _ _
theorem sc_r_554 : (kernelRunV.sl.r_554 (F := Ideal) c M5 (h5.unread Y5)) = Y5 (ix2 9 0) := scal_read M5 h5 Y5 9 0 (by decide) (by decide) _ _
theorem sc_r_555 : (kernelRunV.sl.r_555 (F := Ideal) c M5 (h5.unread Y5)) = Y5 (ix2 10 0) := scal_read M5 h5 Y5 10 0 (by decide) (by decide) _ _
theorem sc_r_556 : (kernelRunV.sl.r_556 (F := Ideal) c M5 (h5.unread Y5)) = Y5 (ix2 11 0) := scal_read M5 h5 Y5 11 0 (by decide) (by decide) _ _
theorem sc_r_557 : (kernelRunV.sl.r_557 (F := Ideal) c M5 (h5.unread Y5)) = Y5 (ix2 12 0) := scal_read M5 h5 Y5 12 0 (by decide) (by decide) _ _
theorem sc_r_558 : (kernelRunV.sl.r_558 (F := Ideal) c M5 (h5.unread Y5)) = Y5 (ix2 13 0) := scal_read M5 h5 Y5 13 0 (by decide) (by decide) _ _
theorem sc_r_559 : (kernelRunV.sl.r_559 (F := Ideal) c M5 (h5.unread Y5)) = Y5 (ix2 14 0) := scal_read M5 h5 Y5 14 0 (by decide) (by decide) _ _
theorem sc_r_561 : (kernelRunV.sl.r_561 (F := Ideal) c M5 (h5.unread Y5)) = Y5 (ix2 15 0) := scal_read M5 h5 Y5 15 0 (by decide) (by decide) _ _
theorem sc_r_562 : (kernelRunV.sl.r_562 (F := Ideal) c M8 (h8.unread Y8)) = Y8 (ix2 0 0) := scal_read M8 h8 Y8 0 0 (by decide) (by decide) _ _
theorem sc_r_563 : (kernelRunV.sl.r_563 (F := Ideal) c M5 (h5.unread Y5)) = Y5 (ix2 0 1) := scal_read M5 h5 Y5 0 1 (by decide) (by decide) _ _
theorem sc_r_564 : (kernelRunV.sl.r_564 (F := Ideal) c M5 (h5.unread Y5)) = Y5 (ix2 1 1) := scal_read M5 h5 Y5 1 1 (by decide) (by decide) _ _
theorem sc_r_565 : (kernelRunV.sl.r_565 (F := Ideal) c M5 (h5.unread Y5)) = Y5 (ix2 2 1) := scal_read M5 h5 Y5 2 1 (by decide) (by decide) _ _
theorem sc_r_566 : (kernelRunV.sl.r_566 (F := Ideal) c M5 (h5.unread Y5)) = Y5 (ix2 3 1) := scal_read M5 h5 Y5 3 1 (by decide) (by decide) _ _
theorem sc_r_567 : (kernelRunV.sl.r_567 (F := Ideal) c M5 (h5.unread Y5)) = Y5 (ix2 4 1) := scal_read M5 h5 Y5 4 1 (by decide) (by decide) _ _
theorem sc_r_568 : (kernelRunV.sl.r_568 (F := Ideal) c M5 (h5.unread Y5)) = Y5 (ix2 5 1) := scal_read M5 h5 Y5 5 1 (by decide) (by decide) _ _
theorem sc_r_569 : (kernelRunV.sl.r_569 (F := Ideal) c M5 (h5.unread Y5)) = Y5 (ix2 6 1) := scal_read M5 h5 Y5 6 1 (by decide) (by decide) _ _
theorem sc_r_573 : (kernelRunV.sl.r_573 (F := Ideal) c M5 (h5.unread Y5)) = Y5 (ix2 7 1) := scal_read M5 h5 Y5 7 1 (by decide) (by decide) _ _
theorem sc_r_574 : (kernelRunV.sl.r_574 (F := Ideal) c M5 (h5.unread Y5)) = Y5 (ix2 8 1) := scal_read M5 h5 Y5 8 1 (by decide) (by decide) _ _
theorem sc_r_575 : (kernelRunV.sl.r_575 (F := Ideal) c M5 (h5.unread Y5)) = Y5 (ix2 9 1) := scal_read M5 h5 Y5 9 1 (by decide) (by decide) _ _
theorem sc_r_576 : (kernelRunV.sl.r_576 (F := Ideal) c M5 (h5.unread Y5)) = Y5 (ix2 10 1) := scal_read M5 h5 Y5 10 1 (by decide) (by decide) _ _
theorem sc_r_577 : (kernelRunV.sl.r_577 (F := Ideal) c M5 (h5.unread Y5)) = Y5 (ix2 11 1) := scal_read M5 h5 Y5 11 1 (by decide) (by decide) _ _
theorem sc_r_578 : (kernelRunV.sl.r_578 (F := Ideal) c M5 (h5.unread Y5)) = Y5 (ix2 12 1) := scal_read M5 h5 Y5 12 1 (by decide) (by decide) _ _
theorem sc_r_579 : (kernelRunV.sl.r_579 (F := Ideal) c M5 (h5.unread Y5)) = Y5 (ix2 13 1) := scal_read M5 h5 Y5 13 1 (by decide) (by decide) _ _
theorem sc_r_580 : (kernelRunV.sl.r_580 (F := Ideal) c M5 (h5.unread Y5)) = Y5 (ix2 14 1) := scal_read M5 h5 Y5 14 1 (by decide) (by decide) _ _
theorem sc_r_581 : (kernelRunV.sl.r_581 (F := Ideal) c M5 (h5.unread Y5)) = Y5 (ix2 15 1) := scal_read M5 h5 Y5 15 1 (by decide) (by decide) _ _
theorem sc_r_582 : (kernelRunV.sl.r_582 (F := Ideal) c M8 (h8.unread Y8)) = Y8 (ix2 0 1) := scal_read M8 h8 Y8 0 1 (by decide) (by decide) _ _
theorem sc_r_584 : (kernelRunV.sl.r_584 (F := Ideal) c M5 (h5.unread Y5)) = Y5 (ix2 0 2) := scal_read M5 h5 Y5 0 2 (by decide) (by decide) _ _
theorem sc_r_585 : (kernelRunV.sl.r_585 (F := Ideal) c M5 (h5.unread Y5)) = Y5 (ix2 1 2) := scal_read M5 h5 Y5 1 2 (by decide) (by decide) _ _
theorem sc_r_586 : (kernelRunV.sl.r_586 (F := Ideal) c M5 (h5.unread Y5)) = Y5 (ix2 2 2) := scal_read M5 h5 Y5 2 2 (by decide) (by decide) _ _
theorem sc_r_587 : (kernelRunV.sl.r_587 (F := Ideal) c M5 (h5.unread Y5)) = Y5 (ix2 3 2) := scal_read M5 h5 Y5 3 2 (by decide) (by decide) _ _
theorem sc_r_588 : (kernelRunV.sl.r_588 (F := Ideal) c M5 (h5.unread Y5)) = Y5 (ix2 4 2) := scal_read M5 h5 Y5 4 2 (by decide) (by decide) _ _
theorem sc_r_589 : (kernelRunV.sl.r_589 (F := Ideal) c M5 (h5.unread Y5)) = Y5 (ix2 5 2) := scal_read M5 h5 Y5 5 2 (by decide) (by decide) _ _
theorem sc_r_590 : (kernelRunV.sl.r_590 (F := Ideal) c M5 (h5.unread Y5)) = Y5 (ix2 6 2) := scal_read M5 h5 Y5 6 2 (by decide) (by decide) _ _
theorem sc_r_591 : (kernelRunV.sl.r_591 (F := Ideal) c M5 (h5.unread Y5)) = Y5 (ix2 7 2) := scal_read M5 h5 Y5 7 2 (by decide) (by decide) _ _
theorem sc_r_592 : (kernelRunV.sl.r_592 (F := Ideal) c M5 (h5.unread Y5)) = Y5 (ix2 8 2) := scal_read M5 h5 Y5 8 2 (by decide) (by decide) _ _
theorem sc_r_595 : (kernelRunV.sl.r_595 (F := Ideal) c M5 (h5.unread Y5)) = Y5 (ix2 9 2) := scal_read M5 h5 Y5 9 2 (by decide) (by decide) _ _
theorem sc_r_596 : (kernelRunV.sl.r_596 (F := Ideal) c M5 (h5.unread Y5)) = Y5 (ix2 10 2) := scal_read M5 h5 Y5 10 2 (by decide) (by decide) _ _
theorem sc_r_597 : (kernelRunV.sl.r_597 (F := Ideal) c M5 (h5.unread Y5)) = Y5 (ix2 11 2) := scal_read M5 h5 Y5 11 2 (by decide) (by decide) _ _
theorem sc_r_598 : (kernelRunV.sl.r_598 (F := Ideal) c M5 (h5.unread Y5)) = Y5 (ix2 12 2) := scal_read M5 h5 Y5 12 2 (by decide) (by decide) _ _
theorem sc_r_599 : (kernelRunV.sl.r_599 (F := Ideal) c M5 (h5.unread Y5)) = Y5 (ix2 13 2) := scal_read M5 h5 Y5 13 2 (by decide) (by decide) _ _
theorem sc_r_600 : (kernelRunV.sl.r_600 (F := Ideal) c M5 (h5.unread Y5)) = Y5 (ix2 14 2) := scal_read M5 h5 Y5 14 2 (by decide) (by decide) _ _
theorem sc_r_601 : (kernelRunV.sl.r_601 (F := Ideal) c M5 (h5.unread Y5)) = Y5 (ix2 15 2) := scal_read M5 h5 Y5 15 2 (by decide) (by decide) _ _
theorem sc_r_602 : (kernelRunV.sl.r_602 (F := Ideal) c M8 (h8.unread Y8)) = Y8 (ix2 0 2) := scal_read M8 h8 Y8 0 2 (by decide) (by decide) _ _
theorem sc_r_603 : (kernelRunV.sl.r_603 (F := Ideal) c M5 (h5.unread Y5)) = Y5 (ix2 0 3) := scal_read M5 h5 Y5 0 3 (by decide) (by decide) _ _
theorem sc_r_604 : (kernelRunV.sl.r_604 (F := Ideal) c M5 (h5.unread Y5)) = Y5 (ix2 1 3) := scal_read M5 h5 Y5 1 3 (by decide) (by decide) _ _
theorem sc_r_607 : (kernelRunV.sl.r_607 (F := Ideal) c M5 (h5.unread Y5)) = Y5 (ix2 2 3) := scal_read M5 h5 Y5 2 3 (by decide) (by decide) _ _
theorem sc_r_608 : (kernelRunV.sl.r_608 (F := Ideal) c M5 (h5.unread Y5)) = Y5 (ix2 3 3) := scal_read M5 h5 Y5 3 3 (by decide) (by decide) _ _
theorem sc_r_609 : (kernelRunV.sl.r_609 (F := Ideal) c M5 (h5.unread Y5)) = Y5 (ix2 4 3) := scal_read M5 h5 Y5 4 3 (by decide) (by decide) _ _
theorem sc_r_610 : (kernelRunV.sl.r_610 (F := Ideal) c M5 (h5.unread Y5)) = Y5 (ix2 5 3) := scal_read M5 h5 Y5 5 3 (by decide) (by decide) _ _
theorem sc_r_611 : (kernelRunV.sl.r_611 (F := Ideal) c M5 (h5.unread Y5)) = Y5 (ix2 6 3) := scal_read M5 h5 Y5 6 3 (by decide) (by decide) _ _
theorem sc_r_612 : (kernelRunV.sl.r_612 (F := Ideal) c M5 (h5.unread Y5)) = Y5 (ix2 7 3) := scal_read M5 h5 Y5 7 3 (by decide) (by decide) _ _
theorem sc_r_613 : (kernelRunV.sl.r_613 (F := Ideal) c M5 (h5.unread Y5)) = Y5 (ix2 8 3) := scal_read M5 h5 Y5 8 3 (by decide) (by decide) _ _
theorem sc_r_614 : (kernelRunV.sl.r_614 (F := Ideal) c M5 (h5.unread Y5)) = Y5 (ix2 9 3) := scal_read M5 h5 Y5 9 3 (by decide) (by decide) _ _
theorem sc_r_615 : (kernelRunV.sl.r_615 (F := Ideal) c M5 (h5.unread Y5)) = Y5 (ix2 10 3) := scal_read M5 h5 Y5 10 3 (by decide) (by decide) _ _
theorem sc_r_616 : (kernelRunV.sl.r_616 (F := Ideal) c M5 (h5.unread Y5)) = Y5 (ix2 11 3) := scal_read M5 h5 Y5 11 3 (by decide) (by decide) _ _
theorem sc_r_618 : (kernelRunV.sl.r_618 (F := Ideal) c M5 (h5.unread Y5)) = Y5 (ix2 12 3) := scal_read M5 h5 Y5 12 3 (by decide) (by decide) _ _
theorem sc_r_619 : (kernelRunV.sl.r_619 (F := Ideal) c M5 (h5.unread Y5)) = Y5 (ix2 13 3) := scal_read M5 h5 Y5 13 3 (by decide) (by decide) _ _
theorem sc_r_620 : (kernelRunV.sl.r_620 (F := Ideal) c M5 (h5.unread Y5)) = Y5 (ix2 14 3) := scal_read M5 h5 Y5 14 3 (by decide) (by decide) _ _
theorem sc_r_621 : (kernelRunV.sl.r_621 (F := Ideal) c M5 (h5.unread Y5)) = Y5 (ix2 15 3) := scal_read M5 h5 Y5 15 3 (by decide) (by decide) _ _
theorem sc_r_622 : (kernelRunV.sl.r_622 (F := Ideal) c M8 (h8.unread Y8)) = Y8 (ix2 0 3) := scal_read M8 h8 Y8 0 3 (by decide) (by decide) _ _
theorem sc_r_623 : (kernelRunV.sl.r_623 (F := Ideal) c M5 (h5.unread Y5)) = Y5 (ix2 0 4) := scal_read M5 h5 Y5 0 4 (by decide) (by decide) _ _
theorem sc_r_624 : (kernelRunV.sl.r_624 (F := Ideal) c M5 (h5.unread Y5)) = Y5 (ix2 1 4) := scal_read M5 h5 Y5 1 4 (by decide) (by decide) _ _
theorem sc_r_625 : (kernelRunV.sl.r_625 (F := Ideal) c M5 (h5.unread Y5)) = Y5 (ix2 2 4) := scal_read M5 h5 Y5 2 4 (by decide) (by decide) _ _
theorem sc_r_626 : (kernelRunV.sl.r_626 (F := Ideal) c M5 (h5.unread Y5)) = Y5 (ix2 3 4) := scal_read M5 h5 Y5 3 4 (by decide) (by decide) _ _
theorem sc_r_630 : (kernelRunV.sl.r_630 (F := Ideal) c M5 (h5.unread Y5)) = Y5 (ix2 4 4) := scal_read M5 h5 Y5 4 4 (by decide) (by decide) _ _
theorem sc_r_631 : (kernelRunV.sl.r_631 (F := Ideal) c M5 (h5.unread Y5)) = Y5 (ix2 5 4) := scal_read M5 h5 Y5 5 4 (by decide) (by decide) _ _
theorem sc_r_632 : (kernelRunV.sl.r_632 (F := Ideal) c M5 (h5.unread Y5)) = Y5 (ix2 6 4) := scal_read M5 h5 Y5 6 4 (by decide) (by decide) _ _
theorem sc_r_633 : (kernelRunV.sl.r_633 (F := Ideal) c M5 (h5.unread Y5)) = Y5 (ix2 7 4) := scal_read M5 h5 Y5 7 4 (by decide) (by decide) _ _
theorem sc_r_634 : (kernelRunV.sl.r_634 (F := Ideal) c M5 (h5.unread Y5)) = Y5 (ix2 8 4) := scal_read M5 h5 Y5 8 4 (by decide) (by decide) _ _
theorem sc_r_635 : (kernelRunV.sl.r_635 (F := Ideal) c M5 (h5.unread Y5)) = Y5 (ix2 9 4) := scal_read M5 h5 Y5 9 4 (by decide) (by decide) _ _
theorem sc_r_636 : (kernelRunV.sl.r_636 (F := Ideal) c M5 (h5.unread Y5)) = Y5 (ix2 10 4) := scal_read M5 h5 Y5 10 4 (by decide) (by decide) _ _
theorem sc_r_637 : (kernelRunV.sl.r_637 (F := Ideal) c M5 (h5.unread Y5)) = Y5 (ix2 11 4) := scal_read M5 h5 Y5 11 4 (by decide) (by decide) _ _
theorem sc_r_638 : (kernelRunV.sl.r_638 (F := Ideal) c M5 (h5.unread Y5)) = Y5 (ix2 12 4) := scal_read M5 h5 Y5 12 4 (by decide) (by decide) _ _
theorem sc_r_639 : (kernelRunV.sl.r_639 (F := Ideal) c M5 (h5.unread Y5)) = Y5 (ix2 13 4) := scal_read M5 h5 Y5 13 4 (by decide) (by decide) _ _
theorem sc_r_642 : (kernelRunV.sl.r_642 (F := Ideal) c M5 (h5.unread Y5)) = Y5 (ix2 14 4) := scal_read M5 h5 Y5 14 4 (by decide) (by decide) _ _
theorem sc_r_643 : (kernelRunV.sl.r_643 (F := Ideal) c M5 (h5.unread Y5)) = Y5 (ix2 15 4) := scal_read M5 h5 Y5 15 4 (by decide) (by decide) _ _
theorem sc_r_644 : (kernelRunV.sl.r_644 (F := Ideal) c M8 (h8.unread Y8)) = Y8 (ix2 0 4) := scal_read M8 h8 Y8 0 4 (by decide) (by decide) _ _
theorem sc_r_645 : (kernelRunV.sl.r_645 (F := Ideal) c M5 (h5.unread Y5)) = Y5 (ix2 0 5) := scal_read M5 h5 Y5 0 5 (by decide) (by decide) _ _
theorem sc_r_646 : (kernelRunV.sl.r_646 (F := Ideal) c M5 (h5.unread Y5)) = Y5 (ix2 1 5) := scal_read M5 h5 Y5 1 5 (by decide) (by decide) _ _
theorem sc_r_647 : (kernelRunV.sl.r_647 (F := Ideal) c M5 (h5.unread Y5)) = Y5 (ix2 2 5) := scal_read M5 h5 Y5 2 5 (by decide) (by decide) _ _
theorem sc_r_648 : (kernelRunV.sl.r_648 (F := Ideal) c M5 (h5.unread Y5)) = Y5 (ix2 3 5) := scal_read M5 h5 Y5 3 5 (by decide) (by decide) _ _
theorem sc_r_649 : (kernelRunV.sl.r_649 (F := Ideal) c M5 (h5.unread Y5)) = Y5 (ix2 4 5) := scal_read M5 h5 Y5 4 5 (by decide) (by decide) _ _
theorem sc_r_650 : (kernelRunV.sl.r_650 (F := Ideal) c M5 (h5.unread Y5)) = Y5 (ix2 5 5) := scal_read M5 h5 Y5 5 5 (by decide) (by decide) _ _
theorem sc_r_653 : (kernelRunV.sl.r_653 (F := Ideal) c M5 (h5.unread Y5)) = Y5 (ix2 6 5) := scal_read M5 h5 Y5 6 5 (by decide) (by decide) _ _
theorem sc_r_654 : (kernelRunV.sl.r_654 (F := Ideal) c M5 (h5.unread Y5)) = Y5 (ix2 7 5) := scal_read M5 h5 Y5 7 5 (by decide) (by decide) _ _
theorem sc_r_655 : (kernelRunV.sl.r_655 (F := Ideal) c M5 (h5.unread Y5)) = Y5 (ix2 8 5) := scal_read M5 h5 Y5 8 5 (by decide) (by decide) _ _
theorem sc_r_656 : (kernelRunV.sl.r_656 (F := Ideal) c M5 (h5.unread Y5)) = Y5 (ix2 9 5) := scal_read M5 h5 Y5 9 5 (by decide) (by decide) _ _
theorem sc_r_657 : (kernelRunV.sl.r_657 (F := Ideal) c M5 (h5.unread Y5)) = Y5 (ix2 10 5) := scal_read M5 h5 Y5 10 5 (by decide) (by decide) _ _
theorem sc_r_658 : (kernelRunV.sl.r_658 (F := Ideal) c M5 (h5.unread Y5)) = Y5 (ix2 11 5) := scal_read M5 h5 Y5 11 5 (by decide) (by decide) _ _
theorem sc_r_659 : (kernelRunV.sl.r_659 (F := Ideal) c M5 (h5.unread Y5)) = Y5 (ix2 12 5) := scal_read M5 h5 Y5 12 5 (by decide) (by decide) _ _
theorem sc_r_660 : (kernelRunV.sl.r_660 (F := Ideal) c M5 (h5.unread Y5)) = Y5 (ix2 13 5) := scal_read M5 h5 Y5 13 5 (by decide) (by decide) _ _
theorem sc_r_661 : (kernelRunV.sl.r_661 (F := Ideal) c M5 (h5.unread Y5)) = Y5 (ix2 14 5) := scal_read M5 h5 Y5 14 5 (by decide) (by decide) _ _
theorem sc_r_662 : (kernelRunV.sl.r_662 (F := Ideal) c M5 (h5.unread Y5)) = Y5 (ix2 15 5) := scal_read M5 h5 Y5 15 5 (by decide) (by decide) _ _
theorem sc_r_664 : (kernelRunV.sl.r_664 (F := Ideal) c M8 (h8.unread Y8)) = Y8 (ix2 0 5) := scal_read M8 h8 Y8 0 5 (by decide) (by decide) _ _
theorem sc_r_665 : (kernelRunV.sl.r_665 (F := Ideal) c M5 (h5.unread Y5)) = Y5 (ix2 0 6) := scal_read M5 h5 Y5 0 6 (by decide) (by decide) _ _
theorem sc_r_666 : (kernelRunV.sl.r_666 (F := Ideal) c M5 (h5.unread Y5)) = Y5 (ix2 1 6) := scal_read M5 h5 Y5 1 6 (by decide) (by decide) _ _
theorem sc_r_667 : (kernelRunV.sl.r_667 (F := Ideal) c M5 (h5.unread Y5)) = Y5 (ix2 2 6) := scal_read M5 h5 Y5 2 6 (by decide) (by decide) _ _
theorem sc_r_668 : (kernelRunV.sl.r_668 (F := Ideal) c M5 (h5.unread Y5)) = Y5 (ix2 3 6) := scal_read M5 h5 Y5 3 6 (by decide) (by decide) _ _
theorem sc_r_669 : (kernelRunV.sl.r_669 (F := Ideal) c M5 (h5.unread Y5)) = Y5 (ix2 4 6) := scal_read M5 h5 Y5 4 6 (by decide) (by decide) _ _
theorem sc_r_670 : (kernelRunV.sl.r_670 (F := Ideal) c M5 (h5.unread Y5)) = Y5 (ix2 5 6) := scal_read M5 h5 Y5 5 6 (by decide) (by decide) _ _
theorem sc_r_671 : (kernelRunV.sl.r_671 (F := Ideal) c M5 (h5.unread Y5)) = Y5 (ix2 6 6) := scal_read M5 h5 Y5 6 6 (by decide) (by decide) _ _
theorem sc_r_672 : (kernelRunV.sl.r_672 (F := Ideal) c M5 (h5.unread Y5)) = Y5 (ix2 7 6) := scal_read M5 h5 Y5 7 6 (by decide) (by decide) _ _
theorem sc_r_673 : (kernelRunV.sl.r_673 (F := Ideal) c M5 (h5.unread Y5)) = Y5 (ix2 8 6) := scal_read M5 h5 Y5 8 6 (by decide) (by decide) _ _
theorem sc_r_676 : (kernelRunV.sl.r_676 (F := Ideal) c M5 (h5.unread Y5)) = Y5 (ix2 9 6) := scal_read M5 h5 Y5 9 6 (by decide) (by decide) _ _
theorem sc_r_677 : (kernelRunV.sl.r_677 (F := Ideal) c M5 (h5.unread Y5)) = Y5 (ix2 10 6) := scal_read M5 h5 Y5 10 6 (by decide) (by decide) _ _
theorem sc_r_678 : (kernelRunV.sl.r_678 (F := Ideal) c M5 (h5.unread Y5)) = Y5 (ix2 11 6) := scal_read M5 h5 Y5 11 6 (by decide) (by decide) _ _
theorem sc_r_679 : (kernelRunV.sl.r_679 (F := Ideal) c M5 (h5.unread Y5)) = Y5 (ix2 12 6) := scal_read M5 h5 Y5 12 6 (by decide) (by decide) _ _
theorem sc_r_680 : (kernelRunV.sl.r_680 (F := Ideal) c M5 (h5.unread Y5)) = Y5 (ix2 13 6) := scal_read M5 h5 Y5 13 6 (by decide) (by decide) _ _
theorem sc_r_681 : (kernelRunV.sl.r_681 (F := Ideal) c M5 (h5.unread Y5)) = Y5 (ix2 14 6) := scal_read M5 h5 Y5 14 6 (by decide) (by decide) _ _
theorem sc_r_682 : (kernelRunV.sl.r_682 (F := Ideal) c M5 (h5.unread Y5)) = Y5 (ix2 15 6) := scal_read M5 h5 Y5 15 6 (by decide) (by decide) _ _
theorem sc_r_683 : (kernelRunV.sl.r_683 (F := Ideal) c M8 (h8.unread Y8)) = Y8 (ix2 0 6) := scal_read M8 h8 Y8 0 6 (by decide) (by decide) _ _
theorem sc_r_684 : (kernelRunV.sl.r_684 (F := Ideal) c M5 (h5.unread Y5)) = Y5 (ix2 0 7) := scal_read M5 h5 Y5 0 7 (by decide) (by decide) _ _
theorem sc_r_687 : (kernelRunV.sl.r_687 (F := Ideal) c M5 (h5.unread Y5)) = Y5 (ix2 1 7) := scal_read M5 h5 Y5 1 7 (by decide) (by decide) _ _
theorem sc_r_688 : (kernelRunV.sl.r_688 (F := Ideal) c M5 (h5.unread Y5)) = Y5 (ix2 2 7) := scal_read M5 h5 Y5 2 7 (by decide) (by decide) _ _
theorem sc_r_689 : (kernelRunV.sl.r_689 (F := Ideal) c M5 (h5.unread Y5)) = Y5 (ix2 3 7) := scal_read M5 h5 Y5 3 7 (by decide) (by decide) _ _
theorem sc_r_690 : (kernelRunV.sl.r_690 (F := Ideal) c M5 (h5.unread Y5)) = Y5 (ix2 4 7) := scal_read M5 h5 Y5 4 7 (by decide) (by decide) _ _
theorem sc_r_691 : (kernelRunV.sl.r_691 (F := Ideal) c M5 (h5.unread Y5)) = Y5 (ix2 5 7) := scal_read M5 h5 Y5 5 7 (by decide) (by decide) _ _
theorem sc_r_692 : (kernelRunV.sl.r_692 (F := Ideal) c M5 (h5.unread Y5)) = Y5 (ix2 6 7) := scal_read M5 h5 Y5 6 7 (by decide) (by decide) _ _
theorem sc_r_693 : (kernelRunV.sl.r_693 (F := Ideal) c M5 (h5.unread Y5)) = Y5 (ix2 7 7) := scal_read M5 h5 Y5 7 7 (by decide) (by decide) _ _
theorem sc_r_694 : (kernelRunV.sl.r_694 (F := Ideal) c M5 (h5.unread Y5)) = Y5 (ix2 8 7) := scal_read M5 h5 Y5 8 7 (by decide) (by decide) _ _
theorem sc_r_695 : (kernelRunV.sl.r_695 (F := Ideal) c M5 (h5.unread Y5)) = Y5 (ix2 9 7) := scal_read M5 h5 Y5 9 7 (by decide) (by decide) _ _
theorem sc_r_696 : (kernelRunV.sl.r_696 (F := Ideal) c M5 (h5.unread Y5)) = Y5 (ix2 10 7) := scal_read M5 h5 Y5 10 7 (by decide) (by decide) _ _
theorem sc_r_699 : (kernelRunV.sl.r_699 (F := Ideal) c M5 (h5.unread Y5)) = Y5 (ix2 11 7) := scal_read M5 h5 Y5 11 7 (by decide) (by decide) _ _
theorem sc_r_700 : (kernelRunV.sl.r_700 (F := Ideal) c M5 (h5.unread Y5)) = Y5 (ix2 12 7) := scal_read M5 h5 Y5 12 7 (by decide) (by decide) _ _
theorem sc_r_701 : (kernelRunV.sl.r_701 (F := Ideal) c M5 (h5.unread Y5)) = Y5 (ix2 13 7) := scal_read M5 h5 Y5 13 7 (by decide) (by decide) _ _
theorem sc_r_702 : (kernelRunV.sl.r_702 (F := Ideal) c M5 (h5.unread Y5)) = Y5 (ix2 14 7) := scal_read M5 h5 Y5 14 7 (by decide) (by decide) _ _
theorem sc_r_703 : (kernelRunV.sl.r_703 (F := Ideal) c M5 (h5.unread Y5)) = Y5 (ix2 15 7) := scal_read M5 h5 Y5 15 7 (by decide) (by decide) _ _
theorem sc_r_704 : (kernelRunV.sl.r_704 (F := Ideal) c M8 (h8.unread Y8)) = Y8 (ix2 0 7) := scal_read M8 h8 Y8 0 7 (by decide) (by decide) _ _
theorem sc_r_705 : (kernelRunV.sl.r_705 (F := Ideal) c M5 (h5.unread Y5)) = Y5 (ix2 0 8) := scal_read M5 h5 Y5 0 8 (by decide) (by decide) _ _
theorem sc_r_706 : (kernelRunV.sl.r_706 (F := Ideal) c M5 (h5.unread Y5)) = Y5 (ix2 1 8) := scal_read M5 h5 Y5 1 8 (by decide) (by decide) _ _
theorem sc_r_707 : (kernelRunV.sl.r_707 (F := Ideal) c M5 (h5.unread Y5)) = Y5 (ix2 2 8) := scal_read M5 h5 Y5 2 8 (by decide) (by decide) _ _
theorem sc_r_710 : (kernelRunV.sl.r_710 (F := Ideal) c M5 (h5.unread Y5)) = Y5 (ix2 3 8) := scal_read M5 h5 Y5 3 8 (by decide) (by decide) _ _
theorem sc_r_711 : (kernelRunV.sl.r_711 (F := Ideal) c M5 (h5.unread Y5)) = Y5 (ix2 4 8) := scal_read M5 h5 Y5 4 8 (by decide) (by decide) _ _
theorem sc_r_712 : (kernelRunV.sl.r_712 (F := Ideal) c M5 (h5.unread Y5)) = Y5 (ix2 5 8) := scal_read M5 h5 Y5 5 8 (by decide) (by decide) _ _
theorem sc_r_713 : (kernelRunV.sl.r_713 (F := Ideal) c M5 (h5.unread Y5)) = Y5 (ix2 6 8) := scal_read M5 h5 Y5 6 8 (by decide) (by decide) _ _
theorem sc_r_714 : (kernelRunV.sl.r_714 (F := Ideal) c M5 (h5.unread Y5)) = Y5 (ix2 7 8) := scal_read M5 h5 Y5 7 8 (by decide) (by decide) _ _
theorem sc_r_715 : (kernelRunV.sl.r_715 (F := Ideal) c M5 (h5.unread Y5)) = Y5 (ix2 8 8) := scal_read M5 h5 Y5 8 8 (by decide) (by decide) _ _
theorem sc_r_716 : (kernelRunV.sl.r_716 (F := Ideal) c M5 (h5.unread Y5)) = Y5 (ix2 9 8) := scal_read M5 h5 Y5 9 8 (by decide) (by decide) _ _
theorem sc_r_717 : (kernelRunV.sl.r_717 (F := Ideal) c M5 (h5.unread Y5)) = Y5 (ix2 10 8) := scal_read M5 h5 Y5 10 8 (by decide) (by decide) _ _
theorem sc_r_718 : (kernelRunV.sl.r_718 (F := Ideal) c M5 (h5.unread Y5)) = Y5 (ix2 11 8) := scal_read M5 h5 Y5 11 8 (by decide) (by decide) _ _
theorem sc_r_719 : (kernelRunV.sl.r_719 (F := Ideal) c M5 (h5.unread Y5)) = Y5 (ix2 12 8) := scal_read M5 h5 Y5 12 8 (by decide) (by decide) _ _
theorem sc_r_721 : (kernelRunV.sl.r_721 (F := Ideal) c M5 (h5.unread Y5)) = Y5 (ix2 13 8) := scal_read M5 h5 Y5 13 8 (by decide) (by decide) _ _
theorem sc_r_722 : (kernelRunV.sl.r_722 (F := Ideal) c M5 (h5.unread Y5)) = Y5 (ix2 14 8) := scal_read M5 h5 Y5 14 8 (by decide) (by decide) _ _
theorem sc_r_723 : (kernelRunV.sl.r_723 (F := Ideal) c M5 (h5.unread Y5)) = Y5 (ix2 15 8) := scal_read M5 h5 Y5 15 8 (by decide) (by decide) _ _
theorem sc_r_724 : (kernelRunV.sl.r_724 (F := Ideal) c M8 (h8.unread Y8)) = Y8 (ix2 0 8) := scal_read M8 h8 Y8 0 8 (by decide) (by decide) _ _
theorem sc_r_725 : (kernelRunV.sl.r_725 (F := Ideal) c M5 (h5.unread Y5)) = Y5 (ix2 0 9) := scal_read M5 h5 Y5 0 9 (by decide) (by decide) _ _
theorem sc_r_726 : (kernelRunV.sl.r_726 (F := Ideal) c M5 (h5.unread Y5)) = Y5 (ix2 1 9) := scal_read M5 h5 Y5 1 9 (by decide) (by decide) _ _
theorem sc_r_727 : (kernelRunV.sl.r_727 (F := Ideal) c M5 (h5.unread Y5)) = Y5 (ix2 2 9) := scal_read M5 h5 Y5 2 9 (by decide) (by decide) _ _
theorem sc_r_728 : (kernelRunV.sl.r_728 (F := Ideal) c M5 (h5.unread Y5)) = Y5 (ix2 3 9) := scal_read M5 h5 Y5 3 9 (by decide) (by decide) _ _
theorem sc_r_729 : (kernelRunV.sl.r_729 (F := Ideal) c M5 (h5.unread Y5)) = Y5 (ix2 4 9) := scal_read M5 h5 Y5 4 9 (by decide) (by decide) _ _
theorem sc_r_730 : (kernelRunV.sl.r_730 (F := Ideal) c M5 (h5.unread Y5)) = Y5 (ix2 5 9) := scal_read M5 h5 Y5 5 9 (by decide) (by decide) _ _
theorem sc_r_733 : (kernelRunV.sl.r_733 (F := Ideal) c M5 (h5.unread Y5)) = Y5 (ix2 6 9) := scal_read M5 h5 Y5 6 9 (by decide) (by decide) _ _
theorem sc_r_734 : (kernelRunV.sl.r_734 (F := Ideal) c M5 (h5.unread Y5)) = Y5 (ix2 7 9) := scal_read M5 h5 Y5 7 9 (by decide) (by decide) _ _
theorem sc_r_735 : (kernelRunV.sl.r_735 (F := Ideal) c M5 (h5.unread Y5)) = Y5 (ix2 8 9) := scal_read M5 h5 Y5 8 9 (by decide) (by decide) _ _
theorem sc_r_736 : (kernelRunV.sl.r_736 (F := Ideal) c M5 (h5.unread Y5)) = Y5 (ix2 9 9) := scal_read M5 h5 Y5 9 9 (by decide) (by decide) _ _
theorem sc_r_737 : (kernelRunV.sl.r_737 (F := Ideal) c M5 (h5.unread Y5)) = Y5 (ix2 10 9) := scal_read M5 h5 Y5 10 9 (by decide) (by decide) _ _
theorem sc_r_738 : (kernelRunV.sl.r_738 (F := Ideal) c M5 (h5.unread Y5)) = Y5 (ix2 11 9) := scal_read M5 h5 Y5 11 9 (by decide) (by decide) _ _
theorem sc_r_739 : (kernelRunV.sl.r_739 (F := Ideal) c M5 (h5.unread Y5)) = Y5 (ix2 12 9) := scal_read M5 h5 Y5 12 9 (by decide) (by decide) _ _
theorem sc_r_740 : (kernelRunV.sl.r_740 (F := Ideal) c M5 (h5.unread Y5)) = Y5 (ix2 13 9) := scal_read M5 h5 Y5 13 9 (by decide) (by decide) _ _
theorem sc_r_741 : (kernelRunV.sl.r_741 (F := Ideal) c M5 (h5.unread Y5)) = Y5 (ix2 14 9) := scal_read M5 h5 Y5 14 9 (by decide) (by decide) _ _
theorem sc_r_742 : (kernelRunV.sl.r_742 (F := Ideal) c M5 (h5.unread Y5)) = Y5 (ix2 15 9) := scal_read M5 h5 Y5 15 9 (by decide) (by decide) _ _
theorem sc_r_744 : (kernelRunV.sl.r_744 (F := Ideal) c M8 (h8.unread Y8)) = Y8 (ix2 0 9) := scal_read M8 h8 Y8 0 9 (by decide) (by decide) _ _
theorem sc_r_745 : (kernelRunV.sl.r_745 (F := Ideal) c M5 (h5.unread Y5)) = Y5 (ix2 0 10) := scal_read M5 h5 Y5 0 10 (by decide) (by decide) _ _
theorem sc_r_746 : (kernelRunV.sl.r_746 (F := Ideal) c M5 (h5.unread Y5)) = Y5 (ix2 1 10) := scal_read M5 h5 Y5 1 10 (by decide) (by decide) _ _
theorem sc_r_747 : (kernelRunV.sl.r_747 (F := Ideal) c M5 (h5.unread Y5)) = Y5 (ix2 2 10) := scal_read M5 h5 Y5 2 10 (by decide) (by decide) _ _
theorem sc_r_748 : (kernelRunV.sl.r_748 (F := Ideal) c M5 (h5.unread Y5)) = Y5 (ix2 3 10) := scal_read M5 h5 Y5 3 10 (by decide) (by decide) _ _
theorem sc_r_749 : (kernelRunV.sl.r_749 (F := Ideal) c M5 (h5.unread Y5)) = Y5 (ix2 4 10) := scal_read M5 h5 Y5 4 10 (by decide) (by decide) _ _
theorem sc_r_750 : (kernelRunV.sl.r_750 (F := Ideal) c M5 (h5.unread Y5)) = Y5 (ix2 5 10) := scal_read M5 h5 Y5 5 10 (by decide) (by decide) _ _
theorem sc_r_751 : (kernelRunV.sl.r_751 (F := Ideal) c M5 (h5.unread Y5)) = Y5 (ix2 6 10) := scal_read M5 h5 Y5 6 10 (by decide) (by decide) _ _
theorem sc_r_752 : (kernelRunV.sl.r_752 (F := Ideal) c M5 (h5.unread Y5)) = Y5 (ix2 7 10) := scal_read M5 h5 Y5 7 10 (by decide) (by decide) _ _
theorem sc_r_756 : (kernelRunV.sl.r_756 (F := Ideal) c M5 (h5.unread Y5)) = Y5 (ix2 8 10) := scal_read M5 h5 Y5 8 10 (by decide) (by decide) _ _
theorem sc_r_757 : (kernelRunV.sl.r_757 (F := Ideal) c M5 (h5.unread Y5)) = Y5 (ix2 9 10) := scal_read M5 h5 Y5 9 10 (by decide) (by decide) _ _
theorem sc_r_758 : (kernelRunV.sl.r_758 (F := Ideal) c M5 (h5.unread Y5)) = Y5 (ix2 10 10) := scal_read M5 h5 Y5 10 10 (by decide) (by decide) _ _
theorem sc_r_759 : (kernelRunV.sl.r_759 (F := Ideal) c M5 (h5.unread Y5)) = Y5 (ix2 11 10) := scal_read M5 h5 Y5 11 10 (by decide) (by decide) _ _
theorem sc_r_760 : (kernelRunV.sl.r_760 (F := Ideal) c M5 (h5.unread Y5)) = Y5 (ix2 12 10) := scal_read M5 h5 Y5 12 10 (by decide) (by decide) _ _
theorem sc_r_761 : (kernelRunV.sl.r_761 (F := Ideal) c M5 (h5.unread Y5)) = Y5 (ix2 13 10) := scal_read M5 h5 Y5 13 10 (by decide) (by decide) _ _
theorem sc_r_762 : (kernelRunV.sl.r_762 (F := Ideal) c M5 (h5.unread Y5)) = Y5 (ix2 14 10) := scal_read M5 h5 Y5 14 10 (by decide) (by decide) _ _
theorem sc_r_763 : (kernelRunV.sl.r_763 (F := Ideal) c M5 (h5.unread Y5)) = Y5 (ix2 15 10) := scal_read M5 h5 Y5 15 10 (by decide) (by decide) _ _
theorem sc_r_764 : (kernelRunV.sl.r_764 (F := Ideal) c M8 (h8.unread Y8)) = Y8 (ix2 0 10) := scal_read M8 h8 Y8 0 10 (by decide) (by decide) _ _
theorem sc_r_765 : (kernelRunV.sl.r_765 (F := Ideal) c M5 (h5.unread Y5)) = Y5 (ix2 0 11) := scal_read M5 h5 Y5 0 11 (by decide) (by decide) _ _
theorem sc_r_767 : (kernelRunV.sl.r_767 (F := Ideal) c M5 (h5.unread Y5)) = Y5 (ix2 1 11) := scal_read M5 h5 Y5 1 11 (by decide) (by decide) _ _
theorem sc_r_768 : (kernelRunV.sl.r_768 (F := Ideal) c M5 (h5.unread Y5)) = Y5 (ix2 2 11) := scal_read M5 h5 Y5 2 11 (by decide) (by decide) _ _
theorem sc_r_769 : (kernelRunV.sl.r_769 (F := Ideal) c M5 (h5.unread Y5)) = Y5 (ix2 3 11) := scal_read M5 h5 Y5 3 11 (by decide) (by decide) _ _
theorem sc_r_770 : (kernelRunV.sl.r_770 (F := Ideal) c M5 (h5.unread Y5)) = Y5 (ix2 4 11) := scal_read M5 h5 Y5 4 11 (by decide) (by decide) _ _
theorem sc_r_771 : (kernelRunV.sl.r_771 (F := Ideal) c M5 (h5.unread Y5)) = Y5 (ix2 5 11) := scal_read M5 h5 Y5 5 11 (by decide) (by decide) _ _
theorem sc_r_772 : (kernelRunV.sl.r_772 (F := Ideal) c M5 (h5.unread Y5)) = Y5 (ix2 6 11) := scal_read M5 h5 Y5 6 11 (by decide) (by decide) _ _
theorem sc_r_773 : (kernelRunV.sl.r_773 (F := Ideal) c M5 (h5.unread Y5)) = Y5 (ix2 7 11) := scal_read M5 h5 Y5 7 11 (by decide) (by decide) _ _
theorem sc_r_774 : (kernelRunV.sl.r_774 (F := Ideal) c M5 (h5.unread Y5)) = Y5 (ix2 8 11) := scal_read M5 h5 Y5 8 11 (by decide) (by decide) _ _
theorem sc_r_775 : (kernelRunV.sl.r_775 (F := Ideal) c M5 (h5.unread Y5)) = Y5 (ix2 9 11) := scal_read M5 h5 Y5 9 11 (by decide) (by decide) _ _
theorem sc_r_777 : (kernelRunV.sl.r_777 (F := Ideal) c M5 (h5.unread Y5)) = Y5 (ix2 10 11) := scal_read M5 h5 Y5 10 11 (by decide) (by decide) _ _
theorem sc_r_778 : (kernelRunV.sl.r_778 (F := Ideal) c M5 (h5.unread Y5)) = Y5 (ix2 11 11) := scal_read M5 h5 Y5 11 11 (by decide) (by decide) _ _
theorem sc_r_779 : (kernelRunV.sl.r_779 (F := Ideal) c M5 (h5.unread Y5)) = Y5 (ix2 12 11) := scal_read M5 h5 Y5 12 11 (by decide) (by decide) _ _
theorem sc_r_780 : (kernelRunV.sl.r_780 (F := Ideal) c M5 (h5.unread Y5)) = Y5 (ix2 13 11) := scal_read M5 h5 Y5 13 11 (by decide) (by decide) _ _
theorem sc_r_781 : (kernelRunV.sl.r_781 (F := Ideal) c M5 (h5.unread Y5)) = Y5 (ix2 14 11) := scal_read M5 h5 Y5 14 11 (by decide) (by decide) _ _
theorem sc_r_782 : (kernelRunV.sl.r_782 (F := Ideal) c M5 (h5.unread Y5)) = Y5 (ix2 15 11) := scal_read M5 h5 Y5 15 11 (by decide) (by decide) _ _
theorem sc_r_783 : (kernelRunV.sl.r_783 (F := Ideal) c M8 (h8.unread Y8)) = Y8 (ix2 0 11) := scal_read M8 h8 Y8 0 11 (by decide) (by decide) _ _
theorem sc_r_784 : (kernelRunV.sl.r_784 (F := Ideal) c M5 (h5.unread Y5)) = Y5 (ix2 0 12) := scal_read M5 h5 Y5 0 12 (by decide) (by decide) _ _
theorem sc_r_785 : (kernelRunV.sl.r_785 (F := Ideal) c M5 (h5.unread Y5)) = Y5 (ix2 1 12) := scal_read M5 h5 Y5 1 12 (by decide) (by decide) _ _
theorem sc_r_786 : (kernelRunV.sl.r_786 (F := Ideal) c M5 (h5.unread Y5)) = Y5 (ix2 2 12) := scal_read M5 h5 Y5 2 12 (by decide) (by decide) _ _
theorem sc_r_789 : (kernelRunV.sl.r_789 (F := Ideal) c M5 (h5.unread Y5)) = Y5 (ix2 3 12) := scal_read M5 h5 Y5 3 12 (by decide) (by decide) _ _
theorem sc_r_790 : (kernelRunV.sl.r_790 (F := Ideal) c M5 (h5.unread Y5)) = Y5 (ix2 4 12) := scal_read M5 h5 Y5 4 12 (by decide) (by decide) _ _
theorem sc_r_791 : (kernelRunV.sl.r_791 (F := Ideal) c M5 (h5.unread Y5)) = Y5 (ix2 5 12) := scal_read M5 h5 Y5 5 12 (by decide) (by decide) _ _
theorem sc_r_792 : (kernelRunV.sl.r_792 (F := Ideal) c M5 (h5.unread Y5)) = Y5 (ix2 6 12) := scal_read M5 h5 Y5 6 12 (by decide) (by decide) _ _
theorem sc_r_793 : (kernelRunV.sl.r_793 (F := Ideal) c M5 (h5.unread Y5)) = Y5 (ix2 7 12) := scal_read M5 h5 Y5 7 12 (by decide) (by decide) _ _
theorem sc_r_794 : (kernelRunV.sl.r_794 (F := Ideal) c M5 (h5.unread Y5)) = Y5 (ix2 8 12) := scal_read M5 h5 Y5 8 12 (by decide) (by decide) _ _
theorem sc_r_795 : (kernelRunV.sl.r_795 (F := Ideal) c M5 (h5.unread Y5)) = Y5 (ix2 9 12) := scal_read M5 h5 Y5 9 12 (by decide) (by decide) _ _
theorem sc_r_796 : (kernelRunV.sl.r_796 (F := Ideal) c M5 (h5.unread Y5)) = Y5 (ix2 10 12) := scal_read M5 h5 Y5 10 12 (by decide) (by decide) _ _
theorem sc_r_797 : (kernelRunV.sl.r_797 (F := Ideal) c M5 (h5.unread Y5)) = Y5 (ix2 11 12) := scal_read M5 h5 Y5 11 12 (by decide) (by decide) _ _
theorem sc_r_798 : (kernelRunV.sl.r_798 (F := Ideal) c M5 (h5.unread Y5)) = Y5 (ix2 12 12) := scal_read M5 h5 Y5 12 12 (by decide) (by decide) _ _
theorem sc_r_800 : (kernelRunV.sl.r_800 (F := Ideal) c M5 (h5.unread Y5)) = Y5 (ix2 13 12) := scal_read M5 h5 Y5 13 12 (by decide) (by decide) _ _
theorem sc_r_801 : (kernelRunV.sl.r_801 (F := Ideal) c M5 (h5.unread Y5)) = Y5 (ix2 14 12) := scal_read M5 h5 Y5 14 12 (by decide) (by decide) _ _
theorem sc_r_802 : (kernelRunV.sl.r_802 (F := Ideal) c M5 (h5.unread Y5)) = Y5 (ix2 15 12) := scal_read M5 h5 Y5 15 12 (by decide) (by decide) _ _
theorem sc_r_803 : (kernelRunV.sl.r_803 (F := Ideal) c M8 (h8.unread Y8)) = Y8 (ix2 0 12) := scal_read M8 h8 Y8 0 12 (by decide) (by decide) _ _
theorem sc_r_804 : (kernelRunV.sl.r_804 (F := Ideal) c M5 (h5.unread Y5)) = Y5 (ix2 0 13) := scal_read M5 h5 Y5 0 13 (by decide) (by decide) _ _
theorem sc_r_805 : (kernelRunV.sl.r_805 (F := Ideal) c M5 (h5.unread Y5)) = Y5 (ix2 1 13) := scal_read M5 h5 Y5 1 13 (by decide) (by decide) _ _
theorem sc_r_806 : (kernelRunV.sl.r_806 (F := Ideal) c M5 (h5.unread Y5)) = Y5 (ix2 2 13) := scal_read M5 h5 Y5 2 13 (by decide) (by decide) _ _
theorem sc_r_807 : (kernelRunV.sl.r_807 (F := Ideal) c M5 (h5.unread Y5)) = Y5 (ix2 3 13) := scal_read M5 h5 Y5 3 13 (by decide) (by decide) _ _
theorem sc_r_808 : (kernelRunV.sl.r_808 (F := Ideal) c M5 (h5.unread Y5)) = Y5 (ix2 4 13) := scal_read M5 h5 Y5 4 13 (by decide) (by decide) _ _
theorem sc_r_812 : (kernelRunV.sl.r_812 (F := Ideal) c M5 (h5.unread Y5)) = Y5 (ix2 5 13) := scal_read M5 h5 Y5 5 13 (by decide) (by decide) _ _
theorem sc_r_813 : (kernelRunV.sl.r_813 (F := Ideal) c M5 (h5.unread Y5)) = Y5 (ix2 6 13) := scal_read M5 h5 Y5 6 13 (by decide) (by decide) _ _
theorem sc_r_814 : (kernelRunV.sl.r_814 (F := Ideal) c M5 (h5.unread Y5)) = Y5 (ix2 7 13) := scal_read M5 h5 Y5 7 13 (by decide) (by decide) _ _
theorem sc_r_815 : (kernelRunV.sl.r_815 (F := Ideal) c M5 (h5.unread Y5)) = Y5 (ix2 8 13) := scal_read M5 h5 Y5 8 13 (by decide) (by decide) _ _
theorem sc_r_816 : (kernelRunV.sl.r_816 (F := Ideal) c M5 (h5.unread Y5)) = Y5 (ix2 9 13) := scal_read M5 h5 Y5 9 13 (by decide) (by decide) _ _
theorem sc_r_817 : (kernelRunV.sl.r_817 (F := Ideal) c M5 (h5.unread Y5)) = Y5 (ix2 10 13) := scal_read M5 h5 Y5 10 13 (by decide) (by decide) _ _
theorem sc_r_818 : (kernelRunV.sl.r_818 (F := Ideal) c M5 (h5.unread Y5)) = Y5 (ix2 11 13) := scal_read M5 h5 Y5 11 13 (by decide) (by decide) _ _
theorem sc_r_819 : (kernelRunV.sl.r_819 (F := Ideal) c M5 (h5.unread Y5)) = Y5 (ix2 12 13) := scal_read M5 h5 Y5 12 13 (by decide) (by decide) _ _
theorem sc_r_820 : (kernelRunV.sl.r_820 (F := Ideal) c M5 (h5.unread Y5)) = Y5 (ix2 13 13) := scal_read M5 h5 Y5 13 13 (by decide) (by decide) _ _
theorem sc_r_821 : (kernelRunV.sl.r_821 (F := Ideal) c M5 (h5.unread Y5)) = Y5 (ix2 14 13) := scal_read M5 h5 Y5 14 13 (by decide) (by decide) _ _
theorem sc_r_824 : (kernelRunV.sl.r_824 (F := Ideal) c M5 (h5.unread Y5)) = Y5 (ix2 15 13) := scal_read M5 h5 Y5 15 13 (by decide) (by decide) _ _
theorem sc_r_825 : (kernelRunV.sl.r_825 (F := Ideal) c M8 (h8.unread Y8)) = Y8 (ix2 0 13) := scal_read M8 h8 Y8 0 13 (by decide) (by decide) _ _
theorem sc_r_826 : (kernelRunV.sl.r_826 (F := Ideal) c M5 (h5.unread Y5)) = Y5 (ix2 0 14) := scal_read M5 h5 Y5 0 14 (by decide) (by decide) _ _
theorem sc_r_827 : (kernelRunV.sl.r_827 (F := Ideal) c M5 (h5.unread Y5)) = Y5 (ix2 1 14) := scal_read M5 h5 Y5 1 14 (by decide) (by decide) _ _
theorem sc_r_828 : (kernelRunV.sl.r_828 (F := Ideal) c M5 (h5.unread Y5)) = Y5 (ix2 2 14) := scal_read M5 h5 Y5 2 14 (by decide) (by decide) _ _
theorem sc_r_829 : (kernelRunV.sl.r_829 (F := Ideal) c M5 (h5.unread Y5)) = Y5 (ix2 3 14) := scal_read M5 h5 Y5 3 14 (by decide) (by decide) _ _
theorem sc_r_830 : (kernelRunV.sl.r_830 (F := Ideal) c M5 (h5.unread Y5)) = Y5 (ix2 4 14) := scal_read M5 h5 Y5 4 14 (by decide) (by decide) _ _
theorem sc_r_831 : (kernelRunV.sl.r_831 (F := Ideal) c M5 (h5.unread Y5)) = Y5 (ix2 5 14) := scal_read M5 h5 Y5 5 14 (by decide) (by decide) _ _
theorem sc_r_832 : (kernelRunV.sl.r_832 (F := Ideal) c M5 (h5.unread Y5)) = Y5 (ix2 6 14) := scal_read M5 h5 Y5 6 14 (by decide) (by decide) _ _
theorem sc_r_835 : (kernelRunV.sl.r_835 (F := Ideal) c M5 (h5.unread Y5)) = Y5 (ix2 7 14) := scal_read M5 h5 Y5 7 14 (by decide) (by decide) _ _
theorem sc_r_836 : (kernelRunV.sl.r_836 (F := Ideal) c M5 (h5.unread Y5)) = Y5 (ix2 8 14) := scal_read M5 h5 Y5 8 14 (by decide) (by decide) _ _
theorem sc_r_837 : (kernelRunV.sl.r_837 (F := Ideal) c M5 (h5.unread Y5)) = Y5 (ix2 9 14) := scal_read M5 h5 Y5 9 14 (by decide) (by decide) _ _
theorem sc_r_838 : (kernelRunV.sl.r_838 (F := Ideal) c M5 (h5.unread Y5)) = Y5 (ix2 10 14) := scal_read M5 h5 Y5 10 14 (by decide) (by decide) _ _
theorem sc_r_839 : (kernelRunV.sl.r_839 (F := Ideal) c M5 (h5.unread Y5)) = Y5 (ix2 11 14) := scal_read M5 h5 Y5 11 14 (by decide) (by decide) _ _
theorem sc_r_840 : (kernelRunV.sl.r_840 (F := Ideal) c M5 (h5.unread Y5)) = Y5 (ix2 12 14) := scal_read M5 h5 Y5 12 14 (by decide) (by decide) _ _
theorem sc_r_841 : (kernelRunV.sl.r_841 (F := Ideal) c M5 (h5.unread Y5)) = Y5 (ix2 13 14) := scal_read M5 h5 Y5 13 14 (by decide) (by decide) _ _
theorem sc_r_842 : (kernelRunV.sl.r_842 (F := Ideal) c M5 (h5.unread Y5)) = Y5 (ix2 14 14) := scal_read M5 h5 Y5 14 14 (by decide) (by decide) _ _
theorem sc_r_843 : (kernelRunV.sl.r_843 (F := Ideal) c M5 (h5.unread Y5)) = Y5 (ix2 15 14) := scal_read M5 h5 Y5 15 14 (by decide) (by decide) _ _
theorem sc_r_844 : (kernelRunV.sl.r_844 (F := Ideal) c M8 (h8.unread Y8)) = Y8 (ix2 0 14) := scal_read M8 h8 Y8 0 14 (by decide) (by decide) _ _
theorem sc_r_846 : (kernelRunV.sl.r_846 (F := Ideal) c M5 (h5.unread Y5)) = Y5 (ix2 0 15) := scal_read M5 h5 Y5 0 15 (by decide) (by decide) _ _
theorem sc_r_847 : (kernelRunV.sl.r_847 (F := Ideal) c M5 (h5.unread Y5)) = Y5 (ix2 1 15) := scal_read M5 h5 Y5 1 15 (by decide) (by decide) _ _
theorem sc_r_848 : (kernelRunV.sl.r_848 (F := Ideal) c M5 (h5.unread Y5)) = Y5 (ix2 2 15) := scal_read M5 h5 Y5 2 15 (by decide) (by decide) _ _
theorem sc_r_849 : (kernelRunV.sl.r_849 (F := Ideal) c M5 (h5.unread Y5)) = Y5 (ix2 3 15) := scal_read M5 h5 Y5 3 15 (by decide) (by decide) _ _
theorem sc_r_850 : (kernelRunV.sl.r_850 (F := Ideal) c M5 (h5.unread Y5)) = Y5 (ix2 4 15) := scal_read M5 h5 Y5 4 15 (by decide) (by decide) _ _
theorem sc_r_851 : (kernelRunV.sl.r_851 (F := Ideal) c M5 (h5.unread Y5)) = Y5 (ix2 5 15) := scal_read M5 h5 Y5 5 15 (by decide) (by decide) _ _
theorem sc_r_852 : (kernelRunV.sl.r_852 (F := Ideal) c M5 (h5.unread Y5)) = Y5 (ix2 6 15) := scal_read M5 h5 Y5 6 15 (by decide) (by decide) _ _
theorem sc_r_853 : (kernelRunV.sl.r_853 (F := Ideal) c M5 (h5.unread Y5)) = Y5 (ix2 7 15) := scal_read M5 h5 Y5 7 15 (by decide) (by decide) _ _
theorem sc_r_854 : (kernelRunV.sl.r_854 (F := Ideal) c M5 (h5.unread Y5)) = Y5 (ix2 8 15) := scal_read M5 h5 Y5 8 15 (by decide) (by decide) _ _
theorem sc_r_855 : (kernelRunV.sl.r_855 (F := Ideal) c M5 (h5.unread Y5)) = Y5 (ix2 9 15) := scal_read M5 h5 Y5 9 15 (by decide) (by decide) _ _
theorem sc_r_858 : (kernelRunV.sl.r_858 (F := Ideal) c M5 (h5.unread Y5)) = Y5 (ix2 10 15) := scal_read M5 h5 Y5 10 15 (by decide) (by decide) _ _
theorem sc_r_859 : (kernelRunV.sl.r_859 (F := Ideal) c M5 (h5.unread Y5)) = Y5 (ix2 11 15) := scal_read M5 h5 Y5 11 15 (by decide) (by decide) _ _
theorem sc_r_860 : (kernelRunV.sl.r_860 (F := Ideal) c M5 (h5.unread Y5)) = Y5 (ix2 12 15) := scal_read M5 h5 Y5 12 15 (by decide) (by decide) _ _
theorem sc_r_861 : (kernelRunV.sl.r_861 (F := Ideal) c M5 (h5.unread Y5)) = Y5 (ix2 13 15) := scal_read M5 h5 Y5 13 15 (by decide) (by decide) _ _
theorem sc_r_862 : (kernelRunV.sl.r_862 (F := Ideal) c M5 (h5.unread Y5)) = Y5 (ix2 14 15) := scal_read M5 h5 Y5 14 15 (by decide) (by decide) _ _
theorem sc_r_863 : (kernelRunV.sl.r_863 (F := Ideal) c M5 (h5.unread Y5)) = Y5 (ix2 15 15) := scal_read M5 h5 Y5 15 15 (by decide) (by decide) _ _
theorem sc_r_864 : (kernelRunV.sl.r_864 (F := Ideal) c M8 (h8.unread Y8)) = Y8 (ix2 0 15) := scal_read M8 h8 Y8 0 15 (by decide) (by decide) _ _
theorem sc_r : (kernelRunV.sl.r (F := Ideal) c M1 (h1.unread Y1)) = Y1 (ix2 0 0) := scal_read M1 h1 Y1 0 0 (by decide) (by decide) _ _

end Cert.KernelIdeal.Region
-- ==== Proof.RegionValueAsm1.lean ====
import proofs.«208141_g20598663152203_cont_8to1_341_30_alg».proof.Proof.RegionValueStage2
import proofs.«208141_g20598663152203_cont_8to1_341_30_alg».proof.Proof.RegionValueStage3
import proofs.«208141_g20598663152203_cont_8to1_341_30_alg».proof.Proof.RegionValueStage4
import proofs.«208141_g20598663152203_cont_8to1_341_30_alg».proof.Proof.RegionValueChains
import proofs.«208141_g20598663152203_cont_8to1_341_30_alg».proof.Proof.RegionValueScalars
import proofs.«208141_g20598663152203_cont_8to1_341_30_alg».proof.Proof.SpecA

noncomputable section

namespace Cert.KernelIdeal.Region

open Cert.KernelIdeal Cert.KernelIdeal.Gen
open Idealize.ShloMosaic Idealize.ShloMosaic.ValueIdx
open scoped BigOperators

/-- A feature array whose channel `m` is channel `m % 256` of the block `Y`. -/
def Wm (Y : S8x512x256.Idx → Ideal .bf16) : Fin 512 → Fin 512 → Fin 8 → EReal :=
  fun s m d => Y (ix3 d s ⟨m.val % 256, Nat.mod_lt _ (by decide)⟩)

theorem Wm_apply (Y : S8x512x256.Idx → Ideal .bf16) (s : Fin 512) (mm : Fin 256) (d : Fin 8) :
    Wm Y s ⟨mm.val, by have := mm.isLt; omega⟩ d = Y (ix3 d s mm) := by
  unfold Wm
  exact congrArg (fun k => Y (ix3 d s k)) (Fin.ext (Nat.mod_eq_of_lt mm.isLt))

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

/-- 1 + eps, as the body forms it, for each of the two aggregations. -/
theorem e1_eq : k1_pay2 (kernelRunV.sl.r (F := Ideal) c M1 (h1.unread Y1)) = 1 + Y1 (ix2 0 0) := by
  unfold k1_pay2
  show (Scalar.ofBits .f32 0x3F800000#32 : Ideal .f32) + _ = _
  rw [one_f32, sc_r]

theorem e2_eq : (kernelRunV.sl.r_4 (F := Ideal) c M2 (h2.unread Y2)) = 1 + Y2 (ix2 0 0) := by
  show k1_pay3 (kernelRunV.sl.r_1 (F := Ideal) c M2 (h2.unread Y2)) = _
  unfold k1_pay3
  show (Scalar.ofBits .f32 0x3F800000#32 : Ideal .f32) + _ = _
  rw [one_f32, sc_r_1]

theorem hsE_0 (n : Fin 512) (mm : Fin 256) :
    (kernelRunV.sl.r_18 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 0 := by
  have e : (kernelRunV.sl.r_18 (F := Ideal) c M1 M9 M10 (h1.unread Y1) (h9.unread Y9) (h10.unread Y10)) = k1_pay14 (k1_pay2 (kernelRunV.sl.r (F := Ideal) c M1 (h1.unread Y1))) (k1_pay4 (View.readAt (Elt Ideal) M10.view (Rect.unit (s := S8x512x256) ![0, 0, 0] S1x512x256.size inb_S8x512x256_S1x512x256_0_0_0).toLoadRect (h10.unread Y10))) (k1_pay13 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_0, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![0, 0, 0] S1x512x256.size inb_S8x512x256_S1x512x256_0_0_0).toLoadRect (h10.unread Y10)) (ix3 (0 : Fin 1) s mm) = Y10 (ix3 0 s mm) := fun s => chan_read M10 h10 Y10 0 (by decide) _ s mm
  simp only [hA, hX]
  rw [← Cert.Spec.h1A_comm]
  simp only [Wm_apply]

theorem hsE_1 (n : Fin 512) (mm : Fin 256) :
    (kernelRunV.sl.r_19 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 1 := by
  have e : (kernelRunV.sl.r_19 (F := Ideal) c M1 M9 M10 (h1.unread Y1) (h9.unread Y9) (h10.unread Y10)) = k1_pay15 (k1_pay2 (kernelRunV.sl.r (F := Ideal) c M1 (h1.unread Y1))) (k1_pay5 (View.readAt (Elt Ideal) M10.view (Rect.unit (s := S8x512x256) ![1, 0, 0] S1x512x256.size inb_S8x512x256_S1x512x256_1_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_1, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![1, 0, 0] S1x512x256.size inb_S8x512x256_S1x512x256_1_0_0).toLoadRect (h10.unread Y10)) (ix3 (0 : Fin 1) s mm) = Y10 (ix3 1 s mm) := fun s => chan_read M10 h10 Y10 1 (by decide) _ s mm
  simp only [hA, hX]
  rw [← Cert.Spec.h1A_comm]
  simp only [Wm_apply]

theorem hsE_2 (n : Fin 512) (mm : Fin 256) :
    (kernelRunV.sl.r_20 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 2 := by
  have e : (kernelRunV.sl.r_20 (F := Ideal) c M1 M9 M10 (h1.unread Y1) (h9.unread Y9) (h10.unread Y10)) = k1_pay16 (k1_pay2 (kernelRunV.sl.r (F := Ideal) c M1 (h1.unread Y1))) (k1_pay6 (View.readAt (Elt Ideal) M10.view (Rect.unit (s := S8x512x256) ![2, 0, 0] S1x512x256.size inb_S8x512x256_S1x512x256_2_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_2, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![2, 0, 0] S1x512x256.size inb_S8x512x256_S1x512x256_2_0_0).toLoadRect (h10.unread Y10)) (ix3 (0 : Fin 1) s mm) = Y10 (ix3 2 s mm) := fun s => chan_read M10 h10 Y10 2 (by decide) _ s mm
  simp only [hA, hX]
  rw [← Cert.Spec.h1A_comm]
  simp only [Wm_apply]

theorem hsE_3 (n : Fin 512) (mm : Fin 256) :
    (kernelRunV.sl.r_21 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 3 := by
  have e : (kernelRunV.sl.r_21 (F := Ideal) c M1 M9 M10 (h1.unread Y1) (h9.unread Y9) (h10.unread Y10)) = k1_pay17 (k1_pay2 (kernelRunV.sl.r (F := Ideal) c M1 (h1.unread Y1))) (k1_pay7 (View.readAt (Elt Ideal) M10.view (Rect.unit (s := S8x512x256) ![3, 0, 0] S1x512x256.size inb_S8x512x256_S1x512x256_3_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_3, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![3, 0, 0] S1x512x256.size inb_S8x512x256_S1x512x256_3_0_0).toLoadRect (h10.unread Y10)) (ix3 (0 : Fin 1) s mm) = Y10 (ix3 3 s mm) := fun s => chan_read M10 h10 Y10 3 (by decide) _ s mm
  simp only [hA, hX]
  rw [← Cert.Spec.h1A_comm]
  simp only [Wm_apply]

theorem hsE_4 (n : Fin 512) (mm : Fin 256) :
    (kernelRunV.sl.r_22 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 4 := by
  have e : (kernelRunV.sl.r_22 (F := Ideal) c M1 M9 M10 (h1.unread Y1) (h9.unread Y9) (h10.unread Y10)) = k1_pay18 (k1_pay2 (kernelRunV.sl.r (F := Ideal) c M1 (h1.unread Y1))) (k1_pay8 (View.readAt (Elt Ideal) M10.view (Rect.unit (s := S8x512x256) ![4, 0, 0] S1x512x256.size inb_S8x512x256_S1x512x256_4_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_4, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![4, 0, 0] S1x512x256.size inb_S8x512x256_S1x512x256_4_0_0).toLoadRect (h10.unread Y10)) (ix3 (0 : Fin 1) s mm) = Y10 (ix3 4 s mm) := fun s => chan_read M10 h10 Y10 4 (by decide) _ s mm
  simp only [hA, hX]
  rw [← Cert.Spec.h1A_comm]
  simp only [Wm_apply]

theorem hsE_5 (n : Fin 512) (mm : Fin 256) :
    (kernelRunV.sl.r_23 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 5 := by
  have e : (kernelRunV.sl.r_23 (F := Ideal) c M1 M9 M10 (h1.unread Y1) (h9.unread Y9) (h10.unread Y10)) = k1_pay19 (k1_pay2 (kernelRunV.sl.r (F := Ideal) c M1 (h1.unread Y1))) (k1_pay9 (View.readAt (Elt Ideal) M10.view (Rect.unit (s := S8x512x256) ![5, 0, 0] S1x512x256.size inb_S8x512x256_S1x512x256_5_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_5, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![5, 0, 0] S1x512x256.size inb_S8x512x256_S1x512x256_5_0_0).toLoadRect (h10.unread Y10)) (ix3 (0 : Fin 1) s mm) = Y10 (ix3 5 s mm) := fun s => chan_read M10 h10 Y10 5 (by decide) _ s mm
  simp only [hA, hX]
  rw [← Cert.Spec.h1A_comm]
  simp only [Wm_apply]

theorem hsE_6 (n : Fin 512) (mm : Fin 256) :
    (kernelRunV.sl.r_24 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 6 := by
  have e : (kernelRunV.sl.r_24 (F := Ideal) c M1 M9 M10 (h1.unread Y1) (h9.unread Y9) (h10.unread Y10)) = k1_pay20 (k1_pay2 (kernelRunV.sl.r (F := Ideal) c M1 (h1.unread Y1))) (k1_pay10 (View.readAt (Elt Ideal) M10.view (Rect.unit (s := S8x512x256) ![6, 0, 0] S1x512x256.size inb_S8x512x256_S1x512x256_6_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_6, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![6, 0, 0] S1x512x256.size inb_S8x512x256_S1x512x256_6_0_0).toLoadRect (h10.unread Y10)) (ix3 (0 : Fin 1) s mm) = Y10 (ix3 6 s mm) := fun s => chan_read M10 h10 Y10 6 (by decide) _ s mm
  simp only [hA, hX]
  rw [← Cert.Spec.h1A_comm]
  simp only [Wm_apply]

theorem hsE_7 (n : Fin 512) (mm : Fin 256) :
    (kernelRunV.sl.r_25 (F := Ideal) c M1 M9 M10 (h1.unread Y1) (h9.unread Y9) (h10.unread Y10)) (ix2 n mm) = Cert.Spec.h1A (fun n s => Y9 (ix2 n s)) (Wm Y10) (Y1 (ix2 0 0)) n ⟨mm.val, by have := mm.isLt; omega⟩ 7 := by
  have e : (kernelRunV.sl.r_25 (F := Ideal) c M1 M9 M10 (h1.unread Y1) (h9.unread Y9) (h10.unread Y10)) = k1_pay21 (k1_pay2 (kernelRunV.sl.r (F := Ideal) c M1 (h1.unread Y1))) (k1_pay11 (View.readAt (Elt Ideal) M10.view (Rect.unit (s := S8x512x256) ![7, 0, 0] S1x512x256.size inb_S8x512x256_S1x512x256_7_0_0).toLoadRect (h10.unread Y10))) (k1_pay12 (View.readAt (Elt Ideal) M9.view (Rect.unit (s := S512x512) ![0, 0] S512x512.size inb_S512x512_S512x512_0_0).toLoadRect (h9.unread Y9)) (View.readAt (Elt Ideal) M10.view (Rect.unit (s := S8x512x256) ![0, 0, 0] S1x512x256.size inb_S8x512x256_S1x512x256_0_0_0).toLoadRect (h10.unread Y10)) (View.readAt (Elt Ideal) M10.view (Rect.unit (s := S8x512x256) ![1, 0, 0] S1x512x256.size inb_S8x512x256_S1x512x256_1_0_0).toLoadRect (h10.unread Y10)) (View.readAt (Elt Ideal) M10.view (Rect.unit (s := S8x512x256) ![2, 0, 0] S1x512x256.size inb_S8x512x256_S1x512x256_2_0_0).toLoadRect (h10.unread Y10)) (View.readAt (Elt Ideal) M10.view (Rect.unit (s := S8x512x256) ![3, 0, 0] S1x512x256.size inb_S8x512x256_S1x512x256_3_0_0).toLoadRect (h10.unread Y10)) (View.readAt (Elt Ideal) M10.view (Rect.unit (s := S8x512x256) ![4, 0, 0] S1x512x256.size inb_S8x512x256_S1x512x256_4_0_0).toLoadRect (h10.unread Y10)) (View.readAt (Elt Ideal) M10.view (Rect.unit (s := S8x512x256) ![5, 0, 0] S1x512x256.size inb_S8x512x256_S1x512x256_5_0_0).toLoadRect (h10.unread Y10)) (View.readAt (Elt Ideal) M10.view (Rect.unit (s := S8x512x256) ![6, 0, 0] S1x512x256.size inb_S8x512x256_S1x512x256_6_0_0).toLoadRect (h10.unread Y10)) (View.readAt (Elt Ideal) M10.view (Rect.unit (s := S8x512x256) ![7, 0, 0] S1x512x256.size inb_S8x512x256_S1x512x256_7_0_0).toLoadRect (h10.unread Y10))) := rfl
  rw [e, hs_apply_7, e1_eq]
  have hA : ∀ s, (View.readAt (Elt Ideal) M9.view (Rect.unit (s := S512x512) ![0, 0] S512x512.size inb_S512x512_S512x512_0_0).toLoadRect (h9.unread Y9)) (ix2 n s) = Y9 (ix2 n s) := fun s => whole2_read M9 h9 Y9 _ n s
  have hX : ∀ s, (View.readAt (Elt Ideal) M10.view (Rect.unit (s := S8x512x256) ![7, 0, 0] S1x512x256.size inb_S8x512x256_S1x512x256_7_0_0).toLoadRect (h10.unread Y10)) (ix3 (0 : Fin 1) s mm) = Y10 (ix3 7 s mm) := fun s => chan_read M10 h10 Y10 7 (by decide) _ s mm
  simp only [hA, hX]
  rw [← Cert.Spec.h1A_comm]
  simp only [Wm_apply]
theorem t1E_0 (n : Fin 512) (mm : Fin 256) :
    (kernelRunV.sl.r_37 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 0 := by
  rw [t1_0_apply]
  simp only [hsE_0, hsE_1, hsE_2, hsE_3, hsE_4, hsE_5, hsE_6, hsE_7, sc_r_15, sc_r_16, sc_r_17, sc_r_27, sc_r_28, sc_r_29, sc_r_30, sc_r_31, sc_r_32]
  exact chain8 (fun d => Cert.Spec.h1A (fun n s => Y9 (ix2 n s)) (Wm Y10) (Y1 (ix2 0 0)) n ⟨mm.val, by have := mm.isLt; omega⟩ d * Y3 (ix2 d 0)) (Y6 (ix2 0 0))

theorem t1E_1 (n : Fin 512) (mm : Fin 256) :
    (kernelRunV.sl.r_48 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 1 := by
  rw [t1_1_apply]
  simp only [hsE_0, hsE_1, hsE_2, hsE_3, hsE_4, hsE_5, hsE_6, hsE_7, sc_r_33, sc_r_34, sc_r_35, sc_r_36, sc_r_39, sc_r_40, sc_r_41, sc_r_42, sc_r_43]
  exact chain8 (fun d => Cert.Spec.h1A (fun n s => Y9 (ix2 n s)) (Wm Y10) (Y1 (ix2 0 0)) n ⟨mm.val, by have := mm.isLt; omega⟩ d * Y3 (ix2 d 1)) (Y6 (ix2 0 1))

theorem t1E_2 (n : Fin 512) (mm : Fin 256) :
    (kernelRunV.sl.r_60 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 2 := by
  rw [t1_2_apply]
  simp only [hsE_0, hsE_1, hsE_2, hsE_3, hsE_4, hsE_5, hsE_6, hsE_7, sc_r_44, sc_r_45, sc_r_46, sc_r_47, sc_r_51, sc_r_52, sc_r_53, sc_r_54, sc_r_55]
  exact chain8 (fun d => Cert.Spec.h1A (fun n s => Y9 (ix2 n s)) (Wm Y10) (Y1 (ix2 0 0)) n ⟨mm.val, by have := mm.isLt; omega⟩ d * Y3 (ix2 d 2)) (Y6 (ix2 0 2))

theorem t1E_3 (n : Fin 512) (mm : Fin 256) :
    (kernelRunV.sl.r_72 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 3 := by
  rw [t1_3_apply]
  simp only [hsE_0, hsE_1, hsE_2, hsE_3, hsE_4, hsE_5, hsE_6, hsE_7, sc_r_56, sc_r_57, sc_r_58, sc_r_59, sc_r_62, sc_r_63, sc_r_64, sc_r_65, sc_r_66]
  exact chain8 (fun d => Cert.Spec.h1A (fun n s => Y9 (ix2 n s)) (Wm Y10) (Y1 (ix2 0 0)) n ⟨mm.val, by have := mm.isLt; omega⟩ d * Y3 (ix2 d 3)) (Y6 (ix2 0 3))

theorem t1E_4 (n : Fin 512) (mm : Fin 256) :
    (kernelRunV.sl.r_83 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 4 := by
  rw [t1_4_apply]
  simp only [hsE_0, hsE_1, hsE_2, hsE_3, hsE_4, hsE_5, hsE_6, hsE_7, sc_r_67, sc_r_68, sc_r_69, sc_r_70, sc_r_71, sc_r_74, sc_r_75, sc_r_76, sc_r_77]
  exact chain8 (fun d => Cert.Spec.h1A (fun n s => Y9 (ix2 n s)) (Wm Y10) (Y1 (ix2 0 0)) n ⟨mm.val, by have := mm.isLt; omega⟩ d * Y3 (ix2 d 4)) (Y6 (ix2 0 4))

theorem t1E_5 (n : Fin 512) (mm : Fin 256) :
    (kernelRunV.sl.r_95 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 5 := by
  rw [t1_5_apply]
  simp only [hsE_0, hsE_1, hsE_2, hsE_3, hsE_4, hsE_5, hsE_6, hsE_7, sc_r_78, sc_r_79, sc_r_80, sc_r_81, sc_r_82, sc_r_86, sc_r_87, sc_r_88, sc_r_89]
  exact chain8 (fun d => Cert.Spec.h1A (fun n s => Y9 (ix2 n s)) (Wm Y10) (Y1 (ix2 0 0)) n ⟨mm.val, by have := mm.isLt; omega⟩ d * Y3 (ix2 d 5)) (Y6 (ix2 0 5))

theorem t1E_6 (n : Fin 512) (mm : Fin 256) :
    (kernelRunV.sl.r_107 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 6 := by
  rw [t1_6_apply]
  simp only [hsE_0, hsE_1, hsE_2, hsE_3, hsE_4, hsE_5, hsE_6, hsE_7, sc_r_90, sc_r_91, sc_r_92, sc_r_93, sc_r_94, sc_r_97, sc_r_98, sc_r_99, sc_r_100]
  exact chain8 (fun d => Cert.Spec.h1A (fun n s => Y9 (ix2 n s)) (Wm Y10) (Y1 (ix2 0 0)) n ⟨mm.val, by have := mm.isLt; omega⟩ d * Y3 (ix2 d 6)) (Y6 (ix2 0 6))

theorem t1E_7 (n : Fin 512) (mm : Fin 256) :
    (kernelRunV.sl.r_118 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 7 := by
  rw [t1_7_apply]
  simp only [hsE_0, hsE_1, hsE_2, hsE_3, hsE_4, hsE_5, hsE_6, hsE_7, sc_r_101, sc_r_102, sc_r_103, sc_r_104, sc_r_105, sc_r_106, sc_r_109, sc_r_110, sc_r_111]
  exact chain8 (fun d => Cert.Spec.h1A (fun n s => Y9 (ix2 n s)) (Wm Y10) (Y1 (ix2 0 0)) n ⟨mm.val, by have := mm.isLt; omega⟩ d * Y3 (ix2 d 7)) (Y6 (ix2 0 7))

theorem t1E_8 (n : Fin 512) (mm : Fin 256) :
    (kernelRunV.sl.r_130 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 8 := by
  rw [t1_8_apply]
  simp only [hsE_0, hsE_1, hsE_2, hsE_3, hsE_4, hsE_5, hsE_6, hsE_7, sc_r_112, sc_r_113, sc_r_114, sc_r_115, sc_r_116, sc_r_117, sc_r_121, sc_r_122, sc_r_123]
  exact chain8 (fun d => Cert.Spec.h1A (fun n s => Y9 (ix2 n s)) (Wm Y10) (Y1 (ix2 0 0)) n ⟨mm.val, by have := mm.isLt; omega⟩ d * Y3 (ix2 d 8)) (Y6 (ix2 0 8))

theorem t1E_9 (n : Fin 512) (mm : Fin 256) :
    (kernelRunV.sl.r_142 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 9 := by
  rw [t1_9_apply]
  simp only [hsE_0, hsE_1, hsE_2, hsE_3, hsE_4, hsE_5, hsE_6, hsE_7, sc_r_124, sc_r_125, sc_r_126, sc_r_127, sc_r_128, sc_r_129, sc_r_132, sc_r_133, sc_r_134]
  exact chain8 (fun d => Cert.Spec.h1A (fun n s => Y9 (ix2 n s)) (Wm Y10) (Y1 (ix2 0 0)) n ⟨mm.val, by have := mm.isLt; omega⟩ d * Y3 (ix2 d 9)) (Y6 (ix2 0 9))

theorem t1E_10 (n : Fin 512) (mm : Fin 256) :
    (kernelRunV.sl.r_153 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 10 := by
  rw [t1_10_apply]
  simp only [hsE_0, hsE_1, hsE_2, hsE_3, hsE_4, hsE_5, hsE_6, hsE_7, sc_r_135, sc_r_136, sc_r_137, sc_r_138, sc_r_139, sc_r_140, sc_r_141, sc_r_144, sc_r_145]
  exact chain8 (fun d => Cert.Spec.h1A (fun n s => Y9 (ix2 n s)) (Wm Y10) (Y1 (ix2 0 0)) n ⟨mm.val, by have := mm.isLt; omega⟩ d * Y3 (ix2 d 10)) (Y6 (ix2 0 10))

theorem t1E_11 (n : Fin 512) (mm : Fin 256) :
    (kernelRunV.sl.r_165 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 11 := by
  rw [t1_11_apply]
  simp only [hsE_0, hsE_1, hsE_2, hsE_3, hsE_4, hsE_5, hsE_6, hsE_7, sc_r_146, sc_r_147, sc_r_148, sc_r_149, sc_r_150, sc_r_151, sc_r_152, sc_r_156, sc_r_157]
  exact chain8 (fun d => Cert.Spec.h1A (fun n s => Y9 (ix2 n s)) (Wm Y10) (Y1 (ix2 0 0)) n ⟨mm.val, by have := mm.isLt; omega⟩ d * Y3 (ix2 d 11)) (Y6 (ix2 0 11))

theorem t1E_12 (n : Fin 512) (mm : Fin 256) :
    (kernelRunV.sl.r_177 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 12 := by
  rw [t1_12_apply]
  simp only [hsE_0, hsE_1, hsE_2, hsE_3, hsE_4, hsE_5, hsE_6, hsE_7, sc_r_158, sc_r_159, sc_r_160, sc_r_161, sc_r_162, sc_r_163, sc_r_164, sc_r_167, sc_r_168]
  exact chain8 (fun d => Cert.Spec.h1A (fun n s => Y9 (ix2 n s)) (Wm Y10) (Y1 (ix2 0 0)) n ⟨mm.val, by have := mm.isLt; omega⟩ d * Y3 (ix2 d 12)) (Y6 (ix2 0 12))

theorem t1E_13 (n : Fin 512) (mm : Fin 256) :
    (kernelRunV.sl.r_188 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 13 := by
  rw [t1_13_apply]
  simp only [hsE_0, hsE_1, hsE_2, hsE_3, hsE_4, hsE_5, hsE_6, hsE_7, sc_r_169, sc_r_170, sc_r_171, sc_r_172, sc_r_173, sc_r_174, sc_r_175, sc_r_176, sc_r_179]
  exact chain8 (fun d => Cert.Spec.h1A (fun n s => Y9 (ix2 n s)) (Wm Y10) (Y1 (ix2 0 0)) n ⟨mm.val, by have := mm.isLt; omega⟩ d * Y3 (ix2 d 13)) (Y6 (ix2 0 13))

theorem t1E_14 (n : Fin 512) (mm : Fin 256) :
    (kernelRunV.sl.r_200 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 14 := by
  rw [t1_14_apply]
  simp only [hsE_0, hsE_1, hsE_2, hsE_3, hsE_4, hsE_5, hsE_6, hsE_7, sc_r_180, sc_r_181, sc_r_182, sc_r_183, sc_r_184, sc_r_185, sc_r_186, sc_r_187, sc_r_191]
  exact chain8 (fun d => Cert.Spec.h1A (fun n s => Y9 (ix2 n s)) (Wm Y10) (Y1 (ix2 0 0)) n ⟨mm.val, by have := mm.isLt; omega⟩ d * Y3 (ix2 d 14)) (Y6 (ix2 0 14))

theorem t1E_15 (n : Fin 512) (mm : Fin 256) :
    (kernelRunV.sl.r_212 (F := Ideal) c M1 M3 M6 M9 M10 (h1.unread Y1) (h3.unread Y3) (h6.unread Y6) (h9.unread Y9) (h10.unread Y10)) (ix2 n mm) = Cert.Spec.t1A (fun n s => Y9 (ix2 n s)) (Wm Y10) (fun d f => Y3 (ix2 d f)) (fun f => Y6 (ix2 0 f)) (Y1 (ix2 0 0)) n ⟨mm.val, by have := mm.isLt; omega⟩ 15 := by
  rw [t1_15_apply]
  simp only [hsE_0, hsE_1, hsE_2, hsE_3, hsE_4, hsE_5, hsE_6, hsE_7, sc_r_192, sc_r_193, sc_r_194, sc_r_195, sc_r_196, sc_r_197, sc_r_198, sc_r_199, sc_r_202]
  exact chain8 (fun d => Cert.Spec.h1A (fun n s => Y9 (ix2 n s)) (Wm Y10) (Y1 (ix2 0 0)) n ⟨mm.val, by have := mm.isLt; omega⟩ d * Y3 (ix2 d 15)) (Y6 (ix2 0 15))

end Cert.KernelIdeal.Region
-- ==== Proof.RegionValueAsm2.lean ====
import proofs.«208141_g20598663152203_cont_8to1_341_30_alg».proof.Proof.RegionValueAsm1

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

theorem x1E_0 (n : Fin 512) (mm : Fin 256) :
    (kernelRunV.sl.r_223 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 0 := by
  rw [x1_0_apply]
  simp only [t1E_0, t1E_1, t1E_2, t1E_3, t1E_4, t1E_5, t1E_6, t1E_7, t1E_8, t1E_9, t1E_10, t1E_11, t1E_12, t1E_13, t1E_14, t1E_15, sc_r_203, sc_r_204, sc_r_205, sc_r_206, sc_r_207, sc_r_208, sc_r_209, sc_r_210, sc_r_211, sc_r_214, sc_r_215, sc_r_216, sc_r_217, sc_r_218, sc_r_219, sc_r_220, sc_r_221]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 0)) (Y7 (ix2 0 0))

theorem x1E_1 (n : Fin 512) (mm : Fin 256) :
    (kernelRunV.sl.r_246 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 1 := by
  rw [x1_1_apply]
  simp only [t1E_0, t1E_1, t1E_2, t1E_3, t1E_4, t1E_5, t1E_6, t1E_7, t1E_8, t1E_9, t1E_10, t1E_11, t1E_12, t1E_13, t1E_14, t1E_15, sc_r_222, sc_r_225, sc_r_226, sc_r_227, sc_r_228, sc_r_229, sc_r_230, sc_r_231, sc_r_232, sc_r_233, sc_r_234, sc_r_237, sc_r_238, sc_r_239, sc_r_240, sc_r_241, sc_r_242]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 1)) (Y7 (ix2 0 1))

theorem x1E_2 (n : Fin 512) (mm : Fin 256) :
    (kernelRunV.sl.r_269 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 2 := by
  rw [x1_2_apply]
  simp only [t1E_0, t1E_1, t1E_2, t1E_3, t1E_4, t1E_5, t1E_6, t1E_7, t1E_8, t1E_9, t1E_10, t1E_11, t1E_12, t1E_13, t1E_14, t1E_15, sc_r_243, sc_r_244, sc_r_245, sc_r_248, sc_r_249, sc_r_250, sc_r_251, sc_r_252, sc_r_253, sc_r_254, sc_r_255, sc_r_256, sc_r_257, sc_r_259, sc_r_260, sc_r_261, sc_r_262]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 2)) (Y7 (ix2 0 2))

theorem x1E_3 (n : Fin 512) (mm : Fin 256) :
    (kernelRunV.sl.r_291 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 3 := by
  rw [x1_3_apply]
  simp only [t1E_0, t1E_1, t1E_2, t1E_3, t1E_4, t1E_5, t1E_6, t1E_7, t1E_8, t1E_9, t1E_10, t1E_11, t1E_12, t1E_13, t1E_14, t1E_15, sc_r_263, sc_r_264, sc_r_265, sc_r_266, sc_r_267, sc_r_268, sc_r_271, sc_r_272, sc_r_273, sc_r_274, sc_r_275, sc_r_276, sc_r_277, sc_r_278, sc_r_279, sc_r_280, sc_r_282]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 3)) (Y7 (ix2 0 3))

theorem x1E_4 (n : Fin 512) (mm : Fin 256) :
    (kernelRunV.sl.r_304 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 4 := by
  rw [x1_4_apply]
  simp only [t1E_0, t1E_1, t1E_2, t1E_3, t1E_4, t1E_5, t1E_6, t1E_7, t1E_8, t1E_9, t1E_10, t1E_11, t1E_12, t1E_13, t1E_14, t1E_15, sc_r_283, sc_r_284, sc_r_285, sc_r_286, sc_r_287, sc_r_288, sc_r_289, sc_r_290, sc_r_294, sc_r_295, sc_r_296, sc_r_297, sc_r_298, sc_r_299, sc_r_300, sc_r_301, sc_r_302]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 4)) (Y7 (ix2 0 4))

theorem x1E_5 (n : Fin 512) (mm : Fin 256) :
    (kernelRunV.sl.r_325 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 5 := by
  rw [x1_5_apply]
  simp only [t1E_0, t1E_1, t1E_2, t1E_3, t1E_4, t1E_5, t1E_6, t1E_7, t1E_8, t1E_9, t1E_10, t1E_11, t1E_12, t1E_13, t1E_14, t1E_15, sc_r_303, sc_r_305, sc_r_306, sc_r_307, sc_r_308, sc_r_309, sc_r_310, sc_r_311, sc_r_312, sc_r_313, sc_r_315, sc_r_316, sc_r_317, sc_r_318, sc_r_319, sc_r_320, sc_r_321]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 5)) (Y7 (ix2 0 5))

theorem x1E_6 (n : Fin 512) (mm : Fin 256) :
    (kernelRunV.sl.r_347 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 6 := by
  rw [x1_6_apply]
  simp only [t1E_0, t1E_1, t1E_2, t1E_3, t1E_4, t1E_5, t1E_6, t1E_7, t1E_8, t1E_9, t1E_10, t1E_11, t1E_12, t1E_13, t1E_14, t1E_15, sc_r_322, sc_r_323, sc_r_324, sc_r_327, sc_r_328, sc_r_329, sc_r_330, sc_r_331, sc_r_332, sc_r_333, sc_r_334, sc_r_335, sc_r_336, sc_r_338, sc_r_339, sc_r_340, sc_r_341]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 6)) (Y7 (ix2 0 6))

theorem x1E_7 (n : Fin 512) (mm : Fin 256) :
    (kernelRunV.sl.r_371 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 7 := by
  rw [x1_7_apply]
  simp only [t1E_0, t1E_1, t1E_2, t1E_3, t1E_4, t1E_5, t1E_6, t1E_7, t1E_8, t1E_9, t1E_10, t1E_11, t1E_12, t1E_13, t1E_14, t1E_15, sc_r_342, sc_r_343, sc_r_344, sc_r_345, sc_r_346, sc_r_350, sc_r_351, sc_r_352, sc_r_353, sc_r_354, sc_r_355, sc_r_356, sc_r_357, sc_r_358, sc_r_359, sc_r_362, sc_r_363]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 7)) (Y7 (ix2 0 7))

theorem x1E_8 (n : Fin 512) (mm : Fin 256) :
    (kernelRunV.sl.r_394 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 8 := by
  rw [x1_8_apply]
  simp only [t1E_0, t1E_1, t1E_2, t1E_3, t1E_4, t1E_5, t1E_6, t1E_7, t1E_8, t1E_9, t1E_10, t1E_11, t1E_12, t1E_13, t1E_14, t1E_15, sc_r_364, sc_r_365, sc_r_366, sc_r_367, sc_r_368, sc_r_369, sc_r_370, sc_r_373, sc_r_374, sc_r_375, sc_r_376, sc_r_377, sc_r_378, sc_r_379, sc_r_380, sc_r_381, sc_r_382]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 8)) (Y7 (ix2 0 8))

theorem x1E_9 (n : Fin 512) (mm : Fin 256) :
    (kernelRunV.sl.r_405 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 9 := by
  rw [x1_9_apply]
  simp only [t1E_0, t1E_1, t1E_2, t1E_3, t1E_4, t1E_5, t1E_6, t1E_7, t1E_8, t1E_9, t1E_10, t1E_11, t1E_12, t1E_13, t1E_14, t1E_15, sc_r_384, sc_r_385, sc_r_386, sc_r_387, sc_r_388, sc_r_389, sc_r_390, sc_r_391, sc_r_392, sc_r_393, sc_r_396, sc_r_397, sc_r_398, sc_r_399, sc_r_400, sc_r_401, sc_r_402]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 9)) (Y7 (ix2 0 9))

theorem x1E_10 (n : Fin 512) (mm : Fin 256) :
    (kernelRunV.sl.r_429 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 10 := by
  rw [x1_10_apply]
  simp only [t1E_0, t1E_1, t1E_2, t1E_3, t1E_4, t1E_5, t1E_6, t1E_7, t1E_8, t1E_9, t1E_10, t1E_11, t1E_12, t1E_13, t1E_14, t1E_15, sc_r_403, sc_r_404, sc_r_408, sc_r_409, sc_r_410, sc_r_411, sc_r_412, sc_r_413, sc_r_414, sc_r_415, sc_r_416, sc_r_417, sc_r_420, sc_r_421, sc_r_422, sc_r_423, sc_r_424]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 10)) (Y7 (ix2 0 10))

theorem x1E_11 (n : Fin 512) (mm : Fin 256) :
    (kernelRunV.sl.r_452 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 11 := by
  rw [x1_11_apply]
  simp only [t1E_0, t1E_1, t1E_2, t1E_3, t1E_4, t1E_5, t1E_6, t1E_7, t1E_8, t1E_9, t1E_10, t1E_11, t1E_12, t1E_13, t1E_14, t1E_15, sc_r_425, sc_r_426, sc_r_427, sc_r_428, sc_r_431, sc_r_432, sc_r_433, sc_r_434, sc_r_435, sc_r_436, sc_r_437, sc_r_438, sc_r_439, sc_r_440, sc_r_442, sc_r_443, sc_r_444]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 11)) (Y7 (ix2 0 11))

theorem x1E_12 (n : Fin 512) (mm : Fin 256) :
    (kernelRunV.sl.r_474 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 12 := by
  rw [x1_12_apply]
  simp only [t1E_0, t1E_1, t1E_2, t1E_3, t1E_4, t1E_5, t1E_6, t1E_7, t1E_8, t1E_9, t1E_10, t1E_11, t1E_12, t1E_13, t1E_14, t1E_15, sc_r_445, sc_r_446, sc_r_447, sc_r_448, sc_r_449, sc_r_450, sc_r_451, sc_r_454, sc_r_455, sc_r_456, sc_r_457, sc_r_458, sc_r_459, sc_r_460, sc_r_461, sc_r_462, sc_r_463]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 12)) (Y7 (ix2 0 12))

theorem x1E_13 (n : Fin 512) (mm : Fin 256) :
    (kernelRunV.sl.r_486 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 13 := by
  rw [x1_13_apply]
  simp only [t1E_0, t1E_1, t1E_2, t1E_3, t1E_4, t1E_5, t1E_6, t1E_7, t1E_8, t1E_9, t1E_10, t1E_11, t1E_12, t1E_13, t1E_14, t1E_15, sc_r_465, sc_r_466, sc_r_467, sc_r_468, sc_r_469, sc_r_470, sc_r_471, sc_r_472, sc_r_473, sc_r_477, sc_r_478, sc_r_479, sc_r_480, sc_r_481, sc_r_482, sc_r_483, sc_r_484]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 13)) (Y7 (ix2 0 13))

theorem x1E_14 (n : Fin 512) (mm : Fin 256) :
    (kernelRunV.sl.r_509 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 14 := by
  rw [x1_14_apply]
  simp only [t1E_0, t1E_1, t1E_2, t1E_3, t1E_4, t1E_5, t1E_6, t1E_7, t1E_8, t1E_9, t1E_10, t1E_11, t1E_12, t1E_13, t1E_14, t1E_15, sc_r_485, sc_r_488, sc_r_489, sc_r_490, sc_r_491, sc_r_492, sc_r_493, sc_r_494, sc_r_495, sc_r_496, sc_r_497, sc_r_499, sc_r_500, sc_r_501, sc_r_502, sc_r_503, sc_r_504]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 14)) (Y7 (ix2 0 14))

theorem x1E_15 (n : Fin 512) (mm : Fin 256) :
    (kernelRunV.sl.r_525 (F := Ideal) c M1 M3 M4 M6 M7 M9 M10 (h1.unread Y1) (h3.unread Y3) (h4.unread Y4) (h6.unread Y6) (h7.unread Y7) (h9.unread Y9) (h10.unread Y10)) (ix2 n mm) = Cert.Spec.x1A (fun n s => Y9 (ix2 n s)) (Wm Y10) (fun d f => Y3 (ix2 d f)) (fun f => Y6 (ix2 0 f)) (fun f g => Y4 (ix2 f g)) (fun g => Y7 (ix2 0 g)) (Y1 (ix2 0 0)) n ⟨mm.val, by have := mm.isLt; omega⟩ 15 := by
  rw [x1_15_apply]
  simp only [t1E_0, t1E_1, t1E_2, t1E_3, t1E_4, t1E_5, t1E_6, t1E_7, t1E_8, t1E_9, t1E_10, t1E_11, t1E_12, t1E_13, t1E_14, t1E_15, sc_r_505, sc_r_506, sc_r_507, sc_r_508, sc_r_511, sc_r_512, sc_r_513, sc_r_514, sc_r_515, sc_r_516, sc_r_517, sc_r_518, sc_r_519, sc_r_520, sc_r_522, sc_r_523, sc_r_524]
  exact chain16 (fun f => Cert.Spec.t1A (fun n s => Y9 (ix2 n s)) (Wm Y10) (fun d f => Y3 (ix2 d f)) (fun f => Y6 (ix2 0 f)) (Y1 (ix2 0 0)) n ⟨mm.val, by have := mm.isLt; omega⟩ f * Y4 (ix2 f 15)) (Y7 (ix2 0 15))

end Cert.KernelIdeal.Region
-- ==== Proof.RegionValueAsm3.lean ====
import proofs.«208141_g20598663152203_cont_8to1_341_30_alg».proof.Proof.RegionValueAsm2

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

theorem hs2E_0 (n : Fin 512) (mm : Fin 256) :
    (kernelRunV.sl.r_527 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 0 := by
  have e : (kernelRunV.sl.r_527 (F := Ideal) c M1 M2 M3 M4 M6 M7 M9 M10 (h1.unread Y1) (h2.unread Y2) (h3.unread Y3) (h4.unread Y4) (h6.unread Y6) (h7.unread Y7) (h9.unread Y9) (h10.unread Y10)) = k1_pay112 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_0, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_0]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 0

theorem hs2E_1 (n : Fin 512) (mm : Fin 256) :
    (kernelRunV.sl.r_528 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 1 := by
  have e : (kernelRunV.sl.r_528 (F := Ideal) c M1 M2 M3 M4 M6 M7 M9 M10 (h1.unread Y1) (h2.unread Y2) (h3.unread Y3) (h4.unread Y4) (h6.unread Y6) (h7.unread Y7) (h9.unread Y9) (h10.unread Y10)) = k1_pay113 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_1, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_1]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 1

theorem hs2E_2 (n : Fin 512) (mm : Fin 256) :
    (kernelRunV.sl.r_529 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 2 := by
  have e : (kernelRunV.sl.r_529 (F := Ideal) c M1 M2 M3 M4 M6 M7 M9 M10 (h1.unread Y1) (h2.unread Y2) (h3.unread Y3) (h4.unread Y4) (h6.unread Y6) (h7.unread Y7) (h9.unread Y9) (h10.unread Y10)) = k1_pay114 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_2, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_2]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 2

theorem hs2E_3 (n : Fin 512) (mm : Fin 256) :
    (kernelRunV.sl.r_530 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 3 := by
  have e : (kernelRunV.sl.r_530 (F := Ideal) c M1 M2 M3 M4 M6 M7 M9 M10 (h1.unread Y1) (h2.unread Y2) (h3.unread Y3) (h4.unread Y4) (h6.unread Y6) (h7.unread Y7) (h9.unread Y9) (h10.unread Y10)) = k1_pay115 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_3, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_3]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 3

theorem hs2E_4 (n : Fin 512) (mm : Fin 256) :
    (kernelRunV.sl.r_531 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 4 := by
  have e : (kernelRunV.sl.r_531 (F := Ideal) c M1 M2 M3 M4 M6 M7 M9 M10 (h1.unread Y1) (h2.unread Y2) (h3.unread Y3) (h4.unread Y4) (h6.unread Y6) (h7.unread Y7) (h9.unread Y9) (h10.unread Y10)) = k1_pay116 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_4, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_4]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 4

theorem hs2E_5 (n : Fin 512) (mm : Fin 256) :
    (kernelRunV.sl.r_532 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 5 := by
  have e : (kernelRunV.sl.r_532 (F := Ideal) c M1 M2 M3 M4 M6 M7 M9 M10 (h1.unread Y1) (h2.unread Y2) (h3.unread Y3) (h4.unread Y4) (h6.unread Y6) (h7.unread Y7) (h9.unread Y9) (h10.unread Y10)) = k1_pay117 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_5, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_5]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 5

theorem hs2E_6 (n : Fin 512) (mm : Fin 256) :
    (kernelRunV.sl.r_533 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 6 := by
  have e : (kernelRunV.sl.r_533 (F := Ideal) c M1 M2 M3 M4 M6 M7 M9 M10 (h1.unread Y1) (h2.unread Y2) (h3.unread Y3) (h4.unread Y4) (h6.unread Y6) (h7.unread Y7) (h9.unread Y9) (h10.unread Y10)) = k1_pay118 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_6, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_6]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 6

theorem hs2E_7 (n : Fin 512) (mm : Fin 256) :
    (kernelRunV.sl.r_534 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 7 := by
  have e : (kernelRunV.sl.r_534 (F := Ideal) c M1 M2 M3 M4 M6 M7 M9 M10 (h1.unread Y1) (h2.unread Y2) (h3.unread Y3) (h4.unread Y4) (h6.unread Y6) (h7.unread Y7) (h9.unread Y9) (h10.unread Y10)) = k1_pay119 (kernelRunV.sl.r_2 (F := Ideal) c M9 (h9.unread Y9)) (kernelRunV.sl.r_4 (F := Ideal) c M2 (h2.unread Y2)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, hs2_apply_7, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_7]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 7

theorem hs2E_8 (n : Fin 512) (mm : Fin 256) :
    (kernelRunV.sl.r_541 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 8 := by
  have e : (kernelRunV.sl.r_541 (F := Ideal) c M1 M2 M3 M4 M6 M7 M9 M10 (h1.unread Y1) (h2.unread Y2) (h3.unread Y3) (h4.unread Y4) (h6.unread Y6) (h7.unread Y7) (h9.unread Y9) (h10.unread Y10)) = k1_pay121 (kernelRunV.sl.r_4 (F := Ideal) c M2 (h2.unread Y2)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_535 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_535 (F := Ideal) c M1 M3 M4 M6 M7 M9 M10 (h1.unread Y1) (h3.unread Y3) (h4.unread Y4) (h6.unread Y6) (h7.unread Y7) (h9.unread Y9) (h10.unread Y10)) = k1_pay120 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_8, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_8]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 8

theorem hs2E_9 (n : Fin 512) (mm : Fin 256) :
    (kernelRunV.sl.r_542 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 9 := by
  have e : (kernelRunV.sl.r_542 (F := Ideal) c M1 M2 M3 M4 M6 M7 M9 M10 (h1.unread Y1) (h2.unread Y2) (h3.unread Y3) (h4.unread Y4) (h6.unread Y6) (h7.unread Y7) (h9.unread Y9) (h10.unread Y10)) = k1_pay122 (kernelRunV.sl.r_4 (F := Ideal) c M2 (h2.unread Y2)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_9, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_9]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 9

theorem hs2E_10 (n : Fin 512) (mm : Fin 256) :
    (kernelRunV.sl.r_543 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 10 := by
  have e : (kernelRunV.sl.r_543 (F := Ideal) c M1 M2 M3 M4 M6 M7 M9 M10 (h1.unread Y1) (h2.unread Y2) (h3.unread Y3) (h4.unread Y4) (h6.unread Y6) (h7.unread Y7) (h9.unread Y9) (h10.unread Y10)) = k1_pay123 (kernelRunV.sl.r_4 (F := Ideal) c M2 (h2.unread Y2)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_10, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_10]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 10

theorem hs2E_11 (n : Fin 512) (mm : Fin 256) :
    (kernelRunV.sl.r_544 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 11 := by
  have e : (kernelRunV.sl.r_544 (F := Ideal) c M1 M2 M3 M4 M6 M7 M9 M10 (h1.unread Y1) (h2.unread Y2) (h3.unread Y3) (h4.unread Y4) (h6.unread Y6) (h7.unread Y7) (h9.unread Y9) (h10.unread Y10)) = k1_pay124 (kernelRunV.sl.r_4 (F := Ideal) c M2 (h2.unread Y2)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_11, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_11]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 11

theorem hs2E_12 (n : Fin 512) (mm : Fin 256) :
    (kernelRunV.sl.r_545 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 12 := by
  have e : (kernelRunV.sl.r_545 (F := Ideal) c M1 M2 M3 M4 M6 M7 M9 M10 (h1.unread Y1) (h2.unread Y2) (h3.unread Y3) (h4.unread Y4) (h6.unread Y6) (h7.unread Y7) (h9.unread Y9) (h10.unread Y10)) = k1_pay125 (kernelRunV.sl.r_4 (F := Ideal) c M2 (h2.unread Y2)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_12, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_12]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 12

theorem hs2E_13 (n : Fin 512) (mm : Fin 256) :
    (kernelRunV.sl.r_546 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 13 := by
  have e : (kernelRunV.sl.r_546 (F := Ideal) c M1 M2 M3 M4 M6 M7 M9 M10 (h1.unread Y1) (h2.unread Y2) (h3.unread Y3) (h4.unread Y4) (h6.unread Y6) (h7.unread Y7) (h9.unread Y9) (h10.unread Y10)) = k1_pay126 (kernelRunV.sl.r_4 (F := Ideal) c M2 (h2.unread Y2)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_13, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_13]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 13

theorem hs2E_14 (n : Fin 512) (mm : Fin 256) :
    (kernelRunV.sl.r_547 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 14 := by
  have e : (kernelRunV.sl.r_547 (F := Ideal) c M1 M2 M3 M4 M6 M7 M9 M10 (h1.unread Y1) (h2.unread Y2) (h3.unread Y3) (h4.unread Y4) (h6.unread Y6) (h7.unread Y7) (h9.unread Y9) (h10.unread Y10)) = k1_pay127 (kernelRunV.sl.r_4 (F := Ideal) c M2 (h2.unread Y2)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  rw [e, show (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) from rfl, hs2_apply_14, e2_eq]

  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_14]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 14
set_option maxHeartbeats 2000000 in
theorem hs2E_15 (n : Fin 512) (mm : Fin 256) :
    (kernelRunV.sl.r_548 (F := Ideal) c M1 M2 M3 M4 M6 M7 M9 M10 (h1.unread Y1) (h2.unread Y2) (h3.unread Y3) (h4.unread Y4) (h6.unread Y6) (h7.unread Y7) (h9.unread Y9) (h10.unread Y10)) (ix2 n mm) = Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 15 := by
  have e : (kernelRunV.sl.r_548 (F := Ideal) c M1 M2 M3 M4 M6 M7 M9 M10 (h1.unread Y1) (h2.unread Y2) (h3.unread Y3) (h4.unread Y4) (h6.unread Y6) (h7.unread Y7) (h9.unread Y9) (h10.unread Y10)) = k1_pay128 (kernelRunV.sl.r_4 (F := Ideal) c M2 (h2.unread Y2)) (kernelRunV.sl.r_525 (F := Ideal) c M1 M3 M4 M6 M7 M9 M10 (h1.unread Y1) (h3.unread Y3) (h4.unread Y4) (h6.unread Y6) (h7.unread Y7) (h9.unread Y9) (h10.unread Y10)) (kernelRunV.sl.r_526 (F := Ideal) c M1 M3 M4 M6 M7 M9 M10 (h1.unread Y1) (h3.unread Y3) (h4.unread Y4) (h6.unread Y6) (h7.unread Y7) (h9.unread Y9) (h10.unread Y10)) := rfl
  have e526 : (kernelRunV.sl.r_526 (F := Ideal) c M1 M3 M4 M6 M7 M9 M10 (h1.unread Y1) (h3.unread Y3) (h4.unread Y4) (h6.unread Y6) (h7.unread Y7) (h9.unread Y9) (h10.unread Y10)) = k1_pay111 (kernelRunV.sl.r_2 (F := Ideal) c M9 (h9.unread Y9)) (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_223 (F := Ideal) c M1 M3 M4 M6 M7 M9 M10 (h1.unread Y1) (h3.unread Y3) (h4.unread Y4) (h6.unread Y6) (h7.unread Y7) (h9.unread Y9) (h10.unread Y10)) (kernelRunV.sl.r_246 (F := Ideal) c M1 M3 M4 M6 M7 M9 M10 (h1.unread Y1) (h3.unread Y3) (h4.unread Y4) (h6.unread Y6) (h7.unread Y7) (h9.unread Y9) (h10.unread Y10)) (kernelRunV.sl.r_269 (F := Ideal) c M1 M3 M4 M6 M7 M9 M10 (h1.unread Y1) (h3.unread Y3) (h4.unread Y4) (h6.unread Y6) (h7.unread Y7) (h9.unread Y9) (h10.unread Y10)) (kernelRunV.sl.r_291 (F := Ideal) c M1 M3 M4 M6 M7 M9 M10 (h1.unread Y1) (h3.unread Y3) (h4.unread Y4) (h6.unread Y6) (h7.unread Y7) (h9.unread Y9) (h10.unread Y10)) (kernelRunV.sl.r_304 (F := Ideal) c M1 M3 M4 M6 M7 M9 M10 (h1.unread Y1) (h3.unread Y3) (h4.unread Y4) (h6.unread Y6) (h7.unread Y7) (h9.unread Y9) (h10.unread Y10)) (kernelRunV.sl.r_325 (F := Ideal) c M1 M3 M4 M6 M7 M9 M10 (h1.unread Y1) (h3.unread Y3) (h4.unread Y4) (h6.unread Y6) (h7.unread Y7) (h9.unread Y9) (h10.unread Y10)) (kernelRunV.sl.r_347 (F := Ideal) c M1 M3 M4 M6 M7 M9 M10 (h1.unread Y1) (h3.unread Y3) (h4.unread Y4) (h6.unread Y6) (h7.unread Y7) (h9.unread Y9) (h10.unread Y10)) (kernelRunV.sl.r_371 (F := Ideal) c M1 M3 M4 M6 M7 M9 M10 (h1.unread Y1) (h3.unread Y3) (h4.unread Y4) (h6.unread Y6) (h7.unread Y7) (h9.unread Y9) (h10.unread Y10)) (kernelRunV.sl.r_394 (F := Ideal) c M1 M3 M4 M6 M7 M9 M10 (h1.unread Y1) (h3.unread Y3) (h4.unread Y4) (h6.unread Y6) (h7.unread Y7) (h9.unread Y9) (h10.unread Y10)) (kernelRunV.sl.r_405 (F := Ideal) c M1 M3 M4 M6 M7 M9 M10 (h1.unread Y1) (h3.unread Y3) (h4.unread Y4) (h6.unread Y6) (h7.unread Y7) (h9.unread Y9) (h10.unread Y10)) (kernelRunV.sl.r_429 (F := Ideal) c M1 M3 M4 M6 M7 M9 M10 (h1.unread Y1) (h3.unread Y3) (h4.unread Y4) (h6.unread Y6) (h7.unread Y7) (h9.unread Y9) (h10.unread Y10)) (kernelRunV.sl.r_452 (F := Ideal) c M1 M3 M4 M6 M7 M9 M10 (h1.unread Y1) (h3.unread Y3) (h4.unread Y4) (h6.unread Y6) (h7.unread Y7) (h9.unread Y9) (h10.unread Y10)) (kernelRunV.sl.r_474 (F := Ideal) c M1 M3 M4 M6 M7 M9 M10 (h1.unread Y1) (h3.unread Y3) (h4.unread Y4) (h6.unread Y6) (h7.unread Y7) (h9.unread Y9) (h10.unread Y10)) (kernelRunV.sl.r_486 (F := Ideal) c M1 M3 M4 M6 M7 M9 M10 (h1.unread Y1) (h3.unread Y3) (h4.unread Y4) (h6.unread Y6) (h7.unread Y7) (h9.unread Y9) (h10.unread Y10)) (kernelRunV.sl.r_509 (F := Ideal) c M1 M3 M4 M6 M7 M9 M10 (h1.unread Y1) (h3.unread Y3) (h4.unread Y4) (h6.unread Y6) (h7.unread Y7) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  have e525 : (kernelRunV.sl.r_525 (F := Ideal) c M1 M3 M4 M6 M7 M9 M10 (h1.unread Y1) (h3.unread Y3) (h4.unread Y4) (h6.unread Y6) (h7.unread Y7) (h9.unread Y9) (h10.unread Y10)) = k1_pay110 (kernelRunV.sl.r_188 (F := Ideal) c M1 M3 M6 M9 M10 (h1.unread Y1) (h3.unread Y3) (h6.unread Y6) (h9.unread Y9) (h10.unread Y10)) (kernelRunV.sl.r_200 (F := Ideal) c M1 M3 M6 M9 M10 (h1.unread Y1) (h3.unread Y3) (h6.unread Y6) (h9.unread Y9) (h10.unread Y10)) (kernelRunV.sl.r_212 (F := Ideal) c M1 M3 M6 M9 M10 (h1.unread Y1) (h3.unread Y3) (h6.unread Y6) (h9.unread Y9) (h10.unread Y10)) (kernelRunV.sl.r_521 (F := Ideal) c M1 M3 M4 M6 M9 M10 (h1.unread Y1) (h3.unread Y3) (h4.unread Y4) (h6.unread Y6) (h9.unread Y9) (h10.unread Y10)) (kernelRunV.sl.r_520 (F := Ideal) c M4 (h4.unread Y4)) (kernelRunV.sl.r_522 (F := Ideal) c M4 (h4.unread Y4)) (kernelRunV.sl.r_523 (F := Ideal) c M4 (h4.unread Y4)) (kernelRunV.sl.r_524 (F := Ideal) c M7 (h7.unread Y7)) := rfl
  rw [e, e526]
  conv_lhs => arg 2; rw [e525]
  rw [hs2_apply_15, e2_eq, ← e525]
  have hA : ∀ s, (kernelRunV.sl.r_2 (F := Ideal) c M9 (h9.unread Y9)) (ix2 n s) = Y9 (ix2 n s) := fun s => by
    rw [show (kernelRunV.sl.r_2 (F := Ideal) c M9 (h9.unread Y9)) = k1_pay1 (View.readAt (Elt Ideal) M9.view (Rect.unit (s := S512x512) ![0, 0] S512x512.size inb_S512x512_S512x512_0_0).toLoadRect (h9.unread Y9)) from rfl, k1_pay1_apply]
    exact whole2_read M9 h9 Y9 _ n s
  simp only [hA, x1E_15]
  exact Cert.Spec.h2A_comm (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ 15

end Cert.KernelIdeal.Region
-- ==== Proof.RegionValueAsm4.lean ====
import proofs.«208141_g20598663152203_cont_8to1_341_30_alg».proof.Proof.RegionValueAsm3

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

theorem t2E_0 (n : Fin 512) (mm : Fin 256) :
    (kernelRunV.sl.r_570 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 0 := by
  rw [t2_0_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_536, sc_r_537, sc_r_538, sc_r_539, sc_r_540, sc_r_550, sc_r_551, sc_r_552, sc_r_553, sc_r_554, sc_r_555, sc_r_556, sc_r_557, sc_r_558, sc_r_559, sc_r_561, sc_r_562]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 0)) (Y8 (ix2 0 0))

theorem t2E_1 (n : Fin 512) (mm : Fin 256) :
    (kernelRunV.sl.r_593 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 1 := by
  rw [t2_1_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_563, sc_r_564, sc_r_565, sc_r_566, sc_r_567, sc_r_568, sc_r_569, sc_r_573, sc_r_574, sc_r_575, sc_r_576, sc_r_577, sc_r_578, sc_r_579, sc_r_580, sc_r_581, sc_r_582]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 1)) (Y8 (ix2 0 1))

theorem t2E_2 (n : Fin 512) (mm : Fin 256) :
    (kernelRunV.sl.r_605 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 2 := by
  rw [t2_2_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_584, sc_r_585, sc_r_586, sc_r_587, sc_r_588, sc_r_589, sc_r_590, sc_r_591, sc_r_592, sc_r_595, sc_r_596, sc_r_597, sc_r_598, sc_r_599, sc_r_600, sc_r_601, sc_r_602]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 2)) (Y8 (ix2 0 2))

theorem t2E_3 (n : Fin 512) (mm : Fin 256) :
    (kernelRunV.sl.r_627 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 3 := by
  rw [t2_3_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_603, sc_r_604, sc_r_607, sc_r_608, sc_r_609, sc_r_610, sc_r_611, sc_r_612, sc_r_613, sc_r_614, sc_r_615, sc_r_616, sc_r_618, sc_r_619, sc_r_620, sc_r_621, sc_r_622]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 3)) (Y8 (ix2 0 3))

theorem t2E_4 (n : Fin 512) (mm : Fin 256) :
    (kernelRunV.sl.r_651 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 4 := by
  rw [t2_4_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_623, sc_r_624, sc_r_625, sc_r_626, sc_r_630, sc_r_631, sc_r_632, sc_r_633, sc_r_634, sc_r_635, sc_r_636, sc_r_637, sc_r_638, sc_r_639, sc_r_642, sc_r_643, sc_r_644]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 4)) (Y8 (ix2 0 4))

theorem t2E_5 (n : Fin 512) (mm : Fin 256) :
    (kernelRunV.sl.r_674 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 5 := by
  rw [t2_5_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_645, sc_r_646, sc_r_647, sc_r_648, sc_r_649, sc_r_650, sc_r_653, sc_r_654, sc_r_655, sc_r_656, sc_r_657, sc_r_658, sc_r_659, sc_r_660, sc_r_661, sc_r_662, sc_r_664]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 5)) (Y8 (ix2 0 5))

theorem t2E_6 (n : Fin 512) (mm : Fin 256) :
    (kernelRunV.sl.r_685 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 6 := by
  rw [t2_6_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_665, sc_r_666, sc_r_667, sc_r_668, sc_r_669, sc_r_670, sc_r_671, sc_r_672, sc_r_673, sc_r_676, sc_r_677, sc_r_678, sc_r_679, sc_r_680, sc_r_681, sc_r_682, sc_r_683]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 6)) (Y8 (ix2 0 6))

theorem t2E_7 (n : Fin 512) (mm : Fin 256) :
    (kernelRunV.sl.r_708 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 7 := by
  rw [t2_7_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_684, sc_r_687, sc_r_688, sc_r_689, sc_r_690, sc_r_691, sc_r_692, sc_r_693, sc_r_694, sc_r_695, sc_r_696, sc_r_699, sc_r_700, sc_r_701, sc_r_702, sc_r_703, sc_r_704]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 7)) (Y8 (ix2 0 7))

theorem t2E_8 (n : Fin 512) (mm : Fin 256) :
    (kernelRunV.sl.r_731 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 8 := by
  rw [t2_8_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_705, sc_r_706, sc_r_707, sc_r_710, sc_r_711, sc_r_712, sc_r_713, sc_r_714, sc_r_715, sc_r_716, sc_r_717, sc_r_718, sc_r_719, sc_r_721, sc_r_722, sc_r_723, sc_r_724]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 8)) (Y8 (ix2 0 8))

theorem t2E_9 (n : Fin 512) (mm : Fin 256) :
    (kernelRunV.sl.r_753 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 9 := by
  rw [t2_9_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_725, sc_r_726, sc_r_727, sc_r_728, sc_r_729, sc_r_730, sc_r_733, sc_r_734, sc_r_735, sc_r_736, sc_r_737, sc_r_738, sc_r_739, sc_r_740, sc_r_741, sc_r_742, sc_r_744]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 9)) (Y8 (ix2 0 9))

theorem t2E_10 (n : Fin 512) (mm : Fin 256) :
    (kernelRunV.sl.r_766 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 10 := by
  rw [t2_10_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_745, sc_r_746, sc_r_747, sc_r_748, sc_r_749, sc_r_750, sc_r_751, sc_r_752, sc_r_756, sc_r_757, sc_r_758, sc_r_759, sc_r_760, sc_r_761, sc_r_762, sc_r_763, sc_r_764]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 10)) (Y8 (ix2 0 10))

theorem t2E_11 (n : Fin 512) (mm : Fin 256) :
    (kernelRunV.sl.r_787 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 11 := by
  rw [t2_11_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_765, sc_r_767, sc_r_768, sc_r_769, sc_r_770, sc_r_771, sc_r_772, sc_r_773, sc_r_774, sc_r_775, sc_r_777, sc_r_778, sc_r_779, sc_r_780, sc_r_781, sc_r_782, sc_r_783]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 11)) (Y8 (ix2 0 11))

theorem t2E_12 (n : Fin 512) (mm : Fin 256) :
    (kernelRunV.sl.r_809 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 12 := by
  rw [t2_12_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_784, sc_r_785, sc_r_786, sc_r_789, sc_r_790, sc_r_791, sc_r_792, sc_r_793, sc_r_794, sc_r_795, sc_r_796, sc_r_797, sc_r_798, sc_r_800, sc_r_801, sc_r_802, sc_r_803]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 12)) (Y8 (ix2 0 12))

theorem t2E_13 (n : Fin 512) (mm : Fin 256) :
    (kernelRunV.sl.r_833 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 13 := by
  rw [t2_13_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_804, sc_r_805, sc_r_806, sc_r_807, sc_r_808, sc_r_812, sc_r_813, sc_r_814, sc_r_815, sc_r_816, sc_r_817, sc_r_818, sc_r_819, sc_r_820, sc_r_821, sc_r_824, sc_r_825]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 13)) (Y8 (ix2 0 13))

theorem t2E_14 (n : Fin 512) (mm : Fin 256) :
    (kernelRunV.sl.r_856 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 14 := by
  rw [t2_14_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_826, sc_r_827, sc_r_828, sc_r_829, sc_r_830, sc_r_831, sc_r_832, sc_r_835, sc_r_836, sc_r_837, sc_r_838, sc_r_839, sc_r_840, sc_r_841, sc_r_842, sc_r_843, sc_r_844]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 14)) (Y8 (ix2 0 14))

theorem t2E_15 (n : Fin 512) (mm : Fin 256) :
    (kernelRunV.sl.r_865 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ 15 := by
  rw [t2_15_apply]
  simp only [hs2E_0, hs2E_1, hs2E_2, hs2E_3, hs2E_4, hs2E_5, hs2E_6, hs2E_7, hs2E_8, hs2E_9, hs2E_10, hs2E_11, hs2E_12, hs2E_13, hs2E_14, hs2E_15, sc_r_846, sc_r_847, sc_r_848, sc_r_849, sc_r_850, sc_r_851, sc_r_852, sc_r_853, sc_r_854, sc_r_855, sc_r_858, sc_r_859, sc_r_860, sc_r_861, sc_r_862, sc_r_863, sc_r_864]
  exact chain16 (fun g => Cert.Spec.h2A (fun n s => Y9 (ix2 n s)) (Wm Y10) (fun d f => Y3 (ix2 d f)) (fun f => Y6 (ix2 0 f)) (fun f g => Y4 (ix2 f g)) (fun g => Y7 (ix2 0 g)) (Y1 (ix2 0 0)) (Y2 (ix2 0 0)) n ⟨mm.val, by have := mm.isLt; omega⟩ g * Y5 (ix2 g 15)) (Y8 (ix2 0 15))

end Cert.KernelIdeal.Region
-- ==== Proof.RegionValueStageTop.lean ====
/-
  The last stage of the region's per-point sum at an index (n, o): each of the sixteen hidden channels' values is
  summed over the block's 256 columns (a lane reduction, kept as a column), the column is broadcast along the
  output axis, the weight row along the node axis, and the sixteen products are added one after the other onto
  zero.  At (n, o) that is  ∑ f, (∑ mm, T_f n mm) * w f o.
-/
import proofs.«208141_g20598663152203_cont_8to1_341_30_alg».proof.Proof.RegionValueStep
import proofs.«208141_g20598663152203_cont_8to1_341_30_alg».proof.Proof.RegionValueChains
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Region

open Cert.KernelIdeal Cert.KernelIdeal.Gen Idealize.ShloMosaic Idealize.ShloMosaic.ValueIdx

/-- A row sum kept as a column: the body of each of the sixteen row-sum payloads. -/
def rowsumP (T : FVec Ideal S512x256 .f32) : FVec Ideal S512x1 .f32 :=
  shapeCast S512x1 (multiReduction .add [1] S512 T 0x00000000#32 reduces_S512x256_S512 (.inl rfl) rfl) shapeCasts_S512_S512x1

/-- The row sum at row `n`. -/
theorem rowsumP_apply (T : FVec Ideal S512x256 .f32) (n : Fin 512) :
    rowsumP T (ix2 n (0 : Fin 1)) = ∑ mm : Fin 256, T (ix2 n mm) := by
  unfold rowsumP
  rw [shapeCast_apply _ shapeCasts_S512_S512x1 (ix2 n (0 : Fin 1)) (ix1 n)
    (by rw [Shape.rowMajor_val_one, Shape.rowMajor_val_two]; show n.val = n.val * 1 + 0; omega)]
  refine (Ideal.multiReduction_add_single T 0x00000000#32 reduces_S512x256_S512 (.inl rfl) rfl (ix1 n)).trans ?_
  refine Finset.sum_congr rfl fun k _ => congrArg T (funext fun a => Fin.ext ?_)
  match a with
  | ⟨0, _⟩ => rfl
  | ⟨1, _⟩ => rfl

theorem rowsum_181 (T : FVec Ideal S512x256 .f32) (n : Fin 512) :
    k1_pay181 (F := Ideal) T (ix2 n (0 : Fin 1)) = ∑ mm : Fin 256, T (ix2 n mm) := rowsumP_apply T n
theorem rowsum_182 (T : FVec Ideal S512x256 .f32) (n : Fin 512) :
    k1_pay182 (F := Ideal) T (ix2 n (0 : Fin 1)) = ∑ mm : Fin 256, T (ix2 n mm) := rowsumP_apply T n
theorem rowsum_183 (T : FVec Ideal S512x256 .f32) (n : Fin 512) :
    k1_pay183 (F := Ideal) T (ix2 n (0 : Fin 1)) = ∑ mm : Fin 256, T (ix2 n mm) := rowsumP_apply T n
theorem rowsum_184 (T : FVec Ideal S512x256 .f32) (n : Fin 512) :
    k1_pay184 (F := Ideal) T (ix2 n (0 : Fin 1)) = ∑ mm : Fin 256, T (ix2 n mm) := rowsumP_apply T n
theorem rowsum_185 (T : FVec Ideal S512x256 .f32) (n : Fin 512) :
    k1_pay185 (F := Ideal) T (ix2 n (0 : Fin 1)) = ∑ mm : Fin 256, T (ix2 n mm) := rowsumP_apply T n
theorem rowsum_186 (T : FVec Ideal S512x256 .f32) (n : Fin 512) :
    k1_pay186 (F := Ideal) T (ix2 n (0 : Fin 1)) = ∑ mm : Fin 256, T (ix2 n mm) := rowsumP_apply T n
theorem rowsum_187 (T : FVec Ideal S512x256 .f32) (n : Fin 512) :
    k1_pay187 (F := Ideal) T (ix2 n (0 : Fin 1)) = ∑ mm : Fin 256, T (ix2 n mm) := rowsumP_apply T n
theorem rowsum_188 (T : FVec Ideal S512x256 .f32) (n : Fin 512) :
    k1_pay188 (F := Ideal) T (ix2 n (0 : Fin 1)) = ∑ mm : Fin 256, T (ix2 n mm) := rowsumP_apply T n
theorem rowsum_189 (T : FVec Ideal S512x256 .f32) (n : Fin 512) :
    k1_pay189 (F := Ideal) T (ix2 n (0 : Fin 1)) = ∑ mm : Fin 256, T (ix2 n mm) := rowsumP_apply T n
theorem rowsum_190 (T : FVec Ideal S512x256 .f32) (n : Fin 512) :
    k1_pay190 (F := Ideal) T (ix2 n (0 : Fin 1)) = ∑ mm : Fin 256, T (ix2 n mm) := rowsumP_apply T n
theorem rowsum_191 (T : FVec Ideal S512x256 .f32) (n : Fin 512) :
    k1_pay191 (F := Ideal) T (ix2 n (0 : Fin 1)) = ∑ mm : Fin 256, T (ix2 n mm) := rowsumP_apply T n
theorem rowsum_192 (T : FVec Ideal S512x256 .f32) (n : Fin 512) :
    k1_pay192 (F := Ideal) T (ix2 n (0 : Fin 1)) = ∑ mm : Fin 256, T (ix2 n mm) := rowsumP_apply T n
theorem rowsum_193 (T : FVec Ideal S512x256 .f32) (n : Fin 512) :
    k1_pay193 (F := Ideal) T (ix2 n (0 : Fin 1)) = ∑ mm : Fin 256, T (ix2 n mm) := rowsumP_apply T n
theorem rowsum_194 (T : FVec Ideal S512x256 .f32) (n : Fin 512) :
    k1_pay194 (F := Ideal) T (ix2 n (0 : Fin 1)) = ∑ mm : Fin 256, T (ix2 n mm) := rowsumP_apply T n
theorem rowsum_195 (T : FVec Ideal S512x256 .f32) (n : Fin 512) :
    k1_pay195 (F := Ideal) T (ix2 n (0 : Fin 1)) = ∑ mm : Fin 256, T (ix2 n mm) := rowsumP_apply T n
theorem rowsum_196 (T : FVec Ideal S512x256 .f32) (n : Fin 512) :
    k1_pay196 (F := Ideal) T (ix2 n (0 : Fin 1)) = ∑ mm : Fin 256, T (ix2 n mm) := rowsumP_apply T n

/-- A column broadcast along the output axis, at `(n, o)`. -/
theorem bcastCol_apply (v : FVec Ideal S512x1 .f32) (n : Fin 512) (o : Fin 16) :
    broadcastTo S512x16 v broadcasts_S512x1_S512x16 (ix2 n o) = v (ix2 n (0 : Fin 1)) :=
  have h0 : ¬ S512x1.size 0 = 1 := by decide
  broadcastTo_apply v broadcasts_S512x1_S512x16 (ix2 n o) (ix2 n (0 : Fin 1)) (fun a => by
    match a with
    | ⟨0, _⟩ => exact (if_neg h0).symm
    | ⟨1, _⟩ => exact (if_pos rfl).symm)

/-- A row broadcast along the node axis, at `(n, o)`. -/
theorem bcastRow_apply (w : FVec Ideal S1x16 .f32) (n : Fin 512) (o : Fin 16) :
    broadcastTo S512x16 w broadcasts_S1x16_S512x16 (ix2 n o) = w (ix2 (0 : Fin 1) o) :=
  have h1 : ¬ S1x16.size 1 = 1 := by decide
  broadcastTo_apply w broadcasts_S1x16_S512x16 (ix2 n o) (ix2 (0 : Fin 1) o) (fun a => by
    match a with
    | ⟨0, _⟩ => exact (if_pos rfl).symm
    | ⟨1, _⟩ => exact (if_neg h1).symm)

/-- THE LAST LAYER'S CHAIN at `(n, o)`: sixteen products of a row sum and a weight, added one after the other. -/
theorem pe_chain (rs : Fin 16 → FVec Ideal S512x1 .f32) (w : Fin 16 → Vec Ideal S1x16 .f32) (n : Fin 512) (o : Fin 16) :
    pe201 (F := Ideal) (rs 12) (rs 13) (rs 14) (rs 15)
        (k1_pay198 (F := Ideal) (rs 3) (rs 4) (rs 5) (rs 6) (rs 7) (rs 8) (rs 9) (rs 10)
          (k1_pay197 (F := Ideal) (rs 0) (rs 1) (rs 2) (w 0) (w 1) (w 2)) (w 3) (w 4) (w 5) (w 6) (w 7) (w 8) (w 9) (w 10))
        (k1_pay199 (F := Ideal) (rs 11) (w 11)) (w 12) (w 13) (w 14) (w 15) (ix2 n o)
      = ∑ f : Fin 16, rs f (ix2 n (0 : Fin 1)) * w f (ix2 (0 : Fin 1) o) := by
  unfold pe201 k1_pay198 k1_pay197 k1_pay199
  simp only [addf_apply, mulf_apply, broadcast_apply, bcastCol_apply, bcastRow_apply]
  exact chain16' (fun f => rs f (ix2 n (0 : Fin 1)) * w f (ix2 (0 : Fin 1) o))

end Cert.KernelIdeal.Region

end
-- ==== Proof.RegionValueAsm5.lean ====
import proofs.«208141_g20598663152203_cont_8to1_341_30_alg».proof.Proof.RegionValueAsm4
import proofs.«208141_g20598663152203_cont_8to1_341_30_alg».proof.Proof.RegionValueStageTop
import proofs.«208141_g20598663152203_cont_8to1_341_30_alg».proof.Proof.RegionValueStep

noncomputable section

namespace Cert.KernelIdeal.Region

open Cert.KernelIdeal Cert.KernelIdeal.Gen
open Idealize.ShloMosaic Idealize.ShloMosaic.ValueIdx
open scoped BigOperators

variable (c : Dev nD) (M1 : Memref sig .tc .smem S1x1 .f32) (M2 : Memref sig .tc .smem S1x1 .f32) (M3 : Memref sig .tc .smem S8x16 .f32) (M4 : Memref sig .tc .smem S16x16 .f32) (M5 : Memref sig .tc .smem S16x16 .f32) (M6 : Memref sig .tc .smem S1x16 .f32) (M7 : Memref sig .tc .smem S1x16 .f32) (M8 : Memref sig .tc .smem S1x16 .f32) (M9 : Memref sig .tc .vmem S512x512 .f32) (M10 : Memref sig .tc .vmem S8x512x256 .bf16) (M11 : Memref sig .tc .vmem S16x16 .f32) (M12 : Memref sig .tc .vmem S1x16 .f32) (M13 : Memref sig .tc .vmem S512x16 .f32)
  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole)
  (Y1 : S1x1.Idx → Ideal .f32) (Y2 : S1x1.Idx → Ideal .f32) (Y3 : S8x16.Idx → Ideal .f32) (Y4 : S16x16.Idx → Ideal .f32) (Y5 : S16x16.Idx → Ideal .f32) (Y6 : S1x16.Idx → Ideal .f32) (Y7 : S1x16.Idx → Ideal .f32) (Y8 : S1x16.Idx → Ideal .f32) (Y9 : S512x512.Idx → Ideal .f32) (Y10 : S8x512x256.Idx → Ideal .bf16) (Y11 : S16x16.Idx → Ideal .f32) (Y12 : S1x16.Idx → Ideal .f32) (Y13 : S512x16.Idx → Ideal .f32)

/-- The second perceptron's hidden layer, feature by feature, as one family. -/
def T2fam : Fin 16 → FVec Ideal S512x256 .f32 := ![(kernelRunV.sl.r_570 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_593 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_605 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_627 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_651 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_674 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_685 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_708 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_731 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_753 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_766 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_787 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_809 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_833 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_856 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)), (kernelRunV.sl.r_865 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10))]

theorem T2fam_apply (f : Fin 16) (n : Fin 512) (mm : Fin 256) :
    T2fam c M1 M2 M3 M4 M5 M6 M7 M8 M9 M10 h1 h2 h3 h4 h5 h6 h7 h8 h9 h10 Y1 Y2 Y3 Y4 Y5 Y6 Y7 Y8 Y9 Y10 f (ix2 n mm) = Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ f := by
  fin_cases f
  · exact t2E_0 c M1 M2 M3 M4 M5 M6 M7 M8 M9 M10 h1 h2 h3 h4 h5 h6 h7 h8 h9 h10 Y1 Y2 Y3 Y4 Y5 Y6 Y7 Y8 Y9 Y10 n mm
  · exact t2E_1 c M1 M2 M3 M4 M5 M6 M7 M8 M9 M10 h1 h2 h3 h4 h5 h6 h7 h8 h9 h10 Y1 Y2 Y3 Y4 Y5 Y6 Y7 Y8 Y9 Y10 n mm
  · exact t2E_2 c M1 M2 M3 M4 M5 M6 M7 M8 M9 M10 h1 h2 h3 h4 h5 h6 h7 h8 h9 h10 Y1 Y2 Y3 Y4 Y5 Y6 Y7 Y8 Y9 Y10 n mm
  · exact t2E_3 c M1 M2 M3 M4 M5 M6 M7 M8 M9 M10 h1 h2 h3 h4 h5 h6 h7 h8 h9 h10 Y1 Y2 Y3 Y4 Y5 Y6 Y7 Y8 Y9 Y10 n mm
  · exact t2E_4 c M1 M2 M3 M4 M5 M6 M7 M8 M9 M10 h1 h2 h3 h4 h5 h6 h7 h8 h9 h10 Y1 Y2 Y3 Y4 Y5 Y6 Y7 Y8 Y9 Y10 n mm
  · exact t2E_5 c M1 M2 M3 M4 M5 M6 M7 M8 M9 M10 h1 h2 h3 h4 h5 h6 h7 h8 h9 h10 Y1 Y2 Y3 Y4 Y5 Y6 Y7 Y8 Y9 Y10 n mm
  · exact t2E_6 c M1 M2 M3 M4 M5 M6 M7 M8 M9 M10 h1 h2 h3 h4 h5 h6 h7 h8 h9 h10 Y1 Y2 Y3 Y4 Y5 Y6 Y7 Y8 Y9 Y10 n mm
  · exact t2E_7 c M1 M2 M3 M4 M5 M6 M7 M8 M9 M10 h1 h2 h3 h4 h5 h6 h7 h8 h9 h10 Y1 Y2 Y3 Y4 Y5 Y6 Y7 Y8 Y9 Y10 n mm
  · exact t2E_8 c M1 M2 M3 M4 M5 M6 M7 M8 M9 M10 h1 h2 h3 h4 h5 h6 h7 h8 h9 h10 Y1 Y2 Y3 Y4 Y5 Y6 Y7 Y8 Y9 Y10 n mm
  · exact t2E_9 c M1 M2 M3 M4 M5 M6 M7 M8 M9 M10 h1 h2 h3 h4 h5 h6 h7 h8 h9 h10 Y1 Y2 Y3 Y4 Y5 Y6 Y7 Y8 Y9 Y10 n mm
  · exact t2E_10 c M1 M2 M3 M4 M5 M6 M7 M8 M9 M10 h1 h2 h3 h4 h5 h6 h7 h8 h9 h10 Y1 Y2 Y3 Y4 Y5 Y6 Y7 Y8 Y9 Y10 n mm
  · exact t2E_11 c M1 M2 M3 M4 M5 M6 M7 M8 M9 M10 h1 h2 h3 h4 h5 h6 h7 h8 h9 h10 Y1 Y2 Y3 Y4 Y5 Y6 Y7 Y8 Y9 Y10 n mm
  · exact t2E_12 c M1 M2 M3 M4 M5 M6 M7 M8 M9 M10 h1 h2 h3 h4 h5 h6 h7 h8 h9 h10 Y1 Y2 Y3 Y4 Y5 Y6 Y7 Y8 Y9 Y10 n mm
  · exact t2E_13 c M1 M2 M3 M4 M5 M6 M7 M8 M9 M10 h1 h2 h3 h4 h5 h6 h7 h8 h9 h10 Y1 Y2 Y3 Y4 Y5 Y6 Y7 Y8 Y9 Y10 n mm
  · exact t2E_14 c M1 M2 M3 M4 M5 M6 M7 M8 M9 M10 h1 h2 h3 h4 h5 h6 h7 h8 h9 h10 Y1 Y2 Y3 Y4 Y5 Y6 Y7 Y8 Y9 Y10 n mm
  · exact t2E_15 c M1 M2 M3 M4 M5 M6 M7 M8 M9 M10 h1 h2 h3 h4 h5 h6 h7 h8 h9 h10 Y1 Y2 Y3 Y4 Y5 Y6 Y7 Y8 Y9 Y10 n mm

theorem inbRow (f : Fin 16) : ∀ k, (![f.val, 0] : Fin 2 → Nat) k + S1x16.size k ≤ S16x16.size k := by
  intro k
  have := f.isLt
  match k with
  | ⟨0, _⟩ => show f.val + 1 ≤ 16; omega
  | ⟨1, _⟩ => show 0 + 16 ≤ 16; omega

/-- Row `f` of the last weight matrix, as the body loads it. -/
def Wrow (f : Fin 16) : Vec Ideal S1x16 .f32 :=
  View.readAt (Elt Ideal) M11.view (Rect.unit (s := S16x16) ![f.val, 0] S1x16.size (inbRow f)).toLoadRect (h11.unread Y11)

theorem Wrow_apply (f : Fin 16) (o : Fin 16) : Wrow M11 h11 Y11 f (ix2 (0 : Fin 1) o) = Y11 (ix2 f o) := by
  unfold Wrow
  exact row_read M11 h11 Y11 f.val f.isLt _ o

/-- THE POINT'S SUM at (n, o): the row sums of the second hidden layer against the last weights. -/
theorem peE (n : Fin 512) (o : Fin 16) :
    pe201 (F := Ideal) (kernelRunV.sl.r_878 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_879 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_880 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_881 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_883 (F := Ideal) c M1 M2 M3 M4 M5 M6 M7 M8 M9 M10 M11 (h1.unread Y1) (h2.unread Y2) (h3.unread Y3) (h4.unread Y4) (h5.unread Y5) (h6.unread Y6) (h7.unread Y7) (h8.unread Y8) (h9.unread Y9) (h10.unread Y10) (h11.unread Y11)) (kernelRunV.sl.r_884 (F := Ideal) c M1 M2 M3 M4 M5 M6 M7 M8 M9 M10 M11 (h1.unread Y1) (h2.unread Y2) (h3.unread Y3) (h4.unread Y4) (h5.unread Y5) (h6.unread Y6) (h7.unread Y7) (h8.unread Y8) (h9.unread Y9) (h10.unread Y10) (h11.unread Y11)) (View.readAt (Elt Ideal) M11.view (Rect.unit (s := S16x16) ![12, 0] S1x16.size inb_S16x16_S1x16_12_0).toLoadRect (h11.unread Y11)) (View.readAt (Elt Ideal) M11.view (Rect.unit (s := S16x16) ![13, 0] S1x16.size inb_S16x16_S1x16_13_0).toLoadRect (h11.unread Y11)) (View.readAt (Elt Ideal) M11.view (Rect.unit (s := S16x16) ![14, 0] S1x16.size inb_S16x16_S1x16_14_0).toLoadRect (h11.unread Y11)) (View.readAt (Elt Ideal) M11.view (Rect.unit (s := S16x16) ![15, 0] S1x16.size inb_S16x16_S1x16_15_0).toLoadRect (h11.unread Y11)) (ix2 n o)
      = ∑ f : Fin 16, (∑ mm : Fin 256, Cert.Spec.t2A (fun n s => Y9 (ix2 n s)) (Wm Y10) (fun d f => Y3 (ix2 d f)) (fun f => Y6 (ix2 0 f)) (fun f g => Y4 (ix2 f g)) (fun g => Y7 (ix2 0 g)) (Y1 (ix2 0 0)) (fun g f => Y5 (ix2 g f)) (fun f => Y8 (ix2 0 f)) (Y2 (ix2 0 0)) n ⟨mm.val, by have := mm.isLt; omega⟩ f) * Y11 (ix2 f o) := by
  have e : pe201 (F := Ideal) (kernelRunV.sl.r_878 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_879 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_880 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_881 (F := Ideal) c M1 M2 M3 M4 M5 M6 M7 M8 M9 M10 (h1.unread Y1) (h2.unread Y2) (h3.unread Y3) (h4.unread Y4) (h5.unread Y5) (h6.unread Y6) (h7.unread Y7) (h8.unread Y8) (h9.unread Y9) (h10.unread Y10)) (kernelRunV.sl.r_883 (F := Ideal) c M1 M2 M3 M4 M5 M6 M7 M8 M9 M10 M11 (h1.unread Y1) (h2.unread Y2) (h3.unread Y3) (h4.unread Y4) (h5.unread Y5) (h6.unread Y6) (h7.unread Y7) (h8.unread Y8) (h9.unread Y9) (h10.unread Y10) (h11.unread Y11)) (kernelRunV.sl.r_884 (F := Ideal) c M1 M2 M3 M4 M5 M6 M7 M8 M9 M10 M11 (h1.unread Y1) (h2.unread Y2) (h3.unread Y3) (h4.unread Y4) (h5.unread Y5) (h6.unread Y6) (h7.unread Y7) (h8.unread Y8) (h9.unread Y9) (h10.unread Y10) (h11.unread Y11)) (View.readAt (Elt Ideal) M11.view (Rect.unit (s := S16x16) ![12, 0] S1x16.size inb_S16x16_S1x16_12_0).toLoadRect (h11.unread Y11)) (View.readAt (Elt Ideal) M11.view (Rect.unit (s := S16x16) ![13, 0] S1x16.size inb_S16x16_S1x16_13_0).toLoadRect (h11.unread Y11)) (View.readAt (Elt Ideal) M11.view (Rect.unit (s := S16x16) ![14, 0] S1x16.size inb_S16x16_S1x16_14_0).toLoadRect (h11.unread Y11)) (View.readAt (Elt Ideal) M11.view (Rect.unit (s := S16x16) ![15, 0] S1x16.size inb_S16x16_S1x16_15_0).toLoadRect (h11.unread Y11))
      = pe201 (F := Ideal) (rowsumP (T2fam c M1 M2 M3 M4 M5 M6 M7 M8 M9 M10 h1 h2 h3 h4 h5 h6 h7 h8 h9 h10 Y1 Y2 Y3 Y4 Y5 Y6 Y7 Y8 Y9 Y10 12)) (rowsumP (T2fam c M1 M2 M3 M4 M5 M6 M7 M8 M9 M10 h1 h2 h3 h4 h5 h6 h7 h8 h9 h10 Y1 Y2 Y3 Y4 Y5 Y6 Y7 Y8 Y9 Y10 13)) (rowsumP (T2fam c M1 M2 M3 M4 M5 M6 M7 M8 M9 M10 h1 h2 h3 h4 h5 h6 h7 h8 h9 h10 Y1 Y2 Y3 Y4 Y5 Y6 Y7 Y8 Y9 Y10 14)) (rowsumP (T2fam c M1 M2 M3 M4 M5 M6 M7 M8 M9 M10 h1 h2 h3 h4 h5 h6 h7 h8 h9 h10 Y1 Y2 Y3 Y4 Y5 Y6 Y7 Y8 Y9 Y10 15))
      (k1_pay198 (F := Ideal) (rowsumP (T2fam c M1 M2 M3 M4 M5 M6 M7 M8 M9 M10 h1 h2 h3 h4 h5 h6 h7 h8 h9 h10 Y1 Y2 Y3 Y4 Y5 Y6 Y7 Y8 Y9 Y10 3)) (rowsumP (T2fam c M1 M2 M3 M4 M5 M6 M7 M8 M9 M10 h1 h2 h3 h4 h5 h6 h7 h8 h9 h10 Y1 Y2 Y3 Y4 Y5 Y6 Y7 Y8 Y9 Y10 4)) (rowsumP (T2fam c M1 M2 M3 M4 M5 M6 M7 M8 M9 M10 h1 h2 h3 h4 h5 h6 h7 h8 h9 h10 Y1 Y2 Y3 Y4 Y5 Y6 Y7 Y8 Y9 Y10 5)) (rowsumP (T2fam c M1 M2 M3 M4 M5 M6 M7 M8 M9 M10 h1 h2 h3 h4 h5 h6 h7 h8 h9 h10 Y1 Y2 Y3 Y4 Y5 Y6 Y7 Y8 Y9 Y10 6)) (rowsumP (T2fam c M1 M2 M3 M4 M5 M6 M7 M8 M9 M10 h1 h2 h3 h4 h5 h6 h7 h8 h9 h10 Y1 Y2 Y3 Y4 Y5 Y6 Y7 Y8 Y9 Y10 7)) (rowsumP (T2fam c M1 M2 M3 M4 M5 M6 M7 M8 M9 M10 h1 h2 h3 h4 h5 h6 h7 h8 h9 h10 Y1 Y2 Y3 Y4 Y5 Y6 Y7 Y8 Y9 Y10 8)) (rowsumP (T2fam c M1 M2 M3 M4 M5 M6 M7 M8 M9 M10 h1 h2 h3 h4 h5 h6 h7 h8 h9 h10 Y1 Y2 Y3 Y4 Y5 Y6 Y7 Y8 Y9 Y10 9)) (rowsumP (T2fam c M1 M2 M3 M4 M5 M6 M7 M8 M9 M10 h1 h2 h3 h4 h5 h6 h7 h8 h9 h10 Y1 Y2 Y3 Y4 Y5 Y6 Y7 Y8 Y9 Y10 10)) (k1_pay197 (F := Ideal) (rowsumP (T2fam c M1 M2 M3 M4 M5 M6 M7 M8 M9 M10 h1 h2 h3 h4 h5 h6 h7 h8 h9 h10 Y1 Y2 Y3 Y4 Y5 Y6 Y7 Y8 Y9 Y10 0)) (rowsumP (T2fam c M1 M2 M3 M4 M5 M6 M7 M8 M9 M10 h1 h2 h3 h4 h5 h6 h7 h8 h9 h10 Y1 Y2 Y3 Y4 Y5 Y6 Y7 Y8 Y9 Y10 1)) (rowsumP (T2fam c M1 M2 M3 M4 M5 M6 M7 M8 M9 M10 h1 h2 h3 h4 h5 h6 h7 h8 h9 h10 Y1 Y2 Y3 Y4 Y5 Y6 Y7 Y8 Y9 Y10 2)) (Wrow M11 h11 Y11 0) (Wrow M11 h11 Y11 1) (Wrow M11 h11 Y11 2)) (Wrow M11 h11 Y11 3) (Wrow M11 h11 Y11 4) (Wrow M11 h11 Y11 5) (Wrow M11 h11 Y11 6) (Wrow M11 h11 Y11 7) (Wrow M11 h11 Y11 8) (Wrow M11 h11 Y11 9) (Wrow M11 h11 Y11 10))
      (k1_pay199 (F := Ideal) (rowsumP (T2fam c M1 M2 M3 M4 M5 M6 M7 M8 M9 M10 h1 h2 h3 h4 h5 h6 h7 h8 h9 h10 Y1 Y2 Y3 Y4 Y5 Y6 Y7 Y8 Y9 Y10 11)) (Wrow M11 h11 Y11 11)) (Wrow M11 h11 Y11 12) (Wrow M11 h11 Y11 13) (Wrow M11 h11 Y11 14) (Wrow M11 h11 Y11 15) := rfl
  rw [e]
  refine (pe_chain (fun f => rowsumP (T2fam c M1 M2 M3 M4 M5 M6 M7 M8 M9 M10 h1 h2 h3 h4 h5 h6 h7 h8 h9 h10 Y1 Y2 Y3 Y4 Y5 Y6 Y7 Y8 Y9 Y10 f)) (fun f => Wrow M11 h11 Y11 f) n o).trans ?_
  refine Finset.sum_congr rfl fun f _ => ?_
  show rowsumP (T2fam c M1 M2 M3 M4 M5 M6 M7 M8 M9 M10 h1 h2 h3 h4 h5 h6 h7 h8 h9 h10 Y1 Y2 Y3 Y4 Y5 Y6 Y7 Y8 Y9 Y10 f) (ix2 n (0 : Fin 1)) * Wrow M11 h11 Y11 f (ix2 (0 : Fin 1) o) = _
  rw [rowsumP_apply, Wrow_apply]
  simp only [T2fam_apply]

end Cert.KernelIdeal.Region
-- ==== Proof.RegionValueAsm6.lean ====
import proofs.«208141_g20598663152203_cont_8to1_341_30_alg».proof.Proof.RegionValueAsm5
import proofs.«208141_g20598663152203_cont_8to1_341_30_alg».proof.Proof.RegionValue

noncomputable section

namespace Cert.KernelIdeal.Region

open Cert.KernelIdeal Cert.KernelIdeal.Gen
open Idealize.ShloMosaic Idealize.ShloMosaic.ValueIdx
open scoped BigOperators

/-- THE POINT'S SUM IN CLOSED FORM: at grid point `t`, from the operands' staging contents `Yin`, the body adds to the
    result's block at (n, o) the sum over the hidden features f of (the sum over the block's 256 channels of the second
    hidden layer) times the last weight — the layers those of the specification over the count matrix `Yin 8` and the
    channel block `Yin 9`. -/
theorem peX_closed (c : Dev nD) (t : Fin cfg1.N) (Yin : (w : Fin cfg1.W) → Blk Ideal w) (n : Fin 512) (o : Fin 16) :
    peX (F := Ideal) c t Yin (ix2 n o)
      = ∑ f : Fin 16, (∑ mm : Fin 256, Cert.Spec.t2A (fun n s => Yin 8 (ix2 n s)) (Wm (Yin 9)) (fun d f => Yin 2 (ix2 d f)) (fun f => Yin 5 (ix2 0 f))
          (fun f g => Yin 3 (ix2 f g)) (fun g => Yin 6 (ix2 0 g)) (Yin 0 (ix2 0 0)) (fun g f => Yin 4 (ix2 g f)) (fun f => Yin 7 (ix2 0 f)) (Yin 1 (ix2 0 0))
          n ⟨mm.val, by have := mm.isLt; omega⟩ f) * Yin 10 (ix2 f o) :=
  peE c (st1_0 t) (st1_1 t) (st1_2 t) (st1_3 t) (st1_4 t) (st1_5 t) (st1_6 t) (st1_7 t) (st1_8 t) (st1_9 t) (st1_10 t) (hs1_0 t) (hs1_1 t) (hs1_2 t) (hs1_3 t) (hs1_4 t) (hs1_5 t) (hs1_6 t) (hs1_7 t) (hs1_8 t) (hs1_9 t) (hs1_10 t) (Yin 0) (Yin 1) (Yin 2) (Yin 3) (Yin 4) (Yin 5) (Yin 6) (Yin 7) (Yin 8) (Yin 9) (Yin 10) n o

end Cert.KernelIdeal.Region
-- ==== Proof.lean ====
/-
  The claim's five conjuncts.

  The kernel builds the dense adjacency COUNT matrix A (A n s = the number of edges s → n) on the SparseCore — each of
  the thirty-two tiles adds one, edge by edge, into its own sixteen rows — and computes both GIN layers on the
  TensorCore as (1 + ε) X + A X followed by the two small dense layers and a rectifier, summing the last layer's
  rows over the 512 eigen-channels block by block; the reference gathers X at the sources, scatter-adds at the
  destinations and sums the last layer. Over the extended reals the two aggregations agree because the counts are
  non-negative (a sum of non-negative terms distributes over any factor), and the blocked row sums regroup the
  reference's for the same reason (the rectified values are non-negative).

  Frames: each kernel program runs to the end on all thirty-five threads of the device — the launch handshakes, every
  tile's two loops and three copies, the region's pipeline — with nothing faulting (an edge's index is in range because
  its source is at most 511 and its row offset below 16) and the arguments unchanged; the reference's frame is its run.
  The idealization rewrote nothing, so `preserves` is trivial.
-/
import proofs.«208141_g20598663152203_cont_8to1_341_30_alg».proof.Defs
import proofs.«208141_g20598663152203_cont_8to1_341_30_alg».proof.Proof.Gen.Kernel
import proofs.«208141_g20598663152203_cont_8to1_341_30_alg».proof.Proof.Gen.KernelIdeal
import proofs.«208141_g20598663152203_cont_8to1_341_30_alg».proof.Proof.Gen.ReferenceIdeal
import proofs.«208141_g20598663152203_cont_8to1_341_30_alg».proof.Proof.Gen.ReferenceIdeal.Run
import proofs.«208141_g20598663152203_cont_8to1_341_30_alg».proof.Proof.Gen.ReferenceIdeal.Read
import proofs.«208141_g20598663152203_cont_8to1_341_30_alg».proof.Proof.Gen.Pre_input_domain
import proofs.«208141_g20598663152203_cont_8to1_341_30_alg».proof.Proof.Frames
import proofs.«208141_g20598663152203_cont_8to1_341_30_alg».proof.Proof.RefRun
import proofs.«208141_g20598663152203_cont_8to1_341_30_alg».proof.Proof.ValueJoinC
import proofs.«208141_g20598663152203_cont_8to1_341_30_alg».proof.Proof.IdealTileValue
import proofs.«208141_g20598663152203_cont_8to1_341_30_alg».proof.Proof.ValueJoinD
import proofs.«208141_g20598663152203_cont_8to1_341_30_alg».proof.Proof.RegionValueAsm6
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  Cert.Proof.frame_k, Cert.Proof.frame_ki, Cert.ReferenceIdeal.RefRun.frame_ri, trivial,
  -- the two idealized programs end with equal results: from the region's closed form over its operands and each tile's value
  Cert.Proof.algebraic_of (Cert.Proof.regionClosed_of Cert.KernelIdeal.Region.peX_closed) (fun m hpre => Cert.Proof.KI.tileValue m hpre)⟩

end Cert.Proof

end
